-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v872) = v0 c
          ∧ r.2.mem ((c.tc : Thread Cert.ReferenceIdeal.nD Cert.ReferenceIdeal.τ).loc Cert.ReferenceIdeal.main_v873) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131071x256 : Shape := ⟨2, ![131071, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S_ : Shape := ⟨0, ![]⟩

class Facts : Prop where
  bcast_S_S131071x256 : S_.BroadcastsInDim S131071x256 (![] : Fin 0 → Fin S131071x256.rank)
  reducesTo_S131071x256_S_d0_1 : S131071x256.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256x256 .f32) (main_arg8 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S768 .f32) (main_arg5 : FVec F S256x256 .f32) (main_arg6 : FVec F S256 .f32) (main_arg7 : FVec F S256x256 .f32) (main_arg8 : FVec F S256 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S131071x256 .f32) (main_arg1 : FVec F S768x256 .f32) (main_arg2 : FVec F S768 .f32) (main_arg3 : FVec F S768x256 .f32) (main_arg4 : FVec F S768 .f32) (main_arg5 : FVec F S256x256 .f32) (main_arg6 : FVec F S256 .f32) (main_arg7 : FVec F S256x256 .f32) (main_arg8 : FVec F S256 .f32) : IVec S_ 1 :=
  let main_v0 : FVec F S131071x256 .f32 := Host.absf main_arg0
  let main_cst : FVec F S_ .f32 := constant S_ .f32 0x7F800000#32
  let main_v1 : FVec F S131071x256 .f32 := broadcastInDim S131071x256 ![] bcast_S_S131071x256 main_cst
  let main_v2 : IVec S131071x256 1 := cmpf .olt main_v0 main_v1
  let main_c : IVec S_ 1 := constantI S_ 1 1#1
  let main_v3 : IVec S_ 1 := (fun x v => Host.reduce IntOp.andi x v reducesTo_S131071x256_S_d0_1 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x256 .f32 := Host.absf main_arg3
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg4 main_arg5 main_arg6 main_arg7 main_arg8 main_v13 main_v16
-- ==== Kernel.lean ====
abbrev S131071x256 : Shape := ⟨2, ![131071, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S65535x256 : Shape := ⟨2, ![65535, 256]⟩
abbrev S_ : Shape := ⟨0, ![]⟩
abbrev S65536x256 : Shape := ⟨2, ![65536, 256]⟩
abbrev S1024x256 : Shape := ⟨2, ![1024, 256]⟩
abbrev S1024 : Shape := ⟨1, ![1024]⟩
abbrev S256x1024 : Shape := ⟨2, ![256, 1024]⟩
abbrev S1x1024 : Shape := ⟨2, ![1, 1024]⟩
abbrev S65536x768 : Shape := ⟨2, ![65536, 768]⟩
abbrev S65535x768 : Shape := ⟨2, ![65535, 768]⟩
abbrev S1x768 : Shape := ⟨2, ![1, 768]⟩
abbrev S256x768 : Shape := ⟨2, ![256, 768]⟩
abbrev S1 : Shape := ⟨1, ![1]⟩
abbrev S1x256 : Shape := ⟨2, ![1, 256]⟩
abbrev S32768x768 : Shape := ⟨2, ![32768, 768]⟩
abbrev S32768x256 : Shape := ⟨2, ![32768, 256]⟩
abbrev S32768x2x256 : Shape := ⟨3, ![32768, 2, 256]⟩
abbrev S16384x768 : Shape := ⟨2, ![16384, 768]⟩
abbrev S16384x256 : Shape := ⟨2, ![16384, 256]⟩
abbrev S16384x2x256 : Shape := ⟨3, ![16384, 2, 256]⟩
abbrev S8192x768 : Shape := ⟨2, ![8192, 768]⟩
abbrev S8192x256 : Shape := ⟨2, ![8192, 256]⟩
abbrev S8192x2x256 : Shape := ⟨3, ![8192, 2, 256]⟩
abbrev S4096x768 : Shape := ⟨2, ![4096, 768]⟩
abbrev S4096x256 : Shape := ⟨2, ![4096, 256]⟩
abbrev S4096x2x256 : Shape := ⟨3, ![4096, 2, 256]⟩
abbrev S2048x768 : Shape := ⟨2, ![2048, 768]⟩
abbrev S2048x256 : Shape := ⟨2, ![2048, 256]⟩
abbrev S2048x2x256 : Shape := ⟨3, ![2048, 2, 256]⟩
abbrev S1024x768 : Shape := ⟨2, ![1024, 768]⟩
abbrev S1024x2x256 : Shape := ⟨3, ![1024, 2, 256]⟩
abbrev S512x768 : Shape := ⟨2, ![512, 768]⟩
abbrev S512x256 : Shape := ⟨2, ![512, 256]⟩
abbrev S512x2x256 : Shape := ⟨3, ![512, 2, 256]⟩
abbrev S512x1x256 : Shape := ⟨3, ![512, 1, 256]⟩
abbrev S256x2x256 : Shape := ⟨3, ![256, 2, 256]⟩
abbrev S256x1x256 : Shape := ⟨3, ![256, 1, 256]⟩
abbrev S128x768 : Shape := ⟨2, ![128, 768]⟩
abbrev S128x256 : Shape := ⟨2, ![128, 256]⟩
abbrev S128x2x256 : Shape := ⟨3, ![128, 2, 256]⟩
abbrev S128x1x256 : Shape := ⟨3, ![128, 1, 256]⟩
abbrev S64x768 : Shape := ⟨2, ![64, 768]⟩
abbrev S64x256 : Shape := ⟨2, ![64, 256]⟩
abbrev S64x2x256 : Shape := ⟨3, ![64, 2, 256]⟩
abbrev S64x1x256 : Shape := ⟨3, ![64, 1, 256]⟩
abbrev S32x768 : Shape := ⟨2, ![32, 768]⟩
abbrev S32x256 : Shape := ⟨2, ![32, 256]⟩
abbrev S32x2x256 : Shape := ⟨3, ![32, 2, 256]⟩
abbrev S32x1x256 : Shape := ⟨3, ![32, 1, 256]⟩
abbrev S16x768 : Shape := ⟨2, ![16, 768]⟩
abbrev S16x256 : Shape := ⟨2, ![16, 256]⟩
abbrev S16x2x256 : Shape := ⟨3, ![16, 2, 256]⟩
abbrev S16x1x256 : Shape := ⟨3, ![16, 1, 256]⟩
abbrev S8x768 : Shape := ⟨2, ![8, 768]⟩
abbrev S8x256 : Shape := ⟨2, ![8, 256]⟩
abbrev S8x2x256 : Shape := ⟨3, ![8, 2, 256]⟩
abbrev S8x1x256 : Shape := ⟨3, ![8, 1, 256]⟩
abbrev S4x768 : Shape := ⟨2, ![4, 768]⟩
abbrev S4x256 : Shape := ⟨2, ![4, 256]⟩
abbrev S4x2x256 : Shape := ⟨3, ![4, 2, 256]⟩
abbrev S4x1x256 : Shape := ⟨3, ![4, 1, 256]⟩
abbrev S2x768 : Shape := ⟨2, ![2, 768]⟩
abbrev S2x256 : Shape := ⟨2, ![2, 256]⟩
abbrev S2x2x256 : Shape := ⟨3, ![2, 2, 256]⟩
abbrev S2x1x256 : Shape := ⟨3, ![2, 1, 256]⟩
abbrev S1x2x256 : Shape := ⟨3, ![1, 2, 256]⟩
abbrev S1x1x256 : Shape := ⟨3, ![1, 1, 256]⟩
abbrev S1024x1024 : Shape := ⟨2, ![1024, 1024]⟩
abbrev S1024x1x256 : Shape := ⟨3, ![1024, 1, 256]⟩

abbrev nBuf : Space → Nat
  | .hbm => 914
  | .vmem => 106
  | .smem => 0
  | _ => 0

abbrev hbmTy0_0 (i : Nat) : BufTy := match i % 128 with
  | 0 => ⟨S131071x256, .f32⟩
  | 1 => ⟨S768x256, .f32⟩
  | 2 => ⟨S768, .f32⟩
  | 3 => ⟨S768x256, .f32⟩
  | 4 => ⟨S768, .f32⟩
  | 5 => ⟨S256x256, .f32⟩
  | 6 => ⟨S256, .f32⟩
  | 7 => ⟨S256x256, .f32⟩
  | 8 => ⟨S256, .f32⟩
  | 9 => ⟨S65535x256, .f32⟩
  | 10 => ⟨S_, .i32⟩
  | 11 => ⟨S_, .f32⟩
  | 12 => ⟨S65536x256, .f32⟩
  | 13 => ⟨S1024x256, .f32⟩
  | 14 => ⟨S1024, .f32⟩
  | 15 => ⟨S256x1024, .f32⟩
  | 16 => ⟨S1x1024, .f32⟩
  | 17 => ⟨S65536x768, .f32⟩
  | 18 => ⟨S65536x256, .f32⟩
  | 19 => ⟨S65535x768, .f32⟩
  | 20 => ⟨S65535x256, .f32⟩
  | 21 => ⟨S65536x256, .f32⟩
  | 22 => ⟨S768, .f32⟩
  | 23 => ⟨S1x768, .f32⟩
  | 24 => ⟨S256x768, .f32⟩
  | 25 => ⟨S65536x256, .f32⟩
  | 26 => ⟨S65536x256, .f32⟩
  | 27 => ⟨S_, .f32⟩
  | 28 => ⟨S131071x256, .f32⟩
  | 29 => ⟨S_, .f32⟩
  | 30 => ⟨S131071x256, .f32⟩
  | 31 => ⟨S_, .i32⟩
  | 32 => ⟨S1, .i32⟩
  | 33 => ⟨S131071x256, .f32⟩
  | 34 => ⟨S_, .i32⟩
  | 35 => ⟨S1, .i32⟩
  | 36 => ⟨S131071x256, .f32⟩
  | 37 => ⟨S256x768, .f32⟩
  | 38 => ⟨S256x256, .f32⟩
  | 39 => ⟨S1x768, .f32⟩
  | 40 => ⟨S1x256, .f32⟩
  | 41 => ⟨S32768x768, .f32⟩
  | 42 => ⟨S32768x256, .f32⟩
  | 43 => ⟨S65536x256, .f32⟩
  | 44 => ⟨S32768x2x256, .f32⟩
  | 45 => ⟨S65536x256, .f32⟩
  | 46 => ⟨S32768x2x256, .f32⟩
  | 47 => ⟨S32768x256, .f32⟩
  | 48 => ⟨S32768x256, .f32⟩
  | 49 => ⟨S_, .i32⟩
  | 50 => ⟨S1, .i32⟩
  | 51 => ⟨S131071x256, .f32⟩
  | 52 => ⟨S_, .i32⟩
  | 53 => ⟨S1, .i32⟩
  | 54 => ⟨S131071x256, .f32⟩
  | 55 => ⟨S16384x768, .f32⟩
  | 56 => ⟨S16384x256, .f32⟩
  | 57 => ⟨S32768x256, .f32⟩
  | 58 => ⟨S16384x2x256, .f32⟩
  | 59 => ⟨S32768x256, .f32⟩
  | 60 => ⟨S16384x2x256, .f32⟩
  | 61 => ⟨S16384x256, .f32⟩
  | 62 => ⟨S16384x256, .f32⟩
  | 63 => ⟨S_, .i32⟩
  | 64 => ⟨S1, .i32⟩
  | 65 => ⟨S131071x256, .f32⟩
  | 66 => ⟨S_, .i32⟩
  | 67 => ⟨S1, .i32⟩
  | 68 => ⟨S131071x256, .f32⟩
  | 69 => ⟨S8192x768, .f32⟩
  | 70 => ⟨S8192x256, .f32⟩
  | 71 => ⟨S16384x256, .f32⟩
  | 72 => ⟨S8192x2x256, .f32⟩
  | 73 => ⟨S16384x256, .f32⟩
  | 74 => ⟨S8192x2x256, .f32⟩
  | 75 => ⟨S8192x256, .f32⟩
  | 76 => ⟨S8192x256, .f32⟩
  | 77 => ⟨S_, .i32⟩
  | 78 => ⟨S1, .i32⟩
  | 79 => ⟨S131071x256, .f32⟩
  | 80 => ⟨S_, .i32⟩
  | 81 => ⟨S1, .i32⟩
  | 82 => ⟨S131071x256, .f32⟩
  | 83 => ⟨S4096x768, .f32⟩
  | 84 => ⟨S4096x256, .f32⟩
  | 85 => ⟨S8192x256, .f32⟩
  | 86 => ⟨S4096x2x256, .f32⟩
  | 87 => ⟨S8192x256, .f32⟩
  | 88 => ⟨S4096x2x256, .f32⟩
  | 89 => ⟨S4096x256, .f32⟩
  | 90 => ⟨S4096x256, .f32⟩
  | 91 => ⟨S_, .i32⟩
  | 92 => ⟨S1, .i32⟩
  | 93 => ⟨S131071x256, .f32⟩
  | 94 => ⟨S_, .i32⟩
  | 95 => ⟨S1, .i32⟩
  | 96 => ⟨S131071x256, .f32⟩
  | 97 => ⟨S2048x768, .f32⟩
  | 98 => ⟨S2048x256, .f32⟩
  | 99 => ⟨S4096x256, .f32⟩
  | 100 => ⟨S2048x2x256, .f32⟩
  | 101 => ⟨S4096x256, .f32⟩
  | 102 => ⟨S2048x2x256, .f32⟩
  | 103 => ⟨S2048x256, .f32⟩
  | 104 => ⟨S2048x256, .f32⟩
  | 105 => ⟨S_, .i32⟩
  | 106 => ⟨S1, .i32⟩
  | 107 => ⟨S131071x256, .f32⟩
  | 108 => ⟨S_, .i32⟩
  | 109 => ⟨S1, .i32⟩
  | 110 => ⟨S131071x256, .f32⟩
  | 111 => ⟨S1024x768, .f32⟩
  | 112 => ⟨S1024x256, .f32⟩
  | 113 => ⟨S2048x256, .f32⟩
  | 114 => ⟨S1024x2x256, .f32⟩
  | 115 => ⟨S2048x256, .f32⟩
  | 116 => ⟨S1024x2x256, .f32⟩
  | 117 => ⟨S1024x256, .f32⟩
  | 118 => ⟨S1024x256, .f32⟩
  | 119 => ⟨S_, .i32⟩
  | 120 => ⟨S1, .i32⟩
  | 121 => ⟨S131071x256, .f32⟩
  | 122 => ⟨S_, .i32⟩
  | 123 => ⟨S1, .i32⟩
  | 124 => ⟨S131071x256, .f32⟩
  | 125 => ⟨S512x768, .f32⟩
  | 126 => ⟨S512x256, .f32⟩
  | 127 => ⟨S1024x256, .f32⟩
  | _ => ⟨S131071x256, .f32⟩

abbrev hbmTy0_1 (i : Nat) : BufTy := match i % 128 with
  | 0 => ⟨S512x2x256, .f32⟩
  | 1 => ⟨S1024x256, .f32⟩
  | 2 => ⟨S512x2x256, .f32⟩
  | 3 => ⟨S512x1x256, .f32⟩
  | 4 => ⟨S512x256, .f32⟩
  | 5 => ⟨S512x1x256, .f32⟩
  | 6 => ⟨S512x256, .f32⟩
  | 7 => ⟨S512x1x256, .f32⟩
  | 8 => ⟨S512x256, .f32⟩
  | 9 => ⟨S512x1x256, .f32⟩
  | 10 => ⟨S512x256, .f32⟩
  | 11 => ⟨S512x256, .f32⟩
  | 12 => ⟨S512x768, .f32⟩
  | 13 => ⟨S512x768, .f32⟩
  | 14 => ⟨S1x768, .f32⟩
  | 15 => ⟨S512x768, .f32⟩
  | 16 => ⟨S512x768, .f32⟩
  | 17 => ⟨S512x256, .f32⟩
  | 18 => ⟨S512x256, .f32⟩
  | 19 => ⟨S512x256, .f32⟩
  | 20 => ⟨S512x256, .f32⟩
  | 21 => ⟨S1x256, .f32⟩
  | 22 => ⟨S512x256, .f32⟩
  | 23 => ⟨S512x256, .f32⟩
  | 24 => ⟨S512x256, .f32⟩
  | 25 => ⟨S512x256, .f32⟩
  | 26 => ⟨S1x256, .f32⟩
  | 27 => ⟨S512x256, .f32⟩
  | 28 => ⟨S512x256, .f32⟩
  | 29 => ⟨S512x256, .f32⟩
  | 30 => ⟨S512x256, .f32⟩
  | 31 => ⟨S512x256, .f32⟩
  | 32 => ⟨S_, .f32⟩
  | 33 => ⟨S512x256, .f32⟩
  | 34 => ⟨S512x256, .f32⟩
  | 35 => ⟨S_, .f32⟩
  | 36 => ⟨S512x256, .f32⟩
  | 37 => ⟨S512x256, .f32⟩
  | 38 => ⟨S512x256, .f32⟩
  | 39 => ⟨S512x256, .f32⟩
  | 40 => ⟨S_, .f32⟩
  | 41 => ⟨S512x256, .f32⟩
  | 42 => ⟨S512x256, .f32⟩
  | 43 => ⟨S_, .f32⟩
  | 44 => ⟨S512x256, .f32⟩
  | 45 => ⟨S512x256, .f32⟩
  | 46 => ⟨S512x256, .f32⟩
  | 47 => ⟨S512x256, .f32⟩
  | 48 => ⟨S512x256, .f32⟩
  | 49 => ⟨S512x256, .f32⟩
  | 50 => ⟨S512x256, .f32⟩
  | 51 => ⟨S_, .f32⟩
  | 52 => ⟨S512x256, .f32⟩
  | 53 => ⟨S512x256, .f32⟩
  | 54 => ⟨S_, .f32⟩
  | 55 => ⟨S512x256, .f32⟩
  | 56 => ⟨S512x256, .f32⟩
  | 57 => ⟨S512x256, .f32⟩
  | 58 => ⟨S512x256, .f32⟩
  | 59 => ⟨S512x256, .f32⟩
  | 60 => ⟨S512x256, .f32⟩
  | 61 => ⟨S512x256, .f32⟩
  | 62 => ⟨S_, .f32⟩
  | 63 => ⟨S512x256, .f32⟩
  | 64 => ⟨S512x256, .f32⟩
  | 65 => ⟨S_, .f32⟩
  | 66 => ⟨S512x256, .f32⟩
  | 67 => ⟨S512x256, .f32⟩
  | 68 => ⟨S512x256, .f32⟩
  | 69 => ⟨S512x256, .f32⟩
  | 70 => ⟨S_, .i32⟩
  | 71 => ⟨S1, .i32⟩
  | 72 => ⟨S131071x256, .f32⟩
  | 73 => ⟨S_, .i32⟩
  | 74 => ⟨S1, .i32⟩
  | 75 => ⟨S131071x256, .f32⟩
  | 76 => ⟨S256x768, .f32⟩
  | 77 => ⟨S256x256, .f32⟩
  | 78 => ⟨S512x256, .f32⟩
  | 79 => ⟨S256x2x256, .f32⟩
  | 80 => ⟨S512x256, .f32⟩
  | 81 => ⟨S256x2x256, .f32⟩
  | 82 => ⟨S256x1x256, .f32⟩
  | 83 => ⟨S256x256, .f32⟩
  | 84 => ⟨S256x1x256, .f32⟩
  | 85 => ⟨S256x256, .f32⟩
  | 86 => ⟨S256x1x256, .f32⟩
  | 87 => ⟨S256x256, .f32⟩
  | 88 => ⟨S256x1x256, .f32⟩
  | 89 => ⟨S256x256, .f32⟩
  | 90 => ⟨S256x256, .f32⟩
  | 91 => ⟨S256x768, .f32⟩
  | 92 => ⟨S256x768, .f32⟩
  | 93 => ⟨S1x768, .f32⟩
  | 94 => ⟨S256x768, .f32⟩
  | 95 => ⟨S256x768, .f32⟩
  | 96 => ⟨S256x256, .f32⟩
  | 97 => ⟨S256x256, .f32⟩
  | 98 => ⟨S256x256, .f32⟩
  | 99 => ⟨S256x256, .f32⟩
  | 100 => ⟨S1x256, .f32⟩
  | 101 => ⟨S256x256, .f32⟩
  | 102 => ⟨S256x256, .f32⟩
  | 103 => ⟨S256x256, .f32⟩
  | 104 => ⟨S256x256, .f32⟩
  | 105 => ⟨S1x256, .f32⟩
  | 106 => ⟨S256x256, .f32⟩
  | 107 => ⟨S256x256, .f32⟩
  | 108 => ⟨S256x256, .f32⟩
  | 109 => ⟨S256x256, .f32⟩
  | 110 => ⟨S256x256, .f32⟩
  | 111 => ⟨S_, .f32⟩
  | 112 => ⟨S256x256, .f32⟩
  | 113 => ⟨S256x256, .f32⟩
  | 114 => ⟨S_, .f32⟩
  | 115 => ⟨S256x256, .f32⟩
  | 116 => ⟨S256x256, .f32⟩
  | 117 => ⟨S256x256, .f32⟩
  | 118 => ⟨S256x256, .f32⟩
  | 119 => ⟨S_, .f32⟩
  | 120 => ⟨S256x256, .f32⟩
  | 121 => ⟨S256x256, .f32⟩
  | 122 => ⟨S_, .f32⟩
  | 123 => ⟨S256x256, .f32⟩
  | 124 => ⟨S256x256, .f32⟩
  | 125 => ⟨S256x256, .f32⟩
  | 126 => ⟨S256x256, .f32⟩
  | 127 => ⟨S256x256, .f32⟩
  | _ => ⟨S131071x256, .f32⟩

abbrev hbmTy0_2 (i : Nat) : BufTy := match i % 128 with
  | 0 => ⟨S256x256, .f32⟩
  | 1 => ⟨S256x256, .f32⟩
  | 2 => ⟨S_, .f32⟩
  | 3 => ⟨S256x256, .f32⟩
  | 4 => ⟨S256x256, .f32⟩
  | 5 => ⟨S_, .f32⟩
  | 6 => ⟨S256x256, .f32⟩
  | 7 => ⟨S256x256, .f32⟩
  | 8 => ⟨S256x256, .f32⟩
  | 9 => ⟨S256x256, .f32⟩
  | 10 => ⟨S256x256, .f32⟩
  | 11 => ⟨S256x256, .f32⟩
  | 12 => ⟨S256x256, .f32⟩
  | 13 => ⟨S_, .f32⟩
  | 14 => ⟨S256x256, .f32⟩
  | 15 => ⟨S256x256, .f32⟩
  | 16 => ⟨S_, .f32⟩
  | 17 => ⟨S256x256, .f32⟩
  | 18 => ⟨S256x256, .f32⟩
  | 19 => ⟨S256x256, .f32⟩
  | 20 => ⟨S256x256, .f32⟩
  | 21 => ⟨S_, .i32⟩
  | 22 => ⟨S1, .i32⟩
  | 23 => ⟨S131071x256, .f32⟩
  | 24 => ⟨S_, .i32⟩
  | 25 => ⟨S1, .i32⟩
  | 26 => ⟨S131071x256, .f32⟩
  | 27 => ⟨S128x768, .f32⟩
  | 28 => ⟨S128x256, .f32⟩
  | 29 => ⟨S256x256, .f32⟩
  | 30 => ⟨S128x2x256, .f32⟩
  | 31 => ⟨S256x256, .f32⟩
  | 32 => ⟨S128x2x256, .f32⟩
  | 33 => ⟨S128x1x256, .f32⟩
  | 34 => ⟨S128x256, .f32⟩
  | 35 => ⟨S128x1x256, .f32⟩
  | 36 => ⟨S128x256, .f32⟩
  | 37 => ⟨S128x1x256, .f32⟩
  | 38 => ⟨S128x256, .f32⟩
  | 39 => ⟨S128x1x256, .f32⟩
  | 40 => ⟨S128x256, .f32⟩
  | 41 => ⟨S128x256, .f32⟩
  | 42 => ⟨S128x768, .f32⟩
  | 43 => ⟨S128x768, .f32⟩
  | 44 => ⟨S1x768, .f32⟩
  | 45 => ⟨S128x768, .f32⟩
  | 46 => ⟨S128x768, .f32⟩
  | 47 => ⟨S128x256, .f32⟩
  | 48 => ⟨S128x256, .f32⟩
  | 49 => ⟨S128x256, .f32⟩
  | 50 => ⟨S128x256, .f32⟩
  | 51 => ⟨S1x256, .f32⟩
  | 52 => ⟨S128x256, .f32⟩
  | 53 => ⟨S128x256, .f32⟩
  | 54 => ⟨S128x256, .f32⟩
  | 55 => ⟨S128x256, .f32⟩
  | 56 => ⟨S1x256, .f32⟩
  | 57 => ⟨S128x256, .f32⟩
  | 58 => ⟨S128x256, .f32⟩
  | 59 => ⟨S128x256, .f32⟩
  | 60 => ⟨S128x256, .f32⟩
  | 61 => ⟨S128x256, .f32⟩
  | 62 => ⟨S_, .f32⟩
  | 63 => ⟨S128x256, .f32⟩
  | 64 => ⟨S128x256, .f32⟩
  | 65 => ⟨S_, .f32⟩
  | 66 => ⟨S128x256, .f32⟩
  | 67 => ⟨S128x256, .f32⟩
  | 68 => ⟨S128x256, .f32⟩
  | 69 => ⟨S128x256, .f32⟩
  | 70 => ⟨S_, .f32⟩
  | 71 => ⟨S128x256, .f32⟩
  | 72 => ⟨S128x256, .f32⟩
  | 73 => ⟨S_, .f32⟩
  | 74 => ⟨S128x256, .f32⟩
  | 75 => ⟨S128x256, .f32⟩
  | 76 => ⟨S128x256, .f32⟩
  | 77 => ⟨S128x256, .f32⟩
  | 78 => ⟨S128x256, .f32⟩
  | 79 => ⟨S128x256, .f32⟩
  | 80 => ⟨S128x256, .f32⟩
  | 81 => ⟨S_, .f32⟩
  | 82 => ⟨S128x256, .f32⟩
  | 83 => ⟨S128x256, .f32⟩
  | 84 => ⟨S_, .f32⟩
  | 85 => ⟨S128x256, .f32⟩
  | 86 => ⟨S128x256, .f32⟩
  | 87 => ⟨S128x256, .f32⟩
  | 88 => ⟨S128x256, .f32⟩
  | 89 => ⟨S128x256, .f32⟩
  | 90 => ⟨S128x256, .f32⟩
  | 91 => ⟨S128x256, .f32⟩
  | 92 => ⟨S_, .f32⟩
  | 93 => ⟨S128x256, .f32⟩
  | 94 => ⟨S128x256, .f32⟩
  | 95 => ⟨S_, .f32⟩
  | 96 => ⟨S128x256, .f32⟩
  | 97 => ⟨S128x256, .f32⟩
  | 98 => ⟨S128x256, .f32⟩
  | 99 => ⟨S128x256, .f32⟩
  | 100 => ⟨S_, .i32⟩
  | 101 => ⟨S1, .i32⟩
  | 102 => ⟨S131071x256, .f32⟩
  | 103 => ⟨S_, .i32⟩
  | 104 => ⟨S1, .i32⟩
  | 105 => ⟨S131071x256, .f32⟩
  | 106 => ⟨S64x768, .f32⟩
  | 107 => ⟨S64x256, .f32⟩
  | 108 => ⟨S128x256, .f32⟩
  | 109 => ⟨S64x2x256, .f32⟩
  | 110 => ⟨S128x256, .f32⟩
  | 111 => ⟨S64x2x256, .f32⟩
  | 112 => ⟨S64x1x256, .f32⟩
  | 113 => ⟨S64x256, .f32⟩
  | 114 => ⟨S64x1x256, .f32⟩
  | 115 => ⟨S64x256, .f32⟩
  | 116 => ⟨S64x1x256, .f32⟩
  | 117 => ⟨S64x256, .f32⟩
  | 118 => ⟨S64x1x256, .f32⟩
  | 119 => ⟨S64x256, .f32⟩
  | 120 => ⟨S64x256, .f32⟩
  | 121 => ⟨S64x768, .f32⟩
  | 122 => ⟨S64x768, .f32⟩
  | 123 => ⟨S1x768, .f32⟩
  | 124 => ⟨S64x768, .f32⟩
  | 125 => ⟨S64x768, .f32⟩
  | 126 => ⟨S64x256, .f32⟩
  | 127 => ⟨S64x256, .f32⟩
  | _ => ⟨S131071x256, .f32⟩

abbrev hbmTy0_3 (i : Nat) : BufTy := match i % 128 with
  | 0 => ⟨S64x256, .f32⟩
  | 1 => ⟨S64x256, .f32⟩
  | 2 => ⟨S1x256, .f32⟩
  | 3 => ⟨S64x256, .f32⟩
  | 4 => ⟨S64x256, .f32⟩
  | 5 => ⟨S64x256, .f32⟩
  | 6 => ⟨S64x256, .f32⟩
  | 7 => ⟨S1x256, .f32⟩
  | 8 => ⟨S64x256, .f32⟩
  | 9 => ⟨S64x256, .f32⟩
  | 10 => ⟨S64x256, .f32⟩
  | 11 => ⟨S64x256, .f32⟩
  | 12 => ⟨S64x256, .f32⟩
  | 13 => ⟨S_, .f32⟩
  | 14 => ⟨S64x256, .f32⟩
  | 15 => ⟨S64x256, .f32⟩
  | 16 => ⟨S_, .f32⟩
  | 17 => ⟨S64x256, .f32⟩
  | 18 => ⟨S64x256, .f32⟩
  | 19 => ⟨S64x256, .f32⟩
  | 20 => ⟨S64x256, .f32⟩
  | 21 => ⟨S_, .f32⟩
  | 22 => ⟨S64x256, .f32⟩
  | 23 => ⟨S64x256, .f32⟩
  | 24 => ⟨S_, .f32⟩
  | 25 => ⟨S64x256, .f32⟩
  | 26 => ⟨S64x256, .f32⟩
  | 27 => ⟨S64x256, .f32⟩
  | 28 => ⟨S64x256, .f32⟩
  | 29 => ⟨S64x256, .f32⟩
  | 30 => ⟨S64x256, .f32⟩
  | 31 => ⟨S64x256, .f32⟩
  | 32 => ⟨S_, .f32⟩
  | 33 => ⟨S64x256, .f32⟩
  | 34 => ⟨S64x256, .f32⟩
  | 35 => ⟨S_, .f32⟩
  | 36 => ⟨S64x256, .f32⟩
  | 37 => ⟨S64x256, .f32⟩
  | 38 => ⟨S64x256, .f32⟩
  | 39 => ⟨S64x256, .f32⟩
  | 40 => ⟨S64x256, .f32⟩
  | 41 => ⟨S64x256, .f32⟩
  | 42 => ⟨S64x256, .f32⟩
  | 43 => ⟨S_, .f32⟩
  | 44 => ⟨S64x256, .f32⟩
  | 45 => ⟨S64x256, .f32⟩
  | 46 => ⟨S_, .f32⟩
  | 47 => ⟨S64x256, .f32⟩
  | 48 => ⟨S64x256, .f32⟩
  | 49 => ⟨S64x256, .f32⟩
  | 50 => ⟨S64x256, .f32⟩
  | 51 => ⟨S_, .i32⟩
  | 52 => ⟨S1, .i32⟩
  | 53 => ⟨S131071x256, .f32⟩
  | 54 => ⟨S_, .i32⟩
  | 55 => ⟨S1, .i32⟩
  | 56 => ⟨S131071x256, .f32⟩
  | 57 => ⟨S32x768, .f32⟩
  | 58 => ⟨S32x256, .f32⟩
  | 59 => ⟨S64x256, .f32⟩
  | 60 => ⟨S32x2x256, .f32⟩
  | 61 => ⟨S64x256, .f32⟩
  | 62 => ⟨S32x2x256, .f32⟩
  | 63 => ⟨S32x1x256, .f32⟩
  | 64 => ⟨S32x256, .f32⟩
  | 65 => ⟨S32x1x256, .f32⟩
  | 66 => ⟨S32x256, .f32⟩
  | 67 => ⟨S32x1x256, .f32⟩
  | 68 => ⟨S32x256, .f32⟩
  | 69 => ⟨S32x1x256, .f32⟩
  | 70 => ⟨S32x256, .f32⟩
  | 71 => ⟨S32x256, .f32⟩
  | 72 => ⟨S32x768, .f32⟩
  | 73 => ⟨S32x768, .f32⟩
  | 74 => ⟨S1x768, .f32⟩
  | 75 => ⟨S32x768, .f32⟩
  | 76 => ⟨S32x768, .f32⟩
  | 77 => ⟨S32x256, .f32⟩
  | 78 => ⟨S32x256, .f32⟩
  | 79 => ⟨S32x256, .f32⟩
  | 80 => ⟨S32x256, .f32⟩
  | 81 => ⟨S1x256, .f32⟩
  | 82 => ⟨S32x256, .f32⟩
  | 83 => ⟨S32x256, .f32⟩
  | 84 => ⟨S32x256, .f32⟩
  | 85 => ⟨S32x256, .f32⟩
  | 86 => ⟨S1x256, .f32⟩
  | 87 => ⟨S32x256, .f32⟩
  | 88 => ⟨S32x256, .f32⟩
  | 89 => ⟨S32x256, .f32⟩
  | 90 => ⟨S32x256, .f32⟩
  | 91 => ⟨S32x256, .f32⟩
  | 92 => ⟨S_, .f32⟩
  | 93 => ⟨S32x256, .f32⟩
  | 94 => ⟨S32x256, .f32⟩
  | 95 => ⟨S_, .f32⟩
  | 96 => ⟨S32x256, .f32⟩
  | 97 => ⟨S32x256, .f32⟩
  | 98 => ⟨S32x256, .f32⟩
  | 99 => ⟨S32x256, .f32⟩
  | 100 => ⟨S_, .f32⟩
  | 101 => ⟨S32x256, .f32⟩
  | 102 => ⟨S32x256, .f32⟩
  | 103 => ⟨S_, .f32⟩
  | 104 => ⟨S32x256, .f32⟩
  | 105 => ⟨S32x256, .f32⟩
  | 106 => ⟨S32x256, .f32⟩
  | 107 => ⟨S32x256, .f32⟩
  | 108 => ⟨S32x256, .f32⟩
  | 109 => ⟨S32x256, .f32⟩
  | 110 => ⟨S32x256, .f32⟩
  | 111 => ⟨S_, .f32⟩
  | 112 => ⟨S32x256, .f32⟩
  | 113 => ⟨S32x256, .f32⟩
  | 114 => ⟨S_, .f32⟩
  | 115 => ⟨S32x256, .f32⟩
  | 116 => ⟨S32x256, .f32⟩
  | 117 => ⟨S32x256, .f32⟩
  | 118 => ⟨S32x256, .f32⟩
  | 119 => ⟨S32x256, .f32⟩
  | 120 => ⟨S32x256, .f32⟩
  | 121 => ⟨S32x256, .f32⟩
  | 122 => ⟨S_, .f32⟩
  | 123 => ⟨S32x256, .f32⟩
  | 124 => ⟨S32x256, .f32⟩
  | 125 => ⟨S_, .f32⟩
  | 126 => ⟨S32x256, .f32⟩
  | 127 => ⟨S32x256, .f32⟩
  | _ => ⟨S131071x256, .f32⟩

abbrev hbmTy0_4 (i : Nat) : BufTy := match i % 128 with
  | 0 => ⟨S32x256, .f32⟩
  | 1 => ⟨S32x256, .f32⟩
  | 2 => ⟨S_, .i32⟩
  | 3 => ⟨S1, .i32⟩
  | 4 => ⟨S131071x256, .f32⟩
  | 5 => ⟨S_, .i32⟩
  | 6 => ⟨S1, .i32⟩
  | 7 => ⟨S131071x256, .f32⟩
  | 8 => ⟨S16x768, .f32⟩
  | 9 => ⟨S16x256, .f32⟩
  | 10 => ⟨S32x256, .f32⟩
  | 11 => ⟨S16x2x256, .f32⟩
  | 12 => ⟨S32x256, .f32⟩
  | 13 => ⟨S16x2x256, .f32⟩
  | 14 => ⟨S16x1x256, .f32⟩
  | 15 => ⟨S16x256, .f32⟩
  | 16 => ⟨S16x1x256, .f32⟩
  | 17 => ⟨S16x256, .f32⟩
  | 18 => ⟨S16x1x256, .f32⟩
  | 19 => ⟨S16x256, .f32⟩
  | 20 => ⟨S16x1x256, .f32⟩
  | 21 => ⟨S16x256, .f32⟩
  | 22 => ⟨S16x256, .f32⟩
  | 23 => ⟨S16x768, .f32⟩
  | 24 => ⟨S16x768, .f32⟩
  | 25 => ⟨S1x768, .f32⟩
  | 26 => ⟨S16x768, .f32⟩
  | 27 => ⟨S16x768, .f32⟩
  | 28 => ⟨S16x256, .f32⟩
  | 29 => ⟨S16x256, .f32⟩
  | 30 => ⟨S16x256, .f32⟩
  | 31 => ⟨S16x256, .f32⟩
  | 32 => ⟨S1x256, .f32⟩
  | 33 => ⟨S16x256, .f32⟩
  | 34 => ⟨S16x256, .f32⟩
  | 35 => ⟨S16x256, .f32⟩
  | 36 => ⟨S16x256, .f32⟩
  | 37 => ⟨S1x256, .f32⟩
  | 38 => ⟨S16x256, .f32⟩
  | 39 => ⟨S16x256, .f32⟩
  | 40 => ⟨S16x256, .f32⟩
  | 41 => ⟨S16x256, .f32⟩
  | 42 => ⟨S16x256, .f32⟩
  | 43 => ⟨S_, .f32⟩
  | 44 => ⟨S16x256, .f32⟩
  | 45 => ⟨S16x256, .f32⟩
  | 46 => ⟨S_, .f32⟩
  | 47 => ⟨S16x256, .f32⟩
  | 48 => ⟨S16x256, .f32⟩
  | 49 => ⟨S16x256, .f32⟩
  | 50 => ⟨S16x256, .f32⟩
  | 51 => ⟨S_, .f32⟩
  | 52 => ⟨S16x256, .f32⟩
  | 53 => ⟨S16x256, .f32⟩
  | 54 => ⟨S_, .f32⟩
  | 55 => ⟨S16x256, .f32⟩
  | 56 => ⟨S16x256, .f32⟩
  | 57 => ⟨S16x256, .f32⟩
  | 58 => ⟨S16x256, .f32⟩
  | 59 => ⟨S16x256, .f32⟩
  | 60 => ⟨S16x256, .f32⟩
  | 61 => ⟨S16x256, .f32⟩
  | 62 => ⟨S_, .f32⟩
  | 63 => ⟨S16x256, .f32⟩
  | 64 => ⟨S16x256, .f32⟩
  | 65 => ⟨S_, .f32⟩
  | 66 => ⟨S16x256, .f32⟩
  | 67 => ⟨S16x256, .f32⟩
  | 68 => ⟨S16x256, .f32⟩
  | 69 => ⟨S16x256, .f32⟩
  | 70 => ⟨S16x256, .f32⟩
  | 71 => ⟨S16x256, .f32⟩
  | 72 => ⟨S16x256, .f32⟩
  | 73 => ⟨S_, .f32⟩
  | 74 => ⟨S16x256, .f32⟩
  | 75 => ⟨S16x256, .f32⟩
  | 76 => ⟨S_, .f32⟩
  | 77 => ⟨S16x256, .f32⟩
  | 78 => ⟨S16x256, .f32⟩
  | 79 => ⟨S16x256, .f32⟩
  | 80 => ⟨S16x256, .f32⟩
  | 81 => ⟨S_, .i32⟩
  | 82 => ⟨S1, .i32⟩
  | 83 => ⟨S131071x256, .f32⟩
  | 84 => ⟨S_, .i32⟩
  | 85 => ⟨S1, .i32⟩
  | 86 => ⟨S131071x256, .f32⟩
  | 87 => ⟨S8x768, .f32⟩
  | 88 => ⟨S8x256, .f32⟩
  | 89 => ⟨S16x256, .f32⟩
  | 90 => ⟨S8x2x256, .f32⟩
  | 91 => ⟨S16x256, .f32⟩
  | 92 => ⟨S8x2x256, .f32⟩
  | 93 => ⟨S8x1x256, .f32⟩
  | 94 => ⟨S8x256, .f32⟩
  | 95 => ⟨S8x1x256, .f32⟩
  | 96 => ⟨S8x256, .f32⟩
  | 97 => ⟨S8x1x256, .f32⟩
  | 98 => ⟨S8x256, .f32⟩
  | 99 => ⟨S8x1x256, .f32⟩
  | 100 => ⟨S8x256, .f32⟩
  | 101 => ⟨S8x256, .f32⟩
  | 102 => ⟨S8x768, .f32⟩
  | 103 => ⟨S8x768, .f32⟩
  | 104 => ⟨S1x768, .f32⟩
  | 105 => ⟨S8x768, .f32⟩
  | 106 => ⟨S8x768, .f32⟩
  | 107 => ⟨S8x256, .f32⟩
  | 108 => ⟨S8x256, .f32⟩
  | 109 => ⟨S8x256, .f32⟩
  | 110 => ⟨S8x256, .f32⟩
  | 111 => ⟨S1x256, .f32⟩
  | 112 => ⟨S8x256, .f32⟩
  | 113 => ⟨S8x256, .f32⟩
  | 114 => ⟨S8x256, .f32⟩
  | 115 => ⟨S8x256, .f32⟩
  | 116 => ⟨S1x256, .f32⟩
  | 117 => ⟨S8x256, .f32⟩
  | 118 => ⟨S8x256, .f32⟩
  | 119 => ⟨S8x256, .f32⟩
  | 120 => ⟨S8x256, .f32⟩
  | 121 => ⟨S8x256, .f32⟩
  | 122 => ⟨S_, .f32⟩
  | 123 => ⟨S8x256, .f32⟩
  | 124 => ⟨S8x256, .f32⟩
  | 125 => ⟨S_, .f32⟩
  | 126 => ⟨S8x256, .f32⟩
  | 127 => ⟨S8x256, .f32⟩
  | _ => ⟨S131071x256, .f32⟩

abbrev hbmTy0_5 (i : Nat) : BufTy := match i % 128 with
  | 0 => ⟨S8x256, .f32⟩
  | 1 => ⟨S8x256, .f32⟩
  | 2 => ⟨S_, .f32⟩
  | 3 => ⟨S8x256, .f32⟩
  | 4 => ⟨S8x256, .f32⟩
  | 5 => ⟨S_, .f32⟩
  | 6 => ⟨S8x256, .f32⟩
  | 7 => ⟨S8x256, .f32⟩
  | 8 => ⟨S8x256, .f32⟩
  | 9 => ⟨S8x256, .f32⟩
  | 10 => ⟨S8x256, .f32⟩
  | 11 => ⟨S8x256, .f32⟩
  | 12 => ⟨S8x256, .f32⟩
  | 13 => ⟨S_, .f32⟩
  | 14 => ⟨S8x256, .f32⟩
  | 15 => ⟨S8x256, .f32⟩
  | 16 => ⟨S_, .f32⟩
  | 17 => ⟨S8x256, .f32⟩
  | 18 => ⟨S8x256, .f32⟩
  | 19 => ⟨S8x256, .f32⟩
  | 20 => ⟨S8x256, .f32⟩
  | 21 => ⟨S8x256, .f32⟩
  | 22 => ⟨S8x256, .f32⟩
  | 23 => ⟨S8x256, .f32⟩
  | 24 => ⟨S_, .f32⟩
  | 25 => ⟨S8x256, .f32⟩
  | 26 => ⟨S8x256, .f32⟩
  | 27 => ⟨S_, .f32⟩
  | 28 => ⟨S8x256, .f32⟩
  | 29 => ⟨S8x256, .f32⟩
  | 30 => ⟨S8x256, .f32⟩
  | 31 => ⟨S8x256, .f32⟩
  | 32 => ⟨S_, .i32⟩
  | 33 => ⟨S1, .i32⟩
  | 34 => ⟨S131071x256, .f32⟩
  | 35 => ⟨S_, .i32⟩
  | 36 => ⟨S1, .i32⟩
  | 37 => ⟨S131071x256, .f32⟩
  | 38 => ⟨S4x768, .f32⟩
  | 39 => ⟨S4x256, .f32⟩
  | 40 => ⟨S8x256, .f32⟩
  | 41 => ⟨S4x2x256, .f32⟩
  | 42 => ⟨S8x256, .f32⟩
  | 43 => ⟨S4x2x256, .f32⟩
  | 44 => ⟨S4x1x256, .f32⟩
  | 45 => ⟨S4x256, .f32⟩
  | 46 => ⟨S4x1x256, .f32⟩
  | 47 => ⟨S4x256, .f32⟩
  | 48 => ⟨S4x1x256, .f32⟩
  | 49 => ⟨S4x256, .f32⟩
  | 50 => ⟨S4x1x256, .f32⟩
  | 51 => ⟨S4x256, .f32⟩
  | 52 => ⟨S4x256, .f32⟩
  | 53 => ⟨S4x768, .f32⟩
  | 54 => ⟨S4x768, .f32⟩
  | 55 => ⟨S1x768, .f32⟩
  | 56 => ⟨S4x768, .f32⟩
  | 57 => ⟨S4x768, .f32⟩
  | 58 => ⟨S4x256, .f32⟩
  | 59 => ⟨S4x256, .f32⟩
  | 60 => ⟨S4x256, .f32⟩
  | 61 => ⟨S4x256, .f32⟩
  | 62 => ⟨S1x256, .f32⟩
  | 63 => ⟨S4x256, .f32⟩
  | 64 => ⟨S4x256, .f32⟩
  | 65 => ⟨S4x256, .f32⟩
  | 66 => ⟨S4x256, .f32⟩
  | 67 => ⟨S1x256, .f32⟩
  | 68 => ⟨S4x256, .f32⟩
  | 69 => ⟨S4x256, .f32⟩
  | 70 => ⟨S4x256, .f32⟩
  | 71 => ⟨S4x256, .f32⟩
  | 72 => ⟨S4x256, .f32⟩
  | 73 => ⟨S_, .f32⟩
  | 74 => ⟨S4x256, .f32⟩
  | 75 => ⟨S4x256, .f32⟩
  | 76 => ⟨S_, .f32⟩
  | 77 => ⟨S4x256, .f32⟩
  | 78 => ⟨S4x256, .f32⟩
  | 79 => ⟨S4x256, .f32⟩
  | 80 => ⟨S4x256, .f32⟩
  | 81 => ⟨S_, .f32⟩
  | 82 => ⟨S4x256, .f32⟩
  | 83 => ⟨S4x256, .f32⟩
  | 84 => ⟨S_, .f32⟩
  | 85 => ⟨S4x256, .f32⟩
  | 86 => ⟨S4x256, .f32⟩
  | 87 => ⟨S4x256, .f32⟩
  | 88 => ⟨S4x256, .f32⟩
  | 89 => ⟨S4x256, .f32⟩
  | 90 => ⟨S4x256, .f32⟩
  | 91 => ⟨S4x256, .f32⟩
  | 92 => ⟨S_, .f32⟩
  | 93 => ⟨S4x256, .f32⟩
  | 94 => ⟨S4x256, .f32⟩
  | 95 => ⟨S_, .f32⟩
  | 96 => ⟨S4x256, .f32⟩
  | 97 => ⟨S4x256, .f32⟩
  | 98 => ⟨S4x256, .f32⟩
  | 99 => ⟨S4x256, .f32⟩
  | 100 => ⟨S4x256, .f32⟩
  | 101 => ⟨S4x256, .f32⟩
  | 102 => ⟨S4x256, .f32⟩
  | 103 => ⟨S_, .f32⟩
  | 104 => ⟨S4x256, .f32⟩
  | 105 => ⟨S4x256, .f32⟩
  | 106 => ⟨S_, .f32⟩
  | 107 => ⟨S4x256, .f32⟩
  | 108 => ⟨S4x256, .f32⟩
  | 109 => ⟨S4x256, .f32⟩
  | 110 => ⟨S4x256, .f32⟩
  | 111 => ⟨S_, .i32⟩
  | 112 => ⟨S1, .i32⟩
  | 113 => ⟨S131071x256, .f32⟩
  | 114 => ⟨S_, .i32⟩
  | 115 => ⟨S1, .i32⟩
  | 116 => ⟨S131071x256, .f32⟩
  | 117 => ⟨S2x768, .f32⟩
  | 118 => ⟨S2x256, .f32⟩
  | 119 => ⟨S4x256, .f32⟩
  | 120 => ⟨S2x2x256, .f32⟩
  | 121 => ⟨S4x256, .f32⟩
  | 122 => ⟨S2x2x256, .f32⟩
  | 123 => ⟨S2x1x256, .f32⟩
  | 124 => ⟨S2x256, .f32⟩
  | 125 => ⟨S2x1x256, .f32⟩
  | 126 => ⟨S2x256, .f32⟩
  | 127 => ⟨S2x1x256, .f32⟩
  | _ => ⟨S131071x256, .f32⟩

abbrev hbmTy0_6 (i : Nat) : BufTy := match i % 128 with
  | 0 => ⟨S2x256, .f32⟩
  | 1 => ⟨S2x1x256, .f32⟩
  | 2 => ⟨S2x256, .f32⟩
  | 3 => ⟨S2x256, .f32⟩
  | 4 => ⟨S2x768, .f32⟩
  | 5 => ⟨S2x768, .f32⟩
  | 6 => ⟨S1x768, .f32⟩
  | 7 => ⟨S2x768, .f32⟩
  | 8 => ⟨S2x768, .f32⟩
  | 9 => ⟨S2x256, .f32⟩
  | 10 => ⟨S2x256, .f32⟩
  | 11 => ⟨S2x256, .f32⟩
  | 12 => ⟨S2x256, .f32⟩
  | 13 => ⟨S1x256, .f32⟩
  | 14 => ⟨S2x256, .f32⟩
  | 15 => ⟨S2x256, .f32⟩
  | 16 => ⟨S2x256, .f32⟩
  | 17 => ⟨S2x256, .f32⟩
  | 18 => ⟨S1x256, .f32⟩
  | 19 => ⟨S2x256, .f32⟩
  | 20 => ⟨S2x256, .f32⟩
  | 21 => ⟨S2x256, .f32⟩
  | 22 => ⟨S2x256, .f32⟩
  | 23 => ⟨S2x256, .f32⟩
  | 24 => ⟨S_, .f32⟩
  | 25 => ⟨S2x256, .f32⟩
  | 26 => ⟨S2x256, .f32⟩
  | 27 => ⟨S_, .f32⟩
  | 28 => ⟨S2x256, .f32⟩
  | 29 => ⟨S2x256, .f32⟩
  | 30 => ⟨S2x256, .f32⟩
  | 31 => ⟨S2x256, .f32⟩
  | 32 => ⟨S_, .f32⟩
  | 33 => ⟨S2x256, .f32⟩
  | 34 => ⟨S2x256, .f32⟩
  | 35 => ⟨S_, .f32⟩
  | 36 => ⟨S2x256, .f32⟩
  | 37 => ⟨S2x256, .f32⟩
  | 38 => ⟨S2x256, .f32⟩
  | 39 => ⟨S2x256, .f32⟩
  | 40 => ⟨S2x256, .f32⟩
  | 41 => ⟨S2x256, .f32⟩
  | 42 => ⟨S2x256, .f32⟩
  | 43 => ⟨S_, .f32⟩
  | 44 => ⟨S2x256, .f32⟩
  | 45 => ⟨S2x256, .f32⟩
  | 46 => ⟨S_, .f32⟩
  | 47 => ⟨S2x256, .f32⟩
  | 48 => ⟨S2x256, .f32⟩
  | 49 => ⟨S2x256, .f32⟩
  | 50 => ⟨S2x256, .f32⟩
  | 51 => ⟨S2x256, .f32⟩
  | 52 => ⟨S2x256, .f32⟩
  | 53 => ⟨S2x256, .f32⟩
  | 54 => ⟨S_, .f32⟩
  | 55 => ⟨S2x256, .f32⟩
  | 56 => ⟨S2x256, .f32⟩
  | 57 => ⟨S_, .f32⟩
  | 58 => ⟨S2x256, .f32⟩
  | 59 => ⟨S2x256, .f32⟩
  | 60 => ⟨S2x256, .f32⟩
  | 61 => ⟨S2x256, .f32⟩
  | 62 => ⟨S_, .i32⟩
  | 63 => ⟨S1, .i32⟩
  | 64 => ⟨S131071x256, .f32⟩
  | 65 => ⟨S_, .i32⟩
  | 66 => ⟨S1, .i32⟩
  | 67 => ⟨S131071x256, .f32⟩
  | 68 => ⟨S1x768, .f32⟩
  | 69 => ⟨S1x256, .f32⟩
  | 70 => ⟨S2x256, .f32⟩
  | 71 => ⟨S1x2x256, .f32⟩
  | 72 => ⟨S2x256, .f32⟩
  | 73 => ⟨S1x2x256, .f32⟩
  | 74 => ⟨S1x1x256, .f32⟩
  | 75 => ⟨S1x256, .f32⟩
  | 76 => ⟨S1x1x256, .f32⟩
  | 77 => ⟨S1x256, .f32⟩
  | 78 => ⟨S1x1x256, .f32⟩
  | 79 => ⟨S1x256, .f32⟩
  | 80 => ⟨S1x1x256, .f32⟩
  | 81 => ⟨S1x256, .f32⟩
  | 82 => ⟨S1x256, .f32⟩
  | 83 => ⟨S1x768, .f32⟩
  | 84 => ⟨S1x768, .f32⟩
  | 85 => ⟨S1x768, .f32⟩
  | 86 => ⟨S1x768, .f32⟩
  | 87 => ⟨S1x256, .f32⟩
  | 88 => ⟨S1x256, .f32⟩
  | 89 => ⟨S1x256, .f32⟩
  | 90 => ⟨S1x256, .f32⟩
  | 91 => ⟨S1x256, .f32⟩
  | 92 => ⟨S1x256, .f32⟩
  | 93 => ⟨S1x256, .f32⟩
  | 94 => ⟨S1x256, .f32⟩
  | 95 => ⟨S1x256, .f32⟩
  | 96 => ⟨S1x256, .f32⟩
  | 97 => ⟨S1x256, .f32⟩
  | 98 => ⟨S1x256, .f32⟩
  | 99 => ⟨S1x256, .f32⟩
  | 100 => ⟨S_, .f32⟩
  | 101 => ⟨S1x256, .f32⟩
  | 102 => ⟨S1x256, .f32⟩
  | 103 => ⟨S_, .f32⟩
  | 104 => ⟨S1x256, .f32⟩
  | 105 => ⟨S1x256, .f32⟩
  | 106 => ⟨S1x256, .f32⟩
  | 107 => ⟨S1x256, .f32⟩
  | 108 => ⟨S_, .f32⟩
  | 109 => ⟨S1x256, .f32⟩
  | 110 => ⟨S1x256, .f32⟩
  | 111 => ⟨S_, .f32⟩
  | 112 => ⟨S1x256, .f32⟩
  | 113 => ⟨S1x256, .f32⟩
  | 114 => ⟨S1x256, .f32⟩
  | 115 => ⟨S1x256, .f32⟩
  | 116 => ⟨S1x256, .f32⟩
  | 117 => ⟨S1x256, .f32⟩
  | 118 => ⟨S1x256, .f32⟩
  | 119 => ⟨S_, .f32⟩
  | 120 => ⟨S1x256, .f32⟩
  | 121 => ⟨S1x256, .f32⟩
  | 122 => ⟨S_, .f32⟩
  | 123 => ⟨S1x256, .f32⟩
  | 124 => ⟨S1x256, .f32⟩
  | 125 => ⟨S1x256, .f32⟩
  | 126 => ⟨S1x256, .f32⟩
  | 127 => ⟨S1x256, .f32⟩
  | _ => ⟨S131071x256, .f32⟩

abbrev hbmTy0_7 (i : Nat) : BufTy := match i % 128 with
  | 0 => ⟨S1x256, .f32⟩
  | 1 => ⟨S1x256, .f32⟩
  | 2 => ⟨S_, .f32⟩
  | 3 => ⟨S1x256, .f32⟩
  | 4 => ⟨S1x256, .f32⟩
  | 5 => ⟨S_, .f32⟩
  | 6 => ⟨S1x256, .f32⟩
  | 7 => ⟨S1x256, .f32⟩
  | 8 => ⟨S1x256, .f32⟩
  | 9 => ⟨S1x256, .f32⟩
  | 10 => ⟨S_, .i32⟩
  | 11 => ⟨S1, .i32⟩
  | 12 => ⟨S131071x256, .f32⟩
  | 13 => ⟨S_, .i32⟩
  | 14 => ⟨S1, .i32⟩
  | 15 => ⟨S131071x256, .f32⟩
  | 16 => ⟨S1x256, .f32⟩
  | 17 => ⟨S1x256, .f32⟩
  | _ => ⟨S131071x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S131071x256, .f32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S1024x256, .f32⟩
  | .local _ .vmem, ⟨2, _⟩ => ⟨S256x1024, .f32⟩
  | .local _ .vmem, ⟨3, _⟩ => ⟨S1x1024, .f32⟩
  | .local _ .vmem, ⟨4, _⟩ => ⟨S1024x768, .f32⟩
  | .local _ .vmem, ⟨5, _⟩ => ⟨S1024x768, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S256x768, .f32⟩
  | .local _ .vmem, ⟨11, _⟩ => ⟨S1x768, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x768, .f32⟩
  | .local _ .vmem, ⟨17, _⟩ => ⟨S1024x768, .f32⟩
  | .local _ .vmem, ⟨18, _⟩ => ⟨S1024x2x256, .f32⟩
  | .local _ .vmem, ⟨19, _⟩ => ⟨S1024x2x256, .f32⟩
  | .local _ .vmem, ⟨20, _⟩ => ⟨S1024x2x256, .f32⟩
  | .local _ .vmem, ⟨21, _⟩ => ⟨S1024x2x256, .f32⟩
  | .local _ .vmem, ⟨22, _⟩ => ⟨S1024x256, .f32⟩
  | .local _ .vmem, ⟨23, _⟩ => ⟨S1024x256, .f32⟩
  | .local _ .vmem, ⟨24, _⟩ => ⟨S256x768, .f32⟩
  | .local _ .vmem, ⟨25, _⟩ => ⟨S1x768, .f32⟩
  | .local _ .vmem, ⟨26, _⟩ => ⟨S256x256, .f32⟩
  | .local _ .vmem, ⟨27, _⟩ => ⟨S1x256, .f32⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | .local _ .vmem, ⟨31, _⟩ => ⟨S1024x256, .f32⟩
  | .local _ .vmem, ⟨32, _⟩ => ⟨S1024x768, .f32⟩
  | .local _ .vmem, ⟨33, _⟩ => ⟨S1024x768, .f32⟩
  | .local _ .vmem, ⟨34, _⟩ => ⟨S1024x2x256, .f32⟩
  | .local _ .vmem, ⟨35, _⟩ => ⟨S1024x2x256, .f32⟩
  | .local _ .vmem, ⟨36, _⟩ => ⟨S1024x2x256, .f32⟩
  | .local _ .vmem, ⟨37, _⟩ => ⟨S1024x2x256, .f32⟩
  | .local _ .vmem, ⟨38, _⟩ => ⟨S1024x256, .f32⟩
  | .local _ .vmem, ⟨39, _⟩ => ⟨S1024x256, .f32⟩
  | .local _ .vmem, ⟨40, _⟩ => ⟨S256x768, .f32⟩
  | .local _ .vmem, ⟨41, _⟩ => ⟨S1x768, .f32⟩
  | .local _ .vmem, ⟨42, _⟩ => ⟨S256x256, .f32⟩
  | .local _ .vmem, ⟨43, _⟩ => ⟨S1x256, .f32⟩
  | .local _ .vmem, ⟨44, _⟩ => ⟨S1024x256, .f32⟩
  | .local _ .vmem, ⟨45, _⟩ => ⟨S1024x256, .f32⟩
  | .local _ .vmem, ⟨46, _⟩ => ⟨S1024x256, .f32⟩
  | .local _ .vmem, ⟨47, _⟩ => ⟨S1024x256, .f32⟩
  | .local _ .vmem, ⟨48, _⟩ => ⟨S1024x768, .f32⟩
  | .local _ .vmem, ⟨49, _⟩ => ⟨S1024x768, .f32⟩
  | .local _ .vmem, ⟨50, _⟩ => ⟨S1024x2x256, .f32⟩
  | .local _ .vmem, ⟨51, _⟩ => ⟨S1024x2x256, .f32⟩
  | .local _ .vmem, ⟨52, _⟩ => ⟨S1024x2x256, .f32⟩
  | .local _ .vmem, ⟨53, _⟩ => ⟨S1024x2x256, .f32⟩
  | .local _ .vmem, ⟨54, _⟩ => ⟨S1024x256, .f32⟩
  | .local _ .vmem, ⟨55, _⟩ => ⟨S1024x256, .f32⟩
  | .local _ .vmem, ⟨56, _⟩ => ⟨S256x768, .f32⟩
  | .local _ .vmem, ⟨57, _⟩ => ⟨S1x768, .f32⟩
  | .local _ .vmem, ⟨58, _⟩ => ⟨S256x256, .f32⟩
  | .local _ .vmem, ⟨59, _⟩ => ⟨S1x256, .f32⟩
  | .local _ .vmem, ⟨60, _⟩ => ⟨S1024x256, .f32⟩
  | .local _ .vmem, ⟨61, _⟩ => ⟨S1024x256, .f32⟩
  | .local _ .vmem, ⟨62, _⟩ => ⟨S1024x256, .f32⟩
  | .local _ .vmem, ⟨63, _⟩ => ⟨S1024x256, .f32⟩
  | .local _ .vmem, ⟨64, _⟩ => ⟨S1024x768, .f32⟩
  | .local _ .vmem, ⟨65, _⟩ => ⟨S1024x768, .f32⟩
  | .local _ .vmem, ⟨66, _⟩ => ⟨S1024x2x256, .f32⟩
  | .local _ .vmem, ⟨67, _⟩ => ⟨S1024x2x256, .f32⟩
  | .local _ .vmem, ⟨68, _⟩ => ⟨S1024x2x256, .f32⟩
  | .local _ .vmem, ⟨69, _⟩ => ⟨S1024x2x256, .f32⟩
  | .local _ .vmem, ⟨70, _⟩ => ⟨S1024x256, .f32⟩
  | .local _ .vmem, ⟨71, _⟩ => ⟨S1024x256, .f32⟩
  | .local _ .vmem, ⟨72, _⟩ => ⟨S256x768, .f32⟩
  | .local _ .vmem, ⟨73, _⟩ => ⟨S1x768, .f32⟩
  | .local _ .vmem, ⟨74, _⟩ => ⟨S256x256, .f32⟩
  | .local _ .vmem, ⟨75, _⟩ => ⟨S1x256, .f32⟩
  | .local _ .vmem, ⟨76, _⟩ => ⟨S1024x256, .f32⟩
  | .local _ .vmem, ⟨77, _⟩ => ⟨S1024x256, .f32⟩
  | .local _ .vmem, ⟨78, _⟩ => ⟨S1024x256, .f32⟩
  | .local _ .vmem, ⟨79, _⟩ => ⟨S1024x256, .f32⟩
  | .local _ .vmem, ⟨80, _⟩ => ⟨S1024x768, .f32⟩
  | .local _ .vmem, ⟨81, _⟩ => ⟨S1024x768, .f32⟩
  | .local _ .vmem, ⟨82, _⟩ => ⟨S1024x2x256, .f32⟩
  | .local _ .vmem, ⟨83, _⟩ => ⟨S1024x2x256, .f32⟩
  | .local _ .vmem, ⟨84, _⟩ => ⟨S1024x2x256, .f32⟩
  | .local _ .vmem, ⟨85, _⟩ => ⟨S1024x2x256, .f32⟩
  | .local _ .vmem, ⟨86, _⟩ => ⟨S1024x256, .f32⟩
  | .local _ .vmem, ⟨87, _⟩ => ⟨S1024x256, .f32⟩
  | .local _ .vmem, ⟨88, _⟩ => ⟨S256x768, .f32⟩
  | .local _ .vmem, ⟨89, _⟩ => ⟨S1x768, .f32⟩
  | .local _ .vmem, ⟨90, _⟩ => ⟨S256x256, .f32⟩
  | .local _ .vmem, ⟨91, _⟩ => ⟨S1x256, .f32⟩
  | .local _ .vmem, ⟨92, _⟩ => ⟨S1024x256, .f32⟩
  | .local _ .vmem, ⟨93, _⟩ => ⟨S1024x256, .f32⟩
  | .local _ .vmem, ⟨94, _⟩ => ⟨S1024x256, .f32⟩
  | .local _ .vmem, ⟨95, _⟩ => ⟨S1024x256, .f32⟩
  | .local _ .vmem, ⟨96, _⟩ => ⟨S1024x768, .f32⟩
  | .local _ .vmem, ⟨97, _⟩ => ⟨S1024x2x256, .f32⟩
  | .local _ .vmem, ⟨98, _⟩ => ⟨S1024x2x256, .f32⟩
  | .local _ .vmem, ⟨99, _⟩ => ⟨S1024x256, .f32⟩
  | .local _ .vmem, ⟨100, _⟩ => ⟨S256x768, .f32⟩
  | .local _ .vmem, ⟨101, _⟩ => ⟨S1x768, .f32⟩
  | .local _ .vmem, ⟨102, _⟩ => ⟨S256x256, .f32⟩
  | .local _ .vmem, ⟨103, _⟩ => ⟨S1x256, .f32⟩
  | .local _ .vmem, ⟨104, _⟩ => ⟨S1024x256, .f32⟩
  | .local _ .vmem, ⟨105, _⟩ => ⟨S1024x256, .f32⟩
  | _, _ => ⟨S131071x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | _, _ => false

abbrev semScoped : Fin 0 → Bool
  | ⟨_, h⟩ => absurd h (Nat.not_lt_zero _)

abbrev dmaSemScoped : Fin 106 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | _ => false

abbrev sig : RefSig :=
  ofTc nBuf bufTy 0 106 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_c : Ref sig .tc := ⟨.hbm, 10, rfl⟩
abbrev main_call0_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6_0 : Ref sig .tc := ⟨.hbm, 17, rfl⟩
abbrev main_call0_v6_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13_0 : Ref sig .tc := ⟨.hbm, 25, rfl⟩
abbrev main_call0_v13_1 : Ref sig .tc := ⟨.hbm, 26, rfl⟩
abbrev main_call0_cst : Ref sig .tc := ⟨.hbm, 27, rfl⟩
abbrev main_call0_v14 : Ref sig .tc := ⟨.hbm, 28, rfl⟩
abbrev main_call0_cst_0 : Ref sig .tc := ⟨.hbm, 29, rfl⟩
abbrev main_call0_v15 : Ref sig .tc := ⟨.hbm, 30, rfl⟩
abbrev main_call0_c_1 : Ref sig .tc := ⟨.hbm, 31, rfl⟩
abbrev main_call0_v16 : Ref sig .tc := ⟨.hbm, 32, rfl⟩
abbrev main_call0_v17 : Ref sig .tc := ⟨.hbm, 33, rfl⟩
abbrev main_call0_c_2 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_call0_v27 : Ref sig .tc := ⟨.hbm, 44, rfl⟩
abbrev main_call0_v28 : Ref sig .tc := ⟨.hbm, 45, rfl⟩
abbrev main_call0_v29 : Ref sig .tc := ⟨.hbm, 46, rfl⟩
abbrev main_call0_v30_0 : Ref sig .tc := ⟨.hbm, 47, rfl⟩
abbrev main_call0_v30_1 : Ref sig .tc := ⟨.hbm, 48, rfl⟩
abbrev main_call0_c_3 : Ref sig .tc := ⟨.hbm, 49, rfl⟩
abbrev main_call0_v31 : Ref sig .tc := ⟨.hbm, 50, rfl⟩
abbrev main_call0_v32 : Ref sig .tc := ⟨.hbm, 51, rfl⟩
abbrev main_call0_c_4 : Ref sig .tc := ⟨.hbm, 52, rfl⟩
abbrev main_call0_v33 : Ref sig .tc := ⟨.hbm, 53, rfl⟩
abbrev main_call0_v34 : Ref sig .tc := ⟨.hbm, 54, rfl⟩
abbrev main_call0_v35 : Ref sig .tc := ⟨.hbm, 55, rfl⟩
abbrev main_call0_v36 : Ref sig .tc := ⟨.hbm, 56, rfl⟩
abbrev main_call0_v37 : Ref sig .tc := ⟨.hbm, 57, rfl⟩
abbrev main_call0_v38 : Ref sig .tc := ⟨.hbm, 58, rfl⟩
abbrev main_call0_v39 : Ref sig .tc := ⟨.hbm, 59, rfl⟩
abbrev main_call0_v40 : Ref sig .tc := ⟨.hbm, 60, rfl⟩
abbrev main_call0_v41_0 : Ref sig .tc := ⟨.hbm, 61, rfl⟩
abbrev main_call0_v41_1 : Ref sig .tc := ⟨.hbm, 62, rfl⟩
abbrev main_call0_c_5 : Ref sig .tc := ⟨.hbm, 63, rfl⟩
abbrev main_call0_v42 : Ref sig .tc := ⟨.hbm, 64, rfl⟩
abbrev main_call0_v43 : Ref sig .tc := ⟨.hbm, 65, rfl⟩
abbrev main_call0_c_6 : Ref sig .tc := ⟨.hbm, 66, rfl⟩
abbrev main_call0_v44 : Ref sig .tc := ⟨.hbm, 67, rfl⟩
abbrev main_call0_v45 : Ref sig .tc := ⟨.hbm, 68, rfl⟩
abbrev main_call0_v46 : Ref sig .tc := ⟨.hbm, 69, rfl⟩
abbrev main_call0_v47 : Ref sig .tc := ⟨.hbm, 70, rfl⟩
abbrev main_call0_v48 : Ref sig .tc := ⟨.hbm, 71, rfl⟩
abbrev main_call0_v49 : Ref sig .tc := ⟨.hbm, 72, rfl⟩
abbrev main_call0_v50 : Ref sig .tc := ⟨.hbm, 73, rfl⟩
abbrev main_call0_v51 : Ref sig .tc := ⟨.hbm, 74, rfl⟩
abbrev main_call0_v52_0 : Ref sig .tc := ⟨.hbm, 75, rfl⟩
abbrev main_call0_v52_1 : Ref sig .tc := ⟨.hbm, 76, rfl⟩
abbrev main_call0_c_7 : Ref sig .tc := ⟨.hbm, 77, rfl⟩
abbrev main_call0_v53 : Ref sig .tc := ⟨.hbm, 78, rfl⟩
abbrev main_call0_v54 : Ref sig .tc := ⟨.hbm, 79, rfl⟩
abbrev main_call0_c_8 : Ref sig .tc := ⟨.hbm, 80, rfl⟩
abbrev main_call0_v55 : Ref sig .tc := ⟨.hbm, 81, rfl⟩
abbrev main_call0_v56 : Ref sig .tc := ⟨.hbm, 82, rfl⟩
abbrev main_call0_v57 : Ref sig .tc := ⟨.hbm, 83, rfl⟩
abbrev main_call0_v58 : Ref sig .tc := ⟨.hbm, 84, rfl⟩
abbrev main_call0_v59 : Ref sig .tc := ⟨.hbm, 85, rfl⟩
abbrev main_call0_v60 : Ref sig .tc := ⟨.hbm, 86, rfl⟩
abbrev main_call0_v61 : Ref sig .tc := ⟨.hbm, 87, rfl⟩
abbrev main_call0_v62 : Ref sig .tc := ⟨.hbm, 88, rfl⟩
abbrev main_call0_v63_0 : Ref sig .tc := ⟨.hbm, 89, rfl⟩
abbrev main_call0_v63_1 : Ref sig .tc := ⟨.hbm, 90, rfl⟩
abbrev main_call0_c_9 : Ref sig .tc := ⟨.hbm, 91, rfl⟩
abbrev main_call0_v64 : Ref sig .tc := ⟨.hbm, 92, rfl⟩
abbrev main_call0_v65 : Ref sig .tc := ⟨.hbm, 93, rfl⟩
abbrev main_call0_c_10 : Ref sig .tc := ⟨.hbm, 94, rfl⟩
abbrev main_call0_v66 : Ref sig .tc := ⟨.hbm, 95, rfl⟩
abbrev main_call0_v67 : Ref sig .tc := ⟨.hbm, 96, rfl⟩
abbrev main_call0_v68 : Ref sig .tc := ⟨.hbm, 97, rfl⟩
abbrev main_call0_v69 : Ref sig .tc := ⟨.hbm, 98, rfl⟩
abbrev main_call0_v70 : Ref sig .tc := ⟨.hbm, 99, rfl⟩
abbrev main_call0_v71 : Ref sig .tc := ⟨.hbm, 100, rfl⟩
abbrev main_call0_v72 : Ref sig .tc := ⟨.hbm, 101, rfl⟩
abbrev main_call0_v73 : Ref sig .tc := ⟨.hbm, 102, rfl⟩
abbrev main_call0_v74_0 : Ref sig .tc := ⟨.hbm, 103, rfl⟩
abbrev main_call0_v74_1 : Ref sig .tc := ⟨.hbm, 104, rfl⟩
abbrev main_call0_c_11 : Ref sig .tc := ⟨.hbm, 105, rfl⟩
abbrev main_call0_v75 : Ref sig .tc := ⟨.hbm, 106, rfl⟩
abbrev main_call0_v76 : Ref sig .tc := ⟨.hbm, 107, rfl⟩
abbrev main_call0_c_12 : Ref sig .tc := ⟨.hbm, 108, rfl⟩
abbrev main_call0_v77 : Ref sig .tc := ⟨.hbm, 109, rfl⟩
abbrev main_call0_v78 : Ref sig .tc := ⟨.hbm, 110, rfl⟩
abbrev main_call0_v79 : Ref sig .tc := ⟨.hbm, 111, rfl⟩
abbrev main_call0_v80 : Ref sig .tc := ⟨.hbm, 112, rfl⟩
abbrev main_call0_v81 : Ref sig .tc := ⟨.hbm, 113, rfl⟩
abbrev main_call0_v82 : Ref sig .tc := ⟨.hbm, 114, rfl⟩
abbrev main_call0_v83 : Ref sig .tc := ⟨.hbm, 115, rfl⟩
abbrev main_call0_v84 : Ref sig .tc := ⟨.hbm, 116, rfl⟩
abbrev main_call0_v85_0 : Ref sig .tc := ⟨.hbm, 117, rfl⟩
abbrev main_call0_v85_1 : Ref sig .tc := ⟨.hbm, 118, rfl⟩
abbrev main_call0_c_13 : Ref sig .tc := ⟨.hbm, 119, rfl⟩
abbrev main_call0_v86 : Ref sig .tc := ⟨.hbm, 120, rfl⟩
abbrev main_call0_v87 : Ref sig .tc := ⟨.hbm, 121, rfl⟩
abbrev main_call0_c_14 : Ref sig .tc := ⟨.hbm, 122, rfl⟩
abbrev main_call0_v88 : Ref sig .tc := ⟨.hbm, 123, rfl⟩
abbrev main_call0_v89 : Ref sig .tc := ⟨.hbm, 124, rfl⟩
abbrev main_call0_v90 : Ref sig .tc := ⟨.hbm, 125, rfl⟩
abbrev main_call0_v91 : Ref sig .tc := ⟨.hbm, 126, rfl⟩
abbrev main_call0_v92 : Ref sig .tc := ⟨.hbm, 127, rfl⟩
abbrev main_call0_v93 : Ref sig .tc := ⟨.hbm, 128, rfl⟩
abbrev main_call0_v94 : Ref sig .tc := ⟨.hbm, 129, rfl⟩
abbrev main_call0_v95 : Ref sig .tc := ⟨.hbm, 130, rfl⟩
abbrev main_call0_v96 : Ref sig .tc := ⟨.hbm, 131, rfl⟩
abbrev main_call0_v97 : Ref sig .tc := ⟨.hbm, 132, rfl⟩
abbrev main_call0_v98 : Ref sig .tc := ⟨.hbm, 133, rfl⟩
abbrev main_call0_v99 : Ref sig .tc := ⟨.hbm, 134, rfl⟩
abbrev main_call0_v100 : Ref sig .tc := ⟨.hbm, 135, rfl⟩
abbrev main_call0_v101 : Ref sig .tc := ⟨.hbm, 136, rfl⟩
abbrev main_call0_v102 : Ref sig .tc := ⟨.hbm, 137, rfl⟩
abbrev main_call0_v103 : Ref sig .tc := ⟨.hbm, 138, rfl⟩
abbrev main_call0_v104 : Ref sig .tc := ⟨.hbm, 139, rfl⟩
abbrev main_call0_v105 : Ref sig .tc := ⟨.hbm, 140, rfl⟩
abbrev main_call0_v106 : Ref sig .tc := ⟨.hbm, 141, rfl⟩
abbrev main_call0_v107 : Ref sig .tc := ⟨.hbm, 142, rfl⟩
abbrev main_call0_v108 : Ref sig .tc := ⟨.hbm, 143, rfl⟩
abbrev main_call0_v109 : Ref sig .tc := ⟨.hbm, 144, rfl⟩
abbrev main_call0_v110 : Ref sig .tc := ⟨.hbm, 145, rfl⟩
abbrev main_call0_v111 : Ref sig .tc := ⟨.hbm, 146, rfl⟩
abbrev main_call0_v112 : Ref sig .tc := ⟨.hbm, 147, rfl⟩
abbrev main_call0_v113 : Ref sig .tc := ⟨.hbm, 148, rfl⟩
abbrev main_call0_v114 : Ref sig .tc := ⟨.hbm, 149, rfl⟩
abbrev main_call0_v115 : Ref sig .tc := ⟨.hbm, 150, rfl⟩
abbrev main_call0_v116 : Ref sig .tc := ⟨.hbm, 151, rfl⟩
abbrev main_call0_v117 : Ref sig .tc := ⟨.hbm, 152, rfl⟩
abbrev main_call0_v118 : Ref sig .tc := ⟨.hbm, 153, rfl⟩
abbrev main_call0_v119 : Ref sig .tc := ⟨.hbm, 154, rfl⟩
abbrev main_call0_v120 : Ref sig .tc := ⟨.hbm, 155, rfl⟩
abbrev main_call0_v121 : Ref sig .tc := ⟨.hbm, 156, rfl⟩
abbrev main_call0_v122 : Ref sig .tc := ⟨.hbm, 157, rfl⟩
abbrev main_call0_v123 : Ref sig .tc := ⟨.hbm, 158, rfl⟩
abbrev main_call0_v124 : Ref sig .tc := ⟨.hbm, 159, rfl⟩
abbrev main_call0_cst_15 : Ref sig .tc := ⟨.hbm, 160, rfl⟩
abbrev main_call0_v125 : Ref sig .tc := ⟨.hbm, 161, rfl⟩
abbrev main_call0_v126 : Ref sig .tc := ⟨.hbm, 162, rfl⟩
abbrev main_call0_cst_16 : Ref sig .tc := ⟨.hbm, 163, rfl⟩
abbrev main_call0_v127 : Ref sig .tc := ⟨.hbm, 164, rfl⟩
abbrev main_call0_v128 : Ref sig .tc := ⟨.hbm, 165, rfl⟩
abbrev main_call0_v129 : Ref sig .tc := ⟨.hbm, 166, rfl⟩
abbrev main_call0_v130 : Ref sig .tc := ⟨.hbm, 167, rfl⟩
abbrev main_call0_cst_17 : Ref sig .tc := ⟨.hbm, 168, rfl⟩
abbrev main_call0_v131 : Ref sig .tc := ⟨.hbm, 169, rfl⟩
abbrev main_call0_v132 : Ref sig .tc := ⟨.hbm, 170, rfl⟩
abbrev main_call0_cst_18 : Ref sig .tc := ⟨.hbm, 171, rfl⟩
abbrev main_call0_v133 : Ref sig .tc := ⟨.hbm, 172, rfl⟩
abbrev main_call0_v134 : Ref sig .tc := ⟨.hbm, 173, rfl⟩
abbrev main_call0_v135 : Ref sig .tc := ⟨.hbm, 174, rfl⟩
abbrev main_call0_v136 : Ref sig .tc := ⟨.hbm, 175, rfl⟩
abbrev main_call0_v137 : Ref sig .tc := ⟨.hbm, 176, rfl⟩
abbrev main_call0_v138 : Ref sig .tc := ⟨.hbm, 177, rfl⟩
abbrev main_call0_v139 : Ref sig .tc := ⟨.hbm, 178, rfl⟩
abbrev main_call0_cst_19 : Ref sig .tc := ⟨.hbm, 179, rfl⟩
abbrev main_call0_v140 : Ref sig .tc := ⟨.hbm, 180, rfl⟩
abbrev main_call0_v141 : Ref sig .tc := ⟨.hbm, 181, rfl⟩
abbrev main_call0_cst_20 : Ref sig .tc := ⟨.hbm, 182, rfl⟩
abbrev main_call0_v142 : Ref sig .tc := ⟨.hbm, 183, rfl⟩
abbrev main_call0_v143 : Ref sig .tc := ⟨.hbm, 184, rfl⟩
abbrev main_call0_v144 : Ref sig .tc := ⟨.hbm, 185, rfl⟩
abbrev main_call0_v145 : Ref sig .tc := ⟨.hbm, 186, rfl⟩
abbrev main_call0_v146 : Ref sig .tc := ⟨.hbm, 187, rfl⟩
abbrev main_call0_v147 : Ref sig .tc := ⟨.hbm, 188, rfl⟩
abbrev main_call0_v148 : Ref sig .tc := ⟨.hbm, 189, rfl⟩
abbrev main_call0_cst_21 : Ref sig .tc := ⟨.hbm, 190, rfl⟩
abbrev main_call0_v149 : Ref sig .tc := ⟨.hbm, 191, rfl⟩
abbrev main_call0_v150 : Ref sig .tc := ⟨.hbm, 192, rfl⟩
abbrev main_call0_cst_22 : Ref sig .tc := ⟨.hbm, 193, rfl⟩
abbrev main_call0_v151 : Ref sig .tc := ⟨.hbm, 194, rfl⟩
abbrev main_call0_v152 : Ref sig .tc := ⟨.hbm, 195, rfl⟩
abbrev main_call0_v153 : Ref sig .tc := ⟨.hbm, 196, rfl⟩
abbrev main_call0_v154 : Ref sig .tc := ⟨.hbm, 197, rfl⟩
abbrev main_call0_c_23 : Ref sig .tc := ⟨.hbm, 198, rfl⟩
abbrev main_call0_v155 : Ref sig .tc := ⟨.hbm, 199, rfl⟩
abbrev main_call0_v156 : Ref sig .tc := ⟨.hbm, 200, rfl⟩
abbrev main_call0_c_24 : Ref sig .tc := ⟨.hbm, 201, rfl⟩
abbrev main_call0_v157 : Ref sig .tc := ⟨.hbm, 202, rfl⟩
abbrev main_call0_v158 : Ref sig .tc := ⟨.hbm, 203, rfl⟩
abbrev main_call0_v159 : Ref sig .tc := ⟨.hbm, 204, rfl⟩
abbrev main_call0_v160 : Ref sig .tc := ⟨.hbm, 205, rfl⟩
abbrev main_call0_v161 : Ref sig .tc := ⟨.hbm, 206, rfl⟩
abbrev main_call0_v162 : Ref sig .tc := ⟨.hbm, 207, rfl⟩
abbrev main_call0_v163 : Ref sig .tc := ⟨.hbm, 208, rfl⟩
abbrev main_call0_v164 : Ref sig .tc := ⟨.hbm, 209, rfl⟩
abbrev main_call0_v165 : Ref sig .tc := ⟨.hbm, 210, rfl⟩
abbrev main_call0_v166 : Ref sig .tc := ⟨.hbm, 211, rfl⟩
abbrev main_call0_v167 : Ref sig .tc := ⟨.hbm, 212, rfl⟩
abbrev main_call0_v168 : Ref sig .tc := ⟨.hbm, 213, rfl⟩
abbrev main_call0_v169 : Ref sig .tc := ⟨.hbm, 214, rfl⟩
abbrev main_call0_v170 : Ref sig .tc := ⟨.hbm, 215, rfl⟩
abbrev main_call0_v171 : Ref sig .tc := ⟨.hbm, 216, rfl⟩
abbrev main_call0_v172 : Ref sig .tc := ⟨.hbm, 217, rfl⟩
abbrev main_call0_v173 : Ref sig .tc := ⟨.hbm, 218, rfl⟩
abbrev main_call0_v174 : Ref sig .tc := ⟨.hbm, 219, rfl⟩
abbrev main_call0_v175 : Ref sig .tc := ⟨.hbm, 220, rfl⟩
abbrev main_call0_v176 : Ref sig .tc := ⟨.hbm, 221, rfl⟩
abbrev main_call0_v177 : Ref sig .tc := ⟨.hbm, 222, rfl⟩
abbrev main_call0_v178 : Ref sig .tc := ⟨.hbm, 223, rfl⟩
abbrev main_call0_v179 : Ref sig .tc := ⟨.hbm, 224, rfl⟩
abbrev main_call0_v180 : Ref sig .tc := ⟨.hbm, 225, rfl⟩
abbrev main_call0_v181 : Ref sig .tc := ⟨.hbm, 226, rfl⟩
abbrev main_call0_v182 : Ref sig .tc := ⟨.hbm, 227, rfl⟩
abbrev main_call0_v183 : Ref sig .tc := ⟨.hbm, 228, rfl⟩
abbrev main_call0_v184 : Ref sig .tc := ⟨.hbm, 229, rfl⟩
abbrev main_call0_v185 : Ref sig .tc := ⟨.hbm, 230, rfl⟩
abbrev main_call0_v186 : Ref sig .tc := ⟨.hbm, 231, rfl⟩
abbrev main_call0_v187 : Ref sig .tc := ⟨.hbm, 232, rfl⟩
abbrev main_call0_v188 : Ref sig .tc := ⟨.hbm, 233, rfl⟩
abbrev main_call0_v189 : Ref sig .tc := ⟨.hbm, 234, rfl⟩
abbrev main_call0_v190 : Ref sig .tc := ⟨.hbm, 235, rfl⟩
abbrev main_call0_v191 : Ref sig .tc := ⟨.hbm, 236, rfl⟩
abbrev main_call0_v192 : Ref sig .tc := ⟨.hbm, 237, rfl⟩
abbrev main_call0_v193 : Ref sig .tc := ⟨.hbm, 238, rfl⟩
abbrev main_call0_cst_25 : Ref sig .tc := ⟨.hbm, 239, rfl⟩
abbrev main_call0_v194 : Ref sig .tc := ⟨.hbm, 240, rfl⟩
abbrev main_call0_v195 : Ref sig .tc := ⟨.hbm, 241, rfl⟩
abbrev main_call0_cst_26 : Ref sig .tc := ⟨.hbm, 242, rfl⟩
abbrev main_call0_v196 : Ref sig .tc := ⟨.hbm, 243, rfl⟩
abbrev main_call0_v197 : Ref sig .tc := ⟨.hbm, 244, rfl⟩
abbrev main_call0_v198 : Ref sig .tc := ⟨.hbm, 245, rfl⟩
abbrev main_call0_v199 : Ref sig .tc := ⟨.hbm, 246, rfl⟩
abbrev main_call0_cst_27 : Ref sig .tc := ⟨.hbm, 247, rfl⟩
abbrev main_call0_v200 : Ref sig .tc := ⟨.hbm, 248, rfl⟩
abbrev main_call0_v201 : Ref sig .tc := ⟨.hbm, 249, rfl⟩
abbrev main_call0_cst_28 : Ref sig .tc := ⟨.hbm, 250, rfl⟩
abbrev main_call0_v202 : Ref sig .tc := ⟨.hbm, 251, rfl⟩
abbrev main_call0_v203 : Ref sig .tc := ⟨.hbm, 252, rfl⟩
abbrev main_call0_v204 : Ref sig .tc := ⟨.hbm, 253, rfl⟩
abbrev main_call0_v205 : Ref sig .tc := ⟨.hbm, 254, rfl⟩
abbrev main_call0_v206 : Ref sig .tc := ⟨.hbm, 255, rfl⟩
abbrev main_call0_v207 : Ref sig .tc := ⟨.hbm, 256, rfl⟩
abbrev main_call0_v208 : Ref sig .tc := ⟨.hbm, 257, rfl⟩
abbrev main_call0_cst_29 : Ref sig .tc := ⟨.hbm, 258, rfl⟩
abbrev main_call0_v209 : Ref sig .tc := ⟨.hbm, 259, rfl⟩
abbrev main_call0_v210 : Ref sig .tc := ⟨.hbm, 260, rfl⟩
abbrev main_call0_cst_30 : Ref sig .tc := ⟨.hbm, 261, rfl⟩
abbrev main_call0_v211 : Ref sig .tc := ⟨.hbm, 262, rfl⟩
abbrev main_call0_v212 : Ref sig .tc := ⟨.hbm, 263, rfl⟩
abbrev main_call0_v213 : Ref sig .tc := ⟨.hbm, 264, rfl⟩
abbrev main_call0_v214 : Ref sig .tc := ⟨.hbm, 265, rfl⟩
abbrev main_call0_v215 : Ref sig .tc := ⟨.hbm, 266, rfl⟩
abbrev main_call0_v216 : Ref sig .tc := ⟨.hbm, 267, rfl⟩
abbrev main_call0_v217 : Ref sig .tc := ⟨.hbm, 268, rfl⟩
abbrev main_call0_cst_31 : Ref sig .tc := ⟨.hbm, 269, rfl⟩
abbrev main_call0_v218 : Ref sig .tc := ⟨.hbm, 270, rfl⟩
abbrev main_call0_v219 : Ref sig .tc := ⟨.hbm, 271, rfl⟩
abbrev main_call0_cst_32 : Ref sig .tc := ⟨.hbm, 272, rfl⟩
abbrev main_call0_v220 : Ref sig .tc := ⟨.hbm, 273, rfl⟩
abbrev main_call0_v221 : Ref sig .tc := ⟨.hbm, 274, rfl⟩
abbrev main_call0_v222 : Ref sig .tc := ⟨.hbm, 275, rfl⟩
abbrev main_call0_v223 : Ref sig .tc := ⟨.hbm, 276, rfl⟩
abbrev main_call0_c_33 : Ref sig .tc := ⟨.hbm, 277, rfl⟩
abbrev main_call0_v224 : Ref sig .tc := ⟨.hbm, 278, rfl⟩
abbrev main_call0_v225 : Ref sig .tc := ⟨.hbm, 279, rfl⟩
abbrev main_call0_c_34 : Ref sig .tc := ⟨.hbm, 280, rfl⟩
abbrev main_call0_v226 : Ref sig .tc := ⟨.hbm, 281, rfl⟩
abbrev main_call0_v227 : Ref sig .tc := ⟨.hbm, 282, rfl⟩
abbrev main_call0_v228 : Ref sig .tc := ⟨.hbm, 283, rfl⟩
abbrev main_call0_v229 : Ref sig .tc := ⟨.hbm, 284, rfl⟩
abbrev main_call0_v230 : Ref sig .tc := ⟨.hbm, 285, rfl⟩
abbrev main_call0_v231 : Ref sig .tc := ⟨.hbm, 286, rfl⟩
abbrev main_call0_v232 : Ref sig .tc := ⟨.hbm, 287, rfl⟩
abbrev main_call0_v233 : Ref sig .tc := ⟨.hbm, 288, rfl⟩
abbrev main_call0_v234 : Ref sig .tc := ⟨.hbm, 289, rfl⟩
abbrev main_call0_v235 : Ref sig .tc := ⟨.hbm, 290, rfl⟩
abbrev main_call0_v236 : Ref sig .tc := ⟨.hbm, 291, rfl⟩
abbrev main_call0_v237 : Ref sig .tc := ⟨.hbm, 292, rfl⟩
abbrev main_call0_v238 : Ref sig .tc := ⟨.hbm, 293, rfl⟩
abbrev main_call0_v239 : Ref sig .tc := ⟨.hbm, 294, rfl⟩
abbrev main_call0_v240 : Ref sig .tc := ⟨.hbm, 295, rfl⟩
abbrev main_call0_v241 : Ref sig .tc := ⟨.hbm, 296, rfl⟩
abbrev main_call0_v242 : Ref sig .tc := ⟨.hbm, 297, rfl⟩
abbrev main_call0_v243 : Ref sig .tc := ⟨.hbm, 298, rfl⟩
abbrev main_call0_v244 : Ref sig .tc := ⟨.hbm, 299, rfl⟩
abbrev main_call0_v245 : Ref sig .tc := ⟨.hbm, 300, rfl⟩
abbrev main_call0_v246 : Ref sig .tc := ⟨.hbm, 301, rfl⟩
abbrev main_call0_v247 : Ref sig .tc := ⟨.hbm, 302, rfl⟩
abbrev main_call0_v248 : Ref sig .tc := ⟨.hbm, 303, rfl⟩
abbrev main_call0_v249 : Ref sig .tc := ⟨.hbm, 304, rfl⟩
abbrev main_call0_v250 : Ref sig .tc := ⟨.hbm, 305, rfl⟩
abbrev main_call0_v251 : Ref sig .tc := ⟨.hbm, 306, rfl⟩
abbrev main_call0_v252 : Ref sig .tc := ⟨.hbm, 307, rfl⟩
abbrev main_call0_v253 : Ref sig .tc := ⟨.hbm, 308, rfl⟩
abbrev main_call0_v254 : Ref sig .tc := ⟨.hbm, 309, rfl⟩
abbrev main_call0_v255 : Ref sig .tc := ⟨.hbm, 310, rfl⟩
abbrev main_call0_v256 : Ref sig .tc := ⟨.hbm, 311, rfl⟩
abbrev main_call0_v257 : Ref sig .tc := ⟨.hbm, 312, rfl⟩
abbrev main_call0_v258 : Ref sig .tc := ⟨.hbm, 313, rfl⟩
abbrev main_call0_v259 : Ref sig .tc := ⟨.hbm, 314, rfl⟩
abbrev main_call0_v260 : Ref sig .tc := ⟨.hbm, 315, rfl⟩
abbrev main_call0_v261 : Ref sig .tc := ⟨.hbm, 316, rfl⟩
abbrev main_call0_v262 : Ref sig .tc := ⟨.hbm, 317, rfl⟩
abbrev main_call0_cst_35 : Ref sig .tc := ⟨.hbm, 318, rfl⟩
abbrev main_call0_v263 : Ref sig .tc := ⟨.hbm, 319, rfl⟩
abbrev main_call0_v264 : Ref sig .tc := ⟨.hbm, 320, rfl⟩
abbrev main_call0_cst_36 : Ref sig .tc := ⟨.hbm, 321, rfl⟩
abbrev main_call0_v265 : Ref sig .tc := ⟨.hbm, 322, rfl⟩
abbrev main_call0_v266 : Ref sig .tc := ⟨.hbm, 323, rfl⟩
abbrev main_call0_v267 : Ref sig .tc := ⟨.hbm, 324, rfl⟩
abbrev main_call0_v268 : Ref sig .tc := ⟨.hbm, 325, rfl⟩
abbrev main_call0_cst_37 : Ref sig .tc := ⟨.hbm, 326, rfl⟩
abbrev main_call0_v269 : Ref sig .tc := ⟨.hbm, 327, rfl⟩
abbrev main_call0_v270 : Ref sig .tc := ⟨.hbm, 328, rfl⟩
abbrev main_call0_cst_38 : Ref sig .tc := ⟨.hbm, 329, rfl⟩
abbrev main_call0_v271 : Ref sig .tc := ⟨.hbm, 330, rfl⟩
abbrev main_call0_v272 : Ref sig .tc := ⟨.hbm, 331, rfl⟩
abbrev main_call0_v273 : Ref sig .tc := ⟨.hbm, 332, rfl⟩
abbrev main_call0_v274 : Ref sig .tc := ⟨.hbm, 333, rfl⟩
abbrev main_call0_v275 : Ref sig .tc := ⟨.hbm, 334, rfl⟩
abbrev main_call0_v276 : Ref sig .tc := ⟨.hbm, 335, rfl⟩
abbrev main_call0_v277 : Ref sig .tc := ⟨.hbm, 336, rfl⟩
abbrev main_call0_cst_39 : Ref sig .tc := ⟨.hbm, 337, rfl⟩
abbrev main_call0_v278 : Ref sig .tc := ⟨.hbm, 338, rfl⟩
abbrev main_call0_v279 : Ref sig .tc := ⟨.hbm, 339, rfl⟩
abbrev main_call0_cst_40 : Ref sig .tc := ⟨.hbm, 340, rfl⟩
abbrev main_call0_v280 : Ref sig .tc := ⟨.hbm, 341, rfl⟩
abbrev main_call0_v281 : Ref sig .tc := ⟨.hbm, 342, rfl⟩
abbrev main_call0_v282 : Ref sig .tc := ⟨.hbm, 343, rfl⟩
abbrev main_call0_v283 : Ref sig .tc := ⟨.hbm, 344, rfl⟩
abbrev main_call0_v284 : Ref sig .tc := ⟨.hbm, 345, rfl⟩
abbrev main_call0_v285 : Ref sig .tc := ⟨.hbm, 346, rfl⟩
abbrev main_call0_v286 : Ref sig .tc := ⟨.hbm, 347, rfl⟩
abbrev main_call0_cst_41 : Ref sig .tc := ⟨.hbm, 348, rfl⟩
abbrev main_call0_v287 : Ref sig .tc := ⟨.hbm, 349, rfl⟩
abbrev main_call0_v288 : Ref sig .tc := ⟨.hbm, 350, rfl⟩
abbrev main_call0_cst_42 : Ref sig .tc := ⟨.hbm, 351, rfl⟩
abbrev main_call0_v289 : Ref sig .tc := ⟨.hbm, 352, rfl⟩
abbrev main_call0_v290 : Ref sig .tc := ⟨.hbm, 353, rfl⟩
abbrev main_call0_v291 : Ref sig .tc := ⟨.hbm, 354, rfl⟩
abbrev main_call0_v292 : Ref sig .tc := ⟨.hbm, 355, rfl⟩
abbrev main_call0_c_43 : Ref sig .tc := ⟨.hbm, 356, rfl⟩
abbrev main_call0_v293 : Ref sig .tc := ⟨.hbm, 357, rfl⟩
abbrev main_call0_v294 : Ref sig .tc := ⟨.hbm, 358, rfl⟩
abbrev main_call0_c_44 : Ref sig .tc := ⟨.hbm, 359, rfl⟩
abbrev main_call0_v295 : Ref sig .tc := ⟨.hbm, 360, rfl⟩
abbrev main_call0_v296 : Ref sig .tc := ⟨.hbm, 361, rfl⟩
abbrev main_call0_v297 : Ref sig .tc := ⟨.hbm, 362, rfl⟩
abbrev main_call0_v298 : Ref sig .tc := ⟨.hbm, 363, rfl⟩
abbrev main_call0_v299 : Ref sig .tc := ⟨.hbm, 364, rfl⟩
abbrev main_call0_v300 : Ref sig .tc := ⟨.hbm, 365, rfl⟩
abbrev main_call0_v301 : Ref sig .tc := ⟨.hbm, 366, rfl⟩
abbrev main_call0_v302 : Ref sig .tc := ⟨.hbm, 367, rfl⟩
abbrev main_call0_v303 : Ref sig .tc := ⟨.hbm, 368, rfl⟩
abbrev main_call0_v304 : Ref sig .tc := ⟨.hbm, 369, rfl⟩
abbrev main_call0_v305 : Ref sig .tc := ⟨.hbm, 370, rfl⟩
abbrev main_call0_v306 : Ref sig .tc := ⟨.hbm, 371, rfl⟩
abbrev main_call0_v307 : Ref sig .tc := ⟨.hbm, 372, rfl⟩
abbrev main_call0_v308 : Ref sig .tc := ⟨.hbm, 373, rfl⟩
abbrev main_call0_v309 : Ref sig .tc := ⟨.hbm, 374, rfl⟩
abbrev main_call0_v310 : Ref sig .tc := ⟨.hbm, 375, rfl⟩
abbrev main_call0_v311 : Ref sig .tc := ⟨.hbm, 376, rfl⟩
abbrev main_call0_v312 : Ref sig .tc := ⟨.hbm, 377, rfl⟩
abbrev main_call0_v313 : Ref sig .tc := ⟨.hbm, 378, rfl⟩
abbrev main_call0_v314 : Ref sig .tc := ⟨.hbm, 379, rfl⟩
abbrev main_call0_v315 : Ref sig .tc := ⟨.hbm, 380, rfl⟩
abbrev main_call0_v316 : Ref sig .tc := ⟨.hbm, 381, rfl⟩
abbrev main_call0_v317 : Ref sig .tc := ⟨.hbm, 382, rfl⟩
abbrev main_call0_v318 : Ref sig .tc := ⟨.hbm, 383, rfl⟩
abbrev main_call0_v319 : Ref sig .tc := ⟨.hbm, 384, rfl⟩
abbrev main_call0_v320 : Ref sig .tc := ⟨.hbm, 385, rfl⟩
abbrev main_call0_v321 : Ref sig .tc := ⟨.hbm, 386, rfl⟩
abbrev main_call0_v322 : Ref sig .tc := ⟨.hbm, 387, rfl⟩
abbrev main_call0_v323 : Ref sig .tc := ⟨.hbm, 388, rfl⟩
abbrev main_call0_v324 : Ref sig .tc := ⟨.hbm, 389, rfl⟩
abbrev main_call0_v325 : Ref sig .tc := ⟨.hbm, 390, rfl⟩
abbrev main_call0_v326 : Ref sig .tc := ⟨.hbm, 391, rfl⟩
abbrev main_call0_v327 : Ref sig .tc := ⟨.hbm, 392, rfl⟩
abbrev main_call0_v328 : Ref sig .tc := ⟨.hbm, 393, rfl⟩
abbrev main_call0_v329 : Ref sig .tc := ⟨.hbm, 394, rfl⟩
abbrev main_call0_v330 : Ref sig .tc := ⟨.hbm, 395, rfl⟩
abbrev main_call0_v331 : Ref sig .tc := ⟨.hbm, 396, rfl⟩
abbrev main_call0_cst_45 : Ref sig .tc := ⟨.hbm, 397, rfl⟩
abbrev main_call0_v332 : Ref sig .tc := ⟨.hbm, 398, rfl⟩
abbrev main_call0_v333 : Ref sig .tc := ⟨.hbm, 399, rfl⟩
abbrev main_call0_cst_46 : Ref sig .tc := ⟨.hbm, 400, rfl⟩
abbrev main_call0_v334 : Ref sig .tc := ⟨.hbm, 401, rfl⟩
abbrev main_call0_v335 : Ref sig .tc := ⟨.hbm, 402, rfl⟩
abbrev main_call0_v336 : Ref sig .tc := ⟨.hbm, 403, rfl⟩
abbrev main_call0_v337 : Ref sig .tc := ⟨.hbm, 404, rfl⟩
abbrev main_call0_cst_47 : Ref sig .tc := ⟨.hbm, 405, rfl⟩
abbrev main_call0_v338 : Ref sig .tc := ⟨.hbm, 406, rfl⟩
abbrev main_call0_v339 : Ref sig .tc := ⟨.hbm, 407, rfl⟩
abbrev main_call0_cst_48 : Ref sig .tc := ⟨.hbm, 408, rfl⟩
abbrev main_call0_v340 : Ref sig .tc := ⟨.hbm, 409, rfl⟩
abbrev main_call0_v341 : Ref sig .tc := ⟨.hbm, 410, rfl⟩
abbrev main_call0_v342 : Ref sig .tc := ⟨.hbm, 411, rfl⟩
abbrev main_call0_v343 : Ref sig .tc := ⟨.hbm, 412, rfl⟩
abbrev main_call0_v344 : Ref sig .tc := ⟨.hbm, 413, rfl⟩
abbrev main_call0_v345 : Ref sig .tc := ⟨.hbm, 414, rfl⟩
abbrev main_call0_v346 : Ref sig .tc := ⟨.hbm, 415, rfl⟩
abbrev main_call0_cst_49 : Ref sig .tc := ⟨.hbm, 416, rfl⟩
abbrev main_call0_v347 : Ref sig .tc := ⟨.hbm, 417, rfl⟩
abbrev main_call0_v348 : Ref sig .tc := ⟨.hbm, 418, rfl⟩
abbrev main_call0_cst_50 : Ref sig .tc := ⟨.hbm, 419, rfl⟩
abbrev main_call0_v349 : Ref sig .tc := ⟨.hbm, 420, rfl⟩
abbrev main_call0_v350 : Ref sig .tc := ⟨.hbm, 421, rfl⟩
abbrev main_call0_v351 : Ref sig .tc := ⟨.hbm, 422, rfl⟩
abbrev main_call0_v352 : Ref sig .tc := ⟨.hbm, 423, rfl⟩
abbrev main_call0_v353 : Ref sig .tc := ⟨.hbm, 424, rfl⟩
abbrev main_call0_v354 : Ref sig .tc := ⟨.hbm, 425, rfl⟩
abbrev main_call0_v355 : Ref sig .tc := ⟨.hbm, 426, rfl⟩
abbrev main_call0_cst_51 : Ref sig .tc := ⟨.hbm, 427, rfl⟩
abbrev main_call0_v356 : Ref sig .tc := ⟨.hbm, 428, rfl⟩
abbrev main_call0_v357 : Ref sig .tc := ⟨.hbm, 429, rfl⟩
abbrev main_call0_cst_52 : Ref sig .tc := ⟨.hbm, 430, rfl⟩
abbrev main_call0_v358 : Ref sig .tc := ⟨.hbm, 431, rfl⟩
abbrev main_call0_v359 : Ref sig .tc := ⟨.hbm, 432, rfl⟩
abbrev main_call0_v360 : Ref sig .tc := ⟨.hbm, 433, rfl⟩
abbrev main_call0_v361 : Ref sig .tc := ⟨.hbm, 434, rfl⟩
abbrev main_call0_c_53 : Ref sig .tc := ⟨.hbm, 435, rfl⟩
abbrev main_call0_v362 : Ref sig .tc := ⟨.hbm, 436, rfl⟩
abbrev main_call0_v363 : Ref sig .tc := ⟨.hbm, 437, rfl⟩
abbrev main_call0_c_54 : Ref sig .tc := ⟨.hbm, 438, rfl⟩
abbrev main_call0_v364 : Ref sig .tc := ⟨.hbm, 439, rfl⟩
abbrev main_call0_v365 : Ref sig .tc := ⟨.hbm, 440, rfl⟩
abbrev main_call0_v366 : Ref sig .tc := ⟨.hbm, 441, rfl⟩
abbrev main_call0_v367 : Ref sig .tc := ⟨.hbm, 442, rfl⟩
abbrev main_call0_v368 : Ref sig .tc := ⟨.hbm, 443, rfl⟩
abbrev main_call0_v369 : Ref sig .tc := ⟨.hbm, 444, rfl⟩
abbrev main_call0_v370 : Ref sig .tc := ⟨.hbm, 445, rfl⟩
abbrev main_call0_v371 : Ref sig .tc := ⟨.hbm, 446, rfl⟩
abbrev main_call0_v372 : Ref sig .tc := ⟨.hbm, 447, rfl⟩
abbrev main_call0_v373 : Ref sig .tc := ⟨.hbm, 448, rfl⟩
abbrev main_call0_v374 : Ref sig .tc := ⟨.hbm, 449, rfl⟩
abbrev main_call0_v375 : Ref sig .tc := ⟨.hbm, 450, rfl⟩
abbrev main_call0_v376 : Ref sig .tc := ⟨.hbm, 451, rfl⟩
abbrev main_call0_v377 : Ref sig .tc := ⟨.hbm, 452, rfl⟩
abbrev main_call0_v378 : Ref sig .tc := ⟨.hbm, 453, rfl⟩
abbrev main_call0_v379 : Ref sig .tc := ⟨.hbm, 454, rfl⟩
abbrev main_call0_v380 : Ref sig .tc := ⟨.hbm, 455, rfl⟩
abbrev main_call0_v381 : Ref sig .tc := ⟨.hbm, 456, rfl⟩
abbrev main_call0_v382 : Ref sig .tc := ⟨.hbm, 457, rfl⟩
abbrev main_call0_v383 : Ref sig .tc := ⟨.hbm, 458, rfl⟩
abbrev main_call0_v384 : Ref sig .tc := ⟨.hbm, 459, rfl⟩
abbrev main_call0_v385 : Ref sig .tc := ⟨.hbm, 460, rfl⟩
abbrev main_call0_v386 : Ref sig .tc := ⟨.hbm, 461, rfl⟩
abbrev main_call0_v387 : Ref sig .tc := ⟨.hbm, 462, rfl⟩
abbrev main_call0_v388 : Ref sig .tc := ⟨.hbm, 463, rfl⟩
abbrev main_call0_v389 : Ref sig .tc := ⟨.hbm, 464, rfl⟩
abbrev main_call0_v390 : Ref sig .tc := ⟨.hbm, 465, rfl⟩
abbrev main_call0_v391 : Ref sig .tc := ⟨.hbm, 466, rfl⟩
abbrev main_call0_v392 : Ref sig .tc := ⟨.hbm, 467, rfl⟩
abbrev main_call0_v393 : Ref sig .tc := ⟨.hbm, 468, rfl⟩
abbrev main_call0_v394 : Ref sig .tc := ⟨.hbm, 469, rfl⟩
abbrev main_call0_v395 : Ref sig .tc := ⟨.hbm, 470, rfl⟩
abbrev main_call0_v396 : Ref sig .tc := ⟨.hbm, 471, rfl⟩
abbrev main_call0_v397 : Ref sig .tc := ⟨.hbm, 472, rfl⟩
abbrev main_call0_v398 : Ref sig .tc := ⟨.hbm, 473, rfl⟩
abbrev main_call0_v399 : Ref sig .tc := ⟨.hbm, 474, rfl⟩
abbrev main_call0_v400 : Ref sig .tc := ⟨.hbm, 475, rfl⟩
abbrev main_call0_cst_55 : Ref sig .tc := ⟨.hbm, 476, rfl⟩
abbrev main_call0_v401 : Ref sig .tc := ⟨.hbm, 477, rfl⟩
abbrev main_call0_v402 : Ref sig .tc := ⟨.hbm, 478, rfl⟩
abbrev main_call0_cst_56 : Ref sig .tc := ⟨.hbm, 479, rfl⟩
abbrev main_call0_v403 : Ref sig .tc := ⟨.hbm, 480, rfl⟩
abbrev main_call0_v404 : Ref sig .tc := ⟨.hbm, 481, rfl⟩
abbrev main_call0_v405 : Ref sig .tc := ⟨.hbm, 482, rfl⟩
abbrev main_call0_v406 : Ref sig .tc := ⟨.hbm, 483, rfl⟩
abbrev main_call0_cst_57 : Ref sig .tc := ⟨.hbm, 484, rfl⟩
abbrev main_call0_v407 : Ref sig .tc := ⟨.hbm, 485, rfl⟩
abbrev main_call0_v408 : Ref sig .tc := ⟨.hbm, 486, rfl⟩
abbrev main_call0_cst_58 : Ref sig .tc := ⟨.hbm, 487, rfl⟩
abbrev main_call0_v409 : Ref sig .tc := ⟨.hbm, 488, rfl⟩
abbrev main_call0_v410 : Ref sig .tc := ⟨.hbm, 489, rfl⟩
abbrev main_call0_v411 : Ref sig .tc := ⟨.hbm, 490, rfl⟩
abbrev main_call0_v412 : Ref sig .tc := ⟨.hbm, 491, rfl⟩
abbrev main_call0_v413 : Ref sig .tc := ⟨.hbm, 492, rfl⟩
abbrev main_call0_v414 : Ref sig .tc := ⟨.hbm, 493, rfl⟩
abbrev main_call0_v415 : Ref sig .tc := ⟨.hbm, 494, rfl⟩
abbrev main_call0_cst_59 : Ref sig .tc := ⟨.hbm, 495, rfl⟩
abbrev main_call0_v416 : Ref sig .tc := ⟨.hbm, 496, rfl⟩
abbrev main_call0_v417 : Ref sig .tc := ⟨.hbm, 497, rfl⟩
abbrev main_call0_cst_60 : Ref sig .tc := ⟨.hbm, 498, rfl⟩
abbrev main_call0_v418 : Ref sig .tc := ⟨.hbm, 499, rfl⟩
abbrev main_call0_v419 : Ref sig .tc := ⟨.hbm, 500, rfl⟩
abbrev main_call0_v420 : Ref sig .tc := ⟨.hbm, 501, rfl⟩
abbrev main_call0_v421 : Ref sig .tc := ⟨.hbm, 502, rfl⟩
abbrev main_call0_v422 : Ref sig .tc := ⟨.hbm, 503, rfl⟩
abbrev main_call0_v423 : Ref sig .tc := ⟨.hbm, 504, rfl⟩
abbrev main_call0_v424 : Ref sig .tc := ⟨.hbm, 505, rfl⟩
abbrev main_call0_cst_61 : Ref sig .tc := ⟨.hbm, 506, rfl⟩
abbrev main_call0_v425 : Ref sig .tc := ⟨.hbm, 507, rfl⟩
abbrev main_call0_v426 : Ref sig .tc := ⟨.hbm, 508, rfl⟩
abbrev main_call0_cst_62 : Ref sig .tc := ⟨.hbm, 509, rfl⟩
abbrev main_call0_v427 : Ref sig .tc := ⟨.hbm, 510, rfl⟩
abbrev main_call0_v428 : Ref sig .tc := ⟨.hbm, 511, rfl⟩
abbrev main_call0_v429 : Ref sig .tc := ⟨.hbm, 512, rfl⟩
abbrev main_call0_v430 : Ref sig .tc := ⟨.hbm, 513, rfl⟩
abbrev main_call0_c_63 : Ref sig .tc := ⟨.hbm, 514, rfl⟩
abbrev main_call0_v431 : Ref sig .tc := ⟨.hbm, 515, rfl⟩
abbrev main_call0_v432 : Ref sig .tc := ⟨.hbm, 516, rfl⟩
abbrev main_call0_c_64 : Ref sig .tc := ⟨.hbm, 517, rfl⟩
abbrev main_call0_v433 : Ref sig .tc := ⟨.hbm, 518, rfl⟩
abbrev main_call0_v434 : Ref sig .tc := ⟨.hbm, 519, rfl⟩
abbrev main_call0_v435 : Ref sig .tc := ⟨.hbm, 520, rfl⟩
abbrev main_call0_v436 : Ref sig .tc := ⟨.hbm, 521, rfl⟩
abbrev main_call0_v437 : Ref sig .tc := ⟨.hbm, 522, rfl⟩
abbrev main_call0_v438 : Ref sig .tc := ⟨.hbm, 523, rfl⟩
abbrev main_call0_v439 : Ref sig .tc := ⟨.hbm, 524, rfl⟩
abbrev main_call0_v440 : Ref sig .tc := ⟨.hbm, 525, rfl⟩
abbrev main_call0_v441 : Ref sig .tc := ⟨.hbm, 526, rfl⟩
abbrev main_call0_v442 : Ref sig .tc := ⟨.hbm, 527, rfl⟩
abbrev main_call0_v443 : Ref sig .tc := ⟨.hbm, 528, rfl⟩
abbrev main_call0_v444 : Ref sig .tc := ⟨.hbm, 529, rfl⟩
abbrev main_call0_v445 : Ref sig .tc := ⟨.hbm, 530, rfl⟩
abbrev main_call0_v446 : Ref sig .tc := ⟨.hbm, 531, rfl⟩
abbrev main_call0_v447 : Ref sig .tc := ⟨.hbm, 532, rfl⟩
abbrev main_call0_v448 : Ref sig .tc := ⟨.hbm, 533, rfl⟩
abbrev main_call0_v449 : Ref sig .tc := ⟨.hbm, 534, rfl⟩
abbrev main_call0_v450 : Ref sig .tc := ⟨.hbm, 535, rfl⟩
abbrev main_call0_v451 : Ref sig .tc := ⟨.hbm, 536, rfl⟩
abbrev main_call0_v452 : Ref sig .tc := ⟨.hbm, 537, rfl⟩
abbrev main_call0_v453 : Ref sig .tc := ⟨.hbm, 538, rfl⟩
abbrev main_call0_v454 : Ref sig .tc := ⟨.hbm, 539, rfl⟩
abbrev main_call0_v455 : Ref sig .tc := ⟨.hbm, 540, rfl⟩
abbrev main_call0_v456 : Ref sig .tc := ⟨.hbm, 541, rfl⟩
abbrev main_call0_v457 : Ref sig .tc := ⟨.hbm, 542, rfl⟩
abbrev main_call0_v458 : Ref sig .tc := ⟨.hbm, 543, rfl⟩
abbrev main_call0_v459 : Ref sig .tc := ⟨.hbm, 544, rfl⟩
abbrev main_call0_v460 : Ref sig .tc := ⟨.hbm, 545, rfl⟩
abbrev main_call0_v461 : Ref sig .tc := ⟨.hbm, 546, rfl⟩
abbrev main_call0_v462 : Ref sig .tc := ⟨.hbm, 547, rfl⟩
abbrev main_call0_v463 : Ref sig .tc := ⟨.hbm, 548, rfl⟩
abbrev main_call0_v464 : Ref sig .tc := ⟨.hbm, 549, rfl⟩
abbrev main_call0_v465 : Ref sig .tc := ⟨.hbm, 550, rfl⟩
abbrev main_call0_v466 : Ref sig .tc := ⟨.hbm, 551, rfl⟩
abbrev main_call0_v467 : Ref sig .tc := ⟨.hbm, 552, rfl⟩
abbrev main_call0_v468 : Ref sig .tc := ⟨.hbm, 553, rfl⟩
abbrev main_call0_v469 : Ref sig .tc := ⟨.hbm, 554, rfl⟩
abbrev main_call0_cst_65 : Ref sig .tc := ⟨.hbm, 555, rfl⟩
abbrev main_call0_v470 : Ref sig .tc := ⟨.hbm, 556, rfl⟩
abbrev main_call0_v471 : Ref sig .tc := ⟨.hbm, 557, rfl⟩
abbrev main_call0_cst_66 : Ref sig .tc := ⟨.hbm, 558, rfl⟩
abbrev main_call0_v472 : Ref sig .tc := ⟨.hbm, 559, rfl⟩
abbrev main_call0_v473 : Ref sig .tc := ⟨.hbm, 560, rfl⟩
abbrev main_call0_v474 : Ref sig .tc := ⟨.hbm, 561, rfl⟩
abbrev main_call0_v475 : Ref sig .tc := ⟨.hbm, 562, rfl⟩
abbrev main_call0_cst_67 : Ref sig .tc := ⟨.hbm, 563, rfl⟩
abbrev main_call0_v476 : Ref sig .tc := ⟨.hbm, 564, rfl⟩
abbrev main_call0_v477 : Ref sig .tc := ⟨.hbm, 565, rfl⟩
abbrev main_call0_cst_68 : Ref sig .tc := ⟨.hbm, 566, rfl⟩
abbrev main_call0_v478 : Ref sig .tc := ⟨.hbm, 567, rfl⟩
abbrev main_call0_v479 : Ref sig .tc := ⟨.hbm, 568, rfl⟩
abbrev main_call0_v480 : Ref sig .tc := ⟨.hbm, 569, rfl⟩
abbrev main_call0_v481 : Ref sig .tc := ⟨.hbm, 570, rfl⟩
abbrev main_call0_v482 : Ref sig .tc := ⟨.hbm, 571, rfl⟩
abbrev main_call0_v483 : Ref sig .tc := ⟨.hbm, 572, rfl⟩
abbrev main_call0_v484 : Ref sig .tc := ⟨.hbm, 573, rfl⟩
abbrev main_call0_cst_69 : Ref sig .tc := ⟨.hbm, 574, rfl⟩
abbrev main_call0_v485 : Ref sig .tc := ⟨.hbm, 575, rfl⟩
abbrev main_call0_v486 : Ref sig .tc := ⟨.hbm, 576, rfl⟩
abbrev main_call0_cst_70 : Ref sig .tc := ⟨.hbm, 577, rfl⟩
abbrev main_call0_v487 : Ref sig .tc := ⟨.hbm, 578, rfl⟩
abbrev main_call0_v488 : Ref sig .tc := ⟨.hbm, 579, rfl⟩
abbrev main_call0_v489 : Ref sig .tc := ⟨.hbm, 580, rfl⟩
abbrev main_call0_v490 : Ref sig .tc := ⟨.hbm, 581, rfl⟩
abbrev main_call0_v491 : Ref sig .tc := ⟨.hbm, 582, rfl⟩
abbrev main_call0_v492 : Ref sig .tc := ⟨.hbm, 583, rfl⟩
abbrev main_call0_v493 : Ref sig .tc := ⟨.hbm, 584, rfl⟩
abbrev main_call0_cst_71 : Ref sig .tc := ⟨.hbm, 585, rfl⟩
abbrev main_call0_v494 : Ref sig .tc := ⟨.hbm, 586, rfl⟩
abbrev main_call0_v495 : Ref sig .tc := ⟨.hbm, 587, rfl⟩
abbrev main_call0_cst_72 : Ref sig .tc := ⟨.hbm, 588, rfl⟩
abbrev main_call0_v496 : Ref sig .tc := ⟨.hbm, 589, rfl⟩
abbrev main_call0_v497 : Ref sig .tc := ⟨.hbm, 590, rfl⟩
abbrev main_call0_v498 : Ref sig .tc := ⟨.hbm, 591, rfl⟩
abbrev main_call0_v499 : Ref sig .tc := ⟨.hbm, 592, rfl⟩
abbrev main_call0_c_73 : Ref sig .tc := ⟨.hbm, 593, rfl⟩
abbrev main_call0_v500 : Ref sig .tc := ⟨.hbm, 594, rfl⟩
abbrev main_call0_v501 : Ref sig .tc := ⟨.hbm, 595, rfl⟩
abbrev main_call0_c_74 : Ref sig .tc := ⟨.hbm, 596, rfl⟩
abbrev main_call0_v502 : Ref sig .tc := ⟨.hbm, 597, rfl⟩
abbrev main_call0_v503 : Ref sig .tc := ⟨.hbm, 598, rfl⟩
abbrev main_call0_v504 : Ref sig .tc := ⟨.hbm, 599, rfl⟩
abbrev main_call0_v505 : Ref sig .tc := ⟨.hbm, 600, rfl⟩
abbrev main_call0_v506 : Ref sig .tc := ⟨.hbm, 601, rfl⟩
abbrev main_call0_v507 : Ref sig .tc := ⟨.hbm, 602, rfl⟩
abbrev main_call0_v508 : Ref sig .tc := ⟨.hbm, 603, rfl⟩
abbrev main_call0_v509 : Ref sig .tc := ⟨.hbm, 604, rfl⟩
abbrev main_call0_v510 : Ref sig .tc := ⟨.hbm, 605, rfl⟩
abbrev main_call0_v511 : Ref sig .tc := ⟨.hbm, 606, rfl⟩
abbrev main_call0_v512 : Ref sig .tc := ⟨.hbm, 607, rfl⟩
abbrev main_call0_v513 : Ref sig .tc := ⟨.hbm, 608, rfl⟩
abbrev main_call0_v514 : Ref sig .tc := ⟨.hbm, 609, rfl⟩
abbrev main_call0_v515 : Ref sig .tc := ⟨.hbm, 610, rfl⟩
abbrev main_call0_v516 : Ref sig .tc := ⟨.hbm, 611, rfl⟩
abbrev main_call0_v517 : Ref sig .tc := ⟨.hbm, 612, rfl⟩
abbrev main_call0_v518 : Ref sig .tc := ⟨.hbm, 613, rfl⟩
abbrev main_call0_v519 : Ref sig .tc := ⟨.hbm, 614, rfl⟩
abbrev main_call0_v520 : Ref sig .tc := ⟨.hbm, 615, rfl⟩
abbrev main_call0_v521 : Ref sig .tc := ⟨.hbm, 616, rfl⟩
abbrev main_call0_v522 : Ref sig .tc := ⟨.hbm, 617, rfl⟩
abbrev main_call0_v523 : Ref sig .tc := ⟨.hbm, 618, rfl⟩
abbrev main_call0_v524 : Ref sig .tc := ⟨.hbm, 619, rfl⟩
abbrev main_call0_v525 : Ref sig .tc := ⟨.hbm, 620, rfl⟩
abbrev main_call0_v526 : Ref sig .tc := ⟨.hbm, 621, rfl⟩
abbrev main_call0_v527 : Ref sig .tc := ⟨.hbm, 622, rfl⟩
abbrev main_call0_v528 : Ref sig .tc := ⟨.hbm, 623, rfl⟩
abbrev main_call0_v529 : Ref sig .tc := ⟨.hbm, 624, rfl⟩
abbrev main_call0_v530 : Ref sig .tc := ⟨.hbm, 625, rfl⟩
abbrev main_call0_v531 : Ref sig .tc := ⟨.hbm, 626, rfl⟩
abbrev main_call0_v532 : Ref sig .tc := ⟨.hbm, 627, rfl⟩
abbrev main_call0_v533 : Ref sig .tc := ⟨.hbm, 628, rfl⟩
abbrev main_call0_v534 : Ref sig .tc := ⟨.hbm, 629, rfl⟩
abbrev main_call0_v535 : Ref sig .tc := ⟨.hbm, 630, rfl⟩
abbrev main_call0_v536 : Ref sig .tc := ⟨.hbm, 631, rfl⟩
abbrev main_call0_v537 : Ref sig .tc := ⟨.hbm, 632, rfl⟩
abbrev main_call0_v538 : Ref sig .tc := ⟨.hbm, 633, rfl⟩
abbrev main_call0_cst_75 : Ref sig .tc := ⟨.hbm, 634, rfl⟩
abbrev main_call0_v539 : Ref sig .tc := ⟨.hbm, 635, rfl⟩
abbrev main_call0_v540 : Ref sig .tc := ⟨.hbm, 636, rfl⟩
abbrev main_call0_cst_76 : Ref sig .tc := ⟨.hbm, 637, rfl⟩
abbrev main_call0_v541 : Ref sig .tc := ⟨.hbm, 638, rfl⟩
abbrev main_call0_v542 : Ref sig .tc := ⟨.hbm, 639, rfl⟩
abbrev main_call0_v543 : Ref sig .tc := ⟨.hbm, 640, rfl⟩
abbrev main_call0_v544 : Ref sig .tc := ⟨.hbm, 641, rfl⟩
abbrev main_call0_cst_77 : Ref sig .tc := ⟨.hbm, 642, rfl⟩
abbrev main_call0_v545 : Ref sig .tc := ⟨.hbm, 643, rfl⟩
abbrev main_call0_v546 : Ref sig .tc := ⟨.hbm, 644, rfl⟩
abbrev main_call0_cst_78 : Ref sig .tc := ⟨.hbm, 645, rfl⟩
abbrev main_call0_v547 : Ref sig .tc := ⟨.hbm, 646, rfl⟩
abbrev main_call0_v548 : Ref sig .tc := ⟨.hbm, 647, rfl⟩
abbrev main_call0_v549 : Ref sig .tc := ⟨.hbm, 648, rfl⟩
abbrev main_call0_v550 : Ref sig .tc := ⟨.hbm, 649, rfl⟩
abbrev main_call0_v551 : Ref sig .tc := ⟨.hbm, 650, rfl⟩
abbrev main_call0_v552 : Ref sig .tc := ⟨.hbm, 651, rfl⟩
abbrev main_call0_v553 : Ref sig .tc := ⟨.hbm, 652, rfl⟩
abbrev main_call0_cst_79 : Ref sig .tc := ⟨.hbm, 653, rfl⟩
abbrev main_call0_v554 : Ref sig .tc := ⟨.hbm, 654, rfl⟩
abbrev main_call0_v555 : Ref sig .tc := ⟨.hbm, 655, rfl⟩
abbrev main_call0_cst_80 : Ref sig .tc := ⟨.hbm, 656, rfl⟩
abbrev main_call0_v556 : Ref sig .tc := ⟨.hbm, 657, rfl⟩
abbrev main_call0_v557 : Ref sig .tc := ⟨.hbm, 658, rfl⟩
abbrev main_call0_v558 : Ref sig .tc := ⟨.hbm, 659, rfl⟩
abbrev main_call0_v559 : Ref sig .tc := ⟨.hbm, 660, rfl⟩
abbrev main_call0_v560 : Ref sig .tc := ⟨.hbm, 661, rfl⟩
abbrev main_call0_v561 : Ref sig .tc := ⟨.hbm, 662, rfl⟩
abbrev main_call0_v562 : Ref sig .tc := ⟨.hbm, 663, rfl⟩
abbrev main_call0_cst_81 : Ref sig .tc := ⟨.hbm, 664, rfl⟩
abbrev main_call0_v563 : Ref sig .tc := ⟨.hbm, 665, rfl⟩
abbrev main_call0_v564 : Ref sig .tc := ⟨.hbm, 666, rfl⟩
abbrev main_call0_cst_82 : Ref sig .tc := ⟨.hbm, 667, rfl⟩
abbrev main_call0_v565 : Ref sig .tc := ⟨.hbm, 668, rfl⟩
abbrev main_call0_v566 : Ref sig .tc := ⟨.hbm, 669, rfl⟩
abbrev main_call0_v567 : Ref sig .tc := ⟨.hbm, 670, rfl⟩
abbrev main_call0_v568 : Ref sig .tc := ⟨.hbm, 671, rfl⟩
abbrev main_call0_c_83 : Ref sig .tc := ⟨.hbm, 672, rfl⟩
abbrev main_call0_v569 : Ref sig .tc := ⟨.hbm, 673, rfl⟩
abbrev main_call0_v570 : Ref sig .tc := ⟨.hbm, 674, rfl⟩
abbrev main_call0_c_84 : Ref sig .tc := ⟨.hbm, 675, rfl⟩
abbrev main_call0_v571 : Ref sig .tc := ⟨.hbm, 676, rfl⟩
abbrev main_call0_v572 : Ref sig .tc := ⟨.hbm, 677, rfl⟩
abbrev main_call0_v573 : Ref sig .tc := ⟨.hbm, 678, rfl⟩
abbrev main_call0_v574 : Ref sig .tc := ⟨.hbm, 679, rfl⟩
abbrev main_call0_v575 : Ref sig .tc := ⟨.hbm, 680, rfl⟩
abbrev main_call0_v576 : Ref sig .tc := ⟨.hbm, 681, rfl⟩
abbrev main_call0_v577 : Ref sig .tc := ⟨.hbm, 682, rfl⟩
abbrev main_call0_v578 : Ref sig .tc := ⟨.hbm, 683, rfl⟩
abbrev main_call0_v579 : Ref sig .tc := ⟨.hbm, 684, rfl⟩
abbrev main_call0_v580 : Ref sig .tc := ⟨.hbm, 685, rfl⟩
abbrev main_call0_v581 : Ref sig .tc := ⟨.hbm, 686, rfl⟩
abbrev main_call0_v582 : Ref sig .tc := ⟨.hbm, 687, rfl⟩
abbrev main_call0_v583 : Ref sig .tc := ⟨.hbm, 688, rfl⟩
abbrev main_call0_v584 : Ref sig .tc := ⟨.hbm, 689, rfl⟩
abbrev main_call0_v585 : Ref sig .tc := ⟨.hbm, 690, rfl⟩
abbrev main_call0_v586 : Ref sig .tc := ⟨.hbm, 691, rfl⟩
abbrev main_call0_v587 : Ref sig .tc := ⟨.hbm, 692, rfl⟩
abbrev main_call0_v588 : Ref sig .tc := ⟨.hbm, 693, rfl⟩
abbrev main_call0_v589 : Ref sig .tc := ⟨.hbm, 694, rfl⟩
abbrev main_call0_v590 : Ref sig .tc := ⟨.hbm, 695, rfl⟩
abbrev main_call0_v591 : Ref sig .tc := ⟨.hbm, 696, rfl⟩
abbrev main_call0_v592 : Ref sig .tc := ⟨.hbm, 697, rfl⟩
abbrev main_call0_v593 : Ref sig .tc := ⟨.hbm, 698, rfl⟩
abbrev main_call0_v594 : Ref sig .tc := ⟨.hbm, 699, rfl⟩
abbrev main_call0_v595 : Ref sig .tc := ⟨.hbm, 700, rfl⟩
abbrev main_call0_v596 : Ref sig .tc := ⟨.hbm, 701, rfl⟩
abbrev main_call0_v597 : Ref sig .tc := ⟨.hbm, 702, rfl⟩
abbrev main_call0_v598 : Ref sig .tc := ⟨.hbm, 703, rfl⟩
abbrev main_call0_v599 : Ref sig .tc := ⟨.hbm, 704, rfl⟩
abbrev main_call0_v600 : Ref sig .tc := ⟨.hbm, 705, rfl⟩
abbrev main_call0_v601 : Ref sig .tc := ⟨.hbm, 706, rfl⟩
abbrev main_call0_v602 : Ref sig .tc := ⟨.hbm, 707, rfl⟩
abbrev main_call0_v603 : Ref sig .tc := ⟨.hbm, 708, rfl⟩
abbrev main_call0_v604 : Ref sig .tc := ⟨.hbm, 709, rfl⟩
abbrev main_call0_v605 : Ref sig .tc := ⟨.hbm, 710, rfl⟩
abbrev main_call0_v606 : Ref sig .tc := ⟨.hbm, 711, rfl⟩
abbrev main_call0_v607 : Ref sig .tc := ⟨.hbm, 712, rfl⟩
abbrev main_call0_cst_85 : Ref sig .tc := ⟨.hbm, 713, rfl⟩
abbrev main_call0_v608 : Ref sig .tc := ⟨.hbm, 714, rfl⟩
abbrev main_call0_v609 : Ref sig .tc := ⟨.hbm, 715, rfl⟩
abbrev main_call0_cst_86 : Ref sig .tc := ⟨.hbm, 716, rfl⟩
abbrev main_call0_v610 : Ref sig .tc := ⟨.hbm, 717, rfl⟩
abbrev main_call0_v611 : Ref sig .tc := ⟨.hbm, 718, rfl⟩
abbrev main_call0_v612 : Ref sig .tc := ⟨.hbm, 719, rfl⟩
abbrev main_call0_v613 : Ref sig .tc := ⟨.hbm, 720, rfl⟩
abbrev main_call0_cst_87 : Ref sig .tc := ⟨.hbm, 721, rfl⟩
abbrev main_call0_v614 : Ref sig .tc := ⟨.hbm, 722, rfl⟩
abbrev main_call0_v615 : Ref sig .tc := ⟨.hbm, 723, rfl⟩
abbrev main_call0_cst_88 : Ref sig .tc := ⟨.hbm, 724, rfl⟩
abbrev main_call0_v616 : Ref sig .tc := ⟨.hbm, 725, rfl⟩
abbrev main_call0_v617 : Ref sig .tc := ⟨.hbm, 726, rfl⟩
abbrev main_call0_v618 : Ref sig .tc := ⟨.hbm, 727, rfl⟩
abbrev main_call0_v619 : Ref sig .tc := ⟨.hbm, 728, rfl⟩
abbrev main_call0_v620 : Ref sig .tc := ⟨.hbm, 729, rfl⟩
abbrev main_call0_v621 : Ref sig .tc := ⟨.hbm, 730, rfl⟩
abbrev main_call0_v622 : Ref sig .tc := ⟨.hbm, 731, rfl⟩
abbrev main_call0_cst_89 : Ref sig .tc := ⟨.hbm, 732, rfl⟩
abbrev main_call0_v623 : Ref sig .tc := ⟨.hbm, 733, rfl⟩
abbrev main_call0_v624 : Ref sig .tc := ⟨.hbm, 734, rfl⟩
abbrev main_call0_cst_90 : Ref sig .tc := ⟨.hbm, 735, rfl⟩
abbrev main_call0_v625 : Ref sig .tc := ⟨.hbm, 736, rfl⟩
abbrev main_call0_v626 : Ref sig .tc := ⟨.hbm, 737, rfl⟩
abbrev main_call0_v627 : Ref sig .tc := ⟨.hbm, 738, rfl⟩
abbrev main_call0_v628 : Ref sig .tc := ⟨.hbm, 739, rfl⟩
abbrev main_call0_v629 : Ref sig .tc := ⟨.hbm, 740, rfl⟩
abbrev main_call0_v630 : Ref sig .tc := ⟨.hbm, 741, rfl⟩
abbrev main_call0_v631 : Ref sig .tc := ⟨.hbm, 742, rfl⟩
abbrev main_call0_cst_91 : Ref sig .tc := ⟨.hbm, 743, rfl⟩
abbrev main_call0_v632 : Ref sig .tc := ⟨.hbm, 744, rfl⟩
abbrev main_call0_v633 : Ref sig .tc := ⟨.hbm, 745, rfl⟩
abbrev main_call0_cst_92 : Ref sig .tc := ⟨.hbm, 746, rfl⟩
abbrev main_call0_v634 : Ref sig .tc := ⟨.hbm, 747, rfl⟩
abbrev main_call0_v635 : Ref sig .tc := ⟨.hbm, 748, rfl⟩
abbrev main_call0_v636 : Ref sig .tc := ⟨.hbm, 749, rfl⟩
abbrev main_call0_v637 : Ref sig .tc := ⟨.hbm, 750, rfl⟩
abbrev main_call0_c_93 : Ref sig .tc := ⟨.hbm, 751, rfl⟩
abbrev main_call0_v638 : Ref sig .tc := ⟨.hbm, 752, rfl⟩
abbrev main_call0_v639 : Ref sig .tc := ⟨.hbm, 753, rfl⟩
abbrev main_call0_c_94 : Ref sig .tc := ⟨.hbm, 754, rfl⟩
abbrev main_call0_v640 : Ref sig .tc := ⟨.hbm, 755, rfl⟩
abbrev main_call0_v641 : Ref sig .tc := ⟨.hbm, 756, rfl⟩
abbrev main_call0_v642 : Ref sig .tc := ⟨.hbm, 757, rfl⟩
abbrev main_call0_v643 : Ref sig .tc := ⟨.hbm, 758, rfl⟩
abbrev main_call0_v644 : Ref sig .tc := ⟨.hbm, 759, rfl⟩
abbrev main_call0_v645 : Ref sig .tc := ⟨.hbm, 760, rfl⟩
abbrev main_call0_v646 : Ref sig .tc := ⟨.hbm, 761, rfl⟩
abbrev main_call0_v647 : Ref sig .tc := ⟨.hbm, 762, rfl⟩
abbrev main_call0_v648 : Ref sig .tc := ⟨.hbm, 763, rfl⟩
abbrev main_call0_v649 : Ref sig .tc := ⟨.hbm, 764, rfl⟩
abbrev main_call0_v650 : Ref sig .tc := ⟨.hbm, 765, rfl⟩
abbrev main_call0_v651 : Ref sig .tc := ⟨.hbm, 766, rfl⟩
abbrev main_call0_v652 : Ref sig .tc := ⟨.hbm, 767, rfl⟩
abbrev main_call0_v653 : Ref sig .tc := ⟨.hbm, 768, rfl⟩
abbrev main_call0_v654 : Ref sig .tc := ⟨.hbm, 769, rfl⟩
abbrev main_call0_v655 : Ref sig .tc := ⟨.hbm, 770, rfl⟩
abbrev main_call0_v656 : Ref sig .tc := ⟨.hbm, 771, rfl⟩
abbrev main_call0_v657 : Ref sig .tc := ⟨.hbm, 772, rfl⟩
abbrev main_call0_v658 : Ref sig .tc := ⟨.hbm, 773, rfl⟩
abbrev main_call0_v659 : Ref sig .tc := ⟨.hbm, 774, rfl⟩
abbrev main_call0_v660 : Ref sig .tc := ⟨.hbm, 775, rfl⟩
abbrev main_call0_v661 : Ref sig .tc := ⟨.hbm, 776, rfl⟩
abbrev main_call0_v662 : Ref sig .tc := ⟨.hbm, 777, rfl⟩
abbrev main_call0_v663 : Ref sig .tc := ⟨.hbm, 778, rfl⟩
abbrev main_call0_v664 : Ref sig .tc := ⟨.hbm, 779, rfl⟩
abbrev main_call0_v665 : Ref sig .tc := ⟨.hbm, 780, rfl⟩
abbrev main_call0_v666 : Ref sig .tc := ⟨.hbm, 781, rfl⟩
abbrev main_call0_v667 : Ref sig .tc := ⟨.hbm, 782, rfl⟩
abbrev main_call0_v668 : Ref sig .tc := ⟨.hbm, 783, rfl⟩
abbrev main_call0_v669 : Ref sig .tc := ⟨.hbm, 784, rfl⟩
abbrev main_call0_v670 : Ref sig .tc := ⟨.hbm, 785, rfl⟩
abbrev main_call0_v671 : Ref sig .tc := ⟨.hbm, 786, rfl⟩
abbrev main_call0_v672 : Ref sig .tc := ⟨.hbm, 787, rfl⟩
abbrev main_call0_v673 : Ref sig .tc := ⟨.hbm, 788, rfl⟩
abbrev main_call0_v674 : Ref sig .tc := ⟨.hbm, 789, rfl⟩
abbrev main_call0_v675 : Ref sig .tc := ⟨.hbm, 790, rfl⟩
abbrev main_call0_v676 : Ref sig .tc := ⟨.hbm, 791, rfl⟩
abbrev main_call0_cst_95 : Ref sig .tc := ⟨.hbm, 792, rfl⟩
abbrev main_call0_v677 : Ref sig .tc := ⟨.hbm, 793, rfl⟩
abbrev main_call0_v678 : Ref sig .tc := ⟨.hbm, 794, rfl⟩
abbrev main_call0_cst_96 : Ref sig .tc := ⟨.hbm, 795, rfl⟩
abbrev main_call0_v679 : Ref sig .tc := ⟨.hbm, 796, rfl⟩
abbrev main_call0_v680 : Ref sig .tc := ⟨.hbm, 797, rfl⟩
abbrev main_call0_v681 : Ref sig .tc := ⟨.hbm, 798, rfl⟩
abbrev main_call0_v682 : Ref sig .tc := ⟨.hbm, 799, rfl⟩
abbrev main_call0_cst_97 : Ref sig .tc := ⟨.hbm, 800, rfl⟩
abbrev main_call0_v683 : Ref sig .tc := ⟨.hbm, 801, rfl⟩
abbrev main_call0_v684 : Ref sig .tc := ⟨.hbm, 802, rfl⟩
abbrev main_call0_cst_98 : Ref sig .tc := ⟨.hbm, 803, rfl⟩
abbrev main_call0_v685 : Ref sig .tc := ⟨.hbm, 804, rfl⟩
abbrev main_call0_v686 : Ref sig .tc := ⟨.hbm, 805, rfl⟩
abbrev main_call0_v687 : Ref sig .tc := ⟨.hbm, 806, rfl⟩
abbrev main_call0_v688 : Ref sig .tc := ⟨.hbm, 807, rfl⟩
abbrev main_call0_v689 : Ref sig .tc := ⟨.hbm, 808, rfl⟩
abbrev main_call0_v690 : Ref sig .tc := ⟨.hbm, 809, rfl⟩
abbrev main_call0_v691 : Ref sig .tc := ⟨.hbm, 810, rfl⟩
abbrev main_call0_cst_99 : Ref sig .tc := ⟨.hbm, 811, rfl⟩
abbrev main_call0_v692 : Ref sig .tc := ⟨.hbm, 812, rfl⟩
abbrev main_call0_v693 : Ref sig .tc := ⟨.hbm, 813, rfl⟩
abbrev main_call0_cst_100 : Ref sig .tc := ⟨.hbm, 814, rfl⟩
abbrev main_call0_v694 : Ref sig .tc := ⟨.hbm, 815, rfl⟩
abbrev main_call0_v695 : Ref sig .tc := ⟨.hbm, 816, rfl⟩
abbrev main_call0_v696 : Ref sig .tc := ⟨.hbm, 817, rfl⟩
abbrev main_call0_v697 : Ref sig .tc := ⟨.hbm, 818, rfl⟩
abbrev main_call0_v698 : Ref sig .tc := ⟨.hbm, 819, rfl⟩
abbrev main_call0_v699 : Ref sig .tc := ⟨.hbm, 820, rfl⟩
abbrev main_call0_v700 : Ref sig .tc := ⟨.hbm, 821, rfl⟩
abbrev main_call0_cst_101 : Ref sig .tc := ⟨.hbm, 822, rfl⟩
abbrev main_call0_v701 : Ref sig .tc := ⟨.hbm, 823, rfl⟩
abbrev main_call0_v702 : Ref sig .tc := ⟨.hbm, 824, rfl⟩
abbrev main_call0_cst_102 : Ref sig .tc := ⟨.hbm, 825, rfl⟩
abbrev main_call0_v703 : Ref sig .tc := ⟨.hbm, 826, rfl⟩
abbrev main_call0_v704 : Ref sig .tc := ⟨.hbm, 827, rfl⟩
abbrev main_call0_v705 : Ref sig .tc := ⟨.hbm, 828, rfl⟩
abbrev main_call0_v706 : Ref sig .tc := ⟨.hbm, 829, rfl⟩
abbrev main_call0_c_103 : Ref sig .tc := ⟨.hbm, 830, rfl⟩
abbrev main_call0_v707 : Ref sig .tc := ⟨.hbm, 831, rfl⟩
abbrev main_call0_v708 : Ref sig .tc := ⟨.hbm, 832, rfl⟩
abbrev main_call0_c_104 : Ref sig .tc := ⟨.hbm, 833, rfl⟩
abbrev main_call0_v709 : Ref sig .tc := ⟨.hbm, 834, rfl⟩
abbrev main_call0_v710 : Ref sig .tc := ⟨.hbm, 835, rfl⟩
abbrev main_call0_v711 : Ref sig .tc := ⟨.hbm, 836, rfl⟩
abbrev main_call0_v712 : Ref sig .tc := ⟨.hbm, 837, rfl⟩
abbrev main_call0_v713 : Ref sig .tc := ⟨.hbm, 838, rfl⟩
abbrev main_call0_v714 : Ref sig .tc := ⟨.hbm, 839, rfl⟩
abbrev main_call0_v715 : Ref sig .tc := ⟨.hbm, 840, rfl⟩
abbrev main_call0_v716 : Ref sig .tc := ⟨.hbm, 841, rfl⟩
abbrev main_call0_v717 : Ref sig .tc := ⟨.hbm, 842, rfl⟩
abbrev main_call0_v718 : Ref sig .tc := ⟨.hbm, 843, rfl⟩
abbrev main_call0_v719 : Ref sig .tc := ⟨.hbm, 844, rfl⟩
abbrev main_call0_v720 : Ref sig .tc := ⟨.hbm, 845, rfl⟩
abbrev main_call0_v721 : Ref sig .tc := ⟨.hbm, 846, rfl⟩
abbrev main_call0_v722 : Ref sig .tc := ⟨.hbm, 847, rfl⟩
abbrev main_call0_v723 : Ref sig .tc := ⟨.hbm, 848, rfl⟩
abbrev main_call0_v724 : Ref sig .tc := ⟨.hbm, 849, rfl⟩
abbrev main_call0_v725 : Ref sig .tc := ⟨.hbm, 850, rfl⟩
abbrev main_call0_v726 : Ref sig .tc := ⟨.hbm, 851, rfl⟩
abbrev main_call0_v727 : Ref sig .tc := ⟨.hbm, 852, rfl⟩
abbrev main_call0_v728 : Ref sig .tc := ⟨.hbm, 853, rfl⟩
abbrev main_call0_v729 : Ref sig .tc := ⟨.hbm, 854, rfl⟩
abbrev main_call0_v730 : Ref sig .tc := ⟨.hbm, 855, rfl⟩
abbrev main_call0_v731 : Ref sig .tc := ⟨.hbm, 856, rfl⟩
abbrev main_call0_v732 : Ref sig .tc := ⟨.hbm, 857, rfl⟩
abbrev main_call0_v733 : Ref sig .tc := ⟨.hbm, 858, rfl⟩
abbrev main_call0_v734 : Ref sig .tc := ⟨.hbm, 859, rfl⟩
abbrev main_call0_v735 : Ref sig .tc := ⟨.hbm, 860, rfl⟩
abbrev main_call0_v736 : Ref sig .tc := ⟨.hbm, 861, rfl⟩
abbrev main_call0_v737 : Ref sig .tc := ⟨.hbm, 862, rfl⟩
abbrev main_call0_v738 : Ref sig .tc := ⟨.hbm, 863, rfl⟩
abbrev main_call0_v739 : Ref sig .tc := ⟨.hbm, 864, rfl⟩
abbrev main_call0_v740 : Ref sig .tc := ⟨.hbm, 865, rfl⟩
abbrev main_call0_v741 : Ref sig .tc := ⟨.hbm, 866, rfl⟩
abbrev main_call0_v742 : Ref sig .tc := ⟨.hbm, 867, rfl⟩
abbrev main_call0_cst_105 : Ref sig .tc := ⟨.hbm, 868, rfl⟩
abbrev main_call0_v743 : Ref sig .tc := ⟨.hbm, 869, rfl⟩
abbrev main_call0_v744 : Ref sig .tc := ⟨.hbm, 870, rfl⟩
abbrev main_call0_cst_106 : Ref sig .tc := ⟨.hbm, 871, rfl⟩
abbrev main_call0_v745 : Ref sig .tc := ⟨.hbm, 872, rfl⟩
abbrev main_call0_v746 : Ref sig .tc := ⟨.hbm, 873, rfl⟩
abbrev main_call0_v747 : Ref sig .tc := ⟨.hbm, 874, rfl⟩
abbrev main_call0_v748 : Ref sig .tc := ⟨.hbm, 875, rfl⟩
abbrev main_call0_cst_107 : Ref sig .tc := ⟨.hbm, 876, rfl⟩
abbrev main_call0_v749 : Ref sig .tc := ⟨.hbm, 877, rfl⟩
abbrev main_call0_v750 : Ref sig .tc := ⟨.hbm, 878, rfl⟩
abbrev main_call0_cst_108 : Ref sig .tc := ⟨.hbm, 879, rfl⟩
abbrev main_call0_v751 : Ref sig .tc := ⟨.hbm, 880, rfl⟩
abbrev main_call0_v752 : Ref sig .tc := ⟨.hbm, 881, rfl⟩
abbrev main_call0_v753 : Ref sig .tc := ⟨.hbm, 882, rfl⟩
abbrev main_call0_v754 : Ref sig .tc := ⟨.hbm, 883, rfl⟩
abbrev main_call0_v755 : Ref sig .tc := ⟨.hbm, 884, rfl⟩
abbrev main_call0_v756 : Ref sig .tc := ⟨.hbm, 885, rfl⟩
abbrev main_call0_v757 : Ref sig .tc := ⟨.hbm, 886, rfl⟩
abbrev main_call0_cst_109 : Ref sig .tc := ⟨.hbm, 887, rfl⟩
abbrev main_call0_v758 : Ref sig .tc := ⟨.hbm, 888, rfl⟩
abbrev main_call0_v759 : Ref sig .tc := ⟨.hbm, 889, rfl⟩
abbrev main_call0_cst_110 : Ref sig .tc := ⟨.hbm, 890, rfl⟩
abbrev main_call0_v760 : Ref sig .tc := ⟨.hbm, 891, rfl⟩
abbrev main_call0_v761 : Ref sig .tc := ⟨.hbm, 892, rfl⟩
abbrev main_call0_v762 : Ref sig .tc := ⟨.hbm, 893, rfl⟩
abbrev main_call0_v763 : Ref sig .tc := ⟨.hbm, 894, rfl⟩
abbrev main_call0_v764 : Ref sig .tc := ⟨.hbm, 895, rfl⟩
abbrev main_call0_v765 : Ref sig .tc := ⟨.hbm, 896, rfl⟩
abbrev main_call0_v766 : Ref sig .tc := ⟨.hbm, 897, rfl⟩
abbrev main_call0_cst_111 : Ref sig .tc := ⟨.hbm, 898, rfl⟩
abbrev main_call0_v767 : Ref sig .tc := ⟨.hbm, 899, rfl⟩
abbrev main_call0_v768 : Ref sig .tc := ⟨.hbm, 900, rfl⟩
abbrev main_call0_cst_112 : Ref sig .tc := ⟨.hbm, 901, rfl⟩
abbrev main_call0_v769 : Ref sig .tc := ⟨.hbm, 902, rfl⟩
abbrev main_call0_v770 : Ref sig .tc := ⟨.hbm, 903, rfl⟩
abbrev main_call0_v771 : Ref sig .tc := ⟨.hbm, 904, rfl⟩
abbrev main_call0_v772 : Ref sig .tc := ⟨.hbm, 905, rfl⟩
abbrev main_call0_c_113 : Ref sig .tc := ⟨.hbm, 906, rfl⟩
abbrev main_call0_v773 : Ref sig .tc := ⟨.hbm, 907, rfl⟩
abbrev main_call0_v774 : Ref sig .tc := ⟨.hbm, 908, rfl⟩
abbrev main_call0_c_114 : Ref sig .tc := ⟨.hbm, 909, rfl⟩
abbrev main_call0_v775 : Ref sig .tc := ⟨.hbm, 910, rfl⟩
abbrev main_call0_v776 : Ref sig .tc := ⟨.hbm, 911, rfl⟩
abbrev main_v0_0 : Ref sig .tc := ⟨.hbm, 912, rfl⟩
abbrev main_v0_1 : Ref sig .tc := ⟨.hbm, 913, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc2_stg9_0 : Ref sig .tc := ⟨.vmem, 30, rfl⟩
abbrev cc2_stg9_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg7_0 : Ref sig .tc := ⟨.vmem, 43, rfl⟩
abbrev cc3_stg8_0 : Ref sig .tc := ⟨.vmem, 44, rfl⟩
abbrev cc3_stg8_1 : Ref sig .tc := ⟨.vmem, 45, rfl⟩
abbrev cc3_stg9_0 : Ref sig .tc := ⟨.vmem, 46, rfl⟩
abbrev cc3_stg9_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg2_1 : Ref sig .tc := ⟨.vmem, 53, rfl⟩
abbrev cc4_stg3_0 : Ref sig .tc := ⟨.vmem, 54, rfl⟩
abbrev cc4_stg3_1 : Ref sig .tc := ⟨.vmem, 55, rfl⟩
abbrev cc4_stg4_0 : Ref sig .tc := ⟨.vmem, 56, rfl⟩
abbrev cc4_stg5_0 : Ref sig .tc := ⟨.vmem, 57, rfl⟩
abbrev cc4_stg6_0 : Ref sig .tc := ⟨.vmem, 58, rfl⟩
abbrev cc4_stg7_0 : Ref sig .tc := ⟨.vmem, 59, rfl⟩
abbrev cc4_stg8_0 : Ref sig .tc := ⟨.vmem, 60, rfl⟩
abbrev cc4_stg8_1 : Ref sig .tc := ⟨.vmem, 61, rfl⟩
abbrev cc4_stg9_0 : Ref sig .tc := ⟨.vmem, 62, rfl⟩
abbrev cc4_stg9_1 : Ref sig .tc := ⟨.vmem, 63, rfl⟩
abbrev cc5_stg0_0 : Ref sig .tc := ⟨.vmem, 64, rfl⟩
abbrev cc5_stg0_1 : Ref sig .tc := ⟨.vmem, 65, rfl⟩
abbrev cc5_stg1_0 : Ref sig .tc := ⟨.vmem, 66, rfl⟩
abbrev cc5_stg1_1 : Ref sig .tc := ⟨.vmem, 67, rfl⟩
abbrev cc5_stg2_0 : Ref sig .tc := ⟨.vmem, 68, rfl⟩
abbrev cc5_stg2_1 : Ref sig .tc := ⟨.vmem, 69, rfl⟩
abbrev cc5_stg3_0 : Ref sig .tc := ⟨.vmem, 70, rfl⟩
abbrev cc5_stg3_1 : Ref sig .tc := ⟨.vmem, 71, rfl⟩
abbrev cc5_stg4_0 : Ref sig .tc := ⟨.vmem, 72, rfl⟩
abbrev cc5_stg5_0 : Ref sig .tc := ⟨.vmem, 73, rfl⟩
abbrev cc5_stg6_0 : Ref sig .tc := ⟨.vmem, 74, rfl⟩
abbrev cc5_stg7_0 : Ref sig .tc := ⟨.vmem, 75, rfl⟩
abbrev cc5_stg8_0 : Ref sig .tc := ⟨.vmem, 76, rfl⟩
abbrev cc5_stg8_1 : Ref sig .tc := ⟨.vmem, 77, rfl⟩
abbrev cc5_stg9_0 : Ref sig .tc := ⟨.vmem, 78, rfl⟩
abbrev cc5_stg9_1 : Ref sig .tc := ⟨.vmem, 79, rfl⟩
abbrev cc6_stg0_0 : Ref sig .tc := ⟨.vmem, 80, rfl⟩
abbrev cc6_stg0_1 : Ref sig .tc := ⟨.vmem, 81, rfl⟩
abbrev cc6_stg1_0 : Ref sig .tc := ⟨.vmem, 82, rfl⟩
abbrev cc6_stg1_1 : Ref sig .tc := ⟨.vmem, 83, rfl⟩
abbrev cc6_stg2_0 : Ref sig .tc := ⟨.vmem, 84, rfl⟩
abbrev cc6_stg2_1 : Ref sig .tc := ⟨.vmem, 85, rfl⟩
abbrev cc6_stg3_0 : Ref sig .tc := ⟨.vmem, 86, rfl⟩
abbrev cc6_stg3_1 : Ref sig .tc := ⟨.vmem, 87, rfl⟩
abbrev cc6_stg4_0 : Ref sig .tc := ⟨.vmem, 88, rfl⟩
abbrev cc6_stg5_0 : Ref sig .tc := ⟨.vmem, 89, rfl⟩
abbrev cc6_stg6_0 : Ref sig .tc := ⟨.vmem, 90, rfl⟩
abbrev cc6_stg7_0 : Ref sig .tc := ⟨.vmem, 91, rfl⟩
abbrev cc6_stg8_0 : Ref sig .tc := ⟨.vmem, 92, rfl⟩
abbrev cc6_stg8_1 : Ref sig .tc := ⟨.vmem, 93, rfl⟩
abbrev cc6_stg9_0 : Ref sig .tc := ⟨.vmem, 94, rfl⟩
abbrev cc6_stg9_1 : Ref sig .tc := ⟨.vmem, 95, rfl⟩
abbrev cc7_stg0_0 : Ref sig .tc := ⟨.vmem, 96, rfl⟩
abbrev cc7_stg1_0 : Ref sig .tc := ⟨.vmem, 97, rfl⟩
abbrev cc7_stg2_0 : Ref sig .tc := ⟨.vmem, 98, rfl⟩
abbrev cc7_stg3_0 : Ref sig .tc := ⟨.vmem, 99, rfl⟩
abbrev cc7_stg4_0 : Ref sig .tc := ⟨.vmem, 100, rfl⟩
abbrev cc7_stg5_0 : Ref sig .tc := ⟨.vmem, 101, rfl⟩
abbrev cc7_stg6_0 : Ref sig .tc := ⟨.vmem, 102, rfl⟩
abbrev cc7_stg7_0 : Ref sig .tc := ⟨.vmem, 103, rfl⟩
abbrev cc7_stg8_0 : Ref sig .tc := ⟨.vmem, 104, rfl⟩
abbrev cc7_stg9_0 : Ref sig .tc := ⟨.vmem, 105, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem8_1 : DmaSem sig := 29
abbrev cc2_sem9_0 : DmaSem sig := 30
abbrev cc2_sem9_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem3_1 : DmaSem sig := 39
abbrev cc3_sem4_0 : DmaSem sig := 40
abbrev cc3_sem5_0 : DmaSem sig := 41
abbrev cc3_sem6_0 : DmaSem sig := 42
abbrev cc3_sem7_0 : DmaSem sig := 43
abbrev cc3_sem8_0 : DmaSem sig := 44
abbrev cc3_sem8_1 : DmaSem sig := 45
abbrev cc3_sem9_0 : DmaSem sig := 46
abbrev cc3_sem9_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem2_1 : DmaSem sig := 53
abbrev cc4_sem3_0 : DmaSem sig := 54
abbrev cc4_sem3_1 : DmaSem sig := 55
abbrev cc4_sem4_0 : DmaSem sig := 56
abbrev cc4_sem5_0 : DmaSem sig := 57
abbrev cc4_sem6_0 : DmaSem sig := 58
abbrev cc4_sem7_0 : DmaSem sig := 59
abbrev cc4_sem8_0 : DmaSem sig := 60
abbrev cc4_sem8_1 : DmaSem sig := 61
abbrev cc4_sem9_0 : DmaSem sig := 62
abbrev cc4_sem9_1 : DmaSem sig := 63
abbrev cc5_sem0_0 : DmaSem sig := 64
abbrev cc5_sem0_1 : DmaSem sig := 65
abbrev cc5_sem1_0 : DmaSem sig := 66
abbrev cc5_sem1_1 : DmaSem sig := 67
abbrev cc5_sem2_0 : DmaSem sig := 68
abbrev cc5_sem2_1 : DmaSem sig := 69
abbrev cc5_sem3_0 : DmaSem sig := 70
abbrev cc5_sem3_1 : DmaSem sig := 71
abbrev cc5_sem4_0 : DmaSem sig := 72
abbrev cc5_sem5_0 : DmaSem sig := 73
abbrev cc5_sem6_0 : DmaSem sig := 74
abbrev cc5_sem7_0 : DmaSem sig := 75
abbrev cc5_sem8_0 : DmaSem sig := 76
abbrev cc5_sem8_1 : DmaSem sig := 77
abbrev cc5_sem9_0 : DmaSem sig := 78
abbrev cc5_sem9_1 : DmaSem sig := 79
abbrev cc6_sem0_0 : DmaSem sig := 80
abbrev cc6_sem0_1 : DmaSem sig := 81
abbrev cc6_sem1_0 : DmaSem sig := 82
abbrev cc6_sem1_1 : DmaSem sig := 83
abbrev cc6_sem2_0 : DmaSem sig := 84
abbrev cc6_sem2_1 : DmaSem sig := 85
abbrev cc6_sem3_0 : DmaSem sig := 86
abbrev cc6_sem3_1 : DmaSem sig := 87
abbrev cc6_sem4_0 : DmaSem sig := 88
abbrev cc6_sem5_0 : DmaSem sig := 89
abbrev cc6_sem6_0 : DmaSem sig := 90
abbrev cc6_sem7_0 : DmaSem sig := 91
abbrev cc6_sem8_0 : DmaSem sig := 92
abbrev cc6_sem8_1 : DmaSem sig := 93
abbrev cc6_sem9_0 : DmaSem sig := 94
abbrev cc6_sem9_1 : DmaSem sig := 95
abbrev cc7_sem0_0 : DmaSem sig := 96
abbrev cc7_sem1_0 : DmaSem sig := 97
abbrev cc7_sem2_0 : DmaSem sig := 98
abbrev cc7_sem3_0 : DmaSem sig := 99
abbrev cc7_sem4_0 : DmaSem sig := 100
abbrev cc7_sem5_0 : DmaSem sig := 101
abbrev cc7_sem6_0 : DmaSem sig := 102
abbrev cc7_sem7_0 : DmaSem sig := 103
abbrev cc7_sem8_0 : DmaSem sig := 104
abbrev cc7_sem9_0 : DmaSem sig := 105

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x2x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x2x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1024x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1024x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x2x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x2x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S256x768 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x768 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S1024x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1024x256 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x768 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x2x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1024x2x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1024x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S256x768 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x768 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S256x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S1024x256 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S1024x256 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x768 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1024x2x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1024x2x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1024x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S256x768 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x768 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S256x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x256 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S1024x256 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S1024x256 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![2], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x768 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1024x2x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1024x2x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1024x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S256x768 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x768 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S256x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x256 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S1024x256 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 2 → Memref sig .tc .vmem S1024x256 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S1024x768 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S1024x2x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S1024x2x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

abbrev stage7_3 : Fin 1 → Memref sig .tc .vmem S1024x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

abbrev stage7_4 : Fin 1 → Memref sig .tc .vmem S256x768 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x768 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S256x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x256 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1024x256 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![true]

abbrev stage7_9 : Fin 1 → Memref sig .tc .vmem S1024x256 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![true]

class Facts₀ : Prop where
  slices_S131071x256_S65535x256_0_0 : S131071x256.Slices ![0, 0] S65535x256
  pads_S65535x256_S65536x256_010_000 : S65535x256.Pads (![0, 0] : Fin 2 → Nat) ![1, 0] ![0, 0] S65536x256
  h_S_ : 0 < S_.numel
  concatenates_S768x256_S256x256_S1024x256_d0 : Shape.Concatenates [S768x256, S256x256] S1024x256 0
  concatenates_S768_S256_S1024_d0 : Shape.Concatenates [S768, S256] S1024 0
  transposes_S1024x256_S256x1024_1_0 : S1024x256.Transposes [1, 0] S256x1024
  shapeCasts_S1024_S1x1024 : S1024.ShapeCasts S1x1024
  slices_S65536x768_S65535x768_0_0 : S65536x768.Slices ![0, 0] S65535x768
  slices_S65536x256_S65535x256_0_0 : S65536x256.Slices ![0, 0] S65535x256
  slices_S131071x256_S65536x256_65535_0 : S131071x256.Slices ![65535, 0] S65536x256
  shapeCasts_S768_S1x768 : S768.ShapeCasts S1x768
  transposes_S768x256_S256x768_1_0 : S768x256.Transposes [1, 0] S256x768
  bcast_S_S131071x256 : S_.BroadcastsInDim S131071x256 (![] : Fin 0 → Fin S131071x256.rank)
  bcast_S_S1 : S_.BroadcastsInDim S1 (![] : Fin 0 → Fin S1.rank)
  transposes_S256x256_S256x256_1_0 : S256x256.Transposes [1, 0] S256x256
  shapeCasts_S256_S1x256 : S256.ShapeCasts S1x256
  slices_S65535x768_S32768x768_32767_0 : S65535x768.Slices ![32767, 0] S32768x768
  slices_S65535x256_S32768x256_32767_0 : S65535x256.Slices ![32767, 0] S32768x256
  shapeCasts_S65536x256_S32768x2x256 : S65536x256.ShapeCasts S32768x2x256
  slices_S65535x768_S16384x768_16383_0 : S65535x768.Slices ![16383, 0] S16384x768
  slices_S65535x256_S16384x256_16383_0 : S65535x256.Slices ![16383, 0] S16384x256
  slices_S131071x256_S32768x256_32767_0 : S131071x256.Slices ![32767, 0] S32768x256
  shapeCasts_S32768x256_S16384x2x256 : S32768x256.ShapeCasts S16384x2x256
  slices_S65535x768_S8192x768_8191_0 : S65535x768.Slices ![8191, 0] S8192x768
  slices_S65535x256_S8192x256_8191_0 : S65535x256.Slices ![8191, 0] S8192x256
  slices_S131071x256_S16384x256_16383_0 : S131071x256.Slices ![16383, 0] S16384x256
  shapeCasts_S16384x256_S8192x2x256 : S16384x256.ShapeCasts S8192x2x256
  slices_S65535x768_S4096x768_4095_0 : S65535x768.Slices ![4095, 0] S4096x768
  slices_S65535x256_S4096x256_4095_0 : S65535x256.Slices ![4095, 0] S4096x256
  slices_S131071x256_S8192x256_8191_0 : S131071x256.Slices ![8191, 0] S8192x256
  shapeCasts_S8192x256_S4096x2x256 : S8192x256.ShapeCasts S4096x2x256
  slices_S65535x768_S2048x768_2047_0 : S65535x768.Slices ![2047, 0] S2048x768
  slices_S65535x256_S2048x256_2047_0 : S65535x256.Slices ![2047, 0] S2048x256
  slices_S131071x256_S4096x256_4095_0 : S131071x256.Slices ![4095, 0] S4096x256
  shapeCasts_S4096x256_S2048x2x256 : S4096x256.ShapeCasts S2048x2x256
  slices_S65535x768_S1024x768_1023_0 : S65535x768.Slices ![1023, 0] S1024x768
  slices_S65535x256_S1024x256_1023_0 : S65535x256.Slices ![1023, 0] S1024x256
  slices_S131071x256_S2048x256_2047_0 : S131071x256.Slices ![2047, 0] S2048x256
  shapeCasts_S2048x256_S1024x2x256 : S2048x256.ShapeCasts S1024x2x256
  slices_S65535x768_S512x768_511_0 : S65535x768.Slices ![511, 0] S512x768
  slices_S65535x256_S512x256_511_0 : S65535x256.Slices ![511, 0] S512x256
  slices_S131071x256_S1024x256_1023_0 : S131071x256.Slices ![1023, 0] S1024x256
  shapeCasts_S1024x256_S512x2x256 : S1024x256.ShapeCasts S512x2x256
  slices_S512x2x256_S512x1x256_0_0_0 : S512x2x256.Slices ![0, 0, 0] S512x1x256
  shapeCasts_S512x1x256_S512x256 : S512x1x256.ShapeCasts S512x256
  slices_S512x2x256_S512x1x256_0_1_0 : S512x2x256.Slices ![0, 1, 0] S512x1x256
  bcast_S768_S1x768_1 : S768.BroadcastsInDim S1x768 (![1] : Fin 1 → Fin S1x768.rank)
  bcast_S1x768_S512x768_0_1 : S1x768.BroadcastsInDim S512x768 (![0, 1] : Fin 2 → Fin S512x768.rank)
  slices_S512x768_S512x256_0_0 : S512x768.Slices ![0, 0] S512x256
  slices_S512x768_S512x256_0_256 : S512x768.Slices ![0, 256] S512x256
  slices_S512x768_S512x256_0_512 : S512x768.Slices ![0, 512] S512x256
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  slices_S65535x768_S256x768_255_0 : S65535x768.Slices ![255, 0] S256x768
  slices_S65535x256_S256x256_255_0 : S65535x256.Slices ![255, 0] S256x256
  slices_S131071x256_S512x256_511_0 : S131071x256.Slices ![511, 0] S512x256
  shapeCasts_S512x256_S256x2x256 : S512x256.ShapeCasts S256x2x256
  slices_S256x2x256_S256x1x256_0_0_0 : S256x2x256.Slices ![0, 0, 0] S256x1x256
  shapeCasts_S256x1x256_S256x256 : S256x1x256.ShapeCasts S256x256
  slices_S256x2x256_S256x1x256_0_1_0 : S256x2x256.Slices ![0, 1, 0] S256x1x256
  bcast_S1x768_S256x768_0_1 : S1x768.BroadcastsInDim S256x768 (![0, 1] : Fin 2 → Fin S256x768.rank)
  slices_S256x768_S256x256_0_0 : S256x768.Slices ![0, 0] S256x256
  slices_S256x768_S256x256_0_256 : S256x768.Slices ![0, 256] S256x256
  slices_S256x768_S256x256_0_512 : S256x768.Slices ![0, 512] S256x256
  bcast_S1x256_S256x256_0_1 : S1x256.BroadcastsInDim S256x256 (![0, 1] : Fin 2 → Fin S256x256.rank)
  bcast_S_S256x256 : S_.BroadcastsInDim S256x256 (![] : Fin 0 → Fin S256x256.rank)
  slices_S65535x768_S128x768_127_0 : S65535x768.Slices ![127, 0] S128x768
  slices_S65535x256_S128x256_127_0 : S65535x256.Slices ![127, 0] S128x256
  slices_S131071x256_S256x256_255_0 : S131071x256.Slices ![255, 0] S256x256
  shapeCasts_S256x256_S128x2x256 : S256x256.ShapeCasts S128x2x256
  slices_S128x2x256_S128x1x256_0_0_0 : S128x2x256.Slices ![0, 0, 0] S128x1x256
  shapeCasts_S128x1x256_S128x256 : S128x1x256.ShapeCasts S128x256
  slices_S128x2x256_S128x1x256_0_1_0 : S128x2x256.Slices ![0, 1, 0] S128x1x256
  bcast_S1x768_S128x768_0_1 : S1x768.BroadcastsInDim S128x768 (![0, 1] : Fin 2 → Fin S128x768.rank)
  slices_S128x768_S128x256_0_0 : S128x768.Slices ![0, 0] S128x256
  slices_S128x768_S128x256_0_256 : S128x768.Slices ![0, 256] S128x256
  slices_S128x768_S128x256_0_512 : S128x768.Slices ![0, 512] S128x256
  bcast_S1x256_S128x256_0_1 : S1x256.BroadcastsInDim S128x256 (![0, 1] : Fin 2 → Fin S128x256.rank)
  bcast_S_S128x256 : S_.BroadcastsInDim S128x256 (![] : Fin 0 → Fin S128x256.rank)
  slices_S65535x768_S64x768_63_0 : S65535x768.Slices ![63, 0] S64x768
  slices_S65535x256_S64x256_63_0 : S65535x256.Slices ![63, 0] S64x256
  slices_S131071x256_S128x256_127_0 : S131071x256.Slices ![127, 0] S128x256
  shapeCasts_S128x256_S64x2x256 : S128x256.ShapeCasts S64x2x256
  slices_S64x2x256_S64x1x256_0_0_0 : S64x2x256.Slices ![0, 0, 0] S64x1x256
  shapeCasts_S64x1x256_S64x256 : S64x1x256.ShapeCasts S64x256
  slices_S64x2x256_S64x1x256_0_1_0 : S64x2x256.Slices ![0, 1, 0] S64x1x256
  bcast_S1x768_S64x768_0_1 : S1x768.BroadcastsInDim S64x768 (![0, 1] : Fin 2 → Fin S64x768.rank)
  slices_S64x768_S64x256_0_0 : S64x768.Slices ![0, 0] S64x256
  slices_S64x768_S64x256_0_256 : S64x768.Slices ![0, 256] S64x256
  slices_S64x768_S64x256_0_512 : S64x768.Slices ![0, 512] S64x256
  bcast_S1x256_S64x256_0_1 : S1x256.BroadcastsInDim S64x256 (![0, 1] : Fin 2 → Fin S64x256.rank)
  bcast_S_S64x256 : S_.BroadcastsInDim S64x256 (![] : Fin 0 → Fin S64x256.rank)
  slices_S65535x768_S32x768_31_0 : S65535x768.Slices ![31, 0] S32x768
  slices_S65535x256_S32x256_31_0 : S65535x256.Slices ![31, 0] S32x256
  slices_S131071x256_S64x256_63_0 : S131071x256.Slices ![63, 0] S64x256
  shapeCasts_S64x256_S32x2x256 : S64x256.ShapeCasts S32x2x256
  slices_S32x2x256_S32x1x256_0_0_0 : S32x2x256.Slices ![0, 0, 0] S32x1x256
  shapeCasts_S32x1x256_S32x256 : S32x1x256.ShapeCasts S32x256
  slices_S32x2x256_S32x1x256_0_1_0 : S32x2x256.Slices ![0, 1, 0] S32x1x256
  bcast_S1x768_S32x768_0_1 : S1x768.BroadcastsInDim S32x768 (![0, 1] : Fin 2 → Fin S32x768.rank)
  slices_S32x768_S32x256_0_0 : S32x768.Slices ![0, 0] S32x256
  slices_S32x768_S32x256_0_256 : S32x768.Slices ![0, 256] S32x256
  slices_S32x768_S32x256_0_512 : S32x768.Slices ![0, 512] S32x256
  bcast_S1x256_S32x256_0_1 : S1x256.BroadcastsInDim S32x256 (![0, 1] : Fin 2 → Fin S32x256.rank)
  bcast_S_S32x256 : S_.BroadcastsInDim S32x256 (![] : Fin 0 → Fin S32x256.rank)
  slices_S65535x768_S16x768_15_0 : S65535x768.Slices ![15, 0] S16x768
  slices_S65535x256_S16x256_15_0 : S65535x256.Slices ![15, 0] S16x256
  slices_S131071x256_S32x256_31_0 : S131071x256.Slices ![31, 0] S32x256
  shapeCasts_S32x256_S16x2x256 : S32x256.ShapeCasts S16x2x256
  slices_S16x2x256_S16x1x256_0_0_0 : S16x2x256.Slices ![0, 0, 0] S16x1x256
  shapeCasts_S16x1x256_S16x256 : S16x1x256.ShapeCasts S16x256
  slices_S16x2x256_S16x1x256_0_1_0 : S16x2x256.Slices ![0, 1, 0] S16x1x256
  bcast_S1x768_S16x768_0_1 : S1x768.BroadcastsInDim S16x768 (![0, 1] : Fin 2 → Fin S16x768.rank)
  slices_S16x768_S16x256_0_0 : S16x768.Slices ![0, 0] S16x256
  slices_S16x768_S16x256_0_256 : S16x768.Slices ![0, 256] S16x256
  slices_S16x768_S16x256_0_512 : S16x768.Slices ![0, 512] S16x256
  bcast_S1x256_S16x256_0_1 : S1x256.BroadcastsInDim S16x256 (![0, 1] : Fin 2 → Fin S16x256.rank)
  bcast_S_S16x256 : S_.BroadcastsInDim S16x256 (![] : Fin 0 → Fin S16x256.rank)
  slices_S65535x768_S8x768_7_0 : S65535x768.Slices ![7, 0] S8x768
  slices_S65535x256_S8x256_7_0 : S65535x256.Slices ![7, 0] S8x256
  slices_S131071x256_S16x256_15_0 : S131071x256.Slices ![15, 0] S16x256
  shapeCasts_S16x256_S8x2x256 : S16x256.ShapeCasts S8x2x256
  slices_S8x2x256_S8x1x256_0_0_0 : S8x2x256.Slices ![0, 0, 0] S8x1x256
  shapeCasts_S8x1x256_S8x256 : S8x1x256.ShapeCasts S8x256
  slices_S8x2x256_S8x1x256_0_1_0 : S8x2x256.Slices ![0, 1, 0] S8x1x256
  bcast_S1x768_S8x768_0_1 : S1x768.BroadcastsInDim S8x768 (![0, 1] : Fin 2 → Fin S8x768.rank)
  slices_S8x768_S8x256_0_0 : S8x768.Slices ![0, 0] S8x256
  slices_S8x768_S8x256_0_256 : S8x768.Slices ![0, 256] S8x256
  slices_S8x768_S8x256_0_512 : S8x768.Slices ![0, 512] S8x256
  bcast_S1x256_S8x256_0_1 : S1x256.BroadcastsInDim S8x256 (![0, 1] : Fin 2 → Fin S8x256.rank)
  bcast_S_S8x256 : S_.BroadcastsInDim S8x256 (![] : Fin 0 → Fin S8x256.rank)
  slices_S65535x768_S4x768_3_0 : S65535x768.Slices ![3, 0] S4x768
  slices_S65535x256_S4x256_3_0 : S65535x256.Slices ![3, 0] S4x256
  slices_S131071x256_S8x256_7_0 : S131071x256.Slices ![7, 0] S8x256
  shapeCasts_S8x256_S4x2x256 : S8x256.ShapeCasts S4x2x256
  slices_S4x2x256_S4x1x256_0_0_0 : S4x2x256.Slices ![0, 0, 0] S4x1x256
  shapeCasts_S4x1x256_S4x256 : S4x1x256.ShapeCasts S4x256
  slices_S4x2x256_S4x1x256_0_1_0 : S4x2x256.Slices ![0, 1, 0] S4x1x256
  bcast_S1x768_S4x768_0_1 : S1x768.BroadcastsInDim S4x768 (![0, 1] : Fin 2 → Fin S4x768.rank)
  slices_S4x768_S4x256_0_0 : S4x768.Slices ![0, 0] S4x256
  slices_S4x768_S4x256_0_256 : S4x768.Slices ![0, 256] S4x256
  slices_S4x768_S4x256_0_512 : S4x768.Slices ![0, 512] S4x256
  bcast_S1x256_S4x256_0_1 : S1x256.BroadcastsInDim S4x256 (![0, 1] : Fin 2 → Fin S4x256.rank)
  bcast_S_S4x256 : S_.BroadcastsInDim S4x256 (![] : Fin 0 → Fin S4x256.rank)
  slices_S65535x768_S2x768_1_0 : S65535x768.Slices ![1, 0] S2x768
  slices_S65535x256_S2x256_1_0 : S65535x256.Slices ![1, 0] S2x256
  slices_S131071x256_S4x256_3_0 : S131071x256.Slices ![3, 0] S4x256
  shapeCasts_S4x256_S2x2x256 : S4x256.ShapeCasts S2x2x256
  slices_S2x2x256_S2x1x256_0_0_0 : S2x2x256.Slices ![0, 0, 0] S2x1x256
  shapeCasts_S2x1x256_S2x256 : S2x1x256.ShapeCasts S2x256
  slices_S2x2x256_S2x1x256_0_1_0 : S2x2x256.Slices ![0, 1, 0] S2x1x256
  bcast_S1x768_S2x768_0_1 : S1x768.BroadcastsInDim S2x768 (![0, 1] : Fin 2 → Fin S2x768.rank)
  slices_S2x768_S2x256_0_0 : S2x768.Slices ![0, 0] S2x256
  slices_S2x768_S2x256_0_256 : S2x768.Slices ![0, 256] S2x256
  slices_S2x768_S2x256_0_512 : S2x768.Slices ![0, 512] S2x256
  bcast_S1x256_S2x256_0_1 : S1x256.BroadcastsInDim S2x256 (![0, 1] : Fin 2 → Fin S2x256.rank)
  bcast_S_S2x256 : S_.BroadcastsInDim S2x256 (![] : Fin 0 → Fin S2x256.rank)
  slices_S65535x768_S1x768_0_0 : S65535x768.Slices ![0, 0] S1x768
  slices_S65535x256_S1x256_0_0 : S65535x256.Slices ![0, 0] S1x256
  slices_S131071x256_S2x256_1_0 : S131071x256.Slices ![1, 0] S2x256
  shapeCasts_S2x256_S1x2x256 : S2x256.ShapeCasts S1x2x256
  slices_S1x2x256_S1x1x256_0_0_0 : S1x2x256.Slices ![0, 0, 0] S1x1x256
  shapeCasts_S1x1x256_S1x256 : S1x1x256.ShapeCasts S1x256
  slices_S1x2x256_S1x1x256_0_1_0 : S1x2x256.Slices ![0, 1, 0] S1x1x256
  slices_S1x768_S1x256_0_0 : S1x768.Slices ![0, 0] S1x256
  slices_S1x768_S1x256_0_256 : S1x768.Slices ![0, 256] S1x256
  slices_S1x768_S1x256_0_512 : S1x768.Slices ![0, 512] S1x256
  bcast_S_S1x256 : S_.BroadcastsInDim S1x256 (![] : Fin 0 → Fin S1x256.rank)
  slices_S131071x256_S1x256_0_0 : S131071x256.Slices ![0, 0] S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S1024x768 : S1024x1024.Slices ![0, 0] S1024x768
  inb_S1024x768_S1024x768_0_0 : ∀ a, (![0, 0] : Fin 2 → Nat) a + S1024x768.size a ≤ S1024x768.size a
  h_S1024x768 : 0 < S1024x768.numel
  slices_S1024x1024_o0_768_S1024x256 : S1024x1024.Slices ![0, 768] S1024x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  inb_S1024x2x256_S1024x1x256_0_0_0 : ∀ a, (![0, 0, 0] : Fin 3 → Nat) a + S1024x1x256.size a ≤ S1024x2x256.size a
  h_S1024x1x256 : 0 < S1024x1x256.numel
  shapeCasts_S1024x1x256_S1024x256 : S1024x1x256.ShapeCasts S1024x256
  inb_S1024x2x256_S1024x1x256_0_1_0 : ∀ a, (![0, 1, 0] : Fin 3 → Nat) a + S1024x1x256.size a ≤ S1024x2x256.size a
  shapeCasts_S1024x768_S1024x768 : S1024x768.ShapeCasts S1024x768
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  scatter_S131071x256_S1_S65536x256_01_n_0_0_wf : ScatterDims.WF S131071x256 S1 S65536x256 [0, 1] [] [0] 0
  scatter_S131071x256_S1_S32768x256_01_n_0_0_wf : ScatterDims.WF S131071x256 S1 S32768x256 [0, 1] [] [0] 0
  scatter_S131071x256_S1_S16384x256_01_n_0_0_wf : ScatterDims.WF S131071x256 S1 S16384x256 [0, 1] [] [0] 0
  scatter_S131071x256_S1_S8192x256_01_n_0_0_wf : ScatterDims.WF S131071x256 S1 S8192x256 [0, 1] [] [0] 0
  scatter_S131071x256_S1_S4096x256_01_n_0_0_wf : ScatterDims.WF S131071x256 S1 S4096x256 [0, 1] [] [0] 0
  scatter_S131071x256_S1_S2048x256_01_n_0_0_wf : ScatterDims.WF S131071x256 S1 S2048x256 [0, 1] [] [0] 0
  scatter_S131071x256_S1_S1024x256_01_n_0_0_wf : ScatterDims.WF S131071x256 S1 S1024x256 [0, 1] [] [0] 0
  dot_S512x256_S256x768_S512x768_1_0_0_1_n_n_wf : DotDims.WF S512x256 S256x768 S512x768 [1] [0] [0] [1] [] []
  dot_S512x256_S256x256_S512x256_1_0_0_1_n_n_wf : DotDims.WF S512x256 S256x256 S512x256 [1] [0] [0] [1] [] []
  scatter_S131071x256_S1_S512x256_01_n_0_0_wf : ScatterDims.WF S131071x256 S1 S512x256 [0, 1] [] [0] 0
  dot_S256x256_S256x768_S256x768_1_0_0_1_n_n_wf : DotDims.WF S256x256 S256x768 S256x768 [1] [0] [0] [1] [] []
  dot_S256x256_S256x256_S256x256_1_0_0_1_n_n_wf : DotDims.WF S256x256 S256x256 S256x256 [1] [0] [0] [1] [] []
  scatter_S131071x256_S1_S256x256_01_n_0_0_wf : ScatterDims.WF S131071x256 S1 S256x256 [0, 1] [] [0] 0
  dot_S128x256_S256x768_S128x768_1_0_0_1_n_n_wf : DotDims.WF S128x256 S256x768 S128x768 [1] [0] [0] [1] [] []
  dot_S128x256_S256x256_S128x256_1_0_0_1_n_n_wf : DotDims.WF S128x256 S256x256 S128x256 [1] [0] [0] [1] [] []
  scatter_S131071x256_S1_S128x256_01_n_0_0_wf : ScatterDims.WF S131071x256 S1 S128x256 [0, 1] [] [0] 0
  dot_S64x256_S256x768_S64x768_1_0_0_1_n_n_wf : DotDims.WF S64x256 S256x768 S64x768 [1] [0] [0] [1] [] []
  dot_S64x256_S256x256_S64x256_1_0_0_1_n_n_wf : DotDims.WF S64x256 S256x256 S64x256 [1] [0] [0] [1] [] []
  scatter_S131071x256_S1_S64x256_01_n_0_0_wf : ScatterDims.WF S131071x256 S1 S64x256 [0, 1] [] [0] 0
  dot_S32x256_S256x768_S32x768_1_0_0_1_n_n_wf : DotDims.WF S32x256 S256x768 S32x768 [1] [0] [0] [1] [] []
  dot_S32x256_S256x256_S32x256_1_0_0_1_n_n_wf : DotDims.WF S32x256 S256x256 S32x256 [1] [0] [0] [1] [] []
  scatter_S131071x256_S1_S32x256_01_n_0_0_wf : ScatterDims.WF S131071x256 S1 S32x256 [0, 1] [] [0] 0
  dot_S16x256_S256x768_S16x768_1_0_0_1_n_n_wf : DotDims.WF S16x256 S256x768 S16x768 [1] [0] [0] [1] [] []
  dot_S16x256_S256x256_S16x256_1_0_0_1_n_n_wf : DotDims.WF S16x256 S256x256 S16x256 [1] [0] [0] [1] [] []
  scatter_S131071x256_S1_S16x256_01_n_0_0_wf : ScatterDims.WF S131071x256 S1 S16x256 [0, 1] [] [0] 0
  dot_S8x256_S256x768_S8x768_1_0_0_1_n_n_wf : DotDims.WF S8x256 S256x768 S8x768 [1] [0] [0] [1] [] []
  dot_S8x256_S256x256_S8x256_1_0_0_1_n_n_wf : DotDims.WF S8x256 S256x256 S8x256 [1] [0] [0] [1] [] []
  scatter_S131071x256_S1_S8x256_01_n_0_0_wf : ScatterDims.WF S131071x256 S1 S8x256 [0, 1] [] [0] 0
  dot_S4x256_S256x768_S4x768_1_0_0_1_n_n_wf : DotDims.WF S4x256 S256x768 S4x768 [1] [0] [0] [1] [] []
  dot_S4x256_S256x256_S4x256_1_0_0_1_n_n_wf : DotDims.WF S4x256 S256x256 S4x256 [1] [0] [0] [1] [] []
  scatter_S131071x256_S1_S4x256_01_n_0_0_wf : ScatterDims.WF S131071x256 S1 S4x256 [0, 1] [] [0] 0
  dot_S2x256_S256x768_S2x768_1_0_0_1_n_n_wf : DotDims.WF S2x256 S256x768 S2x768 [1] [0] [0] [1] [] []
  dot_S2x256_S256x256_S2x256_1_0_0_1_n_n_wf : DotDims.WF S2x256 S256x256 S2x256 [1] [0] [0] [1] [] []
  scatter_S131071x256_S1_S2x256_01_n_0_0_wf : ScatterDims.WF S131071x256 S1 S2x256 [0, 1] [] [0] 0
  dot_S1x256_S256x768_S1x768_1_0_0_1_n_n_wf : DotDims.WF S1x256 S256x768 S1x768 [1] [0] [0] [1] [] []
  dot_S1x256_S256x256_S1x256_1_0_0_1_n_n_wf : DotDims.WF S1x256 S256x256 S1x256 [1] [0] [0] [1] [] []
  scatter_S131071x256_S1_S1x256_01_n_0_0_wf : ScatterDims.WF S131071x256 S1 S1x256 [0, 1] [] [0] 0
  dot_S1024x256_S256x1024_S1024x1024_1_0_0_1_n_n_wf : DotDims.WF S1024x256 S256x1024 S1024x1024 [1] [0] [0] [1] [] []
  dot_S1024x256_S256x768_S1024x768_1_0_0_1_n_n_wf : DotDims.WF S1024x256 S256x768 S1024x768 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x768.size a ≤ S65536x768.size a
  hwx0_3 : ∀ i : grid0.Coords, EltTy.bits .f32 = 32 ∨ (Rect.block (s := S65536x768) S1024x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S65536x256.size a
  hwx0_4 : ∀ i : grid0.Coords, EltTy.bits .f32 = 32 ∨ (Rect.block (s := S65536x256) S1024x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S65536x256.size a
  hwx1_0 : ∀ i : grid1.Coords, EltTy.bits .f32 = 32 ∨ (Rect.block (s := S65536x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x768.size a ≤ S256x768.size a
  hwx1_1 : ∀ i : grid1.Coords, EltTy.bits .f32 = 32 ∨ (Rect.block (s := S256x768) S256x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x768.size a ≤ S1x768.size a
  hwx1_2 : ∀ i : grid1.Coords, EltTy.bits .f32 = 32 ∨ (Rect.block (s := S1x768) S1x768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S65536x256.size a
  hwx1_3 : ∀ i : grid1.Coords, EltTy.bits .f32 = 32 ∨ (Rect.block (s := S65536x256) S1024x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S65536x256.size a
  hwx1_4 : ∀ i : grid1.Coords, EltTy.bits .f32 = 32 ∨ (Rect.block (s := S65536x256) S1024x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x768.size a ≤ S32768x768.size a
  hwx2_0 : ∀ i : grid2.Coords, EltTy.bits .f32 = 32 ∨ (Rect.block (s := S32768x768) S1024x768.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2x256.size a ≤ S32768x2x256.size a
  hwx2_1 : ∀ i : grid2.Coords, EltTy.bits .f32 = 32 ∨ (Rect.block (s := S32768x2x256) S1024x2x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x2x256.size a ≤ S32768x2x256.size a
  hwx2_2 : ∀ i : grid2.Coords, EltTy.bits .f32 = 32 ∨ (Rect.block (s := S32768x2x256) S1024x2x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S32768x256.size a
  hwx2_3 : ∀ i : grid2.Coords, EltTy.bits .f32 = 32 ∨ (Rect.block (s := S32768x256) S1024x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x768.size a ≤ S256x768.size a
  hwx2_4 : ∀ i : grid2.Coords, EltTy.bits .f32 = 32 ∨ (Rect.block (s := S256x768) S256x768.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x768.size a ≤ S1x768.size a
  hwx2_5 : ∀ i : grid2.Coords, EltTy.bits .f32 = 32 ∨ (Rect.block (s := S1x768) S1x768.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .f32 = 32 ∨ (Rect.block (s := S256x256) S256x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1024x256.size a ≤ S32768x256.size a
  hwx2_8 : ∀ i : grid2.Coords, EltTy.bits .f32 = 32 ∨ (Rect.block (s := S32768x256) S1024x256.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1024x256.size a ≤ S32768x256.size a
  hwx2_9 : ∀ i : grid2.Coords, EltTy.bits .f32 = 32 ∨ (Rect.block (s := S32768x256) S1024x256.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x768.size a ≤ S16384x768.size a
  hwx3_0 : ∀ i : grid3.Coords, EltTy.bits .f32 = 32 ∨ (Rect.block (s := S16384x768) S1024x768.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x2x256.size a ≤ S16384x2x256.size a
  hwx3_1 : ∀ i : grid3.Coords, EltTy.bits .f32 = 32 ∨ (Rect.block (s := S16384x2x256) S1024x2x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x2x256.size a ≤ S16384x2x256.size a
  hwx3_2 : ∀ i : grid3.Coords, EltTy.bits .f32 = 32 ∨ (Rect.block (s := S16384x2x256) S1024x2x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x256.size a ≤ S16384x256.size a
  hwx3_3 : ∀ i : grid3.Coords, EltTy.bits .f32 = 32 ∨ (Rect.block (s := S16384x256) S1024x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x768.size a ≤ S256x768.size a
  hwx3_4 : ∀ i : grid3.Coords, EltTy.bits .f32 = 32 ∨ (Rect.block (s := S256x768) S256x768.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x768.size a ≤ S1x768.size a
  hwx3_5 : ∀ i : grid3.Coords, EltTy.bits .f32 = 32 ∨ (Rect.block (s := S1x768) S1x768.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x256.size a ≤ S256x256.size a
  hwx3_6 : ∀ i : grid3.Coords, EltTy.bits .f32 = 32 ∨ (Rect.block (s := S256x256) S256x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1024x256.size a ≤ S16384x256.size a
  hwx3_8 : ∀ i : grid3.Coords, EltTy.bits .f32 = 32 ∨ (Rect.block (s := S16384x256) S1024x256.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1024x256.size a ≤ S16384x256.size a
  hwx3_9 : ∀ i : grid3.Coords, EltTy.bits .f32 = 32 ∨ (Rect.block (s := S16384x256) S1024x256.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x768.size a ≤ S8192x768.size a
  hwx4_0 : ∀ i : grid4.Coords, EltTy.bits .f32 = 32 ∨ (Rect.block (s := S8192x768) S1024x768.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x2x256.size a ≤ S8192x2x256.size a
  hwx4_1 : ∀ i : grid4.Coords, EltTy.bits .f32 = 32 ∨ (Rect.block (s := S8192x2x256) S1024x2x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x2x256.size a ≤ S8192x2x256.size a
  hwx4_2 : ∀ i : grid4.Coords, EltTy.bits .f32 = 32 ∨ (Rect.block (s := S8192x2x256) S1024x2x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x256.size a ≤ S8192x256.size a
  hwx4_3 : ∀ i : grid4.Coords, EltTy.bits .f32 = 32 ∨ (Rect.block (s := S8192x256) S1024x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x768.size a ≤ S256x768.size a
  hwx4_4 : ∀ i : grid4.Coords, EltTy.bits .f32 = 32 ∨ (Rect.block (s := S256x768) S256x768.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x768.size a ≤ S1x768.size a
  hwx4_5 : ∀ i : grid4.Coords, EltTy.bits .f32 = 32 ∨ (Rect.block (s := S1x768) S1x768.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S256x256.size a ≤ S256x256.size a
  hwx4_6 : ∀ i : grid4.Coords, EltTy.bits .f32 = 32 ∨ (Rect.block (s := S256x256) S256x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x256.size a ≤ S1x256.size a
  hwx4_7 : ∀ i : grid4.Coords, EltTy.bits .f32 = 32 ∨ (Rect.block (s := S1x256) S1x256.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1024x256.size a ≤ S8192x256.size a
  hwx4_8 : ∀ i : grid4.Coords, EltTy.bits .f32 = 32 ∨ (Rect.block (s := S8192x256) S1024x256.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S1024x256.size a ≤ S8192x256.size a
  hwx4_9 : ∀ i : grid4.Coords, EltTy.bits .f32 = 32 ∨ (Rect.block (s := S8192x256) S1024x256.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x768.size a ≤ S4096x768.size a
  hwx5_0 : ∀ i : grid5.Coords, EltTy.bits .f32 = 32 ∨ (Rect.block (s := S4096x768) S1024x768.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x2x256.size a ≤ S4096x2x256.size a
  hwx5_1 : ∀ i : grid5.Coords, EltTy.bits .f32 = 32 ∨ (Rect.block (s := S4096x2x256) S1024x2x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x2x256.size a ≤ S4096x2x256.size a
  hwx5_2 : ∀ i : grid5.Coords, EltTy.bits .f32 = 32 ∨ (Rect.block (s := S4096x2x256) S1024x2x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x256.size a ≤ S4096x256.size a
  hwx5_3 : ∀ i : grid5.Coords, EltTy.bits .f32 = 32 ∨ (Rect.block (s := S4096x256) S1024x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x768.size a ≤ S256x768.size a
  hwx5_4 : ∀ i : grid5.Coords, EltTy.bits .f32 = 32 ∨ (Rect.block (s := S256x768) S256x768.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x768.size a ≤ S1x768.size a
  hwx5_5 : ∀ i : grid5.Coords, EltTy.bits .f32 = 32 ∨ (Rect.block (s := S1x768) S1x768.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S256x256.size a ≤ S256x256.size a
  hwx5_6 : ∀ i : grid5.Coords, EltTy.bits .f32 = 32 ∨ (Rect.block (s := S256x256) S256x256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x256.size a ≤ S1x256.size a
  hwx5_7 : ∀ i : grid5.Coords, EltTy.bits .f32 = 32 ∨ (Rect.block (s := S1x256) S1x256.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S1024x256.size a ≤ S4096x256.size a
  hwx5_8 : ∀ i : grid5.Coords, EltTy.bits .f32 = 32 ∨ (Rect.block (s := S4096x256) S1024x256.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S1024x256.size a ≤ S4096x256.size a
  hwx5_9 : ∀ i : grid5.Coords, EltTy.bits .f32 = 32 ∨ (Rect.block (s := S4096x256) S1024x256.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x768.size a ≤ S2048x768.size a
  hwx6_0 : ∀ i : grid6.Coords, EltTy.bits .f32 = 32 ∨ (Rect.block (s := S2048x768) S1024x768.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x2x256.size a ≤ S2048x2x256.size a
  hwx6_1 : ∀ i : grid6.Coords, EltTy.bits .f32 = 32 ∨ (Rect.block (s := S2048x2x256) S1024x2x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x2x256.size a ≤ S2048x2x256.size a
  hwx6_2 : ∀ i : grid6.Coords, EltTy.bits .f32 = 32 ∨ (Rect.block (s := S2048x2x256) S1024x2x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x256.size a ≤ S2048x256.size a
  hwx6_3 : ∀ i : grid6.Coords, EltTy.bits .f32 = 32 ∨ (Rect.block (s := S2048x256) S1024x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x768.size a ≤ S256x768.size a
  hwx6_4 : ∀ i : grid6.Coords, EltTy.bits .f32 = 32 ∨ (Rect.block (s := S256x768) S256x768.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x768.size a ≤ S1x768.size a
  hwx6_5 : ∀ i : grid6.Coords, EltTy.bits .f32 = 32 ∨ (Rect.block (s := S1x768) S1x768.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S256x256.size a ≤ S256x256.size a
  hwx6_6 : ∀ i : grid6.Coords, EltTy.bits .f32 = 32 ∨ (Rect.block (s := S256x256) S256x256.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x256.size a ≤ S1x256.size a
  hwx6_7 : ∀ i : grid6.Coords, EltTy.bits .f32 = 32 ∨ (Rect.block (s := S1x256) S1x256.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S1024x256.size a ≤ S2048x256.size a
  hwx6_8 : ∀ i : grid6.Coords, EltTy.bits .f32 = 32 ∨ (Rect.block (s := S2048x256) S1024x256.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S1024x256.size a ≤ S2048x256.size a
  hwx6_9 : ∀ i : grid6.Coords, EltTy.bits .f32 = 32 ∨ (Rect.block (s := S2048x256) S1024x256.size (cc6_transform_9 i) (hinb6_9 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S1024x768.size a ≤ S1024x768.size a
  hwx7_0 : ∀ i : grid7.Coords, EltTy.bits .f32 = 32 ∨ (Rect.block (s := S1024x768) S1024x768.size (cc7_transform_0 i) (hinb7_0 i)).WholeWords (EltTy.packing .f32)
  hstage7_1 : ∀ j, (stage7_1 j).IsWhole
  nbuf7_1 : grid7.bufCount reads7_1 false = 1
  hreads7_1 : ∀ i i' : grid7.Coords, (∀ a, reads7_1 a = true → i a = i' a) → cc7_transform_1 i = cc7_transform_1 i'
  hinb7_1 : ∀ (i : grid7.Coords) a, (cc7_transform_1 i a + 1) * S1024x2x256.size a ≤ S1024x2x256.size a
  hwx7_1 : ∀ i : grid7.Coords, EltTy.bits .f32 = 32 ∨ (Rect.block (s := S1024x2x256) S1024x2x256.size (cc7_transform_1 i) (hinb7_1 i)).WholeWords (EltTy.packing .f32)
  hstage7_2 : ∀ j, (stage7_2 j).IsWhole
  nbuf7_2 : grid7.bufCount reads7_2 false = 1
  hreads7_2 : ∀ i i' : grid7.Coords, (∀ a, reads7_2 a = true → i a = i' a) → cc7_transform_2 i = cc7_transform_2 i'
  hinb7_2 : ∀ (i : grid7.Coords) a, (cc7_transform_2 i a + 1) * S1024x2x256.size a ≤ S1024x2x256.size a
  hwx7_2 : ∀ i : grid7.Coords, EltTy.bits .f32 = 32 ∨ (Rect.block (s := S1024x2x256) S1024x2x256.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S1024x256.size a ≤ S1024x256.size a
  hwx7_3 : ∀ i : grid7.Coords, EltTy.bits .f32 = 32 ∨ (Rect.block (s := S1024x256) S1024x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S256x768.size a ≤ S256x768.size a
  hwx7_4 : ∀ i : grid7.Coords, EltTy.bits .f32 = 32 ∨ (Rect.block (s := S256x768) S256x768.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x768.size a ≤ S1x768.size a
  hwx7_5 : ∀ i : grid7.Coords, EltTy.bits .f32 = 32 ∨ (Rect.block (s := S1x768) S1x768.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S256x256.size a ≤ S256x256.size a
  hwx7_6 : ∀ i : grid7.Coords, EltTy.bits .f32 = 32 ∨ (Rect.block (s := S256x256) S256x256.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x256.size a ≤ S1x256.size a
  hwx7_7 : ∀ i : grid7.Coords, EltTy.bits .f32 = 32 ∨ (Rect.block (s := S1x256) S1x256.size (cc7_transform_7 i) (hinb7_7 i)).WholeWords (EltTy.packing .f32)
  hstage7_8 : ∀ j, (stage7_8 j).IsWhole
  nbuf7_8 : grid7.bufCount reads7_8 false = 1
  hreads7_8 : ∀ i i' : grid7.Coords, (∀ a, reads7_8 a = true → i a = i' a) → cc7_transform_8 i = cc7_transform_8 i'
  hinb7_8 : ∀ (i : grid7.Coords) a, (cc7_transform_8 i a + 1) * S1024x256.size a ≤ S1024x256.size a
  hwx7_8 : ∀ i : grid7.Coords, EltTy.bits .f32 = 32 ∨ (Rect.block (s := S1024x256) S1024x256.size (cc7_transform_8 i) (hinb7_8 i)).WholeWords (EltTy.packing .f32)
  hstage7_9 : ∀ j, (stage7_9 j).IsWhole
  nbuf7_9 : grid7.bufCount reads7_9 false = 1
  hreads7_9 : ∀ i i' : grid7.Coords, (∀ a, reads7_9 a = true → i a = i' a) → cc7_transform_9 i = cc7_transform_9 i'
  hinb7_9 : ∀ (i : grid7.Coords) a, (cc7_transform_9 i a + 1) * S1024x256.size a ≤ S1024x256.size a
  hwx7_9 : ∀ i : grid7.Coords, EltTy.bits .f32 = 32 ∨ (Rect.block (s := S1024x256) S1024x256.size (cc7_transform_9 i) (hinb7_9 i)).WholeWords (EltTy.packing .f32)

variable [Facts₀]

def scatter_S131071x256_S1_S65536x256_01_n_0_0 : ScatterDims S131071x256 S1 S65536x256 where
  updateWindowDims := [0, 1]
  insertedWindowDims := []
  scatterDimsToOperandDims := [0]
  indexVectorDim := 0
  wf := scatter_S131071x256_S1_S65536x256_01_n_0_0_wf
def scatter_S131071x256_S1_S32768x256_01_n_0_0 : ScatterDims S131071x256 S1 S32768x256 where
  updateWindowDims := [0, 1]
  insertedWindowDims := []
  scatterDimsToOperandDims := [0]
  indexVectorDim := 0
  wf := scatter_S131071x256_S1_S32768x256_01_n_0_0_wf
def scatter_S131071x256_S1_S16384x256_01_n_0_0 : ScatterDims S131071x256 S1 S16384x256 where
  updateWindowDims := [0, 1]
  insertedWindowDims := []
  scatterDimsToOperandDims := [0]
  indexVectorDim := 0
  wf := scatter_S131071x256_S1_S16384x256_01_n_0_0_wf
def scatter_S131071x256_S1_S8192x256_01_n_0_0 : ScatterDims S131071x256 S1 S8192x256 where
  updateWindowDims := [0, 1]
  insertedWindowDims := []
  scatterDimsToOperandDims := [0]
  indexVectorDim := 0
  wf := scatter_S131071x256_S1_S8192x256_01_n_0_0_wf
def scatter_S131071x256_S1_S4096x256_01_n_0_0 : ScatterDims S131071x256 S1 S4096x256 where
  updateWindowDims := [0, 1]
  insertedWindowDims := []
  scatterDimsToOperandDims := [0]
  indexVectorDim := 0
  wf := scatter_S131071x256_S1_S4096x256_01_n_0_0_wf
def scatter_S131071x256_S1_S2048x256_01_n_0_0 : ScatterDims S131071x256 S1 S2048x256 where
  updateWindowDims := [0, 1]
  insertedWindowDims := []
  scatterDimsToOperandDims := [0]
  indexVectorDim := 0
  wf := scatter_S131071x256_S1_S2048x256_01_n_0_0_wf
def scatter_S131071x256_S1_S1024x256_01_n_0_0 : ScatterDims S131071x256 S1 S1024x256 where
  updateWindowDims := [0, 1]
  insertedWindowDims := []
  scatterDimsToOperandDims := [0]
  indexVectorDim := 0
  wf := scatter_S131071x256_S1_S1024x256_01_n_0_0_wf
def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def scatter_S131071x256_S1_S512x256_01_n_0_0 : ScatterDims S131071x256 S1 S512x256 where
  updateWindowDims := [0, 1]
  insertedWindowDims := []
  scatterDimsToOperandDims := [0]
  indexVectorDim := 0
  wf := scatter_S131071x256_S1_S512x256_01_n_0_0_wf
def dot_S256x256_S256x768_S256x768_1_0_0_1_n_n : DotDims S256x256 S256x768 S256x768 where
  lhsContracting := [1]
  rhsContracting := [0]
  lhsNonContracting := [0]
  rhsNonContracting := [1]
  lhsBatch := []
  rhsBatch := []
  wf := dot_S256x256_S256x768_S256x768_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def scatter_S131071x256_S1_S256x256_01_n_0_0 : ScatterDims S131071x256 S1 S256x256 where
  updateWindowDims := [0, 1]
  insertedWindowDims := []
  scatterDimsToOperandDims := [0]
  indexVectorDim := 0
  wf := scatter_S131071x256_S1_S256x256_01_n_0_0_wf
def dot_S128x256_S256x768_S128x768_1_0_0_1_n_n : DotDims S128x256 S256x768 S128x768 where
  lhsContracting := [1]
  rhsContracting := [0]
  lhsNonContracting := [0]
  rhsNonContracting := [1]
  lhsBatch := []
  rhsBatch := []
  wf := dot_S128x256_S256x768_S128x768_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def scatter_S131071x256_S1_S128x256_01_n_0_0 : ScatterDims S131071x256 S1 S128x256 where
  updateWindowDims := [0, 1]
  insertedWindowDims := []
  scatterDimsToOperandDims := [0]
  indexVectorDim := 0
  wf := scatter_S131071x256_S1_S128x256_01_n_0_0_wf
def dot_S64x256_S256x768_S64x768_1_0_0_1_n_n : DotDims S64x256 S256x768 S64x768 where
  lhsContracting := [1]
  rhsContracting := [0]
  lhsNonContracting := [0]
  rhsNonContracting := [1]
  lhsBatch := []
  rhsBatch := []
  wf := dot_S64x256_S256x768_S64x768_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def scatter_S131071x256_S1_S64x256_01_n_0_0 : ScatterDims S131071x256 S1 S64x256 where
  updateWindowDims := [0, 1]
  insertedWindowDims := []
  scatterDimsToOperandDims := [0]
  indexVectorDim := 0
  wf := scatter_S131071x256_S1_S64x256_01_n_0_0_wf
def dot_S32x256_S256x768_S32x768_1_0_0_1_n_n : DotDims S32x256 S256x768 S32x768 where
  lhsContracting := [1]
  rhsContracting := [0]
  lhsNonContracting := [0]
  rhsNonContracting := [1]
  lhsBatch := []
  rhsBatch := []
  wf := dot_S32x256_S256x768_S32x768_1_0_0_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def scatter_S131071x256_S1_S32x256_01_n_0_0 : ScatterDims S131071x256 S1 S32x256 where
  updateWindowDims := [0, 1]
  insertedWindowDims := []
  scatterDimsToOperandDims := [0]
  indexVectorDim := 0
  wf := scatter_S131071x256_S1_S32x256_01_n_0_0_wf
def dot_S16x256_S256x768_S16x768_1_0_0_1_n_n : DotDims S16x256 S256x768 S16x768 where
  lhsContracting := [1]
  rhsContracting := [0]
  lhsNonContracting := [0]
  rhsNonContracting := [1]
  lhsBatch := []
  rhsBatch := []
  wf := dot_S16x256_S256x768_S16x768_1_0_0_1_n_n_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf
def scatter_S131071x256_S1_S16x256_01_n_0_0 : ScatterDims S131071x256 S1 S16x256 where
  updateWindowDims := [0, 1]
  insertedWindowDims := []
  scatterDimsToOperandDims := [0]
  indexVectorDim := 0
  wf := scatter_S131071x256_S1_S16x256_01_n_0_0_wf
def dot_S8x256_S256x768_S8x768_1_0_0_1_n_n : DotDims S8x256 S256x768 S8x768 where
  lhsContracting := [1]
  rhsContracting := [0]
  lhsNonContracting := [0]
  rhsNonContracting := [1]
  lhsBatch := []
  rhsBatch := []
  wf := dot_S8x256_S256x768_S8x768_1_0_0_1_n_n_wf
def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf
def scatter_S131071x256_S1_S8x256_01_n_0_0 : ScatterDims S131071x256 S1 S8x256 where
  updateWindowDims := [0, 1]
  insertedWindowDims := []
  scatterDimsToOperandDims := [0]
  indexVectorDim := 0
  wf := scatter_S131071x256_S1_S8x256_01_n_0_0_wf
def dot_S4x256_S256x768_S4x768_1_0_0_1_n_n : DotDims S4x256 S256x768 S4x768 where
  lhsContracting := [1]
  rhsContracting := [0]
  lhsNonContracting := [0]
  rhsNonContracting := [1]
  lhsBatch := []
  rhsBatch := []
  wf := dot_S4x256_S256x768_S4x768_1_0_0_1_n_n_wf
def dot_S4x256_S256x256_S4x256_1_0_0_1_n_n : DotDims S4x256 S256x256 S4x256 where
  lhsContracting := [1]
  rhsContracting := [0]
  lhsNonContracting := [0]
  rhsNonContracting := [1]
  lhsBatch := []
  rhsBatch := []
  wf := dot_S4x256_S256x256_S4x256_1_0_0_1_n_n_wf
def scatter_S131071x256_S1_S4x256_01_n_0_0 : ScatterDims S131071x256 S1 S4x256 where
  updateWindowDims := [0, 1]
  insertedWindowDims := []
  scatterDimsToOperandDims := [0]
  indexVectorDim := 0
  wf := scatter_S131071x256_S1_S4x256_01_n_0_0_wf
def dot_S2x256_S256x768_S2x768_1_0_0_1_n_n : DotDims S2x256 S256x768 S2x768 where
  lhsContracting := [1]
  rhsContracting := [0]
  lhsNonContracting := [0]
  rhsNonContracting := [1]
  lhsBatch := []
  rhsBatch := []
  wf := dot_S2x256_S256x768_S2x768_1_0_0_1_n_n_wf
def dot_S2x256_S256x256_S2x256_1_0_0_1_n_n : DotDims S2x256 S256x256 S2x256 where
  lhsContracting := [1]
  rhsContracting := [0]
  lhsNonContracting := [0]
  rhsNonContracting := [1]
  lhsBatch := []
  rhsBatch := []
  wf := dot_S2x256_S256x256_S2x256_1_0_0_1_n_n_wf
def scatter_S131071x256_S1_S2x256_01_n_0_0 : ScatterDims S131071x256 S1 S2x256 where
  updateWindowDims := [0, 1]
  insertedWindowDims := []
  scatterDimsToOperandDims := [0]
  indexVectorDim := 0
  wf := scatter_S131071x256_S1_S2x256_01_n_0_0_wf
def dot_S1x256_S256x768_S1x768_1_0_0_1_n_n : DotDims S1x256 S256x768 S1x768 where
  lhsContracting := [1]
  rhsContracting := [0]
  lhsNonContracting := [0]
  rhsNonContracting := [1]
  lhsBatch := []
  rhsBatch := []
  wf := dot_S1x256_S256x768_S1x768_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def scatter_S131071x256_S1_S1x256_01_n_0_0 : ScatterDims S131071x256 S1 S1x256 where
  updateWindowDims := [0, 1]
  insertedWindowDims := []
  scatterDimsToOperandDims := [0]
  indexVectorDim := 0
  wf := scatter_S131071x256_S1_S1x256_01_n_0_0_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_call0_v1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v4) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v6_0) S1024x768.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v6_1) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v9) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v12) S256x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v11) S1x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v13_0) S1024x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v13_1) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_call0_v24) S1024x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v27) S1024x2x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v29) S1024x2x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v25) S1024x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_call0_v20) S256x768.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v22) S1x768.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v21) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_call0_v23) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_call0_v30_0) S1024x256.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_call0_v30_1) S1024x256.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_call0_v35) S1024x768.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v38) S1024x2x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v40) S1024x2x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_call0_v36) S1024x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_call0_v20) S256x768.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v22) S1x768.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_call0_v21) S256x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_call0_v23) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_call0_v41_0) S1024x256.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_call0_v41_1) S1024x256.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_call0_v46) S1024x768.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v49) S1024x2x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v51) S1024x2x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_call0_v47) S1024x256.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_call0_v20) S256x768.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_call0_v22) S1x768.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_call0_v21) S256x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_call0_v23) S1x256.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_call0_v52_0) S1024x256.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_call0_v52_1) S1024x256.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_call0_v57) S1024x768.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_call0_v60) S1024x2x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_call0_v62) S1024x2x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_call0_v58) S1024x256.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_call0_v20) S256x768.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_call0_v22) S1x768.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_call0_v21) S256x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_call0_v23) S1x256.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_call0_v63_0) S1024x256.size cc5_transform_8 reads5_8 true false 2 stage5_8 sem5_8
    hrank5 hreads5_8 hinb5_8 nbuf5_8 (Memref.isWhole_whole _) hwx5_8 hstage5_8

abbrev win5_9 : Pipeline.Window sig grid5 :=
  Pipeline.Window.ofSpec (Memref.whole main_call0_v63_1) S1024x256.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_call0_v68) S1024x768.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_call0_v71) S1024x2x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_call0_v73) S1024x2x256.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_call0_v69) S1024x256.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_call0_v20) S256x768.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_call0_v22) S1x768.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_call0_v21) S256x256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_call0_v23) S1x256.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_call0_v74_0) S1024x256.size cc6_transform_8 reads6_8 true false 2 stage6_8 sem6_8
    hrank6 hreads6_8 hinb6_8 nbuf6_8 (Memref.isWhole_whole _) hwx6_8 hstage6_8

abbrev win6_9 : Pipeline.Window sig grid6 :=
  Pipeline.Window.ofSpec (Memref.whole main_call0_v74_1) S1024x256.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

abbrev win7_0 : Pipeline.Window sig grid7 :=
  Pipeline.Window.ofSpec (Memref.whole main_call0_v79) S1024x768.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_call0_v82) S1024x2x256.size cc7_transform_1 reads7_1 false false 1 stage7_1 sem7_1
    hrank7 hreads7_1 hinb7_1 nbuf7_1 (Memref.isWhole_whole _) hwx7_1 hstage7_1

abbrev win7_2 : Pipeline.Window sig grid7 :=
  Pipeline.Window.ofSpec (Memref.whole main_call0_v84) S1024x2x256.size cc7_transform_2 reads7_2 false false 1 stage7_2 sem7_2
    hrank7 hreads7_2 hinb7_2 nbuf7_2 (Memref.isWhole_whole _) hwx7_2 hstage7_2

abbrev win7_3 : Pipeline.Window sig grid7 :=
  Pipeline.Window.ofSpec (Memref.whole main_call0_v80) S1024x256.size cc7_transform_3 reads7_3 false false 1 stage7_3 sem7_3
    hrank7 hreads7_3 hinb7_3 nbuf7_3 (Memref.isWhole_whole _) hwx7_3 hstage7_3

abbrev win7_4 : Pipeline.Window sig grid7 :=
  Pipeline.Window.ofSpec (Memref.whole main_call0_v20) S256x768.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_call0_v22) S1x768.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_call0_v21) S256x256.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_call0_v23) S1x256.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_call0_v85_0) S1024x256.size cc7_transform_8 reads7_8 true false 1 stage7_8 sem7_8
    hrank7 hreads7_8 hinb7_8 nbuf7_8 (Memref.isWhole_whole _) hwx7_8 hstage7_8

abbrev win7_9 : Pipeline.Window sig grid7 :=
  Pipeline.Window.ofSpec (Memref.whole main_call0_v85_1) S1024x256.size cc7_transform_9 reads7_9 true false 1 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

class Facts : Prop extends Facts₀ where

variable [Facts]
-- ==== ReferenceIdeal.lean ====
abbrev S131071x256 : Shape := ⟨2, ![131071, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S256x768 : Shape := ⟨2, ![256, 768]⟩
abbrev S131071x768 : Shape := ⟨2, ![131071, 768]⟩
abbrev S1x768 : Shape := ⟨2, ![1, 768]⟩
abbrev S1x256 : Shape := ⟨2, ![1, 256]⟩
abbrev S_ : Shape := ⟨0, ![]⟩
abbrev S65536x768 : Shape := ⟨2, ![65536, 768]⟩
abbrev S65536x256 : Shape := ⟨2, ![65536, 256]⟩
abbrev S1 : Shape := ⟨1, ![1]⟩
abbrev S32768x768 : Shape := ⟨2, ![32768, 768]⟩
abbrev S32768x2x256 : Shape := ⟨3, ![32768, 2, 256]⟩
abbrev S32768x256 : Shape := ⟨2, ![32768, 256]⟩
abbrev S1x1x256 : Shape := ⟨3, ![1, 1, 256]⟩
abbrev S32768x1x256 : Shape := ⟨3, ![32768, 1, 256]⟩
abbrev S16384x768 : Shape := ⟨2, ![16384, 768]⟩
abbrev S16384x2x256 : Shape := ⟨3, ![16384, 2, 256]⟩
abbrev S16384x256 : Shape := ⟨2, ![16384, 256]⟩
abbrev S16384x1x256 : Shape := ⟨3, ![16384, 1, 256]⟩
abbrev S8192x768 : Shape := ⟨2, ![8192, 768]⟩
abbrev S8192x2x256 : Shape := ⟨3, ![8192, 2, 256]⟩
abbrev S8192x256 : Shape := ⟨2, ![8192, 256]⟩
abbrev S8192x1x256 : Shape := ⟨3, ![8192, 1, 256]⟩
abbrev S4096x768 : Shape := ⟨2, ![4096, 768]⟩
abbrev S4096x2x256 : Shape := ⟨3, ![4096, 2, 256]⟩
abbrev S4096x256 : Shape := ⟨2, ![4096, 256]⟩
abbrev S4096x1x256 : Shape := ⟨3, ![4096, 1, 256]⟩
abbrev S2048x768 : Shape := ⟨2, ![2048, 768]⟩
abbrev S2048x2x256 : Shape := ⟨3, ![2048, 2, 256]⟩
abbrev S2048x256 : Shape := ⟨2, ![2048, 256]⟩
abbrev S2048x1x256 : Shape := ⟨3, ![2048, 1, 256]⟩
abbrev S1024x768 : Shape := ⟨2, ![1024, 768]⟩
abbrev S1024x2x256 : Shape := ⟨3, ![1024, 2, 256]⟩
abbrev S1024x256 : Shape := ⟨2, ![1024, 256]⟩
abbrev S1024x1x256 : Shape := ⟨3, ![1024, 1, 256]⟩
abbrev S512x768 : Shape := ⟨2, ![512, 768]⟩
abbrev S512x2x256 : Shape := ⟨3, ![512, 2, 256]⟩
abbrev S512x256 : Shape := ⟨2, ![512, 256]⟩
abbrev S512x1x256 : Shape := ⟨3, ![512, 1, 256]⟩
abbrev S256x2x256 : Shape := ⟨3, ![256, 2, 256]⟩
abbrev S256x1x256 : Shape := ⟨3, ![256, 1, 256]⟩
abbrev S128x768 : Shape := ⟨2, ![128, 768]⟩
abbrev S128x2x256 : Shape := ⟨3, ![128, 2, 256]⟩
abbrev S128x256 : Shape := ⟨2, ![128, 256]⟩
abbrev S128x1x256 : Shape := ⟨3, ![128, 1, 256]⟩
abbrev S64x768 : Shape := ⟨2, ![64, 768]⟩
abbrev S64x2x256 : Shape := ⟨3, ![64, 2, 256]⟩
abbrev S64x256 : Shape := ⟨2, ![64, 256]⟩
abbrev S64x1x256 : Shape := ⟨3, ![64, 1, 256]⟩
abbrev S32x768 : Shape := ⟨2, ![32, 768]⟩
abbrev S32x2x256 : Shape := ⟨3, ![32, 2, 256]⟩
abbrev S32x256 : Shape := ⟨2, ![32, 256]⟩
abbrev S32x1x256 : Shape := ⟨3, ![32, 1, 256]⟩
abbrev S16x768 : Shape := ⟨2, ![16, 768]⟩
abbrev S16x2x256 : Shape := ⟨3, ![16, 2, 256]⟩
abbrev S16x256 : Shape := ⟨2, ![16, 256]⟩
abbrev S16x1x256 : Shape := ⟨3, ![16, 1, 256]⟩
abbrev S8x768 : Shape := ⟨2, ![8, 768]⟩
abbrev S8x2x256 : Shape := ⟨3, ![8, 2, 256]⟩
abbrev S8x256 : Shape := ⟨2, ![8, 256]⟩
abbrev S8x1x256 : Shape := ⟨3, ![8, 1, 256]⟩
abbrev S4x768 : Shape := ⟨2, ![4, 768]⟩
abbrev S4x2x256 : Shape := ⟨3, ![4, 2, 256]⟩
abbrev S4x256 : Shape := ⟨2, ![4, 256]⟩
abbrev S4x1x256 : Shape := ⟨3, ![4, 1, 256]⟩
abbrev S2x768 : Shape := ⟨2, ![2, 768]⟩
abbrev S2x2x256 : Shape := ⟨3, ![2, 2, 256]⟩
abbrev S2x256 : Shape := ⟨2, ![2, 256]⟩
abbrev S2x1x256 : Shape := ⟨3, ![2, 1, 256]⟩
abbrev S1x2x256 : Shape := ⟨3, ![1, 2, 256]⟩

abbrev nBuf : Space → Nat
  | .hbm => 1052
  | .vmem => 0
  | .smem => 0
  | _ => 0

abbrev hbmTy0_0 (i : Nat) : BufTy := match i % 128 with
  | 0 => ⟨S131071x256, .f32⟩
  | 1 => ⟨S768x256, .f32⟩
  | 2 => ⟨S768, .f32⟩
  | 3 => ⟨S768x256, .f32⟩
  | 4 => ⟨S768, .f32⟩
  | 5 => ⟨S256x256, .f32⟩
  | 6 => ⟨S256, .f32⟩
  | 7 => ⟨S256x256, .f32⟩
  | 8 => ⟨S256, .f32⟩
  | 9 => ⟨S256x768, .f32⟩
  | 10 => ⟨S131071x768, .f32⟩
  | 11 => ⟨S1x768, .f32⟩
  | 12 => ⟨S131071x768, .f32⟩
  | 13 => ⟨S131071x768, .f32⟩
  | 14 => ⟨S256x256, .f32⟩
  | 15 => ⟨S131071x256, .f32⟩
  | 16 => ⟨S1x256, .f32⟩
  | 17 => ⟨S131071x256, .f32⟩
  | 18 => ⟨S131071x256, .f32⟩
  | 19 => ⟨S_, .f32⟩
  | 20 => ⟨S131071x256, .f32⟩
  | 21 => ⟨S_, .f32⟩
  | 22 => ⟨S131071x256, .f32⟩
  | 23 => ⟨S65536x768, .f32⟩
  | 24 => ⟨S1x768, .f32⟩
  | 25 => ⟨S65536x768, .f32⟩
  | 26 => ⟨S65536x768, .f32⟩
  | 27 => ⟨S_, .f32⟩
  | 28 => ⟨S65536x256, .f32⟩
  | 29 => ⟨S65536x256, .f32⟩
  | 30 => ⟨S65536x256, .f32⟩
  | 31 => ⟨S65536x256, .f32⟩
  | 32 => ⟨S65536x256, .f32⟩
  | 33 => ⟨S65536x256, .f32⟩
  | 34 => ⟨S_, .f32⟩
  | 35 => ⟨S65536x256, .f32⟩
  | 36 => ⟨S65536x256, .f32⟩
  | 37 => ⟨S_, .f32⟩
  | 38 => ⟨S65536x256, .f32⟩
  | 39 => ⟨S65536x256, .f32⟩
  | 40 => ⟨S65536x256, .f32⟩
  | 41 => ⟨S65536x256, .f32⟩
  | 42 => ⟨S65536x256, .f32⟩
  | 43 => ⟨S65536x256, .f32⟩
  | 44 => ⟨S65536x256, .f32⟩
  | 45 => ⟨S_, .f32⟩
  | 46 => ⟨S65536x256, .f32⟩
  | 47 => ⟨S65536x256, .f32⟩
  | 48 => ⟨S_, .f32⟩
  | 49 => ⟨S65536x256, .f32⟩
  | 50 => ⟨S65536x256, .f32⟩
  | 51 => ⟨S65536x256, .f32⟩
  | 52 => ⟨S65536x256, .f32⟩
  | 53 => ⟨S_, .i32⟩
  | 54 => ⟨S1, .i32⟩
  | 55 => ⟨S131071x256, .f32⟩
  | 56 => ⟨S_, .i32⟩
  | 57 => ⟨S1, .i32⟩
  | 58 => ⟨S131071x256, .f32⟩
  | 59 => ⟨S32768x768, .f32⟩
  | 60 => ⟨S65536x256, .f32⟩
  | 61 => ⟨S32768x2x256, .f32⟩
  | 62 => ⟨S65536x256, .f32⟩
  | 63 => ⟨S32768x2x256, .f32⟩
  | 64 => ⟨S_, .f32⟩
  | 65 => ⟨S32768x256, .f32⟩
  | 66 => ⟨S256x768, .f32⟩
  | 67 => ⟨S32768x768, .f32⟩
  | 68 => ⟨S32768x768, .f32⟩
  | 69 => ⟨S1x768, .f32⟩
  | 70 => ⟨S32768x768, .f32⟩
  | 71 => ⟨S32768x768, .f32⟩
  | 72 => ⟨S32768x2x256, .f32⟩
  | 73 => ⟨S1x1x256, .f32⟩
  | 74 => ⟨S32768x2x256, .f32⟩
  | 75 => ⟨S32768x2x256, .f32⟩
  | 76 => ⟨S32768x256, .f32⟩
  | 77 => ⟨S32768x1x256, .f32⟩
  | 78 => ⟨S32768x2x256, .f32⟩
  | 79 => ⟨S32768x2x256, .f32⟩
  | 80 => ⟨S32768x2x256, .f32⟩
  | 81 => ⟨S32768x2x256, .f32⟩
  | 82 => ⟨S_, .f32⟩
  | 83 => ⟨S32768x2x256, .f32⟩
  | 84 => ⟨S32768x2x256, .f32⟩
  | 85 => ⟨S_, .f32⟩
  | 86 => ⟨S32768x2x256, .f32⟩
  | 87 => ⟨S32768x2x256, .f32⟩
  | 88 => ⟨S32768x2x256, .f32⟩
  | 89 => ⟨S_, .f32⟩
  | 90 => ⟨S32768x256, .f32⟩
  | 91 => ⟨S32768x256, .f32⟩
  | 92 => ⟨S32768x256, .f32⟩
  | 93 => ⟨S32768x256, .f32⟩
  | 94 => ⟨S32768x256, .f32⟩
  | 95 => ⟨S32768x256, .f32⟩
  | 96 => ⟨S_, .f32⟩
  | 97 => ⟨S32768x256, .f32⟩
  | 98 => ⟨S32768x256, .f32⟩
  | 99 => ⟨S_, .f32⟩
  | 100 => ⟨S32768x256, .f32⟩
  | 101 => ⟨S32768x256, .f32⟩
  | 102 => ⟨S32768x256, .f32⟩
  | 103 => ⟨S32768x256, .f32⟩
  | 104 => ⟨S32768x256, .f32⟩
  | 105 => ⟨S32768x256, .f32⟩
  | 106 => ⟨S32768x256, .f32⟩
  | 107 => ⟨S_, .f32⟩
  | 108 => ⟨S32768x256, .f32⟩
  | 109 => ⟨S32768x256, .f32⟩
  | 110 => ⟨S_, .f32⟩
  | 111 => ⟨S32768x256, .f32⟩
  | 112 => ⟨S32768x256, .f32⟩
  | 113 => ⟨S32768x256, .f32⟩
  | 114 => ⟨S32768x256, .f32⟩
  | 115 => ⟨S_, .i32⟩
  | 116 => ⟨S1, .i32⟩
  | 117 => ⟨S131071x256, .f32⟩
  | 118 => ⟨S_, .i32⟩
  | 119 => ⟨S1, .i32⟩
  | 120 => ⟨S131071x256, .f32⟩
  | 121 => ⟨S16384x768, .f32⟩
  | 122 => ⟨S32768x256, .f32⟩
  | 123 => ⟨S16384x2x256, .f32⟩
  | 124 => ⟨S32768x256, .f32⟩
  | 125 => ⟨S16384x2x256, .f32⟩
  | 126 => ⟨S_, .f32⟩
  | 127 => ⟨S16384x256, .f32⟩
  | _ => ⟨S131071x256, .f32⟩

abbrev hbmTy0_1 (i : Nat) : BufTy := match i % 128 with
  | 0 => ⟨S256x768, .f32⟩
  | 1 => ⟨S16384x768, .f32⟩
  | 2 => ⟨S16384x768, .f32⟩
  | 3 => ⟨S1x768, .f32⟩
  | 4 => ⟨S16384x768, .f32⟩
  | 5 => ⟨S16384x768, .f32⟩
  | 6 => ⟨S16384x2x256, .f32⟩
  | 7 => ⟨S1x1x256, .f32⟩
  | 8 => ⟨S16384x2x256, .f32⟩
  | 9 => ⟨S16384x2x256, .f32⟩
  | 10 => ⟨S16384x256, .f32⟩
  | 11 => ⟨S16384x1x256, .f32⟩
  | 12 => ⟨S16384x2x256, .f32⟩
  | 13 => ⟨S16384x2x256, .f32⟩
  | 14 => ⟨S16384x2x256, .f32⟩
  | 15 => ⟨S16384x2x256, .f32⟩
  | 16 => ⟨S_, .f32⟩
  | 17 => ⟨S16384x2x256, .f32⟩
  | 18 => ⟨S16384x2x256, .f32⟩
  | 19 => ⟨S_, .f32⟩
  | 20 => ⟨S16384x2x256, .f32⟩
  | 21 => ⟨S16384x2x256, .f32⟩
  | 22 => ⟨S16384x2x256, .f32⟩
  | 23 => ⟨S_, .f32⟩
  | 24 => ⟨S16384x256, .f32⟩
  | 25 => ⟨S16384x256, .f32⟩
  | 26 => ⟨S16384x256, .f32⟩
  | 27 => ⟨S16384x256, .f32⟩
  | 28 => ⟨S16384x256, .f32⟩
  | 29 => ⟨S16384x256, .f32⟩
  | 30 => ⟨S_, .f32⟩
  | 31 => ⟨S16384x256, .f32⟩
  | 32 => ⟨S16384x256, .f32⟩
  | 33 => ⟨S_, .f32⟩
  | 34 => ⟨S16384x256, .f32⟩
  | 35 => ⟨S16384x256, .f32⟩
  | 36 => ⟨S16384x256, .f32⟩
  | 37 => ⟨S16384x256, .f32⟩
  | 38 => ⟨S16384x256, .f32⟩
  | 39 => ⟨S16384x256, .f32⟩
  | 40 => ⟨S16384x256, .f32⟩
  | 41 => ⟨S_, .f32⟩
  | 42 => ⟨S16384x256, .f32⟩
  | 43 => ⟨S16384x256, .f32⟩
  | 44 => ⟨S_, .f32⟩
  | 45 => ⟨S16384x256, .f32⟩
  | 46 => ⟨S16384x256, .f32⟩
  | 47 => ⟨S16384x256, .f32⟩
  | 48 => ⟨S16384x256, .f32⟩
  | 49 => ⟨S_, .i32⟩
  | 50 => ⟨S1, .i32⟩
  | 51 => ⟨S131071x256, .f32⟩
  | 52 => ⟨S_, .i32⟩
  | 53 => ⟨S1, .i32⟩
  | 54 => ⟨S131071x256, .f32⟩
  | 55 => ⟨S8192x768, .f32⟩
  | 56 => ⟨S16384x256, .f32⟩
  | 57 => ⟨S8192x2x256, .f32⟩
  | 58 => ⟨S16384x256, .f32⟩
  | 59 => ⟨S8192x2x256, .f32⟩
  | 60 => ⟨S_, .f32⟩
  | 61 => ⟨S8192x256, .f32⟩
  | 62 => ⟨S256x768, .f32⟩
  | 63 => ⟨S8192x768, .f32⟩
  | 64 => ⟨S8192x768, .f32⟩
  | 65 => ⟨S1x768, .f32⟩
  | 66 => ⟨S8192x768, .f32⟩
  | 67 => ⟨S8192x768, .f32⟩
  | 68 => ⟨S8192x2x256, .f32⟩
  | 69 => ⟨S1x1x256, .f32⟩
  | 70 => ⟨S8192x2x256, .f32⟩
  | 71 => ⟨S8192x2x256, .f32⟩
  | 72 => ⟨S8192x256, .f32⟩
  | 73 => ⟨S8192x1x256, .f32⟩
  | 74 => ⟨S8192x2x256, .f32⟩
  | 75 => ⟨S8192x2x256, .f32⟩
  | 76 => ⟨S8192x2x256, .f32⟩
  | 77 => ⟨S8192x2x256, .f32⟩
  | 78 => ⟨S_, .f32⟩
  | 79 => ⟨S8192x2x256, .f32⟩
  | 80 => ⟨S8192x2x256, .f32⟩
  | 81 => ⟨S_, .f32⟩
  | 82 => ⟨S8192x2x256, .f32⟩
  | 83 => ⟨S8192x2x256, .f32⟩
  | 84 => ⟨S8192x2x256, .f32⟩
  | 85 => ⟨S_, .f32⟩
  | 86 => ⟨S8192x256, .f32⟩
  | 87 => ⟨S8192x256, .f32⟩
  | 88 => ⟨S8192x256, .f32⟩
  | 89 => ⟨S8192x256, .f32⟩
  | 90 => ⟨S8192x256, .f32⟩
  | 91 => ⟨S8192x256, .f32⟩
  | 92 => ⟨S_, .f32⟩
  | 93 => ⟨S8192x256, .f32⟩
  | 94 => ⟨S8192x256, .f32⟩
  | 95 => ⟨S_, .f32⟩
  | 96 => ⟨S8192x256, .f32⟩
  | 97 => ⟨S8192x256, .f32⟩
  | 98 => ⟨S8192x256, .f32⟩
  | 99 => ⟨S8192x256, .f32⟩
  | 100 => ⟨S8192x256, .f32⟩
  | 101 => ⟨S8192x256, .f32⟩
  | 102 => ⟨S8192x256, .f32⟩
  | 103 => ⟨S_, .f32⟩
  | 104 => ⟨S8192x256, .f32⟩
  | 105 => ⟨S8192x256, .f32⟩
  | 106 => ⟨S_, .f32⟩
  | 107 => ⟨S8192x256, .f32⟩
  | 108 => ⟨S8192x256, .f32⟩
  | 109 => ⟨S8192x256, .f32⟩
  | 110 => ⟨S8192x256, .f32⟩
  | 111 => ⟨S_, .i32⟩
  | 112 => ⟨S1, .i32⟩
  | 113 => ⟨S131071x256, .f32⟩
  | 114 => ⟨S_, .i32⟩
  | 115 => ⟨S1, .i32⟩
  | 116 => ⟨S131071x256, .f32⟩
  | 117 => ⟨S4096x768, .f32⟩
  | 118 => ⟨S8192x256, .f32⟩
  | 119 => ⟨S4096x2x256, .f32⟩
  | 120 => ⟨S8192x256, .f32⟩
  | 121 => ⟨S4096x2x256, .f32⟩
  | 122 => ⟨S_, .f32⟩
  | 123 => ⟨S4096x256, .f32⟩
  | 124 => ⟨S256x768, .f32⟩
  | 125 => ⟨S4096x768, .f32⟩
  | 126 => ⟨S4096x768, .f32⟩
  | 127 => ⟨S1x768, .f32⟩
  | _ => ⟨S131071x256, .f32⟩

abbrev hbmTy0_2 (i : Nat) : BufTy := match i % 128 with
  | 0 => ⟨S4096x768, .f32⟩
  | 1 => ⟨S4096x768, .f32⟩
  | 2 => ⟨S4096x2x256, .f32⟩
  | 3 => ⟨S1x1x256, .f32⟩
  | 4 => ⟨S4096x2x256, .f32⟩
  | 5 => ⟨S4096x2x256, .f32⟩
  | 6 => ⟨S4096x256, .f32⟩
  | 7 => ⟨S4096x1x256, .f32⟩
  | 8 => ⟨S4096x2x256, .f32⟩
  | 9 => ⟨S4096x2x256, .f32⟩
  | 10 => ⟨S4096x2x256, .f32⟩
  | 11 => ⟨S4096x2x256, .f32⟩
  | 12 => ⟨S_, .f32⟩
  | 13 => ⟨S4096x2x256, .f32⟩
  | 14 => ⟨S4096x2x256, .f32⟩
  | 15 => ⟨S_, .f32⟩
  | 16 => ⟨S4096x2x256, .f32⟩
  | 17 => ⟨S4096x2x256, .f32⟩
  | 18 => ⟨S4096x2x256, .f32⟩
  | 19 => ⟨S_, .f32⟩
  | 20 => ⟨S4096x256, .f32⟩
  | 21 => ⟨S4096x256, .f32⟩
  | 22 => ⟨S4096x256, .f32⟩
  | 23 => ⟨S4096x256, .f32⟩
  | 24 => ⟨S4096x256, .f32⟩
  | 25 => ⟨S4096x256, .f32⟩
  | 26 => ⟨S_, .f32⟩
  | 27 => ⟨S4096x256, .f32⟩
  | 28 => ⟨S4096x256, .f32⟩
  | 29 => ⟨S_, .f32⟩
  | 30 => ⟨S4096x256, .f32⟩
  | 31 => ⟨S4096x256, .f32⟩
  | 32 => ⟨S4096x256, .f32⟩
  | 33 => ⟨S4096x256, .f32⟩
  | 34 => ⟨S4096x256, .f32⟩
  | 35 => ⟨S4096x256, .f32⟩
  | 36 => ⟨S4096x256, .f32⟩
  | 37 => ⟨S_, .f32⟩
  | 38 => ⟨S4096x256, .f32⟩
  | 39 => ⟨S4096x256, .f32⟩
  | 40 => ⟨S_, .f32⟩
  | 41 => ⟨S4096x256, .f32⟩
  | 42 => ⟨S4096x256, .f32⟩
  | 43 => ⟨S4096x256, .f32⟩
  | 44 => ⟨S4096x256, .f32⟩
  | 45 => ⟨S_, .i32⟩
  | 46 => ⟨S1, .i32⟩
  | 47 => ⟨S131071x256, .f32⟩
  | 48 => ⟨S_, .i32⟩
  | 49 => ⟨S1, .i32⟩
  | 50 => ⟨S131071x256, .f32⟩
  | 51 => ⟨S2048x768, .f32⟩
  | 52 => ⟨S4096x256, .f32⟩
  | 53 => ⟨S2048x2x256, .f32⟩
  | 54 => ⟨S4096x256, .f32⟩
  | 55 => ⟨S2048x2x256, .f32⟩
  | 56 => ⟨S_, .f32⟩
  | 57 => ⟨S2048x256, .f32⟩
  | 58 => ⟨S256x768, .f32⟩
  | 59 => ⟨S2048x768, .f32⟩
  | 60 => ⟨S2048x768, .f32⟩
  | 61 => ⟨S1x768, .f32⟩
  | 62 => ⟨S2048x768, .f32⟩
  | 63 => ⟨S2048x768, .f32⟩
  | 64 => ⟨S2048x2x256, .f32⟩
  | 65 => ⟨S1x1x256, .f32⟩
  | 66 => ⟨S2048x2x256, .f32⟩
  | 67 => ⟨S2048x2x256, .f32⟩
  | 68 => ⟨S2048x256, .f32⟩
  | 69 => ⟨S2048x1x256, .f32⟩
  | 70 => ⟨S2048x2x256, .f32⟩
  | 71 => ⟨S2048x2x256, .f32⟩
  | 72 => ⟨S2048x2x256, .f32⟩
  | 73 => ⟨S2048x2x256, .f32⟩
  | 74 => ⟨S_, .f32⟩
  | 75 => ⟨S2048x2x256, .f32⟩
  | 76 => ⟨S2048x2x256, .f32⟩
  | 77 => ⟨S_, .f32⟩
  | 78 => ⟨S2048x2x256, .f32⟩
  | 79 => ⟨S2048x2x256, .f32⟩
  | 80 => ⟨S2048x2x256, .f32⟩
  | 81 => ⟨S_, .f32⟩
  | 82 => ⟨S2048x256, .f32⟩
  | 83 => ⟨S2048x256, .f32⟩
  | 84 => ⟨S2048x256, .f32⟩
  | 85 => ⟨S2048x256, .f32⟩
  | 86 => ⟨S2048x256, .f32⟩
  | 87 => ⟨S2048x256, .f32⟩
  | 88 => ⟨S_, .f32⟩
  | 89 => ⟨S2048x256, .f32⟩
  | 90 => ⟨S2048x256, .f32⟩
  | 91 => ⟨S_, .f32⟩
  | 92 => ⟨S2048x256, .f32⟩
  | 93 => ⟨S2048x256, .f32⟩
  | 94 => ⟨S2048x256, .f32⟩
  | 95 => ⟨S2048x256, .f32⟩
  | 96 => ⟨S2048x256, .f32⟩
  | 97 => ⟨S2048x256, .f32⟩
  | 98 => ⟨S2048x256, .f32⟩
  | 99 => ⟨S_, .f32⟩
  | 100 => ⟨S2048x256, .f32⟩
  | 101 => ⟨S2048x256, .f32⟩
  | 102 => ⟨S_, .f32⟩
  | 103 => ⟨S2048x256, .f32⟩
  | 104 => ⟨S2048x256, .f32⟩
  | 105 => ⟨S2048x256, .f32⟩
  | 106 => ⟨S2048x256, .f32⟩
  | 107 => ⟨S_, .i32⟩
  | 108 => ⟨S1, .i32⟩
  | 109 => ⟨S131071x256, .f32⟩
  | 110 => ⟨S_, .i32⟩
  | 111 => ⟨S1, .i32⟩
  | 112 => ⟨S131071x256, .f32⟩
  | 113 => ⟨S1024x768, .f32⟩
  | 114 => ⟨S2048x256, .f32⟩
  | 115 => ⟨S1024x2x256, .f32⟩
  | 116 => ⟨S2048x256, .f32⟩
  | 117 => ⟨S1024x2x256, .f32⟩
  | 118 => ⟨S_, .f32⟩
  | 119 => ⟨S1024x256, .f32⟩
  | 120 => ⟨S256x768, .f32⟩
  | 121 => ⟨S1024x768, .f32⟩
  | 122 => ⟨S1024x768, .f32⟩
  | 123 => ⟨S1x768, .f32⟩
  | 124 => ⟨S1024x768, .f32⟩
  | 125 => ⟨S1024x768, .f32⟩
  | 126 => ⟨S1024x2x256, .f32⟩
  | 127 => ⟨S1x1x256, .f32⟩
  | _ => ⟨S131071x256, .f32⟩

abbrev hbmTy0_3 (i : Nat) : BufTy := match i % 128 with
  | 0 => ⟨S1024x2x256, .f32⟩
  | 1 => ⟨S1024x2x256, .f32⟩
  | 2 => ⟨S1024x256, .f32⟩
  | 3 => ⟨S1024x1x256, .f32⟩
  | 4 => ⟨S1024x2x256, .f32⟩
  | 5 => ⟨S1024x2x256, .f32⟩
  | 6 => ⟨S1024x2x256, .f32⟩
  | 7 => ⟨S1024x2x256, .f32⟩
  | 8 => ⟨S_, .f32⟩
  | 9 => ⟨S1024x2x256, .f32⟩
  | 10 => ⟨S1024x2x256, .f32⟩
  | 11 => ⟨S_, .f32⟩
  | 12 => ⟨S1024x2x256, .f32⟩
  | 13 => ⟨S1024x2x256, .f32⟩
  | 14 => ⟨S1024x2x256, .f32⟩
  | 15 => ⟨S_, .f32⟩
  | 16 => ⟨S1024x256, .f32⟩
  | 17 => ⟨S1024x256, .f32⟩
  | 18 => ⟨S1024x256, .f32⟩
  | 19 => ⟨S1024x256, .f32⟩
  | 20 => ⟨S1024x256, .f32⟩
  | 21 => ⟨S1024x256, .f32⟩
  | 22 => ⟨S_, .f32⟩
  | 23 => ⟨S1024x256, .f32⟩
  | 24 => ⟨S1024x256, .f32⟩
  | 25 => ⟨S_, .f32⟩
  | 26 => ⟨S1024x256, .f32⟩
  | 27 => ⟨S1024x256, .f32⟩
  | 28 => ⟨S1024x256, .f32⟩
  | 29 => ⟨S1024x256, .f32⟩
  | 30 => ⟨S1024x256, .f32⟩
  | 31 => ⟨S1024x256, .f32⟩
  | 32 => ⟨S1024x256, .f32⟩
  | 33 => ⟨S_, .f32⟩
  | 34 => ⟨S1024x256, .f32⟩
  | 35 => ⟨S1024x256, .f32⟩
  | 36 => ⟨S_, .f32⟩
  | 37 => ⟨S1024x256, .f32⟩
  | 38 => ⟨S1024x256, .f32⟩
  | 39 => ⟨S1024x256, .f32⟩
  | 40 => ⟨S1024x256, .f32⟩
  | 41 => ⟨S_, .i32⟩
  | 42 => ⟨S1, .i32⟩
  | 43 => ⟨S131071x256, .f32⟩
  | 44 => ⟨S_, .i32⟩
  | 45 => ⟨S1, .i32⟩
  | 46 => ⟨S131071x256, .f32⟩
  | 47 => ⟨S512x768, .f32⟩
  | 48 => ⟨S1024x256, .f32⟩
  | 49 => ⟨S512x2x256, .f32⟩
  | 50 => ⟨S1024x256, .f32⟩
  | 51 => ⟨S512x2x256, .f32⟩
  | 52 => ⟨S_, .f32⟩
  | 53 => ⟨S512x256, .f32⟩
  | 54 => ⟨S256x768, .f32⟩
  | 55 => ⟨S512x768, .f32⟩
  | 56 => ⟨S512x768, .f32⟩
  | 57 => ⟨S1x768, .f32⟩
  | 58 => ⟨S512x768, .f32⟩
  | 59 => ⟨S512x768, .f32⟩
  | 60 => ⟨S512x2x256, .f32⟩
  | 61 => ⟨S1x1x256, .f32⟩
  | 62 => ⟨S512x2x256, .f32⟩
  | 63 => ⟨S512x2x256, .f32⟩
  | 64 => ⟨S512x256, .f32⟩
  | 65 => ⟨S512x1x256, .f32⟩
  | 66 => ⟨S512x2x256, .f32⟩
  | 67 => ⟨S512x2x256, .f32⟩
  | 68 => ⟨S512x2x256, .f32⟩
  | 69 => ⟨S512x2x256, .f32⟩
  | 70 => ⟨S_, .f32⟩
  | 71 => ⟨S512x2x256, .f32⟩
  | 72 => ⟨S512x2x256, .f32⟩
  | 73 => ⟨S_, .f32⟩
  | 74 => ⟨S512x2x256, .f32⟩
  | 75 => ⟨S512x2x256, .f32⟩
  | 76 => ⟨S512x2x256, .f32⟩
  | 77 => ⟨S_, .f32⟩
  | 78 => ⟨S512x256, .f32⟩
  | 79 => ⟨S512x256, .f32⟩
  | 80 => ⟨S512x256, .f32⟩
  | 81 => ⟨S512x256, .f32⟩
  | 82 => ⟨S512x256, .f32⟩
  | 83 => ⟨S512x256, .f32⟩
  | 84 => ⟨S_, .f32⟩
  | 85 => ⟨S512x256, .f32⟩
  | 86 => ⟨S512x256, .f32⟩
  | 87 => ⟨S_, .f32⟩
  | 88 => ⟨S512x256, .f32⟩
  | 89 => ⟨S512x256, .f32⟩
  | 90 => ⟨S512x256, .f32⟩
  | 91 => ⟨S512x256, .f32⟩
  | 92 => ⟨S512x256, .f32⟩
  | 93 => ⟨S512x256, .f32⟩
  | 94 => ⟨S512x256, .f32⟩
  | 95 => ⟨S_, .f32⟩
  | 96 => ⟨S512x256, .f32⟩
  | 97 => ⟨S512x256, .f32⟩
  | 98 => ⟨S_, .f32⟩
  | 99 => ⟨S512x256, .f32⟩
  | 100 => ⟨S512x256, .f32⟩
  | 101 => ⟨S512x256, .f32⟩
  | 102 => ⟨S512x256, .f32⟩
  | 103 => ⟨S_, .i32⟩
  | 104 => ⟨S1, .i32⟩
  | 105 => ⟨S131071x256, .f32⟩
  | 106 => ⟨S_, .i32⟩
  | 107 => ⟨S1, .i32⟩
  | 108 => ⟨S131071x256, .f32⟩
  | 109 => ⟨S256x768, .f32⟩
  | 110 => ⟨S512x256, .f32⟩
  | 111 => ⟨S256x2x256, .f32⟩
  | 112 => ⟨S512x256, .f32⟩
  | 113 => ⟨S256x2x256, .f32⟩
  | 114 => ⟨S_, .f32⟩
  | 115 => ⟨S256x256, .f32⟩
  | 116 => ⟨S256x768, .f32⟩
  | 117 => ⟨S256x768, .f32⟩
  | 118 => ⟨S256x768, .f32⟩
  | 119 => ⟨S1x768, .f32⟩
  | 120 => ⟨S256x768, .f32⟩
  | 121 => ⟨S256x768, .f32⟩
  | 122 => ⟨S256x2x256, .f32⟩
  | 123 => ⟨S1x1x256, .f32⟩
  | 124 => ⟨S256x2x256, .f32⟩
  | 125 => ⟨S256x2x256, .f32⟩
  | 126 => ⟨S256x256, .f32⟩
  | 127 => ⟨S256x1x256, .f32⟩
  | _ => ⟨S131071x256, .f32⟩

abbrev hbmTy0_4 (i : Nat) : BufTy := match i % 128 with
  | 0 => ⟨S256x2x256, .f32⟩
  | 1 => ⟨S256x2x256, .f32⟩
  | 2 => ⟨S256x2x256, .f32⟩
  | 3 => ⟨S256x2x256, .f32⟩
  | 4 => ⟨S_, .f32⟩
  | 5 => ⟨S256x2x256, .f32⟩
  | 6 => ⟨S256x2x256, .f32⟩
  | 7 => ⟨S_, .f32⟩
  | 8 => ⟨S256x2x256, .f32⟩
  | 9 => ⟨S256x2x256, .f32⟩
  | 10 => ⟨S256x2x256, .f32⟩
  | 11 => ⟨S_, .f32⟩
  | 12 => ⟨S256x256, .f32⟩
  | 13 => ⟨S256x256, .f32⟩
  | 14 => ⟨S256x256, .f32⟩
  | 15 => ⟨S256x256, .f32⟩
  | 16 => ⟨S256x256, .f32⟩
  | 17 => ⟨S256x256, .f32⟩
  | 18 => ⟨S_, .f32⟩
  | 19 => ⟨S256x256, .f32⟩
  | 20 => ⟨S256x256, .f32⟩
  | 21 => ⟨S_, .f32⟩
  | 22 => ⟨S256x256, .f32⟩
  | 23 => ⟨S256x256, .f32⟩
  | 24 => ⟨S256x256, .f32⟩
  | 25 => ⟨S256x256, .f32⟩
  | 26 => ⟨S256x256, .f32⟩
  | 27 => ⟨S256x256, .f32⟩
  | 28 => ⟨S256x256, .f32⟩
  | 29 => ⟨S_, .f32⟩
  | 30 => ⟨S256x256, .f32⟩
  | 31 => ⟨S256x256, .f32⟩
  | 32 => ⟨S_, .f32⟩
  | 33 => ⟨S256x256, .f32⟩
  | 34 => ⟨S256x256, .f32⟩
  | 35 => ⟨S256x256, .f32⟩
  | 36 => ⟨S256x256, .f32⟩
  | 37 => ⟨S_, .i32⟩
  | 38 => ⟨S1, .i32⟩
  | 39 => ⟨S131071x256, .f32⟩
  | 40 => ⟨S_, .i32⟩
  | 41 => ⟨S1, .i32⟩
  | 42 => ⟨S131071x256, .f32⟩
  | 43 => ⟨S128x768, .f32⟩
  | 44 => ⟨S256x256, .f32⟩
  | 45 => ⟨S128x2x256, .f32⟩
  | 46 => ⟨S256x256, .f32⟩
  | 47 => ⟨S128x2x256, .f32⟩
  | 48 => ⟨S_, .f32⟩
  | 49 => ⟨S128x256, .f32⟩
  | 50 => ⟨S256x768, .f32⟩
  | 51 => ⟨S128x768, .f32⟩
  | 52 => ⟨S128x768, .f32⟩
  | 53 => ⟨S1x768, .f32⟩
  | 54 => ⟨S128x768, .f32⟩
  | 55 => ⟨S128x768, .f32⟩
  | 56 => ⟨S128x2x256, .f32⟩
  | 57 => ⟨S1x1x256, .f32⟩
  | 58 => ⟨S128x2x256, .f32⟩
  | 59 => ⟨S128x2x256, .f32⟩
  | 60 => ⟨S128x256, .f32⟩
  | 61 => ⟨S128x1x256, .f32⟩
  | 62 => ⟨S128x2x256, .f32⟩
  | 63 => ⟨S128x2x256, .f32⟩
  | 64 => ⟨S128x2x256, .f32⟩
  | 65 => ⟨S128x2x256, .f32⟩
  | 66 => ⟨S_, .f32⟩
  | 67 => ⟨S128x2x256, .f32⟩
  | 68 => ⟨S128x2x256, .f32⟩
  | 69 => ⟨S_, .f32⟩
  | 70 => ⟨S128x2x256, .f32⟩
  | 71 => ⟨S128x2x256, .f32⟩
  | 72 => ⟨S128x2x256, .f32⟩
  | 73 => ⟨S_, .f32⟩
  | 74 => ⟨S128x256, .f32⟩
  | 75 => ⟨S128x256, .f32⟩
  | 76 => ⟨S128x256, .f32⟩
  | 77 => ⟨S128x256, .f32⟩
  | 78 => ⟨S128x256, .f32⟩
  | 79 => ⟨S128x256, .f32⟩
  | 80 => ⟨S_, .f32⟩
  | 81 => ⟨S128x256, .f32⟩
  | 82 => ⟨S128x256, .f32⟩
  | 83 => ⟨S_, .f32⟩
  | 84 => ⟨S128x256, .f32⟩
  | 85 => ⟨S128x256, .f32⟩
  | 86 => ⟨S128x256, .f32⟩
  | 87 => ⟨S128x256, .f32⟩
  | 88 => ⟨S128x256, .f32⟩
  | 89 => ⟨S128x256, .f32⟩
  | 90 => ⟨S128x256, .f32⟩
  | 91 => ⟨S_, .f32⟩
  | 92 => ⟨S128x256, .f32⟩
  | 93 => ⟨S128x256, .f32⟩
  | 94 => ⟨S_, .f32⟩
  | 95 => ⟨S128x256, .f32⟩
  | 96 => ⟨S128x256, .f32⟩
  | 97 => ⟨S128x256, .f32⟩
  | 98 => ⟨S128x256, .f32⟩
  | 99 => ⟨S_, .i32⟩
  | 100 => ⟨S1, .i32⟩
  | 101 => ⟨S131071x256, .f32⟩
  | 102 => ⟨S_, .i32⟩
  | 103 => ⟨S1, .i32⟩
  | 104 => ⟨S131071x256, .f32⟩
  | 105 => ⟨S64x768, .f32⟩
  | 106 => ⟨S128x256, .f32⟩
  | 107 => ⟨S64x2x256, .f32⟩
  | 108 => ⟨S128x256, .f32⟩
  | 109 => ⟨S64x2x256, .f32⟩
  | 110 => ⟨S_, .f32⟩
  | 111 => ⟨S64x256, .f32⟩
  | 112 => ⟨S256x768, .f32⟩
  | 113 => ⟨S64x768, .f32⟩
  | 114 => ⟨S64x768, .f32⟩
  | 115 => ⟨S1x768, .f32⟩
  | 116 => ⟨S64x768, .f32⟩
  | 117 => ⟨S64x768, .f32⟩
  | 118 => ⟨S64x2x256, .f32⟩
  | 119 => ⟨S1x1x256, .f32⟩
  | 120 => ⟨S64x2x256, .f32⟩
  | 121 => ⟨S64x2x256, .f32⟩
  | 122 => ⟨S64x256, .f32⟩
  | 123 => ⟨S64x1x256, .f32⟩
  | 124 => ⟨S64x2x256, .f32⟩
  | 125 => ⟨S64x2x256, .f32⟩
  | 126 => ⟨S64x2x256, .f32⟩
  | 127 => ⟨S64x2x256, .f32⟩
  | _ => ⟨S131071x256, .f32⟩

abbrev hbmTy0_5 (i : Nat) : BufTy := match i % 128 with
  | 0 => ⟨S_, .f32⟩
  | 1 => ⟨S64x2x256, .f32⟩
  | 2 => ⟨S64x2x256, .f32⟩
  | 3 => ⟨S_, .f32⟩
  | 4 => ⟨S64x2x256, .f32⟩
  | 5 => ⟨S64x2x256, .f32⟩
  | 6 => ⟨S64x2x256, .f32⟩
  | 7 => ⟨S_, .f32⟩
  | 8 => ⟨S64x256, .f32⟩
  | 9 => ⟨S64x256, .f32⟩
  | 10 => ⟨S64x256, .f32⟩
  | 11 => ⟨S64x256, .f32⟩
  | 12 => ⟨S64x256, .f32⟩
  | 13 => ⟨S64x256, .f32⟩
  | 14 => ⟨S_, .f32⟩
  | 15 => ⟨S64x256, .f32⟩
  | 16 => ⟨S64x256, .f32⟩
  | 17 => ⟨S_, .f32⟩
  | 18 => ⟨S64x256, .f32⟩
  | 19 => ⟨S64x256, .f32⟩
  | 20 => ⟨S64x256, .f32⟩
  | 21 => ⟨S64x256, .f32⟩
  | 22 => ⟨S64x256, .f32⟩
  | 23 => ⟨S64x256, .f32⟩
  | 24 => ⟨S64x256, .f32⟩
  | 25 => ⟨S_, .f32⟩
  | 26 => ⟨S64x256, .f32⟩
  | 27 => ⟨S64x256, .f32⟩
  | 28 => ⟨S_, .f32⟩
  | 29 => ⟨S64x256, .f32⟩
  | 30 => ⟨S64x256, .f32⟩
  | 31 => ⟨S64x256, .f32⟩
  | 32 => ⟨S64x256, .f32⟩
  | 33 => ⟨S_, .i32⟩
  | 34 => ⟨S1, .i32⟩
  | 35 => ⟨S131071x256, .f32⟩
  | 36 => ⟨S_, .i32⟩
  | 37 => ⟨S1, .i32⟩
  | 38 => ⟨S131071x256, .f32⟩
  | 39 => ⟨S32x768, .f32⟩
  | 40 => ⟨S64x256, .f32⟩
  | 41 => ⟨S32x2x256, .f32⟩
  | 42 => ⟨S64x256, .f32⟩
  | 43 => ⟨S32x2x256, .f32⟩
  | 44 => ⟨S_, .f32⟩
  | 45 => ⟨S32x256, .f32⟩
  | 46 => ⟨S256x768, .f32⟩
  | 47 => ⟨S32x768, .f32⟩
  | 48 => ⟨S32x768, .f32⟩
  | 49 => ⟨S1x768, .f32⟩
  | 50 => ⟨S32x768, .f32⟩
  | 51 => ⟨S32x768, .f32⟩
  | 52 => ⟨S32x2x256, .f32⟩
  | 53 => ⟨S1x1x256, .f32⟩
  | 54 => ⟨S32x2x256, .f32⟩
  | 55 => ⟨S32x2x256, .f32⟩
  | 56 => ⟨S32x256, .f32⟩
  | 57 => ⟨S32x1x256, .f32⟩
  | 58 => ⟨S32x2x256, .f32⟩
  | 59 => ⟨S32x2x256, .f32⟩
  | 60 => ⟨S32x2x256, .f32⟩
  | 61 => ⟨S32x2x256, .f32⟩
  | 62 => ⟨S_, .f32⟩
  | 63 => ⟨S32x2x256, .f32⟩
  | 64 => ⟨S32x2x256, .f32⟩
  | 65 => ⟨S_, .f32⟩
  | 66 => ⟨S32x2x256, .f32⟩
  | 67 => ⟨S32x2x256, .f32⟩
  | 68 => ⟨S32x2x256, .f32⟩
  | 69 => ⟨S_, .f32⟩
  | 70 => ⟨S32x256, .f32⟩
  | 71 => ⟨S32x256, .f32⟩
  | 72 => ⟨S32x256, .f32⟩
  | 73 => ⟨S32x256, .f32⟩
  | 74 => ⟨S32x256, .f32⟩
  | 75 => ⟨S32x256, .f32⟩
  | 76 => ⟨S_, .f32⟩
  | 77 => ⟨S32x256, .f32⟩
  | 78 => ⟨S32x256, .f32⟩
  | 79 => ⟨S_, .f32⟩
  | 80 => ⟨S32x256, .f32⟩
  | 81 => ⟨S32x256, .f32⟩
  | 82 => ⟨S32x256, .f32⟩
  | 83 => ⟨S32x256, .f32⟩
  | 84 => ⟨S32x256, .f32⟩
  | 85 => ⟨S32x256, .f32⟩
  | 86 => ⟨S32x256, .f32⟩
  | 87 => ⟨S_, .f32⟩
  | 88 => ⟨S32x256, .f32⟩
  | 89 => ⟨S32x256, .f32⟩
  | 90 => ⟨S_, .f32⟩
  | 91 => ⟨S32x256, .f32⟩
  | 92 => ⟨S32x256, .f32⟩
  | 93 => ⟨S32x256, .f32⟩
  | 94 => ⟨S32x256, .f32⟩
  | 95 => ⟨S_, .i32⟩
  | 96 => ⟨S1, .i32⟩
  | 97 => ⟨S131071x256, .f32⟩
  | 98 => ⟨S_, .i32⟩
  | 99 => ⟨S1, .i32⟩
  | 100 => ⟨S131071x256, .f32⟩
  | 101 => ⟨S16x768, .f32⟩
  | 102 => ⟨S32x256, .f32⟩
  | 103 => ⟨S16x2x256, .f32⟩
  | 104 => ⟨S32x256, .f32⟩
  | 105 => ⟨S16x2x256, .f32⟩
  | 106 => ⟨S_, .f32⟩
  | 107 => ⟨S16x256, .f32⟩
  | 108 => ⟨S256x768, .f32⟩
  | 109 => ⟨S16x768, .f32⟩
  | 110 => ⟨S16x768, .f32⟩
  | 111 => ⟨S1x768, .f32⟩
  | 112 => ⟨S16x768, .f32⟩
  | 113 => ⟨S16x768, .f32⟩
  | 114 => ⟨S16x2x256, .f32⟩
  | 115 => ⟨S1x1x256, .f32⟩
  | 116 => ⟨S16x2x256, .f32⟩
  | 117 => ⟨S16x2x256, .f32⟩
  | 118 => ⟨S16x256, .f32⟩
  | 119 => ⟨S16x1x256, .f32⟩
  | 120 => ⟨S16x2x256, .f32⟩
  | 121 => ⟨S16x2x256, .f32⟩
  | 122 => ⟨S16x2x256, .f32⟩
  | 123 => ⟨S16x2x256, .f32⟩
  | 124 => ⟨S_, .f32⟩
  | 125 => ⟨S16x2x256, .f32⟩
  | 126 => ⟨S16x2x256, .f32⟩
  | 127 => ⟨S_, .f32⟩
  | _ => ⟨S131071x256, .f32⟩

abbrev hbmTy0_6 (i : Nat) : BufTy := match i % 128 with
  | 0 => ⟨S16x2x256, .f32⟩
  | 1 => ⟨S16x2x256, .f32⟩
  | 2 => ⟨S16x2x256, .f32⟩
  | 3 => ⟨S_, .f32⟩
  | 4 => ⟨S16x256, .f32⟩
  | 5 => ⟨S16x256, .f32⟩
  | 6 => ⟨S16x256, .f32⟩
  | 7 => ⟨S16x256, .f32⟩
  | 8 => ⟨S16x256, .f32⟩
  | 9 => ⟨S16x256, .f32⟩
  | 10 => ⟨S_, .f32⟩
  | 11 => ⟨S16x256, .f32⟩
  | 12 => ⟨S16x256, .f32⟩
  | 13 => ⟨S_, .f32⟩
  | 14 => ⟨S16x256, .f32⟩
  | 15 => ⟨S16x256, .f32⟩
  | 16 => ⟨S16x256, .f32⟩
  | 17 => ⟨S16x256, .f32⟩
  | 18 => ⟨S16x256, .f32⟩
  | 19 => ⟨S16x256, .f32⟩
  | 20 => ⟨S16x256, .f32⟩
  | 21 => ⟨S_, .f32⟩
  | 22 => ⟨S16x256, .f32⟩
  | 23 => ⟨S16x256, .f32⟩
  | 24 => ⟨S_, .f32⟩
  | 25 => ⟨S16x256, .f32⟩
  | 26 => ⟨S16x256, .f32⟩
  | 27 => ⟨S16x256, .f32⟩
  | 28 => ⟨S16x256, .f32⟩
  | 29 => ⟨S_, .i32⟩
  | 30 => ⟨S1, .i32⟩
  | 31 => ⟨S131071x256, .f32⟩
  | 32 => ⟨S_, .i32⟩
  | 33 => ⟨S1, .i32⟩
  | 34 => ⟨S131071x256, .f32⟩
  | 35 => ⟨S8x768, .f32⟩
  | 36 => ⟨S16x256, .f32⟩
  | 37 => ⟨S8x2x256, .f32⟩
  | 38 => ⟨S16x256, .f32⟩
  | 39 => ⟨S8x2x256, .f32⟩
  | 40 => ⟨S_, .f32⟩
  | 41 => ⟨S8x256, .f32⟩
  | 42 => ⟨S256x768, .f32⟩
  | 43 => ⟨S8x768, .f32⟩
  | 44 => ⟨S8x768, .f32⟩
  | 45 => ⟨S1x768, .f32⟩
  | 46 => ⟨S8x768, .f32⟩
  | 47 => ⟨S8x768, .f32⟩
  | 48 => ⟨S8x2x256, .f32⟩
  | 49 => ⟨S1x1x256, .f32⟩
  | 50 => ⟨S8x2x256, .f32⟩
  | 51 => ⟨S8x2x256, .f32⟩
  | 52 => ⟨S8x256, .f32⟩
  | 53 => ⟨S8x1x256, .f32⟩
  | 54 => ⟨S8x2x256, .f32⟩
  | 55 => ⟨S8x2x256, .f32⟩
  | 56 => ⟨S8x2x256, .f32⟩
  | 57 => ⟨S8x2x256, .f32⟩
  | 58 => ⟨S_, .f32⟩
  | 59 => ⟨S8x2x256, .f32⟩
  | 60 => ⟨S8x2x256, .f32⟩
  | 61 => ⟨S_, .f32⟩
  | 62 => ⟨S8x2x256, .f32⟩
  | 63 => ⟨S8x2x256, .f32⟩
  | 64 => ⟨S8x2x256, .f32⟩
  | 65 => ⟨S_, .f32⟩
  | 66 => ⟨S8x256, .f32⟩
  | 67 => ⟨S8x256, .f32⟩
  | 68 => ⟨S8x256, .f32⟩
  | 69 => ⟨S8x256, .f32⟩
  | 70 => ⟨S8x256, .f32⟩
  | 71 => ⟨S8x256, .f32⟩
  | 72 => ⟨S_, .f32⟩
  | 73 => ⟨S8x256, .f32⟩
  | 74 => ⟨S8x256, .f32⟩
  | 75 => ⟨S_, .f32⟩
  | 76 => ⟨S8x256, .f32⟩
  | 77 => ⟨S8x256, .f32⟩
  | 78 => ⟨S8x256, .f32⟩
  | 79 => ⟨S8x256, .f32⟩
  | 80 => ⟨S8x256, .f32⟩
  | 81 => ⟨S8x256, .f32⟩
  | 82 => ⟨S8x256, .f32⟩
  | 83 => ⟨S_, .f32⟩
  | 84 => ⟨S8x256, .f32⟩
  | 85 => ⟨S8x256, .f32⟩
  | 86 => ⟨S_, .f32⟩
  | 87 => ⟨S8x256, .f32⟩
  | 88 => ⟨S8x256, .f32⟩
  | 89 => ⟨S8x256, .f32⟩
  | 90 => ⟨S8x256, .f32⟩
  | 91 => ⟨S_, .i32⟩
  | 92 => ⟨S1, .i32⟩
  | 93 => ⟨S131071x256, .f32⟩
  | 94 => ⟨S_, .i32⟩
  | 95 => ⟨S1, .i32⟩
  | 96 => ⟨S131071x256, .f32⟩
  | 97 => ⟨S4x768, .f32⟩
  | 98 => ⟨S8x256, .f32⟩
  | 99 => ⟨S4x2x256, .f32⟩
  | 100 => ⟨S8x256, .f32⟩
  | 101 => ⟨S4x2x256, .f32⟩
  | 102 => ⟨S_, .f32⟩
  | 103 => ⟨S4x256, .f32⟩
  | 104 => ⟨S256x768, .f32⟩
  | 105 => ⟨S4x768, .f32⟩
  | 106 => ⟨S4x768, .f32⟩
  | 107 => ⟨S1x768, .f32⟩
  | 108 => ⟨S4x768, .f32⟩
  | 109 => ⟨S4x768, .f32⟩
  | 110 => ⟨S4x2x256, .f32⟩
  | 111 => ⟨S1x1x256, .f32⟩
  | 112 => ⟨S4x2x256, .f32⟩
  | 113 => ⟨S4x2x256, .f32⟩
  | 114 => ⟨S4x256, .f32⟩
  | 115 => ⟨S4x1x256, .f32⟩
  | 116 => ⟨S4x2x256, .f32⟩
  | 117 => ⟨S4x2x256, .f32⟩
  | 118 => ⟨S4x2x256, .f32⟩
  | 119 => ⟨S4x2x256, .f32⟩
  | 120 => ⟨S_, .f32⟩
  | 121 => ⟨S4x2x256, .f32⟩
  | 122 => ⟨S4x2x256, .f32⟩
  | 123 => ⟨S_, .f32⟩
  | 124 => ⟨S4x2x256, .f32⟩
  | 125 => ⟨S4x2x256, .f32⟩
  | 126 => ⟨S4x2x256, .f32⟩
  | 127 => ⟨S_, .f32⟩
  | _ => ⟨S131071x256, .f32⟩

abbrev hbmTy0_7 (i : Nat) : BufTy := match i % 128 with
  | 0 => ⟨S4x256, .f32⟩
  | 1 => ⟨S4x256, .f32⟩
  | 2 => ⟨S4x256, .f32⟩
  | 3 => ⟨S4x256, .f32⟩
  | 4 => ⟨S4x256, .f32⟩
  | 5 => ⟨S4x256, .f32⟩
  | 6 => ⟨S_, .f32⟩
  | 7 => ⟨S4x256, .f32⟩
  | 8 => ⟨S4x256, .f32⟩
  | 9 => ⟨S_, .f32⟩
  | 10 => ⟨S4x256, .f32⟩
  | 11 => ⟨S4x256, .f32⟩
  | 12 => ⟨S4x256, .f32⟩
  | 13 => ⟨S4x256, .f32⟩
  | 14 => ⟨S4x256, .f32⟩
  | 15 => ⟨S4x256, .f32⟩
  | 16 => ⟨S4x256, .f32⟩
  | 17 => ⟨S_, .f32⟩
  | 18 => ⟨S4x256, .f32⟩
  | 19 => ⟨S4x256, .f32⟩
  | 20 => ⟨S_, .f32⟩
  | 21 => ⟨S4x256, .f32⟩
  | 22 => ⟨S4x256, .f32⟩
  | 23 => ⟨S4x256, .f32⟩
  | 24 => ⟨S4x256, .f32⟩
  | 25 => ⟨S_, .i32⟩
  | 26 => ⟨S1, .i32⟩
  | 27 => ⟨S131071x256, .f32⟩
  | 28 => ⟨S_, .i32⟩
  | 29 => ⟨S1, .i32⟩
  | 30 => ⟨S131071x256, .f32⟩
  | 31 => ⟨S2x768, .f32⟩
  | 32 => ⟨S4x256, .f32⟩
  | 33 => ⟨S2x2x256, .f32⟩
  | 34 => ⟨S4x256, .f32⟩
  | 35 => ⟨S2x2x256, .f32⟩
  | 36 => ⟨S_, .f32⟩
  | 37 => ⟨S2x256, .f32⟩
  | 38 => ⟨S256x768, .f32⟩
  | 39 => ⟨S2x768, .f32⟩
  | 40 => ⟨S2x768, .f32⟩
  | 41 => ⟨S1x768, .f32⟩
  | 42 => ⟨S2x768, .f32⟩
  | 43 => ⟨S2x768, .f32⟩
  | 44 => ⟨S2x2x256, .f32⟩
  | 45 => ⟨S1x1x256, .f32⟩
  | 46 => ⟨S2x2x256, .f32⟩
  | 47 => ⟨S2x2x256, .f32⟩
  | 48 => ⟨S2x256, .f32⟩
  | 49 => ⟨S2x1x256, .f32⟩
  | 50 => ⟨S2x2x256, .f32⟩
  | 51 => ⟨S2x2x256, .f32⟩
  | 52 => ⟨S2x2x256, .f32⟩
  | 53 => ⟨S2x2x256, .f32⟩
  | 54 => ⟨S_, .f32⟩
  | 55 => ⟨S2x2x256, .f32⟩
  | 56 => ⟨S2x2x256, .f32⟩
  | 57 => ⟨S_, .f32⟩
  | 58 => ⟨S2x2x256, .f32⟩
  | 59 => ⟨S2x2x256, .f32⟩
  | 60 => ⟨S2x2x256, .f32⟩
  | 61 => ⟨S_, .f32⟩
  | 62 => ⟨S2x256, .f32⟩
  | 63 => ⟨S2x256, .f32⟩
  | 64 => ⟨S2x256, .f32⟩
  | 65 => ⟨S2x256, .f32⟩
  | 66 => ⟨S2x256, .f32⟩
  | 67 => ⟨S2x256, .f32⟩
  | 68 => ⟨S_, .f32⟩
  | 69 => ⟨S2x256, .f32⟩
  | 70 => ⟨S2x256, .f32⟩
  | 71 => ⟨S_, .f32⟩
  | 72 => ⟨S2x256, .f32⟩
  | 73 => ⟨S2x256, .f32⟩
  | 74 => ⟨S2x256, .f32⟩
  | 75 => ⟨S2x256, .f32⟩
  | 76 => ⟨S2x256, .f32⟩
  | 77 => ⟨S2x256, .f32⟩
  | 78 => ⟨S2x256, .f32⟩
  | 79 => ⟨S_, .f32⟩
  | 80 => ⟨S2x256, .f32⟩
  | 81 => ⟨S2x256, .f32⟩
  | 82 => ⟨S_, .f32⟩
  | 83 => ⟨S2x256, .f32⟩
  | 84 => ⟨S2x256, .f32⟩
  | 85 => ⟨S2x256, .f32⟩
  | 86 => ⟨S2x256, .f32⟩
  | 87 => ⟨S_, .i32⟩
  | 88 => ⟨S1, .i32⟩
  | 89 => ⟨S131071x256, .f32⟩
  | 90 => ⟨S_, .i32⟩
  | 91 => ⟨S1, .i32⟩
  | 92 => ⟨S131071x256, .f32⟩
  | 93 => ⟨S1x768, .f32⟩
  | 94 => ⟨S2x256, .f32⟩
  | 95 => ⟨S1x2x256, .f32⟩
  | 96 => ⟨S2x256, .f32⟩
  | 97 => ⟨S1x2x256, .f32⟩
  | 98 => ⟨S_, .f32⟩
  | 99 => ⟨S1x256, .f32⟩
  | 100 => ⟨S256x768, .f32⟩
  | 101 => ⟨S1x768, .f32⟩
  | 102 => ⟨S1x768, .f32⟩
  | 103 => ⟨S1x768, .f32⟩
  | 104 => ⟨S1x768, .f32⟩
  | 105 => ⟨S1x2x256, .f32⟩
  | 106 => ⟨S1x1x256, .f32⟩
  | 107 => ⟨S1x2x256, .f32⟩
  | 108 => ⟨S1x2x256, .f32⟩
  | 109 => ⟨S1x256, .f32⟩
  | 110 => ⟨S1x1x256, .f32⟩
  | 111 => ⟨S1x2x256, .f32⟩
  | 112 => ⟨S1x2x256, .f32⟩
  | 113 => ⟨S1x2x256, .f32⟩
  | 114 => ⟨S1x2x256, .f32⟩
  | 115 => ⟨S_, .f32⟩
  | 116 => ⟨S1x2x256, .f32⟩
  | 117 => ⟨S1x2x256, .f32⟩
  | 118 => ⟨S_, .f32⟩
  | 119 => ⟨S1x2x256, .f32⟩
  | 120 => ⟨S1x2x256, .f32⟩
  | 121 => ⟨S1x2x256, .f32⟩
  | 122 => ⟨S_, .f32⟩
  | 123 => ⟨S1x256, .f32⟩
  | 124 => ⟨S1x256, .f32⟩
  | 125 => ⟨S1x256, .f32⟩
  | 126 => ⟨S1x256, .f32⟩
  | 127 => ⟨S1x256, .f32⟩
  | _ => ⟨S131071x256, .f32⟩

abbrev hbmTy0_8 (i : Nat) : BufTy := match i % 128 with
  | 0 => ⟨S1x256, .f32⟩
  | 1 => ⟨S_, .f32⟩
  | 2 => ⟨S1x256, .f32⟩
  | 3 => ⟨S1x256, .f32⟩
  | 4 => ⟨S_, .f32⟩
  | 5 => ⟨S1x256, .f32⟩
  | 6 => ⟨S1x256, .f32⟩
  | 7 => ⟨S1x256, .f32⟩
  | 8 => ⟨S1x256, .f32⟩
  | 9 => ⟨S1x256, .f32⟩
  | 10 => ⟨S1x256, .f32⟩
  | 11 => ⟨S1x256, .f32⟩
  | 12 => ⟨S_, .f32⟩
  | 13 => ⟨S1x256, .f32⟩
  | 14 => ⟨S1x256, .f32⟩
  | 15 => ⟨S_, .f32⟩
  | 16 => ⟨S1x256, .f32⟩
  | 17 => ⟨S1x256, .f32⟩
  | 18 => ⟨S1x256, .f32⟩
  | 19 => ⟨S1x256, .f32⟩
  | 20 => ⟨S_, .i32⟩
  | 21 => ⟨S1, .i32⟩
  | 22 => ⟨S131071x256, .f32⟩
  | 23 => ⟨S_, .i32⟩
  | 24 => ⟨S1, .i32⟩
  | 25 => ⟨S131071x256, .f32⟩
  | 26 => ⟨S1x256, .f32⟩
  | 27 => ⟨S1x256, .f32⟩
  | _ => ⟨S131071x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S131071x256, .f32⟩

abbrev bufTy : (tb : Table) → Fin (tcTables nBuf tb) → BufTy
  | .hbm, ⟨i, _⟩ => hbmTy i
  | _, _ => ⟨S131071x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c : Ref sig .tc := ⟨.hbm, 53, rfl⟩
abbrev main_v37 : Ref sig .tc := ⟨.hbm, 54, rfl⟩
abbrev main_v38 : Ref sig .tc := ⟨.hbm, 55, rfl⟩
abbrev main_c_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_8 : Ref sig .tc := ⟨.hbm, 82, rfl⟩
abbrev main_v63 : Ref sig .tc := ⟨.hbm, 83, rfl⟩
abbrev main_v64 : Ref sig .tc := ⟨.hbm, 84, rfl⟩
abbrev main_cst_9 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_10 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_11 : Ref sig .tc := ⟨.hbm, 96, rfl⟩
abbrev main_v74 : Ref sig .tc := ⟨.hbm, 97, rfl⟩
abbrev main_v75 : Ref sig .tc := ⟨.hbm, 98, rfl⟩
abbrev main_cst_12 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_13 : Ref sig .tc := ⟨.hbm, 107, rfl⟩
abbrev main_v83 : Ref sig .tc := ⟨.hbm, 108, rfl⟩
abbrev main_v84 : Ref sig .tc := ⟨.hbm, 109, rfl⟩
abbrev main_cst_14 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_c_15 : Ref sig .tc := ⟨.hbm, 115, rfl⟩
abbrev main_v89 : Ref sig .tc := ⟨.hbm, 116, rfl⟩
abbrev main_v90 : Ref sig .tc := ⟨.hbm, 117, rfl⟩
abbrev main_c_16 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_17 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_18 : Ref sig .tc := ⟨.hbm, 144, rfl⟩
abbrev main_v115 : Ref sig .tc := ⟨.hbm, 145, rfl⟩
abbrev main_v116 : Ref sig .tc := ⟨.hbm, 146, rfl⟩
abbrev main_cst_19 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_cst_20 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_cst_21 : Ref sig .tc := ⟨.hbm, 158, rfl⟩
abbrev main_v126 : Ref sig .tc := ⟨.hbm, 159, rfl⟩
abbrev main_v127 : Ref sig .tc := ⟨.hbm, 160, rfl⟩
abbrev main_cst_22 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_cst_23 : Ref sig .tc := ⟨.hbm, 169, rfl⟩
abbrev main_v135 : Ref sig .tc := ⟨.hbm, 170, rfl⟩
abbrev main_v136 : Ref sig .tc := ⟨.hbm, 171, rfl⟩
abbrev main_cst_24 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_c_25 : Ref sig .tc := ⟨.hbm, 177, rfl⟩
abbrev main_v141 : Ref sig .tc := ⟨.hbm, 178, rfl⟩
abbrev main_v142 : Ref sig .tc := ⟨.hbm, 179, rfl⟩
abbrev main_c_26 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_cst_27 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_cst_28 : Ref sig .tc := ⟨.hbm, 206, rfl⟩
abbrev main_v167 : Ref sig .tc := ⟨.hbm, 207, rfl⟩
abbrev main_v168 : Ref sig .tc := ⟨.hbm, 208, rfl⟩
abbrev main_cst_29 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_cst_30 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_cst_31 : Ref sig .tc := ⟨.hbm, 220, rfl⟩
abbrev main_v178 : Ref sig .tc := ⟨.hbm, 221, rfl⟩
abbrev main_v179 : Ref sig .tc := ⟨.hbm, 222, rfl⟩
abbrev main_cst_32 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_cst_33 : Ref sig .tc := ⟨.hbm, 231, rfl⟩
abbrev main_v187 : Ref sig .tc := ⟨.hbm, 232, rfl⟩
abbrev main_v188 : Ref sig .tc := ⟨.hbm, 233, rfl⟩
abbrev main_cst_34 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_c_35 : Ref sig .tc := ⟨.hbm, 239, rfl⟩
abbrev main_v193 : Ref sig .tc := ⟨.hbm, 240, rfl⟩
abbrev main_v194 : Ref sig .tc := ⟨.hbm, 241, rfl⟩
abbrev main_c_36 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_cst_37 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_cst_38 : Ref sig .tc := ⟨.hbm, 268, rfl⟩
abbrev main_v219 : Ref sig .tc := ⟨.hbm, 269, rfl⟩
abbrev main_v220 : Ref sig .tc := ⟨.hbm, 270, rfl⟩
abbrev main_cst_39 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_cst_40 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_cst_41 : Ref sig .tc := ⟨.hbm, 282, rfl⟩
abbrev main_v230 : Ref sig .tc := ⟨.hbm, 283, rfl⟩
abbrev main_v231 : Ref sig .tc := ⟨.hbm, 284, rfl⟩
abbrev main_cst_42 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_cst_43 : Ref sig .tc := ⟨.hbm, 293, rfl⟩
abbrev main_v239 : Ref sig .tc := ⟨.hbm, 294, rfl⟩
abbrev main_v240 : Ref sig .tc := ⟨.hbm, 295, rfl⟩
abbrev main_cst_44 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_v244 : Ref sig .tc := ⟨.hbm, 300, rfl⟩
abbrev main_c_45 : Ref sig .tc := ⟨.hbm, 301, rfl⟩
abbrev main_v245 : Ref sig .tc := ⟨.hbm, 302, rfl⟩
abbrev main_v246 : Ref sig .tc := ⟨.hbm, 303, rfl⟩
abbrev main_c_46 : Ref sig .tc := ⟨.hbm, 304, rfl⟩
abbrev main_v247 : Ref sig .tc := ⟨.hbm, 305, rfl⟩
abbrev main_v248 : Ref sig .tc := ⟨.hbm, 306, rfl⟩
abbrev main_v249 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_cst_47 : Ref sig .tc := ⟨.hbm, 312, rfl⟩
abbrev main_v254 : Ref sig .tc := ⟨.hbm, 313, rfl⟩
abbrev main_v255 : Ref sig .tc := ⟨.hbm, 314, rfl⟩
abbrev main_v256 : Ref sig .tc := ⟨.hbm, 315, rfl⟩
abbrev main_v257 : Ref sig .tc := ⟨.hbm, 316, rfl⟩
abbrev main_v258 : Ref sig .tc := ⟨.hbm, 317, rfl⟩
abbrev main_v259 : Ref sig .tc := ⟨.hbm, 318, rfl⟩
abbrev main_v260 : Ref sig .tc := ⟨.hbm, 319, rfl⟩
abbrev main_v261 : Ref sig .tc := ⟨.hbm, 320, rfl⟩
abbrev main_v262 : Ref sig .tc := ⟨.hbm, 321, rfl⟩
abbrev main_v263 : Ref sig .tc := ⟨.hbm, 322, rfl⟩
abbrev main_v264 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩
abbrev main_cst_48 : Ref sig .tc := ⟨.hbm, 330, rfl⟩
abbrev main_v271 : Ref sig .tc := ⟨.hbm, 331, rfl⟩
abbrev main_v272 : Ref sig .tc := ⟨.hbm, 332, rfl⟩
abbrev main_cst_49 : Ref sig .tc := ⟨.hbm, 333, rfl⟩
abbrev main_v273 : Ref sig .tc := ⟨.hbm, 334, rfl⟩
abbrev main_v274 : Ref sig .tc := ⟨.hbm, 335, rfl⟩
abbrev main_v275 : Ref sig .tc := ⟨.hbm, 336, rfl⟩
abbrev main_cst_50 : Ref sig .tc := ⟨.hbm, 337, rfl⟩
abbrev main_v276 : Ref sig .tc := ⟨.hbm, 338, rfl⟩
abbrev main_v277 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_v281 : Ref sig .tc := ⟨.hbm, 343, rfl⟩
abbrev main_cst_51 : Ref sig .tc := ⟨.hbm, 344, rfl⟩
abbrev main_v282 : Ref sig .tc := ⟨.hbm, 345, rfl⟩
abbrev main_v283 : Ref sig .tc := ⟨.hbm, 346, rfl⟩
abbrev main_cst_52 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_v287 : Ref sig .tc := ⟨.hbm, 351, rfl⟩
abbrev main_v288 : Ref sig .tc := ⟨.hbm, 352, rfl⟩
abbrev main_v289 : Ref sig .tc := ⟨.hbm, 353, rfl⟩
abbrev main_v290 : Ref sig .tc := ⟨.hbm, 354, rfl⟩
abbrev main_cst_53 : Ref sig .tc := ⟨.hbm, 355, rfl⟩
abbrev main_v291 : Ref sig .tc := ⟨.hbm, 356, rfl⟩
abbrev main_v292 : Ref sig .tc := ⟨.hbm, 357, rfl⟩
abbrev main_cst_54 : Ref sig .tc := ⟨.hbm, 358, rfl⟩
abbrev main_v293 : Ref sig .tc := ⟨.hbm, 359, rfl⟩
abbrev main_v294 : Ref sig .tc := ⟨.hbm, 360, rfl⟩
abbrev main_v295 : Ref sig .tc := ⟨.hbm, 361, rfl⟩
abbrev main_v296 : Ref sig .tc := ⟨.hbm, 362, rfl⟩
abbrev main_c_55 : Ref sig .tc := ⟨.hbm, 363, rfl⟩
abbrev main_v297 : Ref sig .tc := ⟨.hbm, 364, rfl⟩
abbrev main_v298 : Ref sig .tc := ⟨.hbm, 365, rfl⟩
abbrev main_c_56 : Ref sig .tc := ⟨.hbm, 366, rfl⟩
abbrev main_v299 : Ref sig .tc := ⟨.hbm, 367, rfl⟩
abbrev main_v300 : Ref sig .tc := ⟨.hbm, 368, rfl⟩
abbrev main_v301 : Ref sig .tc := ⟨.hbm, 369, rfl⟩
abbrev main_v302 : Ref sig .tc := ⟨.hbm, 370, rfl⟩
abbrev main_v303 : Ref sig .tc := ⟨.hbm, 371, rfl⟩
abbrev main_v304 : Ref sig .tc := ⟨.hbm, 372, rfl⟩
abbrev main_v305 : Ref sig .tc := ⟨.hbm, 373, rfl⟩
abbrev main_cst_57 : Ref sig .tc := ⟨.hbm, 374, rfl⟩
abbrev main_v306 : Ref sig .tc := ⟨.hbm, 375, rfl⟩
abbrev main_v307 : Ref sig .tc := ⟨.hbm, 376, rfl⟩
abbrev main_v308 : Ref sig .tc := ⟨.hbm, 377, rfl⟩
abbrev main_v309 : Ref sig .tc := ⟨.hbm, 378, rfl⟩
abbrev main_v310 : Ref sig .tc := ⟨.hbm, 379, rfl⟩
abbrev main_v311 : Ref sig .tc := ⟨.hbm, 380, rfl⟩
abbrev main_v312 : Ref sig .tc := ⟨.hbm, 381, rfl⟩
abbrev main_v313 : Ref sig .tc := ⟨.hbm, 382, rfl⟩
abbrev main_v314 : Ref sig .tc := ⟨.hbm, 383, rfl⟩
abbrev main_v315 : Ref sig .tc := ⟨.hbm, 384, rfl⟩
abbrev main_v316 : Ref sig .tc := ⟨.hbm, 385, rfl⟩
abbrev main_v317 : Ref sig .tc := ⟨.hbm, 386, rfl⟩
abbrev main_v318 : Ref sig .tc := ⟨.hbm, 387, rfl⟩
abbrev main_v319 : Ref sig .tc := ⟨.hbm, 388, rfl⟩
abbrev main_v320 : Ref sig .tc := ⟨.hbm, 389, rfl⟩
abbrev main_v321 : Ref sig .tc := ⟨.hbm, 390, rfl⟩
abbrev main_v322 : Ref sig .tc := ⟨.hbm, 391, rfl⟩
abbrev main_cst_58 : Ref sig .tc := ⟨.hbm, 392, rfl⟩
abbrev main_v323 : Ref sig .tc := ⟨.hbm, 393, rfl⟩
abbrev main_v324 : Ref sig .tc := ⟨.hbm, 394, rfl⟩
abbrev main_cst_59 : Ref sig .tc := ⟨.hbm, 395, rfl⟩
abbrev main_v325 : Ref sig .tc := ⟨.hbm, 396, rfl⟩
abbrev main_v326 : Ref sig .tc := ⟨.hbm, 397, rfl⟩
abbrev main_v327 : Ref sig .tc := ⟨.hbm, 398, rfl⟩
abbrev main_cst_60 : Ref sig .tc := ⟨.hbm, 399, rfl⟩
abbrev main_v328 : Ref sig .tc := ⟨.hbm, 400, rfl⟩
abbrev main_v329 : Ref sig .tc := ⟨.hbm, 401, rfl⟩
abbrev main_v330 : Ref sig .tc := ⟨.hbm, 402, rfl⟩
abbrev main_v331 : Ref sig .tc := ⟨.hbm, 403, rfl⟩
abbrev main_v332 : Ref sig .tc := ⟨.hbm, 404, rfl⟩
abbrev main_v333 : Ref sig .tc := ⟨.hbm, 405, rfl⟩
abbrev main_cst_61 : Ref sig .tc := ⟨.hbm, 406, rfl⟩
abbrev main_v334 : Ref sig .tc := ⟨.hbm, 407, rfl⟩
abbrev main_v335 : Ref sig .tc := ⟨.hbm, 408, rfl⟩
abbrev main_cst_62 : Ref sig .tc := ⟨.hbm, 409, rfl⟩
abbrev main_v336 : Ref sig .tc := ⟨.hbm, 410, rfl⟩
abbrev main_v337 : Ref sig .tc := ⟨.hbm, 411, rfl⟩
abbrev main_v338 : Ref sig .tc := ⟨.hbm, 412, rfl⟩
abbrev main_v339 : Ref sig .tc := ⟨.hbm, 413, rfl⟩
abbrev main_v340 : Ref sig .tc := ⟨.hbm, 414, rfl⟩
abbrev main_v341 : Ref sig .tc := ⟨.hbm, 415, rfl⟩
abbrev main_v342 : Ref sig .tc := ⟨.hbm, 416, rfl⟩
abbrev main_cst_63 : Ref sig .tc := ⟨.hbm, 417, rfl⟩
abbrev main_v343 : Ref sig .tc := ⟨.hbm, 418, rfl⟩
abbrev main_v344 : Ref sig .tc := ⟨.hbm, 419, rfl⟩
abbrev main_cst_64 : Ref sig .tc := ⟨.hbm, 420, rfl⟩
abbrev main_v345 : Ref sig .tc := ⟨.hbm, 421, rfl⟩
abbrev main_v346 : Ref sig .tc := ⟨.hbm, 422, rfl⟩
abbrev main_v347 : Ref sig .tc := ⟨.hbm, 423, rfl⟩
abbrev main_v348 : Ref sig .tc := ⟨.hbm, 424, rfl⟩
abbrev main_c_65 : Ref sig .tc := ⟨.hbm, 425, rfl⟩
abbrev main_v349 : Ref sig .tc := ⟨.hbm, 426, rfl⟩
abbrev main_v350 : Ref sig .tc := ⟨.hbm, 427, rfl⟩
abbrev main_c_66 : Ref sig .tc := ⟨.hbm, 428, rfl⟩
abbrev main_v351 : Ref sig .tc := ⟨.hbm, 429, rfl⟩
abbrev main_v352 : Ref sig .tc := ⟨.hbm, 430, rfl⟩
abbrev main_v353 : Ref sig .tc := ⟨.hbm, 431, rfl⟩
abbrev main_v354 : Ref sig .tc := ⟨.hbm, 432, rfl⟩
abbrev main_v355 : Ref sig .tc := ⟨.hbm, 433, rfl⟩
abbrev main_v356 : Ref sig .tc := ⟨.hbm, 434, rfl⟩
abbrev main_v357 : Ref sig .tc := ⟨.hbm, 435, rfl⟩
abbrev main_cst_67 : Ref sig .tc := ⟨.hbm, 436, rfl⟩
abbrev main_v358 : Ref sig .tc := ⟨.hbm, 437, rfl⟩
abbrev main_v359 : Ref sig .tc := ⟨.hbm, 438, rfl⟩
abbrev main_v360 : Ref sig .tc := ⟨.hbm, 439, rfl⟩
abbrev main_v361 : Ref sig .tc := ⟨.hbm, 440, rfl⟩
abbrev main_v362 : Ref sig .tc := ⟨.hbm, 441, rfl⟩
abbrev main_v363 : Ref sig .tc := ⟨.hbm, 442, rfl⟩
abbrev main_v364 : Ref sig .tc := ⟨.hbm, 443, rfl⟩
abbrev main_v365 : Ref sig .tc := ⟨.hbm, 444, rfl⟩
abbrev main_v366 : Ref sig .tc := ⟨.hbm, 445, rfl⟩
abbrev main_v367 : Ref sig .tc := ⟨.hbm, 446, rfl⟩
abbrev main_v368 : Ref sig .tc := ⟨.hbm, 447, rfl⟩
abbrev main_v369 : Ref sig .tc := ⟨.hbm, 448, rfl⟩
abbrev main_v370 : Ref sig .tc := ⟨.hbm, 449, rfl⟩
abbrev main_v371 : Ref sig .tc := ⟨.hbm, 450, rfl⟩
abbrev main_v372 : Ref sig .tc := ⟨.hbm, 451, rfl⟩
abbrev main_v373 : Ref sig .tc := ⟨.hbm, 452, rfl⟩
abbrev main_v374 : Ref sig .tc := ⟨.hbm, 453, rfl⟩
abbrev main_cst_68 : Ref sig .tc := ⟨.hbm, 454, rfl⟩
abbrev main_v375 : Ref sig .tc := ⟨.hbm, 455, rfl⟩
abbrev main_v376 : Ref sig .tc := ⟨.hbm, 456, rfl⟩
abbrev main_cst_69 : Ref sig .tc := ⟨.hbm, 457, rfl⟩
abbrev main_v377 : Ref sig .tc := ⟨.hbm, 458, rfl⟩
abbrev main_v378 : Ref sig .tc := ⟨.hbm, 459, rfl⟩
abbrev main_v379 : Ref sig .tc := ⟨.hbm, 460, rfl⟩
abbrev main_cst_70 : Ref sig .tc := ⟨.hbm, 461, rfl⟩
abbrev main_v380 : Ref sig .tc := ⟨.hbm, 462, rfl⟩
abbrev main_v381 : Ref sig .tc := ⟨.hbm, 463, rfl⟩
abbrev main_v382 : Ref sig .tc := ⟨.hbm, 464, rfl⟩
abbrev main_v383 : Ref sig .tc := ⟨.hbm, 465, rfl⟩
abbrev main_v384 : Ref sig .tc := ⟨.hbm, 466, rfl⟩
abbrev main_v385 : Ref sig .tc := ⟨.hbm, 467, rfl⟩
abbrev main_cst_71 : Ref sig .tc := ⟨.hbm, 468, rfl⟩
abbrev main_v386 : Ref sig .tc := ⟨.hbm, 469, rfl⟩
abbrev main_v387 : Ref sig .tc := ⟨.hbm, 470, rfl⟩
abbrev main_cst_72 : Ref sig .tc := ⟨.hbm, 471, rfl⟩
abbrev main_v388 : Ref sig .tc := ⟨.hbm, 472, rfl⟩
abbrev main_v389 : Ref sig .tc := ⟨.hbm, 473, rfl⟩
abbrev main_v390 : Ref sig .tc := ⟨.hbm, 474, rfl⟩
abbrev main_v391 : Ref sig .tc := ⟨.hbm, 475, rfl⟩
abbrev main_v392 : Ref sig .tc := ⟨.hbm, 476, rfl⟩
abbrev main_v393 : Ref sig .tc := ⟨.hbm, 477, rfl⟩
abbrev main_v394 : Ref sig .tc := ⟨.hbm, 478, rfl⟩
abbrev main_cst_73 : Ref sig .tc := ⟨.hbm, 479, rfl⟩
abbrev main_v395 : Ref sig .tc := ⟨.hbm, 480, rfl⟩
abbrev main_v396 : Ref sig .tc := ⟨.hbm, 481, rfl⟩
abbrev main_cst_74 : Ref sig .tc := ⟨.hbm, 482, rfl⟩
abbrev main_v397 : Ref sig .tc := ⟨.hbm, 483, rfl⟩
abbrev main_v398 : Ref sig .tc := ⟨.hbm, 484, rfl⟩
abbrev main_v399 : Ref sig .tc := ⟨.hbm, 485, rfl⟩
abbrev main_v400 : Ref sig .tc := ⟨.hbm, 486, rfl⟩
abbrev main_c_75 : Ref sig .tc := ⟨.hbm, 487, rfl⟩
abbrev main_v401 : Ref sig .tc := ⟨.hbm, 488, rfl⟩
abbrev main_v402 : Ref sig .tc := ⟨.hbm, 489, rfl⟩
abbrev main_c_76 : Ref sig .tc := ⟨.hbm, 490, rfl⟩
abbrev main_v403 : Ref sig .tc := ⟨.hbm, 491, rfl⟩
abbrev main_v404 : Ref sig .tc := ⟨.hbm, 492, rfl⟩
abbrev main_v405 : Ref sig .tc := ⟨.hbm, 493, rfl⟩
abbrev main_v406 : Ref sig .tc := ⟨.hbm, 494, rfl⟩
abbrev main_v407 : Ref sig .tc := ⟨.hbm, 495, rfl⟩
abbrev main_v408 : Ref sig .tc := ⟨.hbm, 496, rfl⟩
abbrev main_v409 : Ref sig .tc := ⟨.hbm, 497, rfl⟩
abbrev main_cst_77 : Ref sig .tc := ⟨.hbm, 498, rfl⟩
abbrev main_v410 : Ref sig .tc := ⟨.hbm, 499, rfl⟩
abbrev main_v411 : Ref sig .tc := ⟨.hbm, 500, rfl⟩
abbrev main_v412 : Ref sig .tc := ⟨.hbm, 501, rfl⟩
abbrev main_v413 : Ref sig .tc := ⟨.hbm, 502, rfl⟩
abbrev main_v414 : Ref sig .tc := ⟨.hbm, 503, rfl⟩
abbrev main_v415 : Ref sig .tc := ⟨.hbm, 504, rfl⟩
abbrev main_v416 : Ref sig .tc := ⟨.hbm, 505, rfl⟩
abbrev main_v417 : Ref sig .tc := ⟨.hbm, 506, rfl⟩
abbrev main_v418 : Ref sig .tc := ⟨.hbm, 507, rfl⟩
abbrev main_v419 : Ref sig .tc := ⟨.hbm, 508, rfl⟩
abbrev main_v420 : Ref sig .tc := ⟨.hbm, 509, rfl⟩
abbrev main_v421 : Ref sig .tc := ⟨.hbm, 510, rfl⟩
abbrev main_v422 : Ref sig .tc := ⟨.hbm, 511, rfl⟩
abbrev main_v423 : Ref sig .tc := ⟨.hbm, 512, rfl⟩
abbrev main_v424 : Ref sig .tc := ⟨.hbm, 513, rfl⟩
abbrev main_v425 : Ref sig .tc := ⟨.hbm, 514, rfl⟩
abbrev main_v426 : Ref sig .tc := ⟨.hbm, 515, rfl⟩
abbrev main_cst_78 : Ref sig .tc := ⟨.hbm, 516, rfl⟩
abbrev main_v427 : Ref sig .tc := ⟨.hbm, 517, rfl⟩
abbrev main_v428 : Ref sig .tc := ⟨.hbm, 518, rfl⟩
abbrev main_cst_79 : Ref sig .tc := ⟨.hbm, 519, rfl⟩
abbrev main_v429 : Ref sig .tc := ⟨.hbm, 520, rfl⟩
abbrev main_v430 : Ref sig .tc := ⟨.hbm, 521, rfl⟩
abbrev main_v431 : Ref sig .tc := ⟨.hbm, 522, rfl⟩
abbrev main_cst_80 : Ref sig .tc := ⟨.hbm, 523, rfl⟩
abbrev main_v432 : Ref sig .tc := ⟨.hbm, 524, rfl⟩
abbrev main_v433 : Ref sig .tc := ⟨.hbm, 525, rfl⟩
abbrev main_v434 : Ref sig .tc := ⟨.hbm, 526, rfl⟩
abbrev main_v435 : Ref sig .tc := ⟨.hbm, 527, rfl⟩
abbrev main_v436 : Ref sig .tc := ⟨.hbm, 528, rfl⟩
abbrev main_v437 : Ref sig .tc := ⟨.hbm, 529, rfl⟩
abbrev main_cst_81 : Ref sig .tc := ⟨.hbm, 530, rfl⟩
abbrev main_v438 : Ref sig .tc := ⟨.hbm, 531, rfl⟩
abbrev main_v439 : Ref sig .tc := ⟨.hbm, 532, rfl⟩
abbrev main_cst_82 : Ref sig .tc := ⟨.hbm, 533, rfl⟩
abbrev main_v440 : Ref sig .tc := ⟨.hbm, 534, rfl⟩
abbrev main_v441 : Ref sig .tc := ⟨.hbm, 535, rfl⟩
abbrev main_v442 : Ref sig .tc := ⟨.hbm, 536, rfl⟩
abbrev main_v443 : Ref sig .tc := ⟨.hbm, 537, rfl⟩
abbrev main_v444 : Ref sig .tc := ⟨.hbm, 538, rfl⟩
abbrev main_v445 : Ref sig .tc := ⟨.hbm, 539, rfl⟩
abbrev main_v446 : Ref sig .tc := ⟨.hbm, 540, rfl⟩
abbrev main_cst_83 : Ref sig .tc := ⟨.hbm, 541, rfl⟩
abbrev main_v447 : Ref sig .tc := ⟨.hbm, 542, rfl⟩
abbrev main_v448 : Ref sig .tc := ⟨.hbm, 543, rfl⟩
abbrev main_cst_84 : Ref sig .tc := ⟨.hbm, 544, rfl⟩
abbrev main_v449 : Ref sig .tc := ⟨.hbm, 545, rfl⟩
abbrev main_v450 : Ref sig .tc := ⟨.hbm, 546, rfl⟩
abbrev main_v451 : Ref sig .tc := ⟨.hbm, 547, rfl⟩
abbrev main_v452 : Ref sig .tc := ⟨.hbm, 548, rfl⟩
abbrev main_c_85 : Ref sig .tc := ⟨.hbm, 549, rfl⟩
abbrev main_v453 : Ref sig .tc := ⟨.hbm, 550, rfl⟩
abbrev main_v454 : Ref sig .tc := ⟨.hbm, 551, rfl⟩
abbrev main_c_86 : Ref sig .tc := ⟨.hbm, 552, rfl⟩
abbrev main_v455 : Ref sig .tc := ⟨.hbm, 553, rfl⟩
abbrev main_v456 : Ref sig .tc := ⟨.hbm, 554, rfl⟩
abbrev main_v457 : Ref sig .tc := ⟨.hbm, 555, rfl⟩
abbrev main_v458 : Ref sig .tc := ⟨.hbm, 556, rfl⟩
abbrev main_v459 : Ref sig .tc := ⟨.hbm, 557, rfl⟩
abbrev main_v460 : Ref sig .tc := ⟨.hbm, 558, rfl⟩
abbrev main_v461 : Ref sig .tc := ⟨.hbm, 559, rfl⟩
abbrev main_cst_87 : Ref sig .tc := ⟨.hbm, 560, rfl⟩
abbrev main_v462 : Ref sig .tc := ⟨.hbm, 561, rfl⟩
abbrev main_v463 : Ref sig .tc := ⟨.hbm, 562, rfl⟩
abbrev main_v464 : Ref sig .tc := ⟨.hbm, 563, rfl⟩
abbrev main_v465 : Ref sig .tc := ⟨.hbm, 564, rfl⟩
abbrev main_v466 : Ref sig .tc := ⟨.hbm, 565, rfl⟩
abbrev main_v467 : Ref sig .tc := ⟨.hbm, 566, rfl⟩
abbrev main_v468 : Ref sig .tc := ⟨.hbm, 567, rfl⟩
abbrev main_v469 : Ref sig .tc := ⟨.hbm, 568, rfl⟩
abbrev main_v470 : Ref sig .tc := ⟨.hbm, 569, rfl⟩
abbrev main_v471 : Ref sig .tc := ⟨.hbm, 570, rfl⟩
abbrev main_v472 : Ref sig .tc := ⟨.hbm, 571, rfl⟩
abbrev main_v473 : Ref sig .tc := ⟨.hbm, 572, rfl⟩
abbrev main_v474 : Ref sig .tc := ⟨.hbm, 573, rfl⟩
abbrev main_v475 : Ref sig .tc := ⟨.hbm, 574, rfl⟩
abbrev main_v476 : Ref sig .tc := ⟨.hbm, 575, rfl⟩
abbrev main_v477 : Ref sig .tc := ⟨.hbm, 576, rfl⟩
abbrev main_v478 : Ref sig .tc := ⟨.hbm, 577, rfl⟩
abbrev main_cst_88 : Ref sig .tc := ⟨.hbm, 578, rfl⟩
abbrev main_v479 : Ref sig .tc := ⟨.hbm, 579, rfl⟩
abbrev main_v480 : Ref sig .tc := ⟨.hbm, 580, rfl⟩
abbrev main_cst_89 : Ref sig .tc := ⟨.hbm, 581, rfl⟩
abbrev main_v481 : Ref sig .tc := ⟨.hbm, 582, rfl⟩
abbrev main_v482 : Ref sig .tc := ⟨.hbm, 583, rfl⟩
abbrev main_v483 : Ref sig .tc := ⟨.hbm, 584, rfl⟩
abbrev main_cst_90 : Ref sig .tc := ⟨.hbm, 585, rfl⟩
abbrev main_v484 : Ref sig .tc := ⟨.hbm, 586, rfl⟩
abbrev main_v485 : Ref sig .tc := ⟨.hbm, 587, rfl⟩
abbrev main_v486 : Ref sig .tc := ⟨.hbm, 588, rfl⟩
abbrev main_v487 : Ref sig .tc := ⟨.hbm, 589, rfl⟩
abbrev main_v488 : Ref sig .tc := ⟨.hbm, 590, rfl⟩
abbrev main_v489 : Ref sig .tc := ⟨.hbm, 591, rfl⟩
abbrev main_cst_91 : Ref sig .tc := ⟨.hbm, 592, rfl⟩
abbrev main_v490 : Ref sig .tc := ⟨.hbm, 593, rfl⟩
abbrev main_v491 : Ref sig .tc := ⟨.hbm, 594, rfl⟩
abbrev main_cst_92 : Ref sig .tc := ⟨.hbm, 595, rfl⟩
abbrev main_v492 : Ref sig .tc := ⟨.hbm, 596, rfl⟩
abbrev main_v493 : Ref sig .tc := ⟨.hbm, 597, rfl⟩
abbrev main_v494 : Ref sig .tc := ⟨.hbm, 598, rfl⟩
abbrev main_v495 : Ref sig .tc := ⟨.hbm, 599, rfl⟩
abbrev main_v496 : Ref sig .tc := ⟨.hbm, 600, rfl⟩
abbrev main_v497 : Ref sig .tc := ⟨.hbm, 601, rfl⟩
abbrev main_v498 : Ref sig .tc := ⟨.hbm, 602, rfl⟩
abbrev main_cst_93 : Ref sig .tc := ⟨.hbm, 603, rfl⟩
abbrev main_v499 : Ref sig .tc := ⟨.hbm, 604, rfl⟩
abbrev main_v500 : Ref sig .tc := ⟨.hbm, 605, rfl⟩
abbrev main_cst_94 : Ref sig .tc := ⟨.hbm, 606, rfl⟩
abbrev main_v501 : Ref sig .tc := ⟨.hbm, 607, rfl⟩
abbrev main_v502 : Ref sig .tc := ⟨.hbm, 608, rfl⟩
abbrev main_v503 : Ref sig .tc := ⟨.hbm, 609, rfl⟩
abbrev main_v504 : Ref sig .tc := ⟨.hbm, 610, rfl⟩
abbrev main_c_95 : Ref sig .tc := ⟨.hbm, 611, rfl⟩
abbrev main_v505 : Ref sig .tc := ⟨.hbm, 612, rfl⟩
abbrev main_v506 : Ref sig .tc := ⟨.hbm, 613, rfl⟩
abbrev main_c_96 : Ref sig .tc := ⟨.hbm, 614, rfl⟩
abbrev main_v507 : Ref sig .tc := ⟨.hbm, 615, rfl⟩
abbrev main_v508 : Ref sig .tc := ⟨.hbm, 616, rfl⟩
abbrev main_v509 : Ref sig .tc := ⟨.hbm, 617, rfl⟩
abbrev main_v510 : Ref sig .tc := ⟨.hbm, 618, rfl⟩
abbrev main_v511 : Ref sig .tc := ⟨.hbm, 619, rfl⟩
abbrev main_v512 : Ref sig .tc := ⟨.hbm, 620, rfl⟩
abbrev main_v513 : Ref sig .tc := ⟨.hbm, 621, rfl⟩
abbrev main_cst_97 : Ref sig .tc := ⟨.hbm, 622, rfl⟩
abbrev main_v514 : Ref sig .tc := ⟨.hbm, 623, rfl⟩
abbrev main_v515 : Ref sig .tc := ⟨.hbm, 624, rfl⟩
abbrev main_v516 : Ref sig .tc := ⟨.hbm, 625, rfl⟩
abbrev main_v517 : Ref sig .tc := ⟨.hbm, 626, rfl⟩
abbrev main_v518 : Ref sig .tc := ⟨.hbm, 627, rfl⟩
abbrev main_v519 : Ref sig .tc := ⟨.hbm, 628, rfl⟩
abbrev main_v520 : Ref sig .tc := ⟨.hbm, 629, rfl⟩
abbrev main_v521 : Ref sig .tc := ⟨.hbm, 630, rfl⟩
abbrev main_v522 : Ref sig .tc := ⟨.hbm, 631, rfl⟩
abbrev main_v523 : Ref sig .tc := ⟨.hbm, 632, rfl⟩
abbrev main_v524 : Ref sig .tc := ⟨.hbm, 633, rfl⟩
abbrev main_v525 : Ref sig .tc := ⟨.hbm, 634, rfl⟩
abbrev main_v526 : Ref sig .tc := ⟨.hbm, 635, rfl⟩
abbrev main_v527 : Ref sig .tc := ⟨.hbm, 636, rfl⟩
abbrev main_v528 : Ref sig .tc := ⟨.hbm, 637, rfl⟩
abbrev main_v529 : Ref sig .tc := ⟨.hbm, 638, rfl⟩
abbrev main_v530 : Ref sig .tc := ⟨.hbm, 639, rfl⟩
abbrev main_cst_98 : Ref sig .tc := ⟨.hbm, 640, rfl⟩
abbrev main_v531 : Ref sig .tc := ⟨.hbm, 641, rfl⟩
abbrev main_v532 : Ref sig .tc := ⟨.hbm, 642, rfl⟩
abbrev main_cst_99 : Ref sig .tc := ⟨.hbm, 643, rfl⟩
abbrev main_v533 : Ref sig .tc := ⟨.hbm, 644, rfl⟩
abbrev main_v534 : Ref sig .tc := ⟨.hbm, 645, rfl⟩
abbrev main_v535 : Ref sig .tc := ⟨.hbm, 646, rfl⟩
abbrev main_cst_100 : Ref sig .tc := ⟨.hbm, 647, rfl⟩
abbrev main_v536 : Ref sig .tc := ⟨.hbm, 648, rfl⟩
abbrev main_v537 : Ref sig .tc := ⟨.hbm, 649, rfl⟩
abbrev main_v538 : Ref sig .tc := ⟨.hbm, 650, rfl⟩
abbrev main_v539 : Ref sig .tc := ⟨.hbm, 651, rfl⟩
abbrev main_v540 : Ref sig .tc := ⟨.hbm, 652, rfl⟩
abbrev main_v541 : Ref sig .tc := ⟨.hbm, 653, rfl⟩
abbrev main_cst_101 : Ref sig .tc := ⟨.hbm, 654, rfl⟩
abbrev main_v542 : Ref sig .tc := ⟨.hbm, 655, rfl⟩
abbrev main_v543 : Ref sig .tc := ⟨.hbm, 656, rfl⟩
abbrev main_cst_102 : Ref sig .tc := ⟨.hbm, 657, rfl⟩
abbrev main_v544 : Ref sig .tc := ⟨.hbm, 658, rfl⟩
abbrev main_v545 : Ref sig .tc := ⟨.hbm, 659, rfl⟩
abbrev main_v546 : Ref sig .tc := ⟨.hbm, 660, rfl⟩
abbrev main_v547 : Ref sig .tc := ⟨.hbm, 661, rfl⟩
abbrev main_v548 : Ref sig .tc := ⟨.hbm, 662, rfl⟩
abbrev main_v549 : Ref sig .tc := ⟨.hbm, 663, rfl⟩
abbrev main_v550 : Ref sig .tc := ⟨.hbm, 664, rfl⟩
abbrev main_cst_103 : Ref sig .tc := ⟨.hbm, 665, rfl⟩
abbrev main_v551 : Ref sig .tc := ⟨.hbm, 666, rfl⟩
abbrev main_v552 : Ref sig .tc := ⟨.hbm, 667, rfl⟩
abbrev main_cst_104 : Ref sig .tc := ⟨.hbm, 668, rfl⟩
abbrev main_v553 : Ref sig .tc := ⟨.hbm, 669, rfl⟩
abbrev main_v554 : Ref sig .tc := ⟨.hbm, 670, rfl⟩
abbrev main_v555 : Ref sig .tc := ⟨.hbm, 671, rfl⟩
abbrev main_v556 : Ref sig .tc := ⟨.hbm, 672, rfl⟩
abbrev main_c_105 : Ref sig .tc := ⟨.hbm, 673, rfl⟩
abbrev main_v557 : Ref sig .tc := ⟨.hbm, 674, rfl⟩
abbrev main_v558 : Ref sig .tc := ⟨.hbm, 675, rfl⟩
abbrev main_c_106 : Ref sig .tc := ⟨.hbm, 676, rfl⟩
abbrev main_v559 : Ref sig .tc := ⟨.hbm, 677, rfl⟩
abbrev main_v560 : Ref sig .tc := ⟨.hbm, 678, rfl⟩
abbrev main_v561 : Ref sig .tc := ⟨.hbm, 679, rfl⟩
abbrev main_v562 : Ref sig .tc := ⟨.hbm, 680, rfl⟩
abbrev main_v563 : Ref sig .tc := ⟨.hbm, 681, rfl⟩
abbrev main_v564 : Ref sig .tc := ⟨.hbm, 682, rfl⟩
abbrev main_v565 : Ref sig .tc := ⟨.hbm, 683, rfl⟩
abbrev main_cst_107 : Ref sig .tc := ⟨.hbm, 684, rfl⟩
abbrev main_v566 : Ref sig .tc := ⟨.hbm, 685, rfl⟩
abbrev main_v567 : Ref sig .tc := ⟨.hbm, 686, rfl⟩
abbrev main_v568 : Ref sig .tc := ⟨.hbm, 687, rfl⟩
abbrev main_v569 : Ref sig .tc := ⟨.hbm, 688, rfl⟩
abbrev main_v570 : Ref sig .tc := ⟨.hbm, 689, rfl⟩
abbrev main_v571 : Ref sig .tc := ⟨.hbm, 690, rfl⟩
abbrev main_v572 : Ref sig .tc := ⟨.hbm, 691, rfl⟩
abbrev main_v573 : Ref sig .tc := ⟨.hbm, 692, rfl⟩
abbrev main_v574 : Ref sig .tc := ⟨.hbm, 693, rfl⟩
abbrev main_v575 : Ref sig .tc := ⟨.hbm, 694, rfl⟩
abbrev main_v576 : Ref sig .tc := ⟨.hbm, 695, rfl⟩
abbrev main_v577 : Ref sig .tc := ⟨.hbm, 696, rfl⟩
abbrev main_v578 : Ref sig .tc := ⟨.hbm, 697, rfl⟩
abbrev main_v579 : Ref sig .tc := ⟨.hbm, 698, rfl⟩
abbrev main_v580 : Ref sig .tc := ⟨.hbm, 699, rfl⟩
abbrev main_v581 : Ref sig .tc := ⟨.hbm, 700, rfl⟩
abbrev main_v582 : Ref sig .tc := ⟨.hbm, 701, rfl⟩
abbrev main_cst_108 : Ref sig .tc := ⟨.hbm, 702, rfl⟩
abbrev main_v583 : Ref sig .tc := ⟨.hbm, 703, rfl⟩
abbrev main_v584 : Ref sig .tc := ⟨.hbm, 704, rfl⟩
abbrev main_cst_109 : Ref sig .tc := ⟨.hbm, 705, rfl⟩
abbrev main_v585 : Ref sig .tc := ⟨.hbm, 706, rfl⟩
abbrev main_v586 : Ref sig .tc := ⟨.hbm, 707, rfl⟩
abbrev main_v587 : Ref sig .tc := ⟨.hbm, 708, rfl⟩
abbrev main_cst_110 : Ref sig .tc := ⟨.hbm, 709, rfl⟩
abbrev main_v588 : Ref sig .tc := ⟨.hbm, 710, rfl⟩
abbrev main_v589 : Ref sig .tc := ⟨.hbm, 711, rfl⟩
abbrev main_v590 : Ref sig .tc := ⟨.hbm, 712, rfl⟩
abbrev main_v591 : Ref sig .tc := ⟨.hbm, 713, rfl⟩
abbrev main_v592 : Ref sig .tc := ⟨.hbm, 714, rfl⟩
abbrev main_v593 : Ref sig .tc := ⟨.hbm, 715, rfl⟩
abbrev main_cst_111 : Ref sig .tc := ⟨.hbm, 716, rfl⟩
abbrev main_v594 : Ref sig .tc := ⟨.hbm, 717, rfl⟩
abbrev main_v595 : Ref sig .tc := ⟨.hbm, 718, rfl⟩
abbrev main_cst_112 : Ref sig .tc := ⟨.hbm, 719, rfl⟩
abbrev main_v596 : Ref sig .tc := ⟨.hbm, 720, rfl⟩
abbrev main_v597 : Ref sig .tc := ⟨.hbm, 721, rfl⟩
abbrev main_v598 : Ref sig .tc := ⟨.hbm, 722, rfl⟩
abbrev main_v599 : Ref sig .tc := ⟨.hbm, 723, rfl⟩
abbrev main_v600 : Ref sig .tc := ⟨.hbm, 724, rfl⟩
abbrev main_v601 : Ref sig .tc := ⟨.hbm, 725, rfl⟩
abbrev main_v602 : Ref sig .tc := ⟨.hbm, 726, rfl⟩
abbrev main_cst_113 : Ref sig .tc := ⟨.hbm, 727, rfl⟩
abbrev main_v603 : Ref sig .tc := ⟨.hbm, 728, rfl⟩
abbrev main_v604 : Ref sig .tc := ⟨.hbm, 729, rfl⟩
abbrev main_cst_114 : Ref sig .tc := ⟨.hbm, 730, rfl⟩
abbrev main_v605 : Ref sig .tc := ⟨.hbm, 731, rfl⟩
abbrev main_v606 : Ref sig .tc := ⟨.hbm, 732, rfl⟩
abbrev main_v607 : Ref sig .tc := ⟨.hbm, 733, rfl⟩
abbrev main_v608 : Ref sig .tc := ⟨.hbm, 734, rfl⟩
abbrev main_c_115 : Ref sig .tc := ⟨.hbm, 735, rfl⟩
abbrev main_v609 : Ref sig .tc := ⟨.hbm, 736, rfl⟩
abbrev main_v610 : Ref sig .tc := ⟨.hbm, 737, rfl⟩
abbrev main_c_116 : Ref sig .tc := ⟨.hbm, 738, rfl⟩
abbrev main_v611 : Ref sig .tc := ⟨.hbm, 739, rfl⟩
abbrev main_v612 : Ref sig .tc := ⟨.hbm, 740, rfl⟩
abbrev main_v613 : Ref sig .tc := ⟨.hbm, 741, rfl⟩
abbrev main_v614 : Ref sig .tc := ⟨.hbm, 742, rfl⟩
abbrev main_v615 : Ref sig .tc := ⟨.hbm, 743, rfl⟩
abbrev main_v616 : Ref sig .tc := ⟨.hbm, 744, rfl⟩
abbrev main_v617 : Ref sig .tc := ⟨.hbm, 745, rfl⟩
abbrev main_cst_117 : Ref sig .tc := ⟨.hbm, 746, rfl⟩
abbrev main_v618 : Ref sig .tc := ⟨.hbm, 747, rfl⟩
abbrev main_v619 : Ref sig .tc := ⟨.hbm, 748, rfl⟩
abbrev main_v620 : Ref sig .tc := ⟨.hbm, 749, rfl⟩
abbrev main_v621 : Ref sig .tc := ⟨.hbm, 750, rfl⟩
abbrev main_v622 : Ref sig .tc := ⟨.hbm, 751, rfl⟩
abbrev main_v623 : Ref sig .tc := ⟨.hbm, 752, rfl⟩
abbrev main_v624 : Ref sig .tc := ⟨.hbm, 753, rfl⟩
abbrev main_v625 : Ref sig .tc := ⟨.hbm, 754, rfl⟩
abbrev main_v626 : Ref sig .tc := ⟨.hbm, 755, rfl⟩
abbrev main_v627 : Ref sig .tc := ⟨.hbm, 756, rfl⟩
abbrev main_v628 : Ref sig .tc := ⟨.hbm, 757, rfl⟩
abbrev main_v629 : Ref sig .tc := ⟨.hbm, 758, rfl⟩
abbrev main_v630 : Ref sig .tc := ⟨.hbm, 759, rfl⟩
abbrev main_v631 : Ref sig .tc := ⟨.hbm, 760, rfl⟩
abbrev main_v632 : Ref sig .tc := ⟨.hbm, 761, rfl⟩
abbrev main_v633 : Ref sig .tc := ⟨.hbm, 762, rfl⟩
abbrev main_v634 : Ref sig .tc := ⟨.hbm, 763, rfl⟩
abbrev main_cst_118 : Ref sig .tc := ⟨.hbm, 764, rfl⟩
abbrev main_v635 : Ref sig .tc := ⟨.hbm, 765, rfl⟩
abbrev main_v636 : Ref sig .tc := ⟨.hbm, 766, rfl⟩
abbrev main_cst_119 : Ref sig .tc := ⟨.hbm, 767, rfl⟩
abbrev main_v637 : Ref sig .tc := ⟨.hbm, 768, rfl⟩
abbrev main_v638 : Ref sig .tc := ⟨.hbm, 769, rfl⟩
abbrev main_v639 : Ref sig .tc := ⟨.hbm, 770, rfl⟩
abbrev main_cst_120 : Ref sig .tc := ⟨.hbm, 771, rfl⟩
abbrev main_v640 : Ref sig .tc := ⟨.hbm, 772, rfl⟩
abbrev main_v641 : Ref sig .tc := ⟨.hbm, 773, rfl⟩
abbrev main_v642 : Ref sig .tc := ⟨.hbm, 774, rfl⟩
abbrev main_v643 : Ref sig .tc := ⟨.hbm, 775, rfl⟩
abbrev main_v644 : Ref sig .tc := ⟨.hbm, 776, rfl⟩
abbrev main_v645 : Ref sig .tc := ⟨.hbm, 777, rfl⟩
abbrev main_cst_121 : Ref sig .tc := ⟨.hbm, 778, rfl⟩
abbrev main_v646 : Ref sig .tc := ⟨.hbm, 779, rfl⟩
abbrev main_v647 : Ref sig .tc := ⟨.hbm, 780, rfl⟩
abbrev main_cst_122 : Ref sig .tc := ⟨.hbm, 781, rfl⟩
abbrev main_v648 : Ref sig .tc := ⟨.hbm, 782, rfl⟩
abbrev main_v649 : Ref sig .tc := ⟨.hbm, 783, rfl⟩
abbrev main_v650 : Ref sig .tc := ⟨.hbm, 784, rfl⟩
abbrev main_v651 : Ref sig .tc := ⟨.hbm, 785, rfl⟩
abbrev main_v652 : Ref sig .tc := ⟨.hbm, 786, rfl⟩
abbrev main_v653 : Ref sig .tc := ⟨.hbm, 787, rfl⟩
abbrev main_v654 : Ref sig .tc := ⟨.hbm, 788, rfl⟩
abbrev main_cst_123 : Ref sig .tc := ⟨.hbm, 789, rfl⟩
abbrev main_v655 : Ref sig .tc := ⟨.hbm, 790, rfl⟩
abbrev main_v656 : Ref sig .tc := ⟨.hbm, 791, rfl⟩
abbrev main_cst_124 : Ref sig .tc := ⟨.hbm, 792, rfl⟩
abbrev main_v657 : Ref sig .tc := ⟨.hbm, 793, rfl⟩
abbrev main_v658 : Ref sig .tc := ⟨.hbm, 794, rfl⟩
abbrev main_v659 : Ref sig .tc := ⟨.hbm, 795, rfl⟩
abbrev main_v660 : Ref sig .tc := ⟨.hbm, 796, rfl⟩
abbrev main_c_125 : Ref sig .tc := ⟨.hbm, 797, rfl⟩
abbrev main_v661 : Ref sig .tc := ⟨.hbm, 798, rfl⟩
abbrev main_v662 : Ref sig .tc := ⟨.hbm, 799, rfl⟩
abbrev main_c_126 : Ref sig .tc := ⟨.hbm, 800, rfl⟩
abbrev main_v663 : Ref sig .tc := ⟨.hbm, 801, rfl⟩
abbrev main_v664 : Ref sig .tc := ⟨.hbm, 802, rfl⟩
abbrev main_v665 : Ref sig .tc := ⟨.hbm, 803, rfl⟩
abbrev main_v666 : Ref sig .tc := ⟨.hbm, 804, rfl⟩
abbrev main_v667 : Ref sig .tc := ⟨.hbm, 805, rfl⟩
abbrev main_v668 : Ref sig .tc := ⟨.hbm, 806, rfl⟩
abbrev main_v669 : Ref sig .tc := ⟨.hbm, 807, rfl⟩
abbrev main_cst_127 : Ref sig .tc := ⟨.hbm, 808, rfl⟩
abbrev main_v670 : Ref sig .tc := ⟨.hbm, 809, rfl⟩
abbrev main_v671 : Ref sig .tc := ⟨.hbm, 810, rfl⟩
abbrev main_v672 : Ref sig .tc := ⟨.hbm, 811, rfl⟩
abbrev main_v673 : Ref sig .tc := ⟨.hbm, 812, rfl⟩
abbrev main_v674 : Ref sig .tc := ⟨.hbm, 813, rfl⟩
abbrev main_v675 : Ref sig .tc := ⟨.hbm, 814, rfl⟩
abbrev main_v676 : Ref sig .tc := ⟨.hbm, 815, rfl⟩
abbrev main_v677 : Ref sig .tc := ⟨.hbm, 816, rfl⟩
abbrev main_v678 : Ref sig .tc := ⟨.hbm, 817, rfl⟩
abbrev main_v679 : Ref sig .tc := ⟨.hbm, 818, rfl⟩
abbrev main_v680 : Ref sig .tc := ⟨.hbm, 819, rfl⟩
abbrev main_v681 : Ref sig .tc := ⟨.hbm, 820, rfl⟩
abbrev main_v682 : Ref sig .tc := ⟨.hbm, 821, rfl⟩
abbrev main_v683 : Ref sig .tc := ⟨.hbm, 822, rfl⟩
abbrev main_v684 : Ref sig .tc := ⟨.hbm, 823, rfl⟩
abbrev main_v685 : Ref sig .tc := ⟨.hbm, 824, rfl⟩
abbrev main_v686 : Ref sig .tc := ⟨.hbm, 825, rfl⟩
abbrev main_cst_128 : Ref sig .tc := ⟨.hbm, 826, rfl⟩
abbrev main_v687 : Ref sig .tc := ⟨.hbm, 827, rfl⟩
abbrev main_v688 : Ref sig .tc := ⟨.hbm, 828, rfl⟩
abbrev main_cst_129 : Ref sig .tc := ⟨.hbm, 829, rfl⟩
abbrev main_v689 : Ref sig .tc := ⟨.hbm, 830, rfl⟩
abbrev main_v690 : Ref sig .tc := ⟨.hbm, 831, rfl⟩
abbrev main_v691 : Ref sig .tc := ⟨.hbm, 832, rfl⟩
abbrev main_cst_130 : Ref sig .tc := ⟨.hbm, 833, rfl⟩
abbrev main_v692 : Ref sig .tc := ⟨.hbm, 834, rfl⟩
abbrev main_v693 : Ref sig .tc := ⟨.hbm, 835, rfl⟩
abbrev main_v694 : Ref sig .tc := ⟨.hbm, 836, rfl⟩
abbrev main_v695 : Ref sig .tc := ⟨.hbm, 837, rfl⟩
abbrev main_v696 : Ref sig .tc := ⟨.hbm, 838, rfl⟩
abbrev main_v697 : Ref sig .tc := ⟨.hbm, 839, rfl⟩
abbrev main_cst_131 : Ref sig .tc := ⟨.hbm, 840, rfl⟩
abbrev main_v698 : Ref sig .tc := ⟨.hbm, 841, rfl⟩
abbrev main_v699 : Ref sig .tc := ⟨.hbm, 842, rfl⟩
abbrev main_cst_132 : Ref sig .tc := ⟨.hbm, 843, rfl⟩
abbrev main_v700 : Ref sig .tc := ⟨.hbm, 844, rfl⟩
abbrev main_v701 : Ref sig .tc := ⟨.hbm, 845, rfl⟩
abbrev main_v702 : Ref sig .tc := ⟨.hbm, 846, rfl⟩
abbrev main_v703 : Ref sig .tc := ⟨.hbm, 847, rfl⟩
abbrev main_v704 : Ref sig .tc := ⟨.hbm, 848, rfl⟩
abbrev main_v705 : Ref sig .tc := ⟨.hbm, 849, rfl⟩
abbrev main_v706 : Ref sig .tc := ⟨.hbm, 850, rfl⟩
abbrev main_cst_133 : Ref sig .tc := ⟨.hbm, 851, rfl⟩
abbrev main_v707 : Ref sig .tc := ⟨.hbm, 852, rfl⟩
abbrev main_v708 : Ref sig .tc := ⟨.hbm, 853, rfl⟩
abbrev main_cst_134 : Ref sig .tc := ⟨.hbm, 854, rfl⟩
abbrev main_v709 : Ref sig .tc := ⟨.hbm, 855, rfl⟩
abbrev main_v710 : Ref sig .tc := ⟨.hbm, 856, rfl⟩
abbrev main_v711 : Ref sig .tc := ⟨.hbm, 857, rfl⟩
abbrev main_v712 : Ref sig .tc := ⟨.hbm, 858, rfl⟩
abbrev main_c_135 : Ref sig .tc := ⟨.hbm, 859, rfl⟩
abbrev main_v713 : Ref sig .tc := ⟨.hbm, 860, rfl⟩
abbrev main_v714 : Ref sig .tc := ⟨.hbm, 861, rfl⟩
abbrev main_c_136 : Ref sig .tc := ⟨.hbm, 862, rfl⟩
abbrev main_v715 : Ref sig .tc := ⟨.hbm, 863, rfl⟩
abbrev main_v716 : Ref sig .tc := ⟨.hbm, 864, rfl⟩
abbrev main_v717 : Ref sig .tc := ⟨.hbm, 865, rfl⟩
abbrev main_v718 : Ref sig .tc := ⟨.hbm, 866, rfl⟩
abbrev main_v719 : Ref sig .tc := ⟨.hbm, 867, rfl⟩
abbrev main_v720 : Ref sig .tc := ⟨.hbm, 868, rfl⟩
abbrev main_v721 : Ref sig .tc := ⟨.hbm, 869, rfl⟩
abbrev main_cst_137 : Ref sig .tc := ⟨.hbm, 870, rfl⟩
abbrev main_v722 : Ref sig .tc := ⟨.hbm, 871, rfl⟩
abbrev main_v723 : Ref sig .tc := ⟨.hbm, 872, rfl⟩
abbrev main_v724 : Ref sig .tc := ⟨.hbm, 873, rfl⟩
abbrev main_v725 : Ref sig .tc := ⟨.hbm, 874, rfl⟩
abbrev main_v726 : Ref sig .tc := ⟨.hbm, 875, rfl⟩
abbrev main_v727 : Ref sig .tc := ⟨.hbm, 876, rfl⟩
abbrev main_v728 : Ref sig .tc := ⟨.hbm, 877, rfl⟩
abbrev main_v729 : Ref sig .tc := ⟨.hbm, 878, rfl⟩
abbrev main_v730 : Ref sig .tc := ⟨.hbm, 879, rfl⟩
abbrev main_v731 : Ref sig .tc := ⟨.hbm, 880, rfl⟩
abbrev main_v732 : Ref sig .tc := ⟨.hbm, 881, rfl⟩
abbrev main_v733 : Ref sig .tc := ⟨.hbm, 882, rfl⟩
abbrev main_v734 : Ref sig .tc := ⟨.hbm, 883, rfl⟩
abbrev main_v735 : Ref sig .tc := ⟨.hbm, 884, rfl⟩
abbrev main_v736 : Ref sig .tc := ⟨.hbm, 885, rfl⟩
abbrev main_v737 : Ref sig .tc := ⟨.hbm, 886, rfl⟩
abbrev main_v738 : Ref sig .tc := ⟨.hbm, 887, rfl⟩
abbrev main_cst_138 : Ref sig .tc := ⟨.hbm, 888, rfl⟩
abbrev main_v739 : Ref sig .tc := ⟨.hbm, 889, rfl⟩
abbrev main_v740 : Ref sig .tc := ⟨.hbm, 890, rfl⟩
abbrev main_cst_139 : Ref sig .tc := ⟨.hbm, 891, rfl⟩
abbrev main_v741 : Ref sig .tc := ⟨.hbm, 892, rfl⟩
abbrev main_v742 : Ref sig .tc := ⟨.hbm, 893, rfl⟩
abbrev main_v743 : Ref sig .tc := ⟨.hbm, 894, rfl⟩
abbrev main_cst_140 : Ref sig .tc := ⟨.hbm, 895, rfl⟩
abbrev main_v744 : Ref sig .tc := ⟨.hbm, 896, rfl⟩
abbrev main_v745 : Ref sig .tc := ⟨.hbm, 897, rfl⟩
abbrev main_v746 : Ref sig .tc := ⟨.hbm, 898, rfl⟩
abbrev main_v747 : Ref sig .tc := ⟨.hbm, 899, rfl⟩
abbrev main_v748 : Ref sig .tc := ⟨.hbm, 900, rfl⟩
abbrev main_v749 : Ref sig .tc := ⟨.hbm, 901, rfl⟩
abbrev main_cst_141 : Ref sig .tc := ⟨.hbm, 902, rfl⟩
abbrev main_v750 : Ref sig .tc := ⟨.hbm, 903, rfl⟩
abbrev main_v751 : Ref sig .tc := ⟨.hbm, 904, rfl⟩
abbrev main_cst_142 : Ref sig .tc := ⟨.hbm, 905, rfl⟩
abbrev main_v752 : Ref sig .tc := ⟨.hbm, 906, rfl⟩
abbrev main_v753 : Ref sig .tc := ⟨.hbm, 907, rfl⟩
abbrev main_v754 : Ref sig .tc := ⟨.hbm, 908, rfl⟩
abbrev main_v755 : Ref sig .tc := ⟨.hbm, 909, rfl⟩
abbrev main_v756 : Ref sig .tc := ⟨.hbm, 910, rfl⟩
abbrev main_v757 : Ref sig .tc := ⟨.hbm, 911, rfl⟩
abbrev main_v758 : Ref sig .tc := ⟨.hbm, 912, rfl⟩
abbrev main_cst_143 : Ref sig .tc := ⟨.hbm, 913, rfl⟩
abbrev main_v759 : Ref sig .tc := ⟨.hbm, 914, rfl⟩
abbrev main_v760 : Ref sig .tc := ⟨.hbm, 915, rfl⟩
abbrev main_cst_144 : Ref sig .tc := ⟨.hbm, 916, rfl⟩
abbrev main_v761 : Ref sig .tc := ⟨.hbm, 917, rfl⟩
abbrev main_v762 : Ref sig .tc := ⟨.hbm, 918, rfl⟩
abbrev main_v763 : Ref sig .tc := ⟨.hbm, 919, rfl⟩
abbrev main_v764 : Ref sig .tc := ⟨.hbm, 920, rfl⟩
abbrev main_c_145 : Ref sig .tc := ⟨.hbm, 921, rfl⟩
abbrev main_v765 : Ref sig .tc := ⟨.hbm, 922, rfl⟩
abbrev main_v766 : Ref sig .tc := ⟨.hbm, 923, rfl⟩
abbrev main_c_146 : Ref sig .tc := ⟨.hbm, 924, rfl⟩
abbrev main_v767 : Ref sig .tc := ⟨.hbm, 925, rfl⟩
abbrev main_v768 : Ref sig .tc := ⟨.hbm, 926, rfl⟩
abbrev main_v769 : Ref sig .tc := ⟨.hbm, 927, rfl⟩
abbrev main_v770 : Ref sig .tc := ⟨.hbm, 928, rfl⟩
abbrev main_v771 : Ref sig .tc := ⟨.hbm, 929, rfl⟩
abbrev main_v772 : Ref sig .tc := ⟨.hbm, 930, rfl⟩
abbrev main_v773 : Ref sig .tc := ⟨.hbm, 931, rfl⟩
abbrev main_cst_147 : Ref sig .tc := ⟨.hbm, 932, rfl⟩
abbrev main_v774 : Ref sig .tc := ⟨.hbm, 933, rfl⟩
abbrev main_v775 : Ref sig .tc := ⟨.hbm, 934, rfl⟩
abbrev main_v776 : Ref sig .tc := ⟨.hbm, 935, rfl⟩
abbrev main_v777 : Ref sig .tc := ⟨.hbm, 936, rfl⟩
abbrev main_v778 : Ref sig .tc := ⟨.hbm, 937, rfl⟩
abbrev main_v779 : Ref sig .tc := ⟨.hbm, 938, rfl⟩
abbrev main_v780 : Ref sig .tc := ⟨.hbm, 939, rfl⟩
abbrev main_v781 : Ref sig .tc := ⟨.hbm, 940, rfl⟩
abbrev main_v782 : Ref sig .tc := ⟨.hbm, 941, rfl⟩
abbrev main_v783 : Ref sig .tc := ⟨.hbm, 942, rfl⟩
abbrev main_v784 : Ref sig .tc := ⟨.hbm, 943, rfl⟩
abbrev main_v785 : Ref sig .tc := ⟨.hbm, 944, rfl⟩
abbrev main_v786 : Ref sig .tc := ⟨.hbm, 945, rfl⟩
abbrev main_v787 : Ref sig .tc := ⟨.hbm, 946, rfl⟩
abbrev main_v788 : Ref sig .tc := ⟨.hbm, 947, rfl⟩
abbrev main_v789 : Ref sig .tc := ⟨.hbm, 948, rfl⟩
abbrev main_v790 : Ref sig .tc := ⟨.hbm, 949, rfl⟩
abbrev main_cst_148 : Ref sig .tc := ⟨.hbm, 950, rfl⟩
abbrev main_v791 : Ref sig .tc := ⟨.hbm, 951, rfl⟩
abbrev main_v792 : Ref sig .tc := ⟨.hbm, 952, rfl⟩
abbrev main_cst_149 : Ref sig .tc := ⟨.hbm, 953, rfl⟩
abbrev main_v793 : Ref sig .tc := ⟨.hbm, 954, rfl⟩
abbrev main_v794 : Ref sig .tc := ⟨.hbm, 955, rfl⟩
abbrev main_v795 : Ref sig .tc := ⟨.hbm, 956, rfl⟩
abbrev main_cst_150 : Ref sig .tc := ⟨.hbm, 957, rfl⟩
abbrev main_v796 : Ref sig .tc := ⟨.hbm, 958, rfl⟩
abbrev main_v797 : Ref sig .tc := ⟨.hbm, 959, rfl⟩
abbrev main_v798 : Ref sig .tc := ⟨.hbm, 960, rfl⟩
abbrev main_v799 : Ref sig .tc := ⟨.hbm, 961, rfl⟩
abbrev main_v800 : Ref sig .tc := ⟨.hbm, 962, rfl⟩
abbrev main_v801 : Ref sig .tc := ⟨.hbm, 963, rfl⟩
abbrev main_cst_151 : Ref sig .tc := ⟨.hbm, 964, rfl⟩
abbrev main_v802 : Ref sig .tc := ⟨.hbm, 965, rfl⟩
abbrev main_v803 : Ref sig .tc := ⟨.hbm, 966, rfl⟩
abbrev main_cst_152 : Ref sig .tc := ⟨.hbm, 967, rfl⟩
abbrev main_v804 : Ref sig .tc := ⟨.hbm, 968, rfl⟩
abbrev main_v805 : Ref sig .tc := ⟨.hbm, 969, rfl⟩
abbrev main_v806 : Ref sig .tc := ⟨.hbm, 970, rfl⟩
abbrev main_v807 : Ref sig .tc := ⟨.hbm, 971, rfl⟩
abbrev main_v808 : Ref sig .tc := ⟨.hbm, 972, rfl⟩
abbrev main_v809 : Ref sig .tc := ⟨.hbm, 973, rfl⟩
abbrev main_v810 : Ref sig .tc := ⟨.hbm, 974, rfl⟩
abbrev main_cst_153 : Ref sig .tc := ⟨.hbm, 975, rfl⟩
abbrev main_v811 : Ref sig .tc := ⟨.hbm, 976, rfl⟩
abbrev main_v812 : Ref sig .tc := ⟨.hbm, 977, rfl⟩
abbrev main_cst_154 : Ref sig .tc := ⟨.hbm, 978, rfl⟩
abbrev main_v813 : Ref sig .tc := ⟨.hbm, 979, rfl⟩
abbrev main_v814 : Ref sig .tc := ⟨.hbm, 980, rfl⟩
abbrev main_v815 : Ref sig .tc := ⟨.hbm, 981, rfl⟩
abbrev main_v816 : Ref sig .tc := ⟨.hbm, 982, rfl⟩
abbrev main_c_155 : Ref sig .tc := ⟨.hbm, 983, rfl⟩
abbrev main_v817 : Ref sig .tc := ⟨.hbm, 984, rfl⟩
abbrev main_v818 : Ref sig .tc := ⟨.hbm, 985, rfl⟩
abbrev main_c_156 : Ref sig .tc := ⟨.hbm, 986, rfl⟩
abbrev main_v819 : Ref sig .tc := ⟨.hbm, 987, rfl⟩
abbrev main_v820 : Ref sig .tc := ⟨.hbm, 988, rfl⟩
abbrev main_v821 : Ref sig .tc := ⟨.hbm, 989, rfl⟩
abbrev main_v822 : Ref sig .tc := ⟨.hbm, 990, rfl⟩
abbrev main_v823 : Ref sig .tc := ⟨.hbm, 991, rfl⟩
abbrev main_v824 : Ref sig .tc := ⟨.hbm, 992, rfl⟩
abbrev main_v825 : Ref sig .tc := ⟨.hbm, 993, rfl⟩
abbrev main_cst_157 : Ref sig .tc := ⟨.hbm, 994, rfl⟩
abbrev main_v826 : Ref sig .tc := ⟨.hbm, 995, rfl⟩
abbrev main_v827 : Ref sig .tc := ⟨.hbm, 996, rfl⟩
abbrev main_v828 : Ref sig .tc := ⟨.hbm, 997, rfl⟩
abbrev main_v829 : Ref sig .tc := ⟨.hbm, 998, rfl⟩
abbrev main_v830 : Ref sig .tc := ⟨.hbm, 999, rfl⟩
abbrev main_v831 : Ref sig .tc := ⟨.hbm, 1000, rfl⟩
abbrev main_v832 : Ref sig .tc := ⟨.hbm, 1001, rfl⟩
abbrev main_v833 : Ref sig .tc := ⟨.hbm, 1002, rfl⟩
abbrev main_v834 : Ref sig .tc := ⟨.hbm, 1003, rfl⟩
abbrev main_v835 : Ref sig .tc := ⟨.hbm, 1004, rfl⟩
abbrev main_v836 : Ref sig .tc := ⟨.hbm, 1005, rfl⟩
abbrev main_v837 : Ref sig .tc := ⟨.hbm, 1006, rfl⟩
abbrev main_v838 : Ref sig .tc := ⟨.hbm, 1007, rfl⟩
abbrev main_v839 : Ref sig .tc := ⟨.hbm, 1008, rfl⟩
abbrev main_v840 : Ref sig .tc := ⟨.hbm, 1009, rfl⟩
abbrev main_v841 : Ref sig .tc := ⟨.hbm, 1010, rfl⟩
abbrev main_cst_158 : Ref sig .tc := ⟨.hbm, 1011, rfl⟩
abbrev main_v842 : Ref sig .tc := ⟨.hbm, 1012, rfl⟩
abbrev main_v843 : Ref sig .tc := ⟨.hbm, 1013, rfl⟩
abbrev main_cst_159 : Ref sig .tc := ⟨.hbm, 1014, rfl⟩
abbrev main_v844 : Ref sig .tc := ⟨.hbm, 1015, rfl⟩
abbrev main_v845 : Ref sig .tc := ⟨.hbm, 1016, rfl⟩
abbrev main_v846 : Ref sig .tc := ⟨.hbm, 1017, rfl⟩
abbrev main_cst_160 : Ref sig .tc := ⟨.hbm, 1018, rfl⟩
abbrev main_v847 : Ref sig .tc := ⟨.hbm, 1019, rfl⟩
abbrev main_v848 : Ref sig .tc := ⟨.hbm, 1020, rfl⟩
abbrev main_v849 : Ref sig .tc := ⟨.hbm, 1021, rfl⟩
abbrev main_v850 : Ref sig .tc := ⟨.hbm, 1022, rfl⟩
abbrev main_v851 : Ref sig .tc := ⟨.hbm, 1023, rfl⟩
abbrev main_v852 : Ref sig .tc := ⟨.hbm, 1024, rfl⟩
abbrev main_cst_161 : Ref sig .tc := ⟨.hbm, 1025, rfl⟩
abbrev main_v853 : Ref sig .tc := ⟨.hbm, 1026, rfl⟩
abbrev main_v854 : Ref sig .tc := ⟨.hbm, 1027, rfl⟩
abbrev main_cst_162 : Ref sig .tc := ⟨.hbm, 1028, rfl⟩
abbrev main_v855 : Ref sig .tc := ⟨.hbm, 1029, rfl⟩
abbrev main_v856 : Ref sig .tc := ⟨.hbm, 1030, rfl⟩
abbrev main_v857 : Ref sig .tc := ⟨.hbm, 1031, rfl⟩
abbrev main_v858 : Ref sig .tc := ⟨.hbm, 1032, rfl⟩
abbrev main_v859 : Ref sig .tc := ⟨.hbm, 1033, rfl⟩
abbrev main_v860 : Ref sig .tc := ⟨.hbm, 1034, rfl⟩
abbrev main_v861 : Ref sig .tc := ⟨.hbm, 1035, rfl⟩
abbrev main_cst_163 : Ref sig .tc := ⟨.hbm, 1036, rfl⟩
abbrev main_v862 : Ref sig .tc := ⟨.hbm, 1037, rfl⟩
abbrev main_v863 : Ref sig .tc := ⟨.hbm, 1038, rfl⟩
abbrev main_cst_164 : Ref sig .tc := ⟨.hbm, 1039, rfl⟩
abbrev main_v864 : Ref sig .tc := ⟨.hbm, 1040, rfl⟩
abbrev main_v865 : Ref sig .tc := ⟨.hbm, 1041, rfl⟩
abbrev main_v866 : Ref sig .tc := ⟨.hbm, 1042, rfl⟩
abbrev main_v867 : Ref sig .tc := ⟨.hbm, 1043, rfl⟩
abbrev main_c_165 : Ref sig .tc := ⟨.hbm, 1044, rfl⟩
abbrev main_v868 : Ref sig .tc := ⟨.hbm, 1045, rfl⟩
abbrev main_v869 : Ref sig .tc := ⟨.hbm, 1046, rfl⟩
abbrev main_c_166 : Ref sig .tc := ⟨.hbm, 1047, rfl⟩
abbrev main_v870 : Ref sig .tc := ⟨.hbm, 1048, rfl⟩
abbrev main_v871 : Ref sig .tc := ⟨.hbm, 1049, rfl⟩
abbrev main_v872 : Ref sig .tc := ⟨.hbm, 1050, rfl⟩
abbrev main_v873 : Ref sig .tc := ⟨.hbm, 1051, rfl⟩

abbrev nD : Nat := 1
abbrev τ : Topo := Topo.v7x

variable {F : FTy → Type} [FloatOps F]

class Facts₀ : Prop where
  transposes_S768x256_S256x768_1_0 : S768x256.Transposes [1, 0] S256x768
  bcast_S768_S1x768_1 : S768.BroadcastsInDim S1x768 (![1] : Fin 1 → Fin S1x768.rank)
  bcast_S1x768_S131071x768_0_1 : S1x768.BroadcastsInDim S131071x768 (![0, 1] : Fin 2 → Fin S131071x768.rank)
  transposes_S256x256_S256x256_1_0 : S256x256.Transposes [1, 0] S256x256
  bcast_S256_S1x256_1 : S256.BroadcastsInDim S1x256 (![1] : Fin 1 → Fin S1x256.rank)
  bcast_S1x256_S131071x256_0_1 : S1x256.BroadcastsInDim S131071x256 (![0, 1] : Fin 2 → Fin S131071x256.rank)
  bcast_S_S131071x256 : S_.BroadcastsInDim S131071x256 (![] : Fin 0 → Fin S131071x256.rank)
  slices_S131071x768_S65536x768_65535_0 : S131071x768.Slices ![65535, 0] S65536x768
  bcast_S1x768_S65536x768_0_1 : S1x768.BroadcastsInDim S65536x768 (![0, 1] : Fin 2 → Fin S65536x768.rank)
  bcast_S_S65536x256 : S_.BroadcastsInDim S65536x256 (![] : Fin 0 → Fin S65536x256.rank)
  slices_S65536x768_S65536x256_0_0 : S65536x768.Slices ![0, 0] S65536x256
  slices_S65536x768_S65536x256_0_256 : S65536x768.Slices ![0, 256] S65536x256
  slices_S65536x768_S65536x256_0_512 : S65536x768.Slices ![0, 512] S65536x256
  bcast_S_S1 : S_.BroadcastsInDim S1 (![] : Fin 0 → Fin S1.rank)
  slices_S131071x768_S32768x768_32767_0 : S131071x768.Slices ![32767, 0] S32768x768
  slices_S131071x256_S65536x256_65535_0 : S131071x256.Slices ![65535, 0] S65536x256
  shapeCasts_S65536x256_S32768x2x256 : S65536x256.ShapeCasts S32768x2x256
  reducesTo_S32768x2x256_S32768x256_d1 : S32768x2x256.ReducesTo [1] S32768x256
  h_S_ : 0 < S_.numel
  bcast_S1x768_S32768x768_0_1 : S1x768.BroadcastsInDim S32768x768 (![0, 1] : Fin 2 → Fin S32768x768.rank)
  bcast_S256_S1x1x256_2 : S256.BroadcastsInDim S1x1x256 (![2] : Fin 1 → Fin S1x1x256.rank)
  bcast_S1x1x256_S32768x2x256_0_1_2 : S1x1x256.BroadcastsInDim S32768x2x256 (![0, 1, 2] : Fin 3 → Fin S32768x2x256.rank)
  slices_S131071x256_S32768x256_32767_0 : S131071x256.Slices ![32767, 0] S32768x256
  bcast_S32768x256_S32768x1x256_0_2 : S32768x256.BroadcastsInDim S32768x1x256 (![0, 2] : Fin 2 → Fin S32768x1x256.rank)
  bcast_S32768x1x256_S32768x2x256_0_1_2 : S32768x1x256.BroadcastsInDim S32768x2x256 (![0, 1, 2] : Fin 3 → Fin S32768x2x256.rank)
  bcast_S_S32768x2x256 : S_.BroadcastsInDim S32768x2x256 (![] : Fin 0 → Fin S32768x2x256.rank)
  slices_S32768x768_S32768x256_0_0 : S32768x768.Slices ![0, 0] S32768x256
  slices_S32768x768_S32768x256_0_256 : S32768x768.Slices ![0, 256] S32768x256
  slices_S32768x768_S32768x256_0_512 : S32768x768.Slices ![0, 512] S32768x256
  bcast_S_S32768x256 : S_.BroadcastsInDim S32768x256 (![] : Fin 0 → Fin S32768x256.rank)
  slices_S131071x768_S16384x768_16383_0 : S131071x768.Slices ![16383, 0] S16384x768
  shapeCasts_S32768x256_S16384x2x256 : S32768x256.ShapeCasts S16384x2x256
  reducesTo_S16384x2x256_S16384x256_d1 : S16384x2x256.ReducesTo [1] S16384x256
  bcast_S1x768_S16384x768_0_1 : S1x768.BroadcastsInDim S16384x768 (![0, 1] : Fin 2 → Fin S16384x768.rank)
  bcast_S1x1x256_S16384x2x256_0_1_2 : S1x1x256.BroadcastsInDim S16384x2x256 (![0, 1, 2] : Fin 3 → Fin S16384x2x256.rank)
  slices_S131071x256_S16384x256_16383_0 : S131071x256.Slices ![16383, 0] S16384x256
  bcast_S16384x256_S16384x1x256_0_2 : S16384x256.BroadcastsInDim S16384x1x256 (![0, 2] : Fin 2 → Fin S16384x1x256.rank)
  bcast_S16384x1x256_S16384x2x256_0_1_2 : S16384x1x256.BroadcastsInDim S16384x2x256 (![0, 1, 2] : Fin 3 → Fin S16384x2x256.rank)
  bcast_S_S16384x2x256 : S_.BroadcastsInDim S16384x2x256 (![] : Fin 0 → Fin S16384x2x256.rank)
  slices_S16384x768_S16384x256_0_0 : S16384x768.Slices ![0, 0] S16384x256
  slices_S16384x768_S16384x256_0_256 : S16384x768.Slices ![0, 256] S16384x256
  slices_S16384x768_S16384x256_0_512 : S16384x768.Slices ![0, 512] S16384x256
  bcast_S_S16384x256 : S_.BroadcastsInDim S16384x256 (![] : Fin 0 → Fin S16384x256.rank)
  slices_S131071x768_S8192x768_8191_0 : S131071x768.Slices ![8191, 0] S8192x768
  shapeCasts_S16384x256_S8192x2x256 : S16384x256.ShapeCasts S8192x2x256
  reducesTo_S8192x2x256_S8192x256_d1 : S8192x2x256.ReducesTo [1] S8192x256
  bcast_S1x768_S8192x768_0_1 : S1x768.BroadcastsInDim S8192x768 (![0, 1] : Fin 2 → Fin S8192x768.rank)
  bcast_S1x1x256_S8192x2x256_0_1_2 : S1x1x256.BroadcastsInDim S8192x2x256 (![0, 1, 2] : Fin 3 → Fin S8192x2x256.rank)
  slices_S131071x256_S8192x256_8191_0 : S131071x256.Slices ![8191, 0] S8192x256
  bcast_S8192x256_S8192x1x256_0_2 : S8192x256.BroadcastsInDim S8192x1x256 (![0, 2] : Fin 2 → Fin S8192x1x256.rank)
  bcast_S8192x1x256_S8192x2x256_0_1_2 : S8192x1x256.BroadcastsInDim S8192x2x256 (![0, 1, 2] : Fin 3 → Fin S8192x2x256.rank)
  bcast_S_S8192x2x256 : S_.BroadcastsInDim S8192x2x256 (![] : Fin 0 → Fin S8192x2x256.rank)
  slices_S8192x768_S8192x256_0_0 : S8192x768.Slices ![0, 0] S8192x256
  slices_S8192x768_S8192x256_0_256 : S8192x768.Slices ![0, 256] S8192x256
  slices_S8192x768_S8192x256_0_512 : S8192x768.Slices ![0, 512] S8192x256
  bcast_S_S8192x256 : S_.BroadcastsInDim S8192x256 (![] : Fin 0 → Fin S8192x256.rank)
  slices_S131071x768_S4096x768_4095_0 : S131071x768.Slices ![4095, 0] S4096x768
  shapeCasts_S8192x256_S4096x2x256 : S8192x256.ShapeCasts S4096x2x256
  reducesTo_S4096x2x256_S4096x256_d1 : S4096x2x256.ReducesTo [1] S4096x256
  bcast_S1x768_S4096x768_0_1 : S1x768.BroadcastsInDim S4096x768 (![0, 1] : Fin 2 → Fin S4096x768.rank)
  bcast_S1x1x256_S4096x2x256_0_1_2 : S1x1x256.BroadcastsInDim S4096x2x256 (![0, 1, 2] : Fin 3 → Fin S4096x2x256.rank)
  slices_S131071x256_S4096x256_4095_0 : S131071x256.Slices ![4095, 0] S4096x256
  bcast_S4096x256_S4096x1x256_0_2 : S4096x256.BroadcastsInDim S4096x1x256 (![0, 2] : Fin 2 → Fin S4096x1x256.rank)
  bcast_S4096x1x256_S4096x2x256_0_1_2 : S4096x1x256.BroadcastsInDim S4096x2x256 (![0, 1, 2] : Fin 3 → Fin S4096x2x256.rank)
  bcast_S_S4096x2x256 : S_.BroadcastsInDim S4096x2x256 (![] : Fin 0 → Fin S4096x2x256.rank)
  slices_S4096x768_S4096x256_0_0 : S4096x768.Slices ![0, 0] S4096x256
  slices_S4096x768_S4096x256_0_256 : S4096x768.Slices ![0, 256] S4096x256
  slices_S4096x768_S4096x256_0_512 : S4096x768.Slices ![0, 512] S4096x256
  bcast_S_S4096x256 : S_.BroadcastsInDim S4096x256 (![] : Fin 0 → Fin S4096x256.rank)
  slices_S131071x768_S2048x768_2047_0 : S131071x768.Slices ![2047, 0] S2048x768
  shapeCasts_S4096x256_S2048x2x256 : S4096x256.ShapeCasts S2048x2x256
  reducesTo_S2048x2x256_S2048x256_d1 : S2048x2x256.ReducesTo [1] S2048x256
  bcast_S1x768_S2048x768_0_1 : S1x768.BroadcastsInDim S2048x768 (![0, 1] : Fin 2 → Fin S2048x768.rank)
  bcast_S1x1x256_S2048x2x256_0_1_2 : S1x1x256.BroadcastsInDim S2048x2x256 (![0, 1, 2] : Fin 3 → Fin S2048x2x256.rank)
  slices_S131071x256_S2048x256_2047_0 : S131071x256.Slices ![2047, 0] S2048x256
  bcast_S2048x256_S2048x1x256_0_2 : S2048x256.BroadcastsInDim S2048x1x256 (![0, 2] : Fin 2 → Fin S2048x1x256.rank)
  bcast_S2048x1x256_S2048x2x256_0_1_2 : S2048x1x256.BroadcastsInDim S2048x2x256 (![0, 1, 2] : Fin 3 → Fin S2048x2x256.rank)
  bcast_S_S2048x2x256 : S_.BroadcastsInDim S2048x2x256 (![] : Fin 0 → Fin S2048x2x256.rank)
  slices_S2048x768_S2048x256_0_0 : S2048x768.Slices ![0, 0] S2048x256
  slices_S2048x768_S2048x256_0_256 : S2048x768.Slices ![0, 256] S2048x256
  slices_S2048x768_S2048x256_0_512 : S2048x768.Slices ![0, 512] S2048x256
  bcast_S_S2048x256 : S_.BroadcastsInDim S2048x256 (![] : Fin 0 → Fin S2048x256.rank)
  slices_S131071x768_S1024x768_1023_0 : S131071x768.Slices ![1023, 0] S1024x768
  shapeCasts_S2048x256_S1024x2x256 : S2048x256.ShapeCasts S1024x2x256
  reducesTo_S1024x2x256_S1024x256_d1 : S1024x2x256.ReducesTo [1] S1024x256
  bcast_S1x768_S1024x768_0_1 : S1x768.BroadcastsInDim S1024x768 (![0, 1] : Fin 2 → Fin S1024x768.rank)
  bcast_S1x1x256_S1024x2x256_0_1_2 : S1x1x256.BroadcastsInDim S1024x2x256 (![0, 1, 2] : Fin 3 → Fin S1024x2x256.rank)
  slices_S131071x256_S1024x256_1023_0 : S131071x256.Slices ![1023, 0] S1024x256
  bcast_S1024x256_S1024x1x256_0_2 : S1024x256.BroadcastsInDim S1024x1x256 (![0, 2] : Fin 2 → Fin S1024x1x256.rank)
  bcast_S1024x1x256_S1024x2x256_0_1_2 : S1024x1x256.BroadcastsInDim S1024x2x256 (![0, 1, 2] : Fin 3 → Fin S1024x2x256.rank)
  bcast_S_S1024x2x256 : S_.BroadcastsInDim S1024x2x256 (![] : Fin 0 → Fin S1024x2x256.rank)
  slices_S1024x768_S1024x256_0_0 : S1024x768.Slices ![0, 0] S1024x256
  slices_S1024x768_S1024x256_0_256 : S1024x768.Slices ![0, 256] S1024x256
  slices_S1024x768_S1024x256_0_512 : S1024x768.Slices ![0, 512] S1024x256
  bcast_S_S1024x256 : S_.BroadcastsInDim S1024x256 (![] : Fin 0 → Fin S1024x256.rank)
  slices_S131071x768_S512x768_511_0 : S131071x768.Slices ![511, 0] S512x768
  shapeCasts_S1024x256_S512x2x256 : S1024x256.ShapeCasts S512x2x256
  reducesTo_S512x2x256_S512x256_d1 : S512x2x256.ReducesTo [1] S512x256
  bcast_S1x768_S512x768_0_1 : S1x768.BroadcastsInDim S512x768 (![0, 1] : Fin 2 → Fin S512x768.rank)
  bcast_S1x1x256_S512x2x256_0_1_2 : S1x1x256.BroadcastsInDim S512x2x256 (![0, 1, 2] : Fin 3 → Fin S512x2x256.rank)
  slices_S131071x256_S512x256_511_0 : S131071x256.Slices ![511, 0] S512x256
  bcast_S512x256_S512x1x256_0_2 : S512x256.BroadcastsInDim S512x1x256 (![0, 2] : Fin 2 → Fin S512x1x256.rank)
  bcast_S512x1x256_S512x2x256_0_1_2 : S512x1x256.BroadcastsInDim S512x2x256 (![0, 1, 2] : Fin 3 → Fin S512x2x256.rank)
  bcast_S_S512x2x256 : S_.BroadcastsInDim S512x2x256 (![] : Fin 0 → Fin S512x2x256.rank)
  slices_S512x768_S512x256_0_0 : S512x768.Slices ![0, 0] S512x256
  slices_S512x768_S512x256_0_256 : S512x768.Slices ![0, 256] S512x256
  slices_S512x768_S512x256_0_512 : S512x768.Slices ![0, 512] S512x256
  bcast_S_S512x256 : S_.BroadcastsInDim S512x256 (![] : Fin 0 → Fin S512x256.rank)
  slices_S131071x768_S256x768_255_0 : S131071x768.Slices ![255, 0] S256x768
  shapeCasts_S512x256_S256x2x256 : S512x256.ShapeCasts S256x2x256
  reducesTo_S256x2x256_S256x256_d1 : S256x2x256.ReducesTo [1] S256x256
  bcast_S1x768_S256x768_0_1 : S1x768.BroadcastsInDim S256x768 (![0, 1] : Fin 2 → Fin S256x768.rank)
  bcast_S1x1x256_S256x2x256_0_1_2 : S1x1x256.BroadcastsInDim S256x2x256 (![0, 1, 2] : Fin 3 → Fin S256x2x256.rank)
  slices_S131071x256_S256x256_255_0 : S131071x256.Slices ![255, 0] S256x256
  bcast_S256x256_S256x1x256_0_2 : S256x256.BroadcastsInDim S256x1x256 (![0, 2] : Fin 2 → Fin S256x1x256.rank)
  bcast_S256x1x256_S256x2x256_0_1_2 : S256x1x256.BroadcastsInDim S256x2x256 (![0, 1, 2] : Fin 3 → Fin S256x2x256.rank)
  bcast_S_S256x2x256 : S_.BroadcastsInDim S256x2x256 (![] : Fin 0 → Fin S256x2x256.rank)
  slices_S256x768_S256x256_0_0 : S256x768.Slices ![0, 0] S256x256
  slices_S256x768_S256x256_0_256 : S256x768.Slices ![0, 256] S256x256
  slices_S256x768_S256x256_0_512 : S256x768.Slices ![0, 512] S256x256
  bcast_S_S256x256 : S_.BroadcastsInDim S256x256 (![] : Fin 0 → Fin S256x256.rank)
  slices_S131071x768_S128x768_127_0 : S131071x768.Slices ![127, 0] S128x768
  shapeCasts_S256x256_S128x2x256 : S256x256.ShapeCasts S128x2x256
  reducesTo_S128x2x256_S128x256_d1 : S128x2x256.ReducesTo [1] S128x256
  bcast_S1x768_S128x768_0_1 : S1x768.BroadcastsInDim S128x768 (![0, 1] : Fin 2 → Fin S128x768.rank)
  bcast_S1x1x256_S128x2x256_0_1_2 : S1x1x256.BroadcastsInDim S128x2x256 (![0, 1, 2] : Fin 3 → Fin S128x2x256.rank)
  slices_S131071x256_S128x256_127_0 : S131071x256.Slices ![127, 0] S128x256
  bcast_S128x256_S128x1x256_0_2 : S128x256.BroadcastsInDim S128x1x256 (![0, 2] : Fin 2 → Fin S128x1x256.rank)
  bcast_S128x1x256_S128x2x256_0_1_2 : S128x1x256.BroadcastsInDim S128x2x256 (![0, 1, 2] : Fin 3 → Fin S128x2x256.rank)
  bcast_S_S128x2x256 : S_.BroadcastsInDim S128x2x256 (![] : Fin 0 → Fin S128x2x256.rank)
  slices_S128x768_S128x256_0_0 : S128x768.Slices ![0, 0] S128x256
  slices_S128x768_S128x256_0_256 : S128x768.Slices ![0, 256] S128x256
  slices_S128x768_S128x256_0_512 : S128x768.Slices ![0, 512] S128x256
  bcast_S_S128x256 : S_.BroadcastsInDim S128x256 (![] : Fin 0 → Fin S128x256.rank)
  slices_S131071x768_S64x768_63_0 : S131071x768.Slices ![63, 0] S64x768
  shapeCasts_S128x256_S64x2x256 : S128x256.ShapeCasts S64x2x256
  reducesTo_S64x2x256_S64x256_d1 : S64x2x256.ReducesTo [1] S64x256
  bcast_S1x768_S64x768_0_1 : S1x768.BroadcastsInDim S64x768 (![0, 1] : Fin 2 → Fin S64x768.rank)
  bcast_S1x1x256_S64x2x256_0_1_2 : S1x1x256.BroadcastsInDim S64x2x256 (![0, 1, 2] : Fin 3 → Fin S64x2x256.rank)
  slices_S131071x256_S64x256_63_0 : S131071x256.Slices ![63, 0] S64x256
  bcast_S64x256_S64x1x256_0_2 : S64x256.BroadcastsInDim S64x1x256 (![0, 2] : Fin 2 → Fin S64x1x256.rank)
  bcast_S64x1x256_S64x2x256_0_1_2 : S64x1x256.BroadcastsInDim S64x2x256 (![0, 1, 2] : Fin 3 → Fin S64x2x256.rank)
  bcast_S_S64x2x256 : S_.BroadcastsInDim S64x2x256 (![] : Fin 0 → Fin S64x2x256.rank)
  slices_S64x768_S64x256_0_0 : S64x768.Slices ![0, 0] S64x256
  slices_S64x768_S64x256_0_256 : S64x768.Slices ![0, 256] S64x256
  slices_S64x768_S64x256_0_512 : S64x768.Slices ![0, 512] S64x256
  bcast_S_S64x256 : S_.BroadcastsInDim S64x256 (![] : Fin 0 → Fin S64x256.rank)
  slices_S131071x768_S32x768_31_0 : S131071x768.Slices ![31, 0] S32x768
  shapeCasts_S64x256_S32x2x256 : S64x256.ShapeCasts S32x2x256
  reducesTo_S32x2x256_S32x256_d1 : S32x2x256.ReducesTo [1] S32x256
  bcast_S1x768_S32x768_0_1 : S1x768.BroadcastsInDim S32x768 (![0, 1] : Fin 2 → Fin S32x768.rank)
  bcast_S1x1x256_S32x2x256_0_1_2 : S1x1x256.BroadcastsInDim S32x2x256 (![0, 1, 2] : Fin 3 → Fin S32x2x256.rank)
  slices_S131071x256_S32x256_31_0 : S131071x256.Slices ![31, 0] S32x256
  bcast_S32x256_S32x1x256_0_2 : S32x256.BroadcastsInDim S32x1x256 (![0, 2] : Fin 2 → Fin S32x1x256.rank)
  bcast_S32x1x256_S32x2x256_0_1_2 : S32x1x256.BroadcastsInDim S32x2x256 (![0, 1, 2] : Fin 3 → Fin S32x2x256.rank)
  bcast_S_S32x2x256 : S_.BroadcastsInDim S32x2x256 (![] : Fin 0 → Fin S32x2x256.rank)
  slices_S32x768_S32x256_0_0 : S32x768.Slices ![0, 0] S32x256
  slices_S32x768_S32x256_0_256 : S32x768.Slices ![0, 256] S32x256
  slices_S32x768_S32x256_0_512 : S32x768.Slices ![0, 512] S32x256
  bcast_S_S32x256 : S_.BroadcastsInDim S32x256 (![] : Fin 0 → Fin S32x256.rank)
  slices_S131071x768_S16x768_15_0 : S131071x768.Slices ![15, 0] S16x768
  shapeCasts_S32x256_S16x2x256 : S32x256.ShapeCasts S16x2x256
  reducesTo_S16x2x256_S16x256_d1 : S16x2x256.ReducesTo [1] S16x256
  bcast_S1x768_S16x768_0_1 : S1x768.BroadcastsInDim S16x768 (![0, 1] : Fin 2 → Fin S16x768.rank)
  bcast_S1x1x256_S16x2x256_0_1_2 : S1x1x256.BroadcastsInDim S16x2x256 (![0, 1, 2] : Fin 3 → Fin S16x2x256.rank)
  slices_S131071x256_S16x256_15_0 : S131071x256.Slices ![15, 0] S16x256
  bcast_S16x256_S16x1x256_0_2 : S16x256.BroadcastsInDim S16x1x256 (![0, 2] : Fin 2 → Fin S16x1x256.rank)
  bcast_S16x1x256_S16x2x256_0_1_2 : S16x1x256.BroadcastsInDim S16x2x256 (![0, 1, 2] : Fin 3 → Fin S16x2x256.rank)
  bcast_S_S16x2x256 : S_.BroadcastsInDim S16x2x256 (![] : Fin 0 → Fin S16x2x256.rank)
  slices_S16x768_S16x256_0_0 : S16x768.Slices ![0, 0] S16x256
  slices_S16x768_S16x256_0_256 : S16x768.Slices ![0, 256] S16x256
  slices_S16x768_S16x256_0_512 : S16x768.Slices ![0, 512] S16x256
  bcast_S_S16x256 : S_.BroadcastsInDim S16x256 (![] : Fin 0 → Fin S16x256.rank)
  slices_S131071x768_S8x768_7_0 : S131071x768.Slices ![7, 0] S8x768
  shapeCasts_S16x256_S8x2x256 : S16x256.ShapeCasts S8x2x256
  reducesTo_S8x2x256_S8x256_d1 : S8x2x256.ReducesTo [1] S8x256
  bcast_S1x768_S8x768_0_1 : S1x768.BroadcastsInDim S8x768 (![0, 1] : Fin 2 → Fin S8x768.rank)
  bcast_S1x1x256_S8x2x256_0_1_2 : S1x1x256.BroadcastsInDim S8x2x256 (![0, 1, 2] : Fin 3 → Fin S8x2x256.rank)
  slices_S131071x256_S8x256_7_0 : S131071x256.Slices ![7, 0] S8x256
  bcast_S8x256_S8x1x256_0_2 : S8x256.BroadcastsInDim S8x1x256 (![0, 2] : Fin 2 → Fin S8x1x256.rank)
  bcast_S8x1x256_S8x2x256_0_1_2 : S8x1x256.BroadcastsInDim S8x2x256 (![0, 1, 2] : Fin 3 → Fin S8x2x256.rank)
  bcast_S_S8x2x256 : S_.BroadcastsInDim S8x2x256 (![] : Fin 0 → Fin S8x2x256.rank)
  slices_S8x768_S8x256_0_0 : S8x768.Slices ![0, 0] S8x256
  slices_S8x768_S8x256_0_256 : S8x768.Slices ![0, 256] S8x256
  slices_S8x768_S8x256_0_512 : S8x768.Slices ![0, 512] S8x256
  bcast_S_S8x256 : S_.BroadcastsInDim S8x256 (![] : Fin 0 → Fin S8x256.rank)
  slices_S131071x768_S4x768_3_0 : S131071x768.Slices ![3, 0] S4x768
  shapeCasts_S8x256_S4x2x256 : S8x256.ShapeCasts S4x2x256
  reducesTo_S4x2x256_S4x256_d1 : S4x2x256.ReducesTo [1] S4x256
  bcast_S1x768_S4x768_0_1 : S1x768.BroadcastsInDim S4x768 (![0, 1] : Fin 2 → Fin S4x768.rank)
  bcast_S1x1x256_S4x2x256_0_1_2 : S1x1x256.BroadcastsInDim S4x2x256 (![0, 1, 2] : Fin 3 → Fin S4x2x256.rank)
  slices_S131071x256_S4x256_3_0 : S131071x256.Slices ![3, 0] S4x256
  bcast_S4x256_S4x1x256_0_2 : S4x256.BroadcastsInDim S4x1x256 (![0, 2] : Fin 2 → Fin S4x1x256.rank)
  bcast_S4x1x256_S4x2x256_0_1_2 : S4x1x256.BroadcastsInDim S4x2x256 (![0, 1, 2] : Fin 3 → Fin S4x2x256.rank)
  bcast_S_S4x2x256 : S_.BroadcastsInDim S4x2x256 (![] : Fin 0 → Fin S4x2x256.rank)
  slices_S4x768_S4x256_0_0 : S4x768.Slices ![0, 0] S4x256
  slices_S4x768_S4x256_0_256 : S4x768.Slices ![0, 256] S4x256
  slices_S4x768_S4x256_0_512 : S4x768.Slices ![0, 512] S4x256
  bcast_S_S4x256 : S_.BroadcastsInDim S4x256 (![] : Fin 0 → Fin S4x256.rank)
  slices_S131071x768_S2x768_1_0 : S131071x768.Slices ![1, 0] S2x768
  shapeCasts_S4x256_S2x2x256 : S4x256.ShapeCasts S2x2x256
  reducesTo_S2x2x256_S2x256_d1 : S2x2x256.ReducesTo [1] S2x256
  bcast_S1x768_S2x768_0_1 : S1x768.BroadcastsInDim S2x768 (![0, 1] : Fin 2 → Fin S2x768.rank)
  bcast_S1x1x256_S2x2x256_0_1_2 : S1x1x256.BroadcastsInDim S2x2x256 (![0, 1, 2] : Fin 3 → Fin S2x2x256.rank)
  slices_S131071x256_S2x256_1_0 : S131071x256.Slices ![1, 0] S2x256
  bcast_S2x256_S2x1x256_0_2 : S2x256.BroadcastsInDim S2x1x256 (![0, 2] : Fin 2 → Fin S2x1x256.rank)
  bcast_S2x1x256_S2x2x256_0_1_2 : S2x1x256.BroadcastsInDim S2x2x256 (![0, 1, 2] : Fin 3 → Fin S2x2x256.rank)
  bcast_S_S2x2x256 : S_.BroadcastsInDim S2x2x256 (![] : Fin 0 → Fin S2x2x256.rank)
  slices_S2x768_S2x256_0_0 : S2x768.Slices ![0, 0] S2x256
  slices_S2x768_S2x256_0_256 : S2x768.Slices ![0, 256] S2x256
  slices_S2x768_S2x256_0_512 : S2x768.Slices ![0, 512] S2x256
  bcast_S_S2x256 : S_.BroadcastsInDim S2x256 (![] : Fin 0 → Fin S2x256.rank)
  slices_S131071x768_S1x768_0_0 : S131071x768.Slices ![0, 0] S1x768
  shapeCasts_S2x256_S1x2x256 : S2x256.ShapeCasts S1x2x256
  reducesTo_S1x2x256_S1x256_d1 : S1x2x256.ReducesTo [1] S1x256
  bcast_S1x1x256_S1x2x256_0_1_2 : S1x1x256.BroadcastsInDim S1x2x256 (![0, 1, 2] : Fin 3 → Fin S1x2x256.rank)
  slices_S131071x256_S1x256_0_0 : S131071x256.Slices ![0, 0] S1x256
  bcast_S1x256_S1x1x256_0_2 : S1x256.BroadcastsInDim S1x1x256 (![0, 2] : Fin 2 → Fin S1x1x256.rank)
  bcast_S_S1x2x256 : S_.BroadcastsInDim S1x2x256 (![] : Fin 0 → Fin S1x2x256.rank)
  slices_S1x768_S1x256_0_0 : S1x768.Slices ![0, 0] S1x256
  slices_S1x768_S1x256_0_256 : S1x768.Slices ![0, 256] S1x256
  slices_S1x768_S1x256_0_512 : S1x768.Slices ![0, 512] S1x256
  bcast_S_S1x256 : S_.BroadcastsInDim S1x256 (![] : Fin 0 → Fin S1x256.rank)
  dot_S131071x256_S256x768_S131071x768_1_0_0_1_n_n_wf : DotDims.WF S131071x256 S256x768 S131071x768 [1] [0] [0] [1] [] []
  dot_S131071x256_S256x256_S131071x256_1_0_0_1_n_n_wf : DotDims.WF S131071x256 S256x256 S131071x256 [1] [0] [0] [1] [] []
  scatter_S131071x256_S1_S65536x256_01_n_0_0_wf : ScatterDims.WF S131071x256 S1 S65536x256 [0, 1] [] [0] 0
  dot_S32768x256_S256x768_S32768x768_1_0_0_1_n_n_wf : DotDims.WF S32768x256 S256x768 S32768x768 [1] [0] [0] [1] [] []
  dot_S32768x2x256_S256x256_S32768x2x256_2_1_01_0_n_n_wf : DotDims.WF S32768x2x256 S256x256 S32768x2x256 [2] [1] [0, 1] [0] [] []
  scatter_S131071x256_S1_S32768x256_01_n_0_0_wf : ScatterDims.WF S131071x256 S1 S32768x256 [0, 1] [] [0] 0
  dot_S16384x256_S256x768_S16384x768_1_0_0_1_n_n_wf : DotDims.WF S16384x256 S256x768 S16384x768 [1] [0] [0] [1] [] []
  dot_S16384x2x256_S256x256_S16384x2x256_2_1_01_0_n_n_wf : DotDims.WF S16384x2x256 S256x256 S16384x2x256 [2] [1] [0, 1] [0] [] []
  scatter_S131071x256_S1_S16384x256_01_n_0_0_wf : ScatterDims.WF S131071x256 S1 S16384x256 [0, 1] [] [0] 0
  dot_S8192x256_S256x768_S8192x768_1_0_0_1_n_n_wf : DotDims.WF S8192x256 S256x768 S8192x768 [1] [0] [0] [1] [] []
  dot_S8192x2x256_S256x256_S8192x2x256_2_1_01_0_n_n_wf : DotDims.WF S8192x2x256 S256x256 S8192x2x256 [2] [1] [0, 1] [0] [] []
  scatter_S131071x256_S1_S8192x256_01_n_0_0_wf : ScatterDims.WF S131071x256 S1 S8192x256 [0, 1] [] [0] 0
  dot_S4096x256_S256x768_S4096x768_1_0_0_1_n_n_wf : DotDims.WF S4096x256 S256x768 S4096x768 [1] [0] [0] [1] [] []
  dot_S4096x2x256_S256x256_S4096x2x256_2_1_01_0_n_n_wf : DotDims.WF S4096x2x256 S256x256 S4096x2x256 [2] [1] [0, 1] [0] [] []
  scatter_S131071x256_S1_S4096x256_01_n_0_0_wf : ScatterDims.WF S131071x256 S1 S4096x256 [0, 1] [] [0] 0
  dot_S2048x256_S256x768_S2048x768_1_0_0_1_n_n_wf : DotDims.WF S2048x256 S256x768 S2048x768 [1] [0] [0] [1] [] []
  dot_S2048x2x256_S256x256_S2048x2x256_2_1_01_0_n_n_wf : DotDims.WF S2048x2x256 S256x256 S2048x2x256 [2] [1] [0, 1] [0] [] []
  scatter_S131071x256_S1_S2048x256_01_n_0_0_wf : ScatterDims.WF S131071x256 S1 S2048x256 [0, 1] [] [0] 0
  dot_S1024x256_S256x768_S1024x768_1_0_0_1_n_n_wf : DotDims.WF S1024x256 S256x768 S1024x768 [1] [0] [0] [1] [] []
  dot_S1024x2x256_S256x256_S1024x2x256_2_1_01_0_n_n_wf : DotDims.WF S1024x2x256 S256x256 S1024x2x256 [2] [1] [0, 1] [0] [] []
  scatter_S131071x256_S1_S1024x256_01_n_0_0_wf : ScatterDims.WF S131071x256 S1 S1024x256 [0, 1] [] [0] 0
  dot_S512x256_S256x768_S512x768_1_0_0_1_n_n_wf : DotDims.WF S512x256 S256x768 S512x768 [1] [0] [0] [1] [] []
  dot_S512x2x256_S256x256_S512x2x256_2_1_01_0_n_n_wf : DotDims.WF S512x2x256 S256x256 S512x2x256 [2] [1] [0, 1] [0] [] []
  scatter_S131071x256_S1_S512x256_01_n_0_0_wf : ScatterDims.WF S131071x256 S1 S512x256 [0, 1] [] [0] 0
  dot_S256x256_S256x768_S256x768_1_0_0_1_n_n_wf : DotDims.WF S256x256 S256x768 S256x768 [1] [0] [0] [1] [] []
  dot_S256x2x256_S256x256_S256x2x256_2_1_01_0_n_n_wf : DotDims.WF S256x2x256 S256x256 S256x2x256 [2] [1] [0, 1] [0] [] []
  scatter_S131071x256_S1_S256x256_01_n_0_0_wf : ScatterDims.WF S131071x256 S1 S256x256 [0, 1] [] [0] 0
  dot_S128x256_S256x768_S128x768_1_0_0_1_n_n_wf : DotDims.WF S128x256 S256x768 S128x768 [1] [0] [0] [1] [] []
  dot_S128x2x256_S256x256_S128x2x256_2_1_01_0_n_n_wf : DotDims.WF S128x2x256 S256x256 S128x2x256 [2] [1] [0, 1] [0] [] []
  scatter_S131071x256_S1_S128x256_01_n_0_0_wf : ScatterDims.WF S131071x256 S1 S128x256 [0, 1] [] [0] 0
  dot_S64x256_S256x768_S64x768_1_0_0_1_n_n_wf : DotDims.WF S64x256 S256x768 S64x768 [1] [0] [0] [1] [] []
  dot_S64x2x256_S256x256_S64x2x256_2_1_01_0_n_n_wf : DotDims.WF S64x2x256 S256x256 S64x2x256 [2] [1] [0, 1] [0] [] []
  scatter_S131071x256_S1_S64x256_01_n_0_0_wf : ScatterDims.WF S131071x256 S1 S64x256 [0, 1] [] [0] 0
  dot_S32x256_S256x768_S32x768_1_0_0_1_n_n_wf : DotDims.WF S32x256 S256x768 S32x768 [1] [0] [0] [1] [] []
  dot_S32x2x256_S256x256_S32x2x256_2_1_01_0_n_n_wf : DotDims.WF S32x2x256 S256x256 S32x2x256 [2] [1] [0, 1] [0] [] []
  scatter_S131071x256_S1_S32x256_01_n_0_0_wf : ScatterDims.WF S131071x256 S1 S32x256 [0, 1] [] [0] 0
  dot_S16x256_S256x768_S16x768_1_0_0_1_n_n_wf : DotDims.WF S16x256 S256x768 S16x768 [1] [0] [0] [1] [] []
  dot_S16x2x256_S256x256_S16x2x256_2_1_01_0_n_n_wf : DotDims.WF S16x2x256 S256x256 S16x2x256 [2] [1] [0, 1] [0] [] []
  scatter_S131071x256_S1_S16x256_01_n_0_0_wf : ScatterDims.WF S131071x256 S1 S16x256 [0, 1] [] [0] 0
  dot_S8x256_S256x768_S8x768_1_0_0_1_n_n_wf : DotDims.WF S8x256 S256x768 S8x768 [1] [0] [0] [1] [] []
  dot_S8x2x256_S256x256_S8x2x256_2_1_01_0_n_n_wf : DotDims.WF S8x2x256 S256x256 S8x2x256 [2] [1] [0, 1] [0] [] []
  scatter_S131071x256_S1_S8x256_01_n_0_0_wf : ScatterDims.WF S131071x256 S1 S8x256 [0, 1] [] [0] 0
  dot_S4x256_S256x768_S4x768_1_0_0_1_n_n_wf : DotDims.WF S4x256 S256x768 S4x768 [1] [0] [0] [1] [] []
  dot_S4x2x256_S256x256_S4x2x256_2_1_01_0_n_n_wf : DotDims.WF S4x2x256 S256x256 S4x2x256 [2] [1] [0, 1] [0] [] []
  scatter_S131071x256_S1_S4x256_01_n_0_0_wf : ScatterDims.WF S131071x256 S1 S4x256 [0, 1] [] [0] 0
  dot_S2x256_S256x768_S2x768_1_0_0_1_n_n_wf : DotDims.WF S2x256 S256x768 S2x768 [1] [0] [0] [1] [] []
  dot_S2x2x256_S256x256_S2x2x256_2_1_01_0_n_n_wf : DotDims.WF S2x2x256 S256x256 S2x2x256 [2] [1] [0, 1] [0] [] []
  scatter_S131071x256_S1_S2x256_01_n_0_0_wf : ScatterDims.WF S131071x256 S1 S2x256 [0, 1] [] [0] 0
  dot_S1x256_S256x768_S1x768_1_0_0_1_n_n_wf : DotDims.WF S1x256 S256x768 S1x768 [1] [0] [0] [1] [] []
  dot_S1x2x256_S256x256_S1x2x256_2_1_01_0_n_n_wf : DotDims.WF S1x2x256 S256x256 S1x2x256 [2] [1] [0, 1] [0] [] []
  scatter_S131071x256_S1_S1x256_01_n_0_0_wf : ScatterDims.WF S131071x256 S1 S1x256 [0, 1] [] [0] 0

variable [Facts₀]

def dot_S131071x256_S256x768_S131071x768_1_0_0_1_n_n : DotDims S131071x256 S256x768 S131071x768 where
  lhsContracting := [1]
  rhsContracting := [0]
  lhsNonContracting := [0]
  rhsNonContracting := [1]
  lhsBatch := []
  rhsBatch := []
  wf := dot_S131071x256_S256x768_S131071x768_1_0_0_1_n_n_wf
def dot_S131071x256_S256x256_S131071x256_1_0_0_1_n_n : DotDims S131071x256 S256x256 S131071x256 where
  lhsContracting := [1]
  rhsContracting := [0]
  lhsNonContracting := [0]
  rhsNonContracting := [1]
  lhsBatch := []
  rhsBatch := []
  wf := dot_S131071x256_S256x256_S131071x256_1_0_0_1_n_n_wf
def scatter_S131071x256_S1_S65536x256_01_n_0_0 : ScatterDims S131071x256 S1 S65536x256 where
  updateWindowDims := [0, 1]
  insertedWindowDims := []
  scatterDimsToOperandDims := [0]
  indexVectorDim := 0
  wf := scatter_S131071x256_S1_S65536x256_01_n_0_0_wf
def dot_S32768x256_S256x768_S32768x768_1_0_0_1_n_n : DotDims S32768x256 S256x768 S32768x768 where
  lhsContracting := [1]
  rhsContracting := [0]
  lhsNonContracting := [0]
  rhsNonContracting := [1]
  lhsBatch := []
  rhsBatch := []
  wf := dot_S32768x256_S256x768_S32768x768_1_0_0_1_n_n_wf
def dot_S32768x2x256_S256x256_S32768x2x256_2_1_01_0_n_n : DotDims S32768x2x256 S256x256 S32768x2x256 where
  lhsContracting := [2]
  rhsContracting := [1]
  lhsNonContracting := [0, 1]
  rhsNonContracting := [0]
  lhsBatch := []
  rhsBatch := []
  wf := dot_S32768x2x256_S256x256_S32768x2x256_2_1_01_0_n_n_wf
def scatter_S131071x256_S1_S32768x256_01_n_0_0 : ScatterDims S131071x256 S1 S32768x256 where
  updateWindowDims := [0, 1]
  insertedWindowDims := []
  scatterDimsToOperandDims := [0]
  indexVectorDim := 0
  wf := scatter_S131071x256_S1_S32768x256_01_n_0_0_wf
def dot_S16384x256_S256x768_S16384x768_1_0_0_1_n_n : DotDims S16384x256 S256x768 S16384x768 where
  lhsContracting := [1]
  rhsContracting := [0]
  lhsNonContracting := [0]
  rhsNonContracting := [1]
  lhsBatch := []
  rhsBatch := []
  wf := dot_S16384x256_S256x768_S16384x768_1_0_0_1_n_n_wf
def dot_S16384x2x256_S256x256_S16384x2x256_2_1_01_0_n_n : DotDims S16384x2x256 S256x256 S16384x2x256 where
  lhsContracting := [2]
  rhsContracting := [1]
  lhsNonContracting := [0, 1]
  rhsNonContracting := [0]
  lhsBatch := []
  rhsBatch := []
  wf := dot_S16384x2x256_S256x256_S16384x2x256_2_1_01_0_n_n_wf
def scatter_S131071x256_S1_S16384x256_01_n_0_0 : ScatterDims S131071x256 S1 S16384x256 where
  updateWindowDims := [0, 1]
  insertedWindowDims := []
  scatterDimsToOperandDims := [0]
  indexVectorDim := 0
  wf := scatter_S131071x256_S1_S16384x256_01_n_0_0_wf
def dot_S8192x256_S256x768_S8192x768_1_0_0_1_n_n : DotDims S8192x256 S256x768 S8192x768 where
  lhsContracting := [1]
  rhsContracting := [0]
  lhsNonContracting := [0]
  rhsNonContracting := [1]
  lhsBatch := []
  rhsBatch := []
  wf := dot_S8192x256_S256x768_S8192x768_1_0_0_1_n_n_wf
def dot_S8192x2x256_S256x256_S8192x2x256_2_1_01_0_n_n : DotDims S8192x2x256 S256x256 S8192x2x256 where
  lhsContracting := [2]
  rhsContracting := [1]
  lhsNonContracting := [0, 1]
  rhsNonContracting := [0]
  lhsBatch := []
  rhsBatch := []
  wf := dot_S8192x2x256_S256x256_S8192x2x256_2_1_01_0_n_n_wf
def scatter_S131071x256_S1_S8192x256_01_n_0_0 : ScatterDims S131071x256 S1 S8192x256 where
  updateWindowDims := [0, 1]
  insertedWindowDims := []
  scatterDimsToOperandDims := [0]
  indexVectorDim := 0
  wf := scatter_S131071x256_S1_S8192x256_01_n_0_0_wf
def dot_S4096x256_S256x768_S4096x768_1_0_0_1_n_n : DotDims S4096x256 S256x768 S4096x768 where
  lhsContracting := [1]
  rhsContracting := [0]
  lhsNonContracting := [0]
  rhsNonContracting := [1]
  lhsBatch := []
  rhsBatch := []
  wf := dot_S4096x256_S256x768_S4096x768_1_0_0_1_n_n_wf
def dot_S4096x2x256_S256x256_S4096x2x256_2_1_01_0_n_n : DotDims S4096x2x256 S256x256 S4096x2x256 where
  lhsContracting := [2]
  rhsContracting := [1]
  lhsNonContracting := [0, 1]
  rhsNonContracting := [0]
  lhsBatch := []
  rhsBatch := []
  wf := dot_S4096x2x256_S256x256_S4096x2x256_2_1_01_0_n_n_wf
def scatter_S131071x256_S1_S4096x256_01_n_0_0 : ScatterDims S131071x256 S1 S4096x256 where
  updateWindowDims := [0, 1]
  insertedWindowDims := []
  scatterDimsToOperandDims := [0]
  indexVectorDim := 0
  wf := scatter_S131071x256_S1_S4096x256_01_n_0_0_wf
def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf
def dot_S2048x2x256_S256x256_S2048x2x256_2_1_01_0_n_n : DotDims S2048x2x256 S256x256 S2048x2x256 where
  lhsContracting := [2]
  rhsContracting := [1]
  lhsNonContracting := [0, 1]
  rhsNonContracting := [0]
  lhsBatch := []
  rhsBatch := []
  wf := dot_S2048x2x256_S256x256_S2048x2x256_2_1_01_0_n_n_wf
def scatter_S131071x256_S1_S2048x256_01_n_0_0 : ScatterDims S131071x256 S1 S2048x256 where
  updateWindowDims := [0, 1]
  insertedWindowDims := []
  scatterDimsToOperandDims := [0]
  indexVectorDim := 0
  wf := scatter_S131071x256_S1_S2048x256_01_n_0_0_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x2x256_S256x256_S1024x2x256_2_1_01_0_n_n : DotDims S1024x2x256 S256x256 S1024x2x256 where
  lhsContracting := [2]
  rhsContracting := [1]
  lhsNonContracting := [0, 1]
  rhsNonContracting := [0]
  lhsBatch := []
  rhsBatch := []
  wf := dot_S1024x2x256_S256x256_S1024x2x256_2_1_01_0_n_n_wf
def scatter_S131071x256_S1_S1024x256_01_n_0_0 : ScatterDims S131071x256 S1 S1024x256 where
  updateWindowDims := [0, 1]
  insertedWindowDims := []
  scatterDimsToOperandDims := [0]
  indexVectorDim := 0
  wf := scatter_S131071x256_S1_S1024x256_01_n_0_0_wf
def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf
def dot_S512x2x256_S256x256_S512x2x256_2_1_01_0_n_n : DotDims S512x2x256 S256x256 S512x2x256 where
  lhsContracting := [2]
  rhsContracting := [1]
  lhsNonContracting := [0, 1]
  rhsNonContracting := [0]
  lhsBatch := []
  rhsBatch := []
  wf := dot_S512x2x256_S256x256_S512x2x256_2_1_01_0_n_n_wf
def scatter_S131071x256_S1_S512x256_01_n_0_0 : ScatterDims S131071x256 S1 S512x256 where
  updateWindowDims := [0, 1]
  insertedWindowDims := []
  scatterDimsToOperandDims := [0]
  indexVectorDim := 0
  wf := scatter_S131071x256_S1_S512x256_01_n_0_0_wf
def dot_S256x256_S256x768_S256x768_1_0_0_1_n_n : DotDims S256x256 S256x768 S256x768 where
  lhsContracting := [1]
  rhsContracting := [0]
  lhsNonContracting := [0]
  rhsNonContracting := [1]
  lhsBatch := []
  rhsBatch := []
  wf := dot_S256x256_S256x768_S256x768_1_0_0_1_n_n_wf
def dot_S256x2x256_S256x256_S256x2x256_2_1_01_0_n_n : DotDims S256x2x256 S256x256 S256x2x256 where
  lhsContracting := [2]
  rhsContracting := [1]
  lhsNonContracting := [0, 1]
  rhsNonContracting := [0]
  lhsBatch := []
  rhsBatch := []
  wf := dot_S256x2x256_S256x256_S256x2x256_2_1_01_0_n_n_wf
def scatter_S131071x256_S1_S256x256_01_n_0_0 : ScatterDims S131071x256 S1 S256x256 where
  updateWindowDims := [0, 1]
  insertedWindowDims := []
  scatterDimsToOperandDims := [0]
  indexVectorDim := 0
  wf := scatter_S131071x256_S1_S256x256_01_n_0_0_wf
def dot_S128x256_S256x768_S128x768_1_0_0_1_n_n : DotDims S128x256 S256x768 S128x768 where
  lhsContracting := [1]
  rhsContracting := [0]
  lhsNonContracting := [0]
  rhsNonContracting := [1]
  lhsBatch := []
  rhsBatch := []
  wf := dot_S128x256_S256x768_S128x768_1_0_0_1_n_n_wf
def dot_S128x2x256_S256x256_S128x2x256_2_1_01_0_n_n : DotDims S128x2x256 S256x256 S128x2x256 where
  lhsContracting := [2]
  rhsContracting := [1]
  lhsNonContracting := [0, 1]
  rhsNonContracting := [0]
  lhsBatch := []
  rhsBatch := []
  wf := dot_S128x2x256_S256x256_S128x2x256_2_1_01_0_n_n_wf
def scatter_S131071x256_S1_S128x256_01_n_0_0 : ScatterDims S131071x256 S1 S128x256 where
  updateWindowDims := [0, 1]
  insertedWindowDims := []
  scatterDimsToOperandDims := [0]
  indexVectorDim := 0
  wf := scatter_S131071x256_S1_S128x256_01_n_0_0_wf
def dot_S64x256_S256x768_S64x768_1_0_0_1_n_n : DotDims S64x256 S256x768 S64x768 where
  lhsContracting := [1]
  rhsContracting := [0]
  lhsNonContracting := [0]
  rhsNonContracting := [1]
  lhsBatch := []
  rhsBatch := []
  wf := dot_S64x256_S256x768_S64x768_1_0_0_1_n_n_wf
def dot_S64x2x256_S256x256_S64x2x256_2_1_01_0_n_n : DotDims S64x2x256 S256x256 S64x2x256 where
  lhsContracting := [2]
  rhsContracting := [1]
  lhsNonContracting := [0, 1]
  rhsNonContracting := [0]
  lhsBatch := []
  rhsBatch := []
  wf := dot_S64x2x256_S256x256_S64x2x256_2_1_01_0_n_n_wf
def scatter_S131071x256_S1_S64x256_01_n_0_0 : ScatterDims S131071x256 S1 S64x256 where
  updateWindowDims := [0, 1]
  insertedWindowDims := []
  scatterDimsToOperandDims := [0]
  indexVectorDim := 0
  wf := scatter_S131071x256_S1_S64x256_01_n_0_0_wf
def dot_S32x256_S256x768_S32x768_1_0_0_1_n_n : DotDims S32x256 S256x768 S32x768 where
  lhsContracting := [1]
  rhsContracting := [0]
  lhsNonContracting := [0]
  rhsNonContracting := [1]
  lhsBatch := []
  rhsBatch := []
  wf := dot_S32x256_S256x768_S32x768_1_0_0_1_n_n_wf
def dot_S32x2x256_S256x256_S32x2x256_2_1_01_0_n_n : DotDims S32x2x256 S256x256 S32x2x256 where
  lhsContracting := [2]
  rhsContracting := [1]
  lhsNonContracting := [0, 1]
  rhsNonContracting := [0]
  lhsBatch := []
  rhsBatch := []
  wf := dot_S32x2x256_S256x256_S32x2x256_2_1_01_0_n_n_wf
def scatter_S131071x256_S1_S32x256_01_n_0_0 : ScatterDims S131071x256 S1 S32x256 where
  updateWindowDims := [0, 1]
  insertedWindowDims := []
  scatterDimsToOperandDims := [0]
  indexVectorDim := 0
  wf := scatter_S131071x256_S1_S32x256_01_n_0_0_wf
def dot_S16x256_S256x768_S16x768_1_0_0_1_n_n : DotDims S16x256 S256x768 S16x768 where
  lhsContracting := [1]
  rhsContracting := [0]
  lhsNonContracting := [0]
  rhsNonContracting := [1]
  lhsBatch := []
  rhsBatch := []
  wf := dot_S16x256_S256x768_S16x768_1_0_0_1_n_n_wf
def dot_S16x2x256_S256x256_S16x2x256_2_1_01_0_n_n : DotDims S16x2x256 S256x256 S16x2x256 where
  lhsContracting := [2]
  rhsContracting := [1]
  lhsNonContracting := [0, 1]
  rhsNonContracting := [0]
  lhsBatch := []
  rhsBatch := []
  wf := dot_S16x2x256_S256x256_S16x2x256_2_1_01_0_n_n_wf
def scatter_S131071x256_S1_S16x256_01_n_0_0 : ScatterDims S131071x256 S1 S16x256 where
  updateWindowDims := [0, 1]
  insertedWindowDims := []
  scatterDimsToOperandDims := [0]
  indexVectorDim := 0
  wf := scatter_S131071x256_S1_S16x256_01_n_0_0_wf
def dot_S8x256_S256x768_S8x768_1_0_0_1_n_n : DotDims S8x256 S256x768 S8x768 where
  lhsContracting := [1]
  rhsContracting := [0]
  lhsNonContracting := [0]
  rhsNonContracting := [1]
  lhsBatch := []
  rhsBatch := []
  wf := dot_S8x256_S256x768_S8x768_1_0_0_1_n_n_wf
def dot_S8x2x256_S256x256_S8x2x256_2_1_01_0_n_n : DotDims S8x2x256 S256x256 S8x2x256 where
  lhsContracting := [2]
  rhsContracting := [1]
  lhsNonContracting := [0, 1]
  rhsNonContracting := [0]
  lhsBatch := []
  rhsBatch := []
  wf := dot_S8x2x256_S256x256_S8x2x256_2_1_01_0_n_n_wf
def scatter_S131071x256_S1_S8x256_01_n_0_0 : ScatterDims S131071x256 S1 S8x256 where
  updateWindowDims := [0, 1]
  insertedWindowDims := []
  scatterDimsToOperandDims := [0]
  indexVectorDim := 0
  wf := scatter_S131071x256_S1_S8x256_01_n_0_0_wf
def dot_S4x256_S256x768_S4x768_1_0_0_1_n_n : DotDims S4x256 S256x768 S4x768 where
  lhsContracting := [1]
  rhsContracting := [0]
  lhsNonContracting := [0]
  rhsNonContracting := [1]
  lhsBatch := []
  rhsBatch := []
  wf := dot_S4x256_S256x768_S4x768_1_0_0_1_n_n_wf
def dot_S4x2x256_S256x256_S4x2x256_2_1_01_0_n_n : DotDims S4x2x256 S256x256 S4x2x256 where
  lhsContracting := [2]
  rhsContracting := [1]
  lhsNonContracting := [0, 1]
  rhsNonContracting := [0]
  lhsBatch := []
  rhsBatch := []
  wf := dot_S4x2x256_S256x256_S4x2x256_2_1_01_0_n_n_wf
def scatter_S131071x256_S1_S4x256_01_n_0_0 : ScatterDims S131071x256 S1 S4x256 where
  updateWindowDims := [0, 1]
  insertedWindowDims := []
  scatterDimsToOperandDims := [0]
  indexVectorDim := 0
  wf := scatter_S131071x256_S1_S4x256_01_n_0_0_wf
def dot_S2x256_S256x768_S2x768_1_0_0_1_n_n : DotDims S2x256 S256x768 S2x768 where
  lhsContracting := [1]
  rhsContracting := [0]
  lhsNonContracting := [0]
  rhsNonContracting := [1]
  lhsBatch := []
  rhsBatch := []
  wf := dot_S2x256_S256x768_S2x768_1_0_0_1_n_n_wf
def dot_S2x2x256_S256x256_S2x2x256_2_1_01_0_n_n : DotDims S2x2x256 S256x256 S2x2x256 where
  lhsContracting := [2]
  rhsContracting := [1]
  lhsNonContracting := [0, 1]
  rhsNonContracting := [0]
  lhsBatch := []
  rhsBatch := []
  wf := dot_S2x2x256_S256x256_S2x2x256_2_1_01_0_n_n_wf
def scatter_S131071x256_S1_S2x256_01_n_0_0 : ScatterDims S131071x256 S1 S2x256 where
  updateWindowDims := [0, 1]
  insertedWindowDims := []
  scatterDimsToOperandDims := [0]
  indexVectorDim := 0
  wf := scatter_S131071x256_S1_S2x256_01_n_0_0_wf
def dot_S1x256_S256x768_S1x768_1_0_0_1_n_n : DotDims S1x256 S256x768 S1x768 where
  lhsContracting := [1]
  rhsContracting := [0]
  lhsNonContracting := [0]
  rhsNonContracting := [1]
  lhsBatch := []
  rhsBatch := []
  wf := dot_S1x256_S256x768_S1x768_1_0_0_1_n_n_wf
def dot_S1x2x256_S256x256_S1x2x256_2_1_01_0_n_n : DotDims S1x2x256 S256x256 S1x2x256 where
  lhsContracting := [2]
  rhsContracting := [1]
  lhsNonContracting := [0, 1]
  rhsNonContracting := [0]
  lhsBatch := []
  rhsBatch := []
  wf := dot_S1x2x256_S256x256_S1x2x256_2_1_01_0_n_n_wf
def scatter_S131071x256_S1_S1x256_01_n_0_0 : ScatterDims S131071x256 S1 S1x256 where
  updateWindowDims := [0, 1]
  insertedWindowDims := []
  scatterDimsToOperandDims := [0]
  indexVectorDim := 0
  wf := scatter_S131071x256_S1_S1x256_01_n_0_0_wf

class Facts : Prop extends Facts₀ where

variable [Facts]
-- ==== Proof.KernelRun.lean ====
/-
  THE IDEALIZED KERNEL'S RUN WITH EVERY BUFFER NAMED.

  The program is eight device regions among nine stretches of host operations. Run from any memory, every weakly
  fair execution terminates, and every unscoped buffer b of core c ends at the last boundary's contents
  W17 m ρ c b : the launch memory pushed through each stretch's operations in order and, at each region, through
  what the region's grid points write back. The statement is the frame's with the final contents kept for every
  buffer instead of only for the arguments.
-/
import proofs.«176519_j24352464569160_2_alg».proof.Proof.Gen.KernelIdeal.Frame

set_option maxRecDepth 16384

noncomputable section

namespace Cert.KernelIdeal.TreeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and any property of the final memory that follows from "every unscoped
    buffer holds the last boundary's contents" holds of it. -/
theorem run_named {Q : PUnit × MemSt nD τ sig (Elt F) → Prop}
    (hQ : ∀ s : MemSt nD τ sig (Elt F),
      (∀ c : Dev nD, ∀ b ∈ Pipeline.ucRefs τ sig, s.mem (((c : Thread nD τ)).1, b) = W17 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := hQ)

/-- The two results and the arguments after the run. -/
theorem run_results : θ_run defs (onTc (τ := τ) (main (F := F))) ⟨m, fun _ => 0, ρ⟩ (fun r => ∀ c : Dev nD,
      r.2.mem ((c.tc : Thread nD τ).loc main_v0_0) = W17 m ρ c (Proc.devRef .tc main_v0_0)
      ∧ r.2.mem ((c.tc : Thread nD τ).loc main_v0_1) = W17 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_named m ρ fun s h c =>
    ⟨h c _ (mem_uc main_v0_0 (by decide)), h c _ (mem_uc main_v0_1 (by decide)),
     (h c _ (mem_uc main_arg0 (by decide))).trans (W17_main_arg0 m ρ c),
     (h c _ (mem_uc main_arg1 (by decide))).trans (W17_main_arg1 m ρ c),
     (h c _ (mem_uc main_arg2 (by decide))).trans (W17_main_arg2 m ρ c),
     (h c _ (mem_uc main_arg3 (by decide))).trans (W17_main_arg3 m ρ c),
     (h c _ (mem_uc main_arg4 (by decide))).trans (W17_main_arg4 m ρ c),
     (h c _ (mem_uc main_arg5 (by decide))).trans (W17_main_arg5 m ρ c),
     (h c _ (mem_uc main_arg6 (by decide))).trans (W17_main_arg6 m ρ c),
     (h c _ (mem_uc main_arg7 (by decide))).trans (W17_main_arg7 m ρ c),
     (h c _ (mem_uc main_arg8 (by decide))).trans (W17_main_arg8 m ρ c)⟩

end Cert.KernelIdeal.TreeRun

end
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.LibLayoutOps.lean ====
/-
  RESHAPES THAT MERGE OR SPLIT THE LEADING AXIS, READ AT AN INDEX.

  A row-major array `[a, b, c]` viewed as `[a·b, c]` reads, at `(r, q)`, the entry `(r / b, r % b, q)`; the same
  array viewed the other way, `[a·b, c]` as `[a, b, c]`, reads at `(x, y, q)` the entry `(x·b + y, q)`.
  Likewise one axis more: `[a, b, c, d]` as `[a·b, c, d]` and back, and `[a, b, c, d]` as `[a·b·c, d]` and back.
  A middle unit axis dropped, `[a, 1, c] → [a, c]`, reads `(x, 0, q)`.
-/
import Idealize.ShloMosaic.Lib.ValueIdx
import Idealize.ShloMosaic.Lib.Pipeline.Value

noncomputable section

namespace Cert.LayoutOps

open Idealize.ShloMosaic Idealize.ShloMosaic.ValueIdx

variable {α : Type}

theorem mul_add_lt {a b x y : ℕ} (hx : x < a) (hy : y < b) : x * b + y < a * b :=
  Nat.lt_of_lt_of_le (Nat.add_lt_add_left hy _) (by rw [← Nat.succ_mul]; exact Nat.mul_le_mul_right _ hx)

theorem div_lt_of_lt_mul' {a b r : ℕ} (h : r < a * b) : r / b < a :=
  Nat.div_lt_of_lt_mul (by rw [Nat.mul_comm]; exact h)

theorem pos_of_lt_mul {a b r : ℕ} (h : r < a * b) : 0 < b := by
  rcases Nat.eq_zero_or_pos b with hb | hb
  · subst hb; simp at h
  · exact hb

/-- `[a, b, c]` read as `[a·b, c]`. -/
theorem merge3 {a b c N : ℕ} (hN : N = a * b) (X : (⟨3, ![a, b, c]⟩ : Shape).Idx → α)
    (h : (⟨3, ![a, b, c]⟩ : Shape).ShapeCasts ⟨2, ![N, c]⟩) (r : Fin N) (q : Fin c) :
    shapeCast ⟨2, ![N, c]⟩ X h (ix2 r q)
      = X (ix3 (⟨r.val / b, div_lt_of_lt_mul' (lt_of_lt_of_eq r.isLt hN)⟩ : Fin a) (⟨r.val % b, Nat.mod_lt _ (pos_of_lt_mul (lt_of_lt_of_eq r.isLt hN))⟩ : Fin b) q) :=
  shapeCast_apply X h _ _ (by
    rw [Shape.rowMajor_val_three, Shape.rowMajor_val_two]
    show (r.val / b * b + r.val % b) * c + q.val = r.val * c + q.val
    rw [Nat.div_add_mod'])

/-- `[a·b, c]` read as `[a, b, c]`. -/
theorem split3 {a b c N : ℕ} (hN : N = a * b) (X : (⟨2, ![N, c]⟩ : Shape).Idx → α)
    (h : (⟨2, ![N, c]⟩ : Shape).ShapeCasts ⟨3, ![a, b, c]⟩) (x : Fin a) (y : Fin b) (q : Fin c) :
    shapeCast ⟨3, ![a, b, c]⟩ X h (ix3 x y q) = X (ix2 (⟨x.val * b + y.val, lt_of_lt_of_eq (mul_add_lt x.isLt y.isLt) hN.symm⟩ : Fin N) q) :=
  shapeCast_apply X h _ _ (by
    rw [Shape.rowMajor_val_three, Shape.rowMajor_val_two]
    rfl)

/-- `[a, 1, c]` read as `[a, c]`. -/
theorem dropMid {a c : ℕ} (X : (⟨3, ![a, 1, c]⟩ : Shape).Idx → α)
    (h : (⟨3, ![a, 1, c]⟩ : Shape).ShapeCasts ⟨2, ![a, c]⟩) (x : Fin a) (q : Fin c) :
    shapeCast ⟨2, ![a, c]⟩ X h (ix2 x q) = X (ix3 x (0 : Fin 1) q) :=
  shapeCast_apply X h _ _ (by
    rw [Shape.rowMajor_val_three, Shape.rowMajor_val_two]
    show (x.val * 1 + 0) * c + q.val = x.val * c + q.val
    rw [Nat.mul_one, Nat.add_zero])

/-- `[a, b, c, d]` read as `[a·b, c, d]`. -/
theorem merge4 {a b c d N : ℕ} (hN : N = a * b) (X : (⟨4, ![a, b, c, d]⟩ : Shape).Idx → α)
    (h : (⟨4, ![a, b, c, d]⟩ : Shape).ShapeCasts ⟨3, ![N, c, d]⟩) (r : Fin N) (p : Fin c) (q : Fin d) :
    shapeCast ⟨3, ![N, c, d]⟩ X h (ix3 r p q)
      = X (ix4 (⟨r.val / b, div_lt_of_lt_mul' (lt_of_lt_of_eq r.isLt hN)⟩ : Fin a) (⟨r.val % b, Nat.mod_lt _ (pos_of_lt_mul (lt_of_lt_of_eq r.isLt hN))⟩ : Fin b) p q) :=
  shapeCast_apply X h _ _ (by
    rw [Shape.rowMajor_val_four, Shape.rowMajor_val_three]
    show ((r.val / b * b + r.val % b) * c + p.val) * d + q.val = (r.val * c + p.val) * d + q.val
    rw [Nat.div_add_mod'])

/-- `[a·b, c, d]` read as `[a, b, c, d]`. -/
theorem split4 {a b c d N : ℕ} (hN : N = a * b) (X : (⟨3, ![N, c, d]⟩ : Shape).Idx → α)
    (h : (⟨3, ![N, c, d]⟩ : Shape).ShapeCasts ⟨4, ![a, b, c, d]⟩) (x : Fin a) (y : Fin b) (p : Fin c) (q : Fin d) :
    shapeCast ⟨4, ![a, b, c, d]⟩ X h (ix4 x y p q) = X (ix3 (⟨x.val * b + y.val, lt_of_lt_of_eq (mul_add_lt x.isLt y.isLt) hN.symm⟩ : Fin N) p q) :=
  shapeCast_apply X h _ _ (by
    rw [Shape.rowMajor_val_four, Shape.rowMajor_val_three]
    rfl)

end Cert.LayoutOps

end
-- ==== Proof.LibColumnCast.lean ====
/-
  A vector recast as a one-column matrix, read at an index. A row sum kept as a column (a sum over the last axis with
  the axis kept) is stored by recasting the vector of `a` sums to shape `a × 1`; row-major order puts entry `p` of the
  vector at `(p, 0)`.
-/
import Idealize.ShloMosaic.Lib.ValueIdx
import Idealize.ShloMosaic.Lib.Pipeline.Value

namespace Cert.LibColumnCast

open Idealize.ShloMosaic Idealize.ShloMosaic.ValueIdx

/-- A vector of `a` entries recast as an `a × 1` column reads, at `(p, z)`, the vector's entry `p`, whatever the
    unit coordinate `z`: both sit at position `p` in row-major order. Generic in the extent and the element type. -/
theorem column_cast {a : ℕ} {α : Type} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Cert.LibColumnCast
-- ==== Proof.LibLayerForms.lean ====
/-
  ONE GRAPH-CONVOLUTION LAYER'S TWO DENSE STEPS AS WHOLE-ARRAY FUNCTIONS, index by index on the extended reals.

  `dense X W` is the matrix product: entry (p, q) is the sum over k of X (p, k) · W (k, q).
  `combine agg h b s` adds, to the collected neighbour messages `agg`, the node's own features scaled by its
  self-loop weight — row p of `h` times the p-th entry of the one-column array `s` — and then the bias, the one-row
  array `b` laid along every row: entry (p, q) is (agg (p, q) + h (p, q) · s (p, 0)) + b (0, q).
  `combineRelu` is the larger of that and zero.

  The host spells the same arrays with broadcasts: the product is its `dot_general`; the scale is a vector broadcast
  first to a column and then across the columns, the bias a vector broadcast first to a row and then down the rows.
  Recasting a vector of n entries as a column (n × 1) or as a row (1 × n) keeps entry p at (p, 0), respectively (0, p),
  so the host's sums are `combine` of the recast vectors. No law of arithmetic is used: every entry is the same
  expression on both sides.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.Pipeline.Value
import proofs.«176519_j24352464569160_2_alg».proof.Proof.LibMatOps
import proofs.«176519_j24352464569160_2_alg».proof.Proof.LibColumnCast

noncomputable section

open scoped BigOperators

namespace Cert.LayerForms

open Idealize.ShloMosaic Idealize.ShloMosaic.ValueIdx

section
variable {N K C : Nat}

/-- The matrix product, entry by entry. -/
def dense (X : FVec Ideal ⟨2, ![N, K]⟩ .f32) (W : FVec Ideal ⟨2, ![K, C]⟩ .f32) : FVec Ideal ⟨2, ![N, C]⟩ .f32 :=
  fun i => ∑ k : Fin K, X (ix2 (i 0 : Fin N) k) * W (ix2 k (i 1 : Fin C))

theorem dense_apply (X : FVec Ideal ⟨2, ![N, K]⟩ .f32) (W : FVec Ideal ⟨2, ![K, C]⟩ .f32) (p : Fin N) (q : Fin C) :
    dense X W (ix2 p q) = ∑ k : Fin K, X (ix2 p k) * W (ix2 k q) := rfl

/-- The host's plain product of an N × K by a K × C array is `dense`. -/
theorem dotGeneral_eq_dense (d : DotDims ⟨2, ![N, K]⟩ ⟨2, ![K, C]⟩ ⟨2, ![N, C]⟩)
    (wf : DotDims.WF ⟨2, ![N, K]⟩ ⟨2, ![K, C]⟩ ⟨2, ![N, C]⟩ [1] [0] [0] [1] [] [])
    (hd : d = Cert.MatOps.plainDot N K C wf)
    (X : FVec Ideal ⟨2, ![N, K]⟩ .f32) (W : FVec Ideal ⟨2, ![K, C]⟩ .f32) :
    Host.dotGeneral d none X W = dense X W := by
  subst hd
  funext i
  obtain ⟨p, q, rfl⟩ : ∃ (p : Fin N) (q : Fin C), i = ix2 p q := ⟨i 0, i 1, eq_ix2 i⟩
  exact Cert.MatOps.dotGeneral_plain_apply wf none _ X W p q

/-- Messages plus the scaled own features plus the bias, entry by entry. -/
def combine (agg h : FVec Ideal ⟨2, ![N, C]⟩ .f32) (b : FVec Ideal ⟨2, ![1, C]⟩ .f32) (s : FVec Ideal ⟨2, ![N, 1]⟩ .f32) :
    FVec Ideal ⟨2, ![N, C]⟩ .f32 :=
  fun i => (agg i + h i * s (ix2 (i 0 : Fin N) (0 : Fin 1))) + b (ix2 (0 : Fin 1) (i 1 : Fin C))

/-- The same, cut off below at zero. -/
def combineRelu (agg h : FVec Ideal ⟨2, ![N, C]⟩ .f32) (b : FVec Ideal ⟨2, ![1, C]⟩ .f32) (s : FVec Ideal ⟨2, ![N, 1]⟩ .f32) :
    FVec Ideal ⟨2, ![N, C]⟩ .f32 :=
  fun i => max (combine agg h b s i) (Ideal.ofBits .f32 0x00000000#32)

/-- A vector broadcast to a column and then across C columns reads, at (p, q), its entry p. -/
theorem column_then_across (sv : FVec Ideal ⟨1, ![N]⟩ .f32)
    (h1 : (⟨1, ![N]⟩ : Shape).BroadcastsInDim ⟨2, ![N, 1]⟩ ![0])
    (h2 : (⟨2, ![N, 1]⟩ : Shape).BroadcastsInDim ⟨2, ![N, C]⟩ ![0, 1]) (p : Fin N) (q : Fin C) :
    broadcastInDim ⟨2, ![N, C]⟩ ![0, 1] h2 (broadcastInDim ⟨2, ![N, 1]⟩ ![0] h1 sv) (ix2 p q) = sv (ix1 p) := by
  refine (broadcastInDim_apply ![0, 1] h2 _ (ix2 p q) (ix2 p (0 : Fin 1)) fun a => ?_).trans
    (broadcastInDim_apply ![0] h1 sv (ix2 p (0 : Fin 1)) (ix1 p) fun a => ?_)
  · match a with
    | ⟨0, _⟩ =>
      show p.val = if N = 1 then 0 else p.val
      split
      · have := p.isLt; omega
      · rfl
    | ⟨1, _⟩ => rfl
  · match a with
    | ⟨0, _⟩ =>
      show p.val = if N = 1 then 0 else p.val
      split
      · have := p.isLt; omega
      · rfl

/-- A vector broadcast to a row and then down N rows reads, at (p, q), its entry q. -/
theorem row_then_down (bv : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![N, C]⟩ ![0, 1]) (p : Fin N) (q : Fin C) :
    broadcastInDim ⟨2, ![N, C]⟩ ![0, 1] h2 (broadcastInDim ⟨2, ![1, C]⟩ ![1] h1 bv) (ix2 p q) = bv (ix1 q) := by
  refine (broadcastInDim_oneRow_apply h2 _ p q).trans
    (broadcastInDim_apply ![1] h1 bv (ix2 (0 : Fin 1) q) (ix1 q) fun a => ?_)
  match a with
  | ⟨0, _⟩ =>
    show q.val = if C = 1 then 0 else q.val
    split
    · have := q.isLt; omega
    · rfl

/-- The host's spelling of one layer's last step — the scale broadcast to a column and across, the bias to a row and
    down — is `combine` of the vectors recast as a column and as a row. -/
theorem host_combine (agg h : FVec Ideal ⟨2, ![N, C]⟩ .f32) (bv : FVec Ideal ⟨1, ![C]⟩ .f32) (sv : FVec Ideal ⟨1, ![N]⟩ .f32)
    (hs1 : (⟨1, ![N]⟩ : Shape).BroadcastsInDim ⟨2, ![N, 1]⟩ ![0])
    (hs2 : (⟨2, ![N, 1]⟩ : Shape).BroadcastsInDim ⟨2, ![N, C]⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1])
    (cs : (⟨1, ![N]⟩ : Shape).ShapeCasts ⟨2, ![N, 1]⟩) (cb : (⟨1, ![C]⟩ : Shape).ShapeCasts ⟨2, ![1, C]⟩) :
    addf (addf agg (mulf h (broadcastInDim ⟨2, ![N, C]⟩ ![0, 1] hs2 (broadcastInDim ⟨2, ![N, 1]⟩ ![0] hs1 sv))))
        (broadcastInDim ⟨2, ![N, C]⟩ ![0, 1] hb2 (broadcastInDim ⟨2, ![1, C]⟩ ![1] hb1 bv))
      = combine agg h (shapeCast ⟨2, ![1, C]⟩ bv cb) (shapeCast ⟨2, ![N, 1]⟩ sv cs) := by
  funext i
  obtain ⟨p, q, rfl⟩ : ∃ (p : Fin N) (q : Fin C), i = ix2 p q := ⟨i 0, i 1, eq_ix2 i⟩
  show (agg (ix2 p q) + h (ix2 p q) * broadcastInDim ⟨2, ![N, C]⟩ ![0, 1] hs2 (broadcastInDim ⟨2, ![N, 1]⟩ ![0] hs1 sv) (ix2 p q))
      + broadcastInDim ⟨2, ![N, C]⟩ ![0, 1] hb2 (broadcastInDim ⟨2, ![1, C]⟩ ![1] hb1 bv) (ix2 p q)
    = (agg (ix2 p q) + h (ix2 p q) * shapeCast ⟨2, ![N, 1]⟩ sv cs (ix2 p (0 : Fin 1)))
      + shapeCast ⟨2, ![1, C]⟩ bv cb (ix2 (0 : Fin 1) q)
  rw [column_then_across sv hs1 hs2 p q, row_then_down bv hb1 hb2 p q,
    Cert.LibColumnCast.column_cast sv cs p 0, shapeCast_a_1a_apply bv cb (0 : Fin 1) q]

/-- The host's cut-off at zero of an array is the entrywise larger of it and zero. -/
theorem host_relu (x : FVec Ideal ⟨2, ![N, C]⟩ .f32) (h0 : (⟨0, ![]⟩ : Shape).BroadcastsInDim ⟨2, ![N, C]⟩ ![]) :
    maximumf x (broadcastInDim ⟨2, ![N, C]⟩ ![] h0 (constant (F := Ideal) ⟨0, ![]⟩ .f32 0x00000000#32))
      = fun i => max (x i) (Ideal.ofBits .f32 0x00000000#32) := by
  funext i
  show max (x i) (broadcastInDim ⟨2, ![N, C]⟩ ![] h0 (constant (F := Ideal) ⟨0, ![]⟩ .f32 0x00000000#32) i) = _
  rw [broadcastInDim_apply ![] h0 _ i ix0 (fun a => a.elim0)]
  rfl

end

end Cert.LayerForms

end
-- ==== Proof.LibDeviceDense.lean ====
/-
  THE DEVICE'S MATRIX PRODUCT OF A BLOCK OF ROWS BY A WHOLE MATRIX, READ AT AN ENTRY.

  The device rounds both operands to the short float format and hands them to its matrix unit, which accumulates
  into zeros. At the exact instance rounding is the identity, so entry (p, q) of the result is the sum over k < K of
  l (p, k) · r (k, q): the matrix product. Recasting the left operand onto its own shape first changes nothing.

  A second fact, about positions only: if row p of a block sits at row  t · B + p  of the array it is cut from and
  the second operand's block is that whole array, then the product of the blocks at (p, q) is the product of the
  arrays at (t · B + p, q).
-/
import Idealize.ShloMosaic.PureOps.Ideal.Laws
import Idealize.ShloMosaic.Lib.ValueIdx
import Idealize.ShloMosaic.Lib.Pipeline.Value
import proofs.«176519_j24352464569160_2_alg».proof.Proof.LibMatOps
import proofs.«176519_j24352464569160_2_alg».proof.Proof.LibLayerForms

noncomputable section

open scoped BigOperators

namespace Cert.DeviceDense

open Idealize.ShloMosaic Idealize.ShloMosaic.ValueIdx

section
variable {M K C : Nat} (wf : DotDims.WF ⟨2, ![M, K]⟩ ⟨2, ![K, C]⟩ ⟨2, ![M, C]⟩ [1] [0] [0] [1] [] [])

/-- The matrix unit on the two rounded operands, accumulating into zeros, is the matrix product at every entry. -/
theorem matmul_trunc_apply (d : DotDims ⟨2, ![M, K]⟩ ⟨2, ![K, C]⟩ ⟨2, ![M, C]⟩) (hd : d = Cert.MatOps.plainDot M K C wf)
    (h : FTy.bits .bf16 < FTy.bits .f32)
    (l : FVec Ideal ⟨2, ![M, K]⟩ .f32) (r : FVec Ideal ⟨2, ![K, C]⟩ .f32) (p : Fin M) (q : Fin C) :
    FloatOps.matmul d none (truncf .bf16 l h) (truncf .bf16 r h) (constant ⟨2, ![M, C]⟩ .f32 0x00000000#32) (ix2 p q)
      = ∑ k : Fin K, l (ix2 p k) * r (ix2 k q) := by
  subst hd
  exact Cert.MatOps.matmul_plain_apply wf none (truncf .bf16 l h) (truncf .bf16 r h) p q

/-- The same with the left operand first recast onto its own shape. -/
theorem matmul_cast_trunc_apply (d : DotDims ⟨2, ![M, K]⟩ ⟨2, ![K, C]⟩ ⟨2, ![M, C]⟩) (hd : d = Cert.MatOps.plainDot M K C wf)
    (h : FTy.bits .bf16 < FTy.bits .f32) (hc : (⟨2, ![M, K]⟩ : Shape).ShapeCasts ⟨2, ![M, K]⟩)
    (l : FVec Ideal ⟨2, ![M, K]⟩ .f32) (r : FVec Ideal ⟨2, ![K, C]⟩ .f32) (p : Fin M) (q : Fin C) :
    FloatOps.matmul d none (truncf .bf16 (shapeCast ⟨2, ![M, K]⟩ l hc) h) (truncf .bf16 r h)
        (constant ⟨2, ![M, C]⟩ .f32 0x00000000#32) (ix2 p q)
      = ∑ k : Fin K, l (ix2 p k) * r (ix2 k q) := by
  rw [shapeCast_self]
  exact matmul_trunc_apply wf d hd h l r p q

end

section
variable {M N K C : Nat}

/-- Positions only: when row p of a block of rows is row  e p  of the array it is cut from, and the second operand's
    block is the whole second array, the product of the blocks at (p, q) is the product of the arrays at (e p, q). -/
theorem dense_of_rows (A : FVec Ideal ⟨2, ![N, K]⟩ .f32) (W : FVec Ideal ⟨2, ![K, C]⟩ .f32)
    (x0 : FVec Ideal ⟨2, ![M, K]⟩ .f32) (x1 : FVec Ideal ⟨2, ![K, C]⟩ .f32) (e : Fin M → Fin N)
    (h0 : ∀ (p : Fin M) (k : Fin K), x0 (ix2 p k) = A (ix2 (e p) k))
    (h1 : ∀ (k : Fin K) (q : Fin C), x1 (ix2 k q) = W (ix2 k q)) (p : Fin M) (q : Fin C) :
    ∑ k : Fin K, x0 (ix2 p k) * x1 (ix2 k q) = Cert.LayerForms.dense A W (ix2 (e p) q) := by
  rw [Cert.LayerForms.dense_apply]
  exact Finset.sum_congr rfl fun k _ => by rw [h0, h1]

end

end Cert.DeviceDense

end
-- ==== Proof.LibTreeCell.lean ====
/-
  ONE LEVEL OF A CHILD-SUM TREE LSTM OVER A COMPLETE BINARY TREE, ENTRY BY ENTRY.

  A level has N nodes; node n has the two children 2n and 2n+1 of the level below, whose hidden and cell states
  arrive as arrays [N, 2, 256] (child a of node n in row (n, a)). With  s = h(n,0) + h(n,1)  the summed hidden state,
      gate(n, j)   = (x_iou(n, j) + Σ_k s(k) · W_iouh(j, k)) + b_iouh(j)                      j < 768
      forget(n,a,q) = σ((Σ_k h(n,a,k) · W_fh(q, k) + b_fh(q)) + x_f(n, q))                     a < 2
      c(n, q) = σ(gate(n, q)) · tanh(gate(n, 512 + q)) + (forget(n,0,q) · c(n,0,q) + forget(n,1,q) · c(n,1,q))
      h(n, q) = σ(gate(n, 256 + q)) · tanh(c(n, q))
  on the extended reals, σ the logistic function  1 / (1 + e^(-x)).  This file states these four functions once,
  generic in N, and reads at an index the elementary array operations a host program spells them with: the sum of
  the two children as a reduction over the middle axis, a transpose, the product of a rank-3 array with a matrix
  contracting last axis with last axis, a row of biases broadcast down the rows or down rows and children, a
  per-node row broadcast over the children, and the three column blocks of the gate array.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.Pipeline.Value
import proofs.«176519_j24352464569160_2_alg».proof.Proof.LibMatOps
import proofs.«176519_j24352464569160_2_alg».proof.Proof.LibLayerForms
import proofs.«176519_j24352464569160_2_alg».proof.Proof.LibLayoutOps

noncomputable section

open scoped BigOperators

namespace Cert.TreeCell

open Idealize.ShloMosaic Idealize.ShloMosaic.ValueIdx

section
variable {N : Nat}

/-- Column q of the first, second and third block of 256 among 768 columns. -/
abbrev colI (q : Fin 256) : Fin 768 := ⟨q.val, by have := q.isLt; omega⟩
abbrev colO (q : Fin 256) : Fin 768 := ⟨256 + q.val, by have := q.isLt; omega⟩
abbrev colU (q : Fin 256) : Fin 768 := ⟨512 + q.val, by have := q.isLt; omega⟩

/-- The gates' pre-activation of node n, column j. -/
def gate (iou : FVec Ideal ⟨2, ![N, 768]⟩ .f32) (ch : FVec Ideal ⟨3, ![N, 2, 256]⟩ .f32)
    (Wi : FVec Ideal ⟨2, ![768, 256]⟩ .f32) (bi : FVec Ideal ⟨1, ![768]⟩ .f32) (n : Fin N) (j : Fin 768) : EReal :=
  (iou (ix2 n j) + ∑ k : Fin 256, (ch (ix3 n (0 : Fin 2) k) + ch (ix3 n (1 : Fin 2) k)) * Wi (ix2 j k)) + bi (ix1 j)

/-- The forget gate of node n for its child a, column q. -/
def forget (fx : FVec Ideal ⟨2, ![N, 256]⟩ .f32) (ch : FVec Ideal ⟨3, ![N, 2, 256]⟩ .f32)
    (Wf : FVec Ideal ⟨2, ![256, 256]⟩ .f32) (bf : FVec Ideal ⟨1, ![256]⟩ .f32) (n : Fin N) (a : Fin 2) (q : Fin 256) : EReal :=
  Ideal.logistic (((∑ k : Fin 256, ch (ix3 n a k) * Wf (ix2 q k)) + bf (ix1 q)) + fx (ix2 n q))

/-- The new cell state of a level. -/
def cellC (iou : FVec Ideal ⟨2, ![N, 768]⟩ .f32) (fx : FVec Ideal ⟨2, ![N, 256]⟩ .f32)
    (ch cc : FVec Ideal ⟨3, ![N, 2, 256]⟩ .f32) (Wi : FVec Ideal ⟨2, ![768, 256]⟩ .f32) (bi : FVec Ideal ⟨1, ![768]⟩ .f32)
    (Wf : FVec Ideal ⟨2, ![256, 256]⟩ .f32) (bf : FVec Ideal ⟨1, ![256]⟩ .f32) : FVec Ideal ⟨2, ![N, 256]⟩ .f32 :=
  fun i => Ideal.logistic (gate iou ch Wi bi (i 0 : Fin N) (colI (i 1 : Fin 256)))
        * Ideal.tanh (gate iou ch Wi bi (i 0 : Fin N) (colU (i 1 : Fin 256)))
      + (forget fx ch Wf bf (i 0 : Fin N) 0 (i 1 : Fin 256) * cc (ix3 (i 0 : Fin N) (0 : Fin 2) (i 1 : Fin 256))
        + forget fx ch Wf bf (i 0 : Fin N) 1 (i 1 : Fin 256) * cc (ix3 (i 0 : Fin N) (1 : Fin 2) (i 1 : Fin 256)))

/-- The new hidden state of a level. -/
def cellH (iou : FVec Ideal ⟨2, ![N, 768]⟩ .f32) (fx : FVec Ideal ⟨2, ![N, 256]⟩ .f32)
    (ch cc : FVec Ideal ⟨3, ![N, 2, 256]⟩ .f32) (Wi : FVec Ideal ⟨2, ![768, 256]⟩ .f32) (bi : FVec Ideal ⟨1, ![768]⟩ .f32)
    (Wf : FVec Ideal ⟨2, ![256, 256]⟩ .f32) (bf : FVec Ideal ⟨1, ![256]⟩ .f32) : FVec Ideal ⟨2, ![N, 256]⟩ .f32 :=
  fun i => Ideal.logistic (gate iou ch Wi bi (i 0 : Fin N) (colO (i 1 : Fin 256)))
      * Ideal.tanh (cellC iou fx ch cc Wi bi Wf bf i)

theorem cellC_apply (iou : FVec Ideal ⟨2, ![N, 768]⟩ .f32) (fx : FVec Ideal ⟨2, ![N, 256]⟩ .f32)
    (ch cc : FVec Ideal ⟨3, ![N, 2, 256]⟩ .f32) (Wi : FVec Ideal ⟨2, ![768, 256]⟩ .f32) (bi : FVec Ideal ⟨1, ![768]⟩ .f32)
    (Wf : FVec Ideal ⟨2, ![256, 256]⟩ .f32) (bf : FVec Ideal ⟨1, ![256]⟩ .f32) (n : Fin N) (q : Fin 256) :
    cellC iou fx ch cc Wi bi Wf bf (ix2 n q)
      = Ideal.logistic (gate iou ch Wi bi n (colI q)) * Ideal.tanh (gate iou ch Wi bi n (colU q))
        + (forget fx ch Wf bf n 0 q * cc (ix3 n (0 : Fin 2) q) + forget fx ch Wf bf n 1 q * cc (ix3 n (1 : Fin 2) q)) := rfl

theorem cellH_apply (iou : FVec Ideal ⟨2, ![N, 768]⟩ .f32) (fx : FVec Ideal ⟨2, ![N, 256]⟩ .f32)
    (ch cc : FVec Ideal ⟨3, ![N, 2, 256]⟩ .f32) (Wi : FVec Ideal ⟨2, ![768, 256]⟩ .f32) (bi : FVec Ideal ⟨1, ![768]⟩ .f32)
    (Wf : FVec Ideal ⟨2, ![256, 256]⟩ .f32) (bf : FVec Ideal ⟨1, ![256]⟩ .f32) (n : Fin N) (q : Fin 256) :
    cellH iou fx ch cc Wi bi Wf bf (ix2 n q)
      = Ideal.logistic (gate iou ch Wi bi n (colO q)) * Ideal.tanh (cellC iou fx ch cc Wi bi Wf bf (ix2 n q)) := rfl

/-! ## The elementary operations read at an index -/

/-- The float pattern of zero is the number zero, of one the number one. -/
theorem zero_f32 : Ideal.ofBits .f32 0x00000000#32 = 0 := Ideal.ofBits_zero_f32
theorem one_f32 : Ideal.ofBits .f32 0x3F800000#32 = 1 := by
  simp [Ideal.ofBits, Ideal.ieee, -EReal.coe_mul]; norm_num

/-- The host's quotient 1 / (1 + e^(-y)), entry by entry, is the logistic function of y. -/
theorem host_logistic_apply {s : Shape} (y : FVec Ideal s .f32) (h1 : (⟨0, ![]⟩ : Shape).BroadcastsInDim s ![]) (i : s.Idx) :
    Host.divf (broadcastInDim s ![] h1 (constant (F := Ideal) ⟨0, ![]⟩ .f32 0x3F800000#32))
        (addf (broadcastInDim s ![] h1 (constant (F := Ideal) ⟨0, ![]⟩ .f32 0x3F800000#32)) (Host.exp (Host.negf y))) i
      = Ideal.logistic (y i) := by
  show Ideal.div (broadcastInDim s ![] h1 (constant (F := Ideal) ⟨0, ![]⟩ .f32 0x3F800000#32) i)
      (broadcastInDim s ![] h1 (constant (F := Ideal) ⟨0, ![]⟩ .f32 0x3F800000#32) i + Ideal.exp (-(y i))) = _
  rw [broadcastInDim_apply ![] h1 _ i ix0 (fun a => a.elim0)]
  show Ideal.div (Ideal.ofBits .f32 0x3F800000#32) (Ideal.ofBits .f32 0x3F800000#32 + Ideal.exp (-(y i))) = Ideal.logistic (y i)
  rw [one_f32]
  rfl

/-- The sum over the two children, as the host's reduction of the middle axis starting from zero. -/
theorem reduce_children {C : Nat} (x : FVec Ideal ⟨3, ![N, 2, C]⟩ .f32)
    (hR : (⟨3, ![N, 2, C]⟩ : Shape).ReducesTo [1] ⟨2, ![N, C]⟩) (hS : 0 < (⟨0, ![]⟩ : Shape).numel) (n : Fin N) (q : Fin C) :
    Host.reduceAdd x (constant (F := Ideal) ⟨0, ![]⟩ .f32 0x00000000#32) hR hS (ix2 n q)
      = x (ix3 n (0 : Fin 2) q) + x (ix3 n (1 : Fin 2) q) := by
  have h : (⟨3, ![N, 2, C]⟩ : Shape).Reduces [1] ⟨2, ![N, C]⟩ := ⟨hR.1, Nat.zero_lt_two, hR.2⟩
  show Ideal.hostReduceAdd hR x (Ideal.ofBits .f32 0x00000000#32) (ix2 n q) = _
  rw [Ideal.hostReduceAdd_single hR h, zero_f32, zero_add]
  show ∑ k : Fin 2, x (h.lift (ix2 n q) k) = _
  rw [Fin.sum_univ_two]
  have e0 : h.lift (ix2 n q) (0 : Fin 2) = ix3 n (0 : Fin 2) q := funext fun c => Fin.ext (by
    match c with
    | ⟨0, _⟩ => rfl
    | ⟨1, _⟩ => rfl
    | ⟨2, _⟩ => rfl)
  have e1 : h.lift (ix2 n q) (1 : Fin 2) = ix3 n (1 : Fin 2) q := funext fun c => Fin.ext (by
    match c with
    | ⟨0, _⟩ => rfl
    | ⟨1, _⟩ => rfl
    | ⟨2, _⟩ => rfl)
  rw [e0, e1]

/-- A transposed matrix read at (k, j) is the matrix at (j, k). -/
theorem transpose_pair_apply {K C : Nat} (W : FVec Ideal ⟨2, ![C, K]⟩ .f32)
    (hT : (⟨2, ![C, K]⟩ : Shape).Transposes [1, 0] ⟨2, ![K, C]⟩) (k : Fin K) (j : Fin C) :
    transpose ⟨2, ![K, C]⟩ [1, 0] W hT (ix2 k j) = W (ix2 j k) :=
  transpose_apply [1, 0] W hT (ix2 k j) (ix2 j k) fun b => by
    match b with
    | ⟨0, _⟩ => rfl
    | ⟨1, _⟩ => rfl

/-- A block of rows starting at row off, read at (i, q). -/
theorem rows_slice_apply {M R C off : Nat} (x : FVec Ideal ⟨2, ![M, C]⟩ .f32)
    (h : (⟨2, ![M, C]⟩ : Shape).Slices ![off, 0] ⟨2, ![R, C]⟩) (i : Fin R) (q : Fin C) (r : Fin M) (hr : r.val = off + i.val) :
    extractStridedSlice ⟨2, ![R, C]⟩ ![off, 0] x h (ix2 i q) = x (ix2 r q) :=
  extractStridedSlice_apply ![off, 0] x h (ix2 i q) (ix2 r q) fun a => by
    match a with
    | ⟨0, _⟩ => exact hr
    | ⟨1, _⟩ => exact (Nat.zero_add _).symm

/-- A block of columns starting at column off, read at (n, q). -/
theorem cols_slice_apply {M C D off : Nat} (x : FVec Ideal ⟨2, ![M, C]⟩ .f32)
    (h : (⟨2, ![M, C]⟩ : Shape).Slices ![0, off] ⟨2, ![M, D]⟩) (n : Fin M) (q : Fin D) (j : Fin C) (hj : j.val = off + q.val) :
    extractStridedSlice ⟨2, ![M, D]⟩ ![0, off] x h (ix2 n q) = x (ix2 n j) :=
  extractStridedSlice_apply ![0, off] x h (ix2 n q) (ix2 n j) fun a => by
    match a with
    | ⟨0, _⟩ => exact (Nat.zero_add _).symm
    | ⟨1, _⟩ => exact hj

/-- A row of biases broadcast down the rows and the children reads, at (n, a, q), its entry q. -/
theorem bias_rows_children_apply {A C : Nat} (b : FVec Ideal ⟨1, ![C]⟩ .f32)
    (h1 : (⟨1, ![C]⟩ : Shape).BroadcastsInDim ⟨3, ![1, 1, C]⟩ ![2])
    (h2 : (⟨3, ![1, 1, C]⟩ : Shape).BroadcastsInDim ⟨3, ![N, A, C]⟩ ![0, 1, 2]) (n : Fin N) (a : Fin A) (q : Fin C) :
    broadcastInDim ⟨3, ![N, A, C]⟩ ![0, 1, 2] h2 (broadcastInDim ⟨3, ![1, 1, C]⟩ ![2] h1 b) (ix3 n a q) = b (ix1 q) := by
  refine (broadcastInDim_apply ![0, 1, 2] h2 _ (ix3 n a q) (ix3 (0 : Fin 1) (0 : Fin 1) q) fun c => ?_).trans
    (broadcastInDim_apply ![2] h1 b (ix3 (0 : Fin 1) (0 : Fin 1) q) (ix1 q) fun c => ?_)
  · match c with
    | ⟨0, _⟩ => rfl
    | ⟨1, _⟩ => rfl
    | ⟨2, _⟩ =>
      show q.val = if C = 1 then 0 else q.val
      split
      · have := q.isLt; omega
      · rfl
  · match c with
    | ⟨0, _⟩ =>
      show q.val = if C = 1 then 0 else q.val
      split
      · have := q.isLt; omega
      · rfl

/-- A per-node row broadcast over the children reads, at (n, a, q), the node's entry q. -/
theorem node_over_children_apply {A C : Nat} (x : FVec Ideal ⟨2, ![N, C]⟩ .f32)
    (h1 : (⟨2, ![N, C]⟩ : Shape).BroadcastsInDim ⟨3, ![N, 1, C]⟩ ![0, 2])
    (h2 : (⟨3, ![N, 1, C]⟩ : Shape).BroadcastsInDim ⟨3, ![N, A, C]⟩ ![0, 1, 2]) (n : Fin N) (a : Fin A) (q : Fin C) :
    broadcastInDim ⟨3, ![N, A, C]⟩ ![0, 1, 2] h2 (broadcastInDim ⟨3, ![N, 1, C]⟩ ![0, 2] h1 x) (ix3 n a q) = x (ix2 n q) := by
  refine (broadcastInDim_apply ![0, 1, 2] h2 _ (ix3 n a q) (ix3 n (0 : Fin 1) q) fun c => ?_).trans
    (broadcastInDim_apply ![0, 2] h1 x (ix3 n (0 : Fin 1) q) (ix2 n q) fun c => ?_)
  · match c with
    | ⟨0, _⟩ =>
      show n.val = if N = 1 then 0 else n.val
      split
      · have := n.isLt; omega
      · rfl
    | ⟨1, _⟩ => rfl
    | ⟨2, _⟩ =>
      show q.val = if C = 1 then 0 else q.val
      split
      · have := q.isLt; omega
      · rfl
  · match c with
    | ⟨0, _⟩ =>
      show n.val = if N = 1 then 0 else n.val
      split
      · have := n.isLt; omega
      · rfl
    | ⟨1, _⟩ =>
      show q.val = if C = 1 then 0 else q.val
      split
      · have := q.isLt; omega
      · rfl

/-- The dimension numbers of a rank-3 array [N, A, K] times a matrix [C, K], last axis against last axis. -/
abbrev childDot (N A K C : Nat)
    (wf : DotDims.WF ⟨3, ![N, A, K]⟩ ⟨2, ![C, K]⟩ ⟨3, ![N, A, C]⟩ [2] [1] [0, 1] [0] [] []) :
    DotDims ⟨3, ![N, A, K]⟩ ⟨2, ![C, K]⟩ ⟨3, ![N, A, C]⟩ where
  lhsContracting := [2]
  rhsContracting := [1]
  lhsNonContracting := [0, 1]
  rhsNonContracting := [0]
  lhsBatch := []
  rhsBatch := []
  wf := wf

/-- That product at (n, a, p) is the sum over k of x(n, a, k) · W(p, k). -/
theorem childDot_apply {A K C : Nat}
    (wf : DotDims.WF ⟨3, ![N, A, K]⟩ ⟨2, ![C, K]⟩ ⟨3, ![N, A, C]⟩ [2] [1] [0, 1] [0] [] [])
    (x : FVec Ideal ⟨3, ![N, A, K]⟩ .f32) (W : FVec Ideal ⟨2, ![C, K]⟩ .f32) (n : Fin N) (a : Fin A) (p : Fin C) :
    Host.dotGeneral (childDot N A K C wf) none x W (ix3 n a p) = ∑ k : Fin K, x (ix3 n a k) * W (ix2 p k) := by
  show FloatOps.dotGeneral (childDot N A K C wf) none _ x W (ix3 n a p) = _
  rw [Ideal.dotGeneral_apply, ← Equiv.sum_comp (contrEquiv1 (childDot N A K C wf) K rfl rfl).symm]
  refine Finset.sum_congr rfl fun k _ => ?_
  have hk := contrEquiv1_symm_val (childDot N A K C wf) K rfl rfl k
  have el : (childDot N A K C wf).lhsIdx (ix3 n a p) ((contrEquiv1 (childDot N A K C wf) K rfl rfl).symm k) = ix3 n a k :=
    funext fun c => Fin.ext (by
      match c with
      | ⟨0, _⟩ =>
        show ((childDot N A K C wf).lhsIdx (ix3 n a p) _ 0).val = n.val
        unfold DotDims.lhsIdx
        rw [dif_neg (show ¬(0 : Fin 3) ∈ (childDot N A K C wf).lhsBatch from List.not_mem_nil),
          dif_pos (show (0 : Fin 3) ∈ (childDot N A K C wf).lhsNonContracting from (by decide : (0 : Fin 3) ∈ ([0, 1] : List (Fin 3))))]
        rfl
      | ⟨1, _⟩ =>
        show ((childDot N A K C wf).lhsIdx (ix3 n a p) _ 1).val = a.val
        unfold DotDims.lhsIdx
        rw [dif_neg (show ¬(1 : Fin 3) ∈ (childDot N A K C wf).lhsBatch from List.not_mem_nil),
          dif_pos (show (1 : Fin 3) ∈ (childDot N A K C wf).lhsNonContracting from (by decide : (1 : Fin 3) ∈ ([0, 1] : List (Fin 3))))]
        rfl
      | ⟨2, _⟩ => exact ((childDot N A K C wf).lhsIdx_val_of_single rfl _ _).trans hk)
  have er : (childDot N A K C wf).rhsIdx (ix3 n a p) ((contrEquiv1 (childDot N A K C wf) K rfl rfl).symm k) = ix2 p k :=
    funext fun c => Fin.ext (by
      match c with
      | ⟨0, _⟩ =>
        show ((childDot N A K C wf).rhsIdx (ix3 n a p) _ 0).val = p.val
        unfold DotDims.rhsIdx
        rw [dif_neg (show ¬(0 : Fin 2) ∈ (childDot N A K C wf).rhsBatch from List.not_mem_nil),
          dif_pos (show (0 : Fin 2) ∈ (childDot N A K C wf).rhsNonContracting from List.mem_singleton.mpr rfl)]
        rfl
      | ⟨1, _⟩ => exact ((childDot N A K C wf).rhsIdx_val_of_single rfl _ _).trans hk)
  rw [el, er]

theorem host_tanh_apply {s : Shape} (x : FVec Ideal s .f32) (i : s.Idx) : Host.tanh x i = Ideal.tanh (x i) := rfl

/-! ## One level as a host program spells it with a reduction over the children -/

/-- The gates' pre-activation: the level's rows of the input projection, plus the product of the summed children
    with the transposed weights, plus the bias row broadcast down the rows (Bi, however the host broadcasts it). -/
theorem sum_form_gate_apply (iouS : FVec Ideal ⟨2, ![N, 768]⟩ .f32) (ch : FVec Ideal ⟨3, ![N, 2, 256]⟩ .f32)
    (Wi : FVec Ideal ⟨2, ![768, 256]⟩ .f32) (bi : FVec Ideal ⟨1, ![768]⟩ .f32)
    (d : DotDims ⟨2, ![N, 256]⟩ ⟨2, ![256, 768]⟩ ⟨2, ![N, 768]⟩)
    (wf : DotDims.WF ⟨2, ![N, 256]⟩ ⟨2, ![256, 768]⟩ ⟨2, ![N, 768]⟩ [1] [0] [0] [1] [] [])
    (hd : d = Cert.MatOps.plainDot N 256 768 wf)
    (hR : (⟨3, ![N, 2, 256]⟩ : Shape).ReducesTo [1] ⟨2, ![N, 256]⟩) (hS : 0 < (⟨0, ![]⟩ : Shape).numel)
    (hT : (⟨2, ![768, 256]⟩ : Shape).Transposes [1, 0] ⟨2, ![256, 768]⟩)
    (Bi : FVec Ideal ⟨2, ![N, 768]⟩ .f32) (hBi : ∀ (n : Fin N) (j : Fin 768), Bi (ix2 n j) = bi (ix1 j))
    (n : Fin N) (j : Fin 768) :
    addf (addf iouS (Host.dotGeneral d none
          (Host.reduceAdd ch (constant (F := Ideal) ⟨0, ![]⟩ .f32 0x00000000#32) hR hS)
          (transpose ⟨2, ![256, 768]⟩ [1, 0] Wi hT))) Bi (ix2 n j)
      = gate iouS ch Wi bi n j := by
  subst hd
  rw [addf_apply, addf_apply, hBi]
  unfold gate
  refine congrArg (fun z => (iouS (ix2 n j) + z) + bi (ix1 j)) ?_
  refine (Cert.MatOps.dotGeneral_plain_apply wf none _ _ _ n j).trans (Finset.sum_congr rfl fun k _ => ?_)
  rw [reduce_children ch hR hS n k, transpose_pair_apply Wi hT k j]

/-- The forget gates' pre-activation at (n, a, q) and its logistic, as a host program spells them over the
    rank-3 array of children. -/
theorem sum_form_forget_apply (fxS : FVec Ideal ⟨2, ![N, 256]⟩ .f32) (ch : FVec Ideal ⟨3, ![N, 2, 256]⟩ .f32)
    (Wf : FVec Ideal ⟨2, ![256, 256]⟩ .f32) (bf : FVec Ideal ⟨1, ![256]⟩ .f32)
    (d3 : DotDims ⟨3, ![N, 2, 256]⟩ ⟨2, ![256, 256]⟩ ⟨3, ![N, 2, 256]⟩)
    (wf3 : DotDims.WF ⟨3, ![N, 2, 256]⟩ ⟨2, ![256, 256]⟩ ⟨3, ![N, 2, 256]⟩ [2] [1] [0, 1] [0] [] [])
    (hd3 : d3 = childDot N 2 256 256 wf3)
    (hc1 : (⟨1, ![256]⟩ : Shape).BroadcastsInDim ⟨3, ![1, 1, 256]⟩ ![2])
    (hc2 : (⟨3, ![1, 1, 256]⟩ : Shape).BroadcastsInDim ⟨3, ![N, 2, 256]⟩ ![0, 1, 2])
    (hf1 : (⟨2, ![N, 256]⟩ : Shape).BroadcastsInDim ⟨3, ![N, 1, 256]⟩ ![0, 2])
    (hf2 : (⟨3, ![N, 1, 256]⟩ : Shape).BroadcastsInDim ⟨3, ![N, 2, 256]⟩ ![0, 1, 2])
    (h13 : (⟨0, ![]⟩ : Shape).BroadcastsInDim ⟨3, ![N, 2, 256]⟩ ![]) (n : Fin N) (a : Fin 2) (q : Fin 256) :
    Host.divf (broadcastInDim ⟨3, ![N, 2, 256]⟩ ![] h13 (constant (F := Ideal) ⟨0, ![]⟩ .f32 0x3F800000#32))
        (addf (broadcastInDim ⟨3, ![N, 2, 256]⟩ ![] h13 (constant (F := Ideal) ⟨0, ![]⟩ .f32 0x3F800000#32))
          (Host.exp (Host.negf
            (addf (addf (Host.dotGeneral d3 none ch Wf)
                (broadcastInDim ⟨3, ![N, 2, 256]⟩ ![0, 1, 2] hc2 (broadcastInDim ⟨3, ![1, 1, 256]⟩ ![2] hc1 bf)))
              (broadcastInDim ⟨3, ![N, 2, 256]⟩ ![0, 1, 2] hf2 (broadcastInDim ⟨3, ![N, 1, 256]⟩ ![0, 2] hf1 fxS))))))
        (ix3 n a q)
      = forget fxS ch Wf bf n a q := by
  subst hd3
  rw [host_logistic_apply, addf_apply, addf_apply, childDot_apply wf3 ch Wf n a q,
    bias_rows_children_apply bf hc1 hc2 n a q, node_over_children_apply fxS hf1 hf2 n a q]
  rfl

/-- The new cell state, as a host program spells it with the children on a middle axis. -/
theorem sum_form_cellC (iouS IOU : FVec Ideal ⟨2, ![N, 768]⟩ .f32) (fxS : FVec Ideal ⟨2, ![N, 256]⟩ .f32)
    (ch cc : FVec Ideal ⟨3, ![N, 2, 256]⟩ .f32) (Wi : FVec Ideal ⟨2, ![768, 256]⟩ .f32) (bi : FVec Ideal ⟨1, ![768]⟩ .f32)
    (Wf : FVec Ideal ⟨2, ![256, 256]⟩ .f32) (bf : FVec Ideal ⟨1, ![256]⟩ .f32)
    (hI : ∀ (n : Fin N) (j : Fin 768), IOU (ix2 n j) = gate iouS ch Wi bi n j)
    (d3 : DotDims ⟨3, ![N, 2, 256]⟩ ⟨2, ![256, 256]⟩ ⟨3, ![N, 2, 256]⟩)
    (wf3 : DotDims.WF ⟨3, ![N, 2, 256]⟩ ⟨2, ![256, 256]⟩ ⟨3, ![N, 2, 256]⟩ [2] [1] [0, 1] [0] [] [])
    (hd3 : d3 = childDot N 2 256 256 wf3)
    (hc1 : (⟨1, ![256]⟩ : Shape).BroadcastsInDim ⟨3, ![1, 1, 256]⟩ ![2])
    (hc2 : (⟨3, ![1, 1, 256]⟩ : Shape).BroadcastsInDim ⟨3, ![N, 2, 256]⟩ ![0, 1, 2])
    (hf1 : (⟨2, ![N, 256]⟩ : Shape).BroadcastsInDim ⟨3, ![N, 1, 256]⟩ ![0, 2])
    (hf2 : (⟨3, ![N, 1, 256]⟩ : Shape).BroadcastsInDim ⟨3, ![N, 2, 256]⟩ ![0, 1, 2])
    (h13 : (⟨0, ![]⟩ : Shape).BroadcastsInDim ⟨3, ![N, 2, 256]⟩ ![])
    (h12 : (⟨0, ![]⟩ : Shape).BroadcastsInDim ⟨2, ![N, 256]⟩ ![])
    (hsI : (⟨2, ![N, 768]⟩ : Shape).Slices ![0, 0] ⟨2, ![N, 256]⟩)
    (hsU : (⟨2, ![N, 768]⟩ : Shape).Slices ![0, 512] ⟨2, ![N, 256]⟩)
    (hR : (⟨3, ![N, 2, 256]⟩ : Shape).ReducesTo [1] ⟨2, ![N, 256]⟩) (hS : 0 < (⟨0, ![]⟩ : Shape).numel) :
    addf (mulf (Host.divf (broadcastInDim ⟨2, ![N, 256]⟩ ![] h12 (constant (F := Ideal) ⟨0, ![]⟩ .f32 0x3F800000#32))
          (addf (broadcastInDim ⟨2, ![N, 256]⟩ ![] h12 (constant (F := Ideal) ⟨0, ![]⟩ .f32 0x3F800000#32))
            (Host.exp (Host.negf (extractStridedSlice ⟨2, ![N, 256]⟩ ![0, 0] IOU hsI)))))
        (Host.tanh (extractStridedSlice ⟨2, ![N, 256]⟩ ![0, 512] IOU hsU)))
      (Host.reduceAdd (mulf (Host.divf (broadcastInDim ⟨3, ![N, 2, 256]⟩ ![] h13 (constant (F := Ideal) ⟨0, ![]⟩ .f32 0x3F800000#32))
          (addf (broadcastInDim ⟨3, ![N, 2, 256]⟩ ![] h13 (constant (F := Ideal) ⟨0, ![]⟩ .f32 0x3F800000#32))
            (Host.exp (Host.negf
              (addf (addf (Host.dotGeneral d3 none ch Wf)
                  (broadcastInDim ⟨3, ![N, 2, 256]⟩ ![0, 1, 2] hc2 (broadcastInDim ⟨3, ![1, 1, 256]⟩ ![2] hc1 bf)))
                (broadcastInDim ⟨3, ![N, 2, 256]⟩ ![0, 1, 2] hf2 (broadcastInDim ⟨3, ![N, 1, 256]⟩ ![0, 2] hf1 fxS)))))))
          cc) (constant (F := Ideal) ⟨0, ![]⟩ .f32 0x00000000#32) hR hS)
      = cellC iouS fxS ch cc Wi bi Wf bf := by
  funext i
  obtain ⟨n, q, rfl⟩ : ∃ (n : Fin N) (q : Fin 256), i = ix2 n q := ⟨i 0, i 1, eq_ix2 i⟩
  rw [cellC_apply, addf_apply, mulf_apply, host_logistic_apply, host_tanh_apply,
    cols_slice_apply IOU hsI n q (colI q) (Nat.zero_add _).symm, cols_slice_apply IOU hsU n q (colU q) rfl, hI, hI,
    reduce_children _ hR hS n q, mulf_apply, mulf_apply,
    sum_form_forget_apply fxS ch Wf bf d3 wf3 hd3 hc1 hc2 hf1 hf2 h13 n 0 q,
    sum_form_forget_apply fxS ch Wf bf d3 wf3 hd3 hc1 hc2 hf1 hf2 h13 n 1 q]

/-- The new hidden state, as a host program spells it. -/
theorem sum_form_cellH (iouS IOU : FVec Ideal ⟨2, ![N, 768]⟩ .f32) (fxS : FVec Ideal ⟨2, ![N, 256]⟩ .f32)
    (ch cc : FVec Ideal ⟨3, ![N, 2, 256]⟩ .f32) (Wi : FVec Ideal ⟨2, ![768, 256]⟩ .f32) (bi : FVec Ideal ⟨1, ![768]⟩ .f32)
    (Wf : FVec Ideal ⟨2, ![256, 256]⟩ .f32) (bf : FVec Ideal ⟨1, ![256]⟩ .f32)
    (hI : ∀ (n : Fin N) (j : Fin 768), IOU (ix2 n j) = gate iouS ch Wi bi n j)
    (Cn : FVec Ideal ⟨2, ![N, 256]⟩ .f32) (hC : Cn = cellC iouS fxS ch cc Wi bi Wf bf)
    (h12 : (⟨0, ![]⟩ : Shape).BroadcastsInDim ⟨2, ![N, 256]⟩ ![])
    (hsO : (⟨2, ![N, 768]⟩ : Shape).Slices ![0, 256] ⟨2, ![N, 256]⟩) :
    mulf (Host.divf (broadcastInDim ⟨2, ![N, 256]⟩ ![] h12 (constant (F := Ideal) ⟨0, ![]⟩ .f32 0x3F800000#32))
          (addf (broadcastInDim ⟨2, ![N, 256]⟩ ![] h12 (constant (F := Ideal) ⟨0, ![]⟩ .f32 0x3F800000#32))
            (Host.exp (Host.negf (extractStridedSlice ⟨2, ![N, 256]⟩ ![0, 256] IOU hsO)))))
        (Host.tanh Cn)
      = cellH iouS fxS ch cc Wi bi Wf bf := by
  subst hC
  funext i
  obtain ⟨n, q, rfl⟩ : ∃ (n : Fin N) (q : Fin 256), i = ix2 n q := ⟨i 0, i 1, eq_ix2 i⟩
  rw [cellH_apply, mulf_apply, host_logistic_apply, host_tanh_apply,
    cols_slice_apply IOU hsO n q (colO q) rfl, hI]

/-! ## One level as a host program spells it with each child's rows cut out -/

/-- Child a's rows: the slice [0:N, a:a+1, 0:C] of the children's array recast to [N, C], read at (n, q). -/
theorem child_rows_apply {C : Nat} (x : FVec Ideal ⟨3, ![N, 2, C]⟩ .f32) (off : Nat)
    (hs : (⟨3, ![N, 2, C]⟩ : Shape).Slices ![0, off, 0] ⟨3, ![N, 1, C]⟩)
    (hc : (⟨3, ![N, 1, C]⟩ : Shape).ShapeCasts ⟨2, ![N, C]⟩) (a : Fin 2) (ha : a.val = off) (n : Fin N) (q : Fin C) :
    shapeCast ⟨2, ![N, C]⟩ (extractStridedSlice ⟨3, ![N, 1, C]⟩ ![0, off, 0] x hs) hc (ix2 n q) = x (ix3 n a q) := by
  rw [Cert.LayoutOps.dropMid]
  exact extractStridedSlice_apply ![0, off, 0] x hs (ix3 n (0 : Fin 1) q) (ix3 n a q) fun c => by
    match c with
    | ⟨0, _⟩ => exact (Nat.zero_add _).symm
    | ⟨1, _⟩ => show a.val = off + 0; omega
    | ⟨2, _⟩ => exact (Nat.zero_add _).symm

/-- A bias row made a one-row array reads, at (n, j) with n the only row, its entry j. -/
theorem one_row_bias_apply {C : Nat} (b : FVec Ideal ⟨1, ![C]⟩ .f32)
    (h1 : (⟨1, ![C]⟩ : Shape).BroadcastsInDim ⟨2, ![1, C]⟩ ![1]) (n : Fin 1) (j : Fin C) :
    broadcastInDim ⟨2, ![1, C]⟩ ![1] h1 b (ix2 n j) = b (ix1 j) :=
  broadcastInDim_apply ![1] h1 b (ix2 n j) (ix1 j) fun a => by
    match a with
    | ⟨0, _⟩ =>
      show j.val = if C = 1 then 0 else j.val
      split
      · have := j.isLt; omega
      · rfl

/-- The gates' pre-activation from the two children's rows added entry by entry. -/
theorem rows_form_gate_apply (iouS : FVec Ideal ⟨2, ![N, 768]⟩ .f32) (ch0 ch1 : FVec Ideal ⟨2, ![N, 256]⟩ .f32)
    (WiT : FVec Ideal ⟨2, ![256, 768]⟩ .f32) (bi : FVec Ideal ⟨1, ![768]⟩ .f32)
    (ch : FVec Ideal ⟨3, ![N, 2, 256]⟩ .f32) (Wi : FVec Ideal ⟨2, ![768, 256]⟩ .f32)
    (h0 : ∀ (n : Fin N) (k : Fin 256), ch0 (ix2 n k) = ch (ix3 n (0 : Fin 2) k))
    (h1 : ∀ (n : Fin N) (k : Fin 256), ch1 (ix2 n k) = ch (ix3 n (1 : Fin 2) k))
    (hW : ∀ (k : Fin 256) (j : Fin 768), WiT (ix2 k j) = Wi (ix2 j k))
    (d : DotDims ⟨2, ![N, 256]⟩ ⟨2, ![256, 768]⟩ ⟨2, ![N, 768]⟩)
    (wf : DotDims.WF ⟨2, ![N, 256]⟩ ⟨2, ![256, 768]⟩ ⟨2, ![N, 768]⟩ [1] [0] [0] [1] [] [])
    (hd : d = Cert.MatOps.plainDot N 256 768 wf)
    (Bi : FVec Ideal ⟨2, ![N, 768]⟩ .f32) (hBi : ∀ (n : Fin N) (j : Fin 768), Bi (ix2 n j) = bi (ix1 j))
    (n : Fin N) (j : Fin 768) :
    addf (addf iouS (Host.dotGeneral d none (addf ch0 ch1) WiT)) Bi (ix2 n j)
      = gate iouS ch Wi bi n j := by
  subst hd
  rw [addf_apply, addf_apply, hBi]
  unfold gate
  refine congrArg (fun z => (iouS (ix2 n j) + z) + bi (ix1 j)) ?_
  refine (Cert.MatOps.dotGeneral_plain_apply wf none _ _ _ n j).trans (Finset.sum_congr rfl fun k _ => ?_)
  rw [addf_apply, h0, h1, hW]

/-- A forget gate from one child's rows. -/
theorem rows_form_forget_apply (fxS : FVec Ideal ⟨2, ![N, 256]⟩ .f32) (cha : FVec Ideal ⟨2, ![N, 256]⟩ .f32)
    (WfT : FVec Ideal ⟨2, ![256, 256]⟩ .f32) (bf : FVec Ideal ⟨1, ![256]⟩ .f32)
    (ch : FVec Ideal ⟨3, ![N, 2, 256]⟩ .f32) (Wf : FVec Ideal ⟨2, ![256, 256]⟩ .f32) (a : Fin 2)
    (ha : ∀ (n : Fin N) (k : Fin 256), cha (ix2 n k) = ch (ix3 n a k))
    (hW : ∀ (k : Fin 256) (q : Fin 256), WfT (ix2 k q) = Wf (ix2 q k))
    (d : DotDims ⟨2, ![N, 256]⟩ ⟨2, ![256, 256]⟩ ⟨2, ![N, 256]⟩)
    (wf : DotDims.WF ⟨2, ![N, 256]⟩ ⟨2, ![256, 256]⟩ ⟨2, ![N, 256]⟩ [1] [0] [0] [1] [] [])
    (hd : d = Cert.MatOps.plainDot N 256 256 wf)
    (Bf : FVec Ideal ⟨2, ![N, 256]⟩ .f32) (hBf : ∀ (n : Fin N) (q : Fin 256), Bf (ix2 n q) = bf (ix1 q))
    (h12 : (⟨0, ![]⟩ : Shape).BroadcastsInDim ⟨2, ![N, 256]⟩ ![]) (n : Fin N) (q : Fin 256) :
    Host.divf (broadcastInDim ⟨2, ![N, 256]⟩ ![] h12 (constant (F := Ideal) ⟨0, ![]⟩ .f32 0x3F800000#32))
        (addf (broadcastInDim ⟨2, ![N, 256]⟩ ![] h12 (constant (F := Ideal) ⟨0, ![]⟩ .f32 0x3F800000#32))
          (Host.exp (Host.negf
            (addf (addf (Host.dotGeneral d none cha WfT) Bf) fxS))))
        (ix2 n q)
      = forget fxS ch Wf bf n a q := by
  subst hd
  rw [host_logistic_apply, addf_apply, addf_apply, hBf]
  unfold forget
  refine congrArg (fun z => Ideal.logistic ((z + bf (ix1 q)) + fxS (ix2 n q))) ?_
  refine (Cert.MatOps.dotGeneral_plain_apply wf none _ _ _ n q).trans (Finset.sum_congr rfl fun k _ => ?_)
  rw [ha, hW]

/-- The new cell state from the two forget gates and the two children's cell rows. -/
theorem rows_form_cellC (iouS IOU : FVec Ideal ⟨2, ![N, 768]⟩ .f32) (fxS : FVec Ideal ⟨2, ![N, 256]⟩ .f32)
    (ch cc : FVec Ideal ⟨3, ![N, 2, 256]⟩ .f32) (Wi : FVec Ideal ⟨2, ![768, 256]⟩ .f32) (bi : FVec Ideal ⟨1, ![768]⟩ .f32)
    (Wf : FVec Ideal ⟨2, ![256, 256]⟩ .f32) (bf : FVec Ideal ⟨1, ![256]⟩ .f32)
    (hI : ∀ (n : Fin N) (j : Fin 768), IOU (ix2 n j) = gate iouS ch Wi bi n j)
    (F0 F1 cc0 cc1 : FVec Ideal ⟨2, ![N, 256]⟩ .f32)
    (hF0 : ∀ (n : Fin N) (q : Fin 256), F0 (ix2 n q) = forget fxS ch Wf bf n 0 q)
    (hF1 : ∀ (n : Fin N) (q : Fin 256), F1 (ix2 n q) = forget fxS ch Wf bf n 1 q)
    (hc0 : ∀ (n : Fin N) (q : Fin 256), cc0 (ix2 n q) = cc (ix3 n (0 : Fin 2) q))
    (hc1 : ∀ (n : Fin N) (q : Fin 256), cc1 (ix2 n q) = cc (ix3 n (1 : Fin 2) q))
    (h12 : (⟨0, ![]⟩ : Shape).BroadcastsInDim ⟨2, ![N, 256]⟩ ![])
    (hsI : (⟨2, ![N, 768]⟩ : Shape).Slices ![0, 0] ⟨2, ![N, 256]⟩)
    (hsU : (⟨2, ![N, 768]⟩ : Shape).Slices ![0, 512] ⟨2, ![N, 256]⟩) :
    addf (mulf (Host.divf (broadcastInDim ⟨2, ![N, 256]⟩ ![] h12 (constant (F := Ideal) ⟨0, ![]⟩ .f32 0x3F800000#32))
          (addf (broadcastInDim ⟨2, ![N, 256]⟩ ![] h12 (constant (F := Ideal) ⟨0, ![]⟩ .f32 0x3F800000#32))
            (Host.exp (Host.negf (extractStridedSlice ⟨2, ![N, 256]⟩ ![0, 0] IOU hsI)))))
        (Host.tanh (extractStridedSlice ⟨2, ![N, 256]⟩ ![0, 512] IOU hsU)))
      (addf (mulf F0 cc0) (mulf F1 cc1))
      = cellC iouS fxS ch cc Wi bi Wf bf := by
  funext i
  obtain ⟨n, q, rfl⟩ : ∃ (n : Fin N) (q : Fin 256), i = ix2 n q := ⟨i 0, i 1, eq_ix2 i⟩
  rw [cellC_apply, addf_apply, mulf_apply, host_logistic_apply, host_tanh_apply,
    cols_slice_apply IOU hsI n q (colI q) (Nat.zero_add _).symm, cols_slice_apply IOU hsU n q (colU q) rfl, hI, hI,
    addf_apply, mulf_apply, mulf_apply, hF0, hF1, hc0, hc1]

/-! ## The second spelling as whole-array functions

A host program that cuts each child's rows out first works with four [N, 256] arrays and receives the weights
transposed and the biases already broadcast to arrays. The definitions below compose its operations in its own
order; the theorems say they are the level's cellC and cellH. -/

section Spellings
variable (iouS : FVec Ideal ⟨2, ![N, 768]⟩ .f32) (fxS : FVec Ideal ⟨2, ![N, 256]⟩ .f32)
  (ch cc : FVec Ideal ⟨3, ![N, 2, 256]⟩ .f32) (Wi : FVec Ideal ⟨2, ![768, 256]⟩ .f32) (bi : FVec Ideal ⟨1, ![768]⟩ .f32)
  (Wf : FVec Ideal ⟨2, ![256, 256]⟩ .f32) (bf : FVec Ideal ⟨1, ![256]⟩ .f32)
  (Bi : FVec Ideal ⟨2, ![N, 768]⟩ .f32) (Bf0 Bf1 : FVec Ideal ⟨2, ![N, 256]⟩ .f32)
  (dI : DotDims ⟨2, ![N, 256]⟩ ⟨2, ![256, 768]⟩ ⟨2, ![N, 768]⟩)
  (h12 : (⟨0, ![]⟩ : Shape).BroadcastsInDim ⟨2, ![N, 256]⟩ ![])
  (hsI : (⟨2, ![N, 768]⟩ : Shape).Slices ![0, 0] ⟨2, ![N, 256]⟩)
  (hsO : (⟨2, ![N, 768]⟩ : Shape).Slices ![0, 256] ⟨2, ![N, 256]⟩)
  (hsU : (⟨2, ![N, 768]⟩ : Shape).Slices ![0, 512] ⟨2, ![N, 256]⟩)

/-- The host's logistic of an [N, 256] array. -/
abbrev hostSig (y : FVec Ideal ⟨2, ![N, 256]⟩ .f32) : FVec Ideal ⟨2, ![N, 256]⟩ .f32 :=
  Host.divf (broadcastInDim ⟨2, ![N, 256]⟩ ![] h12 (constant (F := Ideal) ⟨0, ![]⟩ .f32 0x3F800000#32))
    (addf (broadcastInDim ⟨2, ![N, 256]⟩ ![] h12 (constant (F := Ideal) ⟨0, ![]⟩ .f32 0x3F800000#32)) (Host.exp (Host.negf y)))

section Rows
variable (WiT : FVec Ideal ⟨2, ![256, 768]⟩ .f32) (WfT : FVec Ideal ⟨2, ![256, 256]⟩ .f32)
  (hs0 : (⟨3, ![N, 2, 256]⟩ : Shape).Slices ![0, 0, 0] ⟨3, ![N, 1, 256]⟩)
  (hs1 : (⟨3, ![N, 2, 256]⟩ : Shape).Slices ![0, 1, 0] ⟨3, ![N, 1, 256]⟩)
  (hc : (⟨3, ![N, 1, 256]⟩ : Shape).ShapeCasts ⟨2, ![N, 256]⟩)
  (dF : DotDims ⟨2, ![N, 256]⟩ ⟨2, ![256, 256]⟩ ⟨2, ![N, 256]⟩)

/-- Child 0's and child 1's rows of a children array. -/
abbrev child0 (x : FVec Ideal ⟨3, ![N, 2, 256]⟩ .f32) : FVec Ideal ⟨2, ![N, 256]⟩ .f32 :=
  shapeCast ⟨2, ![N, 256]⟩ (extractStridedSlice ⟨3, ![N, 1, 256]⟩ ![0, 0, 0] x hs0) hc
abbrev child1 (x : FVec Ideal ⟨3, ![N, 2, 256]⟩ .f32) : FVec Ideal ⟨2, ![N, 256]⟩ .f32 :=
  shapeCast ⟨2, ![N, 256]⟩ (extractStridedSlice ⟨3, ![N, 1, 256]⟩ ![0, 1, 0] x hs1) hc

/-- The gates' pre-activation array. -/
def rowsLevelIou : FVec Ideal ⟨2, ![N, 768]⟩ .f32 :=
  addf (addf iouS (Host.dotGeneral dI none (addf (child0 hs0 hc ch) (child1 hs1 hc ch)) WiT)) Bi

/-- The pre-activation of one child's forget gate. -/
abbrev rowsForgetPre (Bf cha : FVec Ideal ⟨2, ![N, 256]⟩ .f32) : FVec Ideal ⟨2, ![N, 256]⟩ .f32 :=
  addf (addf (Host.dotGeneral dF none cha WfT) Bf) fxS

/-- The new cell state. -/
def rowsLevelC : FVec Ideal ⟨2, ![N, 256]⟩ .f32 :=
  addf (mulf (hostSig h12 (extractStridedSlice ⟨2, ![N, 256]⟩ ![0, 0] (rowsLevelIou iouS ch Bi dI WiT hs0 hs1 hc) hsI))
        (Host.tanh (extractStridedSlice ⟨2, ![N, 256]⟩ ![0, 512] (rowsLevelIou iouS ch Bi dI WiT hs0 hs1 hc) hsU)))
    (addf (mulf (hostSig h12 (rowsForgetPre fxS WfT dF Bf0 (child0 hs0 hc ch))) (child0 hs0 hc cc))
      (mulf (hostSig h12 (rowsForgetPre fxS WfT dF Bf1 (child1 hs1 hc ch))) (child1 hs1 hc cc)))

/-- The new hidden state. -/
def rowsLevelH : FVec Ideal ⟨2, ![N, 256]⟩ .f32 :=
  mulf (hostSig h12 (extractStridedSlice ⟨2, ![N, 256]⟩ ![0, 256] (rowsLevelIou iouS ch Bi dI WiT hs0 hs1 hc) hsO))
    (Host.tanh (rowsLevelC iouS fxS ch cc Bi Bf0 Bf1 dI h12 hsI hsU WiT WfT hs0 hs1 hc dF))

variable (wfI : DotDims.WF ⟨2, ![N, 256]⟩ ⟨2, ![256, 768]⟩ ⟨2, ![N, 768]⟩ [1] [0] [0] [1] [] [])
  (hdI : dI = Cert.MatOps.plainDot N 256 768 wfI)
  (wfF : DotDims.WF ⟨2, ![N, 256]⟩ ⟨2, ![256, 256]⟩ ⟨2, ![N, 256]⟩ [1] [0] [0] [1] [] [])
  (hdF : dF = Cert.MatOps.plainDot N 256 256 wfF)
  (hTi : (⟨2, ![768, 256]⟩ : Shape).Transposes [1, 0] ⟨2, ![256, 768]⟩)
  (hTf : (⟨2, ![256, 256]⟩ : Shape).Transposes [1, 0] ⟨2, ![256, 256]⟩)
  (hBi : ∀ (n : Fin N) (j : Fin 768), Bi (ix2 n j) = bi (ix1 j))
  (hBf0 : ∀ (n : Fin N) (q : Fin 256), Bf0 (ix2 n q) = bf (ix1 q))
  (hBf1 : ∀ (n : Fin N) (q : Fin 256), Bf1 (ix2 n q) = bf (ix1 q))

include wfI hdI hBi in
theorem rowsLevelIou_apply (hWi : WiT = transpose ⟨2, ![256, 768]⟩ [1, 0] Wi hTi) (n : Fin N) (j : Fin 768) :
    rowsLevelIou iouS ch Bi dI WiT hs0 hs1 hc (ix2 n j) = gate iouS ch Wi bi n j :=
  rows_form_gate_apply iouS _ _ WiT bi ch Wi
    (fun n k => child_rows_apply ch 0 hs0 hc 0 rfl n k) (fun n k => child_rows_apply ch 1 hs1 hc 1 rfl n k)
    (fun k j => by rw [hWi]; exact transpose_pair_apply Wi hTi k j) dI wfI hdI Bi hBi n j

include wfI hdI wfF hdF hBi hBf0 hBf1 in
theorem rowsLevelC_eq (hWi : WiT = transpose ⟨2, ![256, 768]⟩ [1, 0] Wi hTi)
    (hWf : WfT = transpose ⟨2, ![256, 256]⟩ [1, 0] Wf hTf) :
    rowsLevelC iouS fxS ch cc Bi Bf0 Bf1 dI h12 hsI hsU WiT WfT hs0 hs1 hc dF = cellC iouS fxS ch cc Wi bi Wf bf :=
  rows_form_cellC iouS _ fxS ch cc Wi bi Wf bf
    (rowsLevelIou_apply iouS ch Wi bi Bi dI WiT hs0 hs1 hc wfI hdI hTi hBi hWi) _ _ _ _
    (fun n q => rows_form_forget_apply fxS _ WfT bf ch Wf 0 (fun n k => child_rows_apply ch 0 hs0 hc 0 rfl n k)
      (fun k q => by rw [hWf]; exact transpose_pair_apply Wf hTf k q) dF wfF hdF Bf0 hBf0 h12 n q)
    (fun n q => rows_form_forget_apply fxS _ WfT bf ch Wf 1 (fun n k => child_rows_apply ch 1 hs1 hc 1 rfl n k)
      (fun k q => by rw [hWf]; exact transpose_pair_apply Wf hTf k q) dF wfF hdF Bf1 hBf1 h12 n q)
    (fun n q => child_rows_apply cc 0 hs0 hc 0 rfl n q) (fun n q => child_rows_apply cc 1 hs1 hc 1 rfl n q) h12 hsI hsU

include wfI hdI wfF hdF hBi hBf0 hBf1 in
theorem rowsLevelH_eq (hWi : WiT = transpose ⟨2, ![256, 768]⟩ [1, 0] Wi hTi)
    (hWf : WfT = transpose ⟨2, ![256, 256]⟩ [1, 0] Wf hTf) :
    rowsLevelH iouS fxS ch cc Bi Bf0 Bf1 dI h12 hsI hsO hsU WiT WfT hs0 hs1 hc dF = cellH iouS fxS ch cc Wi bi Wf bf :=
  sum_form_cellH iouS _ fxS ch cc Wi bi Wf bf
    (rowsLevelIou_apply iouS ch Wi bi Bi dI WiT hs0 hs1 hc wfI hdI hTi hBi hWi) _
    (rowsLevelC_eq iouS fxS ch cc Wi bi Wf bf Bi Bf0 Bf1 dI h12 hsI hsU WiT WfT hs0 hs1 hc dF wfI hdI wfF hdF hTi hTf
      hBi hBf0 hBf1 hWi hWf)
    h12 hsO

end Rows
end Spellings

/-! ## The leaves and the input projection -/

/-- Row n of X times row j of W plus b(j): the input projection  X · Wᵀ + b  at (n, j). -/
def proj {M K C : Nat} (X : FVec Ideal ⟨2, ![M, K]⟩ .f32) (W : FVec Ideal ⟨2, ![C, K]⟩ .f32) (b : FVec Ideal ⟨1, ![C]⟩ .f32)
    (n : Fin M) (j : Fin C) : EReal :=
  (∑ k : Fin K, X (ix2 n k) * W (ix2 j k)) + b (ix1 j)

/-- The host's spelling of the projection: the product with the transposed weights plus the bias row broadcast down. -/
theorem host_proj_apply {M K C : Nat} (X : FVec Ideal ⟨2, ![M, K]⟩ .f32) (W : FVec Ideal ⟨2, ![C, K]⟩ .f32)
    (b : FVec Ideal ⟨1, ![C]⟩ .f32)
    (d : DotDims ⟨2, ![M, K]⟩ ⟨2, ![K, C]⟩ ⟨2, ![M, C]⟩)
    (wf : DotDims.WF ⟨2, ![M, K]⟩ ⟨2, ![K, C]⟩ ⟨2, ![M, C]⟩ [1] [0] [0] [1] [] []) (hd : d = Cert.MatOps.plainDot M K C wf)
    (hT : (⟨2, ![C, K]⟩ : Shape).Transposes [1, 0] ⟨2, ![K, C]⟩)
    (hb1 : (⟨1, ![C]⟩ : Shape).BroadcastsInDim ⟨2, ![1, C]⟩ ![1])
    (hb2 : (⟨2, ![1, C]⟩ : Shape).BroadcastsInDim ⟨2, ![M, C]⟩ ![0, 1]) (n : Fin M) (j : Fin C) :
    addf (Host.dotGeneral d none X (transpose ⟨2, ![K, C]⟩ [1, 0] W hT))
        (broadcastInDim ⟨2, ![M, C]⟩ ![0, 1] hb2 (broadcastInDim ⟨2, ![1, C]⟩ ![1] hb1 b)) (ix2 n j)
      = proj X W b n j := by
  subst hd
  rw [addf_apply, Cert.LayerForms.row_then_down b hb1 hb2 n j]
  unfold proj
  refine congrArg (fun z => z + b (ix1 j)) ?_
  refine (Cert.MatOps.dotGeneral_plain_apply wf none _ _ _ n j).trans (Finset.sum_congr rfl fun k _ => ?_)
  rw [transpose_pair_apply W hT k j]

/-- A leaf's cell and hidden state from its gates' pre-activation g(n, ·): no children, so
    c = σ(g_i) · tanh(g_u)  and  h = σ(g_o) · tanh(c). -/
def leafC (g : Fin N → Fin 768 → EReal) : FVec Ideal ⟨2, ![N, 256]⟩ .f32 :=
  fun i => Ideal.logistic (g (i 0 : Fin N) (colI (i 1 : Fin 256))) * Ideal.tanh (g (i 0 : Fin N) (colU (i 1 : Fin 256)))

def leafH (g : Fin N → Fin 768 → EReal) : FVec Ideal ⟨2, ![N, 256]⟩ .f32 :=
  fun i => Ideal.logistic (g (i 0 : Fin N) (colO (i 1 : Fin 256))) * Ideal.tanh (leafC g i)

/-- The host's spelling of the leaves' cell state: the product of the two activations plus an array of zeros. -/
theorem host_leafC (IOU : FVec Ideal ⟨2, ![N, 768]⟩ .f32) (g : Fin N → Fin 768 → EReal)
    (hI : ∀ (n : Fin N) (j : Fin 768), IOU (ix2 n j) = g n j)
    (h12 : (⟨0, ![]⟩ : Shape).BroadcastsInDim ⟨2, ![N, 256]⟩ ![])
    (hsI : (⟨2, ![N, 768]⟩ : Shape).Slices ![0, 0] ⟨2, ![N, 256]⟩)
    (hsU : (⟨2, ![N, 768]⟩ : Shape).Slices ![0, 512] ⟨2, ![N, 256]⟩) :
    addf (mulf (Host.divf (broadcastInDim ⟨2, ![N, 256]⟩ ![] h12 (constant (F := Ideal) ⟨0, ![]⟩ .f32 0x3F800000#32))
          (addf (broadcastInDim ⟨2, ![N, 256]⟩ ![] h12 (constant (F := Ideal) ⟨0, ![]⟩ .f32 0x3F800000#32))
            (Host.exp (Host.negf (extractStridedSlice ⟨2, ![N, 256]⟩ ![0, 0] IOU hsI)))))
        (Host.tanh (extractStridedSlice ⟨2, ![N, 256]⟩ ![0, 512] IOU hsU)))
      (broadcastInDim ⟨2, ![N, 256]⟩ ![] h12 (constant (F := Ideal) ⟨0, ![]⟩ .f32 0x00000000#32))
      = leafC g := by
  funext i
  obtain ⟨n, q, rfl⟩ : ∃ (n : Fin N) (q : Fin 256), i = ix2 n q := ⟨i 0, i 1, eq_ix2 i⟩
  rw [addf_apply, mulf_apply, host_logistic_apply, host_tanh_apply,
    cols_slice_apply IOU hsI n q (colI q) (Nat.zero_add _).symm, cols_slice_apply IOU hsU n q (colU q) rfl, hI, hI,
    broadcastInDim_apply ![] h12 _ (ix2 n q) ix0 (fun a => a.elim0)]
  show _ + Ideal.ofBits .f32 0x00000000#32 = _
  rw [zero_f32, add_zero]
  rfl

/-- The host's spelling of the leaves' hidden state. -/
theorem host_leafH (IOU : FVec Ideal ⟨2, ![N, 768]⟩ .f32) (g : Fin N → Fin 768 → EReal)
    (hI : ∀ (n : Fin N) (j : Fin 768), IOU (ix2 n j) = g n j)
    (Cn : FVec Ideal ⟨2, ![N, 256]⟩ .f32) (hC : Cn = leafC g)
    (h12 : (⟨0, ![]⟩ : Shape).BroadcastsInDim ⟨2, ![N, 256]⟩ ![])
    (hsO : (⟨2, ![N, 768]⟩ : Shape).Slices ![0, 256] ⟨2, ![N, 256]⟩) :
    mulf (Host.divf (broadcastInDim ⟨2, ![N, 256]⟩ ![] h12 (constant (F := Ideal) ⟨0, ![]⟩ .f32 0x3F800000#32))
          (addf (broadcastInDim ⟨2, ![N, 256]⟩ ![] h12 (constant (F := Ideal) ⟨0, ![]⟩ .f32 0x3F800000#32))
            (Host.exp (Host.negf (extractStridedSlice ⟨2, ![N, 256]⟩ ![0, 256] IOU hsO)))))
        (Host.tanh Cn)
      = leafH g := by
  subst hC
  funext i
  obtain ⟨n, q, rfl⟩ : ∃ (n : Fin N) (q : Fin 256), i = ix2 n q := ⟨i 0, i 1, eq_ix2 i⟩
  rw [mulf_apply, host_logistic_apply, host_tanh_apply, cols_slice_apply IOU hsO n q (colO q) rfl, hI]
  rfl

/-! ## A level inside the whole tree

The tree's T = 131071 nodes sit in heap order in arrays [T, 256]: level l is the 2^l rows from row 2^l - 1, and its
children are the 2^(l+1) rows from row 2^(l+1) - 1, two consecutive rows per node. One step of the upward pass reads
the children's rows of the two state arrays, viewed as [N, 2, 256], and writes the level's new rows into both. -/

/-- Rows off … off + N - 1 of the input projection  X · Wᵀ + b. -/
def projRows {T K C : Nat} (X : FVec Ideal ⟨2, ![T, K]⟩ .f32) (W : FVec Ideal ⟨2, ![C, K]⟩ .f32) (b : FVec Ideal ⟨1, ![C]⟩ .f32)
    (off : Nat) (hN : off + N ≤ T) : FVec Ideal ⟨2, ![N, C]⟩ .f32 :=
  fun i => proj X W b (⟨off + (i 0 : Fin N).val, by have h : (i 0 : Fin N).val < N := (i 0 : Fin N).isLt; omega⟩ : Fin T) (i 1 : Fin C)

/-- A block of rows of an array that is the projection on the rows it is read at, is those rows of the projection. -/
theorem rows_slice_eq_projRows {T T' K C : Nat} (X : FVec Ideal ⟨2, ![T, K]⟩ .f32) (W : FVec Ideal ⟨2, ![C, K]⟩ .f32)
    (b : FVec Ideal ⟨1, ![C]⟩ .f32) (A : FVec Ideal ⟨2, ![T', C]⟩ .f32) (off : Nat) (hN : off + N ≤ T)
    (h : (⟨2, ![T', C]⟩ : Shape).Slices ![off, 0] ⟨2, ![N, C]⟩)
    (hA : ∀ (r : Fin T') (j : Fin C) (hr : r.val < T), A (ix2 r j) = proj X W b ⟨r.val, hr⟩ j) :
    extractStridedSlice ⟨2, ![N, C]⟩ ![off, 0] A h = projRows X W b off hN := by
  funext i
  obtain ⟨n, j, rfl⟩ : ∃ (n : Fin N) (j : Fin C), i = ix2 n j := ⟨i 0, i 1, eq_ix2 i⟩
  have hT' : off + n.val < T' := by
    have := h.2 (0 : Fin 2)
    have e : off + N ≤ T' := this
    have := n.isLt; omega
  rw [rows_slice_apply A h n j ⟨off + n.val, hT'⟩ rfl, hA _ j (by show off + n.val < T; have := n.isLt; omega)]
  rfl

section Step
variable {T M : Nat} (X : FVec Ideal ⟨2, ![T, 256]⟩ .f32) (Wx : FVec Ideal ⟨2, ![768, 256]⟩ .f32) (bx : FVec Ideal ⟨1, ![768]⟩ .f32)
  (Wfx : FVec Ideal ⟨2, ![256, 256]⟩ .f32) (bfx : FVec Ideal ⟨1, ![256]⟩ .f32)
  (Wi : FVec Ideal ⟨2, ![768, 256]⟩ .f32) (bi : FVec Ideal ⟨1, ![768]⟩ .f32)
  (Wf : FVec Ideal ⟨2, ![256, 256]⟩ .f32) (bf : FVec Ideal ⟨1, ![256]⟩ .f32)
  (off poff : Nat) (hN : off + N ≤ T)
  (hs : (⟨2, ![T, 256]⟩ : Shape).Slices ![poff, 0] ⟨2, ![M, 256]⟩)
  (hc : (⟨2, ![M, 256]⟩ : Shape).ShapeCasts ⟨3, ![N, 2, 256]⟩)

/-- The children's rows of a state array, two per node. -/
abbrev childrenOf (S : FVec Ideal ⟨2, ![T, 256]⟩ .f32) : FVec Ideal ⟨3, ![N, 2, 256]⟩ .f32 :=
  shapeCast ⟨3, ![N, 2, 256]⟩ (extractStridedSlice ⟨2, ![M, 256]⟩ ![poff, 0] S hs) hc

/-- The level's new cell rows and hidden rows from the two state arrays. -/
def stepC (C H : FVec Ideal ⟨2, ![T, 256]⟩ .f32) : FVec Ideal ⟨2, ![N, 256]⟩ .f32 :=
  cellC (projRows X Wx bx off hN) (projRows X Wfx bfx off hN) (childrenOf poff hs hc H) (childrenOf poff hs hc C) Wi bi Wf bf
def stepH (C H : FVec Ideal ⟨2, ![T, 256]⟩ .f32) : FVec Ideal ⟨2, ![N, 256]⟩ .f32 :=
  cellH (projRows X Wx bx off hN) (projRows X Wfx bfx off hN) (childrenOf poff hs hc H) (childrenOf poff hs hc C) Wi bi Wf bf

end Step

end

end Cert.TreeCell

end
-- ==== Proof.LibTreeCellDevice.lean ====
/-
  ONE LEVEL OF A CHILD-SUM TREE LSTM AS A DEVICE BODY SPELLS IT ON A BLOCK OF ROWS.

  The body holds a block of M nodes: the gates' input projection [M, 768], the forget gates' [M, 256], and the two
  children's hidden and cell states as four slabs [M, 1, 256]. It recasts each slab to [M, 256], rounds the matrix
  operands to the short float format (the identity on exact values), multiplies on the matrix unit into zeros,
  broadcasts the one-row biases down the block and applies the device's logistic and tanh. Entry by entry that is
  the level's cellC and cellH (LibTreeCell) of the block, whatever M. A second fact: the cell functions look at one
  node's row only, so a block of rows of a level is the level of the blocks.
-/
import Idealize.ShloMosaic.PureOps.Ideal.Laws
import Idealize.ShloMosaic.Lib.ValueIdx
import Idealize.ShloMosaic.Lib.ValueLayout
import Idealize.ShloMosaic.Lib.Pipeline.Value
import proofs.«176519_j24352464569160_2_alg».proof.Proof.LibMatOps
import proofs.«176519_j24352464569160_2_alg».proof.Proof.LibLayoutOps
import proofs.«176519_j24352464569160_2_alg».proof.Proof.LibDeviceDense
import proofs.«176519_j24352464569160_2_alg».proof.Proof.LibTreeCell

noncomputable section

open scoped BigOperators

namespace Cert.TreeCell

open Idealize.ShloMosaic Idealize.ShloMosaic.ValueIdx

section
variable {M : Nat}

/-- The device's logistic and tanh, entry by entry. -/
theorem logistic_apply {s : Shape} (x : FVec Ideal s .f32) (i : s.Idx) : logistic x i = Ideal.logistic (x i) := rfl
theorem tanh_apply {s : Shape} (x : FVec Ideal s .f32) (i : s.Idx) : tanh x i = Ideal.tanh (x i) := rfl

/-- A one-row array broadcast down M rows reads, at (p, j), the row's entry j. -/
theorem broadcastTo_row_apply {C : Nat} (b : FVec Ideal ⟨2, ![1, C]⟩ .f32)
    (h : (⟨2, ![1, C]⟩ : Shape).Broadcasts ⟨2, ![M, C]⟩) (p : Fin M) (j : Fin C) :
    broadcastTo ⟨2, ![M, C]⟩ b h (ix2 p j) = b (ix2 (0 : Fin 1) j) := by
  refine broadcastTo_apply b h (ix2 p j) (ix2 (0 : Fin 1) j) fun a => ?_
  match a with
  | ⟨0, _⟩ => rfl
  | ⟨1, _⟩ =>
    show j.val = if C = 1 then 0 else j.val
    split
    · have := j.isLt; omega
    · rfl

/-- An affine step on a block as the device spells it: both operands recast and rounded, the product into zeros, the
    one-row bias broadcast down the block. -/
theorem device_affine_apply {K C : Nat} (X : FVec Ideal ⟨2, ![M, K]⟩ .f32) (WT : FVec Ideal ⟨2, ![K, C]⟩ .f32)
    (B : FVec Ideal ⟨2, ![1, C]⟩ .f32)
    (d : DotDims ⟨2, ![M, K]⟩ ⟨2, ![K, C]⟩ ⟨2, ![M, C]⟩)
    (wf : DotDims.WF ⟨2, ![M, K]⟩ ⟨2, ![K, C]⟩ ⟨2, ![M, C]⟩ [1] [0] [0] [1] [] [])
    (hd : d = Cert.MatOps.plainDot M K C wf) (hlt : FTy.bits .bf16 < FTy.bits .f32)
    (hcX : (⟨2, ![M, K]⟩ : Shape).ShapeCasts ⟨2, ![M, K]⟩) (hcW : (⟨2, ![K, C]⟩ : Shape).ShapeCasts ⟨2, ![K, C]⟩)
    (hcB : (⟨2, ![1, C]⟩ : Shape).ShapeCasts ⟨2, ![1, C]⟩)
    (hbr : (⟨2, ![1, C]⟩ : Shape).Broadcasts ⟨2, ![M, C]⟩) (p : Fin M) (j : Fin C) :
    addf (matmul d none (truncf .bf16 (shapeCast ⟨2, ![M, K]⟩ X hcX) hlt) (truncf .bf16 (shapeCast ⟨2, ![K, C]⟩ WT hcW) hlt)
          (constant ⟨2, ![M, C]⟩ .f32 0x00000000#32))
        (broadcastTo ⟨2, ![M, C]⟩ (shapeCast ⟨2, ![1, C]⟩ B hcB) hbr) (ix2 p j)
      = (∑ k : Fin K, X (ix2 p k) * WT (ix2 k j)) + B (ix2 (0 : Fin 1) j) := by
  rw [addf_apply, broadcastTo_row_apply, shapeCast_self, shapeCast_self, shapeCast_self]
  have hm := Cert.DeviceDense.matmul_trunc_apply wf d hd hlt X WT p j
  rw [show matmul d none (truncf .bf16 X hlt) (truncf .bf16 WT hlt) (constant ⟨2, ![M, C]⟩ .f32 0x00000000#32) (ix2 p j) = _
    from hm]

/-- The leaves' cell and hidden state on a block, as the device spells them from the gates' array. -/
theorem device_leafC (G : FVec Ideal ⟨2, ![M, 768]⟩ .f32) (g : Fin M → Fin 768 → EReal)
    (hG : ∀ (p : Fin M) (j : Fin 768), G (ix2 p j) = g p j)
    (hsI : (⟨2, ![M, 768]⟩ : Shape).Slices ![0, 0] ⟨2, ![M, 256]⟩)
    (hsU : (⟨2, ![M, 768]⟩ : Shape).Slices ![0, 512] ⟨2, ![M, 256]⟩) :
    mulf (logistic (extractStridedSlice ⟨2, ![M, 256]⟩ ![0, 0] G hsI)) (tanh (extractStridedSlice ⟨2, ![M, 256]⟩ ![0, 512] G hsU))
      = leafC g := by
  funext i
  obtain ⟨p, q, rfl⟩ : ∃ (p : Fin M) (q : Fin 256), i = ix2 p q := ⟨i 0, i 1, eq_ix2 i⟩
  rw [mulf_apply, logistic_apply, tanh_apply, cols_slice_apply G hsI p q (colI q) (Nat.zero_add _).symm,
    cols_slice_apply G hsU p q (colU q) rfl, hG, hG]
  rfl

theorem device_leafH (G : FVec Ideal ⟨2, ![M, 768]⟩ .f32) (g : Fin M → Fin 768 → EReal)
    (hG : ∀ (p : Fin M) (j : Fin 768), G (ix2 p j) = g p j) (Cn : FVec Ideal ⟨2, ![M, 256]⟩ .f32) (hC : Cn = leafC g)
    (hsO : (⟨2, ![M, 768]⟩ : Shape).Slices ![0, 256] ⟨2, ![M, 256]⟩) :
    mulf (logistic (extractStridedSlice ⟨2, ![M, 256]⟩ ![0, 256] G hsO)) (tanh Cn) = leafH g := by
  subst hC
  funext i
  obtain ⟨p, q, rfl⟩ : ∃ (p : Fin M) (q : Fin 256), i = ix2 p q := ⟨i 0, i 1, eq_ix2 i⟩
  rw [mulf_apply, logistic_apply, tanh_apply, cols_slice_apply G hsO p q (colO q) rfl, hG]
  rfl

/-- The gates' pre-activation on a block, as the device spells it. -/
theorem device_gate_apply (IOU : FVec Ideal ⟨2, ![M, 768]⟩ .f32) (A0 A1 : FVec Ideal ⟨3, ![M, 1, 256]⟩ .f32)
    (WiT : FVec Ideal ⟨2, ![256, 768]⟩ .f32) (B5 : FVec Ideal ⟨2, ![1, 768]⟩ .f32)
    (ch : FVec Ideal ⟨3, ![M, 2, 256]⟩ .f32) (Wi : FVec Ideal ⟨2, ![768, 256]⟩ .f32) (bi : FVec Ideal ⟨1, ![768]⟩ .f32)
    (hA0 : ∀ (p : Fin M) (k : Fin 256), A0 (ix3 p (0 : Fin 1) k) = ch (ix3 p (0 : Fin 2) k))
    (hA1 : ∀ (p : Fin M) (k : Fin 256), A1 (ix3 p (0 : Fin 1) k) = ch (ix3 p (1 : Fin 2) k))
    (hW : ∀ (k : Fin 256) (j : Fin 768), WiT (ix2 k j) = Wi (ix2 j k))
    (hB : ∀ j : Fin 768, B5 (ix2 (0 : Fin 1) j) = bi (ix1 j))
    (d : DotDims ⟨2, ![M, 256]⟩ ⟨2, ![256, 768]⟩ ⟨2, ![M, 768]⟩)
    (wf : DotDims.WF ⟨2, ![M, 256]⟩ ⟨2, ![256, 768]⟩ ⟨2, ![M, 768]⟩ [1] [0] [0] [1] [] [])
    (hd : d = Cert.MatOps.plainDot M 256 768 wf) (hlt : FTy.bits .bf16 < FTy.bits .f32)
    (hcA : (⟨3, ![M, 1, 256]⟩ : Shape).ShapeCasts ⟨2, ![M, 256]⟩)
    (hcW : (⟨2, ![256, 768]⟩ : Shape).ShapeCasts ⟨2, ![256, 768]⟩)
    (hcI : (⟨2, ![M, 768]⟩ : Shape).ShapeCasts ⟨2, ![M, 768]⟩)
    (hcB : (⟨2, ![1, 768]⟩ : Shape).ShapeCasts ⟨2, ![1, 768]⟩)
    (hbr : (⟨2, ![1, 768]⟩ : Shape).Broadcasts ⟨2, ![M, 768]⟩) (p : Fin M) (j : Fin 768) :
    addf (addf (shapeCast ⟨2, ![M, 768]⟩ IOU hcI)
          (matmul d none (truncf .bf16 (addf (shapeCast ⟨2, ![M, 256]⟩ A0 hcA) (shapeCast ⟨2, ![M, 256]⟩ A1 hcA)) hlt)
            (truncf .bf16 (shapeCast ⟨2, ![256, 768]⟩ WiT hcW) hlt) (constant ⟨2, ![M, 768]⟩ .f32 0x00000000#32)))
        (broadcastTo ⟨2, ![M, 768]⟩ (shapeCast ⟨2, ![1, 768]⟩ B5 hcB) hbr) (ix2 p j)
      = gate IOU ch Wi bi p j := by
  rw [addf_apply, addf_apply, shapeCast_self, shapeCast_self, broadcastTo_row_apply, shapeCast_self, hB]
  have hm := Cert.DeviceDense.matmul_trunc_apply wf d hd hlt
    (addf (shapeCast ⟨2, ![M, 256]⟩ A0 hcA) (shapeCast ⟨2, ![M, 256]⟩ A1 hcA)) WiT p j
  rw [show matmul d none (truncf .bf16 (addf (shapeCast ⟨2, ![M, 256]⟩ A0 hcA) (shapeCast ⟨2, ![M, 256]⟩ A1 hcA)) hlt)
      (truncf .bf16 WiT hlt) (constant ⟨2, ![M, 768]⟩ .f32 0x00000000#32) (ix2 p j) = _ from hm]
  unfold gate
  refine congrArg (fun z => (IOU (ix2 p j) + z) + bi (ix1 j)) (Finset.sum_congr rfl fun k _ => ?_)
  rw [addf_apply, Cert.LayoutOps.dropMid, Cert.LayoutOps.dropMid, hA0, hA1, hW]

/-- One child's forget gate on a block, as the device spells it. -/
theorem device_forget_apply (FX : FVec Ideal ⟨2, ![M, 256]⟩ .f32) (Aa : FVec Ideal ⟨3, ![M, 1, 256]⟩ .f32)
    (WfT : FVec Ideal ⟨2, ![256, 256]⟩ .f32) (B7 : FVec Ideal ⟨2, ![1, 256]⟩ .f32)
    (ch : FVec Ideal ⟨3, ![M, 2, 256]⟩ .f32) (Wf : FVec Ideal ⟨2, ![256, 256]⟩ .f32) (bf : FVec Ideal ⟨1, ![256]⟩ .f32) (a : Fin 2)
    (hA : ∀ (p : Fin M) (k : Fin 256), Aa (ix3 p (0 : Fin 1) k) = ch (ix3 p a k))
    (hW : ∀ (k : Fin 256) (q : Fin 256), WfT (ix2 k q) = Wf (ix2 q k))
    (hB : ∀ q : Fin 256, B7 (ix2 (0 : Fin 1) q) = bf (ix1 q))
    (d : DotDims ⟨2, ![M, 256]⟩ ⟨2, ![256, 256]⟩ ⟨2, ![M, 256]⟩)
    (wf : DotDims.WF ⟨2, ![M, 256]⟩ ⟨2, ![256, 256]⟩ ⟨2, ![M, 256]⟩ [1] [0] [0] [1] [] [])
    (hd : d = Cert.MatOps.plainDot M 256 256 wf) (hlt : FTy.bits .bf16 < FTy.bits .f32)
    (hcA : (⟨3, ![M, 1, 256]⟩ : Shape).ShapeCasts ⟨2, ![M, 256]⟩)
    (hcW : (⟨2, ![256, 256]⟩ : Shape).ShapeCasts ⟨2, ![256, 256]⟩)
    (hcF : (⟨2, ![M, 256]⟩ : Shape).ShapeCasts ⟨2, ![M, 256]⟩)
    (hcB : (⟨2, ![1, 256]⟩ : Shape).ShapeCasts ⟨2, ![1, 256]⟩)
    (hbr : (⟨2, ![1, 256]⟩ : Shape).Broadcasts ⟨2, ![M, 256]⟩) (p : Fin M) (q : Fin 256) :
    logistic (addf (addf (matmul d none (truncf .bf16 (shapeCast ⟨2, ![M, 256]⟩ Aa hcA) hlt)
            (truncf .bf16 (shapeCast ⟨2, ![256, 256]⟩ WfT hcW) hlt) (constant ⟨2, ![M, 256]⟩ .f32 0x00000000#32))
          (broadcastTo ⟨2, ![M, 256]⟩ (shapeCast ⟨2, ![1, 256]⟩ B7 hcB) hbr))
        (shapeCast ⟨2, ![M, 256]⟩ FX hcF)) (ix2 p q)
      = forget FX ch Wf bf p a q := by
  rw [logistic_apply, addf_apply, addf_apply, shapeCast_self, broadcastTo_row_apply, shapeCast_self, hB, shapeCast_self]
  have hm := Cert.DeviceDense.matmul_trunc_apply wf d hd hlt (shapeCast ⟨2, ![M, 256]⟩ Aa hcA) WfT p q
  rw [show matmul d none (truncf .bf16 (shapeCast ⟨2, ![M, 256]⟩ Aa hcA) hlt)
      (truncf .bf16 WfT hlt) (constant ⟨2, ![M, 256]⟩ .f32 0x00000000#32) (ix2 p q) = _ from hm]
  unfold forget
  refine congrArg (fun z => Ideal.logistic ((z + bf (ix1 q)) + FX (ix2 p q))) (Finset.sum_congr rfl fun k _ => ?_)
  rw [Cert.LayoutOps.dropMid, hA, hW]

/-- A block of rows of a level is the level of the blocks: cellC and cellH at row e p of the level's arrays are those of
    any arrays whose row p is that row. -/
theorem cellC_rows {N : Nat} (e : Fin M → Fin N)
    (iou : FVec Ideal ⟨2, ![N, 768]⟩ .f32) (fx : FVec Ideal ⟨2, ![N, 256]⟩ .f32) (ch cc : FVec Ideal ⟨3, ![N, 2, 256]⟩ .f32)
    (iou' : FVec Ideal ⟨2, ![M, 768]⟩ .f32) (fx' : FVec Ideal ⟨2, ![M, 256]⟩ .f32) (ch' cc' : FVec Ideal ⟨3, ![M, 2, 256]⟩ .f32)
    (Wi : FVec Ideal ⟨2, ![768, 256]⟩ .f32) (bi : FVec Ideal ⟨1, ![768]⟩ .f32)
    (Wf : FVec Ideal ⟨2, ![256, 256]⟩ .f32) (bf : FVec Ideal ⟨1, ![256]⟩ .f32)
    (h0 : ∀ (p : Fin M) (j : Fin 768), iou' (ix2 p j) = iou (ix2 (e p) j))
    (h3 : ∀ (p : Fin M) (q : Fin 256), fx' (ix2 p q) = fx (ix2 (e p) q))
    (h1 : ∀ (p : Fin M) (a : Fin 2) (k : Fin 256), ch' (ix3 p a k) = ch (ix3 (e p) a k))
    (h2 : ∀ (p : Fin M) (a : Fin 2) (k : Fin 256), cc' (ix3 p a k) = cc (ix3 (e p) a k)) (p : Fin M) (q : Fin 256) :
    cellC iou' fx' ch' cc' Wi bi Wf bf (ix2 p q) = cellC iou fx ch cc Wi bi Wf bf (ix2 (e p) q) := by
  simp only [cellC_apply, gate, forget, h0, h3, h1, h2]

theorem cellH_rows {N : Nat} (e : Fin M → Fin N)
    (iou : FVec Ideal ⟨2, ![N, 768]⟩ .f32) (fx : FVec Ideal ⟨2, ![N, 256]⟩ .f32) (ch cc : FVec Ideal ⟨3, ![N, 2, 256]⟩ .f32)
    (iou' : FVec Ideal ⟨2, ![M, 768]⟩ .f32) (fx' : FVec Ideal ⟨2, ![M, 256]⟩ .f32) (ch' cc' : FVec Ideal ⟨3, ![M, 2, 256]⟩ .f32)
    (Wi : FVec Ideal ⟨2, ![768, 256]⟩ .f32) (bi : FVec Ideal ⟨1, ![768]⟩ .f32)
    (Wf : FVec Ideal ⟨2, ![256, 256]⟩ .f32) (bf : FVec Ideal ⟨1, ![256]⟩ .f32)
    (h0 : ∀ (p : Fin M) (j : Fin 768), iou' (ix2 p j) = iou (ix2 (e p) j))
    (h3 : ∀ (p : Fin M) (q : Fin 256), fx' (ix2 p q) = fx (ix2 (e p) q))
    (h1 : ∀ (p : Fin M) (a : Fin 2) (k : Fin 256), ch' (ix3 p a k) = ch (ix3 (e p) a k))
    (h2 : ∀ (p : Fin M) (a : Fin 2) (k : Fin 256), cc' (ix3 p a k) = cc (ix3 (e p) a k)) (p : Fin M) (q : Fin 256) :
    cellH iou' fx' ch' cc' Wi bi Wf bf (ix2 p q) = cellH iou fx ch cc Wi bi Wf bf (ix2 (e p) q) := by
  simp only [cellH_apply, cellC_apply, gate, forget, h0, h3, h1, h2]

end

end Cert.TreeCell

end
-- ==== Proof.DevicePay.lean ====
/-
  WHAT EACH DEVICE BODY COMPUTES ON A BLOCK OF 1024 ROWS.

  The projection body multiplies a block of node features by the stacked, transposed input weights and adds the stacked
  bias row; its two outputs are the first 768 and the last 256 columns. The leaf body does the same with the gates'
  weights only and applies the leaves' cell and hidden formulas. The six inner-level bodies are one text: the level's
  cell and hidden state (LibTreeCell: cellC, cellH) of the block.
-/
import proofs.«176519_j24352464569160_2_alg».proof.Proof.Gen.KernelIdeal.Skeleton
import proofs.«176519_j24352464569160_2_alg».proof.Proof.LibTreeCellDevice

set_option maxRecDepth 16384

noncomputable section

namespace Cert.KernelIdeal.TreeDevice

open Cert.KernelIdeal Cert.KernelIdeal.Gen Cert.TreeCell
open Idealize.ShloMosaic Idealize.ShloMosaic.ValueIdx

/-- The projection body's product-plus-bias at (p, j), j < 1024. -/
theorem pay0_apply (v0 : Vec Ideal S1024x256 .f32) (v3 : Vec Ideal S256x1024 .f32) (v7 : Vec Ideal S1x1024 .f32)
    (p : Fin 1024) (j : Fin 1024) :
    k0_pay1 v0 v3 v7 (ix2 p j) = (∑ k : Fin 256, v0 (ix2 p k) * v3 (ix2 k j)) + v7 (ix2 (0 : Fin 1) j) :=
  device_affine_apply v0 v3 v7 dot_S1024x256_S256x1024_S1024x1024_1_0_0_1_n_n _ rfl bitsLt_bf16_f32 _ _ _ _ p j

theorem pay0_iou (v0 : Vec Ideal S1024x256 .f32) (v3 : Vec Ideal S256x1024 .f32) (v7 : Vec Ideal S1x1024 .f32)
    (p : Fin 1024) (j : Fin 768) :
    k0_pay2 v0 v3 v7 (ix2 p j) = k0_pay1 v0 v3 v7 (ix2 p (⟨j.val, by have := j.isLt; omega⟩ : Fin 1024)) :=
  cols_slice_apply (k0_pay1 v0 v3 v7) slices_S1024x1024_o0_0_S1024x768 p j (⟨j.val, by have := j.isLt; omega⟩ : Fin 1024) (Nat.zero_add _).symm

theorem pay0_fx (v0 : Vec Ideal S1024x256 .f32) (v3 : Vec Ideal S256x1024 .f32) (v7 : Vec Ideal S1x1024 .f32)
    (p : Fin 1024) (q : Fin 256) :
    k0_pay3 v0 v3 v7 (ix2 p q) = k0_pay1 v0 v3 v7 (ix2 p (⟨768 + q.val, by have := q.isLt; omega⟩ : Fin 1024)) :=
  cols_slice_apply (k0_pay1 v0 v3 v7) slices_S1024x1024_o0_768_S1024x256 p q (⟨768 + q.val, by have := q.isLt; omega⟩ : Fin 1024) rfl

/-- The leaf body: the leaves' formulas of the block's gates. -/
theorem pay1_gate (v0 : Vec Ideal S1024x256 .f32) (v3 : Vec Ideal S256x768 .f32) (v7 : Vec Ideal S1x768 .f32)
    (p : Fin 1024) (j : Fin 768) :
    k1_pay1 v0 v3 v7 (ix2 p j) = (∑ k : Fin 256, v0 (ix2 p k) * v3 (ix2 k j)) + v7 (ix2 (0 : Fin 1) j) :=
  device_affine_apply v0 v3 v7 dot_S1024x256_S256x768_S1024x768_1_0_0_1_n_n _ rfl bitsLt_bf16_f32 _ _ _ _ p j

theorem pay1_C (v0 : Vec Ideal S1024x256 .f32) (v3 : Vec Ideal S256x768 .f32) (v7 : Vec Ideal S1x768 .f32) :
    k1_pay2 v0 v3 v7 = leafC (N := 1024) fun p j => (∑ k : Fin 256, v0 (ix2 p k) * v3 (ix2 k j)) + v7 (ix2 (0 : Fin 1) j) :=
  device_leafC _ _ (pay1_gate v0 v3 v7) _ _

theorem pay1_H (v0 : Vec Ideal S1024x256 .f32) (v3 : Vec Ideal S256x768 .f32) (v7 : Vec Ideal S1x768 .f32) :
    k1_pay3 v0 v3 v7 = leafH (N := 1024) fun p j => (∑ k : Fin 256, v0 (ix2 p k) * v3 (ix2 k j)) + v7 (ix2 (0 : Fin 1) j) :=
  device_leafH _ _ (pay1_gate v0 v3 v7) _ (pay1_C v0 v3 v7) _

/-! ## Inner-level body of region 2 -/

section
variable (L10 L11 L20 L21 : Vec Ideal S1024x1x256 .f32) (L0 : Vec Ideal S1024x768 .f32) (L3 : Vec Ideal S1024x256 .f32)
  (L4 : Vec Ideal S256x768 .f32) (L5 : Vec Ideal S1x768 .f32) (L6 : Vec Ideal S256x256 .f32) (L7 : Vec Ideal S1x256 .f32)
  (ch cc : FVec Ideal ⟨3, ![1024, 2, 256]⟩ .f32) (Wi : FVec Ideal ⟨2, ![768, 256]⟩ .f32) (bi : FVec Ideal ⟨1, ![768]⟩ .f32)
  (Wf : FVec Ideal ⟨2, ![256, 256]⟩ .f32) (bf : FVec Ideal ⟨1, ![256]⟩ .f32)
  (hA0 : ∀ (p : Fin 1024) (k : Fin 256), L10 (ix3 p (0 : Fin 1) k) = ch (ix3 p (0 : Fin 2) k))
  (hA1 : ∀ (p : Fin 1024) (k : Fin 256), L11 (ix3 p (0 : Fin 1) k) = ch (ix3 p (1 : Fin 2) k))
  (hC0 : ∀ (p : Fin 1024) (k : Fin 256), L20 (ix3 p (0 : Fin 1) k) = cc (ix3 p (0 : Fin 2) k))
  (hC1 : ∀ (p : Fin 1024) (k : Fin 256), L21 (ix3 p (0 : Fin 1) k) = cc (ix3 p (1 : Fin 2) k))
  (hWi : ∀ (k : Fin 256) (j : Fin 768), L4 (ix2 k j) = Wi (ix2 j k))
  (hBi : ∀ j : Fin 768, L5 (ix2 (0 : Fin 1) j) = bi (ix1 j))
  (hWf : ∀ (k : Fin 256) (q : Fin 256), L6 (ix2 k q) = Wf (ix2 q k))
  (hBf : ∀ q : Fin 256, L7 (ix2 (0 : Fin 1) q) = bf (ix1 q))

include hA0 hA1 hWi hBi in
theorem pay2_gate (p : Fin 1024) (j : Fin 768) : k2_pay7 L10 L11 L4 L0 L5 (ix2 p j) = gate (N := 1024) L0 ch Wi bi p j :=
  device_gate_apply L0 L10 L11 L4 L5 ch Wi bi hA0 hA1 hWi hBi dot_S1024x256_S256x768_S1024x768_1_0_0_1_n_n _ rfl
    bitsLt_bf16_f32 _ _ _ _ _ p j

include hA0 hA1 hC0 hC1 hWi hBi hWf hBf in
theorem pay2_C :
    k2_pay1 (k2_pay5 L20) (k2_pay6 L21) (k2_pay8 L10 L11 L4 L0 L5) (k2_pay10 L10 L11 L4 L0 L5) (k2_pay12 L10 L6)
        (k2_pay13 L11 L6) (k2_pay14 L7) L3
      = cellC (N := 1024) L0 L3 ch cc Wi bi Wf bf := by
  funext i
  obtain ⟨p, q, rfl⟩ : ∃ (p : Fin 1024) (q : Fin 256), i = ix2 p q := ⟨i 0, i 1, eq_ix2 i⟩
  have hf0 := device_forget_apply L3 L10 L6 L7 ch Wf bf 0 hA0 hWf hBf dot_S1024x256_S256x256_S1024x256_1_0_0_1_n_n _ rfl
    bitsLt_bf16_f32 shapeCasts_S1024x1x256_S1024x256 shapeCasts_S256x256_S256x256 shapeCasts_S1024x256_S1024x256
    shapeCasts_S1x256_S1x256 broadcasts_S1x256_S1024x256 p q
  have hf1 := device_forget_apply L3 L11 L6 L7 ch Wf bf 1 hA1 hWf hBf dot_S1024x256_S256x256_S1024x256_1_0_0_1_n_n _ rfl
    bitsLt_bf16_f32 shapeCasts_S1024x1x256_S1024x256 shapeCasts_S256x256_S256x256 shapeCasts_S1024x256_S1024x256
    shapeCasts_S1x256_S1x256 broadcasts_S1x256_S1024x256 p q
  have hg := pay2_gate L10 L11 L0 L4 L5 ch Wi bi hA0 hA1 hWi hBi p
  rw [cellC_apply, ← hf0, ← hf1, ← hg, ← hg, ← hC0, ← hC1, ← Cert.LayoutOps.dropMid L20 shapeCasts_S1024x1x256_S1024x256 p q,
    ← Cert.LayoutOps.dropMid L21 shapeCasts_S1024x1x256_S1024x256 p q,
    ← cols_slice_apply (k2_pay7 L10 L11 L4 L0 L5) slices_S1024x768_o0_0_S1024x256 p q (colI q) (Nat.zero_add _).symm,
    ← cols_slice_apply (k2_pay7 L10 L11 L4 L0 L5) slices_S1024x768_o0_512_S1024x256 p q (colU q) rfl]
  rfl

include hA0 hA1 hC0 hC1 hWi hBi hWf hBf in
theorem pay2_H :
    k2_pay2 (k2_pay5 L20) (k2_pay6 L21) (k2_pay8 L10 L11 L4 L0 L5) (k2_pay9 L10 L11 L4 L0 L5) (k2_pay10 L10 L11 L4 L0 L5)
        (k2_pay12 L10 L6) (k2_pay13 L11 L6) (k2_pay14 L7) L3
      = cellH (N := 1024) L0 L3 ch cc Wi bi Wf bf := by
  funext i
  obtain ⟨p, q, rfl⟩ : ∃ (p : Fin 1024) (q : Fin 256), i = ix2 p q := ⟨i 0, i 1, eq_ix2 i⟩
  have hg := pay2_gate L10 L11 L0 L4 L5 ch Wi bi hA0 hA1 hWi hBi p
  rw [cellH_apply, ← pay2_C L10 L11 L20 L21 L0 L3 L4 L5 L6 L7 ch cc Wi bi Wf bf hA0 hA1 hC0 hC1 hWi hBi hWf hBf, ← hg,
    ← cols_slice_apply (k2_pay7 L10 L11 L4 L0 L5) slices_S1024x768_o0_256_S1024x256 p q (colO q) rfl]
  rfl

end

/-! ## Inner-level body of region 3 -/

section
variable (L10 L11 L20 L21 : Vec Ideal S1024x1x256 .f32) (L0 : Vec Ideal S1024x768 .f32) (L3 : Vec Ideal S1024x256 .f32)
  (L4 : Vec Ideal S256x768 .f32) (L5 : Vec Ideal S1x768 .f32) (L6 : Vec Ideal S256x256 .f32) (L7 : Vec Ideal S1x256 .f32)
  (ch cc : FVec Ideal ⟨3, ![1024, 2, 256]⟩ .f32) (Wi : FVec Ideal ⟨2, ![768, 256]⟩ .f32) (bi : FVec Ideal ⟨1, ![768]⟩ .f32)
  (Wf : FVec Ideal ⟨2, ![256, 256]⟩ .f32) (bf : FVec Ideal ⟨1, ![256]⟩ .f32)
  (hA0 : ∀ (p : Fin 1024) (k : Fin 256), L10 (ix3 p (0 : Fin 1) k) = ch (ix3 p (0 : Fin 2) k))
  (hA1 : ∀ (p : Fin 1024) (k : Fin 256), L11 (ix3 p (0 : Fin 1) k) = ch (ix3 p (1 : Fin 2) k))
  (hC0 : ∀ (p : Fin 1024) (k : Fin 256), L20 (ix3 p (0 : Fin 1) k) = cc (ix3 p (0 : Fin 2) k))
  (hC1 : ∀ (p : Fin 1024) (k : Fin 256), L21 (ix3 p (0 : Fin 1) k) = cc (ix3 p (1 : Fin 2) k))
  (hWi : ∀ (k : Fin 256) (j : Fin 768), L4 (ix2 k j) = Wi (ix2 j k))
  (hBi : ∀ j : Fin 768, L5 (ix2 (0 : Fin 1) j) = bi (ix1 j))
  (hWf : ∀ (k : Fin 256) (q : Fin 256), L6 (ix2 k q) = Wf (ix2 q k))
  (hBf : ∀ q : Fin 256, L7 (ix2 (0 : Fin 1) q) = bf (ix1 q))

include hA0 hA1 hWi hBi in
theorem pay3_gate (p : Fin 1024) (j : Fin 768) : k3_pay7 L10 L11 L4 L0 L5 (ix2 p j) = gate (N := 1024) L0 ch Wi bi p j :=
  device_gate_apply L0 L10 L11 L4 L5 ch Wi bi hA0 hA1 hWi hBi dot_S1024x256_S256x768_S1024x768_1_0_0_1_n_n _ rfl
    bitsLt_bf16_f32 _ _ _ _ _ p j

include hA0 hA1 hC0 hC1 hWi hBi hWf hBf in
theorem pay3_C :
    k3_pay1 (k3_pay5 L20) (k3_pay6 L21) (k3_pay8 L10 L11 L4 L0 L5) (k3_pay10 L10 L11 L4 L0 L5) (k3_pay12 L10 L6)
        (k3_pay13 L11 L6) (k3_pay14 L7) L3
      = cellC (N := 1024) L0 L3 ch cc Wi bi Wf bf := by
  funext i
  obtain ⟨p, q, rfl⟩ : ∃ (p : Fin 1024) (q : Fin 256), i = ix2 p q := ⟨i 0, i 1, eq_ix2 i⟩
  have hf0 := device_forget_apply L3 L10 L6 L7 ch Wf bf 0 hA0 hWf hBf dot_S1024x256_S256x256_S1024x256_1_0_0_1_n_n _ rfl
    bitsLt_bf16_f32 shapeCasts_S1024x1x256_S1024x256 shapeCasts_S256x256_S256x256 shapeCasts_S1024x256_S1024x256
    shapeCasts_S1x256_S1x256 broadcasts_S1x256_S1024x256 p q
  have hf1 := device_forget_apply L3 L11 L6 L7 ch Wf bf 1 hA1 hWf hBf dot_S1024x256_S256x256_S1024x256_1_0_0_1_n_n _ rfl
    bitsLt_bf16_f32 shapeCasts_S1024x1x256_S1024x256 shapeCasts_S256x256_S256x256 shapeCasts_S1024x256_S1024x256
    shapeCasts_S1x256_S1x256 broadcasts_S1x256_S1024x256 p q
  have hg := pay3_gate L10 L11 L0 L4 L5 ch Wi bi hA0 hA1 hWi hBi p
  rw [cellC_apply, ← hf0, ← hf1, ← hg, ← hg, ← hC0, ← hC1, ← Cert.LayoutOps.dropMid L20 shapeCasts_S1024x1x256_S1024x256 p q,
    ← Cert.LayoutOps.dropMid L21 shapeCasts_S1024x1x256_S1024x256 p q,
    ← cols_slice_apply (k3_pay7 L10 L11 L4 L0 L5) slices_S1024x768_o0_0_S1024x256 p q (colI q) (Nat.zero_add _).symm,
    ← cols_slice_apply (k3_pay7 L10 L11 L4 L0 L5) slices_S1024x768_o0_512_S1024x256 p q (colU q) rfl]
  rfl

include hA0 hA1 hC0 hC1 hWi hBi hWf hBf in
theorem pay3_H :
    k3_pay2 (k3_pay5 L20) (k3_pay6 L21) (k3_pay8 L10 L11 L4 L0 L5) (k3_pay9 L10 L11 L4 L0 L5) (k3_pay10 L10 L11 L4 L0 L5)
        (k3_pay12 L10 L6) (k3_pay13 L11 L6) (k3_pay14 L7) L3
      = cellH (N := 1024) L0 L3 ch cc Wi bi Wf bf := by
  funext i
  obtain ⟨p, q, rfl⟩ : ∃ (p : Fin 1024) (q : Fin 256), i = ix2 p q := ⟨i 0, i 1, eq_ix2 i⟩
  have hg := pay3_gate L10 L11 L0 L4 L5 ch Wi bi hA0 hA1 hWi hBi p
  rw [cellH_apply, ← pay3_C L10 L11 L20 L21 L0 L3 L4 L5 L6 L7 ch cc Wi bi Wf bf hA0 hA1 hC0 hC1 hWi hBi hWf hBf, ← hg,
    ← cols_slice_apply (k3_pay7 L10 L11 L4 L0 L5) slices_S1024x768_o0_256_S1024x256 p q (colO q) rfl]
  rfl

end

/-! ## Inner-level body of region 4 -/

section
variable (L10 L11 L20 L21 : Vec Ideal S1024x1x256 .f32) (L0 : Vec Ideal S1024x768 .f32) (L3 : Vec Ideal S1024x256 .f32)
  (L4 : Vec Ideal S256x768 .f32) (L5 : Vec Ideal S1x768 .f32) (L6 : Vec Ideal S256x256 .f32) (L7 : Vec Ideal S1x256 .f32)
  (ch cc : FVec Ideal ⟨3, ![1024, 2, 256]⟩ .f32) (Wi : FVec Ideal ⟨2, ![768, 256]⟩ .f32) (bi : FVec Ideal ⟨1, ![768]⟩ .f32)
  (Wf : FVec Ideal ⟨2, ![256, 256]⟩ .f32) (bf : FVec Ideal ⟨1, ![256]⟩ .f32)
  (hA0 : ∀ (p : Fin 1024) (k : Fin 256), L10 (ix3 p (0 : Fin 1) k) = ch (ix3 p (0 : Fin 2) k))
  (hA1 : ∀ (p : Fin 1024) (k : Fin 256), L11 (ix3 p (0 : Fin 1) k) = ch (ix3 p (1 : Fin 2) k))
  (hC0 : ∀ (p : Fin 1024) (k : Fin 256), L20 (ix3 p (0 : Fin 1) k) = cc (ix3 p (0 : Fin 2) k))
  (hC1 : ∀ (p : Fin 1024) (k : Fin 256), L21 (ix3 p (0 : Fin 1) k) = cc (ix3 p (1 : Fin 2) k))
  (hWi : ∀ (k : Fin 256) (j : Fin 768), L4 (ix2 k j) = Wi (ix2 j k))
  (hBi : ∀ j : Fin 768, L5 (ix2 (0 : Fin 1) j) = bi (ix1 j))
  (hWf : ∀ (k : Fin 256) (q : Fin 256), L6 (ix2 k q) = Wf (ix2 q k))
  (hBf : ∀ q : Fin 256, L7 (ix2 (0 : Fin 1) q) = bf (ix1 q))

include hA0 hA1 hWi hBi in
theorem pay4_gate (p : Fin 1024) (j : Fin 768) : k4_pay7 L10 L11 L4 L0 L5 (ix2 p j) = gate (N := 1024) L0 ch Wi bi p j :=
  device_gate_apply L0 L10 L11 L4 L5 ch Wi bi hA0 hA1 hWi hBi dot_S1024x256_S256x768_S1024x768_1_0_0_1_n_n _ rfl
    bitsLt_bf16_f32 _ _ _ _ _ p j

include hA0 hA1 hC0 hC1 hWi hBi hWf hBf in
theorem pay4_C :
    k4_pay1 (k4_pay5 L20) (k4_pay6 L21) (k4_pay8 L10 L11 L4 L0 L5) (k4_pay10 L10 L11 L4 L0 L5) (k4_pay12 L10 L6)
        (k4_pay13 L11 L6) (k4_pay14 L7) L3
      = cellC (N := 1024) L0 L3 ch cc Wi bi Wf bf := by
  funext i
  obtain ⟨p, q, rfl⟩ : ∃ (p : Fin 1024) (q : Fin 256), i = ix2 p q := ⟨i 0, i 1, eq_ix2 i⟩
  have hf0 := device_forget_apply L3 L10 L6 L7 ch Wf bf 0 hA0 hWf hBf dot_S1024x256_S256x256_S1024x256_1_0_0_1_n_n _ rfl
    bitsLt_bf16_f32 shapeCasts_S1024x1x256_S1024x256 shapeCasts_S256x256_S256x256 shapeCasts_S1024x256_S1024x256
    shapeCasts_S1x256_S1x256 broadcasts_S1x256_S1024x256 p q
  have hf1 := device_forget_apply L3 L11 L6 L7 ch Wf bf 1 hA1 hWf hBf dot_S1024x256_S256x256_S1024x256_1_0_0_1_n_n _ rfl
    bitsLt_bf16_f32 shapeCasts_S1024x1x256_S1024x256 shapeCasts_S256x256_S256x256 shapeCasts_S1024x256_S1024x256
    shapeCasts_S1x256_S1x256 broadcasts_S1x256_S1024x256 p q
  have hg := pay4_gate L10 L11 L0 L4 L5 ch Wi bi hA0 hA1 hWi hBi p
  rw [cellC_apply, ← hf0, ← hf1, ← hg, ← hg, ← hC0, ← hC1, ← Cert.LayoutOps.dropMid L20 shapeCasts_S1024x1x256_S1024x256 p q,
    ← Cert.LayoutOps.dropMid L21 shapeCasts_S1024x1x256_S1024x256 p q,
    ← cols_slice_apply (k4_pay7 L10 L11 L4 L0 L5) slices_S1024x768_o0_0_S1024x256 p q (colI q) (Nat.zero_add _).symm,
    ← cols_slice_apply (k4_pay7 L10 L11 L4 L0 L5) slices_S1024x768_o0_512_S1024x256 p q (colU q) rfl]
  rfl

include hA0 hA1 hC0 hC1 hWi hBi hWf hBf in
theorem pay4_H :
    k4_pay2 (k4_pay5 L20) (k4_pay6 L21) (k4_pay8 L10 L11 L4 L0 L5) (k4_pay9 L10 L11 L4 L0 L5) (k4_pay10 L10 L11 L4 L0 L5)
        (k4_pay12 L10 L6) (k4_pay13 L11 L6) (k4_pay14 L7) L3
      = cellH (N := 1024) L0 L3 ch cc Wi bi Wf bf := by
  funext i
  obtain ⟨p, q, rfl⟩ : ∃ (p : Fin 1024) (q : Fin 256), i = ix2 p q := ⟨i 0, i 1, eq_ix2 i⟩
  have hg := pay4_gate L10 L11 L0 L4 L5 ch Wi bi hA0 hA1 hWi hBi p
  rw [cellH_apply, ← pay4_C L10 L11 L20 L21 L0 L3 L4 L5 L6 L7 ch cc Wi bi Wf bf hA0 hA1 hC0 hC1 hWi hBi hWf hBf, ← hg,
    ← cols_slice_apply (k4_pay7 L10 L11 L4 L0 L5) slices_S1024x768_o0_256_S1024x256 p q (colO q) rfl]
  rfl

end

/-! ## Inner-level body of region 5 -/

section
variable (L10 L11 L20 L21 : Vec Ideal S1024x1x256 .f32) (L0 : Vec Ideal S1024x768 .f32) (L3 : Vec Ideal S1024x256 .f32)
  (L4 : Vec Ideal S256x768 .f32) (L5 : Vec Ideal S1x768 .f32) (L6 : Vec Ideal S256x256 .f32) (L7 : Vec Ideal S1x256 .f32)
  (ch cc : FVec Ideal ⟨3, ![1024, 2, 256]⟩ .f32) (Wi : FVec Ideal ⟨2, ![768, 256]⟩ .f32) (bi : FVec Ideal ⟨1, ![768]⟩ .f32)
  (Wf : FVec Ideal ⟨2, ![256, 256]⟩ .f32) (bf : FVec Ideal ⟨1, ![256]⟩ .f32)
  (hA0 : ∀ (p : Fin 1024) (k : Fin 256), L10 (ix3 p (0 : Fin 1) k) = ch (ix3 p (0 : Fin 2) k))
  (hA1 : ∀ (p : Fin 1024) (k : Fin 256), L11 (ix3 p (0 : Fin 1) k) = ch (ix3 p (1 : Fin 2) k))
  (hC0 : ∀ (p : Fin 1024) (k : Fin 256), L20 (ix3 p (0 : Fin 1) k) = cc (ix3 p (0 : Fin 2) k))
  (hC1 : ∀ (p : Fin 1024) (k : Fin 256), L21 (ix3 p (0 : Fin 1) k) = cc (ix3 p (1 : Fin 2) k))
  (hWi : ∀ (k : Fin 256) (j : Fin 768), L4 (ix2 k j) = Wi (ix2 j k))
  (hBi : ∀ j : Fin 768, L5 (ix2 (0 : Fin 1) j) = bi (ix1 j))
  (hWf : ∀ (k : Fin 256) (q : Fin 256), L6 (ix2 k q) = Wf (ix2 q k))
  (hBf : ∀ q : Fin 256, L7 (ix2 (0 : Fin 1) q) = bf (ix1 q))

include hA0 hA1 hWi hBi in
theorem pay5_gate (p : Fin 1024) (j : Fin 768) : k5_pay7 L10 L11 L4 L0 L5 (ix2 p j) = gate (N := 1024) L0 ch Wi bi p j :=
  device_gate_apply L0 L10 L11 L4 L5 ch Wi bi hA0 hA1 hWi hBi dot_S1024x256_S256x768_S1024x768_1_0_0_1_n_n _ rfl
    bitsLt_bf16_f32 _ _ _ _ _ p j

include hA0 hA1 hC0 hC1 hWi hBi hWf hBf in
theorem pay5_C :
    k5_pay1 (k5_pay5 L20) (k5_pay6 L21) (k5_pay8 L10 L11 L4 L0 L5) (k5_pay10 L10 L11 L4 L0 L5) (k5_pay12 L10 L6)
        (k5_pay13 L11 L6) (k5_pay14 L7) L3
      = cellC (N := 1024) L0 L3 ch cc Wi bi Wf bf := by
  funext i
  obtain ⟨p, q, rfl⟩ : ∃ (p : Fin 1024) (q : Fin 256), i = ix2 p q := ⟨i 0, i 1, eq_ix2 i⟩
  have hf0 := device_forget_apply L3 L10 L6 L7 ch Wf bf 0 hA0 hWf hBf dot_S1024x256_S256x256_S1024x256_1_0_0_1_n_n _ rfl
    bitsLt_bf16_f32 shapeCasts_S1024x1x256_S1024x256 shapeCasts_S256x256_S256x256 shapeCasts_S1024x256_S1024x256
    shapeCasts_S1x256_S1x256 broadcasts_S1x256_S1024x256 p q
  have hf1 := device_forget_apply L3 L11 L6 L7 ch Wf bf 1 hA1 hWf hBf dot_S1024x256_S256x256_S1024x256_1_0_0_1_n_n _ rfl
    bitsLt_bf16_f32 shapeCasts_S1024x1x256_S1024x256 shapeCasts_S256x256_S256x256 shapeCasts_S1024x256_S1024x256
    shapeCasts_S1x256_S1x256 broadcasts_S1x256_S1024x256 p q
  have hg := pay5_gate L10 L11 L0 L4 L5 ch Wi bi hA0 hA1 hWi hBi p
  rw [cellC_apply, ← hf0, ← hf1, ← hg, ← hg, ← hC0, ← hC1, ← Cert.LayoutOps.dropMid L20 shapeCasts_S1024x1x256_S1024x256 p q,
    ← Cert.LayoutOps.dropMid L21 shapeCasts_S1024x1x256_S1024x256 p q,
    ← cols_slice_apply (k5_pay7 L10 L11 L4 L0 L5) slices_S1024x768_o0_0_S1024x256 p q (colI q) (Nat.zero_add _).symm,
    ← cols_slice_apply (k5_pay7 L10 L11 L4 L0 L5) slices_S1024x768_o0_512_S1024x256 p q (colU q) rfl]
  rfl

include hA0 hA1 hC0 hC1 hWi hBi hWf hBf in
theorem pay5_H :
    k5_pay2 (k5_pay5 L20) (k5_pay6 L21) (k5_pay8 L10 L11 L4 L0 L5) (k5_pay9 L10 L11 L4 L0 L5) (k5_pay10 L10 L11 L4 L0 L5)
        (k5_pay12 L10 L6) (k5_pay13 L11 L6) (k5_pay14 L7) L3
      = cellH (N := 1024) L0 L3 ch cc Wi bi Wf bf := by
  funext i
  obtain ⟨p, q, rfl⟩ : ∃ (p : Fin 1024) (q : Fin 256), i = ix2 p q := ⟨i 0, i 1, eq_ix2 i⟩
  have hg := pay5_gate L10 L11 L0 L4 L5 ch Wi bi hA0 hA1 hWi hBi p
  rw [cellH_apply, ← pay5_C L10 L11 L20 L21 L0 L3 L4 L5 L6 L7 ch cc Wi bi Wf bf hA0 hA1 hC0 hC1 hWi hBi hWf hBf, ← hg,
    ← cols_slice_apply (k5_pay7 L10 L11 L4 L0 L5) slices_S1024x768_o0_256_S1024x256 p q (colO q) rfl]
  rfl

end

/-! ## Inner-level body of region 6 -/

section
variable (L10 L11 L20 L21 : Vec Ideal S1024x1x256 .f32) (L0 : Vec Ideal S1024x768 .f32) (L3 : Vec Ideal S1024x256 .f32)
  (L4 : Vec Ideal S256x768 .f32) (L5 : Vec Ideal S1x768 .f32) (L6 : Vec Ideal S256x256 .f32) (L7 : Vec Ideal S1x256 .f32)
  (ch cc : FVec Ideal ⟨3, ![1024, 2, 256]⟩ .f32) (Wi : FVec Ideal ⟨2, ![768, 256]⟩ .f32) (bi : FVec Ideal ⟨1, ![768]⟩ .f32)
  (Wf : FVec Ideal ⟨2, ![256, 256]⟩ .f32) (bf : FVec Ideal ⟨1, ![256]⟩ .f32)
  (hA0 : ∀ (p : Fin 1024) (k : Fin 256), L10 (ix3 p (0 : Fin 1) k) = ch (ix3 p (0 : Fin 2) k))
  (hA1 : ∀ (p : Fin 1024) (k : Fin 256), L11 (ix3 p (0 : Fin 1) k) = ch (ix3 p (1 : Fin 2) k))
  (hC0 : ∀ (p : Fin 1024) (k : Fin 256), L20 (ix3 p (0 : Fin 1) k) = cc (ix3 p (0 : Fin 2) k))
  (hC1 : ∀ (p : Fin 1024) (k : Fin 256), L21 (ix3 p (0 : Fin 1) k) = cc (ix3 p (1 : Fin 2) k))
  (hWi : ∀ (k : Fin 256) (j : Fin 768), L4 (ix2 k j) = Wi (ix2 j k))
  (hBi : ∀ j : Fin 768, L5 (ix2 (0 : Fin 1) j) = bi (ix1 j))
  (hWf : ∀ (k : Fin 256) (q : Fin 256), L6 (ix2 k q) = Wf (ix2 q k))
  (hBf : ∀ q : Fin 256, L7 (ix2 (0 : Fin 1) q) = bf (ix1 q))

include hA0 hA1 hWi hBi in
theorem pay6_gate (p : Fin 1024) (j : Fin 768) : k6_pay7 L10 L11 L4 L0 L5 (ix2 p j) = gate (N := 1024) L0 ch Wi bi p j :=
  device_gate_apply L0 L10 L11 L4 L5 ch Wi bi hA0 hA1 hWi hBi dot_S1024x256_S256x768_S1024x768_1_0_0_1_n_n _ rfl
    bitsLt_bf16_f32 _ _ _ _ _ p j

include hA0 hA1 hC0 hC1 hWi hBi hWf hBf in
theorem pay6_C :
    k6_pay1 (k6_pay5 L20) (k6_pay6 L21) (k6_pay8 L10 L11 L4 L0 L5) (k6_pay10 L10 L11 L4 L0 L5) (k6_pay12 L10 L6)
        (k6_pay13 L11 L6) (k6_pay14 L7) L3
      = cellC (N := 1024) L0 L3 ch cc Wi bi Wf bf := by
  funext i
  obtain ⟨p, q, rfl⟩ : ∃ (p : Fin 1024) (q : Fin 256), i = ix2 p q := ⟨i 0, i 1, eq_ix2 i⟩
  have hf0 := device_forget_apply L3 L10 L6 L7 ch Wf bf 0 hA0 hWf hBf dot_S1024x256_S256x256_S1024x256_1_0_0_1_n_n _ rfl
    bitsLt_bf16_f32 shapeCasts_S1024x1x256_S1024x256 shapeCasts_S256x256_S256x256 shapeCasts_S1024x256_S1024x256
    shapeCasts_S1x256_S1x256 broadcasts_S1x256_S1024x256 p q
  have hf1 := device_forget_apply L3 L11 L6 L7 ch Wf bf 1 hA1 hWf hBf dot_S1024x256_S256x256_S1024x256_1_0_0_1_n_n _ rfl
    bitsLt_bf16_f32 shapeCasts_S1024x1x256_S1024x256 shapeCasts_S256x256_S256x256 shapeCasts_S1024x256_S1024x256
    shapeCasts_S1x256_S1x256 broadcasts_S1x256_S1024x256 p q
  have hg := pay6_gate L10 L11 L0 L4 L5 ch Wi bi hA0 hA1 hWi hBi p
  rw [cellC_apply, ← hf0, ← hf1, ← hg, ← hg, ← hC0, ← hC1, ← Cert.LayoutOps.dropMid L20 shapeCasts_S1024x1x256_S1024x256 p q,
    ← Cert.LayoutOps.dropMid L21 shapeCasts_S1024x1x256_S1024x256 p q,
    ← cols_slice_apply (k6_pay7 L10 L11 L4 L0 L5) slices_S1024x768_o0_0_S1024x256 p q (colI q) (Nat.zero_add _).symm,
    ← cols_slice_apply (k6_pay7 L10 L11 L4 L0 L5) slices_S1024x768_o0_512_S1024x256 p q (colU q) rfl]
  rfl

include hA0 hA1 hC0 hC1 hWi hBi hWf hBf in
theorem pay6_H :
    k6_pay2 (k6_pay5 L20) (k6_pay6 L21) (k6_pay8 L10 L11 L4 L0 L5) (k6_pay9 L10 L11 L4 L0 L5) (k6_pay10 L10 L11 L4 L0 L5)
        (k6_pay12 L10 L6) (k6_pay13 L11 L6) (k6_pay14 L7) L3
      = cellH (N := 1024) L0 L3 ch cc Wi bi Wf bf := by
  funext i
  obtain ⟨p, q, rfl⟩ : ∃ (p : Fin 1024) (q : Fin 256), i = ix2 p q := ⟨i 0, i 1, eq_ix2 i⟩
  have hg := pay6_gate L10 L11 L0 L4 L5 ch Wi bi hA0 hA1 hWi hBi p
  rw [cellH_apply, ← pay6_C L10 L11 L20 L21 L0 L3 L4 L5 L6 L7 ch cc Wi bi Wf bf hA0 hA1 hC0 hC1 hWi hBi hWf hBf, ← hg,
    ← cols_slice_apply (k6_pay7 L10 L11 L4 L0 L5) slices_S1024x768_o0_256_S1024x256 p q (colO q) rfl]
  rfl

end

/-! ## Inner-level body of region 7 -/

section
variable (L10 L11 L20 L21 : Vec Ideal S1024x1x256 .f32) (L0 : Vec Ideal S1024x768 .f32) (L3 : Vec Ideal S1024x256 .f32)
  (L4 : Vec Ideal S256x768 .f32) (L5 : Vec Ideal S1x768 .f32) (L6 : Vec Ideal S256x256 .f32) (L7 : Vec Ideal S1x256 .f32)
  (ch cc : FVec Ideal ⟨3, ![1024, 2, 256]⟩ .f32) (Wi : FVec Ideal ⟨2, ![768, 256]⟩ .f32) (bi : FVec Ideal ⟨1, ![768]⟩ .f32)
  (Wf : FVec Ideal ⟨2, ![256, 256]⟩ .f32) (bf : FVec Ideal ⟨1, ![256]⟩ .f32)
  (hA0 : ∀ (p : Fin 1024) (k : Fin 256), L10 (ix3 p (0 : Fin 1) k) = ch (ix3 p (0 : Fin 2) k))
  (hA1 : ∀ (p : Fin 1024) (k : Fin 256), L11 (ix3 p (0 : Fin 1) k) = ch (ix3 p (1 : Fin 2) k))
  (hC0 : ∀ (p : Fin 1024) (k : Fin 256), L20 (ix3 p (0 : Fin 1) k) = cc (ix3 p (0 : Fin 2) k))
  (hC1 : ∀ (p : Fin 1024) (k : Fin 256), L21 (ix3 p (0 : Fin 1) k) = cc (ix3 p (1 : Fin 2) k))
  (hWi : ∀ (k : Fin 256) (j : Fin 768), L4 (ix2 k j) = Wi (ix2 j k))
  (hBi : ∀ j : Fin 768, L5 (ix2 (0 : Fin 1) j) = bi (ix1 j))
  (hWf : ∀ (k : Fin 256) (q : Fin 256), L6 (ix2 k q) = Wf (ix2 q k))
  (hBf : ∀ q : Fin 256, L7 (ix2 (0 : Fin 1) q) = bf (ix1 q))

include hA0 hA1 hWi hBi in
theorem pay7_gate (p : Fin 1024) (j : Fin 768) : k7_pay7 L10 L11 L4 L0 L5 (ix2 p j) = gate (N := 1024) L0 ch Wi bi p j :=
  device_gate_apply L0 L10 L11 L4 L5 ch Wi bi hA0 hA1 hWi hBi dot_S1024x256_S256x768_S1024x768_1_0_0_1_n_n _ rfl
    bitsLt_bf16_f32 _ _ _ _ _ p j

include hA0 hA1 hC0 hC1 hWi hBi hWf hBf in
theorem pay7_C :
    k7_pay1 (k7_pay5 L20) (k7_pay6 L21) (k7_pay8 L10 L11 L4 L0 L5) (k7_pay10 L10 L11 L4 L0 L5) (k7_pay12 L10 L6)
        (k7_pay13 L11 L6) (k7_pay14 L7) L3
      = cellC (N := 1024) L0 L3 ch cc Wi bi Wf bf := by
  funext i
  obtain ⟨p, q, rfl⟩ : ∃ (p : Fin 1024) (q : Fin 256), i = ix2 p q := ⟨i 0, i 1, eq_ix2 i⟩
  have hf0 := device_forget_apply L3 L10 L6 L7 ch Wf bf 0 hA0 hWf hBf dot_S1024x256_S256x256_S1024x256_1_0_0_1_n_n _ rfl
    bitsLt_bf16_f32 shapeCasts_S1024x1x256_S1024x256 shapeCasts_S256x256_S256x256 shapeCasts_S1024x256_S1024x256
    shapeCasts_S1x256_S1x256 broadcasts_S1x256_S1024x256 p q
  have hf1 := device_forget_apply L3 L11 L6 L7 ch Wf bf 1 hA1 hWf hBf dot_S1024x256_S256x256_S1024x256_1_0_0_1_n_n _ rfl
    bitsLt_bf16_f32 shapeCasts_S1024x1x256_S1024x256 shapeCasts_S256x256_S256x256 shapeCasts_S1024x256_S1024x256
    shapeCasts_S1x256_S1x256 broadcasts_S1x256_S1024x256 p q
  have hg := pay7_gate L10 L11 L0 L4 L5 ch Wi bi hA0 hA1 hWi hBi p
  rw [cellC_apply, ← hf0, ← hf1, ← hg, ← hg, ← hC0, ← hC1, ← Cert.LayoutOps.dropMid L20 shapeCasts_S1024x1x256_S1024x256 p q,
    ← Cert.LayoutOps.dropMid L21 shapeCasts_S1024x1x256_S1024x256 p q,
    ← cols_slice_apply (k7_pay7 L10 L11 L4 L0 L5) slices_S1024x768_o0_0_S1024x256 p q (colI q) (Nat.zero_add _).symm,
    ← cols_slice_apply (k7_pay7 L10 L11 L4 L0 L5) slices_S1024x768_o0_512_S1024x256 p q (colU q) rfl]
  rfl

include hA0 hA1 hC0 hC1 hWi hBi hWf hBf in
theorem pay7_H :
    k7_pay2 (k7_pay5 L20) (k7_pay6 L21) (k7_pay8 L10 L11 L4 L0 L5) (k7_pay9 L10 L11 L4 L0 L5) (k7_pay10 L10 L11 L4 L0 L5)
        (k7_pay12 L10 L6) (k7_pay13 L11 L6) (k7_pay14 L7) L3
      = cellH (N := 1024) L0 L3 ch cc Wi bi Wf bf := by
  funext i
  obtain ⟨p, q, rfl⟩ : ∃ (p : Fin 1024) (q : Fin 256), i = ix2 p q := ⟨i 0, i 1, eq_ix2 i⟩
  have hg := pay7_gate L10 L11 L0 L4 L5 ch Wi bi hA0 hA1 hWi hBi p
  rw [cellH_apply, ← pay7_C L10 L11 L20 L21 L0 L3 L4 L5 L6 L7 ch cc Wi bi Wf bf hA0 hA1 hC0 hC1 hWi hBi hWf hBf, ← hg,
    ← cols_slice_apply (k7_pay7 L10 L11 L4 L0 L5) slices_S1024x768_o0_256_S1024x256 p q (colO q) rfl]
  rfl

end

end Cert.KernelIdeal.TreeDevice

end
-- ==== Proof.KernelRegions.lean ====
/-
  WHAT EACH INNER-LEVEL REGION LEAVES IN ITS TWO OUTPUT ARRAYS.

  An inner-level region runs its body once per block of 1024 nodes. Point t reads rows 1024·t … 1024·t + 1023 of the
  level's gate and forget-gate projections and of the children's hidden and cell arrays [N, 2, 256], the whole
  transposed weights and one-row biases, and writes the same rows of the two outputs. The body's result on a block is
  the level's cellC / cellH of the block (DevicePay), these look at one node's row only (cellC_rows), and the blocks
  cover the arrays: after the region the outputs are cellC and cellH of the region's input arrays, whatever those are.
-/
import proofs.«176519_j24352464569160_2_alg».proof.Proof.Gen.KernelIdeal.Frame
import proofs.«176519_j24352464569160_2_alg».proof.Proof.DevicePay

set_option maxRecDepth 16384

noncomputable section

namespace Cert.KernelIdeal.TreeRegions

open Cert.KernelIdeal Cert.KernelIdeal.Gen Cert.KernelIdeal.TreeDevice Cert.TreeCell
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b)) (c : Dev nD)
  (Wi : FVec Ideal ⟨2, ![768, 256]⟩ .f32) (bi : FVec Ideal ⟨1, ![768]⟩ .f32)
  (Wf : FVec Ideal ⟨2, ![256, 256]⟩ .f32) (bf : FVec Ideal ⟨1, ![256]⟩ .f32)

/-- Column j of the first 768, and column q of the last 256, among 1024 stacked columns. -/
abbrev wide768 (j : Fin 768) : Fin 1024 := ⟨j.val, by have := j.isLt; omega⟩
abbrev wide256 (q : Fin 256) : Fin 1024 := ⟨768 + q.val, by have := q.isLt; omega⟩

theorem hz2 : (![0, 0] : Fin 2 → Nat) = fun _ => 0 := funext fun a => by fin_cases a <;> rfl

/-! ## Region 0: the input projection of the 65536 padded rows, 64 points -/

section Region0

theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

abbrev row0 (t : Fin cfg0.N) (p : Fin 1024) : Fin 65536 :=
  ⟨t.val * 1024 + p.val, by have := t.isLt; have e : cfg0.N = 64 := N_0; have := p.isLt; omega⟩

theorem blk0_0 (t : Fin cfg0.N) (p : Fin 1024) (k : Fin 256) :
    iblk0 V c 0 t (ix2 p k) = (V c main_call0_v1 : FVec Ideal S65536x256 .f32) (ix2 (row0 t p) k) := by
  obtain ⟨e0, e1, -⟩ := idx0 t
  show V c main_call0_v1 (((cfg0.win 0).blk t).view.emb (ix2 p k)) = _
  refine congrArg (V c main_call0_v1) (funext fun a => Fin.ext ?_)
  match a with
  | ⟨0, _⟩ => show win0_0.index t (0 : Fin 2) * 1024 + 1 * p.val = t.val * 1024 + p.val; omega
  | ⟨1, _⟩ => show win0_0.index t (1 : Fin 2) * 256 + 1 * k.val = k.val; omega

theorem blk0_1 (t : Fin cfg0.N) (k : Fin 256) (j : Fin 1024) :
    iblk0 V c 1 t (ix2 k j) = (V c main_call0_v4 : FVec Ideal S256x1024 .f32) (ix2 k j) := by
  obtain ⟨-, -, e0, e1, -⟩ := idx0 t
  show V c main_call0_v4 (((cfg0.win 1).blk t).view.emb (ix2 k j)) = _
  refine congrArg (V c main_call0_v4) (funext fun a => Fin.ext ?_)
  match a with
  | ⟨0, _⟩ => show win0_1.index t (0 : Fin 2) * 256 + 1 * k.val = k.val; omega
  | ⟨1, _⟩ => show win0_1.index t (1 : Fin 2) * 1024 + 1 * j.val = j.val; omega

theorem blk0_2 (t : Fin cfg0.N) (j : Fin 1024) :
    iblk0 V c 2 t (ix2 (0 : Fin 1) j) = (V c main_call0_v5 : FVec Ideal S1x1024 .f32) (ix2 (0 : Fin 1) j) := by
  obtain ⟨-, -, -, -, e0, e1, -⟩ := idx0 t
  show V c main_call0_v5 (((cfg0.win 2).blk t).view.emb (ix2 (0 : Fin 1) j)) = _
  refine congrArg (V c main_call0_v5) (funext fun a => Fin.ext ?_)
  match a with
  | ⟨0, _⟩ => show win0_2.index t (0 : Fin 2) * 1 + 1 * 0 = 0; omega
  | ⟨1, _⟩ => show win0_2.index t (1 : Fin 2) * 1024 + 1 * j.val = j.val; omega

abbrev padX : FVec Ideal S65536x256 .f32 := V c main_call0_v1
abbrev stackW : FVec Ideal S256x1024 .f32 := V c main_call0_v4
abbrev stackB : FVec Ideal S1x1024 .f32 := V c main_call0_v5

/-- Entry (r, j) of the padded rows times the stacked transposed weights plus the stacked bias row. -/
def stacked (r : Fin 65536) (j : Fin 1024) : EReal :=
  (∑ k : Fin 256, padX V c (ix2 r k) * stackW V c (ix2 k j)) + stackB V c (ix2 (0 : Fin 1) j)

theorem flushed0_3 (t : Fin cfg0.N) :
    (dat0 V c).flushed 3 t = ((cfg0.win 3).blk t).view.read (Elt Ideal)
      (fun i : S65536x768.Idx => stacked V c (i 0 : Fin 65536) (wide768 (i 1 : Fin 768))) := by
  show (cfg0.win 3).cut (grid0.coords t) ((dat0 V c).after 3 t) = _
  rw [after0_3]
  unfold out0_3
  rw [View.canon_unit_zero hz2]
  simp only [View.ld_unit_zero (S := S1024x256) hz2, View.ld_unit_zero (S := S256x1024) hz2, View.ld_unit_zero (S := S1x1024) hz2]
  funext y
  obtain ⟨p, j, rfl⟩ : ∃ (p : Fin 1024) (j : Fin 768), y = ix2 p j := ⟨y 0, y 1, eq_ix2 y⟩
  obtain ⟨-, -, -, -, -, -, e0, e1, -⟩ := idx0 t
  have he : ((cfg0.win 3).blk t).view.emb (ix2 p j) = ix2 (row0 t p) j := funext fun a => Fin.ext (by
    match a with
    | ⟨0, _⟩ => show win0_3.index t (0 : Fin 2) * 1024 + 1 * p.val = t.val * 1024 + p.val; omega
    | ⟨1, _⟩ => show win0_3.index t (1 : Fin 2) * 768 + 1 * j.val = j.val; omega)
  show _ = (fun i : S65536x768.Idx => stacked V c (i 0 : Fin 65536) (wide768 (i 1 : Fin 768)))
    (((cfg0.win 3).blk t).view.emb (ix2 p j))
  rw [he]
  show k0_pay2 (iblk0 V c 0 t) (iblk0 V c 1 t) (iblk0 V c 2 t) (ix2 p j) = stacked V c (row0 t p) (wide768 j)
  rw [pay0_iou, pay0_apply]
  unfold stacked
  refine congrArg₂ (· + ·) (Finset.sum_congr rfl fun k _ => ?_) (blk0_2 V c t _)
  rw [blk0_0, blk0_1]

theorem flushed0_4 (t : Fin cfg0.N) :
    (dat0 V c).flushed 4 t = ((cfg0.win 4).blk t).view.read (Elt Ideal)
      (fun i : S65536x256.Idx => stacked V c (i 0 : Fin 65536) (wide256 (i 1 : Fin 256))) := by
  show (cfg0.win 4).cut (grid0.coords t) ((dat0 V c).after 4 t) = _
  rw [after0_4]
  unfold out0_4
  rw [View.canon_unit_zero hz2]
  simp only [View.ld_unit_zero (S := S1024x256) hz2, View.ld_unit_zero (S := S256x1024) hz2, View.ld_unit_zero (S := S1x1024) hz2]
  funext y
  obtain ⟨p, q, rfl⟩ : ∃ (p : Fin 1024) (q : Fin 256), y = ix2 p q := ⟨y 0, y 1, eq_ix2 y⟩
  obtain ⟨-, -, -, -, -, -, -, -, e0, e1⟩ := idx0 t
  have he : ((cfg0.win 4).blk t).view.emb (ix2 p q) = ix2 (row0 t p) q := funext fun a => Fin.ext (by
    match a with
    | ⟨0, _⟩ => show win0_4.index t (0 : Fin 2) * 1024 + 1 * p.val = t.val * 1024 + p.val; omega
    | ⟨1, _⟩ => show win0_4.index t (1 : Fin 2) * 256 + 1 * q.val = q.val; omega)
  show _ = (fun i : S65536x256.Idx => stacked V c (i 0 : Fin 65536) (wide256 (i 1 : Fin 256)))
    (((cfg0.win 4).blk t).view.emb (ix2 p q))
  rw [he]
  show k0_pay3 (iblk0 V c 0 t) (iblk0 V c 1 t) (iblk0 V c 2 t) (ix2 p q) = stacked V c (row0 t p) (wide256 q)
  rw [pay0_fx, pay0_apply]
  unfold stacked
  refine congrArg₂ (· + ·) (Finset.sum_congr rfl fun k _ => ?_) (blk0_2 V c t _)
  rw [blk0_0, blk0_1]

theorem cover0_3' (i : S65536x768.Idx) :
    ∃ t : Fin cfg0.N, (cfg0.win 3).flush t = true ∧ i ∈ ((cfg0.win 3).blk t).view.set := by
  have hi0 : (i 0).val < 65536 := (i 0).isLt
  have hi1 : (i 1).val < 768 := (i 1).isLt
  have eN : cfg0.N = 64 := N_0
  let t : Fin cfg0.N := ⟨(i 0).val / 1024, by omega⟩
  obtain ⟨-, -, -, -, -, -, e0, e1, -⟩ := idx0 t
  refine ⟨t, flush0_3 t, ?_⟩
  show i ∈ ((View.whole main_call0_v6_0).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; have : t.val = (i 0).val / 1024 := rfl; omega
  | ⟨1, _⟩ => show win0_3.index t (1 : Fin 2) * 768 ≤ (i 1).val ∧ (i 1).val < win0_3.index t (1 : Fin 2) * 768 + 768; omega

theorem cover0_4' (i : S65536x256.Idx) :
    ∃ t : Fin cfg0.N, (cfg0.win 4).flush t = true ∧ i ∈ ((cfg0.win 4).blk t).view.set := by
  have hi0 : (i 0).val < 65536 := (i 0).isLt
  have hi1 : (i 1).val < 256 := (i 1).isLt
  have eN : cfg0.N = 64 := N_0
  let t : Fin cfg0.N := ⟨(i 0).val / 1024, by omega⟩
  obtain ⟨-, -, -, -, -, -, -, -, e0, e1⟩ := idx0 t
  refine ⟨t, flush0_4 t, ?_⟩
  show i ∈ ((View.whole main_call0_v6_1).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024; have : t.val = (i 0).val / 1024 := rfl; omega
  | ⟨1, _⟩ => show win0_4.index t (1 : Fin 2) * 256 ≤ (i 1).val ∧ (i 1).val < win0_4.index t (1 : Fin 2) * 256 + 256; omega

theorem final0_3 : (dat0 V c).arrAt 3 cfg0.N
    = fun i : S65536x768.Idx => stacked V c (i 0 : Fin 65536) (wide768 (i 1 : Fin 768)) :=
  (dat0 V c).arrAt_eq_of_cover 3 _ (fun t _ => flushed0_3 V c t) (cover0_3' )

theorem final0_4 : (dat0 V c).arrAt 4 cfg0.N
    = fun i : S65536x256.Idx => stacked V c (i 0 : Fin 65536) (wide256 (i 1 : Fin 256)) :=
  (dat0 V c).arrAt_eq_of_cover 4 _ (fun t _ => flushed0_4 V c t) (cover0_4' )

end Region0

/-! ## Region 1: the 65536 leaves, 64 points -/

section Region1

theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

abbrev row1 (t : Fin cfg1.N) (p : Fin 1024) : Fin 65536 :=
  ⟨t.val * 1024 + p.val, by have := t.isLt; have e : cfg1.N = 64 := N_1; have := p.isLt; omega⟩

theorem blk1_0 (t : Fin cfg1.N) (p : Fin 1024) (k : Fin 256) :
    iblk1 V c 0 t (ix2 p k) = (V c main_call0_v9 : FVec Ideal S65536x256 .f32) (ix2 (row1 t p) k) := by
  obtain ⟨e0, e1, -⟩ := idx1 t
  show V c main_call0_v9 (((cfg1.win 0).blk t).view.emb (ix2 p k)) = _
  refine congrArg (V c main_call0_v9) (funext fun a => Fin.ext ?_)
  match a with
  | ⟨0, _⟩ => show win1_0.index t (0 : Fin 2) * 1024 + 1 * p.val = t.val * 1024 + p.val; omega
  | ⟨1, _⟩ => show win1_0.index t (1 : Fin 2) * 256 + 1 * k.val = k.val; omega

theorem blk1_1 (t : Fin cfg1.N) (k : Fin 256) (j : Fin 768) :
    iblk1 V c 1 t (ix2 k j) = (V c main_call0_v12 : FVec Ideal S256x768 .f32) (ix2 k j) := by
  obtain ⟨-, -, e0, e1, -⟩ := idx1 t
  show V c main_call0_v12 (((cfg1.win 1).blk t).view.emb (ix2 k j)) = _
  refine congrArg (V c main_call0_v12) (funext fun a => Fin.ext ?_)
  match a with
  | ⟨0, _⟩ => show win1_1.index t (0 : Fin 2) * 256 + 1 * k.val = k.val; omega
  | ⟨1, _⟩ => show win1_1.index t (1 : Fin 2) * 768 + 1 * j.val = j.val; omega

theorem blk1_2 (t : Fin cfg1.N) (j : Fin 768) :
    iblk1 V c 2 t (ix2 (0 : Fin 1) j) = (V c main_call0_v11 : FVec Ideal S1x768 .f32) (ix2 (0 : Fin 1) j) := by
  obtain ⟨-, -, -, -, e0, e1, -⟩ := idx1 t
  show V c main_call0_v11 (((cfg1.win 2).blk t).view.emb (ix2 (0 : Fin 1) j)) = _
  refine congrArg (V c main_call0_v11) (funext fun a => Fin.ext ?_)
  match a with
  | ⟨0, _⟩ => show win1_2.index t (0 : Fin 2) * 1 + 1 * 0 = 0; omega
  | ⟨1, _⟩ => show win1_2.index t (1 : Fin 2) * 768 + 1 * j.val = j.val; omega

abbrev leafX : FVec Ideal S65536x256 .f32 := V c main_call0_v9
abbrev leafW : FVec Ideal S256x768 .f32 := V c main_call0_v12
abbrev leafB : FVec Ideal S1x768 .f32 := V c main_call0_v11

/-- The leaves' gates as the region computes them: a leaf's features times the transposed weights plus the bias row. -/
def leafPre (n : Fin 65536) (j : Fin 768) : EReal :=
  (∑ k : Fin 256, leafX V c (ix2 n k) * leafW V c (ix2 k j)) + leafB V c (ix2 (0 : Fin 1) j)

theorem leafPre_blk (t : Fin cfg1.N) (x0 : Vec Ideal S1024x256 .f32) (x1 : Vec Ideal S256x768 .f32) (x2 : Vec Ideal S1x768 .f32)
    (h0 : ∀ (p : Fin 1024) (k : Fin 256), x0 (ix2 p k) = leafX V c (ix2 (row1 t p) k))
    (h1 : ∀ (k : Fin 256) (j : Fin 768), x1 (ix2 k j) = leafW V c (ix2 k j))
    (h2 : ∀ j : Fin 768, x2 (ix2 (0 : Fin 1) j) = leafB V c (ix2 (0 : Fin 1) j)) (p : Fin 1024) (j : Fin 768) :
    (∑ k : Fin 256, x0 (ix2 p k) * x1 (ix2 k j)) + x2 (ix2 (0 : Fin 1) j) = leafPre V c (row1 t p) j := by
  unfold leafPre
  rw [h2]
  refine congrArg (· + leafB V c (ix2 (0 : Fin 1) j)) (Finset.sum_congr rfl fun k _ => ?_)
  rw [h0, h1]

/-- The leaves' formulas look at one leaf's row only. -/
theorem leafC_rows {M N : Nat} (e : Fin M → Fin N) (g' : Fin M → Fin 768 → EReal) (g : Fin N → Fin 768 → EReal)
    (h : ∀ (p : Fin M) (j : Fin 768), g' p j = g (e p) j) (p : Fin M) (q : Fin 256) :
    leafC g' (ix2 p q) = leafC g (ix2 (e p) q) := by
  show Ideal.logistic (g' p (colI q)) * Ideal.tanh (g' p (colU q)) = Ideal.logistic (g (e p) (colI q)) * Ideal.tanh (g (e p) (colU q))
  rw [h, h]

theorem leafH_rows {M N : Nat} (e : Fin M → Fin N) (g' : Fin M → Fin 768 → EReal) (g : Fin N → Fin 768 → EReal)
    (h : ∀ (p : Fin M) (j : Fin 768), g' p j = g (e p) j) (p : Fin M) (q : Fin 256) :
    leafH g' (ix2 p q) = leafH g (ix2 (e p) q) := by
  show Ideal.logistic (g' p (colO q)) * Ideal.tanh (Ideal.logistic (g' p (colI q)) * Ideal.tanh (g' p (colU q)))
    = Ideal.logistic (g (e p) (colO q)) * Ideal.tanh (Ideal.logistic (g (e p) (colI q)) * Ideal.tanh (g (e p) (colU q)))
  rw [h, h, h]

theorem flushed1_3 (t : Fin cfg1.N) :
    (dat1 V c).flushed 3 t = ((cfg1.win 3).blk t).view.read (Elt Ideal) (leafC (N := 65536) (leafPre V c)) := by
  show (cfg1.win 3).cut (grid1.coords t) ((dat1 V c).after 3 t) = _
  rw [after1_3]
  unfold out1_3
  rw [View.canon_unit_zero hz2]
  simp only [View.ld_unit_zero (S := S1024x256) hz2, View.ld_unit_zero (S := S256x768) hz2, View.ld_unit_zero (S := S1x768) hz2]
  rw [pay1_C]
  funext y
  obtain ⟨p, q, rfl⟩ : ∃ (p : Fin 1024) (q : Fin 256), y = ix2 p q := ⟨y 0, y 1, eq_ix2 y⟩
  obtain ⟨-, -, -, -, -, -, e0, e1, -⟩ := idx1 t
  have he : ((cfg1.win 3).blk t).view.emb (ix2 p q) = ix2 (row1 t p) q := funext fun a => Fin.ext (by
    match a with
    | ⟨0, _⟩ => show win1_3.index t (0 : Fin 2) * 1024 + 1 * p.val = t.val * 1024 + p.val; omega
    | ⟨1, _⟩ => show win1_3.index t (1 : Fin 2) * 256 + 1 * q.val = q.val; omega)
  show _ = leafC (N := 65536) (leafPre V c) (((cfg1.win 3).blk t).view.emb (ix2 p q))
  rw [he]
  exact leafC_rows (row1 t) _ _ (leafPre_blk V c t _ _ _ (blk1_0 V c t) (blk1_1 V c t) (blk1_2 V c t)) p q

theorem flushed1_4 (t : Fin cfg1.N) :
    (dat1 V c).flushed 4 t = ((cfg1.win 4).blk t).view.read (Elt Ideal) (leafH (N := 65536) (leafPre V c)) := by
  show (cfg1.win 4).cut (grid1.coords t) ((dat1 V c).after 4 t) = _
  rw [after1_4]
  unfold out1_4
  rw [View.canon_unit_zero hz2]
  simp only [View.ld_unit_zero (S := S1024x256) hz2, View.ld_unit_zero (S := S256x768) hz2, View.ld_unit_zero (S := S1x768) hz2]
  rw [pay1_H]
  funext y
  obtain ⟨p, q, rfl⟩ : ∃ (p : Fin 1024) (q : Fin 256), y = ix2 p q := ⟨y 0, y 1, eq_ix2 y⟩
  obtain ⟨-, -, -, -, -, -, -, -, e0, e1⟩ := idx1 t
  have he : ((cfg1.win 4).blk t).view.emb (ix2 p q) = ix2 (row1 t p) q := funext fun a => Fin.ext (by
    match a with
    | ⟨0, _⟩ => show win1_4.index t (0 : Fin 2) * 1024 + 1 * p.val = t.val * 1024 + p.val; omega
    | ⟨1, _⟩ => show win1_4.index t (1 : Fin 2) * 256 + 1 * q.val = q.val; omega)
  show _ = leafH (N := 65536) (leafPre V c) (((cfg1.win 4).blk t).view.emb (ix2 p q))
  rw [he]
  exact leafH_rows (row1 t) _ _ (leafPre_blk V c t _ _ _ (blk1_0 V c t) (blk1_1 V c t) (blk1_2 V c t)) p q

theorem cover1_3 (i : S65536x256.Idx) :
    ∃ t : Fin cfg1.N, (cfg1.win 3).flush t = true ∧ i ∈ ((cfg1.win 3).blk t).view.set := by
  have hi0 : (i 0).val < 65536 := (i 0).isLt
  have hi1 : (i 1).val < 256 := (i 1).isLt
  have eN : cfg1.N = 64 := N_1
  let t : Fin cfg1.N := ⟨(i 0).val / 1024, by omega⟩
  obtain ⟨-, -, -, -, -, -, e30, e31, e40, e41⟩ := idx1 t
  refine ⟨t, flush1_3 t, ?_⟩
  show i ∈ ((View.whole main_call0_v13_0).slice (win1_3.rect t)).set
  rw [View.set_slice_whole, Rect.mem_set_unit]
  intro a
  match a with
  | ⟨0, _⟩ => show win1_3.index t (0 : Fin 2) * 1024 ≤ (i 0).val ∧ (i 0).val < win1_3.index t (0 : Fin 2) * 1024 + 1024; have : t.val = (i 0).val / 1024 := rfl; omega
  | ⟨1, _⟩ => show win1_3.index t (1 : Fin 2) * 256 ≤ (i 1).val ∧ (i 1).val < win1_3.index t (1 : Fin 2) * 256 + 256; omega

theorem cover1_4 (i : S65536x256.Idx) :
    ∃ t : Fin cfg1.N, (cfg1.win 4).flush t = true ∧ i ∈ ((cfg1.win 4).blk t).view.set := by
  have hi0 : (i 0).val < 65536 := (i 0).isLt
  have hi1 : (i 1).val < 256 := (i 1).isLt
  have eN : cfg1.N = 64 := N_1
  let t : Fin cfg1.N := ⟨(i 0).val / 1024, by omega⟩
  obtain ⟨-, -, -, -, -, -, e30, e31, e40, e41⟩ := idx1 t
  refine ⟨t, flush1_4 t, ?_⟩
  show i ∈ ((View.whole main_call0_v13_1).slice (win1_4.rect t)).set
  rw [View.set_slice_whole, Rect.mem_set_unit]
  intro a
  match a with
  | ⟨0, _⟩ => show win1_4.index t (0 : Fin 2) * 1024 ≤ (i 0).val ∧ (i 0).val < win1_4.index t (0 : Fin 2) * 1024 + 1024; have : t.val = (i 0).val / 1024 := rfl; omega
  | ⟨1, _⟩ => show win1_4.index t (1 : Fin 2) * 256 ≤ (i 1).val ∧ (i 1).val < win1_4.index t (1 : Fin 2) * 256 + 256; omega

theorem final1_3 : (dat1 V c).arrAt 3 cfg1.N = leafC (N := 65536) (leafPre V c) :=
  (dat1 V c).arrAt_eq_of_cover 3 _ (fun t _ => flushed1_3 V c t) (cover1_3)

theorem final1_4 : (dat1 V c).arrAt 4 cfg1.N = leafH (N := 65536) (leafPre V c) :=
  (dat1 V c).arrAt_eq_of_cover 4 _ (fun t _ => flushed1_4 V c t) (cover1_4)

end Region1

/-! ## Region 2: 32768 nodes, 32 points -/

section Region2
variable (hWi : ∀ (k : Fin 256) (j : Fin 768), (V c main_call0_v20 : FVec Ideal S256x768 .f32) (ix2 k j) = Wi (ix2 j k))
  (hBi : ∀ j : Fin 768, (V c main_call0_v22 : FVec Ideal S1x768 .f32) (ix2 (0 : Fin 1) j) = bi (ix1 j))
  (hWf : ∀ (k : Fin 256) (q : Fin 256), (V c main_call0_v21 : FVec Ideal S256x256 .f32) (ix2 k q) = Wf (ix2 q k))
  (hBf : ∀ q : Fin 256, (V c main_call0_v23 : FVec Ideal S1x256 .f32) (ix2 (0 : Fin 1) q) = bf (ix1 q))

/-- The printed index maps over the grid: the row-blocked windows sit at block t, the whole ones at block 0. -/
theorem idx2 : ∀ t : Fin cfg2.N,
    win2_0.index t (0 : Fin 2) = t.val ∧ win2_0.index t (1 : Fin 2) = 0
    ∧ win2_1.index t (0 : Fin 3) = t.val ∧ win2_1.index t (1 : Fin 3) = 0 ∧ win2_1.index t (2 : Fin 3) = 0
    ∧ win2_2.index t (0 : Fin 3) = t.val ∧ win2_2.index t (1 : Fin 3) = 0 ∧ win2_2.index t (2 : Fin 3) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0
    ∧ win2_9.index t (0 : Fin 2) = t.val ∧ win2_9.index t (1 : Fin 2) = 0 :=
  (by decide +kernel : ∀ t : Fin grid2.N, _)

/-- Row p of point t's blocks is row 1024·t + p of the arrays. -/
abbrev row2 (t : Fin cfg2.N) (p : Fin 1024) : Fin 32768 :=
  ⟨t.val * 1024 + p.val, by have := t.isLt; have e : cfg2.N = 32 := N_2; have := p.isLt; omega⟩

theorem blk2_0 (t : Fin cfg2.N) (p : Fin 1024) (j : Fin 768) :
    iblk2 V c 0 t (ix2 p j) = (V c main_call0_v24 : FVec Ideal S32768x768 .f32) (ix2 (row2 t p) j) := by
  obtain ⟨e0, e1, -⟩ := idx2 t
  show V c main_call0_v24 (((cfg2.win 0).blk t).view.emb (ix2 p j)) = _
  refine congrArg (V c main_call0_v24) (funext fun a => Fin.ext ?_)
  match a with
  | ⟨0, _⟩ => show win2_0.index t (0 : Fin 2) * 1024 + 1 * p.val = t.val * 1024 + p.val; omega
  | ⟨1, _⟩ => show win2_0.index t (1 : Fin 2) * 768 + 1 * j.val = j.val; omega

theorem blk2_3 (t : Fin cfg2.N) (p : Fin 1024) (q : Fin 256) :
    iblk2 V c 3 t (ix2 p q) = (V c main_call0_v25 : FVec Ideal S32768x256 .f32) (ix2 (row2 t p) q) := by
  obtain ⟨-, -, -, -, -, -, -, -, e0, e1, -⟩ := idx2 t
  show V c main_call0_v25 (((cfg2.win 3).blk t).view.emb (ix2 p q)) = _
  refine congrArg (V c main_call0_v25) (funext fun a => Fin.ext ?_)
  match a with
  | ⟨0, _⟩ => show win2_3.index t (0 : Fin 2) * 1024 + 1 * p.val = t.val * 1024 + p.val; omega
  | ⟨1, _⟩ => show win2_3.index t (1 : Fin 2) * 256 + 1 * q.val = q.val; omega

theorem blk2_1 (t : Fin cfg2.N) (p : Fin 1024) (a : Fin 2) (k : Fin 256) :
    iblk2 V c 1 t (ix3 p a k) = (V c main_call0_v27 : FVec Ideal S32768x2x256 .f32) (ix3 (row2 t p) a k) := by
  obtain ⟨-, -, e0, e1, e2, -⟩ := idx2 t
  show V c main_call0_v27 (((cfg2.win 1).blk t).view.emb (ix3 p a k)) = _
  refine congrArg (V c main_call0_v27) (funext fun x => Fin.ext ?_)
  match x with
  | ⟨0, _⟩ => show win2_1.index t (0 : Fin 3) * 1024 + 1 * p.val = t.val * 1024 + p.val; omega
  | ⟨1, _⟩ => show win2_1.index t (1 : Fin 3) * 2 + 1 * a.val = a.val; omega
  | ⟨2, _⟩ => show win2_1.index t (2 : Fin 3) * 256 + 1 * k.val = k.val; omega

theorem blk2_2 (t : Fin cfg2.N) (p : Fin 1024) (a : Fin 2) (k : Fin 256) :
    iblk2 V c 2 t (ix3 p a k) = (V c main_call0_v29 : FVec Ideal S32768x2x256 .f32) (ix3 (row2 t p) a k) := by
  obtain ⟨-, -, -, -, -, e0, e1, e2, -⟩ := idx2 t
  show V c main_call0_v29 (((cfg2.win 2).blk t).view.emb (ix3 p a k)) = _
  refine congrArg (V c main_call0_v29) (funext fun x => Fin.ext ?_)
  match x with
  | ⟨0, _⟩ => show win2_2.index t (0 : Fin 3) * 1024 + 1 * p.val = t.val * 1024 + p.val; omega
  | ⟨1, _⟩ => show win2_2.index t (1 : Fin 3) * 2 + 1 * a.val = a.val; omega
  | ⟨2, _⟩ => show win2_2.index t (2 : Fin 3) * 256 + 1 * k.val = k.val; omega

theorem blk2_4 (t : Fin cfg2.N) (k : Fin 256) (j : Fin 768) :
    iblk2 V c 4 t (ix2 k j) = (V c main_call0_v20 : FVec Ideal S256x768 .f32) (ix2 k j) := by
  obtain ⟨-, -, -, -, -, -, -, -, -, -, e0, e1, -⟩ := idx2 t
  show V c main_call0_v20 (((cfg2.win 4).blk t).view.emb (ix2 k j)) = _
  refine congrArg (V c main_call0_v20) (funext fun a => Fin.ext ?_)
  match a with
  | ⟨0, _⟩ => show win2_4.index t (0 : Fin 2) * 256 + 1 * k.val = k.val; omega
  | ⟨1, _⟩ => show win2_4.index t (1 : Fin 2) * 768 + 1 * j.val = j.val; omega

theorem blk2_5 (t : Fin cfg2.N) (j : Fin 768) :
    iblk2 V c 5 t (ix2 (0 : Fin 1) j) = (V c main_call0_v22 : FVec Ideal S1x768 .f32) (ix2 (0 : Fin 1) j) := by
  obtain ⟨-, -, -, -, -, -, -, -, -, -, -, -, e0, e1, -⟩ := idx2 t
  show V c main_call0_v22 (((cfg2.win 5).blk t).view.emb (ix2 (0 : Fin 1) j)) = _
  refine congrArg (V c main_call0_v22) (funext fun a => Fin.ext ?_)
  match a with
  | ⟨0, _⟩ => show win2_5.index t (0 : Fin 2) * 1 + 1 * 0 = 0; omega
  | ⟨1, _⟩ => show win2_5.index t (1 : Fin 2) * 768 + 1 * j.val = j.val; omega

theorem blk2_6 (t : Fin cfg2.N) (k : Fin 256) (q : Fin 256) :
    iblk2 V c 6 t (ix2 k q) = (V c main_call0_v21 : FVec Ideal S256x256 .f32) (ix2 k q) := by
  obtain ⟨-, -, -, -, -, -, -, -, -, -, -, -, -, -, e0, e1, -⟩ := idx2 t
  show V c main_call0_v21 (((cfg2.win 6).blk t).view.emb (ix2 k q)) = _
  refine congrArg (V c main_call0_v21) (funext fun a => Fin.ext ?_)
  match a with
  | ⟨0, _⟩ => show win2_6.index t (0 : Fin 2) * 256 + 1 * k.val = k.val; omega
  | ⟨1, _⟩ => show win2_6.index t (1 : Fin 2) * 256 + 1 * q.val = q.val; omega

theorem blk2_7 (t : Fin cfg2.N) (q : Fin 256) :
    iblk2 V c 7 t (ix2 (0 : Fin 1) q) = (V c main_call0_v23 : FVec Ideal S1x256 .f32) (ix2 (0 : Fin 1) q) := by
  obtain ⟨-, -, -, -, -, -, -, -, -, -, -, -, -, -, -, -, e0, e1, -⟩ := idx2 t
  show V c main_call0_v23 (((cfg2.win 7).blk t).view.emb (ix2 (0 : Fin 1) q)) = _
  refine congrArg (V c main_call0_v23) (funext fun a => Fin.ext ?_)
  match a with
  | ⟨0, _⟩ => show win2_7.index t (0 : Fin 2) * 1 + 1 * 0 = 0; omega
  | ⟨1, _⟩ => show win2_7.index t (1 : Fin 2) * 256 + 1 * q.val = q.val; omega

/-- The child-a slab the body loads from a children block is child a's rows of the block. -/
theorem slab2 (x : Vec Ideal S1024x2x256 .f32) (p : Fin 1024) (k : Fin 256) :
    View.ld x r2_0 (ix3 p (0 : Fin 1) k) = x (ix3 p (0 : Fin 2) k)
    ∧ View.ld x r2_1 (ix3 p (0 : Fin 1) k) = x (ix3 p (1 : Fin 2) k) := by
  constructor
  · show x (r2_0.idx (ix3 p (0 : Fin 1) k)) = _
    refine congrArg x (funext fun a => Fin.ext ?_)
    match a with
    | ⟨0, _⟩ => show 0 + 1 * p.val = p.val; omega
    | ⟨1, _⟩ => show 0 + 1 * 0 = 0; omega
    | ⟨2, _⟩ => show 0 + 1 * k.val = k.val; omega
  · show x (r2_1.idx (ix3 p (0 : Fin 1) k)) = _
    refine congrArg x (funext fun a => Fin.ext ?_)
    match a with
    | ⟨0, _⟩ => show 0 + 1 * p.val = p.val; omega
    | ⟨1, _⟩ => show 1 + 1 * 0 = 1; omega
    | ⟨2, _⟩ => show 0 + 1 * k.val = k.val; omega

include hWi hBi hWf hBf in
/-- What point t writes back to the cell-state output is block t of the level's cellC of the input arrays. -/
theorem flushed2_8 (t : Fin cfg2.N) :
    (dat2 V c).flushed 8 t = ((cfg2.win 8).blk t).view.read (Elt Ideal)
      (cellC (N := 32768) (V c main_call0_v24) (V c main_call0_v25) (V c main_call0_v27) (V c main_call0_v29) Wi bi Wf bf) := by
  show (cfg2.win 8).cut (grid2.coords t) ((dat2 V c).after 8 t) = _
  rw [after2_8]
  unfold out2_8
  rw [View.canon_unit_zero hz2]
  simp only [View.ld_unit_zero (S := S1024x768) hz2, View.ld_unit_zero (S := S256x768) hz2, View.ld_unit_zero (S := S1x768) hz2,
    View.ld_unit_zero (S := S256x256) hz2, View.ld_unit_zero (S := S1x256) hz2, View.ld_unit_zero (S := S1024x256) hz2]
  rw [pay2_C _ _ _ _ _ _ _ _ _ _ (iblk2 V c 1 t) (iblk2 V c 2 t) Wi bi Wf bf
    (fun p k => (slab2 (iblk2 V c 1 t) p k).1) (fun p k => (slab2 (iblk2 V c 1 t) p k).2)
    (fun p k => (slab2 (iblk2 V c 2 t) p k).1) (fun p k => (slab2 (iblk2 V c 2 t) p k).2)
    (fun k j => (blk2_4 V c t k j).trans (hWi k j)) (fun j => (blk2_5 V c t j).trans (hBi j))
    (fun k q => (blk2_6 V c t k q).trans (hWf k q)) (fun q => (blk2_7 V c t q).trans (hBf q))]
  funext y
  obtain ⟨p, q, rfl⟩ : ∃ (p : Fin 1024) (q : Fin 256), y = ix2 p q := ⟨y 0, y 1, eq_ix2 y⟩
  obtain ⟨-, -, -, -, -, -, -, -, -, -, -, -, -, -, -, -, -, -, e0, e1, -⟩ := idx2 t
  have he : ((cfg2.win 8).blk t).view.emb (ix2 p q) = ix2 (row2 t p) q := funext fun a => Fin.ext (by
    match a with
    | ⟨0, _⟩ => show win2_8.index t (0 : Fin 2) * 1024 + 1 * p.val = t.val * 1024 + p.val; omega
    | ⟨1, _⟩ => show win2_8.index t (1 : Fin 2) * 256 + 1 * q.val = q.val; omega)
  show _ = cellC (N := 32768) (V c main_call0_v24) (V c main_call0_v25) (V c main_call0_v27) (V c main_call0_v29) Wi bi Wf bf
    (((cfg2.win 8).blk t).view.emb (ix2 p q))
  rw [he]
  exact cellC_rows (row2 t) _ _ _ _ _ _ _ _ Wi bi Wf bf (blk2_0 V c t) (blk2_3 V c t) (blk2_1 V c t) (blk2_2 V c t) p q

include hWi hBi hWf hBf in
theorem flushed2_9 (t : Fin cfg2.N) :
    (dat2 V c).flushed 9 t = ((cfg2.win 9).blk t).view.read (Elt Ideal)
      (cellH (N := 32768) (V c main_call0_v24) (V c main_call0_v25) (V c main_call0_v27) (V c main_call0_v29) Wi bi Wf bf) := by
  show (cfg2.win 9).cut (grid2.coords t) ((dat2 V c).after 9 t) = _
  rw [after2_9]
  unfold out2_9
  rw [View.canon_unit_zero hz2]
  simp only [View.ld_unit_zero (S := S1024x768) hz2, View.ld_unit_zero (S := S256x768) hz2, View.ld_unit_zero (S := S1x768) hz2,
    View.ld_unit_zero (S := S256x256) hz2, View.ld_unit_zero (S := S1x256) hz2, View.ld_unit_zero (S := S1024x256) hz2]
  rw [pay2_H _ _ _ _ _ _ _ _ _ _ (iblk2 V c 1 t) (iblk2 V c 2 t) Wi bi Wf bf
    (fun p k => (slab2 (iblk2 V c 1 t) p k).1) (fun p k => (slab2 (iblk2 V c 1 t) p k).2)
    (fun p k => (slab2 (iblk2 V c 2 t) p k).1) (fun p k => (slab2 (iblk2 V c 2 t) p k).2)
    (fun k j => (blk2_4 V c t k j).trans (hWi k j)) (fun j => (blk2_5 V c t j).trans (hBi j))
    (fun k q => (blk2_6 V c t k q).trans (hWf k q)) (fun q => (blk2_7 V c t q).trans (hBf q))]
  funext y
  obtain ⟨p, q, rfl⟩ : ∃ (p : Fin 1024) (q : Fin 256), y = ix2 p q := ⟨y 0, y 1, eq_ix2 y⟩
  obtain ⟨-, -, -, -, -, -, -, -, -, -, -, -, -, -, -, -, -, -, -, -, e0, e1⟩ := idx2 t
  have he : ((cfg2.win 9).blk t).view.emb (ix2 p q) = ix2 (row2 t p) q := funext fun a => Fin.ext (by
    match a with
    | ⟨0, _⟩ => show win2_9.index t (0 : Fin 2) * 1024 + 1 * p.val = t.val * 1024 + p.val; omega
    | ⟨1, _⟩ => show win2_9.index t (1 : Fin 2) * 256 + 1 * q.val = q.val; omega)
  show _ = cellH (N := 32768) (V c main_call0_v24) (V c main_call0_v25) (V c main_call0_v27) (V c main_call0_v29) Wi bi Wf bf
    (((cfg2.win 9).blk t).view.emb (ix2 p q))
  rw [he]
  exact cellH_rows (row2 t) _ _ _ _ _ _ _ _ Wi bi Wf bf (blk2_0 V c t) (blk2_3 V c t) (blk2_1 V c t) (blk2_2 V c t) p q

/-- Every row of output 8 is in the block of the point that holds it. -/
theorem cover2_8 (i : S32768x256.Idx) :
    ∃ t : Fin cfg2.N, (cfg2.win 8).flush t = true ∧ i ∈ ((cfg2.win 8).blk t).view.set := by
  have hi0 : (i 0).val < 32768 := (i 0).isLt
  have hi1 : (i 1).val < 256 := (i 1).isLt
  have eN : cfg2.N = 32 := N_2
  let t : Fin cfg2.N := ⟨(i 0).val / 1024, by omega⟩
  obtain ⟨-, -, -, -, -, -, -, -, -, -, -, -, -, -, -, -, -, -, e80, e81, e90, e91⟩ := idx2 t
  refine ⟨t, flush2_8 t, ?_⟩
  show i ∈ ((View.whole main_call0_v30_0).slice (win2_8.rect t)).set
  rw [View.set_slice_whole, Rect.mem_set_unit]
  intro a
  match a with
  | ⟨0, _⟩ => show win2_8.index t (0 : Fin 2) * 1024 ≤ (i 0).val ∧ (i 0).val < win2_8.index t (0 : Fin 2) * 1024 + 1024; have : t.val = (i 0).val / 1024 := rfl; omega
  | ⟨1, _⟩ => show win2_8.index t (1 : Fin 2) * 256 ≤ (i 1).val ∧ (i 1).val < win2_8.index t (1 : Fin 2) * 256 + 256; omega

/-- Every row of output 9 is in the block of the point that holds it. -/
theorem cover2_9 (i : S32768x256.Idx) :
    ∃ t : Fin cfg2.N, (cfg2.win 9).flush t = true ∧ i ∈ ((cfg2.win 9).blk t).view.set := by
  have hi0 : (i 0).val < 32768 := (i 0).isLt
  have hi1 : (i 1).val < 256 := (i 1).isLt
  have eN : cfg2.N = 32 := N_2
  let t : Fin cfg2.N := ⟨(i 0).val / 1024, by omega⟩
  obtain ⟨-, -, -, -, -, -, -, -, -, -, -, -, -, -, -, -, -, -, e80, e81, e90, e91⟩ := idx2 t
  refine ⟨t, flush2_9 t, ?_⟩
  show i ∈ ((View.whole main_call0_v30_1).slice (win2_9.rect t)).set
  rw [View.set_slice_whole, Rect.mem_set_unit]
  intro a
  match a with
  | ⟨0, _⟩ => show win2_9.index t (0 : Fin 2) * 1024 ≤ (i 0).val ∧ (i 0).val < win2_9.index t (0 : Fin 2) * 1024 + 1024; have : t.val = (i 0).val / 1024 := rfl; omega
  | ⟨1, _⟩ => show win2_9.index t (1 : Fin 2) * 256 ≤ (i 1).val ∧ (i 1).val < win2_9.index t (1 : Fin 2) * 256 + 256; omega

include hWi hBi hWf hBf in
/-- After the region the two outputs are the level's cell and hidden state of the region's input arrays. -/
theorem final2_8 : (dat2 V c).arrAt 8 cfg2.N
    = cellC (N := 32768) (V c main_call0_v24) (V c main_call0_v25) (V c main_call0_v27) (V c main_call0_v29) Wi bi Wf bf :=
  (dat2 V c).arrAt_eq_of_cover 8 _ (fun t _ => flushed2_8 V c Wi bi Wf bf hWi hBi hWf hBf t) (cover2_8)

include hWi hBi hWf hBf in
theorem final2_9 : (dat2 V c).arrAt 9 cfg2.N
    = cellH (N := 32768) (V c main_call0_v24) (V c main_call0_v25) (V c main_call0_v27) (V c main_call0_v29) Wi bi Wf bf :=
  (dat2 V c).arrAt_eq_of_cover 9 _ (fun t _ => flushed2_9 V c Wi bi Wf bf hWi hBi hWf hBf t) (cover2_9)

end Region2

/-! ## Region 3: 16384 nodes, 16 points -/

section Region3
variable (hWi : ∀ (k : Fin 256) (j : Fin 768), (V c main_call0_v20 : FVec Ideal S256x768 .f32) (ix2 k j) = Wi (ix2 j k))
  (hBi : ∀ j : Fin 768, (V c main_call0_v22 : FVec Ideal S1x768 .f32) (ix2 (0 : Fin 1) j) = bi (ix1 j))
  (hWf : ∀ (k : Fin 256) (q : Fin 256), (V c main_call0_v21 : FVec Ideal S256x256 .f32) (ix2 k q) = Wf (ix2 q k))
  (hBf : ∀ q : Fin 256, (V c main_call0_v23 : FVec Ideal S1x256 .f32) (ix2 (0 : Fin 1) q) = bf (ix1 q))

/-- The printed index maps over the grid: the row-blocked windows sit at block t, the whole ones at block 0. -/
theorem idx3 : ∀ t : Fin cfg3.N,
    win3_0.index t (0 : Fin 2) = t.val ∧ win3_0.index t (1 : Fin 2) = 0
    ∧ win3_1.index t (0 : Fin 3) = t.val ∧ win3_1.index t (1 : Fin 3) = 0 ∧ win3_1.index t (2 : Fin 3) = 0
    ∧ win3_2.index t (0 : Fin 3) = t.val ∧ win3_2.index t (1 : Fin 3) = 0 ∧ win3_2.index t (2 : Fin 3) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0
    ∧ win3_9.index t (0 : Fin 2) = t.val ∧ win3_9.index t (1 : Fin 2) = 0 :=
  (by decide +kernel : ∀ t : Fin grid3.N, _)

/-- Row p of point t's blocks is row 1024·t + p of the arrays. -/
abbrev row3 (t : Fin cfg3.N) (p : Fin 1024) : Fin 16384 :=
  ⟨t.val * 1024 + p.val, by have := t.isLt; have e : cfg3.N = 16 := N_3; have := p.isLt; omega⟩

theorem blk3_0 (t : Fin cfg3.N) (p : Fin 1024) (j : Fin 768) :
    iblk3 V c 0 t (ix2 p j) = (V c main_call0_v35 : FVec Ideal S16384x768 .f32) (ix2 (row3 t p) j) := by
  obtain ⟨e0, e1, -⟩ := idx3 t
  show V c main_call0_v35 (((cfg3.win 0).blk t).view.emb (ix2 p j)) = _
  refine congrArg (V c main_call0_v35) (funext fun a => Fin.ext ?_)
  match a with
  | ⟨0, _⟩ => show win3_0.index t (0 : Fin 2) * 1024 + 1 * p.val = t.val * 1024 + p.val; omega
  | ⟨1, _⟩ => show win3_0.index t (1 : Fin 2) * 768 + 1 * j.val = j.val; omega

theorem blk3_3 (t : Fin cfg3.N) (p : Fin 1024) (q : Fin 256) :
    iblk3 V c 3 t (ix2 p q) = (V c main_call0_v36 : FVec Ideal S16384x256 .f32) (ix2 (row3 t p) q) := by
  obtain ⟨-, -, -, -, -, -, -, -, e0, e1, -⟩ := idx3 t
  show V c main_call0_v36 (((cfg3.win 3).blk t).view.emb (ix2 p q)) = _
  refine congrArg (V c main_call0_v36) (funext fun a => Fin.ext ?_)
  match a with
  | ⟨0, _⟩ => show win3_3.index t (0 : Fin 2) * 1024 + 1 * p.val = t.val * 1024 + p.val; omega
  | ⟨1, _⟩ => show win3_3.index t (1 : Fin 2) * 256 + 1 * q.val = q.val; omega

theorem blk3_1 (t : Fin cfg3.N) (p : Fin 1024) (a : Fin 2) (k : Fin 256) :
    iblk3 V c 1 t (ix3 p a k) = (V c main_call0_v38 : FVec Ideal S16384x2x256 .f32) (ix3 (row3 t p) a k) := by
  obtain ⟨-, -, e0, e1, e2, -⟩ := idx3 t
  show V c main_call0_v38 (((cfg3.win 1).blk t).view.emb (ix3 p a k)) = _
  refine congrArg (V c main_call0_v38) (funext fun x => Fin.ext ?_)
  match x with
  | ⟨0, _⟩ => show win3_1.index t (0 : Fin 3) * 1024 + 1 * p.val = t.val * 1024 + p.val; omega
  | ⟨1, _⟩ => show win3_1.index t (1 : Fin 3) * 2 + 1 * a.val = a.val; omega
  | ⟨2, _⟩ => show win3_1.index t (2 : Fin 3) * 256 + 1 * k.val = k.val; omega

theorem blk3_2 (t : Fin cfg3.N) (p : Fin 1024) (a : Fin 2) (k : Fin 256) :
    iblk3 V c 2 t (ix3 p a k) = (V c main_call0_v40 : FVec Ideal S16384x2x256 .f32) (ix3 (row3 t p) a k) := by
  obtain ⟨-, -, -, -, -, e0, e1, e2, -⟩ := idx3 t
  show V c main_call0_v40 (((cfg3.win 2).blk t).view.emb (ix3 p a k)) = _
  refine congrArg (V c main_call0_v40) (funext fun x => Fin.ext ?_)
  match x with
  | ⟨0, _⟩ => show win3_2.index t (0 : Fin 3) * 1024 + 1 * p.val = t.val * 1024 + p.val; omega
  | ⟨1, _⟩ => show win3_2.index t (1 : Fin 3) * 2 + 1 * a.val = a.val; omega
  | ⟨2, _⟩ => show win3_2.index t (2 : Fin 3) * 256 + 1 * k.val = k.val; omega

theorem blk3_4 (t : Fin cfg3.N) (k : Fin 256) (j : Fin 768) :
    iblk3 V c 4 t (ix2 k j) = (V c main_call0_v20 : FVec Ideal S256x768 .f32) (ix2 k j) := by
  obtain ⟨-, -, -, -, -, -, -, -, -, -, e0, e1, -⟩ := idx3 t
  show V c main_call0_v20 (((cfg3.win 4).blk t).view.emb (ix2 k j)) = _
  refine congrArg (V c main_call0_v20) (funext fun a => Fin.ext ?_)
  match a with
  | ⟨0, _⟩ => show win3_4.index t (0 : Fin 2) * 256 + 1 * k.val = k.val; omega
  | ⟨1, _⟩ => show win3_4.index t (1 : Fin 2) * 768 + 1 * j.val = j.val; omega

theorem blk3_5 (t : Fin cfg3.N) (j : Fin 768) :
    iblk3 V c 5 t (ix2 (0 : Fin 1) j) = (V c main_call0_v22 : FVec Ideal S1x768 .f32) (ix2 (0 : Fin 1) j) := by
  obtain ⟨-, -, -, -, -, -, -, -, -, -, -, -, e0, e1, -⟩ := idx3 t
  show V c main_call0_v22 (((cfg3.win 5).blk t).view.emb (ix2 (0 : Fin 1) j)) = _
  refine congrArg (V c main_call0_v22) (funext fun a => Fin.ext ?_)
  match a with
  | ⟨0, _⟩ => show win3_5.index t (0 : Fin 2) * 1 + 1 * 0 = 0; omega
  | ⟨1, _⟩ => show win3_5.index t (1 : Fin 2) * 768 + 1 * j.val = j.val; omega

theorem blk3_6 (t : Fin cfg3.N) (k : Fin 256) (q : Fin 256) :
    iblk3 V c 6 t (ix2 k q) = (V c main_call0_v21 : FVec Ideal S256x256 .f32) (ix2 k q) := by
  obtain ⟨-, -, -, -, -, -, -, -, -, -, -, -, -, -, e0, e1, -⟩ := idx3 t
  show V c main_call0_v21 (((cfg3.win 6).blk t).view.emb (ix2 k q)) = _
  refine congrArg (V c main_call0_v21) (funext fun a => Fin.ext ?_)
  match a with
  | ⟨0, _⟩ => show win3_6.index t (0 : Fin 2) * 256 + 1 * k.val = k.val; omega
  | ⟨1, _⟩ => show win3_6.index t (1 : Fin 2) * 256 + 1 * q.val = q.val; omega

theorem blk3_7 (t : Fin cfg3.N) (q : Fin 256) :
    iblk3 V c 7 t (ix2 (0 : Fin 1) q) = (V c main_call0_v23 : FVec Ideal S1x256 .f32) (ix2 (0 : Fin 1) q) := by
  obtain ⟨-, -, -, -, -, -, -, -, -, -, -, -, -, -, -, -, e0, e1, -⟩ := idx3 t
  show V c main_call0_v23 (((cfg3.win 7).blk t).view.emb (ix2 (0 : Fin 1) q)) = _
  refine congrArg (V c main_call0_v23) (funext fun a => Fin.ext ?_)
  match a with
  | ⟨0, _⟩ => show win3_7.index t (0 : Fin 2) * 1 + 1 * 0 = 0; omega
  | ⟨1, _⟩ => show win3_7.index t (1 : Fin 2) * 256 + 1 * q.val = q.val; omega

/-- The child-a slab the body loads from a children block is child a's rows of the block. -/
theorem slab3 (x : Vec Ideal S1024x2x256 .f32) (p : Fin 1024) (k : Fin 256) :
    View.ld x r3_0 (ix3 p (0 : Fin 1) k) = x (ix3 p (0 : Fin 2) k)
    ∧ View.ld x r3_1 (ix3 p (0 : Fin 1) k) = x (ix3 p (1 : Fin 2) k) := by
  constructor
  · show x (r3_0.idx (ix3 p (0 : Fin 1) k)) = _
    refine congrArg x (funext fun a => Fin.ext ?_)
    match a with
    | ⟨0, _⟩ => show 0 + 1 * p.val = p.val; omega
    | ⟨1, _⟩ => show 0 + 1 * 0 = 0; omega
    | ⟨2, _⟩ => show 0 + 1 * k.val = k.val; omega
  · show x (r3_1.idx (ix3 p (0 : Fin 1) k)) = _
    refine congrArg x (funext fun a => Fin.ext ?_)
    match a with
    | ⟨0, _⟩ => show 0 + 1 * p.val = p.val; omega
    | ⟨1, _⟩ => show 1 + 1 * 0 = 1; omega
    | ⟨2, _⟩ => show 0 + 1 * k.val = k.val; omega

include hWi hBi hWf hBf in
/-- What point t writes back to the cell-state output is block t of the level's cellC of the input arrays. -/
theorem flushed3_8 (t : Fin cfg3.N) :
    (dat3 V c).flushed 8 t = ((cfg3.win 8).blk t).view.read (Elt Ideal)
      (cellC (N := 16384) (V c main_call0_v35) (V c main_call0_v36) (V c main_call0_v38) (V c main_call0_v40) Wi bi Wf bf) := by
  show (cfg3.win 8).cut (grid3.coords t) ((dat3 V c).after 8 t) = _
  rw [after3_8]
  unfold out3_8
  rw [View.canon_unit_zero hz2]
  simp only [View.ld_unit_zero (S := S1024x768) hz2, View.ld_unit_zero (S := S256x768) hz2, View.ld_unit_zero (S := S1x768) hz2,
    View.ld_unit_zero (S := S256x256) hz2, View.ld_unit_zero (S := S1x256) hz2, View.ld_unit_zero (S := S1024x256) hz2]
  rw [pay3_C _ _ _ _ _ _ _ _ _ _ (iblk3 V c 1 t) (iblk3 V c 2 t) Wi bi Wf bf
    (fun p k => (slab3 (iblk3 V c 1 t) p k).1) (fun p k => (slab3 (iblk3 V c 1 t) p k).2)
    (fun p k => (slab3 (iblk3 V c 2 t) p k).1) (fun p k => (slab3 (iblk3 V c 2 t) p k).2)
    (fun k j => (blk3_4 V c t k j).trans (hWi k j)) (fun j => (blk3_5 V c t j).trans (hBi j))
    (fun k q => (blk3_6 V c t k q).trans (hWf k q)) (fun q => (blk3_7 V c t q).trans (hBf q))]
  funext y
  obtain ⟨p, q, rfl⟩ : ∃ (p : Fin 1024) (q : Fin 256), y = ix2 p q := ⟨y 0, y 1, eq_ix2 y⟩
  obtain ⟨-, -, -, -, -, -, -, -, -, -, -, -, -, -, -, -, -, -, e0, e1, -⟩ := idx3 t
  have he : ((cfg3.win 8).blk t).view.emb (ix2 p q) = ix2 (row3 t p) q := funext fun a => Fin.ext (by
    match a with
    | ⟨0, _⟩ => show win3_8.index t (0 : Fin 2) * 1024 + 1 * p.val = t.val * 1024 + p.val; omega
    | ⟨1, _⟩ => show win3_8.index t (1 : Fin 2) * 256 + 1 * q.val = q.val; omega)
  show _ = cellC (N := 16384) (V c main_call0_v35) (V c main_call0_v36) (V c main_call0_v38) (V c main_call0_v40) Wi bi Wf bf
    (((cfg3.win 8).blk t).view.emb (ix2 p q))
  rw [he]
  exact cellC_rows (row3 t) _ _ _ _ _ _ _ _ Wi bi Wf bf (blk3_0 V c t) (blk3_3 V c t) (blk3_1 V c t) (blk3_2 V c t) p q

include hWi hBi hWf hBf in
theorem flushed3_9 (t : Fin cfg3.N) :
    (dat3 V c).flushed 9 t = ((cfg3.win 9).blk t).view.read (Elt Ideal)
      (cellH (N := 16384) (V c main_call0_v35) (V c main_call0_v36) (V c main_call0_v38) (V c main_call0_v40) Wi bi Wf bf) := by
  show (cfg3.win 9).cut (grid3.coords t) ((dat3 V c).after 9 t) = _
  rw [after3_9]
  unfold out3_9
  rw [View.canon_unit_zero hz2]
  simp only [View.ld_unit_zero (S := S1024x768) hz2, View.ld_unit_zero (S := S256x768) hz2, View.ld_unit_zero (S := S1x768) hz2,
    View.ld_unit_zero (S := S256x256) hz2, View.ld_unit_zero (S := S1x256) hz2, View.ld_unit_zero (S := S1024x256) hz2]
  rw [pay3_H _ _ _ _ _ _ _ _ _ _ (iblk3 V c 1 t) (iblk3 V c 2 t) Wi bi Wf bf
    (fun p k => (slab3 (iblk3 V c 1 t) p k).1) (fun p k => (slab3 (iblk3 V c 1 t) p k).2)
    (fun p k => (slab3 (iblk3 V c 2 t) p k).1) (fun p k => (slab3 (iblk3 V c 2 t) p k).2)
    (fun k j => (blk3_4 V c t k j).trans (hWi k j)) (fun j => (blk3_5 V c t j).trans (hBi j))
    (fun k q => (blk3_6 V c t k q).trans (hWf k q)) (fun q => (blk3_7 V c t q).trans (hBf q))]
  funext y
  obtain ⟨p, q, rfl⟩ : ∃ (p : Fin 1024) (q : Fin 256), y = ix2 p q := ⟨y 0, y 1, eq_ix2 y⟩
  obtain ⟨-, -, -, -, -, -, -, -, -, -, -, -, -, -, -, -, -, -, -, -, e0, e1⟩ := idx3 t
  have he : ((cfg3.win 9).blk t).view.emb (ix2 p q) = ix2 (row3 t p) q := funext fun a => Fin.ext (by
    match a with
    | ⟨0, _⟩ => show win3_9.index t (0 : Fin 2) * 1024 + 1 * p.val = t.val * 1024 + p.val; omega
    | ⟨1, _⟩ => show win3_9.index t (1 : Fin 2) * 256 + 1 * q.val = q.val; omega)
  show _ = cellH (N := 16384) (V c main_call0_v35) (V c main_call0_v36) (V c main_call0_v38) (V c main_call0_v40) Wi bi Wf bf
    (((cfg3.win 9).blk t).view.emb (ix2 p q))
  rw [he]
  exact cellH_rows (row3 t) _ _ _ _ _ _ _ _ Wi bi Wf bf (blk3_0 V c t) (blk3_3 V c t) (blk3_1 V c t) (blk3_2 V c t) p q

/-- Every row of output 8 is in the block of the point that holds it. -/
theorem cover3_8 (i : S16384x256.Idx) :
    ∃ t : Fin cfg3.N, (cfg3.win 8).flush t = true ∧ i ∈ ((cfg3.win 8).blk t).view.set := by
  have hi0 : (i 0).val < 16384 := (i 0).isLt
  have hi1 : (i 1).val < 256 := (i 1).isLt
  have eN : cfg3.N = 16 := N_3
  let t : Fin cfg3.N := ⟨(i 0).val / 1024, by omega⟩
  obtain ⟨-, -, -, -, -, -, -, -, -, -, -, -, -, -, -, -, -, -, e80, e81, e90, e91⟩ := idx3 t
  refine ⟨t, flush3_8 t, ?_⟩
  show i ∈ ((View.whole main_call0_v41_0).slice (win3_8.rect t)).set
  rw [View.set_slice_whole, Rect.mem_set_unit]
  intro a
  match a with
  | ⟨0, _⟩ => show win3_8.index t (0 : Fin 2) * 1024 ≤ (i 0).val ∧ (i 0).val < win3_8.index t (0 : Fin 2) * 1024 + 1024; have : t.val = (i 0).val / 1024 := rfl; omega
  | ⟨1, _⟩ => show win3_8.index t (1 : Fin 2) * 256 ≤ (i 1).val ∧ (i 1).val < win3_8.index t (1 : Fin 2) * 256 + 256; omega

/-- Every row of output 9 is in the block of the point that holds it. -/
theorem cover3_9 (i : S16384x256.Idx) :
    ∃ t : Fin cfg3.N, (cfg3.win 9).flush t = true ∧ i ∈ ((cfg3.win 9).blk t).view.set := by
  have hi0 : (i 0).val < 16384 := (i 0).isLt
  have hi1 : (i 1).val < 256 := (i 1).isLt
  have eN : cfg3.N = 16 := N_3
  let t : Fin cfg3.N := ⟨(i 0).val / 1024, by omega⟩
  obtain ⟨-, -, -, -, -, -, -, -, -, -, -, -, -, -, -, -, -, -, e80, e81, e90, e91⟩ := idx3 t
  refine ⟨t, flush3_9 t, ?_⟩
  show i ∈ ((View.whole main_call0_v41_1).slice (win3_9.rect t)).set
  rw [View.set_slice_whole, Rect.mem_set_unit]
  intro a
  match a with
  | ⟨0, _⟩ => show win3_9.index t (0 : Fin 2) * 1024 ≤ (i 0).val ∧ (i 0).val < win3_9.index t (0 : Fin 2) * 1024 + 1024; have : t.val = (i 0).val / 1024 := rfl; omega
  | ⟨1, _⟩ => show win3_9.index t (1 : Fin 2) * 256 ≤ (i 1).val ∧ (i 1).val < win3_9.index t (1 : Fin 2) * 256 + 256; omega

include hWi hBi hWf hBf in
/-- After the region the two outputs are the level's cell and hidden state of the region's input arrays. -/
theorem final3_8 : (dat3 V c).arrAt 8 cfg3.N
    = cellC (N := 16384) (V c main_call0_v35) (V c main_call0_v36) (V c main_call0_v38) (V c main_call0_v40) Wi bi Wf bf :=
  (dat3 V c).arrAt_eq_of_cover 8 _ (fun t _ => flushed3_8 V c Wi bi Wf bf hWi hBi hWf hBf t) (cover3_8)

include hWi hBi hWf hBf in
theorem final3_9 : (dat3 V c).arrAt 9 cfg3.N
    = cellH (N := 16384) (V c main_call0_v35) (V c main_call0_v36) (V c main_call0_v38) (V c main_call0_v40) Wi bi Wf bf :=
  (dat3 V c).arrAt_eq_of_cover 9 _ (fun t _ => flushed3_9 V c Wi bi Wf bf hWi hBi hWf hBf t) (cover3_9)

end Region3

/-! ## Region 4: 8192 nodes, 8 points -/

section Region4
variable (hWi : ∀ (k : Fin 256) (j : Fin 768), (V c main_call0_v20 : FVec Ideal S256x768 .f32) (ix2 k j) = Wi (ix2 j k))
  (hBi : ∀ j : Fin 768, (V c main_call0_v22 : FVec Ideal S1x768 .f32) (ix2 (0 : Fin 1) j) = bi (ix1 j))
  (hWf : ∀ (k : Fin 256) (q : Fin 256), (V c main_call0_v21 : FVec Ideal S256x256 .f32) (ix2 k q) = Wf (ix2 q k))
  (hBf : ∀ q : Fin 256, (V c main_call0_v23 : FVec Ideal S1x256 .f32) (ix2 (0 : Fin 1) q) = bf (ix1 q))

/-- The printed index maps over the grid: the row-blocked windows sit at block t, the whole ones at block 0. -/
theorem idx4 : ∀ t : Fin cfg4.N,
    win4_0.index t (0 : Fin 2) = t.val ∧ win4_0.index t (1 : Fin 2) = 0
    ∧ win4_1.index t (0 : Fin 3) = t.val ∧ win4_1.index t (1 : Fin 3) = 0 ∧ win4_1.index t (2 : Fin 3) = 0
    ∧ win4_2.index t (0 : Fin 3) = t.val ∧ win4_2.index t (1 : Fin 3) = 0 ∧ win4_2.index t (2 : Fin 3) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = t.val ∧ win4_8.index t (1 : Fin 2) = 0
    ∧ win4_9.index t (0 : Fin 2) = t.val ∧ win4_9.index t (1 : Fin 2) = 0 :=
  (by decide +kernel : ∀ t : Fin grid4.N, _)

/-- Row p of point t's blocks is row 1024·t + p of the arrays. -/
abbrev row4 (t : Fin cfg4.N) (p : Fin 1024) : Fin 8192 :=
  ⟨t.val * 1024 + p.val, by have := t.isLt; have e : cfg4.N = 8 := N_4; have := p.isLt; omega⟩

theorem blk4_0 (t : Fin cfg4.N) (p : Fin 1024) (j : Fin 768) :
    iblk4 V c 0 t (ix2 p j) = (V c main_call0_v46 : FVec Ideal S8192x768 .f32) (ix2 (row4 t p) j) := by
  obtain ⟨e0, e1, -⟩ := idx4 t
  show V c main_call0_v46 (((cfg4.win 0).blk t).view.emb (ix2 p j)) = _
  refine congrArg (V c main_call0_v46) (funext fun a => Fin.ext ?_)
  match a with
  | ⟨0, _⟩ => show win4_0.index t (0 : Fin 2) * 1024 + 1 * p.val = t.val * 1024 + p.val; omega
  | ⟨1, _⟩ => show win4_0.index t (1 : Fin 2) * 768 + 1 * j.val = j.val; omega

theorem blk4_3 (t : Fin cfg4.N) (p : Fin 1024) (q : Fin 256) :
    iblk4 V c 3 t (ix2 p q) = (V c main_call0_v47 : FVec Ideal S8192x256 .f32) (ix2 (row4 t p) q) := by
  obtain ⟨-, -, -, -, -, -, -, -, e0, e1, -⟩ := idx4 t
  show V c main_call0_v47 (((cfg4.win 3).blk t).view.emb (ix2 p q)) = _
  refine congrArg (V c main_call0_v47) (funext fun a => Fin.ext ?_)
  match a with
  | ⟨0, _⟩ => show win4_3.index t (0 : Fin 2) * 1024 + 1 * p.val = t.val * 1024 + p.val; omega
  | ⟨1, _⟩ => show win4_3.index t (1 : Fin 2) * 256 + 1 * q.val = q.val; omega

theorem blk4_1 (t : Fin cfg4.N) (p : Fin 1024) (a : Fin 2) (k : Fin 256) :
    iblk4 V c 1 t (ix3 p a k) = (V c main_call0_v49 : FVec Ideal S8192x2x256 .f32) (ix3 (row4 t p) a k) := by
  obtain ⟨-, -, e0, e1, e2, -⟩ := idx4 t
  show V c main_call0_v49 (((cfg4.win 1).blk t).view.emb (ix3 p a k)) = _
  refine congrArg (V c main_call0_v49) (funext fun x => Fin.ext ?_)
  match x with
  | ⟨0, _⟩ => show win4_1.index t (0 : Fin 3) * 1024 + 1 * p.val = t.val * 1024 + p.val; omega
  | ⟨1, _⟩ => show win4_1.index t (1 : Fin 3) * 2 + 1 * a.val = a.val; omega
  | ⟨2, _⟩ => show win4_1.index t (2 : Fin 3) * 256 + 1 * k.val = k.val; omega

theorem blk4_2 (t : Fin cfg4.N) (p : Fin 1024) (a : Fin 2) (k : Fin 256) :
    iblk4 V c 2 t (ix3 p a k) = (V c main_call0_v51 : FVec Ideal S8192x2x256 .f32) (ix3 (row4 t p) a k) := by
  obtain ⟨-, -, -, -, -, e0, e1, e2, -⟩ := idx4 t
  show V c main_call0_v51 (((cfg4.win 2).blk t).view.emb (ix3 p a k)) = _
  refine congrArg (V c main_call0_v51) (funext fun x => Fin.ext ?_)
  match x with
  | ⟨0, _⟩ => show win4_2.index t (0 : Fin 3) * 1024 + 1 * p.val = t.val * 1024 + p.val; omega
  | ⟨1, _⟩ => show win4_2.index t (1 : Fin 3) * 2 + 1 * a.val = a.val; omega
  | ⟨2, _⟩ => show win4_2.index t (2 : Fin 3) * 256 + 1 * k.val = k.val; omega

theorem blk4_4 (t : Fin cfg4.N) (k : Fin 256) (j : Fin 768) :
    iblk4 V c 4 t (ix2 k j) = (V c main_call0_v20 : FVec Ideal S256x768 .f32) (ix2 k j) := by
  obtain ⟨-, -, -, -, -, -, -, -, -, -, e0, e1, -⟩ := idx4 t
  show V c main_call0_v20 (((cfg4.win 4).blk t).view.emb (ix2 k j)) = _
  refine congrArg (V c main_call0_v20) (funext fun a => Fin.ext ?_)
  match a with
  | ⟨0, _⟩ => show win4_4.index t (0 : Fin 2) * 256 + 1 * k.val = k.val; omega
  | ⟨1, _⟩ => show win4_4.index t (1 : Fin 2) * 768 + 1 * j.val = j.val; omega

theorem blk4_5 (t : Fin cfg4.N) (j : Fin 768) :
    iblk4 V c 5 t (ix2 (0 : Fin 1) j) = (V c main_call0_v22 : FVec Ideal S1x768 .f32) (ix2 (0 : Fin 1) j) := by
  obtain ⟨-, -, -, -, -, -, -, -, -, -, -, -, e0, e1, -⟩ := idx4 t
  show V c main_call0_v22 (((cfg4.win 5).blk t).view.emb (ix2 (0 : Fin 1) j)) = _
  refine congrArg (V c main_call0_v22) (funext fun a => Fin.ext ?_)
  match a with
  | ⟨0, _⟩ => show win4_5.index t (0 : Fin 2) * 1 + 1 * 0 = 0; omega
  | ⟨1, _⟩ => show win4_5.index t (1 : Fin 2) * 768 + 1 * j.val = j.val; omega

theorem blk4_6 (t : Fin cfg4.N) (k : Fin 256) (q : Fin 256) :
    iblk4 V c 6 t (ix2 k q) = (V c main_call0_v21 : FVec Ideal S256x256 .f32) (ix2 k q) := by
  obtain ⟨-, -, -, -, -, -, -, -, -, -, -, -, -, -, e0, e1, -⟩ := idx4 t
  show V c main_call0_v21 (((cfg4.win 6).blk t).view.emb (ix2 k q)) = _
  refine congrArg (V c main_call0_v21) (funext fun a => Fin.ext ?_)
  match a with
  | ⟨0, _⟩ => show win4_6.index t (0 : Fin 2) * 256 + 1 * k.val = k.val; omega
  | ⟨1, _⟩ => show win4_6.index t (1 : Fin 2) * 256 + 1 * q.val = q.val; omega

theorem blk4_7 (t : Fin cfg4.N) (q : Fin 256) :
    iblk4 V c 7 t (ix2 (0 : Fin 1) q) = (V c main_call0_v23 : FVec Ideal S1x256 .f32) (ix2 (0 : Fin 1) q) := by
  obtain ⟨-, -, -, -, -, -, -, -, -, -, -, -, -, -, -, -, e0, e1, -⟩ := idx4 t
  show V c main_call0_v23 (((cfg4.win 7).blk t).view.emb (ix2 (0 : Fin 1) q)) = _
  refine congrArg (V c main_call0_v23) (funext fun a => Fin.ext ?_)
  match a with
  | ⟨0, _⟩ => show win4_7.index t (0 : Fin 2) * 1 + 1 * 0 = 0; omega
  | ⟨1, _⟩ => show win4_7.index t (1 : Fin 2) * 256 + 1 * q.val = q.val; omega

/-- The child-a slab the body loads from a children block is child a's rows of the block. -/
theorem slab4 (x : Vec Ideal S1024x2x256 .f32) (p : Fin 1024) (k : Fin 256) :
    View.ld x r4_0 (ix3 p (0 : Fin 1) k) = x (ix3 p (0 : Fin 2) k)
    ∧ View.ld x r4_1 (ix3 p (0 : Fin 1) k) = x (ix3 p (1 : Fin 2) k) := by
  constructor
  · show x (r4_0.idx (ix3 p (0 : Fin 1) k)) = _
    refine congrArg x (funext fun a => Fin.ext ?_)
    match a with
    | ⟨0, _⟩ => show 0 + 1 * p.val = p.val; omega
    | ⟨1, _⟩ => show 0 + 1 * 0 = 0; omega
    | ⟨2, _⟩ => show 0 + 1 * k.val = k.val; omega
  · show x (r4_1.idx (ix3 p (0 : Fin 1) k)) = _
    refine congrArg x (funext fun a => Fin.ext ?_)
    match a with
    | ⟨0, _⟩ => show 0 + 1 * p.val = p.val; omega
    | ⟨1, _⟩ => show 1 + 1 * 0 = 1; omega
    | ⟨2, _⟩ => show 0 + 1 * k.val = k.val; omega

include hWi hBi hWf hBf in
/-- What point t writes back to the cell-state output is block t of the level's cellC of the input arrays. -/
theorem flushed4_8 (t : Fin cfg4.N) :
    (dat4 V c).flushed 8 t = ((cfg4.win 8).blk t).view.read (Elt Ideal)
      (cellC (N := 8192) (V c main_call0_v46) (V c main_call0_v47) (V c main_call0_v49) (V c main_call0_v51) Wi bi Wf bf) := by
  show (cfg4.win 8).cut (grid4.coords t) ((dat4 V c).after 8 t) = _
  rw [after4_8]
  unfold out4_8
  rw [View.canon_unit_zero hz2]
  simp only [View.ld_unit_zero (S := S1024x768) hz2, View.ld_unit_zero (S := S256x768) hz2, View.ld_unit_zero (S := S1x768) hz2,
    View.ld_unit_zero (S := S256x256) hz2, View.ld_unit_zero (S := S1x256) hz2, View.ld_unit_zero (S := S1024x256) hz2]
  rw [pay4_C _ _ _ _ _ _ _ _ _ _ (iblk4 V c 1 t) (iblk4 V c 2 t) Wi bi Wf bf
    (fun p k => (slab4 (iblk4 V c 1 t) p k).1) (fun p k => (slab4 (iblk4 V c 1 t) p k).2)
    (fun p k => (slab4 (iblk4 V c 2 t) p k).1) (fun p k => (slab4 (iblk4 V c 2 t) p k).2)
    (fun k j => (blk4_4 V c t k j).trans (hWi k j)) (fun j => (blk4_5 V c t j).trans (hBi j))
    (fun k q => (blk4_6 V c t k q).trans (hWf k q)) (fun q => (blk4_7 V c t q).trans (hBf q))]
  funext y
  obtain ⟨p, q, rfl⟩ : ∃ (p : Fin 1024) (q : Fin 256), y = ix2 p q := ⟨y 0, y 1, eq_ix2 y⟩
  obtain ⟨-, -, -, -, -, -, -, -, -, -, -, -, -, -, -, -, -, -, e0, e1, -⟩ := idx4 t
  have he : ((cfg4.win 8).blk t).view.emb (ix2 p q) = ix2 (row4 t p) q := funext fun a => Fin.ext (by
    match a with
    | ⟨0, _⟩ => show win4_8.index t (0 : Fin 2) * 1024 + 1 * p.val = t.val * 1024 + p.val; omega
    | ⟨1, _⟩ => show win4_8.index t (1 : Fin 2) * 256 + 1 * q.val = q.val; omega)
  show _ = cellC (N := 8192) (V c main_call0_v46) (V c main_call0_v47) (V c main_call0_v49) (V c main_call0_v51) Wi bi Wf bf
    (((cfg4.win 8).blk t).view.emb (ix2 p q))
  rw [he]
  exact cellC_rows (row4 t) _ _ _ _ _ _ _ _ Wi bi Wf bf (blk4_0 V c t) (blk4_3 V c t) (blk4_1 V c t) (blk4_2 V c t) p q

include hWi hBi hWf hBf in
theorem flushed4_9 (t : Fin cfg4.N) :
    (dat4 V c).flushed 9 t = ((cfg4.win 9).blk t).view.read (Elt Ideal)
      (cellH (N := 8192) (V c main_call0_v46) (V c main_call0_v47) (V c main_call0_v49) (V c main_call0_v51) Wi bi Wf bf) := by
  show (cfg4.win 9).cut (grid4.coords t) ((dat4 V c).after 9 t) = _
  rw [after4_9]
  unfold out4_9
  rw [View.canon_unit_zero hz2]
  simp only [View.ld_unit_zero (S := S1024x768) hz2, View.ld_unit_zero (S := S256x768) hz2, View.ld_unit_zero (S := S1x768) hz2,
    View.ld_unit_zero (S := S256x256) hz2, View.ld_unit_zero (S := S1x256) hz2, View.ld_unit_zero (S := S1024x256) hz2]
  rw [pay4_H _ _ _ _ _ _ _ _ _ _ (iblk4 V c 1 t) (iblk4 V c 2 t) Wi bi Wf bf
    (fun p k => (slab4 (iblk4 V c 1 t) p k).1) (fun p k => (slab4 (iblk4 V c 1 t) p k).2)
    (fun p k => (slab4 (iblk4 V c 2 t) p k).1) (fun p k => (slab4 (iblk4 V c 2 t) p k).2)
    (fun k j => (blk4_4 V c t k j).trans (hWi k j)) (fun j => (blk4_5 V c t j).trans (hBi j))
    (fun k q => (blk4_6 V c t k q).trans (hWf k q)) (fun q => (blk4_7 V c t q).trans (hBf q))]
  funext y
  obtain ⟨p, q, rfl⟩ : ∃ (p : Fin 1024) (q : Fin 256), y = ix2 p q := ⟨y 0, y 1, eq_ix2 y⟩
  obtain ⟨-, -, -, -, -, -, -, -, -, -, -, -, -, -, -, -, -, -, -, -, e0, e1⟩ := idx4 t
  have he : ((cfg4.win 9).blk t).view.emb (ix2 p q) = ix2 (row4 t p) q := funext fun a => Fin.ext (by
    match a with
    | ⟨0, _⟩ => show win4_9.index t (0 : Fin 2) * 1024 + 1 * p.val = t.val * 1024 + p.val; omega
    | ⟨1, _⟩ => show win4_9.index t (1 : Fin 2) * 256 + 1 * q.val = q.val; omega)
  show _ = cellH (N := 8192) (V c main_call0_v46) (V c main_call0_v47) (V c main_call0_v49) (V c main_call0_v51) Wi bi Wf bf
    (((cfg4.win 9).blk t).view.emb (ix2 p q))
  rw [he]
  exact cellH_rows (row4 t) _ _ _ _ _ _ _ _ Wi bi Wf bf (blk4_0 V c t) (blk4_3 V c t) (blk4_1 V c t) (blk4_2 V c t) p q

/-- Every row of output 8 is in the block of the point that holds it. -/
theorem cover4_8 (i : S8192x256.Idx) :
    ∃ t : Fin cfg4.N, (cfg4.win 8).flush t = true ∧ i ∈ ((cfg4.win 8).blk t).view.set := by
  have hi0 : (i 0).val < 8192 := (i 0).isLt
  have hi1 : (i 1).val < 256 := (i 1).isLt
  have eN : cfg4.N = 8 := N_4
  let t : Fin cfg4.N := ⟨(i 0).val / 1024, by omega⟩
  obtain ⟨-, -, -, -, -, -, -, -, -, -, -, -, -, -, -, -, -, -, e80, e81, e90, e91⟩ := idx4 t
  refine ⟨t, flush4_8 t, ?_⟩
  show i ∈ ((View.whole main_call0_v52_0).slice (win4_8.rect t)).set
  rw [View.set_slice_whole, Rect.mem_set_unit]
  intro a
  match a with
  | ⟨0, _⟩ => show win4_8.index t (0 : Fin 2) * 1024 ≤ (i 0).val ∧ (i 0).val < win4_8.index t (0 : Fin 2) * 1024 + 1024; have : t.val = (i 0).val / 1024 := rfl; omega
  | ⟨1, _⟩ => show win4_8.index t (1 : Fin 2) * 256 ≤ (i 1).val ∧ (i 1).val < win4_8.index t (1 : Fin 2) * 256 + 256; omega

/-- Every row of output 9 is in the block of the point that holds it. -/
theorem cover4_9 (i : S8192x256.Idx) :
    ∃ t : Fin cfg4.N, (cfg4.win 9).flush t = true ∧ i ∈ ((cfg4.win 9).blk t).view.set := by
  have hi0 : (i 0).val < 8192 := (i 0).isLt
  have hi1 : (i 1).val < 256 := (i 1).isLt
  have eN : cfg4.N = 8 := N_4
  let t : Fin cfg4.N := ⟨(i 0).val / 1024, by omega⟩
  obtain ⟨-, -, -, -, -, -, -, -, -, -, -, -, -, -, -, -, -, -, e80, e81, e90, e91⟩ := idx4 t
  refine ⟨t, flush4_9 t, ?_⟩
  show i ∈ ((View.whole main_call0_v52_1).slice (win4_9.rect t)).set
  rw [View.set_slice_whole, Rect.mem_set_unit]
  intro a
  match a with
  | ⟨0, _⟩ => show win4_9.index t (0 : Fin 2) * 1024 ≤ (i 0).val ∧ (i 0).val < win4_9.index t (0 : Fin 2) * 1024 + 1024; have : t.val = (i 0).val / 1024 := rfl; omega
  | ⟨1, _⟩ => show win4_9.index t (1 : Fin 2) * 256 ≤ (i 1).val ∧ (i 1).val < win4_9.index t (1 : Fin 2) * 256 + 256; omega

include hWi hBi hWf hBf in
/-- After the region the two outputs are the level's cell and hidden state of the region's input arrays. -/
theorem final4_8 : (dat4 V c).arrAt 8 cfg4.N
    = cellC (N := 8192) (V c main_call0_v46) (V c main_call0_v47) (V c main_call0_v49) (V c main_call0_v51) Wi bi Wf bf :=
  (dat4 V c).arrAt_eq_of_cover 8 _ (fun t _ => flushed4_8 V c Wi bi Wf bf hWi hBi hWf hBf t) (cover4_8)

include hWi hBi hWf hBf in
theorem final4_9 : (dat4 V c).arrAt 9 cfg4.N
    = cellH (N := 8192) (V c main_call0_v46) (V c main_call0_v47) (V c main_call0_v49) (V c main_call0_v51) Wi bi Wf bf :=
  (dat4 V c).arrAt_eq_of_cover 9 _ (fun t _ => flushed4_9 V c Wi bi Wf bf hWi hBi hWf hBf t) (cover4_9)

end Region4

/-! ## Region 5: 4096 nodes, 4 points -/

section Region5
variable (hWi : ∀ (k : Fin 256) (j : Fin 768), (V c main_call0_v20 : FVec Ideal S256x768 .f32) (ix2 k j) = Wi (ix2 j k))
  (hBi : ∀ j : Fin 768, (V c main_call0_v22 : FVec Ideal S1x768 .f32) (ix2 (0 : Fin 1) j) = bi (ix1 j))
  (hWf : ∀ (k : Fin 256) (q : Fin 256), (V c main_call0_v21 : FVec Ideal S256x256 .f32) (ix2 k q) = Wf (ix2 q k))
  (hBf : ∀ q : Fin 256, (V c main_call0_v23 : FVec Ideal S1x256 .f32) (ix2 (0 : Fin 1) q) = bf (ix1 q))

/-- The printed index maps over the grid: the row-blocked windows sit at block t, the whole ones at block 0. -/
theorem idx5 : ∀ t : Fin cfg5.N,
    win5_0.index t (0 : Fin 2) = t.val ∧ win5_0.index t (1 : Fin 2) = 0
    ∧ win5_1.index t (0 : Fin 3) = t.val ∧ win5_1.index t (1 : Fin 3) = 0 ∧ win5_1.index t (2 : Fin 3) = 0
    ∧ win5_2.index t (0 : Fin 3) = t.val ∧ win5_2.index t (1 : Fin 3) = 0 ∧ win5_2.index t (2 : Fin 3) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0
    ∧ win5_9.index t (0 : Fin 2) = t.val ∧ win5_9.index t (1 : Fin 2) = 0 :=
  (by decide +kernel : ∀ t : Fin grid5.N, _)

/-- Row p of point t's blocks is row 1024·t + p of the arrays. -/
abbrev row5 (t : Fin cfg5.N) (p : Fin 1024) : Fin 4096 :=
  ⟨t.val * 1024 + p.val, by have := t.isLt; have e : cfg5.N = 4 := N_5; have := p.isLt; omega⟩

theorem blk5_0 (t : Fin cfg5.N) (p : Fin 1024) (j : Fin 768) :
    iblk5 V c 0 t (ix2 p j) = (V c main_call0_v57 : FVec Ideal S4096x768 .f32) (ix2 (row5 t p) j) := by
  obtain ⟨e0, e1, -⟩ := idx5 t
  show V c main_call0_v57 (((cfg5.win 0).blk t).view.emb (ix2 p j)) = _
  refine congrArg (V c main_call0_v57) (funext fun a => Fin.ext ?_)
  match a with
  | ⟨0, _⟩ => show win5_0.index t (0 : Fin 2) * 1024 + 1 * p.val = t.val * 1024 + p.val; omega
  | ⟨1, _⟩ => show win5_0.index t (1 : Fin 2) * 768 + 1 * j.val = j.val; omega

theorem blk5_3 (t : Fin cfg5.N) (p : Fin 1024) (q : Fin 256) :
    iblk5 V c 3 t (ix2 p q) = (V c main_call0_v58 : FVec Ideal S4096x256 .f32) (ix2 (row5 t p) q) := by
  obtain ⟨-, -, -, -, -, -, -, -, e0, e1, -⟩ := idx5 t
  show V c main_call0_v58 (((cfg5.win 3).blk t).view.emb (ix2 p q)) = _
  refine congrArg (V c main_call0_v58) (funext fun a => Fin.ext ?_)
  match a with
  | ⟨0, _⟩ => show win5_3.index t (0 : Fin 2) * 1024 + 1 * p.val = t.val * 1024 + p.val; omega
  | ⟨1, _⟩ => show win5_3.index t (1 : Fin 2) * 256 + 1 * q.val = q.val; omega

theorem blk5_1 (t : Fin cfg5.N) (p : Fin 1024) (a : Fin 2) (k : Fin 256) :
    iblk5 V c 1 t (ix3 p a k) = (V c main_call0_v60 : FVec Ideal S4096x2x256 .f32) (ix3 (row5 t p) a k) := by
  obtain ⟨-, -, e0, e1, e2, -⟩ := idx5 t
  show V c main_call0_v60 (((cfg5.win 1).blk t).view.emb (ix3 p a k)) = _
  refine congrArg (V c main_call0_v60) (funext fun x => Fin.ext ?_)
  match x with
  | ⟨0, _⟩ => show win5_1.index t (0 : Fin 3) * 1024 + 1 * p.val = t.val * 1024 + p.val; omega
  | ⟨1, _⟩ => show win5_1.index t (1 : Fin 3) * 2 + 1 * a.val = a.val; omega
  | ⟨2, _⟩ => show win5_1.index t (2 : Fin 3) * 256 + 1 * k.val = k.val; omega

theorem blk5_2 (t : Fin cfg5.N) (p : Fin 1024) (a : Fin 2) (k : Fin 256) :
    iblk5 V c 2 t (ix3 p a k) = (V c main_call0_v62 : FVec Ideal S4096x2x256 .f32) (ix3 (row5 t p) a k) := by
  obtain ⟨-, -, -, -, -, e0, e1, e2, -⟩ := idx5 t
  show V c main_call0_v62 (((cfg5.win 2).blk t).view.emb (ix3 p a k)) = _
  refine congrArg (V c main_call0_v62) (funext fun x => Fin.ext ?_)
  match x with
  | ⟨0, _⟩ => show win5_2.index t (0 : Fin 3) * 1024 + 1 * p.val = t.val * 1024 + p.val; omega
  | ⟨1, _⟩ => show win5_2.index t (1 : Fin 3) * 2 + 1 * a.val = a.val; omega
  | ⟨2, _⟩ => show win5_2.index t (2 : Fin 3) * 256 + 1 * k.val = k.val; omega

theorem blk5_4 (t : Fin cfg5.N) (k : Fin 256) (j : Fin 768) :
    iblk5 V c 4 t (ix2 k j) = (V c main_call0_v20 : FVec Ideal S256x768 .f32) (ix2 k j) := by
  obtain ⟨-, -, -, -, -, -, -, -, -, -, e0, e1, -⟩ := idx5 t
  show V c main_call0_v20 (((cfg5.win 4).blk t).view.emb (ix2 k j)) = _
  refine congrArg (V c main_call0_v20) (funext fun a => Fin.ext ?_)
  match a with
  | ⟨0, _⟩ => show win5_4.index t (0 : Fin 2) * 256 + 1 * k.val = k.val; omega
  | ⟨1, _⟩ => show win5_4.index t (1 : Fin 2) * 768 + 1 * j.val = j.val; omega

theorem blk5_5 (t : Fin cfg5.N) (j : Fin 768) :
    iblk5 V c 5 t (ix2 (0 : Fin 1) j) = (V c main_call0_v22 : FVec Ideal S1x768 .f32) (ix2 (0 : Fin 1) j) := by
  obtain ⟨-, -, -, -, -, -, -, -, -, -, -, -, e0, e1, -⟩ := idx5 t
  show V c main_call0_v22 (((cfg5.win 5).blk t).view.emb (ix2 (0 : Fin 1) j)) = _
  refine congrArg (V c main_call0_v22) (funext fun a => Fin.ext ?_)
  match a with
  | ⟨0, _⟩ => show win5_5.index t (0 : Fin 2) * 1 + 1 * 0 = 0; omega
  | ⟨1, _⟩ => show win5_5.index t (1 : Fin 2) * 768 + 1 * j.val = j.val; omega

theorem blk5_6 (t : Fin cfg5.N) (k : Fin 256) (q : Fin 256) :
    iblk5 V c 6 t (ix2 k q) = (V c main_call0_v21 : FVec Ideal S256x256 .f32) (ix2 k q) := by
  obtain ⟨-, -, -, -, -, -, -, -, -, -, -, -, -, -, e0, e1, -⟩ := idx5 t
  show V c main_call0_v21 (((cfg5.win 6).blk t).view.emb (ix2 k q)) = _
  refine congrArg (V c main_call0_v21) (funext fun a => Fin.ext ?_)
  match a with
  | ⟨0, _⟩ => show win5_6.index t (0 : Fin 2) * 256 + 1 * k.val = k.val; omega
  | ⟨1, _⟩ => show win5_6.index t (1 : Fin 2) * 256 + 1 * q.val = q.val; omega

theorem blk5_7 (t : Fin cfg5.N) (q : Fin 256) :
    iblk5 V c 7 t (ix2 (0 : Fin 1) q) = (V c main_call0_v23 : FVec Ideal S1x256 .f32) (ix2 (0 : Fin 1) q) := by
  obtain ⟨-, -, -, -, -, -, -, -, -, -, -, -, -, -, -, -, e0, e1, -⟩ := idx5 t
  show V c main_call0_v23 (((cfg5.win 7).blk t).view.emb (ix2 (0 : Fin 1) q)) = _
  refine congrArg (V c main_call0_v23) (funext fun a => Fin.ext ?_)
  match a with
  | ⟨0, _⟩ => show win5_7.index t (0 : Fin 2) * 1 + 1 * 0 = 0; omega
  | ⟨1, _⟩ => show win5_7.index t (1 : Fin 2) * 256 + 1 * q.val = q.val; omega

/-- The child-a slab the body loads from a children block is child a's rows of the block. -/
theorem slab5 (x : Vec Ideal S1024x2x256 .f32) (p : Fin 1024) (k : Fin 256) :
    View.ld x r5_0 (ix3 p (0 : Fin 1) k) = x (ix3 p (0 : Fin 2) k)
    ∧ View.ld x r5_1 (ix3 p (0 : Fin 1) k) = x (ix3 p (1 : Fin 2) k) := by
  constructor
  · show x (r5_0.idx (ix3 p (0 : Fin 1) k)) = _
    refine congrArg x (funext fun a => Fin.ext ?_)
    match a with
    | ⟨0, _⟩ => show 0 + 1 * p.val = p.val; omega
    | ⟨1, _⟩ => show 0 + 1 * 0 = 0; omega
    | ⟨2, _⟩ => show 0 + 1 * k.val = k.val; omega
  · show x (r5_1.idx (ix3 p (0 : Fin 1) k)) = _
    refine congrArg x (funext fun a => Fin.ext ?_)
    match a with
    | ⟨0, _⟩ => show 0 + 1 * p.val = p.val; omega
    | ⟨1, _⟩ => show 1 + 1 * 0 = 1; omega
    | ⟨2, _⟩ => show 0 + 1 * k.val = k.val; omega

include hWi hBi hWf hBf in
/-- What point t writes back to the cell-state output is block t of the level's cellC of the input arrays. -/
theorem flushed5_8 (t : Fin cfg5.N) :
    (dat5 V c).flushed 8 t = ((cfg5.win 8).blk t).view.read (Elt Ideal)
      (cellC (N := 4096) (V c main_call0_v57) (V c main_call0_v58) (V c main_call0_v60) (V c main_call0_v62) Wi bi Wf bf) := by
  show (cfg5.win 8).cut (grid5.coords t) ((dat5 V c).after 8 t) = _
  rw [after5_8]
  unfold out5_8
  rw [View.canon_unit_zero hz2]
  simp only [View.ld_unit_zero (S := S1024x768) hz2, View.ld_unit_zero (S := S256x768) hz2, View.ld_unit_zero (S := S1x768) hz2,
    View.ld_unit_zero (S := S256x256) hz2, View.ld_unit_zero (S := S1x256) hz2, View.ld_unit_zero (S := S1024x256) hz2]
  rw [pay5_C _ _ _ _ _ _ _ _ _ _ (iblk5 V c 1 t) (iblk5 V c 2 t) Wi bi Wf bf
    (fun p k => (slab5 (iblk5 V c 1 t) p k).1) (fun p k => (slab5 (iblk5 V c 1 t) p k).2)
    (fun p k => (slab5 (iblk5 V c 2 t) p k).1) (fun p k => (slab5 (iblk5 V c 2 t) p k).2)
    (fun k j => (blk5_4 V c t k j).trans (hWi k j)) (fun j => (blk5_5 V c t j).trans (hBi j))
    (fun k q => (blk5_6 V c t k q).trans (hWf k q)) (fun q => (blk5_7 V c t q).trans (hBf q))]
  funext y
  obtain ⟨p, q, rfl⟩ : ∃ (p : Fin 1024) (q : Fin 256), y = ix2 p q := ⟨y 0, y 1, eq_ix2 y⟩
  obtain ⟨-, -, -, -, -, -, -, -, -, -, -, -, -, -, -, -, -, -, e0, e1, -⟩ := idx5 t
  have he : ((cfg5.win 8).blk t).view.emb (ix2 p q) = ix2 (row5 t p) q := funext fun a => Fin.ext (by
    match a with
    | ⟨0, _⟩ => show win5_8.index t (0 : Fin 2) * 1024 + 1 * p.val = t.val * 1024 + p.val; omega
    | ⟨1, _⟩ => show win5_8.index t (1 : Fin 2) * 256 + 1 * q.val = q.val; omega)
  show _ = cellC (N := 4096) (V c main_call0_v57) (V c main_call0_v58) (V c main_call0_v60) (V c main_call0_v62) Wi bi Wf bf
    (((cfg5.win 8).blk t).view.emb (ix2 p q))
  rw [he]
  exact cellC_rows (row5 t) _ _ _ _ _ _ _ _ Wi bi Wf bf (blk5_0 V c t) (blk5_3 V c t) (blk5_1 V c t) (blk5_2 V c t) p q

include hWi hBi hWf hBf in
theorem flushed5_9 (t : Fin cfg5.N) :
    (dat5 V c).flushed 9 t = ((cfg5.win 9).blk t).view.read (Elt Ideal)
      (cellH (N := 4096) (V c main_call0_v57) (V c main_call0_v58) (V c main_call0_v60) (V c main_call0_v62) Wi bi Wf bf) := by
  show (cfg5.win 9).cut (grid5.coords t) ((dat5 V c).after 9 t) = _
  rw [after5_9]
  unfold out5_9
  rw [View.canon_unit_zero hz2]
  simp only [View.ld_unit_zero (S := S1024x768) hz2, View.ld_unit_zero (S := S256x768) hz2, View.ld_unit_zero (S := S1x768) hz2,
    View.ld_unit_zero (S := S256x256) hz2, View.ld_unit_zero (S := S1x256) hz2, View.ld_unit_zero (S := S1024x256) hz2]
  rw [pay5_H _ _ _ _ _ _ _ _ _ _ (iblk5 V c 1 t) (iblk5 V c 2 t) Wi bi Wf bf
    (fun p k => (slab5 (iblk5 V c 1 t) p k).1) (fun p k => (slab5 (iblk5 V c 1 t) p k).2)
    (fun p k => (slab5 (iblk5 V c 2 t) p k).1) (fun p k => (slab5 (iblk5 V c 2 t) p k).2)
    (fun k j => (blk5_4 V c t k j).trans (hWi k j)) (fun j => (blk5_5 V c t j).trans (hBi j))
    (fun k q => (blk5_6 V c t k q).trans (hWf k q)) (fun q => (blk5_7 V c t q).trans (hBf q))]
  funext y
  obtain ⟨p, q, rfl⟩ : ∃ (p : Fin 1024) (q : Fin 256), y = ix2 p q := ⟨y 0, y 1, eq_ix2 y⟩
  obtain ⟨-, -, -, -, -, -, -, -, -, -, -, -, -, -, -, -, -, -, -, -, e0, e1⟩ := idx5 t
  have he : ((cfg5.win 9).blk t).view.emb (ix2 p q) = ix2 (row5 t p) q := funext fun a => Fin.ext (by
    match a with
    | ⟨0, _⟩ => show win5_9.index t (0 : Fin 2) * 1024 + 1 * p.val = t.val * 1024 + p.val; omega
    | ⟨1, _⟩ => show win5_9.index t (1 : Fin 2) * 256 + 1 * q.val = q.val; omega)
  show _ = cellH (N := 4096) (V c main_call0_v57) (V c main_call0_v58) (V c main_call0_v60) (V c main_call0_v62) Wi bi Wf bf
    (((cfg5.win 9).blk t).view.emb (ix2 p q))
  rw [he]
  exact cellH_rows (row5 t) _ _ _ _ _ _ _ _ Wi bi Wf bf (blk5_0 V c t) (blk5_3 V c t) (blk5_1 V c t) (blk5_2 V c t) p q

/-- Every row of output 8 is in the block of the point that holds it. -/
theorem cover5_8 (i : S4096x256.Idx) :
    ∃ t : Fin cfg5.N, (cfg5.win 8).flush t = true ∧ i ∈ ((cfg5.win 8).blk t).view.set := by
  have hi0 : (i 0).val < 4096 := (i 0).isLt
  have hi1 : (i 1).val < 256 := (i 1).isLt
  have eN : cfg5.N = 4 := N_5
  let t : Fin cfg5.N := ⟨(i 0).val / 1024, by omega⟩
  obtain ⟨-, -, -, -, -, -, -, -, -, -, -, -, -, -, -, -, -, -, e80, e81, e90, e91⟩ := idx5 t
  refine ⟨t, flush5_8 t, ?_⟩
  show i ∈ ((View.whole main_call0_v63_0).slice (win5_8.rect t)).set
  rw [View.set_slice_whole, Rect.mem_set_unit]
  intro a
  match a with
  | ⟨0, _⟩ => show win5_8.index t (0 : Fin 2) * 1024 ≤ (i 0).val ∧ (i 0).val < win5_8.index t (0 : Fin 2) * 1024 + 1024; have : t.val = (i 0).val / 1024 := rfl; omega
  | ⟨1, _⟩ => show win5_8.index t (1 : Fin 2) * 256 ≤ (i 1).val ∧ (i 1).val < win5_8.index t (1 : Fin 2) * 256 + 256; omega

/-- Every row of output 9 is in the block of the point that holds it. -/
theorem cover5_9 (i : S4096x256.Idx) :
    ∃ t : Fin cfg5.N, (cfg5.win 9).flush t = true ∧ i ∈ ((cfg5.win 9).blk t).view.set := by
  have hi0 : (i 0).val < 4096 := (i 0).isLt
  have hi1 : (i 1).val < 256 := (i 1).isLt
  have eN : cfg5.N = 4 := N_5
  let t : Fin cfg5.N := ⟨(i 0).val / 1024, by omega⟩
  obtain ⟨-, -, -, -, -, -, -, -, -, -, -, -, -, -, -, -, -, -, e80, e81, e90, e91⟩ := idx5 t
  refine ⟨t, flush5_9 t, ?_⟩
  show i ∈ ((View.whole main_call0_v63_1).slice (win5_9.rect t)).set
  rw [View.set_slice_whole, Rect.mem_set_unit]
  intro a
  match a with
  | ⟨0, _⟩ => show win5_9.index t (0 : Fin 2) * 1024 ≤ (i 0).val ∧ (i 0).val < win5_9.index t (0 : Fin 2) * 1024 + 1024; have : t.val = (i 0).val / 1024 := rfl; omega
  | ⟨1, _⟩ => show win5_9.index t (1 : Fin 2) * 256 ≤ (i 1).val ∧ (i 1).val < win5_9.index t (1 : Fin 2) * 256 + 256; omega

include hWi hBi hWf hBf in
/-- After the region the two outputs are the level's cell and hidden state of the region's input arrays. -/
theorem final5_8 : (dat5 V c).arrAt 8 cfg5.N
    = cellC (N := 4096) (V c main_call0_v57) (V c main_call0_v58) (V c main_call0_v60) (V c main_call0_v62) Wi bi Wf bf :=
  (dat5 V c).arrAt_eq_of_cover 8 _ (fun t _ => flushed5_8 V c Wi bi Wf bf hWi hBi hWf hBf t) (cover5_8)

include hWi hBi hWf hBf in
theorem final5_9 : (dat5 V c).arrAt 9 cfg5.N
    = cellH (N := 4096) (V c main_call0_v57) (V c main_call0_v58) (V c main_call0_v60) (V c main_call0_v62) Wi bi Wf bf :=
  (dat5 V c).arrAt_eq_of_cover 9 _ (fun t _ => flushed5_9 V c Wi bi Wf bf hWi hBi hWf hBf t) (cover5_9)

end Region5

/-! ## Region 6: 2048 nodes, 2 points -/

section Region6
variable (hWi : ∀ (k : Fin 256) (j : Fin 768), (V c main_call0_v20 : FVec Ideal S256x768 .f32) (ix2 k j) = Wi (ix2 j k))
  (hBi : ∀ j : Fin 768, (V c main_call0_v22 : FVec Ideal S1x768 .f32) (ix2 (0 : Fin 1) j) = bi (ix1 j))
  (hWf : ∀ (k : Fin 256) (q : Fin 256), (V c main_call0_v21 : FVec Ideal S256x256 .f32) (ix2 k q) = Wf (ix2 q k))
  (hBf : ∀ q : Fin 256, (V c main_call0_v23 : FVec Ideal S1x256 .f32) (ix2 (0 : Fin 1) q) = bf (ix1 q))

/-- The printed index maps over the grid: the row-blocked windows sit at block t, the whole ones at block 0. -/
theorem idx6 : ∀ t : Fin cfg6.N,
    win6_0.index t (0 : Fin 2) = t.val ∧ win6_0.index t (1 : Fin 2) = 0
    ∧ win6_1.index t (0 : Fin 3) = t.val ∧ win6_1.index t (1 : Fin 3) = 0 ∧ win6_1.index t (2 : Fin 3) = 0
    ∧ win6_2.index t (0 : Fin 3) = t.val ∧ win6_2.index t (1 : Fin 3) = 0 ∧ win6_2.index t (2 : Fin 3) = 0
    ∧ win6_3.index t (0 : Fin 2) = t.val ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = t.val ∧ win6_8.index t (1 : Fin 2) = 0
    ∧ win6_9.index t (0 : Fin 2) = t.val ∧ win6_9.index t (1 : Fin 2) = 0 :=
  (by decide +kernel : ∀ t : Fin grid6.N, _)

/-- Row p of point t's blocks is row 1024·t + p of the arrays. -/
abbrev row6 (t : Fin cfg6.N) (p : Fin 1024) : Fin 2048 :=
  ⟨t.val * 1024 + p.val, by have := t.isLt; have e : cfg6.N = 2 := N_6; have := p.isLt; omega⟩

theorem blk6_0 (t : Fin cfg6.N) (p : Fin 1024) (j : Fin 768) :
    iblk6 V c 0 t (ix2 p j) = (V c main_call0_v68 : FVec Ideal S2048x768 .f32) (ix2 (row6 t p) j) := by
  obtain ⟨e0, e1, -⟩ := idx6 t
  show V c main_call0_v68 (((cfg6.win 0).blk t).view.emb (ix2 p j)) = _
  refine congrArg (V c main_call0_v68) (funext fun a => Fin.ext ?_)
  match a with
  | ⟨0, _⟩ => show win6_0.index t (0 : Fin 2) * 1024 + 1 * p.val = t.val * 1024 + p.val; omega
  | ⟨1, _⟩ => show win6_0.index t (1 : Fin 2) * 768 + 1 * j.val = j.val; omega

theorem blk6_3 (t : Fin cfg6.N) (p : Fin 1024) (q : Fin 256) :
    iblk6 V c 3 t (ix2 p q) = (V c main_call0_v69 : FVec Ideal S2048x256 .f32) (ix2 (row6 t p) q) := by
  obtain ⟨-, -, -, -, -, -, -, -, e0, e1, -⟩ := idx6 t
  show V c main_call0_v69 (((cfg6.win 3).blk t).view.emb (ix2 p q)) = _
  refine congrArg (V c main_call0_v69) (funext fun a => Fin.ext ?_)
  match a with
  | ⟨0, _⟩ => show win6_3.index t (0 : Fin 2) * 1024 + 1 * p.val = t.val * 1024 + p.val; omega
  | ⟨1, _⟩ => show win6_3.index t (1 : Fin 2) * 256 + 1 * q.val = q.val; omega

theorem blk6_1 (t : Fin cfg6.N) (p : Fin 1024) (a : Fin 2) (k : Fin 256) :
    iblk6 V c 1 t (ix3 p a k) = (V c main_call0_v71 : FVec Ideal S2048x2x256 .f32) (ix3 (row6 t p) a k) := by
  obtain ⟨-, -, e0, e1, e2, -⟩ := idx6 t
  show V c main_call0_v71 (((cfg6.win 1).blk t).view.emb (ix3 p a k)) = _
  refine congrArg (V c main_call0_v71) (funext fun x => Fin.ext ?_)
  match x with
  | ⟨0, _⟩ => show win6_1.index t (0 : Fin 3) * 1024 + 1 * p.val = t.val * 1024 + p.val; omega
  | ⟨1, _⟩ => show win6_1.index t (1 : Fin 3) * 2 + 1 * a.val = a.val; omega
  | ⟨2, _⟩ => show win6_1.index t (2 : Fin 3) * 256 + 1 * k.val = k.val; omega

theorem blk6_2 (t : Fin cfg6.N) (p : Fin 1024) (a : Fin 2) (k : Fin 256) :
    iblk6 V c 2 t (ix3 p a k) = (V c main_call0_v73 : FVec Ideal S2048x2x256 .f32) (ix3 (row6 t p) a k) := by
  obtain ⟨-, -, -, -, -, e0, e1, e2, -⟩ := idx6 t
  show V c main_call0_v73 (((cfg6.win 2).blk t).view.emb (ix3 p a k)) = _
  refine congrArg (V c main_call0_v73) (funext fun x => Fin.ext ?_)
  match x with
  | ⟨0, _⟩ => show win6_2.index t (0 : Fin 3) * 1024 + 1 * p.val = t.val * 1024 + p.val; omega
  | ⟨1, _⟩ => show win6_2.index t (1 : Fin 3) * 2 + 1 * a.val = a.val; omega
  | ⟨2, _⟩ => show win6_2.index t (2 : Fin 3) * 256 + 1 * k.val = k.val; omega

theorem blk6_4 (t : Fin cfg6.N) (k : Fin 256) (j : Fin 768) :
    iblk6 V c 4 t (ix2 k j) = (V c main_call0_v20 : FVec Ideal S256x768 .f32) (ix2 k j) := by
  obtain ⟨-, -, -, -, -, -, -, -, -, -, e0, e1, -⟩ := idx6 t
  show V c main_call0_v20 (((cfg6.win 4).blk t).view.emb (ix2 k j)) = _
  refine congrArg (V c main_call0_v20) (funext fun a => Fin.ext ?_)
  match a with
  | ⟨0, _⟩ => show win6_4.index t (0 : Fin 2) * 256 + 1 * k.val = k.val; omega
  | ⟨1, _⟩ => show win6_4.index t (1 : Fin 2) * 768 + 1 * j.val = j.val; omega

theorem blk6_5 (t : Fin cfg6.N) (j : Fin 768) :
    iblk6 V c 5 t (ix2 (0 : Fin 1) j) = (V c main_call0_v22 : FVec Ideal S1x768 .f32) (ix2 (0 : Fin 1) j) := by
  obtain ⟨-, -, -, -, -, -, -, -, -, -, -, -, e0, e1, -⟩ := idx6 t
  show V c main_call0_v22 (((cfg6.win 5).blk t).view.emb (ix2 (0 : Fin 1) j)) = _
  refine congrArg (V c main_call0_v22) (funext fun a => Fin.ext ?_)
  match a with
  | ⟨0, _⟩ => show win6_5.index t (0 : Fin 2) * 1 + 1 * 0 = 0; omega
  | ⟨1, _⟩ => show win6_5.index t (1 : Fin 2) * 768 + 1 * j.val = j.val; omega

theorem blk6_6 (t : Fin cfg6.N) (k : Fin 256) (q : Fin 256) :
    iblk6 V c 6 t (ix2 k q) = (V c main_call0_v21 : FVec Ideal S256x256 .f32) (ix2 k q) := by
  obtain ⟨-, -, -, -, -, -, -, -, -, -, -, -, -, -, e0, e1, -⟩ := idx6 t
  show V c main_call0_v21 (((cfg6.win 6).blk t).view.emb (ix2 k q)) = _
  refine congrArg (V c main_call0_v21) (funext fun a => Fin.ext ?_)
  match a with
  | ⟨0, _⟩ => show win6_6.index t (0 : Fin 2) * 256 + 1 * k.val = k.val; omega
  | ⟨1, _⟩ => show win6_6.index t (1 : Fin 2) * 256 + 1 * q.val = q.val; omega

theorem blk6_7 (t : Fin cfg6.N) (q : Fin 256) :
    iblk6 V c 7 t (ix2 (0 : Fin 1) q) = (V c main_call0_v23 : FVec Ideal S1x256 .f32) (ix2 (0 : Fin 1) q) := by
  obtain ⟨-, -, -, -, -, -, -, -, -, -, -, -, -, -, -, -, e0, e1, -⟩ := idx6 t
  show V c main_call0_v23 (((cfg6.win 7).blk t).view.emb (ix2 (0 : Fin 1) q)) = _
  refine congrArg (V c main_call0_v23) (funext fun a => Fin.ext ?_)
  match a with
  | ⟨0, _⟩ => show win6_7.index t (0 : Fin 2) * 1 + 1 * 0 = 0; omega
  | ⟨1, _⟩ => show win6_7.index t (1 : Fin 2) * 256 + 1 * q.val = q.val; omega

/-- The child-a slab the body loads from a children block is child a's rows of the block. -/
theorem slab6 (x : Vec Ideal S1024x2x256 .f32) (p : Fin 1024) (k : Fin 256) :
    View.ld x r6_0 (ix3 p (0 : Fin 1) k) = x (ix3 p (0 : Fin 2) k)
    ∧ View.ld x r6_1 (ix3 p (0 : Fin 1) k) = x (ix3 p (1 : Fin 2) k) := by
  constructor
  · show x (r6_0.idx (ix3 p (0 : Fin 1) k)) = _
    refine congrArg x (funext fun a => Fin.ext ?_)
    match a with
    | ⟨0, _⟩ => show 0 + 1 * p.val = p.val; omega
    | ⟨1, _⟩ => show 0 + 1 * 0 = 0; omega
    | ⟨2, _⟩ => show 0 + 1 * k.val = k.val; omega
  · show x (r6_1.idx (ix3 p (0 : Fin 1) k)) = _
    refine congrArg x (funext fun a => Fin.ext ?_)
    match a with
    | ⟨0, _⟩ => show 0 + 1 * p.val = p.val; omega
    | ⟨1, _⟩ => show 1 + 1 * 0 = 1; omega
    | ⟨2, _⟩ => show 0 + 1 * k.val = k.val; omega

include hWi hBi hWf hBf in
/-- What point t writes back to the cell-state output is block t of the level's cellC of the input arrays. -/
theorem flushed6_8 (t : Fin cfg6.N) :
    (dat6 V c).flushed 8 t = ((cfg6.win 8).blk t).view.read (Elt Ideal)
      (cellC (N := 2048) (V c main_call0_v68) (V c main_call0_v69) (V c main_call0_v71) (V c main_call0_v73) Wi bi Wf bf) := by
  show (cfg6.win 8).cut (grid6.coords t) ((dat6 V c).after 8 t) = _
  rw [after6_8]
  unfold out6_8
  rw [View.canon_unit_zero hz2]
  simp only [View.ld_unit_zero (S := S1024x768) hz2, View.ld_unit_zero (S := S256x768) hz2, View.ld_unit_zero (S := S1x768) hz2,
    View.ld_unit_zero (S := S256x256) hz2, View.ld_unit_zero (S := S1x256) hz2, View.ld_unit_zero (S := S1024x256) hz2]
  rw [pay6_C _ _ _ _ _ _ _ _ _ _ (iblk6 V c 1 t) (iblk6 V c 2 t) Wi bi Wf bf
    (fun p k => (slab6 (iblk6 V c 1 t) p k).1) (fun p k => (slab6 (iblk6 V c 1 t) p k).2)
    (fun p k => (slab6 (iblk6 V c 2 t) p k).1) (fun p k => (slab6 (iblk6 V c 2 t) p k).2)
    (fun k j => (blk6_4 V c t k j).trans (hWi k j)) (fun j => (blk6_5 V c t j).trans (hBi j))
    (fun k q => (blk6_6 V c t k q).trans (hWf k q)) (fun q => (blk6_7 V c t q).trans (hBf q))]
  funext y
  obtain ⟨p, q, rfl⟩ : ∃ (p : Fin 1024) (q : Fin 256), y = ix2 p q := ⟨y 0, y 1, eq_ix2 y⟩
  obtain ⟨-, -, -, -, -, -, -, -, -, -, -, -, -, -, -, -, -, -, e0, e1, -⟩ := idx6 t
  have he : ((cfg6.win 8).blk t).view.emb (ix2 p q) = ix2 (row6 t p) q := funext fun a => Fin.ext (by
    match a with
    | ⟨0, _⟩ => show win6_8.index t (0 : Fin 2) * 1024 + 1 * p.val = t.val * 1024 + p.val; omega
    | ⟨1, _⟩ => show win6_8.index t (1 : Fin 2) * 256 + 1 * q.val = q.val; omega)
  show _ = cellC (N := 2048) (V c main_call0_v68) (V c main_call0_v69) (V c main_call0_v71) (V c main_call0_v73) Wi bi Wf bf
    (((cfg6.win 8).blk t).view.emb (ix2 p q))
  rw [he]
  exact cellC_rows (row6 t) _ _ _ _ _ _ _ _ Wi bi Wf bf (blk6_0 V c t) (blk6_3 V c t) (blk6_1 V c t) (blk6_2 V c t) p q

include hWi hBi hWf hBf in
theorem flushed6_9 (t : Fin cfg6.N) :
    (dat6 V c).flushed 9 t = ((cfg6.win 9).blk t).view.read (Elt Ideal)
      (cellH (N := 2048) (V c main_call0_v68) (V c main_call0_v69) (V c main_call0_v71) (V c main_call0_v73) Wi bi Wf bf) := by
  show (cfg6.win 9).cut (grid6.coords t) ((dat6 V c).after 9 t) = _
  rw [after6_9]
  unfold out6_9
  rw [View.canon_unit_zero hz2]
  simp only [View.ld_unit_zero (S := S1024x768) hz2, View.ld_unit_zero (S := S256x768) hz2, View.ld_unit_zero (S := S1x768) hz2,
    View.ld_unit_zero (S := S256x256) hz2, View.ld_unit_zero (S := S1x256) hz2, View.ld_unit_zero (S := S1024x256) hz2]
  rw [pay6_H _ _ _ _ _ _ _ _ _ _ (iblk6 V c 1 t) (iblk6 V c 2 t) Wi bi Wf bf
    (fun p k => (slab6 (iblk6 V c 1 t) p k).1) (fun p k => (slab6 (iblk6 V c 1 t) p k).2)
    (fun p k => (slab6 (iblk6 V c 2 t) p k).1) (fun p k => (slab6 (iblk6 V c 2 t) p k).2)
    (fun k j => (blk6_4 V c t k j).trans (hWi k j)) (fun j => (blk6_5 V c t j).trans (hBi j))
    (fun k q => (blk6_6 V c t k q).trans (hWf k q)) (fun q => (blk6_7 V c t q).trans (hBf q))]
  funext y
  obtain ⟨p, q, rfl⟩ : ∃ (p : Fin 1024) (q : Fin 256), y = ix2 p q := ⟨y 0, y 1, eq_ix2 y⟩
  obtain ⟨-, -, -, -, -, -, -, -, -, -, -, -, -, -, -, -, -, -, -, -, e0, e1⟩ := idx6 t
  have he : ((cfg6.win 9).blk t).view.emb (ix2 p q) = ix2 (row6 t p) q := funext fun a => Fin.ext (by
    match a with
    | ⟨0, _⟩ => show win6_9.index t (0 : Fin 2) * 1024 + 1 * p.val = t.val * 1024 + p.val; omega
    | ⟨1, _⟩ => show win6_9.index t (1 : Fin 2) * 256 + 1 * q.val = q.val; omega)
  show _ = cellH (N := 2048) (V c main_call0_v68) (V c main_call0_v69) (V c main_call0_v71) (V c main_call0_v73) Wi bi Wf bf
    (((cfg6.win 9).blk t).view.emb (ix2 p q))
  rw [he]
  exact cellH_rows (row6 t) _ _ _ _ _ _ _ _ Wi bi Wf bf (blk6_0 V c t) (blk6_3 V c t) (blk6_1 V c t) (blk6_2 V c t) p q

/-- Every row of output 8 is in the block of the point that holds it. -/
theorem cover6_8 (i : S2048x256.Idx) :
    ∃ t : Fin cfg6.N, (cfg6.win 8).flush t = true ∧ i ∈ ((cfg6.win 8).blk t).view.set := by
  have hi0 : (i 0).val < 2048 := (i 0).isLt
  have hi1 : (i 1).val < 256 := (i 1).isLt
  have eN : cfg6.N = 2 := N_6
  let t : Fin cfg6.N := ⟨(i 0).val / 1024, by omega⟩
  obtain ⟨-, -, -, -, -, -, -, -, -, -, -, -, -, -, -, -, -, -, e80, e81, e90, e91⟩ := idx6 t
  refine ⟨t, flush6_8 t, ?_⟩
  show i ∈ ((View.whole main_call0_v74_0).slice (win6_8.rect t)).set
  rw [View.set_slice_whole, Rect.mem_set_unit]
  intro a
  match a with
  | ⟨0, _⟩ => show win6_8.index t (0 : Fin 2) * 1024 ≤ (i 0).val ∧ (i 0).val < win6_8.index t (0 : Fin 2) * 1024 + 1024; have : t.val = (i 0).val / 1024 := rfl; omega
  | ⟨1, _⟩ => show win6_8.index t (1 : Fin 2) * 256 ≤ (i 1).val ∧ (i 1).val < win6_8.index t (1 : Fin 2) * 256 + 256; omega

/-- Every row of output 9 is in the block of the point that holds it. -/
theorem cover6_9 (i : S2048x256.Idx) :
    ∃ t : Fin cfg6.N, (cfg6.win 9).flush t = true ∧ i ∈ ((cfg6.win 9).blk t).view.set := by
  have hi0 : (i 0).val < 2048 := (i 0).isLt
  have hi1 : (i 1).val < 256 := (i 1).isLt
  have eN : cfg6.N = 2 := N_6
  let t : Fin cfg6.N := ⟨(i 0).val / 1024, by omega⟩
  obtain ⟨-, -, -, -, -, -, -, -, -, -, -, -, -, -, -, -, -, -, e80, e81, e90, e91⟩ := idx6 t
  refine ⟨t, flush6_9 t, ?_⟩
  show i ∈ ((View.whole main_call0_v74_1).slice (win6_9.rect t)).set
  rw [View.set_slice_whole, Rect.mem_set_unit]
  intro a
  match a with
  | ⟨0, _⟩ => show win6_9.index t (0 : Fin 2) * 1024 ≤ (i 0).val ∧ (i 0).val < win6_9.index t (0 : Fin 2) * 1024 + 1024; have : t.val = (i 0).val / 1024 := rfl; omega
  | ⟨1, _⟩ => show win6_9.index t (1 : Fin 2) * 256 ≤ (i 1).val ∧ (i 1).val < win6_9.index t (1 : Fin 2) * 256 + 256; omega

include hWi hBi hWf hBf in
/-- After the region the two outputs are the level's cell and hidden state of the region's input arrays. -/
theorem final6_8 : (dat6 V c).arrAt 8 cfg6.N
    = cellC (N := 2048) (V c main_call0_v68) (V c main_call0_v69) (V c main_call0_v71) (V c main_call0_v73) Wi bi Wf bf :=
  (dat6 V c).arrAt_eq_of_cover 8 _ (fun t _ => flushed6_8 V c Wi bi Wf bf hWi hBi hWf hBf t) (cover6_8)

include hWi hBi hWf hBf in
theorem final6_9 : (dat6 V c).arrAt 9 cfg6.N
    = cellH (N := 2048) (V c main_call0_v68) (V c main_call0_v69) (V c main_call0_v71) (V c main_call0_v73) Wi bi Wf bf :=
  (dat6 V c).arrAt_eq_of_cover 9 _ (fun t _ => flushed6_9 V c Wi bi Wf bf hWi hBi hWf hBf t) (cover6_9)

end Region6

/-! ## Region 7: 1024 nodes, 1 points -/

section Region7
variable (hWi : ∀ (k : Fin 256) (j : Fin 768), (V c main_call0_v20 : FVec Ideal S256x768 .f32) (ix2 k j) = Wi (ix2 j k))
  (hBi : ∀ j : Fin 768, (V c main_call0_v22 : FVec Ideal S1x768 .f32) (ix2 (0 : Fin 1) j) = bi (ix1 j))
  (hWf : ∀ (k : Fin 256) (q : Fin 256), (V c main_call0_v21 : FVec Ideal S256x256 .f32) (ix2 k q) = Wf (ix2 q k))
  (hBf : ∀ q : Fin 256, (V c main_call0_v23 : FVec Ideal S1x256 .f32) (ix2 (0 : Fin 1) q) = bf (ix1 q))

/-- The printed index maps over the grid: the row-blocked windows sit at block t, the whole ones at block 0. -/
theorem idx7 : ∀ t : Fin cfg7.N,
    win7_0.index t (0 : Fin 2) = t.val ∧ win7_0.index t (1 : Fin 2) = 0
    ∧ win7_1.index t (0 : Fin 3) = t.val ∧ win7_1.index t (1 : Fin 3) = 0 ∧ win7_1.index t (2 : Fin 3) = 0
    ∧ win7_2.index t (0 : Fin 3) = t.val ∧ win7_2.index t (1 : Fin 3) = 0 ∧ win7_2.index t (2 : Fin 3) = 0
    ∧ win7_3.index t (0 : Fin 2) = t.val ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0
    ∧ win7_8.index t (0 : Fin 2) = t.val ∧ win7_8.index t (1 : Fin 2) = 0
    ∧ win7_9.index t (0 : Fin 2) = t.val ∧ win7_9.index t (1 : Fin 2) = 0 :=
  (by decide +kernel : ∀ t : Fin grid7.N, _)

/-- Row p of point t's blocks is row 1024·t + p of the arrays. -/
abbrev row7 (t : Fin cfg7.N) (p : Fin 1024) : Fin 1024 :=
  ⟨t.val * 1024 + p.val, by have := t.isLt; have e : cfg7.N = 1 := N_7; have := p.isLt; omega⟩

theorem blk7_0 (t : Fin cfg7.N) (p : Fin 1024) (j : Fin 768) :
    iblk7 V c 0 t (ix2 p j) = (V c main_call0_v79 : FVec Ideal S1024x768 .f32) (ix2 (row7 t p) j) := by
  obtain ⟨e0, e1, -⟩ := idx7 t
  show V c main_call0_v79 (((cfg7.win 0).blk t).view.emb (ix2 p j)) = _
  refine congrArg (V c main_call0_v79) (funext fun a => Fin.ext ?_)
  match a with
  | ⟨0, _⟩ => show win7_0.index t (0 : Fin 2) * 1024 + 1 * p.val = t.val * 1024 + p.val; omega
  | ⟨1, _⟩ => show win7_0.index t (1 : Fin 2) * 768 + 1 * j.val = j.val; omega

theorem blk7_3 (t : Fin cfg7.N) (p : Fin 1024) (q : Fin 256) :
    iblk7 V c 3 t (ix2 p q) = (V c main_call0_v80 : FVec Ideal S1024x256 .f32) (ix2 (row7 t p) q) := by
  obtain ⟨-, -, -, -, -, -, -, -, e0, e1, -⟩ := idx7 t
  show V c main_call0_v80 (((cfg7.win 3).blk t).view.emb (ix2 p q)) = _
  refine congrArg (V c main_call0_v80) (funext fun a => Fin.ext ?_)
  match a with
  | ⟨0, _⟩ => show win7_3.index t (0 : Fin 2) * 1024 + 1 * p.val = t.val * 1024 + p.val; omega
  | ⟨1, _⟩ => show win7_3.index t (1 : Fin 2) * 256 + 1 * q.val = q.val; omega

theorem blk7_1 (t : Fin cfg7.N) (p : Fin 1024) (a : Fin 2) (k : Fin 256) :
    iblk7 V c 1 t (ix3 p a k) = (V c main_call0_v82 : FVec Ideal S1024x2x256 .f32) (ix3 (row7 t p) a k) := by
  obtain ⟨-, -, e0, e1, e2, -⟩ := idx7 t
  show V c main_call0_v82 (((cfg7.win 1).blk t).view.emb (ix3 p a k)) = _
  refine congrArg (V c main_call0_v82) (funext fun x => Fin.ext ?_)
  match x with
  | ⟨0, _⟩ => show win7_1.index t (0 : Fin 3) * 1024 + 1 * p.val = t.val * 1024 + p.val; omega
  | ⟨1, _⟩ => show win7_1.index t (1 : Fin 3) * 2 + 1 * a.val = a.val; omega
  | ⟨2, _⟩ => show win7_1.index t (2 : Fin 3) * 256 + 1 * k.val = k.val; omega

theorem blk7_2 (t : Fin cfg7.N) (p : Fin 1024) (a : Fin 2) (k : Fin 256) :
    iblk7 V c 2 t (ix3 p a k) = (V c main_call0_v84 : FVec Ideal S1024x2x256 .f32) (ix3 (row7 t p) a k) := by
  obtain ⟨-, -, -, -, -, e0, e1, e2, -⟩ := idx7 t
  show V c main_call0_v84 (((cfg7.win 2).blk t).view.emb (ix3 p a k)) = _
  refine congrArg (V c main_call0_v84) (funext fun x => Fin.ext ?_)
  match x with
  | ⟨0, _⟩ => show win7_2.index t (0 : Fin 3) * 1024 + 1 * p.val = t.val * 1024 + p.val; omega
  | ⟨1, _⟩ => show win7_2.index t (1 : Fin 3) * 2 + 1 * a.val = a.val; omega
  | ⟨2, _⟩ => show win7_2.index t (2 : Fin 3) * 256 + 1 * k.val = k.val; omega

theorem blk7_4 (t : Fin cfg7.N) (k : Fin 256) (j : Fin 768) :
    iblk7 V c 4 t (ix2 k j) = (V c main_call0_v20 : FVec Ideal S256x768 .f32) (ix2 k j) := by
  obtain ⟨-, -, -, -, -, -, -, -, -, -, e0, e1, -⟩ := idx7 t
  show V c main_call0_v20 (((cfg7.win 4).blk t).view.emb (ix2 k j)) = _
  refine congrArg (V c main_call0_v20) (funext fun a => Fin.ext ?_)
  match a with
  | ⟨0, _⟩ => show win7_4.index t (0 : Fin 2) * 256 + 1 * k.val = k.val; omega
  | ⟨1, _⟩ => show win7_4.index t (1 : Fin 2) * 768 + 1 * j.val = j.val; omega

theorem blk7_5 (t : Fin cfg7.N) (j : Fin 768) :
    iblk7 V c 5 t (ix2 (0 : Fin 1) j) = (V c main_call0_v22 : FVec Ideal S1x768 .f32) (ix2 (0 : Fin 1) j) := by
  obtain ⟨-, -, -, -, -, -, -, -, -, -, -, -, e0, e1, -⟩ := idx7 t
  show V c main_call0_v22 (((cfg7.win 5).blk t).view.emb (ix2 (0 : Fin 1) j)) = _
  refine congrArg (V c main_call0_v22) (funext fun a => Fin.ext ?_)
  match a with
  | ⟨0, _⟩ => show win7_5.index t (0 : Fin 2) * 1 + 1 * 0 = 0; omega
  | ⟨1, _⟩ => show win7_5.index t (1 : Fin 2) * 768 + 1 * j.val = j.val; omega

theorem blk7_6 (t : Fin cfg7.N) (k : Fin 256) (q : Fin 256) :
    iblk7 V c 6 t (ix2 k q) = (V c main_call0_v21 : FVec Ideal S256x256 .f32) (ix2 k q) := by
  obtain ⟨-, -, -, -, -, -, -, -, -, -, -, -, -, -, e0, e1, -⟩ := idx7 t
  show V c main_call0_v21 (((cfg7.win 6).blk t).view.emb (ix2 k q)) = _
  refine congrArg (V c main_call0_v21) (funext fun a => Fin.ext ?_)
  match a with
  | ⟨0, _⟩ => show win7_6.index t (0 : Fin 2) * 256 + 1 * k.val = k.val; omega
  | ⟨1, _⟩ => show win7_6.index t (1 : Fin 2) * 256 + 1 * q.val = q.val; omega

theorem blk7_7 (t : Fin cfg7.N) (q : Fin 256) :
    iblk7 V c 7 t (ix2 (0 : Fin 1) q) = (V c main_call0_v23 : FVec Ideal S1x256 .f32) (ix2 (0 : Fin 1) q) := by
  obtain ⟨-, -, -, -, -, -, -, -, -, -, -, -, -, -, -, -, e0, e1, -⟩ := idx7 t
  show V c main_call0_v23 (((cfg7.win 7).blk t).view.emb (ix2 (0 : Fin 1) q)) = _
  refine congrArg (V c main_call0_v23) (funext fun a => Fin.ext ?_)
  match a with
  | ⟨0, _⟩ => show win7_7.index t (0 : Fin 2) * 1 + 1 * 0 = 0; omega
  | ⟨1, _⟩ => show win7_7.index t (1 : Fin 2) * 256 + 1 * q.val = q.val; omega

/-- The child-a slab the body loads from a children block is child a's rows of the block. -/
theorem slab7 (x : Vec Ideal S1024x2x256 .f32) (p : Fin 1024) (k : Fin 256) :
    View.ld x r7_0 (ix3 p (0 : Fin 1) k) = x (ix3 p (0 : Fin 2) k)
    ∧ View.ld x r7_1 (ix3 p (0 : Fin 1) k) = x (ix3 p (1 : Fin 2) k) := by
  constructor
  · show x (r7_0.idx (ix3 p (0 : Fin 1) k)) = _
    refine congrArg x (funext fun a => Fin.ext ?_)
    match a with
    | ⟨0, _⟩ => show 0 + 1 * p.val = p.val; omega
    | ⟨1, _⟩ => show 0 + 1 * 0 = 0; omega
    | ⟨2, _⟩ => show 0 + 1 * k.val = k.val; omega
  · show x (r7_1.idx (ix3 p (0 : Fin 1) k)) = _
    refine congrArg x (funext fun a => Fin.ext ?_)
    match a with
    | ⟨0, _⟩ => show 0 + 1 * p.val = p.val; omega
    | ⟨1, _⟩ => show 1 + 1 * 0 = 1; omega
    | ⟨2, _⟩ => show 0 + 1 * k.val = k.val; omega

include hWi hBi hWf hBf in
/-- What point t writes back to the cell-state output is block t of the level's cellC of the input arrays. -/
theorem flushed7_8 (t : Fin cfg7.N) :
    (dat7 V c).flushed 8 t = ((cfg7.win 8).blk t).view.read (Elt Ideal)
      (cellC (N := 1024) (V c main_call0_v79) (V c main_call0_v80) (V c main_call0_v82) (V c main_call0_v84) Wi bi Wf bf) := by
  show (cfg7.win 8).cut (grid7.coords t) ((dat7 V c).after 8 t) = _
  rw [after7_8]
  unfold out7_8
  rw [View.canon_unit_zero hz2]
  simp only [View.ld_unit_zero (S := S1024x768) hz2, View.ld_unit_zero (S := S256x768) hz2, View.ld_unit_zero (S := S1x768) hz2,
    View.ld_unit_zero (S := S256x256) hz2, View.ld_unit_zero (S := S1x256) hz2, View.ld_unit_zero (S := S1024x256) hz2]
  rw [pay7_C _ _ _ _ _ _ _ _ _ _ (iblk7 V c 1 t) (iblk7 V c 2 t) Wi bi Wf bf
    (fun p k => (slab7 (iblk7 V c 1 t) p k).1) (fun p k => (slab7 (iblk7 V c 1 t) p k).2)
    (fun p k => (slab7 (iblk7 V c 2 t) p k).1) (fun p k => (slab7 (iblk7 V c 2 t) p k).2)
    (fun k j => (blk7_4 V c t k j).trans (hWi k j)) (fun j => (blk7_5 V c t j).trans (hBi j))
    (fun k q => (blk7_6 V c t k q).trans (hWf k q)) (fun q => (blk7_7 V c t q).trans (hBf q))]
  funext y
  obtain ⟨p, q, rfl⟩ : ∃ (p : Fin 1024) (q : Fin 256), y = ix2 p q := ⟨y 0, y 1, eq_ix2 y⟩
  obtain ⟨-, -, -, -, -, -, -, -, -, -, -, -, -, -, -, -, -, -, e0, e1, -⟩ := idx7 t
  have he : ((cfg7.win 8).blk t).view.emb (ix2 p q) = ix2 (row7 t p) q := funext fun a => Fin.ext (by
    match a with
    | ⟨0, _⟩ => show win7_8.index t (0 : Fin 2) * 1024 + 1 * p.val = t.val * 1024 + p.val; omega
    | ⟨1, _⟩ => show win7_8.index t (1 : Fin 2) * 256 + 1 * q.val = q.val; omega)
  show _ = cellC (N := 1024) (V c main_call0_v79) (V c main_call0_v80) (V c main_call0_v82) (V c main_call0_v84) Wi bi Wf bf
    (((cfg7.win 8).blk t).view.emb (ix2 p q))
  rw [he]
  exact cellC_rows (row7 t) _ _ _ _ _ _ _ _ Wi bi Wf bf (blk7_0 V c t) (blk7_3 V c t) (blk7_1 V c t) (blk7_2 V c t) p q

include hWi hBi hWf hBf in
theorem flushed7_9 (t : Fin cfg7.N) :
    (dat7 V c).flushed 9 t = ((cfg7.win 9).blk t).view.read (Elt Ideal)
      (cellH (N := 1024) (V c main_call0_v79) (V c main_call0_v80) (V c main_call0_v82) (V c main_call0_v84) Wi bi Wf bf) := by
  show (cfg7.win 9).cut (grid7.coords t) ((dat7 V c).after 9 t) = _
  rw [after7_9]
  unfold out7_9
  rw [View.canon_unit_zero hz2]
  simp only [View.ld_unit_zero (S := S1024x768) hz2, View.ld_unit_zero (S := S256x768) hz2, View.ld_unit_zero (S := S1x768) hz2,
    View.ld_unit_zero (S := S256x256) hz2, View.ld_unit_zero (S := S1x256) hz2, View.ld_unit_zero (S := S1024x256) hz2]
  rw [pay7_H _ _ _ _ _ _ _ _ _ _ (iblk7 V c 1 t) (iblk7 V c 2 t) Wi bi Wf bf
    (fun p k => (slab7 (iblk7 V c 1 t) p k).1) (fun p k => (slab7 (iblk7 V c 1 t) p k).2)
    (fun p k => (slab7 (iblk7 V c 2 t) p k).1) (fun p k => (slab7 (iblk7 V c 2 t) p k).2)
    (fun k j => (blk7_4 V c t k j).trans (hWi k j)) (fun j => (blk7_5 V c t j).trans (hBi j))
    (fun k q => (blk7_6 V c t k q).trans (hWf k q)) (fun q => (blk7_7 V c t q).trans (hBf q))]
  funext y
  obtain ⟨p, q, rfl⟩ : ∃ (p : Fin 1024) (q : Fin 256), y = ix2 p q := ⟨y 0, y 1, eq_ix2 y⟩
  obtain ⟨-, -, -, -, -, -, -, -, -, -, -, -, -, -, -, -, -, -, -, -, e0, e1⟩ := idx7 t
  have he : ((cfg7.win 9).blk t).view.emb (ix2 p q) = ix2 (row7 t p) q := funext fun a => Fin.ext (by
    match a with
    | ⟨0, _⟩ => show win7_9.index t (0 : Fin 2) * 1024 + 1 * p.val = t.val * 1024 + p.val; omega
    | ⟨1, _⟩ => show win7_9.index t (1 : Fin 2) * 256 + 1 * q.val = q.val; omega)
  show _ = cellH (N := 1024) (V c main_call0_v79) (V c main_call0_v80) (V c main_call0_v82) (V c main_call0_v84) Wi bi Wf bf
    (((cfg7.win 9).blk t).view.emb (ix2 p q))
  rw [he]
  exact cellH_rows (row7 t) _ _ _ _ _ _ _ _ Wi bi Wf bf (blk7_0 V c t) (blk7_3 V c t) (blk7_1 V c t) (blk7_2 V c t) p q

/-- Every row of output 8 is in the block of the point that holds it. -/
theorem cover7_8 (i : S1024x256.Idx) :
    ∃ t : Fin cfg7.N, (cfg7.win 8).flush t = true ∧ i ∈ ((cfg7.win 8).blk t).view.set := by
  have hi0 : (i 0).val < 1024 := (i 0).isLt
  have hi1 : (i 1).val < 256 := (i 1).isLt
  have eN : cfg7.N = 1 := N_7
  let t : Fin cfg7.N := ⟨(i 0).val / 1024, by omega⟩
  obtain ⟨-, -, -, -, -, -, -, -, -, -, -, -, -, -, -, -, -, -, e80, e81, e90, e91⟩ := idx7 t
  refine ⟨t, flush7_8 t, ?_⟩
  show i ∈ ((View.whole main_call0_v85_0).slice (win7_8.rect t)).set
  rw [View.set_slice_whole, Rect.mem_set_unit]
  intro a
  match a with
  | ⟨0, _⟩ => show win7_8.index t (0 : Fin 2) * 1024 ≤ (i 0).val ∧ (i 0).val < win7_8.index t (0 : Fin 2) * 1024 + 1024; have : t.val = (i 0).val / 1024 := rfl; omega
  | ⟨1, _⟩ => show win7_8.index t (1 : Fin 2) * 256 ≤ (i 1).val ∧ (i 1).val < win7_8.index t (1 : Fin 2) * 256 + 256; omega

/-- Every row of output 9 is in the block of the point that holds it. -/
theorem cover7_9 (i : S1024x256.Idx) :
    ∃ t : Fin cfg7.N, (cfg7.win 9).flush t = true ∧ i ∈ ((cfg7.win 9).blk t).view.set := by
  have hi0 : (i 0).val < 1024 := (i 0).isLt
  have hi1 : (i 1).val < 256 := (i 1).isLt
  have eN : cfg7.N = 1 := N_7
  let t : Fin cfg7.N := ⟨(i 0).val / 1024, by omega⟩
  obtain ⟨-, -, -, -, -, -, -, -, -, -, -, -, -, -, -, -, -, -, e80, e81, e90, e91⟩ := idx7 t
  refine ⟨t, flush7_9 t, ?_⟩
  show i ∈ ((View.whole main_call0_v85_1).slice (win7_9.rect t)).set
  rw [View.set_slice_whole, Rect.mem_set_unit]
  intro a
  match a with
  | ⟨0, _⟩ => show win7_9.index t (0 : Fin 2) * 1024 ≤ (i 0).val ∧ (i 0).val < win7_9.index t (0 : Fin 2) * 1024 + 1024; have : t.val = (i 0).val / 1024 := rfl; omega
  | ⟨1, _⟩ => show win7_9.index t (1 : Fin 2) * 256 ≤ (i 1).val ∧ (i 1).val < win7_9.index t (1 : Fin 2) * 256 + 256; omega

include hWi hBi hWf hBf in
/-- After the region the two outputs are the level's cell and hidden state of the region's input arrays. -/
theorem final7_8 : (dat7 V c).arrAt 8 cfg7.N
    = cellC (N := 1024) (V c main_call0_v79) (V c main_call0_v80) (V c main_call0_v82) (V c main_call0_v84) Wi bi Wf bf :=
  (dat7 V c).arrAt_eq_of_cover 8 _ (fun t _ => flushed7_8 V c Wi bi Wf bf hWi hBi hWf hBf t) (cover7_8)

include hWi hBi hWf hBf in
theorem final7_9 : (dat7 V c).arrAt 9 cfg7.N
    = cellH (N := 1024) (V c main_call0_v79) (V c main_call0_v80) (V c main_call0_v82) (V c main_call0_v84) Wi bi Wf bf :=
  (dat7 V c).arrAt_eq_of_cover 9 _ (fun t _ => flushed7_9 V c Wi bi Wf bf hWi hBi hWf hBf t) (cover7_9)

end Region7

end Cert.KernelIdeal.TreeRegions

end
-- ==== Proof.KernelHost.lean ====
/-
  THE IDEALIZED KERNEL'S HOST OPERATIONS, READ BACK.

  Around its eight device regions the program runs nine stretches of host operations: the stacking and transposing of
  the weights and the padding of the inner nodes' features before the projection region; the slicing of its outputs and
  the leaves' operands; after each later region the writing of the region's two outputs into the state arrays and the
  slicing of the next level's operands; and, after the last region, the ten smallest levels computed on the host
  itself, one level at a time, followed by the slicing of the root's rows. Each list below is one stretch (the last
  stretch cut into its levels) with the operations' function types written out; each theorem reads one buffer after a
  list, from any contents U before it, as the operations' composed term of U's buffers. A level of the last stretch
  is LibTreeCell's rowsLevelC / rowsLevelH of its operands, written into the state arrays.
-/
import proofs.«176519_j24352464569160_2_alg».proof.Proof.Gen.KernelIdeal.Launch
import proofs.«176519_j24352464569160_2_alg».proof.Proof.LibTreeCell
import Idealize.ShloMosaic.Lib.StableHlo.Run

set_option maxRecDepth 16384

noncomputable section

namespace Cert.KernelIdeal.TreeHost

open Cert.KernelIdeal Cert.KernelIdeal.Gen Cert.TreeCell
open Idealize.ShloMosaic Idealize.ShloMosaic.TcCoe Idealize.SL.Sem Idealize.ShloMosaic.StableHlo Idealize.ShloMosaic.ValueIdx

/-- A three-operand operation at typed references whose types are the buffers' own is the operation at the buffers. -/
theorem ternary_eq {Val : EltTy → Type} (c a b y : Ref sig .tc)
    (dc : c.space ≠ .host) (sc : c.isScoped = false) (da : a.space ≠ .host) (sa : a.isScoped = false)
    (db : b.space ≠ .host) (sb : b.isScoped = false) (dy : y.space ≠ .host) (sy : y.isScoped = false)
    (f : c.ty.Contents Val → a.ty.Contents Val → b.ty.Contents Val → y.ty.Contents Val)
    (hc : c.space ≠ .host ∧ (c : DevRef τ sig).isScoped = false) (ha : a.space ≠ .host ∧ (a : DevRef τ sig).isScoped = false)
    (hb : b.space ≠ .host ∧ (b : DevRef τ sig).isScoped = false) (hy : y.space ≠ .host ∧ (y : DevRef τ sig).isScoped = false) :
    TRef.ternary (τ := τ) (Val := Val) (⟨c, rfl, dc, sc⟩ : TRef sig c.ty) (⟨a, rfl, da, sa⟩ : TRef sig a.ty)
        (⟨b, rfl, db, sb⟩ : TRef sig b.ty) (⟨y, rfl, dy, sy⟩ : TRef sig y.ty) f
      = StableHlo.ternary c a b y f hc ha hb hy := rfl

theorem cons_congr {α : Type} {a a' : α} {l l' : List α} (h : a = a') (hl : l = l') : a :: l = a' :: l' := by rw [h, hl]

section Lists
variable {F : FTy → Type} [FloatOps F]

/-- Stretch 0. -/
abbrev kops0 : List (HloOp τ sig (Elt F)) :=
  [ unary main_arg0 main_call0_v0 ((extractStridedSlice S65535x256 ![0, 0] · slices_S131071x256_S65535x256_0_0) : (⟨S131071x256, .f32⟩ : BufTy).Contents (Elt F) → (⟨S65535x256, .f32⟩ : BufTy).Contents (Elt F)),
    nullary main_call0_c (constantI S_ 32 0#32),
    unary main_call0_c main_call0_call0_v0 ((sitofp .f32) : (⟨S_, .i32⟩ : BufTy).Contents (Elt F) → (⟨S_, .f32⟩ : BufTy).Contents (Elt F)),
    binary main_call0_v0 main_call0_call0_v0 main_call0_v1 ((fun x v => pad S65536x256 ![0, 0] ![1, 0] ![0, 0] x v pads_S65535x256_S65536x256_010_000 h_S_) : (⟨S65535x256, .f32⟩ : BufTy).Contents (Elt F) → (⟨S_, .f32⟩ : BufTy).Contents (Elt F) → (⟨S65536x256, .f32⟩ : BufTy).Contents (Elt F)),
    binary main_arg1 main_arg5 main_call0_v2 ((fun a b => concatenate S1024x256 0 [⟨S768x256, a⟩, ⟨S256x256, b⟩] concatenates_S768x256_S256x256_S1024x256_d0) : (⟨S768x256, .f32⟩ : BufTy).Contents (Elt F) → (⟨S256x256, .f32⟩ : BufTy).Contents (Elt F) → (⟨S1024x256, .f32⟩ : BufTy).Contents (Elt F)),
    binary main_arg2 main_arg6 main_call0_v3 ((fun a b => concatenate S1024 0 [⟨S768, a⟩, ⟨S256, b⟩] concatenates_S768_S256_S1024_d0) : (⟨S768, .f32⟩ : BufTy).Contents (Elt F) → (⟨S256, .f32⟩ : BufTy).Contents (Elt F) → (⟨S1024, .f32⟩ : BufTy).Contents (Elt F)),
    unary main_call0_v2 main_call0_v4 ((transpose S256x1024 [1, 0] · transposes_S1024x256_S256x1024_1_0) : (⟨S1024x256, .f32⟩ : BufTy).Contents (Elt F) → (⟨S256x1024, .f32⟩ : BufTy).Contents (Elt F)),
    reshape main_call0_v3 main_call0_v5 rfl shapeCasts_S1024_S1x1024 ]
theorem hostOps0_eq : (hostOps0 : List (HloOp τ sig (Elt F))) = kops0 :=
  (cons_congr rfl (cons_congr rfl (cons_congr rfl (cons_congr rfl (cons_congr rfl (cons_congr rfl (cons_congr rfl (cons_congr rfl rfl))))))))

/-- Stretch 1. -/
abbrev kops1 : List (HloOp τ sig (Elt F)) :=
  [ unary main_call0_v6_0 main_call0_v7 ((extractStridedSlice S65535x768 ![0, 0] · slices_S65536x768_S65535x768_0_0) : (⟨S65536x768, .f32⟩ : BufTy).Contents (Elt F) → (⟨S65535x768, .f32⟩ : BufTy).Contents (Elt F)),
    unary main_call0_v6_1 main_call0_v8 ((extractStridedSlice S65535x256 ![0, 0] · slices_S65536x256_S65535x256_0_0) : (⟨S65536x256, .f32⟩ : BufTy).Contents (Elt F) → (⟨S65535x256, .f32⟩ : BufTy).Contents (Elt F)),
    unary main_arg0 main_call0_v9 ((extractStridedSlice S65536x256 ![65535, 0] · slices_S131071x256_S65536x256_65535_0) : (⟨S131071x256, .f32⟩ : BufTy).Contents (Elt F) → (⟨S65536x256, .f32⟩ : BufTy).Contents (Elt F)),
    binary main_arg2 main_arg4 main_call0_v10 ((addf) : (⟨S768, .f32⟩ : BufTy).Contents (Elt F) → (⟨S768, .f32⟩ : BufTy).Contents (Elt F) → (⟨S768, .f32⟩ : BufTy).Contents (Elt F)),
    reshape main_call0_v10 main_call0_v11 rfl shapeCasts_S768_S1x768,
    unary main_arg1 main_call0_v12 ((transpose S256x768 [1, 0] · transposes_S768x256_S256x768_1_0) : (⟨S768x256, .f32⟩ : BufTy).Contents (Elt F) → (⟨S256x768, .f32⟩ : BufTy).Contents (Elt F)) ]
theorem hostOps1_eq : (hostOps1 : List (HloOp τ sig (Elt F))) = kops1 :=
  (cons_congr rfl (cons_congr rfl (cons_congr rfl (cons_congr rfl (cons_congr rfl (cons_congr rfl rfl))))))

/-- Stretch 2. -/
abbrev kops2 : List (HloOp τ sig (Elt F)) :=
  [ nullary main_call0_cst (constant S_ .f32 0x00000000#32),
    unary main_call0_cst main_call0_v14 ((broadcastInDim S131071x256 ![] bcast_S_S131071x256) : (⟨S_, .f32⟩ : BufTy).Contents (Elt F) → (⟨S131071x256, .f32⟩ : BufTy).Contents (Elt F)),
    nullary main_call0_cst_0 (constant S_ .f32 0x00000000#32),
    unary main_call0_cst_0 main_call0_v15 ((broadcastInDim S131071x256 ![] bcast_S_S131071x256) : (⟨S_, .f32⟩ : BufTy).Contents (Elt F) → (⟨S131071x256, .f32⟩ : BufTy).Contents (Elt F)),
    nullary main_call0_c_1 (constantI S_ 32 65535#32),
    unary main_call0_c_1 main_call0_v16 ((broadcastInDim S1 ![] bcast_S_S1) : (⟨S_, .i32⟩ : BufTy).Contents (Elt F) → (⟨S1, .i32⟩ : BufTy).Contents (Elt F)),
    ternary main_call0_v14 main_call0_v16 main_call0_v13_0 main_call0_v17 ((fun x i u => Host.scatter scatter_S131071x256_S1_S65536x256_01_n_0_0 (fun _ b => b) x i u) : (⟨S131071x256, .f32⟩ : BufTy).Contents (Elt F) → (⟨S1, .i32⟩ : BufTy).Contents (Elt F) → (⟨S65536x256, .f32⟩ : BufTy).Contents (Elt F) → (⟨S131071x256, .f32⟩ : BufTy).Contents (Elt F)),
    nullary main_call0_c_2 (constantI S_ 32 65535#32),
    unary main_call0_c_2 main_call0_v18 ((broadcastInDim S1 ![] bcast_S_S1) : (⟨S_, .i32⟩ : BufTy).Contents (Elt F) → (⟨S1, .i32⟩ : BufTy).Contents (Elt F)),
    ternary main_call0_v15 main_call0_v18 main_call0_v13_1 main_call0_v19 ((fun x i u => Host.scatter scatter_S131071x256_S1_S65536x256_01_n_0_0 (fun _ b => b) x i u) : (⟨S131071x256, .f32⟩ : BufTy).Contents (Elt F) → (⟨S1, .i32⟩ : BufTy).Contents (Elt F) → (⟨S65536x256, .f32⟩ : BufTy).Contents (Elt F) → (⟨S131071x256, .f32⟩ : BufTy).Contents (Elt F)),
    unary main_arg3 main_call0_v20 ((transpose S256x768 [1, 0] · transposes_S768x256_S256x768_1_0) : (⟨S768x256, .f32⟩ : BufTy).Contents (Elt F) → (⟨S256x768, .f32⟩ : BufTy).Contents (Elt F)),
    unary main_arg7 main_call0_v21 ((transpose S256x256 [1, 0] · transposes_S256x256_S256x256_1_0) : (⟨S256x256, .f32⟩ : BufTy).Contents (Elt F) → (⟨S256x256, .f32⟩ : BufTy).Contents (Elt F)),
    reshape main_arg4 main_call0_v22 rfl shapeCasts_S768_S1x768,
    reshape main_arg8 main_call0_v23 rfl shapeCasts_S256_S1x256,
    unary main_call0_v7 main_call0_v24 ((extractStridedSlice S32768x768 ![32767, 0] · slices_S65535x768_S32768x768_32767_0) : (⟨S65535x768, .f32⟩ : BufTy).Contents (Elt F) → (⟨S32768x768, .f32⟩ : BufTy).Contents (Elt F)),
    unary main_call0_v8 main_call0_v25 ((extractStridedSlice S32768x256 ![32767, 0] · slices_S65535x256_S32768x256_32767_0) : (⟨S65535x256, .f32⟩ : BufTy).Contents (Elt F) → (⟨S32768x256, .f32⟩ : BufTy).Contents (Elt F)),
    unary main_call0_v19 main_call0_v26 ((extractStridedSlice S65536x256 ![65535, 0] · slices_S131071x256_S65536x256_65535_0) : (⟨S131071x256, .f32⟩ : BufTy).Contents (Elt F) → (⟨S65536x256, .f32⟩ : BufTy).Contents (Elt F)),
    reshape main_call0_v26 main_call0_v27 rfl shapeCasts_S65536x256_S32768x2x256,
    unary main_call0_v17 main_call0_v28 ((extractStridedSlice S65536x256 ![65535, 0] · slices_S131071x256_S65536x256_65535_0) : (⟨S131071x256, .f32⟩ : BufTy).Contents (Elt F) → (⟨S65536x256, .f32⟩ : BufTy).Contents (Elt F)),
    reshape main_call0_v28 main_call0_v29 rfl shapeCasts_S65536x256_S32768x2x256 ]
theorem hostOps2_eq : (hostOps2 : List (HloOp τ sig (Elt F))) = kops2 :=
  (cons_congr rfl (cons_congr rfl (cons_congr rfl (cons_congr rfl (cons_congr rfl (cons_congr rfl (cons_congr (ternary_eq _ _ _ _ _ _ _ _ _ _ _ _ _ _ _ _ _) (cons_congr rfl (cons_congr rfl (cons_congr (ternary_eq _ _ _ _ _ _ _ _ _ _ _ _ _ _ _ _ _) (cons_congr rfl (cons_congr rfl (cons_congr rfl (cons_congr rfl (cons_congr rfl (cons_congr rfl (cons_congr rfl (cons_congr rfl (cons_congr rfl (cons_congr rfl rfl))))))))))))))))))))

/-- Stretch 3. -/
abbrev kops3 : List (HloOp τ sig (Elt F)) :=
  [ nullary main_call0_c_3 (constantI S_ 32 32767#32),
    unary main_call0_c_3 main_call0_v31 ((broadcastInDim S1 ![] bcast_S_S1) : (⟨S_, .i32⟩ : BufTy).Contents (Elt F) → (⟨S1, .i32⟩ : BufTy).Contents (Elt F)),
    ternary main_call0_v17 main_call0_v31 main_call0_v30_0 main_call0_v32 ((fun x i u => Host.scatter scatter_S131071x256_S1_S32768x256_01_n_0_0 (fun _ b => b) x i u) : (⟨S131071x256, .f32⟩ : BufTy).Contents (Elt F) → (⟨S1, .i32⟩ : BufTy).Contents (Elt F) → (⟨S32768x256, .f32⟩ : BufTy).Contents (Elt F) → (⟨S131071x256, .f32⟩ : BufTy).Contents (Elt F)),
    nullary main_call0_c_4 (constantI S_ 32 32767#32),
    unary main_call0_c_4 main_call0_v33 ((broadcastInDim S1 ![] bcast_S_S1) : (⟨S_, .i32⟩ : BufTy).Contents (Elt F) → (⟨S1, .i32⟩ : BufTy).Contents (Elt F)),
    ternary main_call0_v19 main_call0_v33 main_call0_v30_1 main_call0_v34 ((fun x i u => Host.scatter scatter_S131071x256_S1_S32768x256_01_n_0_0 (fun _ b => b) x i u) : (⟨S131071x256, .f32⟩ : BufTy).Contents (Elt F) → (⟨S1, .i32⟩ : BufTy).Contents (Elt F) → (⟨S32768x256, .f32⟩ : BufTy).Contents (Elt F) → (⟨S131071x256, .f32⟩ : BufTy).Contents (Elt F)),
    unary main_call0_v7 main_call0_v35 ((extractStridedSlice S16384x768 ![16383, 0] · slices_S65535x768_S16384x768_16383_0) : (⟨S65535x768, .f32⟩ : BufTy).Contents (Elt F) → (⟨S16384x768, .f32⟩ : BufTy).Contents (Elt F)),
    unary main_call0_v8 main_call0_v36 ((extractStridedSlice S16384x256 ![16383, 0] · slices_S65535x256_S16384x256_16383_0) : (⟨S65535x256, .f32⟩ : BufTy).Contents (Elt F) → (⟨S16384x256, .f32⟩ : BufTy).Contents (Elt F)),
    unary main_call0_v34 main_call0_v37 ((extractStridedSlice S32768x256 ![32767, 0] · slices_S131071x256_S32768x256_32767_0) : (⟨S131071x256, .f32⟩ : BufTy).Contents (Elt F) → (⟨S32768x256, .f32⟩ : BufTy).Contents (Elt F)),
    reshape main_call0_v37 main_call0_v38 rfl shapeCasts_S32768x256_S16384x2x256,
    unary main_call0_v32 main_call0_v39 ((extractStridedSlice S32768x256 ![32767, 0] · slices_S131071x256_S32768x256_32767_0) : (⟨S131071x256, .f32⟩ : BufTy).Contents (Elt F) → (⟨S32768x256, .f32⟩ : BufTy).Contents (Elt F)),
    reshape main_call0_v39 main_call0_v40 rfl shapeCasts_S32768x256_S16384x2x256 ]
theorem hostOps3_eq : (hostOps3 : List (HloOp τ sig (Elt F))) = kops3 :=
  (cons_congr rfl (cons_congr rfl (cons_congr (ternary_eq _ _ _ _ _ _ _ _ _ _ _ _ _ _ _ _ _) (cons_congr rfl (cons_congr rfl (cons_congr (ternary_eq _ _ _ _ _ _ _ _ _ _ _ _ _ _ _ _ _) (cons_congr rfl (cons_congr rfl (cons_congr rfl (cons_congr rfl (cons_congr rfl (cons_congr rfl rfl))))))))))))

/-- Stretch 4. -/
abbrev kops4 : List (HloOp τ sig (Elt F)) :=
  [ nullary main_call0_c_5 (constantI S_ 32 16383#32),
    unary main_call0_c_5 main_call0_v42 ((broadcastInDim S1 ![] bcast_S_S1) : (⟨S_, .i32⟩ : BufTy).Contents (Elt F) → (⟨S1, .i32⟩ : BufTy).Contents (Elt F)),
    ternary main_call0_v32 main_call0_v42 main_call0_v41_0 main_call0_v43 ((fun x i u => Host.scatter scatter_S131071x256_S1_S16384x256_01_n_0_0 (fun _ b => b) x i u) : (⟨S131071x256, .f32⟩ : BufTy).Contents (Elt F) → (⟨S1, .i32⟩ : BufTy).Contents (Elt F) → (⟨S16384x256, .f32⟩ : BufTy).Contents (Elt F) → (⟨S131071x256, .f32⟩ : BufTy).Contents (Elt F)),
    nullary main_call0_c_6 (constantI S_ 32 16383#32),
    unary main_call0_c_6 main_call0_v44 ((broadcastInDim S1 ![] bcast_S_S1) : (⟨S_, .i32⟩ : BufTy).Contents (Elt F) → (⟨S1, .i32⟩ : BufTy).Contents (Elt F)),
    ternary main_call0_v34 main_call0_v44 main_call0_v41_1 main_call0_v45 ((fun x i u => Host.scatter scatter_S131071x256_S1_S16384x256_01_n_0_0 (fun _ b => b) x i u) : (⟨S131071x256, .f32⟩ : BufTy).Contents (Elt F) → (⟨S1, .i32⟩ : BufTy).Contents (Elt F) → (⟨S16384x256, .f32⟩ : BufTy).Contents (Elt F) → (⟨S131071x256, .f32⟩ : BufTy).Contents (Elt F)),
    unary main_call0_v7 main_call0_v46 ((extractStridedSlice S8192x768 ![8191, 0] · slices_S65535x768_S8192x768_8191_0) : (⟨S65535x768, .f32⟩ : BufTy).Contents (Elt F) → (⟨S8192x768, .f32⟩ : BufTy).Contents (Elt F)),
    unary main_call0_v8 main_call0_v47 ((extractStridedSlice S8192x256 ![8191, 0] · slices_S65535x256_S8192x256_8191_0) : (⟨S65535x256, .f32⟩ : BufTy).Contents (Elt F) → (⟨S8192x256, .f32⟩ : BufTy).Contents (Elt F)),
    unary main_call0_v45 main_call0_v48 ((extractStridedSlice S16384x256 ![16383, 0] · slices_S131071x256_S16384x256_16383_0) : (⟨S131071x256, .f32⟩ : BufTy).Contents (Elt F) → (⟨S16384x256, .f32⟩ : BufTy).Contents (Elt F)),
    reshape main_call0_v48 main_call0_v49 rfl shapeCasts_S16384x256_S8192x2x256,
    unary main_call0_v43 main_call0_v50 ((extractStridedSlice S16384x256 ![16383, 0] · slices_S131071x256_S16384x256_16383_0) : (⟨S131071x256, .f32⟩ : BufTy).Contents (Elt F) → (⟨S16384x256, .f32⟩ : BufTy).Contents (Elt F)),
    reshape main_call0_v50 main_call0_v51 rfl shapeCasts_S16384x256_S8192x2x256 ]
theorem hostOps4_eq : (hostOps4 : List (HloOp τ sig (Elt F))) = kops4 :=
  (cons_congr rfl (cons_congr rfl (cons_congr (ternary_eq _ _ _ _ _ _ _ _ _ _ _ _ _ _ _ _ _) (cons_congr rfl (cons_congr rfl (cons_congr (ternary_eq _ _ _ _ _ _ _ _ _ _ _ _ _ _ _ _ _) (cons_congr rfl (cons_congr rfl (cons_congr rfl (cons_congr rfl (cons_congr rfl (cons_congr rfl rfl))))))))))))

/-- Stretch 5. -/
abbrev kops5 : List (HloOp τ sig (Elt F)) :=
  [ nullary main_call0_c_7 (constantI S_ 32 8191#32),
    unary main_call0_c_7 main_call0_v53 ((broadcastInDim S1 ![] bcast_S_S1) : (⟨S_, .i32⟩ : BufTy).Contents (Elt F) → (⟨S1, .i32⟩ : BufTy).Contents (Elt F)),
    ternary main_call0_v43 main_call0_v53 main_call0_v52_0 main_call0_v54 ((fun x i u => Host.scatter scatter_S131071x256_S1_S8192x256_01_n_0_0 (fun _ b => b) x i u) : (⟨S131071x256, .f32⟩ : BufTy).Contents (Elt F) → (⟨S1, .i32⟩ : BufTy).Contents (Elt F) → (⟨S8192x256, .f32⟩ : BufTy).Contents (Elt F) → (⟨S131071x256, .f32⟩ : BufTy).Contents (Elt F)),
    nullary main_call0_c_8 (constantI S_ 32 8191#32),
    unary main_call0_c_8 main_call0_v55 ((broadcastInDim S1 ![] bcast_S_S1) : (⟨S_, .i32⟩ : BufTy).Contents (Elt F) → (⟨S1, .i32⟩ : BufTy).Contents (Elt F)),
    ternary main_call0_v45 main_call0_v55 main_call0_v52_1 main_call0_v56 ((fun x i u => Host.scatter scatter_S131071x256_S1_S8192x256_01_n_0_0 (fun _ b => b) x i u) : (⟨S131071x256, .f32⟩ : BufTy).Contents (Elt F) → (⟨S1, .i32⟩ : BufTy).Contents (Elt F) → (⟨S8192x256, .f32⟩ : BufTy).Contents (Elt F) → (⟨S131071x256, .f32⟩ : BufTy).Contents (Elt F)),
    unary main_call0_v7 main_call0_v57 ((extractStridedSlice S4096x768 ![4095, 0] · slices_S65535x768_S4096x768_4095_0) : (⟨S65535x768, .f32⟩ : BufTy).Contents (Elt F) → (⟨S4096x768, .f32⟩ : BufTy).Contents (Elt F)),
    unary main_call0_v8 main_call0_v58 ((extractStridedSlice S4096x256 ![4095, 0] · slices_S65535x256_S4096x256_4095_0) : (⟨S65535x256, .f32⟩ : BufTy).Contents (Elt F) → (⟨S4096x256, .f32⟩ : BufTy).Contents (Elt F)),
    unary main_call0_v56 main_call0_v59 ((extractStridedSlice S8192x256 ![8191, 0] · slices_S131071x256_S8192x256_8191_0) : (⟨S131071x256, .f32⟩ : BufTy).Contents (Elt F) → (⟨S8192x256, .f32⟩ : BufTy).Contents (Elt F)),
    reshape main_call0_v59 main_call0_v60 rfl shapeCasts_S8192x256_S4096x2x256,
    unary main_call0_v54 main_call0_v61 ((extractStridedSlice S8192x256 ![8191, 0] · slices_S131071x256_S8192x256_8191_0) : (⟨S131071x256, .f32⟩ : BufTy).Contents (Elt F) → (⟨S8192x256, .f32⟩ : BufTy).Contents (Elt F)),
    reshape main_call0_v61 main_call0_v62 rfl shapeCasts_S8192x256_S4096x2x256 ]
theorem hostOps5_eq : (hostOps5 : List (HloOp τ sig (Elt F))) = kops5 :=
  (cons_congr rfl (cons_congr rfl (cons_congr (ternary_eq _ _ _ _ _ _ _ _ _ _ _ _ _ _ _ _ _) (cons_congr rfl (cons_congr rfl (cons_congr (ternary_eq _ _ _ _ _ _ _ _ _ _ _ _ _ _ _ _ _) (cons_congr rfl (cons_congr rfl (cons_congr rfl (cons_congr rfl (cons_congr rfl (cons_congr rfl rfl))))))))))))

/-- Stretch 6. -/
abbrev kops6 : List (HloOp τ sig (Elt F)) :=
  [ nullary main_call0_c_9 (constantI S_ 32 4095#32),
    unary main_call0_c_9 main_call0_v64 ((broadcastInDim S1 ![] bcast_S_S1) : (⟨S_, .i32⟩ : BufTy).Contents (Elt F) → (⟨S1, .i32⟩ : BufTy).Contents (Elt F)),
    ternary main_call0_v54 main_call0_v64 main_call0_v63_0 main_call0_v65 ((fun x i u => Host.scatter scatter_S131071x256_S1_S4096x256_01_n_0_0 (fun _ b => b) x i u) : (⟨S131071x256, .f32⟩ : BufTy).Contents (Elt F) → (⟨S1, .i32⟩ : BufTy).Contents (Elt F) → (⟨S4096x256, .f32⟩ : BufTy).Contents (Elt F) → (⟨S131071x256, .f32⟩ : BufTy).Contents (Elt F)),
    nullary main_call0_c_10 (constantI S_ 32 4095#32),
    unary main_call0_c_10 main_call0_v66 ((broadcastInDim S1 ![] bcast_S_S1) : (⟨S_, .i32⟩ : BufTy).Contents (Elt F) → (⟨S1, .i32⟩ : BufTy).Contents (Elt F)),
    ternary main_call0_v56 main_call0_v66 main_call0_v63_1 main_call0_v67 ((fun x i u => Host.scatter scatter_S131071x256_S1_S4096x256_01_n_0_0 (fun _ b => b) x i u) : (⟨S131071x256, .f32⟩ : BufTy).Contents (Elt F) → (⟨S1, .i32⟩ : BufTy).Contents (Elt F) → (⟨S4096x256, .f32⟩ : BufTy).Contents (Elt F) → (⟨S131071x256, .f32⟩ : BufTy).Contents (Elt F)),
    unary main_call0_v7 main_call0_v68 ((extractStridedSlice S2048x768 ![2047, 0] · slices_S65535x768_S2048x768_2047_0) : (⟨S65535x768, .f32⟩ : BufTy).Contents (Elt F) → (⟨S2048x768, .f32⟩ : BufTy).Contents (Elt F)),
    unary main_call0_v8 main_call0_v69 ((extractStridedSlice S2048x256 ![2047, 0] · slices_S65535x256_S2048x256_2047_0) : (⟨S65535x256, .f32⟩ : BufTy).Contents (Elt F) → (⟨S2048x256, .f32⟩ : BufTy).Contents (Elt F)),
    unary main_call0_v67 main_call0_v70 ((extractStridedSlice S4096x256 ![4095, 0] · slices_S131071x256_S4096x256_4095_0) : (⟨S131071x256, .f32⟩ : BufTy).Contents (Elt F) → (⟨S4096x256, .f32⟩ : BufTy).Contents (Elt F)),
    reshape main_call0_v70 main_call0_v71 rfl shapeCasts_S4096x256_S2048x2x256,
    unary main_call0_v65 main_call0_v72 ((extractStridedSlice S4096x256 ![4095, 0] · slices_S131071x256_S4096x256_4095_0) : (⟨S131071x256, .f32⟩ : BufTy).Contents (Elt F) → (⟨S4096x256, .f32⟩ : BufTy).Contents (Elt F)),
    reshape main_call0_v72 main_call0_v73 rfl shapeCasts_S4096x256_S2048x2x256 ]
theorem hostOps6_eq : (hostOps6 : List (HloOp τ sig (Elt F))) = kops6 :=
  (cons_congr rfl (cons_congr rfl (cons_congr (ternary_eq _ _ _ _ _ _ _ _ _ _ _ _ _ _ _ _ _) (cons_congr rfl (cons_congr rfl (cons_congr (ternary_eq _ _ _ _ _ _ _ _ _ _ _ _ _ _ _ _ _) (cons_congr rfl (cons_congr rfl (cons_congr rfl (cons_congr rfl (cons_congr rfl (cons_congr rfl rfl))))))))))))

/-- Stretch 7. -/
abbrev kops7 : List (HloOp τ sig (Elt F)) :=
  [ nullary main_call0_c_11 (constantI S_ 32 2047#32),
    unary main_call0_c_11 main_call0_v75 ((broadcastInDim S1 ![] bcast_S_S1) : (⟨S_, .i32⟩ : BufTy).Contents (Elt F) → (⟨S1, .i32⟩ : BufTy).Contents (Elt F)),
    ternary main_call0_v65 main_call0_v75 main_call0_v74_0 main_call0_v76 ((fun x i u => Host.scatter scatter_S131071x256_S1_S2048x256_01_n_0_0 (fun _ b => b) x i u) : (⟨S131071x256, .f32⟩ : BufTy).Contents (Elt F) → (⟨S1, .i32⟩ : BufTy).Contents (Elt F) → (⟨S2048x256, .f32⟩ : BufTy).Contents (Elt F) → (⟨S131071x256, .f32⟩ : BufTy).Contents (Elt F)),
    nullary main_call0_c_12 (constantI S_ 32 2047#32),
    unary main_call0_c_12 main_call0_v77 ((broadcastInDim S1 ![] bcast_S_S1) : (⟨S_, .i32⟩ : BufTy).Contents (Elt F) → (⟨S1, .i32⟩ : BufTy).Contents (Elt F)),
    ternary main_call0_v67 main_call0_v77 main_call0_v74_1 main_call0_v78 ((fun x i u => Host.scatter scatter_S131071x256_S1_S2048x256_01_n_0_0 (fun _ b => b) x i u) : (⟨S131071x256, .f32⟩ : BufTy).Contents (Elt F) → (⟨S1, .i32⟩ : BufTy).Contents (Elt F) → (⟨S2048x256, .f32⟩ : BufTy).Contents (Elt F) → (⟨S131071x256, .f32⟩ : BufTy).Contents (Elt F)),
    unary main_call0_v7 main_call0_v79 ((extractStridedSlice S1024x768 ![1023, 0] · slices_S65535x768_S1024x768_1023_0) : (⟨S65535x768, .f32⟩ : BufTy).Contents (Elt F) → (⟨S1024x768, .f32⟩ : BufTy).Contents (Elt F)),
    unary main_call0_v8 main_call0_v80 ((extractStridedSlice S1024x256 ![1023, 0] · slices_S65535x256_S1024x256_1023_0) : (⟨S65535x256, .f32⟩ : BufTy).Contents (Elt F) → (⟨S1024x256, .f32⟩ : BufTy).Contents (Elt F)),
    unary main_call0_v78 main_call0_v81 ((extractStridedSlice S2048x256 ![2047, 0] · slices_S131071x256_S2048x256_2047_0) : (⟨S131071x256, .f32⟩ : BufTy).Contents (Elt F) → (⟨S2048x256, .f32⟩ : BufTy).Contents (Elt F)),
    reshape main_call0_v81 main_call0_v82 rfl shapeCasts_S2048x256_S1024x2x256,
    unary main_call0_v76 main_call0_v83 ((extractStridedSlice S2048x256 ![2047, 0] · slices_S131071x256_S2048x256_2047_0) : (⟨S131071x256, .f32⟩ : BufTy).Contents (Elt F) → (⟨S2048x256, .f32⟩ : BufTy).Contents (Elt F)),
    reshape main_call0_v83 main_call0_v84 rfl shapeCasts_S2048x256_S1024x2x256 ]
theorem hostOps7_eq : (hostOps7 : List (HloOp τ sig (Elt F))) = kops7 :=
  (cons_congr rfl (cons_congr rfl (cons_congr (ternary_eq _ _ _ _ _ _ _ _ _ _ _ _ _ _ _ _ _) (cons_congr rfl (cons_congr rfl (cons_congr (ternary_eq _ _ _ _ _ _ _ _ _ _ _ _ _ _ _ _ _) (cons_congr rfl (cons_congr rfl (cons_congr rfl (cons_congr rfl (cons_congr rfl (cons_congr rfl rfl))))))))))))

/-- Stretch 8, part 0. -/
abbrev kpre8 : List (HloOp τ sig (Elt F)) :=
  [ nullary main_call0_c_13 (constantI S_ 32 1023#32),
    unary main_call0_c_13 main_call0_v86 ((broadcastInDim S1 ![] bcast_S_S1) : (⟨S_, .i32⟩ : BufTy).Contents (Elt F) → (⟨S1, .i32⟩ : BufTy).Contents (Elt F)),
    ternary main_call0_v76 main_call0_v86 main_call0_v85_0 main_call0_v87 ((fun x i u => Host.scatter scatter_S131071x256_S1_S1024x256_01_n_0_0 (fun _ b => b) x i u) : (⟨S131071x256, .f32⟩ : BufTy).Contents (Elt F) → (⟨S1, .i32⟩ : BufTy).Contents (Elt F) → (⟨S1024x256, .f32⟩ : BufTy).Contents (Elt F) → (⟨S131071x256, .f32⟩ : BufTy).Contents (Elt F)),
    nullary main_call0_c_14 (constantI S_ 32 1023#32),
    unary main_call0_c_14 main_call0_v88 ((broadcastInDim S1 ![] bcast_S_S1) : (⟨S_, .i32⟩ : BufTy).Contents (Elt F) → (⟨S1, .i32⟩ : BufTy).Contents (Elt F)),
    ternary main_call0_v78 main_call0_v88 main_call0_v85_1 main_call0_v89 ((fun x i u => Host.scatter scatter_S131071x256_S1_S1024x256_01_n_0_0 (fun _ b => b) x i u) : (⟨S131071x256, .f32⟩ : BufTy).Contents (Elt F) → (⟨S1, .i32⟩ : BufTy).Contents (Elt F) → (⟨S1024x256, .f32⟩ : BufTy).Contents (Elt F) → (⟨S131071x256, .f32⟩ : BufTy).Contents (Elt F)) ]

/-- Stretch 8, part 1: level 9. -/
abbrev klev9 : List (HloOp τ sig (Elt F)) :=
  [ unary main_call0_v7 main_call0_v90 ((extractStridedSlice S512x768 ![511, 0] · slices_S65535x768_S512x768_511_0) : (⟨S65535x768, .f32⟩ : BufTy).Contents (Elt F) → (⟨S512x768, .f32⟩ : BufTy).Contents (Elt F)),
    unary main_call0_v8 main_call0_v91 ((extractStridedSlice S512x256 ![511, 0] · slices_S65535x256_S512x256_511_0) : (⟨S65535x256, .f32⟩ : BufTy).Contents (Elt F) → (⟨S512x256, .f32⟩ : BufTy).Contents (Elt F)),
    unary main_call0_v89 main_call0_v92 ((extractStridedSlice S1024x256 ![1023, 0] · slices_S131071x256_S1024x256_1023_0) : (⟨S131071x256, .f32⟩ : BufTy).Contents (Elt F) → (⟨S1024x256, .f32⟩ : BufTy).Contents (Elt F)),
    reshape main_call0_v92 main_call0_v93 rfl shapeCasts_S1024x256_S512x2x256,
    unary main_call0_v87 main_call0_v94 ((extractStridedSlice S1024x256 ![1023, 0] · slices_S131071x256_S1024x256_1023_0) : (⟨S131071x256, .f32⟩ : BufTy).Contents (Elt F) → (⟨S1024x256, .f32⟩ : BufTy).Contents (Elt F)),
    reshape main_call0_v94 main_call0_v95 rfl shapeCasts_S1024x256_S512x2x256,
    unary main_call0_v93 main_call0_v96 ((extractStridedSlice S512x1x256 ![0, 0, 0] · slices_S512x2x256_S512x1x256_0_0_0) : (⟨S512x2x256, .f32⟩ : BufTy).Contents (Elt F) → (⟨S512x1x256, .f32⟩ : BufTy).Contents (Elt F)),
    reshape main_call0_v96 main_call0_v97 rfl shapeCasts_S512x1x256_S512x256,
    unary main_call0_v93 main_call0_v98 ((extractStridedSlice S512x1x256 ![0, 1, 0] · slices_S512x2x256_S512x1x256_0_1_0) : (⟨S512x2x256, .f32⟩ : BufTy).Contents (Elt F) → (⟨S512x1x256, .f32⟩ : BufTy).Contents (Elt F)),
    reshape main_call0_v98 main_call0_v99 rfl shapeCasts_S512x1x256_S512x256,
    unary main_call0_v95 main_call0_v100 ((extractStridedSlice S512x1x256 ![0, 0, 0] · slices_S512x2x256_S512x1x256_0_0_0) : (⟨S512x2x256, .f32⟩ : BufTy).Contents (Elt F) → (⟨S512x1x256, .f32⟩ : BufTy).Contents (Elt F)),
    reshape main_call0_v100 main_call0_v101 rfl shapeCasts_S512x1x256_S512x256,
    unary main_call0_v95 main_call0_v102 ((extractStridedSlice S512x1x256 ![0, 1, 0] · slices_S512x2x256_S512x1x256_0_1_0) : (⟨S512x2x256, .f32⟩ : BufTy).Contents (Elt F) → (⟨S512x1x256, .f32⟩ : BufTy).Contents (Elt F)),
    reshape main_call0_v102 main_call0_v103 rfl shapeCasts_S512x1x256_S512x256,
    binary main_call0_v97 main_call0_v99 main_call0_v104 ((addf) : (⟨S512x256, .f32⟩ : BufTy).Contents (Elt F) → (⟨S512x256, .f32⟩ : BufTy).Contents (Elt F) → (⟨S512x256, .f32⟩ : BufTy).Contents (Elt F)),
    binary main_call0_v104 main_call0_v20 main_call0_v105 ((fun l r => Host.dotGeneral dot_S512x256_S256x768_S512x768_1_0_0_1_n_n none l r) : (⟨S512x256, .f32⟩ : BufTy).Contents (Elt F) → (⟨S256x768, .f32⟩ : BufTy).Contents (Elt F) → (⟨S512x768, .f32⟩ : BufTy).Contents (Elt F)),
    binary main_call0_v90 main_call0_v105 main_call0_v106 ((addf) : (⟨S512x768, .f32⟩ : BufTy).Contents (Elt F) → (⟨S512x768, .f32⟩ : BufTy).Contents (Elt F) → (⟨S512x768, .f32⟩ : BufTy).Contents (Elt F)),
    unary main_arg4 main_call0_v107 ((broadcastInDim S1x768 ![1] bcast_S768_S1x768_1) : (⟨S768, .f32⟩ : BufTy).Contents (Elt F) → (⟨S1x768, .f32⟩ : BufTy).Contents (Elt F)),
    unary main_call0_v107 main_call0_v108 ((broadcastInDim S512x768 ![0, 1] bcast_S1x768_S512x768_0_1) : (⟨S1x768, .f32⟩ : BufTy).Contents (Elt F) → (⟨S512x768, .f32⟩ : BufTy).Contents (Elt F)),
    binary main_call0_v106 main_call0_v108 main_call0_v109 ((addf) : (⟨S512x768, .f32⟩ : BufTy).Contents (Elt F) → (⟨S512x768, .f32⟩ : BufTy).Contents (Elt F) → (⟨S512x768, .f32⟩ : BufTy).Contents (Elt F)),
    unary main_call0_v109 main_call0_v110 ((extractStridedSlice S512x256 ![0, 0] · slices_S512x768_S512x256_0_0) : (⟨S512x768, .f32⟩ : BufTy).Contents (Elt F) → (⟨S512x256, .f32⟩ : BufTy).Contents (Elt F)),
    unary main_call0_v109 main_call0_v111 ((extractStridedSlice S512x256 ![0, 256] · slices_S512x768_S512x256_0_256) : (⟨S512x768, .f32⟩ : BufTy).Contents (Elt F) → (⟨S512x256, .f32⟩ : BufTy).Contents (Elt F)),
    unary main_call0_v109 main_call0_v112 ((extractStridedSlice S512x256 ![0, 512] · slices_S512x768_S512x256_0_512) : (⟨S512x768, .f32⟩ : BufTy).Contents (Elt F) → (⟨S512x256, .f32⟩ : BufTy).Contents (Elt F)),
    binary main_call0_v97 main_call0_v21 main_call0_v113 ((fun l r => Host.dotGeneral dot_S512x256_S256x256_S512x256_1_0_0_1_n_n none l r) : (⟨S512x256, .f32⟩ : BufTy).Contents (Elt F) → (⟨S256x256, .f32⟩ : BufTy).Contents (Elt F) → (⟨S512x256, .f32⟩ : BufTy).Contents (Elt F)),
    unary main_arg8 main_call0_v114 ((broadcastInDim S1x256 ![1] bcast_S256_S1x256_1) : (⟨S256, .f32⟩ : BufTy).Contents (Elt F) → (⟨S1x256, .f32⟩ : BufTy).Contents (Elt F)),
    unary main_call0_v114 main_call0_v115 ((broadcastInDim S512x256 ![0, 1] bcast_S1x256_S512x256_0_1) : (⟨S1x256, .f32⟩ : BufTy).Contents (Elt F) → (⟨S512x256, .f32⟩ : BufTy).Contents (Elt F)),
    binary main_call0_v113 main_call0_v115 main_call0_v116 ((addf) : (⟨S512x256, .f32⟩ : BufTy).Contents (Elt F) → (⟨S512x256, .f32⟩ : BufTy).Contents (Elt F) → (⟨S512x256, .f32⟩ : BufTy).Contents (Elt F)),
    binary main_call0_v116 main_call0_v91 main_call0_v117 ((addf) : (⟨S512x256, .f32⟩ : BufTy).Contents (Elt F) → (⟨S512x256, .f32⟩ : BufTy).Contents (Elt F) → (⟨S512x256, .f32⟩ : BufTy).Contents (Elt F)),
    binary main_call0_v99 main_call0_v21 main_call0_v118 ((fun l r => Host.dotGeneral dot_S512x256_S256x256_S512x256_1_0_0_1_n_n none l r) : (⟨S512x256, .f32⟩ : BufTy).Contents (Elt F) → (⟨S256x256, .f32⟩ : BufTy).Contents (Elt F) → (⟨S512x256, .f32⟩ : BufTy).Contents (Elt F)),
    unary main_arg8 main_call0_v119 ((broadcastInDim S1x256 ![1] bcast_S256_S1x256_1) : (⟨S256, .f32⟩ : BufTy).Contents (Elt F) → (⟨S1x256, .f32⟩ : BufTy).Contents (Elt F)),
    unary main_call0_v119 main_call0_v120 ((broadcastInDim S512x256 ![0, 1] bcast_S1x256_S512x256_0_1) : (⟨S1x256, .f32⟩ : BufTy).Contents (Elt F) → (⟨S512x256, .f32⟩ : BufTy).Contents (Elt F)),
    binary main_call0_v118 main_call0_v120 main_call0_v121 ((addf) : (⟨S512x256, .f32⟩ : BufTy).Contents (Elt F) → (⟨S512x256, .f32⟩ : BufTy).Contents (Elt F) → (⟨S512x256, .f32⟩ : BufTy).Contents (Elt F)),
    binary main_call0_v121 main_call0_v91 main_call0_v122 ((addf) : (⟨S512x256, .f32⟩ : BufTy).Contents (Elt F) → (⟨S512x256, .f32⟩ : BufTy).Contents (Elt F) → (⟨S512x256, .f32⟩ : BufTy).Contents (Elt F)),
    unary main_call0_v117 main_call0_v123 ((Host.negf) : (⟨S512x256, .f32⟩ : BufTy).Contents (Elt F) → (⟨S512x256, .f32⟩ : BufTy).Contents (Elt F)),
    unary main_call0_v123 main_call0_v124 ((Host.exp) : (⟨S512x256, .f32⟩ : BufTy).Contents (Elt F) → (⟨S512x256, .f32⟩ : BufTy).Contents (Elt F)),
    nullary main_call0_cst_15 (constant S_ .f32 0x3F800000#32),
    unary main_call0_cst_15 main_call0_v125 ((broadcastInDim S512x256 ![] bcast_S_S512x256) : (⟨S_, .f32⟩ : BufTy).Contents (Elt F) → (⟨S512x256, .f32⟩ : BufTy).Contents (Elt F)),
    binary main_call0_v125 main_call0_v124 main_call0_v126 ((addf) : (⟨S512x256, .f32⟩ : BufTy).Contents (Elt F) → (⟨S512x256, .f32⟩ : BufTy).Contents (Elt F) → (⟨S512x256, .f32⟩ : BufTy).Contents (Elt F)),
    nullary main_call0_cst_16 (constant S_ .f32 0x3F800000#32),
    unary main_call0_cst_16 main_call0_v127 ((broadcastInDim S512x256 ![] bcast_S_S512x256) : (⟨S_, .f32⟩ : BufTy).Contents (Elt F) → (⟨S512x256, .f32⟩ : BufTy).Contents (Elt F)),
    binary main_call0_v127 main_call0_v126 main_call0_v128 ((Host.divf) : (⟨S512x256, .f32⟩ : BufTy).Contents (Elt F) → (⟨S512x256, .f32⟩ : BufTy).Contents (Elt F) → (⟨S512x256, .f32⟩ : BufTy).Contents (Elt F)),
    unary main_call0_v122 main_call0_v129 ((Host.negf) : (⟨S512x256, .f32⟩ : BufTy).Contents (Elt F) → (⟨S512x256, .f32⟩ : BufTy).Contents (Elt F)),
    unary main_call0_v129 main_call0_v130 ((Host.exp) : (⟨S512x256, .f32⟩ : BufTy).Contents (Elt F) → (⟨S512x256, .f32⟩ : BufTy).Contents (Elt F)),
    nullary main_call0_cst_17 (constant S_ .f32 0x3F800000#32),
    unary main_call0_cst_17 main_call0_v131 ((broadcastInDim S512x256 ![] bcast_S_S512x256) : (⟨S_, .f32⟩ : BufTy).Contents (Elt F) → (⟨S512x256, .f32⟩ : BufTy).Contents (Elt F)),
    binary main_call0_v131 main_call0_v130 main_call0_v132 ((addf) : (⟨S512x256, .f32⟩ : BufTy).Contents (Elt F) → (⟨S512x256, .f32⟩ : BufTy).Contents (Elt F) → (⟨S512x256, .f32⟩ : BufTy).Contents (Elt F)),
    nullary main_call0_cst_18 (constant S_ .f32 0x3F800000#32),
    unary main_call0_cst_18 main_call0_v133 ((broadcastInDim S512x256 ![] bcast_S_S512x256) : (⟨S_, .f32⟩ : BufTy).Contents (Elt F) → (⟨S512x256, .f32⟩ : BufTy).Contents (Elt F)),
    binary main_call0_v133 main_call0_v132 main_call0_v134 ((Host.divf) : (⟨S512x256, .f32⟩ : BufTy).Contents (Elt F) → (⟨S512x256, .f32⟩ : BufTy).Contents (Elt F) → (⟨S512x256, .f32⟩ : BufTy).Contents (Elt F)),
    binary main_call0_v128 main_call0_v101 main_call0_v135 ((mulf) : (⟨S512x256, .f32⟩ : BufTy).Contents (Elt F) → (⟨S512x256, .f32⟩ : BufTy).Contents (Elt F) → (⟨S512x256, .f32⟩ : BufTy).Contents (Elt F)),
    binary main_call0_v134 main_call0_v103 main_call0_v136 ((mulf) : (⟨S512x256, .f32⟩ : BufTy).Contents (Elt F) → (⟨S512x256, .f32⟩ : BufTy).Contents (Elt F) → (⟨S512x256, .f32⟩ : BufTy).Contents (Elt F)),
    binary main_call0_v135 main_call0_v136 main_call0_v137 ((addf) : (⟨S512x256, .f32⟩ : BufTy).Contents (Elt F) → (⟨S512x256, .f32⟩ : BufTy).Contents (Elt F) → (⟨S512x256, .f32⟩ : BufTy).Contents (Elt F)),
    unary main_call0_v110 main_call0_v138 ((Host.negf) : (⟨S512x256, .f32⟩ : BufTy).Contents (Elt F) → (⟨S512x256, .f32⟩ : BufTy).Contents (Elt F)),
    unary main_call0_v138 main_call0_v139 ((Host.exp) : (⟨S512x256, .f32⟩ : BufTy).Contents (Elt F) → (⟨S512x256, .f32⟩ : BufTy).Contents (Elt F)),
    nullary main_call0_cst_19 (constant S_ .f32 0x3F800000#32),
    unary main_call0_cst_19 main_call0_v140 ((broadcastInDim S512x256 ![] bcast_S_S512x256) : (⟨S_, .f32⟩ : BufTy).Contents (Elt F) → (⟨S512x256, .f32⟩ : BufTy).Contents (Elt F)),
    binary main_call0_v140 main_call0_v139 main_call0_v141 ((addf) : (⟨S512x256, .f32⟩ : BufTy).Contents (Elt F) → (⟨S512x256, .f32⟩ : BufTy).Contents (Elt F) → (⟨S512x256, .f32⟩ : BufTy).Contents (Elt F)),
    nullary main_call0_cst_20 (constant S_ .f32 0x3F800000#32),
    unary main_call0_cst_20 main_call0_v142 ((broadcastInDim S512x256 ![] bcast_S_S512x256) : (⟨S_, .f32⟩ : BufTy).Contents (Elt F) → (⟨S512x256, .f32⟩ : BufTy).Contents (Elt F)),
    binary main_call0_v142 main_call0_v141 main_call0_v143 ((Host.divf) : (⟨S512x256, .f32⟩ : BufTy).Contents (Elt F) → (⟨S512x256, .f32⟩ : BufTy).Contents (Elt F) → (⟨S512x256, .f32⟩ : BufTy).Contents (Elt F)),
    unary main_call0_v112 main_call0_v144 ((Host.tanh) : (⟨S512x256, .f32⟩ : BufTy).Contents (Elt F) → (⟨S512x256, .f32⟩ : BufTy).Contents (Elt F)),
    binary main_call0_v143 main_call0_v144 main_call0_v145 ((mulf) : (⟨S512x256, .f32⟩ : BufTy).Contents (Elt F) → (⟨S512x256, .f32⟩ : BufTy).Contents (Elt F) → (⟨S512x256, .f32⟩ : BufTy).Contents (Elt F)),
    binary main_call0_v145 main_call0_v137 main_call0_v146 ((addf) : (⟨S512x256, .f32⟩ : BufTy).Contents (Elt F) → (⟨S512x256, .f32⟩ : BufTy).Contents (Elt F) → (⟨S512x256, .f32⟩ : BufTy).Contents (Elt F)),
    unary main_call0_v111 main_call0_v147 ((Host.negf) : (⟨S512x256, .f32⟩ : BufTy).Contents (Elt F) → (⟨S512x256, .f32⟩ : BufTy).Contents (Elt F)),
    unary main_call0_v147 main_call0_v148 ((Host.exp) : (⟨S512x256, .f32⟩ : BufTy).Contents (Elt F) → (⟨S512x256, .f32⟩ : BufTy).Contents (Elt F)),
    nullary main_call0_cst_21 (constant S_ .f32 0x3F800000#32),
    unary main_call0_cst_21 main_call0_v149 ((broadcastInDim S512x256 ![] bcast_S_S512x256) : (⟨S_, .f32⟩ : BufTy).Contents (Elt F) → (⟨S512x256, .f32⟩ : BufTy).Contents (Elt F)),
    binary main_call0_v149 main_call0_v148 main_call0_v150 ((addf) : (⟨S512x256, .f32⟩ : BufTy).Contents (Elt F) → (⟨S512x256, .f32⟩ : BufTy).Contents (Elt F) → (⟨S512x256, .f32⟩ : BufTy).Contents (Elt F)),
    nullary main_call0_cst_22 (constant S_ .f32 0x3F800000#32),
    unary main_call0_cst_22 main_call0_v151 ((broadcastInDim S512x256 ![] bcast_S_S512x256) : (⟨S_, .f32⟩ : BufTy).Contents (Elt F) → (⟨S512x256, .f32⟩ : BufTy).Contents (Elt F)),
    binary main_call0_v151 main_call0_v150 main_call0_v152 ((Host.divf) : (⟨S512x256, .f32⟩ : BufTy).Contents (Elt F) → (⟨S512x256, .f32⟩ : BufTy).Contents (Elt F) → (⟨S512x256, .f32⟩ : BufTy).Contents (Elt F)),
    unary main_call0_v146 main_call0_v153 ((Host.tanh) : (⟨S512x256, .f32⟩ : BufTy).Contents (Elt F) → (⟨S512x256, .f32⟩ : BufTy).Contents (Elt F)),
    binary main_call0_v152 main_call0_v153 main_call0_v154 ((mulf) : (⟨S512x256, .f32⟩ : BufTy).Contents (Elt F) → (⟨S512x256, .f32⟩ : BufTy).Contents (Elt F) → (⟨S512x256, .f32⟩ : BufTy).Contents (Elt F)),
    nullary main_call0_c_23 (constantI S_ 32 511#32),
    unary main_call0_c_23 main_call0_v155 ((broadcastInDim S1 ![] bcast_S_S1) : (⟨S_, .i32⟩ : BufTy).Contents (Elt F) → (⟨S1, .i32⟩ : BufTy).Contents (Elt F)),
    ternary main_call0_v87 main_call0_v155 main_call0_v146 main_call0_v156 ((fun x i u => Host.scatter scatter_S131071x256_S1_S512x256_01_n_0_0 (fun _ b => b) x i u) : (⟨S131071x256, .f32⟩ : BufTy).Contents (Elt F) → (⟨S1, .i32⟩ : BufTy).Contents (Elt F) → (⟨S512x256, .f32⟩ : BufTy).Contents (Elt F) → (⟨S131071x256, .f32⟩ : BufTy).Contents (Elt F)),
    nullary main_call0_c_24 (constantI S_ 32 511#32),
    unary main_call0_c_24 main_call0_v157 ((broadcastInDim S1 ![] bcast_S_S1) : (⟨S_, .i32⟩ : BufTy).Contents (Elt F) → (⟨S1, .i32⟩ : BufTy).Contents (Elt F)),
    ternary main_call0_v89 main_call0_v157 main_call0_v154 main_call0_v158 ((fun x i u => Host.scatter scatter_S131071x256_S1_S512x256_01_n_0_0 (fun _ b => b) x i u) : (⟨S131071x256, .f32⟩ : BufTy).Contents (Elt F) → (⟨S1, .i32⟩ : BufTy).Contents (Elt F) → (⟨S512x256, .f32⟩ : BufTy).Contents (Elt F) → (⟨S131071x256, .f32⟩ : BufTy).Contents (Elt F)) ]

/-- Stretch 8, part 2: level 8. -/
abbrev klev8 : List (HloOp τ sig (Elt F)) :=
  [ unary main_call0_v7 main_call0_v159 ((extractStridedSlice S256x768 ![255, 0] · slices_S65535x768_S256x768_255_0) : (⟨S65535x768, .f32⟩ : BufTy).Contents (Elt F) → (⟨S256x768, .f32⟩ : BufTy).Contents (Elt F)),
    unary main_call0_v8 main_call0_v160 ((extractStridedSlice S256x256 ![255, 0] · slices_S65535x256_S256x256_255_0) : (⟨S65535x256, .f32⟩ : BufTy).Contents (Elt F) → (⟨S256x256, .f32⟩ : BufTy).Contents (Elt F)),
    unary main_call0_v158 main_call0_v161 ((extractStridedSlice S512x256 ![511, 0] · slices_S131071x256_S512x256_511_0) : (⟨S131071x256, .f32⟩ : BufTy).Contents (Elt F) → (⟨S512x256, .f32⟩ : BufTy).Contents (Elt F)),
    reshape main_call0_v161 main_call0_v162 rfl shapeCasts_S512x256_S256x2x256,
    unary main_call0_v156 main_call0_v163 ((extractStridedSlice S512x256 ![511, 0] · slices_S131071x256_S512x256_511_0) : (⟨S131071x256, .f32⟩ : BufTy).Contents (Elt F) → (⟨S512x256, .f32⟩ : BufTy).Contents (Elt F)),
    reshape main_call0_v163 main_call0_v164 rfl shapeCasts_S512x256_S256x2x256,
    unary main_call0_v162 main_call0_v165 ((extractStridedSlice S256x1x256 ![0, 0, 0] · slices_S256x2x256_S256x1x256_0_0_0) : (⟨S256x2x256, .f32⟩ : BufTy).Contents (Elt F) → (⟨S256x1x256, .f32⟩ : BufTy).Contents (Elt F)),
    reshape main_call0_v165 main_call0_v166 rfl shapeCasts_S256x1x256_S256x256,
    unary main_call0_v162 main_call0_v167 ((extractStridedSlice S256x1x256 ![0, 1, 0] · slices_S256x2x256_S256x1x256_0_1_0) : (⟨S256x2x256, .f32⟩ : BufTy).Contents (Elt F) → (⟨S256x1x256, .f32⟩ : BufTy).Contents (Elt F)),
    reshape main_call0_v167 main_call0_v168 rfl shapeCasts_S256x1x256_S256x256,
    unary main_call0_v164 main_call0_v169 ((extractStridedSlice S256x1x256 ![0, 0, 0] · slices_S256x2x256_S256x1x256_0_0_0) : (⟨S256x2x256, .f32⟩ : BufTy).Contents (Elt F) → (⟨S256x1x256, .f32⟩ : BufTy).Contents (Elt F)),
    reshape main_call0_v169 main_call0_v170 rfl shapeCasts_S256x1x256_S256x256,
    unary main_call0_v164 main_call0_v171 ((extractStridedSlice S256x1x256 ![0, 1, 0] · slices_S256x2x256_S256x1x256_0_1_0) : (⟨S256x2x256, .f32⟩ : BufTy).Contents (Elt F) → (⟨S256x1x256, .f32⟩ : BufTy).Contents (Elt F)),
    reshape main_call0_v171 main_call0_v172 rfl shapeCasts_S256x1x256_S256x256,
    binary main_call0_v166 main_call0_v168 main_call0_v173 ((addf) : (⟨S256x256, .f32⟩ : BufTy).Contents (Elt F) → (⟨S256x256, .f32⟩ : BufTy).Contents (Elt F) → (⟨S256x256, .f32⟩ : BufTy).Contents (Elt F)),
    binary main_call0_v173 main_call0_v20 main_call0_v174 ((fun l r => Host.dotGeneral dot_S256x256_S256x768_S256x768_1_0_0_1_n_n none l r) : (⟨S256x256, .f32⟩ : BufTy).Contents (Elt F) → (⟨S256x768, .f32⟩ : BufTy).Contents (Elt F) → (⟨S256x768, .f32⟩ : BufTy).Contents (Elt F)),
    binary main_call0_v159 main_call0_v174 main_call0_v175 ((addf) : (⟨S256x768, .f32⟩ : BufTy).Contents (Elt F) → (⟨S256x768, .f32⟩ : BufTy).Contents (Elt F) → (⟨S256x768, .f32⟩ : BufTy).Contents (Elt F)),
    unary main_arg4 main_call0_v176 ((broadcastInDim S1x768 ![1] bcast_S768_S1x768_1) : (⟨S768, .f32⟩ : BufTy).Contents (Elt F) → (⟨S1x768, .f32⟩ : BufTy).Contents (Elt F)),
    unary main_call0_v176 main_call0_v177 ((broadcastInDim S256x768 ![0, 1] bcast_S1x768_S256x768_0_1) : (⟨S1x768, .f32⟩ : BufTy).Contents (Elt F) → (⟨S256x768, .f32⟩ : BufTy).Contents (Elt F)),
    binary main_call0_v175 main_call0_v177 main_call0_v178 ((addf) : (⟨S256x768, .f32⟩ : BufTy).Contents (Elt F) → (⟨S256x768, .f32⟩ : BufTy).Contents (Elt F) → (⟨S256x768, .f32⟩ : BufTy).Contents (Elt F)),
    unary main_call0_v178 main_call0_v179 ((extractStridedSlice S256x256 ![0, 0] · slices_S256x768_S256x256_0_0) : (⟨S256x768, .f32⟩ : BufTy).Contents (Elt F) → (⟨S256x256, .f32⟩ : BufTy).Contents (Elt F)),
    unary main_call0_v178 main_call0_v180 ((extractStridedSlice S256x256 ![0, 256] · slices_S256x768_S256x256_0_256) : (⟨S256x768, .f32⟩ : BufTy).Contents (Elt F) → (⟨S256x256, .f32⟩ : BufTy).Contents (Elt F)),
    unary main_call0_v178 main_call0_v181 ((extractStridedSlice S256x256 ![0, 512] · slices_S256x768_S256x256_0_512) : (⟨S256x768, .f32⟩ : BufTy).Contents (Elt F) → (⟨S256x256, .f32⟩ : BufTy).Contents (Elt F)),
    binary main_call0_v166 main_call0_v21 main_call0_v182 ((fun l r => Host.dotGeneral dot_S256x256_S256x256_S256x256_1_0_0_1_n_n none l r) : (⟨S256x256, .f32⟩ : BufTy).Contents (Elt F) → (⟨S256x256, .f32⟩ : BufTy).Contents (Elt F) → (⟨S256x256, .f32⟩ : BufTy).Contents (Elt F)),
    unary main_arg8 main_call0_v183 ((broadcastInDim S1x256 ![1] bcast_S256_S1x256_1) : (⟨S256, .f32⟩ : BufTy).Contents (Elt F) → (⟨S1x256, .f32⟩ : BufTy).Contents (Elt F)),
    unary main_call0_v183 main_call0_v184 ((broadcastInDim S256x256 ![0, 1] bcast_S1x256_S256x256_0_1) : (⟨S1x256, .f32⟩ : BufTy).Contents (Elt F) → (⟨S256x256, .f32⟩ : BufTy).Contents (Elt F)),
    binary main_call0_v182 main_call0_v184 main_call0_v185 ((addf) : (⟨S256x256, .f32⟩ : BufTy).Contents (Elt F) → (⟨S256x256, .f32⟩ : BufTy).Contents (Elt F) → (⟨S256x256, .f32⟩ : BufTy).Contents (Elt F)),
    binary main_call0_v185 main_call0_v160 main_call0_v186 ((addf) : (⟨S256x256, .f32⟩ : BufTy).Contents (Elt F) → (⟨S256x256, .f32⟩ : BufTy).Contents (Elt F) → (⟨S256x256, .f32⟩ : BufTy).Contents (Elt F)),
    binary main_call0_v168 main_call0_v21 main_call0_v187 ((fun l r => Host.dotGeneral dot_S256x256_S256x256_S256x256_1_0_0_1_n_n none l r) : (⟨S256x256, .f32⟩ : BufTy).Contents (Elt F) → (⟨S256x256, .f32⟩ : BufTy).Contents (Elt F) → (⟨S256x256, .f32⟩ : BufTy).Contents (Elt F)),
    unary main_arg8 main_call0_v188 ((broadcastInDim S1x256 ![1] bcast_S256_S1x256_1) : (⟨S256, .f32⟩ : BufTy).Contents (Elt F) → (⟨S1x256, .f32⟩ : BufTy).Contents (Elt F)),
    unary main_call0_v188 main_call0_v189 ((broadcastInDim S256x256 ![0, 1] bcast_S1x256_S256x256_0_1) : (⟨S1x256, .f32⟩ : BufTy).Contents (Elt F) → (⟨S256x256, .f32⟩ : BufTy).Contents (Elt F)),
    binary main_call0_v187 main_call0_v189 main_call0_v190 ((addf) : (⟨S256x256, .f32⟩ : BufTy).Contents (Elt F) → (⟨S256x256, .f32⟩ : BufTy).Contents (Elt F) → (⟨S256x256, .f32⟩ : BufTy).Contents (Elt F)),
    binary main_call0_v190 main_call0_v160 main_call0_v191 ((addf) : (⟨S256x256, .f32⟩ : BufTy).Contents (Elt F) → (⟨S256x256, .f32⟩ : BufTy).Contents (Elt F) → (⟨S256x256, .f32⟩ : BufTy).Contents (Elt F)),
    unary main_call0_v186 main_call0_v192 ((Host.negf) : (⟨S256x256, .f32⟩ : BufTy).Contents (Elt F) → (⟨S256x256, .f32⟩ : BufTy).Contents (Elt F)),
    unary main_call0_v192 main_call0_v193 ((Host.exp) : (⟨S256x256, .f32⟩ : BufTy).Contents (Elt F) → (⟨S256x256, .f32⟩ : BufTy).Contents (Elt F)),
    nullary main_call0_cst_25 (constant S_ .f32 0x3F800000#32),
    unary main_call0_cst_25 main_call0_v194 ((broadcastInDim S256x256 ![] bcast_S_S256x256) : (⟨S_, .f32⟩ : BufTy).Contents (Elt F) → (⟨S256x256, .f32⟩ : BufTy).Contents (Elt F)),
    binary main_call0_v194 main_call0_v193 main_call0_v195 ((addf) : (⟨S256x256, .f32⟩ : BufTy).Contents (Elt F) → (⟨S256x256, .f32⟩ : BufTy).Contents (Elt F) → (⟨S256x256, .f32⟩ : BufTy).Contents (Elt F)),
    nullary main_call0_cst_26 (constant S_ .f32 0x3F800000#32),
    unary main_call0_cst_26 main_call0_v196 ((broadcastInDim S256x256 ![] bcast_S_S256x256) : (⟨S_, .f32⟩ : BufTy).Contents (Elt F) → (⟨S256x256, .f32⟩ : BufTy).Contents (Elt F)),
    binary main_call0_v196 main_call0_v195 main_call0_v197 ((Host.divf) : (⟨S256x256, .f32⟩ : BufTy).Contents (Elt F) → (⟨S256x256, .f32⟩ : BufTy).Contents (Elt F) → (⟨S256x256, .f32⟩ : BufTy).Contents (Elt F)),
    unary main_call0_v191 main_call0_v198 ((Host.negf) : (⟨S256x256, .f32⟩ : BufTy).Contents (Elt F) → (⟨S256x256, .f32⟩ : BufTy).Contents (Elt F)),
    unary main_call0_v198 main_call0_v199 ((Host.exp) : (⟨S256x256, .f32⟩ : BufTy).Contents (Elt F) → (⟨S256x256, .f32⟩ : BufTy).Contents (Elt F)),
    nullary main_call0_cst_27 (constant S_ .f32 0x3F800000#32),
    unary main_call0_cst_27 main_call0_v200 ((broadcastInDim S256x256 ![] bcast_S_S256x256) : (⟨S_, .f32⟩ : BufTy).Contents (Elt F) → (⟨S256x256, .f32⟩ : BufTy).Contents (Elt F)),
    binary main_call0_v200 main_call0_v199 main_call0_v201 ((addf) : (⟨S256x256, .f32⟩ : BufTy).Contents (Elt F) → (⟨S256x256, .f32⟩ : BufTy).Contents (Elt F) → (⟨S256x256, .f32⟩ : BufTy).Contents (Elt F)),
    nullary main_call0_cst_28 (constant S_ .f32 0x3F800000#32),
    unary main_call0_cst_28 main_call0_v202 ((broadcastInDim S256x256 ![] bcast_S_S256x256) : (⟨S_, .f32⟩ : BufTy).Contents (Elt F) → (⟨S256x256, .f32⟩ : BufTy).Contents (Elt F)),
    binary main_call0_v202 main_call0_v201 main_call0_v203 ((Host.divf) : (⟨S256x256, .f32⟩ : BufTy).Contents (Elt F) → (⟨S256x256, .f32⟩ : BufTy).Contents (Elt F) → (⟨S256x256, .f32⟩ : BufTy).Contents (Elt F)),
    binary main_call0_v197 main_call0_v170 main_call0_v204 ((mulf) : (⟨S256x256, .f32⟩ : BufTy).Contents (Elt F) → (⟨S256x256, .f32⟩ : BufTy).Contents (Elt F) → (⟨S256x256, .f32⟩ : BufTy).Contents (Elt F)),
    binary main_call0_v203 main_call0_v172 main_call0_v205 ((mulf) : (⟨S256x256, .f32⟩ : BufTy).Contents (Elt F) → (⟨S256x256, .f32⟩ : BufTy).Contents (Elt F) → (⟨S256x256, .f32⟩ : BufTy).Contents (Elt F)),
    binary main_call0_v204 main_call0_v205 main_call0_v206 ((addf) : (⟨S256x256, .f32⟩ : BufTy).Contents (Elt F) → (⟨S256x256, .f32⟩ : BufTy).Contents (Elt F) → (⟨S256x256, .f32⟩ : BufTy).Contents (Elt F)),
    unary main_call0_v179 main_call0_v207 ((Host.negf) : (⟨S256x256, .f32⟩ : BufTy).Contents (Elt F) → (⟨S256x256, .f32⟩ : BufTy).Contents (Elt F)),
    unary main_call0_v207 main_call0_v208 ((Host.exp) : (⟨S256x256, .f32⟩ : BufTy).Contents (Elt F) → (⟨S256x256, .f32⟩ : BufTy).Contents (Elt F)),
    nullary main_call0_cst_29 (constant S_ .f32 0x3F800000#32),
    unary main_call0_cst_29 main_call0_v209 ((broadcastInDim S256x256 ![] bcast_S_S256x256) : (⟨S_, .f32⟩ : BufTy).Contents (Elt F) → (⟨S256x256, .f32⟩ : BufTy).Contents (Elt F)),
    binary main_call0_v209 main_call0_v208 main_call0_v210 ((addf) : (⟨S256x256, .f32⟩ : BufTy).Contents (Elt F) → (⟨S256x256, .f32⟩ : BufTy).Contents (Elt F) → (⟨S256x256, .f32⟩ : BufTy).Contents (Elt F)),
    nullary main_call0_cst_30 (constant S_ .f32 0x3F800000#32),
    unary main_call0_cst_30 main_call0_v211 ((broadcastInDim S256x256 ![] bcast_S_S256x256) : (⟨S_, .f32⟩ : BufTy).Contents (Elt F) → (⟨S256x256, .f32⟩ : BufTy).Contents (Elt F)),
    binary main_call0_v211 main_call0_v210 main_call0_v212 ((Host.divf) : (⟨S256x256, .f32⟩ : BufTy).Contents (Elt F) → (⟨S256x256, .f32⟩ : BufTy).Contents (Elt F) → (⟨S256x256, .f32⟩ : BufTy).Contents (Elt F)),
    unary main_call0_v181 main_call0_v213 ((Host.tanh) : (⟨S256x256, .f32⟩ : BufTy).Contents (Elt F) → (⟨S256x256, .f32⟩ : BufTy).Contents (Elt F)),
    binary main_call0_v212 main_call0_v213 main_call0_v214 ((mulf) : (⟨S256x256, .f32⟩ : BufTy).Contents (Elt F) → (⟨S256x256, .f32⟩ : BufTy).Contents (Elt F) → (⟨S256x256, .f32⟩ : BufTy).Contents (Elt F)),
    binary main_call0_v214 main_call0_v206 main_call0_v215 ((addf) : (⟨S256x256, .f32⟩ : BufTy).Contents (Elt F) → (⟨S256x256, .f32⟩ : BufTy).Contents (Elt F) → (⟨S256x256, .f32⟩ : BufTy).Contents (Elt F)),
    unary main_call0_v180 main_call0_v216 ((Host.negf) : (⟨S256x256, .f32⟩ : BufTy).Contents (Elt F) → (⟨S256x256, .f32⟩ : BufTy).Contents (Elt F)),
    unary main_call0_v216 main_call0_v217 ((Host.exp) : (⟨S256x256, .f32⟩ : BufTy).Contents (Elt F) → (⟨S256x256, .f32⟩ : BufTy).Contents (Elt F)),
    nullary main_call0_cst_31 (constant S_ .f32 0x3F800000#32),
    unary main_call0_cst_31 main_call0_v218 ((broadcastInDim S256x256 ![] bcast_S_S256x256) : (⟨S_, .f32⟩ : BufTy).Contents (Elt F) → (⟨S256x256, .f32⟩ : BufTy).Contents (Elt F)),
    binary main_call0_v218 main_call0_v217 main_call0_v219 ((addf) : (⟨S256x256, .f32⟩ : BufTy).Contents (Elt F) → (⟨S256x256, .f32⟩ : BufTy).Contents (Elt F) → (⟨S256x256, .f32⟩ : BufTy).Contents (Elt F)),
    nullary main_call0_cst_32 (constant S_ .f32 0x3F800000#32),
    unary main_call0_cst_32 main_call0_v220 ((broadcastInDim S256x256 ![] bcast_S_S256x256) : (⟨S_, .f32⟩ : BufTy).Contents (Elt F) → (⟨S256x256, .f32⟩ : BufTy).Contents (Elt F)),
    binary main_call0_v220 main_call0_v219 main_call0_v221 ((Host.divf) : (⟨S256x256, .f32⟩ : BufTy).Contents (Elt F) → (⟨S256x256, .f32⟩ : BufTy).Contents (Elt F) → (⟨S256x256, .f32⟩ : BufTy).Contents (Elt F)),
    unary main_call0_v215 main_call0_v222 ((Host.tanh) : (⟨S256x256, .f32⟩ : BufTy).Contents (Elt F) → (⟨S256x256, .f32⟩ : BufTy).Contents (Elt F)),
    binary main_call0_v221 main_call0_v222 main_call0_v223 ((mulf) : (⟨S256x256, .f32⟩ : BufTy).Contents (Elt F) → (⟨S256x256, .f32⟩ : BufTy).Contents (Elt F) → (⟨S256x256, .f32⟩ : BufTy).Contents (Elt F)),
    nullary main_call0_c_33 (constantI S_ 32 255#32),
    unary main_call0_c_33 main_call0_v224 ((broadcastInDim S1 ![] bcast_S_S1) : (⟨S_, .i32⟩ : BufTy).Contents (Elt F) → (⟨S1, .i32⟩ : BufTy).Contents (Elt F)),
    ternary main_call0_v156 main_call0_v224 main_call0_v215 main_call0_v225 ((fun x i u => Host.scatter scatter_S131071x256_S1_S256x256_01_n_0_0 (fun _ b => b) x i u) : (⟨S131071x256, .f32⟩ : BufTy).Contents (Elt F) → (⟨S1, .i32⟩ : BufTy).Contents (Elt F) → (⟨S256x256, .f32⟩ : BufTy).Contents (Elt F) → (⟨S131071x256, .f32⟩ : BufTy).Contents (Elt F)),
    nullary main_call0_c_34 (constantI S_ 32 255#32),
    unary main_call0_c_34 main_call0_v226 ((broadcastInDim S1 ![] bcast_S_S1) : (⟨S_, .i32⟩ : BufTy).Contents (Elt F) → (⟨S1, .i32⟩ : BufTy).Contents (Elt F)),
    ternary main_call0_v158 main_call0_v226 main_call0_v223 main_call0_v227 ((fun x i u => Host.scatter scatter_S131071x256_S1_S256x256_01_n_0_0 (fun _ b => b) x i u) : (⟨S131071x256, .f32⟩ : BufTy).Contents (Elt F) → (⟨S1, .i32⟩ : BufTy).Contents (Elt F) → (⟨S256x256, .f32⟩ : BufTy).Contents (Elt F) → (⟨S131071x256, .f32⟩ : BufTy).Contents (Elt F)) ]

/-- Stretch 8, part 3: level 7. -/
abbrev klev7 : List (HloOp τ sig (Elt F)) :=
  [ unary main_call0_v7 main_call0_v228 ((extractStridedSlice S128x768 ![127, 0] · slices_S65535x768_S128x768_127_0) : (⟨S65535x768, .f32⟩ : BufTy).Contents (Elt F) → (⟨S128x768, .f32⟩ : BufTy).Contents (Elt F)),
    unary main_call0_v8 main_call0_v229 ((extractStridedSlice S128x256 ![127, 0] · slices_S65535x256_S128x256_127_0) : (⟨S65535x256, .f32⟩ : BufTy).Contents (Elt F) → (⟨S128x256, .f32⟩ : BufTy).Contents (Elt F)),
    unary main_call0_v227 main_call0_v230 ((extractStridedSlice S256x256 ![255, 0] · slices_S131071x256_S256x256_255_0) : (⟨S131071x256, .f32⟩ : BufTy).Contents (Elt F) → (⟨S256x256, .f32⟩ : BufTy).Contents (Elt F)),
    reshape main_call0_v230 main_call0_v231 rfl shapeCasts_S256x256_S128x2x256,
    unary main_call0_v225 main_call0_v232 ((extractStridedSlice S256x256 ![255, 0] · slices_S131071x256_S256x256_255_0) : (⟨S131071x256, .f32⟩ : BufTy).Contents (Elt F) → (⟨S256x256, .f32⟩ : BufTy).Contents (Elt F)),
    reshape main_call0_v232 main_call0_v233 rfl shapeCasts_S256x256_S128x2x256,
    unary main_call0_v231 main_call0_v234 ((extractStridedSlice S128x1x256 ![0, 0, 0] · slices_S128x2x256_S128x1x256_0_0_0) : (⟨S128x2x256, .f32⟩ : BufTy).Contents (Elt F) → (⟨S128x1x256, .f32⟩ : BufTy).Contents (Elt F)),
    reshape main_call0_v234 main_call0_v235 rfl shapeCasts_S128x1x256_S128x256,
    unary main_call0_v231 main_call0_v236 ((extractStridedSlice S128x1x256 ![0, 1, 0] · slices_S128x2x256_S128x1x256_0_1_0) : (⟨S128x2x256, .f32⟩ : BufTy).Contents (Elt F) → (⟨S128x1x256, .f32⟩ : BufTy).Contents (Elt F)),
    reshape main_call0_v236 main_call0_v237 rfl shapeCasts_S128x1x256_S128x256,
    unary main_call0_v233 main_call0_v238 ((extractStridedSlice S128x1x256 ![0, 0, 0] · slices_S128x2x256_S128x1x256_0_0_0) : (⟨S128x2x256, .f32⟩ : BufTy).Contents (Elt F) → (⟨S128x1x256, .f32⟩ : BufTy).Contents (Elt F)),
    reshape main_call0_v238 main_call0_v239 rfl shapeCasts_S128x1x256_S128x256,
    unary main_call0_v233 main_call0_v240 ((extractStridedSlice S128x1x256 ![0, 1, 0] · slices_S128x2x256_S128x1x256_0_1_0) : (⟨S128x2x256, .f32⟩ : BufTy).Contents (Elt F) → (⟨S128x1x256, .f32⟩ : BufTy).Contents (Elt F)),
    reshape main_call0_v240 main_call0_v241 rfl shapeCasts_S128x1x256_S128x256,
    binary main_call0_v235 main_call0_v237 main_call0_v242 ((addf) : (⟨S128x256, .f32⟩ : BufTy).Contents (Elt F) → (⟨S128x256, .f32⟩ : BufTy).Contents (Elt F) → (⟨S128x256, .f32⟩ : BufTy).Contents (Elt F)),
    binary main_call0_v242 main_call0_v20 main_call0_v243 ((fun l r => Host.dotGeneral dot_S128x256_S256x768_S128x768_1_0_0_1_n_n none l r) : (⟨S128x256, .f32⟩ : BufTy).Contents (Elt F) → (⟨S256x768, .f32⟩ : BufTy).Contents (Elt F) → (⟨S128x768, .f32⟩ : BufTy).Contents (Elt F)),
    binary main_call0_v228 main_call0_v243 main_call0_v244 ((addf) : (⟨S128x768, .f32⟩ : BufTy).Contents (Elt F) → (⟨S128x768, .f32⟩ : BufTy).Contents (Elt F) → (⟨S128x768, .f32⟩ : BufTy).Contents (Elt F)),
    unary main_arg4 main_call0_v245 ((broadcastInDim S1x768 ![1] bcast_S768_S1x768_1) : (⟨S768, .f32⟩ : BufTy).Contents (Elt F) → (⟨S1x768, .f32⟩ : BufTy).Contents (Elt F)),
    unary main_call0_v245 main_call0_v246 ((broadcastInDim S128x768 ![0, 1] bcast_S1x768_S128x768_0_1) : (⟨S1x768, .f32⟩ : BufTy).Contents (Elt F) → (⟨S128x768, .f32⟩ : BufTy).Contents (Elt F)),
    binary main_call0_v244 main_call0_v246 main_call0_v247 ((addf) : (⟨S128x768, .f32⟩ : BufTy).Contents (Elt F) → (⟨S128x768, .f32⟩ : BufTy).Contents (Elt F) → (⟨S128x768, .f32⟩ : BufTy).Contents (Elt F)),
    unary main_call0_v247 main_call0_v248 ((extractStridedSlice S128x256 ![0, 0] · slices_S128x768_S128x256_0_0) : (⟨S128x768, .f32⟩ : BufTy).Contents (Elt F) → (⟨S128x256, .f32⟩ : BufTy).Contents (Elt F)),
    unary main_call0_v247 main_call0_v249 ((extractStridedSlice S128x256 ![0, 256] · slices_S128x768_S128x256_0_256) : (⟨S128x768, .f32⟩ : BufTy).Contents (Elt F) → (⟨S128x256, .f32⟩ : BufTy).Contents (Elt F)),
    unary main_call0_v247 main_call0_v250 ((extractStridedSlice S128x256 ![0, 512] · slices_S128x768_S128x256_0_512) : (⟨S128x768, .f32⟩ : BufTy).Contents (Elt F) → (⟨S128x256, .f32⟩ : BufTy).Contents (Elt F)),
    binary main_call0_v235 main_call0_v21 main_call0_v251 ((fun l r => Host.dotGeneral dot_S128x256_S256x256_S128x256_1_0_0_1_n_n none l r) : (⟨S128x256, .f32⟩ : BufTy).Contents (Elt F) → (⟨S256x256, .f32⟩ : BufTy).Contents (Elt F) → (⟨S128x256, .f32⟩ : BufTy).Contents (Elt F)),
    unary main_arg8 main_call0_v252 ((broadcastInDim S1x256 ![1] bcast_S256_S1x256_1) : (⟨S256, .f32⟩ : BufTy).Contents (Elt F) → (⟨S1x256, .f32⟩ : BufTy).Contents (Elt F)),
    unary main_call0_v252 main_call0_v253 ((broadcastInDim S128x256 ![0, 1] bcast_S1x256_S128x256_0_1) : (⟨S1x256, .f32⟩ : BufTy).Contents (Elt F) → (⟨S128x256, .f32⟩ : BufTy).Contents (Elt F)),
    binary main_call0_v251 main_call0_v253 main_call0_v254 ((addf) : (⟨S128x256, .f32⟩ : BufTy).Contents (Elt F) → (⟨S128x256, .f32⟩ : BufTy).Contents (Elt F) → (⟨S128x256, .f32⟩ : BufTy).Contents (Elt F)),
    binary main_call0_v254 main_call0_v229 main_call0_v255 ((addf) : (⟨S128x256, .f32⟩ : BufTy).Contents (Elt F) → (⟨S128x256, .f32⟩ : BufTy).Contents (Elt F) → (⟨S128x256, .f32⟩ : BufTy).Contents (Elt F)),
    binary main_call0_v237 main_call0_v21 main_call0_v256 ((fun l r => Host.dotGeneral dot_S128x256_S256x256_S128x256_1_0_0_1_n_n none l r) : (⟨S128x256, .f32⟩ : BufTy).Contents (Elt F) → (⟨S256x256, .f32⟩ : BufTy).Contents (Elt F) → (⟨S128x256, .f32⟩ : BufTy).Contents (Elt F)),
    unary main_arg8 main_call0_v257 ((broadcastInDim S1x256 ![1] bcast_S256_S1x256_1) : (⟨S256, .f32⟩ : BufTy).Contents (Elt F) → (⟨S1x256, .f32⟩ : BufTy).Contents (Elt F)),
    unary main_call0_v257 main_call0_v258 ((broadcastInDim S128x256 ![0, 1] bcast_S1x256_S128x256_0_1) : (⟨S1x256, .f32⟩ : BufTy).Contents (Elt F) → (⟨S128x256, .f32⟩ : BufTy).Contents (Elt F)),
    binary main_call0_v256 main_call0_v258 main_call0_v259 ((addf) : (⟨S128x256, .f32⟩ : BufTy).Contents (Elt F) → (⟨S128x256, .f32⟩ : BufTy).Contents (Elt F) → (⟨S128x256, .f32⟩ : BufTy).Contents (Elt F)),
    binary main_call0_v259 main_call0_v229 main_call0_v260 ((addf) : (⟨S128x256, .f32⟩ : BufTy).Contents (Elt F) → (⟨S128x256, .f32⟩ : BufTy).Contents (Elt F) → (⟨S128x256, .f32⟩ : BufTy).Contents (Elt F)),
    unary main_call0_v255 main_call0_v261 ((Host.negf) : (⟨S128x256, .f32⟩ : BufTy).Contents (Elt F) → (⟨S128x256, .f32⟩ : BufTy).Contents (Elt F)),
    unary main_call0_v261 main_call0_v262 ((Host.exp) : (⟨S128x256, .f32⟩ : BufTy).Contents (Elt F) → (⟨S128x256, .f32⟩ : BufTy).Contents (Elt F)),
    nullary main_call0_cst_35 (constant S_ .f32 0x3F800000#32),
    unary main_call0_cst_35 main_call0_v263 ((broadcastInDim S128x256 ![] bcast_S_S128x256) : (⟨S_, .f32⟩ : BufTy).Contents (Elt F) → (⟨S128x256, .f32⟩ : BufTy).Contents (Elt F)),
    binary main_call0_v263 main_call0_v262 main_call0_v264 ((addf) : (⟨S128x256, .f32⟩ : BufTy).Contents (Elt F) → (⟨S128x256, .f32⟩ : BufTy).Contents (Elt F) → (⟨S128x256, .f32⟩ : BufTy).Contents (Elt F)),
    nullary main_call0_cst_36 (constant S_ .f32 0x3F800000#32),
    unary main_call0_cst_36 main_call0_v265 ((broadcastInDim S128x256 ![] bcast_S_S128x256) : (⟨S_, .f32⟩ : BufTy).Contents (Elt F) → (⟨S128x256, .f32⟩ : BufTy).Contents (Elt F)),
    binary main_call0_v265 main_call0_v264 main_call0_v266 ((Host.divf) : (⟨S128x256, .f32⟩ : BufTy).Contents (Elt F) → (⟨S128x256, .f32⟩ : BufTy).Contents (Elt F) → (⟨S128x256, .f32⟩ : BufTy).Contents (Elt F)),
    unary main_call0_v260 main_call0_v267 ((Host.negf) : (⟨S128x256, .f32⟩ : BufTy).Contents (Elt F) → (⟨S128x256, .f32⟩ : BufTy).Contents (Elt F)),
    unary main_call0_v267 main_call0_v268 ((Host.exp) : (⟨S128x256, .f32⟩ : BufTy).Contents (Elt F) → (⟨S128x256, .f32⟩ : BufTy).Contents (Elt F)),
    nullary main_call0_cst_37 (constant S_ .f32 0x3F800000#32),
    unary main_call0_cst_37 main_call0_v269 ((broadcastInDim S128x256 ![] bcast_S_S128x256) : (⟨S_, .f32⟩ : BufTy).Contents (Elt F) → (⟨S128x256, .f32⟩ : BufTy).Contents (Elt F)),
    binary main_call0_v269 main_call0_v268 main_call0_v270 ((addf) : (⟨S128x256, .f32⟩ : BufTy).Contents (Elt F) → (⟨S128x256, .f32⟩ : BufTy).Contents (Elt F) → (⟨S128x256, .f32⟩ : BufTy).Contents (Elt F)),
    nullary main_call0_cst_38 (constant S_ .f32 0x3F800000#32),
    unary main_call0_cst_38 main_call0_v271 ((broadcastInDim S128x256 ![] bcast_S_S128x256) : (⟨S_, .f32⟩ : BufTy).Contents (Elt F) → (⟨S128x256, .f32⟩ : BufTy).Contents (Elt F)),
    binary main_call0_v271 main_call0_v270 main_call0_v272 ((Host.divf) : (⟨S128x256, .f32⟩ : BufTy).Contents (Elt F) → (⟨S128x256, .f32⟩ : BufTy).Contents (Elt F) → (⟨S128x256, .f32⟩ : BufTy).Contents (Elt F)),
    binary main_call0_v266 main_call0_v239 main_call0_v273 ((mulf) : (⟨S128x256, .f32⟩ : BufTy).Contents (Elt F) → (⟨S128x256, .f32⟩ : BufTy).Contents (Elt F) → (⟨S128x256, .f32⟩ : BufTy).Contents (Elt F)),
    binary main_call0_v272 main_call0_v241 main_call0_v274 ((mulf) : (⟨S128x256, .f32⟩ : BufTy).Contents (Elt F) → (⟨S128x256, .f32⟩ : BufTy).Contents (Elt F) → (⟨S128x256, .f32⟩ : BufTy).Contents (Elt F)),
    binary main_call0_v273 main_call0_v274 main_call0_v275 ((addf) : (⟨S128x256, .f32⟩ : BufTy).Contents (Elt F) → (⟨S128x256, .f32⟩ : BufTy).Contents (Elt F) → (⟨S128x256, .f32⟩ : BufTy).Contents (Elt F)),
    unary main_call0_v248 main_call0_v276 ((Host.negf) : (⟨S128x256, .f32⟩ : BufTy).Contents (Elt F) → (⟨S128x256, .f32⟩ : BufTy).Contents (Elt F)),
    unary main_call0_v276 main_call0_v277 ((Host.exp) : (⟨S128x256, .f32⟩ : BufTy).Contents (Elt F) → (⟨S128x256, .f32⟩ : BufTy).Contents (Elt F)),
    nullary main_call0_cst_39 (constant S_ .f32 0x3F800000#32),
    unary main_call0_cst_39 main_call0_v278 ((broadcastInDim S128x256 ![] bcast_S_S128x256) : (⟨S_, .f32⟩ : BufTy).Contents (Elt F) → (⟨S128x256, .f32⟩ : BufTy).Contents (Elt F)),
    binary main_call0_v278 main_call0_v277 main_call0_v279 ((addf) : (⟨S128x256, .f32⟩ : BufTy).Contents (Elt F) → (⟨S128x256, .f32⟩ : BufTy).Contents (Elt F) → (⟨S128x256, .f32⟩ : BufTy).Contents (Elt F)),
    nullary main_call0_cst_40 (constant S_ .f32 0x3F800000#32),
    unary main_call0_cst_40 main_call0_v280 ((broadcastInDim S128x256 ![] bcast_S_S128x256) : (⟨S_, .f32⟩ : BufTy).Contents (Elt F) → (⟨S128x256, .f32⟩ : BufTy).Contents (Elt F)),
    binary main_call0_v280 main_call0_v279 main_call0_v281 ((Host.divf) : (⟨S128x256, .f32⟩ : BufTy).Contents (Elt F) → (⟨S128x256, .f32⟩ : BufTy).Contents (Elt F) → (⟨S128x256, .f32⟩ : BufTy).Contents (Elt F)),
    unary main_call0_v250 main_call0_v282 ((Host.tanh) : (⟨S128x256, .f32⟩ : BufTy).Contents (Elt F) → (⟨S128x256, .f32⟩ : BufTy).Contents (Elt F)),
    binary main_call0_v281 main_call0_v282 main_call0_v283 ((mulf) : (⟨S128x256, .f32⟩ : BufTy).Contents (Elt F) → (⟨S128x256, .f32⟩ : BufTy).Contents (Elt F) → (⟨S128x256, .f32⟩ : BufTy).Contents (Elt F)),
    binary main_call0_v283 main_call0_v275 main_call0_v284 ((addf) : (⟨S128x256, .f32⟩ : BufTy).Contents (Elt F) → (⟨S128x256, .f32⟩ : BufTy).Contents (Elt F) → (⟨S128x256, .f32⟩ : BufTy).Contents (Elt F)),
    unary main_call0_v249 main_call0_v285 ((Host.negf) : (⟨S128x256, .f32⟩ : BufTy).Contents (Elt F) → (⟨S128x256, .f32⟩ : BufTy).Contents (Elt F)),
    unary main_call0_v285 main_call0_v286 ((Host.exp) : (⟨S128x256, .f32⟩ : BufTy).Contents (Elt F) → (⟨S128x256, .f32⟩ : BufTy).Contents (Elt F)),
    nullary main_call0_cst_41 (constant S_ .f32 0x3F800000#32),
    unary main_call0_cst_41 main_call0_v287 ((broadcastInDim S128x256 ![] bcast_S_S128x256) : (⟨S_, .f32⟩ : BufTy).Contents (Elt F) → (⟨S128x256, .f32⟩ : BufTy).Contents (Elt F)),
    binary main_call0_v287 main_call0_v286 main_call0_v288 ((addf) : (⟨S128x256, .f32⟩ : BufTy).Contents (Elt F) → (⟨S128x256, .f32⟩ : BufTy).Contents (Elt F) → (⟨S128x256, .f32⟩ : BufTy).Contents (Elt F)),
    nullary main_call0_cst_42 (constant S_ .f32 0x3F800000#32),
    unary main_call0_cst_42 main_call0_v289 ((broadcastInDim S128x256 ![] bcast_S_S128x256) : (⟨S_, .f32⟩ : BufTy).Contents (Elt F) → (⟨S128x256, .f32⟩ : BufTy).Contents (Elt F)),
    binary main_call0_v289 main_call0_v288 main_call0_v290 ((Host.divf) : (⟨S128x256, .f32⟩ : BufTy).Contents (Elt F) → (⟨S128x256, .f32⟩ : BufTy).Contents (Elt F) → (⟨S128x256, .f32⟩ : BufTy).Contents (Elt F)),
    unary main_call0_v284 main_call0_v291 ((Host.tanh) : (⟨S128x256, .f32⟩ : BufTy).Contents (Elt F) → (⟨S128x256, .f32⟩ : BufTy).Contents (Elt F)),
    binary main_call0_v290 main_call0_v291 main_call0_v292 ((mulf) : (⟨S128x256, .f32⟩ : BufTy).Contents (Elt F) → (⟨S128x256, .f32⟩ : BufTy).Contents (Elt F) → (⟨S128x256, .f32⟩ : BufTy).Contents (Elt F)),
    nullary main_call0_c_43 (constantI S_ 32 127#32),
    unary main_call0_c_43 main_call0_v293 ((broadcastInDim S1 ![] bcast_S_S1) : (⟨S_, .i32⟩ : BufTy).Contents (Elt F) → (⟨S1, .i32⟩ : BufTy).Contents (Elt F)),
    ternary main_call0_v225 main_call0_v293 main_call0_v284 main_call0_v294 ((fun x i u => Host.scatter scatter_S131071x256_S1_S128x256_01_n_0_0 (fun _ b => b) x i u) : (⟨S131071x256, .f32⟩ : BufTy).Contents (Elt F) → (⟨S1, .i32⟩ : BufTy).Contents (Elt F) → (⟨S128x256, .f32⟩ : BufTy).Contents (Elt F) → (⟨S131071x256, .f32⟩ : BufTy).Contents (Elt F)),
    nullary main_call0_c_44 (constantI S_ 32 127#32),
    unary main_call0_c_44 main_call0_v295 ((broadcastInDim S1 ![] bcast_S_S1) : (⟨S_, .i32⟩ : BufTy).Contents (Elt F) → (⟨S1, .i32⟩ : BufTy).Contents (Elt F)),
    ternary main_call0_v227 main_call0_v295 main_call0_v292 main_call0_v296 ((fun x i u => Host.scatter scatter_S131071x256_S1_S128x256_01_n_0_0 (fun _ b => b) x i u) : (⟨S131071x256, .f32⟩ : BufTy).Contents (Elt F) → (⟨S1, .i32⟩ : BufTy).Contents (Elt F) → (⟨S128x256, .f32⟩ : BufTy).Contents (Elt F) → (⟨S131071x256, .f32⟩ : BufTy).Contents (Elt F)) ]

/-- Stretch 8, part 4: level 6. -/
abbrev klev6 : List (HloOp τ sig (Elt F)) :=
  [ unary main_call0_v7 main_call0_v297 ((extractStridedSlice S64x768 ![63, 0] · slices_S65535x768_S64x768_63_0) : (⟨S65535x768, .f32⟩ : BufTy).Contents (Elt F) → (⟨S64x768, .f32⟩ : BufTy).Contents (Elt F)),
    unary main_call0_v8 main_call0_v298 ((extractStridedSlice S64x256 ![63, 0] · slices_S65535x256_S64x256_63_0) : (⟨S65535x256, .f32⟩ : BufTy).Contents (Elt F) → (⟨S64x256, .f32⟩ : BufTy).Contents (Elt F)),
    unary main_call0_v296 main_call0_v299 ((extractStridedSlice S128x256 ![127, 0] · slices_S131071x256_S128x256_127_0) : (⟨S131071x256, .f32⟩ : BufTy).Contents (Elt F) → (⟨S128x256, .f32⟩ : BufTy).Contents (Elt F)),
    reshape main_call0_v299 main_call0_v300 rfl shapeCasts_S128x256_S64x2x256,
    unary main_call0_v294 main_call0_v301 ((extractStridedSlice S128x256 ![127, 0] · slices_S131071x256_S128x256_127_0) : (⟨S131071x256, .f32⟩ : BufTy).Contents (Elt F) → (⟨S128x256, .f32⟩ : BufTy).Contents (Elt F)),
    reshape main_call0_v301 main_call0_v302 rfl shapeCasts_S128x256_S64x2x256,
    unary main_call0_v300 main_call0_v303 ((extractStridedSlice S64x1x256 ![0, 0, 0] · slices_S64x2x256_S64x1x256_0_0_0) : (⟨S64x2x256, .f32⟩ : BufTy).Contents (Elt F) → (⟨S64x1x256, .f32⟩ : BufTy).Contents (Elt F)),
    reshape main_call0_v303 main_call0_v304 rfl shapeCasts_S64x1x256_S64x256,
    unary main_call0_v300 main_call0_v305 ((extractStridedSlice S64x1x256 ![0, 1, 0] · slices_S64x2x256_S64x1x256_0_1_0) : (⟨S64x2x256, .f32⟩ : BufTy).Contents (Elt F) → (⟨S64x1x256, .f32⟩ : BufTy).Contents (Elt F)),
    reshape main_call0_v305 main_call0_v306 rfl shapeCasts_S64x1x256_S64x256,
    unary main_call0_v302 main_call0_v307 ((extractStridedSlice S64x1x256 ![0, 0, 0] · slices_S64x2x256_S64x1x256_0_0_0) : (⟨S64x2x256, .f32⟩ : BufTy).Contents (Elt F) → (⟨S64x1x256, .f32⟩ : BufTy).Contents (Elt F)),
    reshape main_call0_v307 main_call0_v308 rfl shapeCasts_S64x1x256_S64x256,
    unary main_call0_v302 main_call0_v309 ((extractStridedSlice S64x1x256 ![0, 1, 0] · slices_S64x2x256_S64x1x256_0_1_0) : (⟨S64x2x256, .f32⟩ : BufTy).Contents (Elt F) → (⟨S64x1x256, .f32⟩ : BufTy).Contents (Elt F)),
    reshape main_call0_v309 main_call0_v310 rfl shapeCasts_S64x1x256_S64x256,
    binary main_call0_v304 main_call0_v306 main_call0_v311 ((addf) : (⟨S64x256, .f32⟩ : BufTy).Contents (Elt F) → (⟨S64x256, .f32⟩ : BufTy).Contents (Elt F) → (⟨S64x256, .f32⟩ : BufTy).Contents (Elt F)),
    binary main_call0_v311 main_call0_v20 main_call0_v312 ((fun l r => Host.dotGeneral dot_S64x256_S256x768_S64x768_1_0_0_1_n_n none l r) : (⟨S64x256, .f32⟩ : BufTy).Contents (Elt F) → (⟨S256x768, .f32⟩ : BufTy).Contents (Elt F) → (⟨S64x768, .f32⟩ : BufTy).Contents (Elt F)),
    binary main_call0_v297 main_call0_v312 main_call0_v313 ((addf) : (⟨S64x768, .f32⟩ : BufTy).Contents (Elt F) → (⟨S64x768, .f32⟩ : BufTy).Contents (Elt F) → (⟨S64x768, .f32⟩ : BufTy).Contents (Elt F)),
    unary main_arg4 main_call0_v314 ((broadcastInDim S1x768 ![1] bcast_S768_S1x768_1) : (⟨S768, .f32⟩ : BufTy).Contents (Elt F) → (⟨S1x768, .f32⟩ : BufTy).Contents (Elt F)),
    unary main_call0_v314 main_call0_v315 ((broadcastInDim S64x768 ![0, 1] bcast_S1x768_S64x768_0_1) : (⟨S1x768, .f32⟩ : BufTy).Contents (Elt F) → (⟨S64x768, .f32⟩ : BufTy).Contents (Elt F)),
    binary main_call0_v313 main_call0_v315 main_call0_v316 ((addf) : (⟨S64x768, .f32⟩ : BufTy).Contents (Elt F) → (⟨S64x768, .f32⟩ : BufTy).Contents (Elt F) → (⟨S64x768, .f32⟩ : BufTy).Contents (Elt F)),
    unary main_call0_v316 main_call0_v317 ((extractStridedSlice S64x256 ![0, 0] · slices_S64x768_S64x256_0_0) : (⟨S64x768, .f32⟩ : BufTy).Contents (Elt F) → (⟨S64x256, .f32⟩ : BufTy).Contents (Elt F)),
    unary main_call0_v316 main_call0_v318 ((extractStridedSlice S64x256 ![0, 256] · slices_S64x768_S64x256_0_256) : (⟨S64x768, .f32⟩ : BufTy).Contents (Elt F) → (⟨S64x256, .f32⟩ : BufTy).Contents (Elt F)),
    unary main_call0_v316 main_call0_v319 ((extractStridedSlice S64x256 ![0, 512] · slices_S64x768_S64x256_0_512) : (⟨S64x768, .f32⟩ : BufTy).Contents (Elt F) → (⟨S64x256, .f32⟩ : BufTy).Contents (Elt F)),
    binary main_call0_v304 main_call0_v21 main_call0_v320 ((fun l r => Host.dotGeneral dot_S64x256_S256x256_S64x256_1_0_0_1_n_n none l r) : (⟨S64x256, .f32⟩ : BufTy).Contents (Elt F) → (⟨S256x256, .f32⟩ : BufTy).Contents (Elt F) → (⟨S64x256, .f32⟩ : BufTy).Contents (Elt F)),
    unary main_arg8 main_call0_v321 ((broadcastInDim S1x256 ![1] bcast_S256_S1x256_1) : (⟨S256, .f32⟩ : BufTy).Contents (Elt F) → (⟨S1x256, .f32⟩ : BufTy).Contents (Elt F)),
    unary main_call0_v321 main_call0_v322 ((broadcastInDim S64x256 ![0, 1] bcast_S1x256_S64x256_0_1) : (⟨S1x256, .f32⟩ : BufTy).Contents (Elt F) → (⟨S64x256, .f32⟩ : BufTy).Contents (Elt F)),
    binary main_call0_v320 main_call0_v322 main_call0_v323 ((addf) : (⟨S64x256, .f32⟩ : BufTy).Contents (Elt F) → (⟨S64x256, .f32⟩ : BufTy).Contents (Elt F) → (⟨S64x256, .f32⟩ : BufTy).Contents (Elt F)),
    binary main_call0_v323 main_call0_v298 main_call0_v324 ((addf) : (⟨S64x256, .f32⟩ : BufTy).Contents (Elt F) → (⟨S64x256, .f32⟩ : BufTy).Contents (Elt F) → (⟨S64x256, .f32⟩ : BufTy).Contents (Elt F)),
    binary main_call0_v306 main_call0_v21 main_call0_v325 ((fun l r => Host.dotGeneral dot_S64x256_S256x256_S64x256_1_0_0_1_n_n none l r) : (⟨S64x256, .f32⟩ : BufTy).Contents (Elt F) → (⟨S256x256, .f32⟩ : BufTy).Contents (Elt F) → (⟨S64x256, .f32⟩ : BufTy).Contents (Elt F)),
    unary main_arg8 main_call0_v326 ((broadcastInDim S1x256 ![1] bcast_S256_S1x256_1) : (⟨S256, .f32⟩ : BufTy).Contents (Elt F) → (⟨S1x256, .f32⟩ : BufTy).Contents (Elt F)),
    unary main_call0_v326 main_call0_v327 ((broadcastInDim S64x256 ![0, 1] bcast_S1x256_S64x256_0_1) : (⟨S1x256, .f32⟩ : BufTy).Contents (Elt F) → (⟨S64x256, .f32⟩ : BufTy).Contents (Elt F)),
    binary main_call0_v325 main_call0_v327 main_call0_v328 ((addf) : (⟨S64x256, .f32⟩ : BufTy).Contents (Elt F) → (⟨S64x256, .f32⟩ : BufTy).Contents (Elt F) → (⟨S64x256, .f32⟩ : BufTy).Contents (Elt F)),
    binary main_call0_v328 main_call0_v298 main_call0_v329 ((addf) : (⟨S64x256, .f32⟩ : BufTy).Contents (Elt F) → (⟨S64x256, .f32⟩ : BufTy).Contents (Elt F) → (⟨S64x256, .f32⟩ : BufTy).Contents (Elt F)),
    unary main_call0_v324 main_call0_v330 ((Host.negf) : (⟨S64x256, .f32⟩ : BufTy).Contents (Elt F) → (⟨S64x256, .f32⟩ : BufTy).Contents (Elt F)),
    unary main_call0_v330 main_call0_v331 ((Host.exp) : (⟨S64x256, .f32⟩ : BufTy).Contents (Elt F) → (⟨S64x256, .f32⟩ : BufTy).Contents (Elt F)),
    nullary main_call0_cst_45 (constant S_ .f32 0x3F800000#32),
    unary main_call0_cst_45 main_call0_v332 ((broadcastInDim S64x256 ![] bcast_S_S64x256) : (⟨S_, .f32⟩ : BufTy).Contents (Elt F) → (⟨S64x256, .f32⟩ : BufTy).Contents (Elt F)),
    binary main_call0_v332 main_call0_v331 main_call0_v333 ((addf) : (⟨S64x256, .f32⟩ : BufTy).Contents (Elt F) → (⟨S64x256, .f32⟩ : BufTy).Contents (Elt F) → (⟨S64x256, .f32⟩ : BufTy).Contents (Elt F)),
    nullary main_call0_cst_46 (constant S_ .f32 0x3F800000#32),
    unary main_call0_cst_46 main_call0_v334 ((broadcastInDim S64x256 ![] bcast_S_S64x256) : (⟨S_, .f32⟩ : BufTy).Contents (Elt F) → (⟨S64x256, .f32⟩ : BufTy).Contents (Elt F)),
    binary main_call0_v334 main_call0_v333 main_call0_v335 ((Host.divf) : (⟨S64x256, .f32⟩ : BufTy).Contents (Elt F) → (⟨S64x256, .f32⟩ : BufTy).Contents (Elt F) → (⟨S64x256, .f32⟩ : BufTy).Contents (Elt F)),
    unary main_call0_v329 main_call0_v336 ((Host.negf) : (⟨S64x256, .f32⟩ : BufTy).Contents (Elt F) → (⟨S64x256, .f32⟩ : BufTy).Contents (Elt F)),
    unary main_call0_v336 main_call0_v337 ((Host.exp) : (⟨S64x256, .f32⟩ : BufTy).Contents (Elt F) → (⟨S64x256, .f32⟩ : BufTy).Contents (Elt F)),
    nullary main_call0_cst_47 (constant S_ .f32 0x3F800000#32),
    unary main_call0_cst_47 main_call0_v338 ((broadcastInDim S64x256 ![] bcast_S_S64x256) : (⟨S_, .f32⟩ : BufTy).Contents (Elt F) → (⟨S64x256, .f32⟩ : BufTy).Contents (Elt F)),
    binary main_call0_v338 main_call0_v337 main_call0_v339 ((addf) : (⟨S64x256, .f32⟩ : BufTy).Contents (Elt F) → (⟨S64x256, .f32⟩ : BufTy).Contents (Elt F) → (⟨S64x256, .f32⟩ : BufTy).Contents (Elt F)),
    nullary main_call0_cst_48 (constant S_ .f32 0x3F800000#32),
    unary main_call0_cst_48 main_call0_v340 ((broadcastInDim S64x256 ![] bcast_S_S64x256) : (⟨S_, .f32⟩ : BufTy).Contents (Elt F) → (⟨S64x256, .f32⟩ : BufTy).Contents (Elt F)),
    binary main_call0_v340 main_call0_v339 main_call0_v341 ((Host.divf) : (⟨S64x256, .f32⟩ : BufTy).Contents (Elt F) → (⟨S64x256, .f32⟩ : BufTy).Contents (Elt F) → (⟨S64x256, .f32⟩ : BufTy).Contents (Elt F)),
    binary main_call0_v335 main_call0_v308 main_call0_v342 ((mulf) : (⟨S64x256, .f32⟩ : BufTy).Contents (Elt F) → (⟨S64x256, .f32⟩ : BufTy).Contents (Elt F) → (⟨S64x256, .f32⟩ : BufTy).Contents (Elt F)),
    binary main_call0_v341 main_call0_v310 main_call0_v343 ((mulf) : (⟨S64x256, .f32⟩ : BufTy).Contents (Elt F) → (⟨S64x256, .f32⟩ : BufTy).Contents (Elt F) → (⟨S64x256, .f32⟩ : BufTy).Contents (Elt F)),
    binary main_call0_v342 main_call0_v343 main_call0_v344 ((addf) : (⟨S64x256, .f32⟩ : BufTy).Contents (Elt F) → (⟨S64x256, .f32⟩ : BufTy).Contents (Elt F) → (⟨S64x256, .f32⟩ : BufTy).Contents (Elt F)),
    unary main_call0_v317 main_call0_v345 ((Host.negf) : (⟨S64x256, .f32⟩ : BufTy).Contents (Elt F) → (⟨S64x256, .f32⟩ : BufTy).Contents (Elt F)),
    unary main_call0_v345 main_call0_v346 ((Host.exp) : (⟨S64x256, .f32⟩ : BufTy).Contents (Elt F) → (⟨S64x256, .f32⟩ : BufTy).Contents (Elt F)),
    nullary main_call0_cst_49 (constant S_ .f32 0x3F800000#32),
    unary main_call0_cst_49 main_call0_v347 ((broadcastInDim S64x256 ![] bcast_S_S64x256) : (⟨S_, .f32⟩ : BufTy).Contents (Elt F) → (⟨S64x256, .f32⟩ : BufTy).Contents (Elt F)),
    binary main_call0_v347 main_call0_v346 main_call0_v348 ((addf) : (⟨S64x256, .f32⟩ : BufTy).Contents (Elt F) → (⟨S64x256, .f32⟩ : BufTy).Contents (Elt F) → (⟨S64x256, .f32⟩ : BufTy).Contents (Elt F)),
    nullary main_call0_cst_50 (constant S_ .f32 0x3F800000#32),
    unary main_call0_cst_50 main_call0_v349 ((broadcastInDim S64x256 ![] bcast_S_S64x256) : (⟨S_, .f32⟩ : BufTy).Contents (Elt F) → (⟨S64x256, .f32⟩ : BufTy).Contents (Elt F)),
    binary main_call0_v349 main_call0_v348 main_call0_v350 ((Host.divf) : (⟨S64x256, .f32⟩ : BufTy).Contents (Elt F) → (⟨S64x256, .f32⟩ : BufTy).Contents (Elt F) → (⟨S64x256, .f32⟩ : BufTy).Contents (Elt F)),
    unary main_call0_v319 main_call0_v351 ((Host.tanh) : (⟨S64x256, .f32⟩ : BufTy).Contents (Elt F) → (⟨S64x256, .f32⟩ : BufTy).Contents (Elt F)),
    binary main_call0_v350 main_call0_v351 main_call0_v352 ((mulf) : (⟨S64x256, .f32⟩ : BufTy).Contents (Elt F) → (⟨S64x256, .f32⟩ : BufTy).Contents (Elt F) → (⟨S64x256, .f32⟩ : BufTy).Contents (Elt F)),
    binary main_call0_v352 main_call0_v344 main_call0_v353 ((addf) : (⟨S64x256, .f32⟩ : BufTy).Contents (Elt F) → (⟨S64x256, .f32⟩ : BufTy).Contents (Elt F) → (⟨S64x256, .f32⟩ : BufTy).Contents (Elt F)),
    unary main_call0_v318 main_call0_v354 ((Host.negf) : (⟨S64x256, .f32⟩ : BufTy).Contents (Elt F) → (⟨S64x256, .f32⟩ : BufTy).Contents (Elt F)),
    unary main_call0_v354 main_call0_v355 ((Host.exp) : (⟨S64x256, .f32⟩ : BufTy).Contents (Elt F) → (⟨S64x256, .f32⟩ : BufTy).Contents (Elt F)),
    nullary main_call0_cst_51 (constant S_ .f32 0x3F800000#32),
    unary main_call0_cst_51 main_call0_v356 ((broadcastInDim S64x256 ![] bcast_S_S64x256) : (⟨S_, .f32⟩ : BufTy).Contents (Elt F) → (⟨S64x256, .f32⟩ : BufTy).Contents (Elt F)),
    binary main_call0_v356 main_call0_v355 main_call0_v357 ((addf) : (⟨S64x256, .f32⟩ : BufTy).Contents (Elt F) → (⟨S64x256, .f32⟩ : BufTy).Contents (Elt F) → (⟨S64x256, .f32⟩ : BufTy).Contents (Elt F)),
    nullary main_call0_cst_52 (constant S_ .f32 0x3F800000#32),
    unary main_call0_cst_52 main_call0_v358 ((broadcastInDim S64x256 ![] bcast_S_S64x256) : (⟨S_, .f32⟩ : BufTy).Contents (Elt F) → (⟨S64x256, .f32⟩ : BufTy).Contents (Elt F)),
    binary main_call0_v358 main_call0_v357 main_call0_v359 ((Host.divf) : (⟨S64x256, .f32⟩ : BufTy).Contents (Elt F) → (⟨S64x256, .f32⟩ : BufTy).Contents (Elt F) → (⟨S64x256, .f32⟩ : BufTy).Contents (Elt F)),
    unary main_call0_v353 main_call0_v360 ((Host.tanh) : (⟨S64x256, .f32⟩ : BufTy).Contents (Elt F) → (⟨S64x256, .f32⟩ : BufTy).Contents (Elt F)),
    binary main_call0_v359 main_call0_v360 main_call0_v361 ((mulf) : (⟨S64x256, .f32⟩ : BufTy).Contents (Elt F) → (⟨S64x256, .f32⟩ : BufTy).Contents (Elt F) → (⟨S64x256, .f32⟩ : BufTy).Contents (Elt F)),
    nullary main_call0_c_53 (constantI S_ 32 63#32),
    unary main_call0_c_53 main_call0_v362 ((broadcastInDim S1 ![] bcast_S_S1) : (⟨S_, .i32⟩ : BufTy).Contents (Elt F) → (⟨S1, .i32⟩ : BufTy).Contents (Elt F)),
    ternary main_call0_v294 main_call0_v362 main_call0_v353 main_call0_v363 ((fun x i u => Host.scatter scatter_S131071x256_S1_S64x256_01_n_0_0 (fun _ b => b) x i u) : (⟨S131071x256, .f32⟩ : BufTy).Contents (Elt F) → (⟨S1, .i32⟩ : BufTy).Contents (Elt F) → (⟨S64x256, .f32⟩ : BufTy).Contents (Elt F) → (⟨S131071x256, .f32⟩ : BufTy).Contents (Elt F)),
    nullary main_call0_c_54 (constantI S_ 32 63#32),
    unary main_call0_c_54 main_call0_v364 ((broadcastInDim S1 ![] bcast_S_S1) : (⟨S_, .i32⟩ : BufTy).Contents (Elt F) → (⟨S1, .i32⟩ : BufTy).Contents (Elt F)),
    ternary main_call0_v296 main_call0_v364 main_call0_v361 main_call0_v365 ((fun x i u => Host.scatter scatter_S131071x256_S1_S64x256_01_n_0_0 (fun _ b => b) x i u) : (⟨S131071x256, .f32⟩ : BufTy).Contents (Elt F) → (⟨S1, .i32⟩ : BufTy).Contents (Elt F) → (⟨S64x256, .f32⟩ : BufTy).Contents (Elt F) → (⟨S131071x256, .f32⟩ : BufTy).Contents (Elt F)) ]

/-- Stretch 8, part 5: level 5. -/
abbrev klev5 : List (HloOp τ sig (Elt F)) :=
  [ unary main_call0_v7 main_call0_v366 ((extractStridedSlice S32x768 ![31, 0] · slices_S65535x768_S32x768_31_0) : (⟨S65535x768, .f32⟩ : BufTy).Contents (Elt F) → (⟨S32x768, .f32⟩ : BufTy).Contents (Elt F)),
    unary main_call0_v8 main_call0_v367 ((extractStridedSlice S32x256 ![31, 0] · slices_S65535x256_S32x256_31_0) : (⟨S65535x256, .f32⟩ : BufTy).Contents (Elt F) → (⟨S32x256, .f32⟩ : BufTy).Contents (Elt F)),
    unary main_call0_v365 main_call0_v368 ((extractStridedSlice S64x256 ![63, 0] · slices_S131071x256_S64x256_63_0) : (⟨S131071x256, .f32⟩ : BufTy).Contents (Elt F) → (⟨S64x256, .f32⟩ : BufTy).Contents (Elt F)),
    reshape main_call0_v368 main_call0_v369 rfl shapeCasts_S64x256_S32x2x256,
    unary main_call0_v363 main_call0_v370 ((extractStridedSlice S64x256 ![63, 0] · slices_S131071x256_S64x256_63_0) : (⟨S131071x256, .f32⟩ : BufTy).Contents (Elt F) → (⟨S64x256, .f32⟩ : BufTy).Contents (Elt F)),
    reshape main_call0_v370 main_call0_v371 rfl shapeCasts_S64x256_S32x2x256,
    unary main_call0_v369 main_call0_v372 ((extractStridedSlice S32x1x256 ![0, 0, 0] · slices_S32x2x256_S32x1x256_0_0_0) : (⟨S32x2x256, .f32⟩ : BufTy).Contents (Elt F) → (⟨S32x1x256, .f32⟩ : BufTy).Contents (Elt F)),
    reshape main_call0_v372 main_call0_v373 rfl shapeCasts_S32x1x256_S32x256,
    unary main_call0_v369 main_call0_v374 ((extractStridedSlice S32x1x256 ![0, 1, 0] · slices_S32x2x256_S32x1x256_0_1_0) : (⟨S32x2x256, .f32⟩ : BufTy).Contents (Elt F) → (⟨S32x1x256, .f32⟩ : BufTy).Contents (Elt F)),
    reshape main_call0_v374 main_call0_v375 rfl shapeCasts_S32x1x256_S32x256,
    unary main_call0_v371 main_call0_v376 ((extractStridedSlice S32x1x256 ![0, 0, 0] · slices_S32x2x256_S32x1x256_0_0_0) : (⟨S32x2x256, .f32⟩ : BufTy).Contents (Elt F) → (⟨S32x1x256, .f32⟩ : BufTy).Contents (Elt F)),
    reshape main_call0_v376 main_call0_v377 rfl shapeCasts_S32x1x256_S32x256,
    unary main_call0_v371 main_call0_v378 ((extractStridedSlice S32x1x256 ![0, 1, 0] · slices_S32x2x256_S32x1x256_0_1_0) : (⟨S32x2x256, .f32⟩ : BufTy).Contents (Elt F) → (⟨S32x1x256, .f32⟩ : BufTy).Contents (Elt F)),
    reshape main_call0_v378 main_call0_v379 rfl shapeCasts_S32x1x256_S32x256,
    binary main_call0_v373 main_call0_v375 main_call0_v380 ((addf) : (⟨S32x256, .f32⟩ : BufTy).Contents (Elt F) → (⟨S32x256, .f32⟩ : BufTy).Contents (Elt F) → (⟨S32x256, .f32⟩ : BufTy).Contents (Elt F)),
    binary main_call0_v380 main_call0_v20 main_call0_v381 ((fun l r => Host.dotGeneral dot_S32x256_S256x768_S32x768_1_0_0_1_n_n none l r) : (⟨S32x256, .f32⟩ : BufTy).Contents (Elt F) → (⟨S256x768, .f32⟩ : BufTy).Contents (Elt F) → (⟨S32x768, .f32⟩ : BufTy).Contents (Elt F)),
    binary main_call0_v366 main_call0_v381 main_call0_v382 ((addf) : (⟨S32x768, .f32⟩ : BufTy).Contents (Elt F) → (⟨S32x768, .f32⟩ : BufTy).Contents (Elt F) → (⟨S32x768, .f32⟩ : BufTy).Contents (Elt F)),
    unary main_arg4 main_call0_v383 ((broadcastInDim S1x768 ![1] bcast_S768_S1x768_1) : (⟨S768, .f32⟩ : BufTy).Contents (Elt F) → (⟨S1x768, .f32⟩ : BufTy).Contents (Elt F)),
    unary main_call0_v383 main_call0_v384 ((broadcastInDim S32x768 ![0, 1] bcast_S1x768_S32x768_0_1) : (⟨S1x768, .f32⟩ : BufTy).Contents (Elt F) → (⟨S32x768, .f32⟩ : BufTy).Contents (Elt F)),
    binary main_call0_v382 main_call0_v384 main_call0_v385 ((addf) : (⟨S32x768, .f32⟩ : BufTy).Contents (Elt F) → (⟨S32x768, .f32⟩ : BufTy).Contents (Elt F) → (⟨S32x768, .f32⟩ : BufTy).Contents (Elt F)),
    unary main_call0_v385 main_call0_v386 ((extractStridedSlice S32x256 ![0, 0] · slices_S32x768_S32x256_0_0) : (⟨S32x768, .f32⟩ : BufTy).Contents (Elt F) → (⟨S32x256, .f32⟩ : BufTy).Contents (Elt F)),
    unary main_call0_v385 main_call0_v387 ((extractStridedSlice S32x256 ![0, 256] · slices_S32x768_S32x256_0_256) : (⟨S32x768, .f32⟩ : BufTy).Contents (Elt F) → (⟨S32x256, .f32⟩ : BufTy).Contents (Elt F)),
    unary main_call0_v385 main_call0_v388 ((extractStridedSlice S32x256 ![0, 512] · slices_S32x768_S32x256_0_512) : (⟨S32x768, .f32⟩ : BufTy).Contents (Elt F) → (⟨S32x256, .f32⟩ : BufTy).Contents (Elt F)),
    binary main_call0_v373 main_call0_v21 main_call0_v389 ((fun l r => Host.dotGeneral dot_S32x256_S256x256_S32x256_1_0_0_1_n_n none l r) : (⟨S32x256, .f32⟩ : BufTy).Contents (Elt F) → (⟨S256x256, .f32⟩ : BufTy).Contents (Elt F) → (⟨S32x256, .f32⟩ : BufTy).Contents (Elt F)),
    unary main_arg8 main_call0_v390 ((broadcastInDim S1x256 ![1] bcast_S256_S1x256_1) : (⟨S256, .f32⟩ : BufTy).Contents (Elt F) → (⟨S1x256, .f32⟩ : BufTy).Contents (Elt F)),
    unary main_call0_v390 main_call0_v391 ((broadcastInDim S32x256 ![0, 1] bcast_S1x256_S32x256_0_1) : (⟨S1x256, .f32⟩ : BufTy).Contents (Elt F) → (⟨S32x256, .f32⟩ : BufTy).Contents (Elt F)),
    binary main_call0_v389 main_call0_v391 main_call0_v392 ((addf) : (⟨S32x256, .f32⟩ : BufTy).Contents (Elt F) → (⟨S32x256, .f32⟩ : BufTy).Contents (Elt F) → (⟨S32x256, .f32⟩ : BufTy).Contents (Elt F)),
    binary main_call0_v392 main_call0_v367 main_call0_v393 ((addf) : (⟨S32x256, .f32⟩ : BufTy).Contents (Elt F) → (⟨S32x256, .f32⟩ : BufTy).Contents (Elt F) → (⟨S32x256, .f32⟩ : BufTy).Contents (Elt F)),
    binary main_call0_v375 main_call0_v21 main_call0_v394 ((fun l r => Host.dotGeneral dot_S32x256_S256x256_S32x256_1_0_0_1_n_n none l r) : (⟨S32x256, .f32⟩ : BufTy).Contents (Elt F) → (⟨S256x256, .f32⟩ : BufTy).Contents (Elt F) → (⟨S32x256, .f32⟩ : BufTy).Contents (Elt F)),
    unary main_arg8 main_call0_v395 ((broadcastInDim S1x256 ![1] bcast_S256_S1x256_1) : (⟨S256, .f32⟩ : BufTy).Contents (Elt F) → (⟨S1x256, .f32⟩ : BufTy).Contents (Elt F)),
    unary main_call0_v395 main_call0_v396 ((broadcastInDim S32x256 ![0, 1] bcast_S1x256_S32x256_0_1) : (⟨S1x256, .f32⟩ : BufTy).Contents (Elt F) → (⟨S32x256, .f32⟩ : BufTy).Contents (Elt F)),
    binary main_call0_v394 main_call0_v396 main_call0_v397 ((addf) : (⟨S32x256, .f32⟩ : BufTy).Contents (Elt F) → (⟨S32x256, .f32⟩ : BufTy).Contents (Elt F) → (⟨S32x256, .f32⟩ : BufTy).Contents (Elt F)),
    binary main_call0_v397 main_call0_v367 main_call0_v398 ((addf) : (⟨S32x256, .f32⟩ : BufTy).Contents (Elt F) → (⟨S32x256, .f32⟩ : BufTy).Contents (Elt F) → (⟨S32x256, .f32⟩ : BufTy).Contents (Elt F)),
    unary main_call0_v393 main_call0_v399 ((Host.negf) : (⟨S32x256, .f32⟩ : BufTy).Contents (Elt F) → (⟨S32x256, .f32⟩ : BufTy).Contents (Elt F)),
    unary main_call0_v399 main_call0_v400 ((Host.exp) : (⟨S32x256, .f32⟩ : BufTy).Contents (Elt F) → (⟨S32x256, .f32⟩ : BufTy).Contents (Elt F)),
    nullary main_call0_cst_55 (constant S_ .f32 0x3F800000#32),
    unary main_call0_cst_55 main_call0_v401 ((broadcastInDim S32x256 ![] bcast_S_S32x256) : (⟨S_, .f32⟩ : BufTy).Contents (Elt F) → (⟨S32x256, .f32⟩ : BufTy).Contents (Elt F)),
    binary main_call0_v401 main_call0_v400 main_call0_v402 ((addf) : (⟨S32x256, .f32⟩ : BufTy).Contents (Elt F) → (⟨S32x256, .f32⟩ : BufTy).Contents (Elt F) → (⟨S32x256, .f32⟩ : BufTy).Contents (Elt F)),
    nullary main_call0_cst_56 (constant S_ .f32 0x3F800000#32),
    unary main_call0_cst_56 main_call0_v403 ((broadcastInDim S32x256 ![] bcast_S_S32x256) : (⟨S_, .f32⟩ : BufTy).Contents (Elt F) → (⟨S32x256, .f32⟩ : BufTy).Contents (Elt F)),
    binary main_call0_v403 main_call0_v402 main_call0_v404 ((Host.divf) : (⟨S32x256, .f32⟩ : BufTy).Contents (Elt F) → (⟨S32x256, .f32⟩ : BufTy).Contents (Elt F) → (⟨S32x256, .f32⟩ : BufTy).Contents (Elt F)),
    unary main_call0_v398 main_call0_v405 ((Host.negf) : (⟨S32x256, .f32⟩ : BufTy).Contents (Elt F) → (⟨S32x256, .f32⟩ : BufTy).Contents (Elt F)),
    unary main_call0_v405 main_call0_v406 ((Host.exp) : (⟨S32x256, .f32⟩ : BufTy).Contents (Elt F) → (⟨S32x256, .f32⟩ : BufTy).Contents (Elt F)),
    nullary main_call0_cst_57 (constant S_ .f32 0x3F800000#32),
    unary main_call0_cst_57 main_call0_v407 ((broadcastInDim S32x256 ![] bcast_S_S32x256) : (⟨S_, .f32⟩ : BufTy).Contents (Elt F) → (⟨S32x256, .f32⟩ : BufTy).Contents (Elt F)),
    binary main_call0_v407 main_call0_v406 main_call0_v408 ((addf) : (⟨S32x256, .f32⟩ : BufTy).Contents (Elt F) → (⟨S32x256, .f32⟩ : BufTy).Contents (Elt F) → (⟨S32x256, .f32⟩ : BufTy).Contents (Elt F)),
    nullary main_call0_cst_58 (constant S_ .f32 0x3F800000#32),
    unary main_call0_cst_58 main_call0_v409 ((broadcastInDim S32x256 ![] bcast_S_S32x256) : (⟨S_, .f32⟩ : BufTy).Contents (Elt F) → (⟨S32x256, .f32⟩ : BufTy).Contents (Elt F)),
    binary main_call0_v409 main_call0_v408 main_call0_v410 ((Host.divf) : (⟨S32x256, .f32⟩ : BufTy).Contents (Elt F) → (⟨S32x256, .f32⟩ : BufTy).Contents (Elt F) → (⟨S32x256, .f32⟩ : BufTy).Contents (Elt F)),
    binary main_call0_v404 main_call0_v377 main_call0_v411 ((mulf) : (⟨S32x256, .f32⟩ : BufTy).Contents (Elt F) → (⟨S32x256, .f32⟩ : BufTy).Contents (Elt F) → (⟨S32x256, .f32⟩ : BufTy).Contents (Elt F)),
    binary main_call0_v410 main_call0_v379 main_call0_v412 ((mulf) : (⟨S32x256, .f32⟩ : BufTy).Contents (Elt F) → (⟨S32x256, .f32⟩ : BufTy).Contents (Elt F) → (⟨S32x256, .f32⟩ : BufTy).Contents (Elt F)),
    binary main_call0_v411 main_call0_v412 main_call0_v413 ((addf) : (⟨S32x256, .f32⟩ : BufTy).Contents (Elt F) → (⟨S32x256, .f32⟩ : BufTy).Contents (Elt F) → (⟨S32x256, .f32⟩ : BufTy).Contents (Elt F)),
    unary main_call0_v386 main_call0_v414 ((Host.negf) : (⟨S32x256, .f32⟩ : BufTy).Contents (Elt F) → (⟨S32x256, .f32⟩ : BufTy).Contents (Elt F)),
    unary main_call0_v414 main_call0_v415 ((Host.exp) : (⟨S32x256, .f32⟩ : BufTy).Contents (Elt F) → (⟨S32x256, .f32⟩ : BufTy).Contents (Elt F)),
    nullary main_call0_cst_59 (constant S_ .f32 0x3F800000#32),
    unary main_call0_cst_59 main_call0_v416 ((broadcastInDim S32x256 ![] bcast_S_S32x256) : (⟨S_, .f32⟩ : BufTy).Contents (Elt F) → (⟨S32x256, .f32⟩ : BufTy).Contents (Elt F)),
    binary main_call0_v416 main_call0_v415 main_call0_v417 ((addf) : (⟨S32x256, .f32⟩ : BufTy).Contents (Elt F) → (⟨S32x256, .f32⟩ : BufTy).Contents (Elt F) → (⟨S32x256, .f32⟩ : BufTy).Contents (Elt F)),
    nullary main_call0_cst_60 (constant S_ .f32 0x3F800000#32),
    unary main_call0_cst_60 main_call0_v418 ((broadcastInDim S32x256 ![] bcast_S_S32x256) : (⟨S_, .f32⟩ : BufTy).Contents (Elt F) → (⟨S32x256, .f32⟩ : BufTy).Contents (Elt F)),
    binary main_call0_v418 main_call0_v417 main_call0_v419 ((Host.divf) : (⟨S32x256, .f32⟩ : BufTy).Contents (Elt F) → (⟨S32x256, .f32⟩ : BufTy).Contents (Elt F) → (⟨S32x256, .f32⟩ : BufTy).Contents (Elt F)),
    unary main_call0_v388 main_call0_v420 ((Host.tanh) : (⟨S32x256, .f32⟩ : BufTy).Contents (Elt F) → (⟨S32x256, .f32⟩ : BufTy).Contents (Elt F)),
    binary main_call0_v419 main_call0_v420 main_call0_v421 ((mulf) : (⟨S32x256, .f32⟩ : BufTy).Contents (Elt F) → (⟨S32x256, .f32⟩ : BufTy).Contents (Elt F) → (⟨S32x256, .f32⟩ : BufTy).Contents (Elt F)),
    binary main_call0_v421 main_call0_v413 main_call0_v422 ((addf) : (⟨S32x256, .f32⟩ : BufTy).Contents (Elt F) → (⟨S32x256, .f32⟩ : BufTy).Contents (Elt F) → (⟨S32x256, .f32⟩ : BufTy).Contents (Elt F)),
    unary main_call0_v387 main_call0_v423 ((Host.negf) : (⟨S32x256, .f32⟩ : BufTy).Contents (Elt F) → (⟨S32x256, .f32⟩ : BufTy).Contents (Elt F)),
    unary main_call0_v423 main_call0_v424 ((Host.exp) : (⟨S32x256, .f32⟩ : BufTy).Contents (Elt F) → (⟨S32x256, .f32⟩ : BufTy).Contents (Elt F)),
    nullary main_call0_cst_61 (constant S_ .f32 0x3F800000#32),
    unary main_call0_cst_61 main_call0_v425 ((broadcastInDim S32x256 ![] bcast_S_S32x256) : (⟨S_, .f32⟩ : BufTy).Contents (Elt F) → (⟨S32x256, .f32⟩ : BufTy).Contents (Elt F)),
    binary main_call0_v425 main_call0_v424 main_call0_v426 ((addf) : (⟨S32x256, .f32⟩ : BufTy).Contents (Elt F) → (⟨S32x256, .f32⟩ : BufTy).Contents (Elt F) → (⟨S32x256, .f32⟩ : BufTy).Contents (Elt F)),
    nullary main_call0_cst_62 (constant S_ .f32 0x3F800000#32),
    unary main_call0_cst_62 main_call0_v427 ((broadcastInDim S32x256 ![] bcast_S_S32x256) : (⟨S_, .f32⟩ : BufTy).Contents (Elt F) → (⟨S32x256, .f32⟩ : BufTy).Contents (Elt F)),
    binary main_call0_v427 main_call0_v426 main_call0_v428 ((Host.divf) : (⟨S32x256, .f32⟩ : BufTy).Contents (Elt F) → (⟨S32x256, .f32⟩ : BufTy).Contents (Elt F) → (⟨S32x256, .f32⟩ : BufTy).Contents (Elt F)),
    unary main_call0_v422 main_call0_v429 ((Host.tanh) : (⟨S32x256, .f32⟩ : BufTy).Contents (Elt F) → (⟨S32x256, .f32⟩ : BufTy).Contents (Elt F)),
    binary main_call0_v428 main_call0_v429 main_call0_v430 ((mulf) : (⟨S32x256, .f32⟩ : BufTy).Contents (Elt F) → (⟨S32x256, .f32⟩ : BufTy).Contents (Elt F) → (⟨S32x256, .f32⟩ : BufTy).Contents (Elt F)),
    nullary main_call0_c_63 (constantI S_ 32 31#32),
    unary main_call0_c_63 main_call0_v431 ((broadcastInDim S1 ![] bcast_S_S1) : (⟨S_, .i32⟩ : BufTy).Contents (Elt F) → (⟨S1, .i32⟩ : BufTy).Contents (Elt F)),
    ternary main_call0_v363 main_call0_v431 main_call0_v422 main_call0_v432 ((fun x i u => Host.scatter scatter_S131071x256_S1_S32x256_01_n_0_0 (fun _ b => b) x i u) : (⟨S131071x256, .f32⟩ : BufTy).Contents (Elt F) → (⟨S1, .i32⟩ : BufTy).Contents (Elt F) → (⟨S32x256, .f32⟩ : BufTy).Contents (Elt F) → (⟨S131071x256, .f32⟩ : BufTy).Contents (Elt F)),
    nullary main_call0_c_64 (constantI S_ 32 31#32),
    unary main_call0_c_64 main_call0_v433 ((broadcastInDim S1 ![] bcast_S_S1) : (⟨S_, .i32⟩ : BufTy).Contents (Elt F) → (⟨S1, .i32⟩ : BufTy).Contents (Elt F)),
    ternary main_call0_v365 main_call0_v433 main_call0_v430 main_call0_v434 ((fun x i u => Host.scatter scatter_S131071x256_S1_S32x256_01_n_0_0 (fun _ b => b) x i u) : (⟨S131071x256, .f32⟩ : BufTy).Contents (Elt F) → (⟨S1, .i32⟩ : BufTy).Contents (Elt F) → (⟨S32x256, .f32⟩ : BufTy).Contents (Elt F) → (⟨S131071x256, .f32⟩ : BufTy).Contents (Elt F)) ]

/-- Stretch 8, part 6: level 4. -/
abbrev klev4 : List (HloOp τ sig (Elt F)) :=
  [ unary main_call0_v7 main_call0_v435 ((extractStridedSlice S16x768 ![15, 0] · slices_S65535x768_S16x768_15_0) : (⟨S65535x768, .f32⟩ : BufTy).Contents (Elt F) → (⟨S16x768, .f32⟩ : BufTy).Contents (Elt F)),
    unary main_call0_v8 main_call0_v436 ((extractStridedSlice S16x256 ![15, 0] · slices_S65535x256_S16x256_15_0) : (⟨S65535x256, .f32⟩ : BufTy).Contents (Elt F) → (⟨S16x256, .f32⟩ : BufTy).Contents (Elt F)),
    unary main_call0_v434 main_call0_v437 ((extractStridedSlice S32x256 ![31, 0] · slices_S131071x256_S32x256_31_0) : (⟨S131071x256, .f32⟩ : BufTy).Contents (Elt F) → (⟨S32x256, .f32⟩ : BufTy).Contents (Elt F)),
    reshape main_call0_v437 main_call0_v438 rfl shapeCasts_S32x256_S16x2x256,
    unary main_call0_v432 main_call0_v439 ((extractStridedSlice S32x256 ![31, 0] · slices_S131071x256_S32x256_31_0) : (⟨S131071x256, .f32⟩ : BufTy).Contents (Elt F) → (⟨S32x256, .f32⟩ : BufTy).Contents (Elt F)),
    reshape main_call0_v439 main_call0_v440 rfl shapeCasts_S32x256_S16x2x256,
    unary main_call0_v438 main_call0_v441 ((extractStridedSlice S16x1x256 ![0, 0, 0] · slices_S16x2x256_S16x1x256_0_0_0) : (⟨S16x2x256, .f32⟩ : BufTy).Contents (Elt F) → (⟨S16x1x256, .f32⟩ : BufTy).Contents (Elt F)),
    reshape main_call0_v441 main_call0_v442 rfl shapeCasts_S16x1x256_S16x256,
    unary main_call0_v438 main_call0_v443 ((extractStridedSlice S16x1x256 ![0, 1, 0] · slices_S16x2x256_S16x1x256_0_1_0) : (⟨S16x2x256, .f32⟩ : BufTy).Contents (Elt F) → (⟨S16x1x256, .f32⟩ : BufTy).Contents (Elt F)),
    reshape main_call0_v443 main_call0_v444 rfl shapeCasts_S16x1x256_S16x256,
    unary main_call0_v440 main_call0_v445 ((extractStridedSlice S16x1x256 ![0, 0, 0] · slices_S16x2x256_S16x1x256_0_0_0) : (⟨S16x2x256, .f32⟩ : BufTy).Contents (Elt F) → (⟨S16x1x256, .f32⟩ : BufTy).Contents (Elt F)),
    reshape main_call0_v445 main_call0_v446 rfl shapeCasts_S16x1x256_S16x256,
    unary main_call0_v440 main_call0_v447 ((extractStridedSlice S16x1x256 ![0, 1, 0] · slices_S16x2x256_S16x1x256_0_1_0) : (⟨S16x2x256, .f32⟩ : BufTy).Contents (Elt F) → (⟨S16x1x256, .f32⟩ : BufTy).Contents (Elt F)),
    reshape main_call0_v447 main_call0_v448 rfl shapeCasts_S16x1x256_S16x256,
    binary main_call0_v442 main_call0_v444 main_call0_v449 ((addf) : (⟨S16x256, .f32⟩ : BufTy).Contents (Elt F) → (⟨S16x256, .f32⟩ : BufTy).Contents (Elt F) → (⟨S16x256, .f32⟩ : BufTy).Contents (Elt F)),
    binary main_call0_v449 main_call0_v20 main_call0_v450 ((fun l r => Host.dotGeneral dot_S16x256_S256x768_S16x768_1_0_0_1_n_n none l r) : (⟨S16x256, .f32⟩ : BufTy).Contents (Elt F) → (⟨S256x768, .f32⟩ : BufTy).Contents (Elt F) → (⟨S16x768, .f32⟩ : BufTy).Contents (Elt F)),
    binary main_call0_v435 main_call0_v450 main_call0_v451 ((addf) : (⟨S16x768, .f32⟩ : BufTy).Contents (Elt F) → (⟨S16x768, .f32⟩ : BufTy).Contents (Elt F) → (⟨S16x768, .f32⟩ : BufTy).Contents (Elt F)),
    unary main_arg4 main_call0_v452 ((broadcastInDim S1x768 ![1] bcast_S768_S1x768_1) : (⟨S768, .f32⟩ : BufTy).Contents (Elt F) → (⟨S1x768, .f32⟩ : BufTy).Contents (Elt F)),
    unary main_call0_v452 main_call0_v453 ((broadcastInDim S16x768 ![0, 1] bcast_S1x768_S16x768_0_1) : (⟨S1x768, .f32⟩ : BufTy).Contents (Elt F) → (⟨S16x768, .f32⟩ : BufTy).Contents (Elt F)),
    binary main_call0_v451 main_call0_v453 main_call0_v454 ((addf) : (⟨S16x768, .f32⟩ : BufTy).Contents (Elt F) → (⟨S16x768, .f32⟩ : BufTy).Contents (Elt F) → (⟨S16x768, .f32⟩ : BufTy).Contents (Elt F)),
    unary main_call0_v454 main_call0_v455 ((extractStridedSlice S16x256 ![0, 0] · slices_S16x768_S16x256_0_0) : (⟨S16x768, .f32⟩ : BufTy).Contents (Elt F) → (⟨S16x256, .f32⟩ : BufTy).Contents (Elt F)),
    unary main_call0_v454 main_call0_v456 ((extractStridedSlice S16x256 ![0, 256] · slices_S16x768_S16x256_0_256) : (⟨S16x768, .f32⟩ : BufTy).Contents (Elt F) → (⟨S16x256, .f32⟩ : BufTy).Contents (Elt F)),
    unary main_call0_v454 main_call0_v457 ((extractStridedSlice S16x256 ![0, 512] · slices_S16x768_S16x256_0_512) : (⟨S16x768, .f32⟩ : BufTy).Contents (Elt F) → (⟨S16x256, .f32⟩ : BufTy).Contents (Elt F)),
    binary main_call0_v442 main_call0_v21 main_call0_v458 ((fun l r => Host.dotGeneral dot_S16x256_S256x256_S16x256_1_0_0_1_n_n none l r) : (⟨S16x256, .f32⟩ : BufTy).Contents (Elt F) → (⟨S256x256, .f32⟩ : BufTy).Contents (Elt F) → (⟨S16x256, .f32⟩ : BufTy).Contents (Elt F)),
    unary main_arg8 main_call0_v459 ((broadcastInDim S1x256 ![1] bcast_S256_S1x256_1) : (⟨S256, .f32⟩ : BufTy).Contents (Elt F) → (⟨S1x256, .f32⟩ : BufTy).Contents (Elt F)),
    unary main_call0_v459 main_call0_v460 ((broadcastInDim S16x256 ![0, 1] bcast_S1x256_S16x256_0_1) : (⟨S1x256, .f32⟩ : BufTy).Contents (Elt F) → (⟨S16x256, .f32⟩ : BufTy).Contents (Elt F)),
    binary main_call0_v458 main_call0_v460 main_call0_v461 ((addf) : (⟨S16x256, .f32⟩ : BufTy).Contents (Elt F) → (⟨S16x256, .f32⟩ : BufTy).Contents (Elt F) → (⟨S16x256, .f32⟩ : BufTy).Contents (Elt F)),
    binary main_call0_v461 main_call0_v436 main_call0_v462 ((addf) : (⟨S16x256, .f32⟩ : BufTy).Contents (Elt F) → (⟨S16x256, .f32⟩ : BufTy).Contents (Elt F) → (⟨S16x256, .f32⟩ : BufTy).Contents (Elt F)),
    binary main_call0_v444 main_call0_v21 main_call0_v463 ((fun l r => Host.dotGeneral dot_S16x256_S256x256_S16x256_1_0_0_1_n_n none l r) : (⟨S16x256, .f32⟩ : BufTy).Contents (Elt F) → (⟨S256x256, .f32⟩ : BufTy).Contents (Elt F) → (⟨S16x256, .f32⟩ : BufTy).Contents (Elt F)),
    unary main_arg8 main_call0_v464 ((broadcastInDim S1x256 ![1] bcast_S256_S1x256_1) : (⟨S256, .f32⟩ : BufTy).Contents (Elt F) → (⟨S1x256, .f32⟩ : BufTy).Contents (Elt F)),
    unary main_call0_v464 main_call0_v465 ((broadcastInDim S16x256 ![0, 1] bcast_S1x256_S16x256_0_1) : (⟨S1x256, .f32⟩ : BufTy).Contents (Elt F) → (⟨S16x256, .f32⟩ : BufTy).Contents (Elt F)),
    binary main_call0_v463 main_call0_v465 main_call0_v466 ((addf) : (⟨S16x256, .f32⟩ : BufTy).Contents (Elt F) → (⟨S16x256, .f32⟩ : BufTy).Contents (Elt F) → (⟨S16x256, .f32⟩ : BufTy).Contents (Elt F)),
    binary main_call0_v466 main_call0_v436 main_call0_v467 ((addf) : (⟨S16x256, .f32⟩ : BufTy).Contents (Elt F) → (⟨S16x256, .f32⟩ : BufTy).Contents (Elt F) → (⟨S16x256, .f32⟩ : BufTy).Contents (Elt F)),
    unary main_call0_v462 main_call0_v468 ((Host.negf) : (⟨S16x256, .f32⟩ : BufTy).Contents (Elt F) → (⟨S16x256, .f32⟩ : BufTy).Contents (Elt F)),
    unary main_call0_v468 main_call0_v469 ((Host.exp) : (⟨S16x256, .f32⟩ : BufTy).Contents (Elt F) → (⟨S16x256, .f32⟩ : BufTy).Contents (Elt F)),
    nullary main_call0_cst_65 (constant S_ .f32 0x3F800000#32),
    unary main_call0_cst_65 main_call0_v470 ((broadcastInDim S16x256 ![] bcast_S_S16x256) : (⟨S_, .f32⟩ : BufTy).Contents (Elt F) → (⟨S16x256, .f32⟩ : BufTy).Contents (Elt F)),
    binary main_call0_v470 main_call0_v469 main_call0_v471 ((addf) : (⟨S16x256, .f32⟩ : BufTy).Contents (Elt F) → (⟨S16x256, .f32⟩ : BufTy).Contents (Elt F) → (⟨S16x256, .f32⟩ : BufTy).Contents (Elt F)),
    nullary main_call0_cst_66 (constant S_ .f32 0x3F800000#32),
    unary main_call0_cst_66 main_call0_v472 ((broadcastInDim S16x256 ![] bcast_S_S16x256) : (⟨S_, .f32⟩ : BufTy).Contents (Elt F) → (⟨S16x256, .f32⟩ : BufTy).Contents (Elt F)),
    binary main_call0_v472 main_call0_v471 main_call0_v473 ((Host.divf) : (⟨S16x256, .f32⟩ : BufTy).Contents (Elt F) → (⟨S16x256, .f32⟩ : BufTy).Contents (Elt F) → (⟨S16x256, .f32⟩ : BufTy).Contents (Elt F)),
    unary main_call0_v467 main_call0_v474 ((Host.negf) : (⟨S16x256, .f32⟩ : BufTy).Contents (Elt F) → (⟨S16x256, .f32⟩ : BufTy).Contents (Elt F)),
    unary main_call0_v474 main_call0_v475 ((Host.exp) : (⟨S16x256, .f32⟩ : BufTy).Contents (Elt F) → (⟨S16x256, .f32⟩ : BufTy).Contents (Elt F)),
    nullary main_call0_cst_67 (constant S_ .f32 0x3F800000#32),
    unary main_call0_cst_67 main_call0_v476 ((broadcastInDim S16x256 ![] bcast_S_S16x256) : (⟨S_, .f32⟩ : BufTy).Contents (Elt F) → (⟨S16x256, .f32⟩ : BufTy).Contents (Elt F)),
    binary main_call0_v476 main_call0_v475 main_call0_v477 ((addf) : (⟨S16x256, .f32⟩ : BufTy).Contents (Elt F) → (⟨S16x256, .f32⟩ : BufTy).Contents (Elt F) → (⟨S16x256, .f32⟩ : BufTy).Contents (Elt F)),
    nullary main_call0_cst_68 (constant S_ .f32 0x3F800000#32),
    unary main_call0_cst_68 main_call0_v478 ((broadcastInDim S16x256 ![] bcast_S_S16x256) : (⟨S_, .f32⟩ : BufTy).Contents (Elt F) → (⟨S16x256, .f32⟩ : BufTy).Contents (Elt F)),
    binary main_call0_v478 main_call0_v477 main_call0_v479 ((Host.divf) : (⟨S16x256, .f32⟩ : BufTy).Contents (Elt F) → (⟨S16x256, .f32⟩ : BufTy).Contents (Elt F) → (⟨S16x256, .f32⟩ : BufTy).Contents (Elt F)),
    binary main_call0_v473 main_call0_v446 main_call0_v480 ((mulf) : (⟨S16x256, .f32⟩ : BufTy).Contents (Elt F) → (⟨S16x256, .f32⟩ : BufTy).Contents (Elt F) → (⟨S16x256, .f32⟩ : BufTy).Contents (Elt F)),
    binary main_call0_v479 main_call0_v448 main_call0_v481 ((mulf) : (⟨S16x256, .f32⟩ : BufTy).Contents (Elt F) → (⟨S16x256, .f32⟩ : BufTy).Contents (Elt F) → (⟨S16x256, .f32⟩ : BufTy).Contents (Elt F)),
    binary main_call0_v480 main_call0_v481 main_call0_v482 ((addf) : (⟨S16x256, .f32⟩ : BufTy).Contents (Elt F) → (⟨S16x256, .f32⟩ : BufTy).Contents (Elt F) → (⟨S16x256, .f32⟩ : BufTy).Contents (Elt F)),
    unary main_call0_v455 main_call0_v483 ((Host.negf) : (⟨S16x256, .f32⟩ : BufTy).Contents (Elt F) → (⟨S16x256, .f32⟩ : BufTy).Contents (Elt F)),
    unary main_call0_v483 main_call0_v484 ((Host.exp) : (⟨S16x256, .f32⟩ : BufTy).Contents (Elt F) → (⟨S16x256, .f32⟩ : BufTy).Contents (Elt F)),
    nullary main_call0_cst_69 (constant S_ .f32 0x3F800000#32),
    unary main_call0_cst_69 main_call0_v485 ((broadcastInDim S16x256 ![] bcast_S_S16x256) : (⟨S_, .f32⟩ : BufTy).Contents (Elt F) → (⟨S16x256, .f32⟩ : BufTy).Contents (Elt F)),
    binary main_call0_v485 main_call0_v484 main_call0_v486 ((addf) : (⟨S16x256, .f32⟩ : BufTy).Contents (Elt F) → (⟨S16x256, .f32⟩ : BufTy).Contents (Elt F) → (⟨S16x256, .f32⟩ : BufTy).Contents (Elt F)),
    nullary main_call0_cst_70 (constant S_ .f32 0x3F800000#32),
    unary main_call0_cst_70 main_call0_v487 ((broadcastInDim S16x256 ![] bcast_S_S16x256) : (⟨S_, .f32⟩ : BufTy).Contents (Elt F) → (⟨S16x256, .f32⟩ : BufTy).Contents (Elt F)),
    binary main_call0_v487 main_call0_v486 main_call0_v488 ((Host.divf) : (⟨S16x256, .f32⟩ : BufTy).Contents (Elt F) → (⟨S16x256, .f32⟩ : BufTy).Contents (Elt F) → (⟨S16x256, .f32⟩ : BufTy).Contents (Elt F)),
    unary main_call0_v457 main_call0_v489 ((Host.tanh) : (⟨S16x256, .f32⟩ : BufTy).Contents (Elt F) → (⟨S16x256, .f32⟩ : BufTy).Contents (Elt F)),
    binary main_call0_v488 main_call0_v489 main_call0_v490 ((mulf) : (⟨S16x256, .f32⟩ : BufTy).Contents (Elt F) → (⟨S16x256, .f32⟩ : BufTy).Contents (Elt F) → (⟨S16x256, .f32⟩ : BufTy).Contents (Elt F)),
    binary main_call0_v490 main_call0_v482 main_call0_v491 ((addf) : (⟨S16x256, .f32⟩ : BufTy).Contents (Elt F) → (⟨S16x256, .f32⟩ : BufTy).Contents (Elt F) → (⟨S16x256, .f32⟩ : BufTy).Contents (Elt F)),
    unary main_call0_v456 main_call0_v492 ((Host.negf) : (⟨S16x256, .f32⟩ : BufTy).Contents (Elt F) → (⟨S16x256, .f32⟩ : BufTy).Contents (Elt F)),
    unary main_call0_v492 main_call0_v493 ((Host.exp) : (⟨S16x256, .f32⟩ : BufTy).Contents (Elt F) → (⟨S16x256, .f32⟩ : BufTy).Contents (Elt F)),
    nullary main_call0_cst_71 (constant S_ .f32 0x3F800000#32),
    unary main_call0_cst_71 main_call0_v494 ((broadcastInDim S16x256 ![] bcast_S_S16x256) : (⟨S_, .f32⟩ : BufTy).Contents (Elt F) → (⟨S16x256, .f32⟩ : BufTy).Contents (Elt F)),
    binary main_call0_v494 main_call0_v493 main_call0_v495 ((addf) : (⟨S16x256, .f32⟩ : BufTy).Contents (Elt F) → (⟨S16x256, .f32⟩ : BufTy).Contents (Elt F) → (⟨S16x256, .f32⟩ : BufTy).Contents (Elt F)),
    nullary main_call0_cst_72 (constant S_ .f32 0x3F800000#32),
    unary main_call0_cst_72 main_call0_v496 ((broadcastInDim S16x256 ![] bcast_S_S16x256) : (⟨S_, .f32⟩ : BufTy).Contents (Elt F) → (⟨S16x256, .f32⟩ : BufTy).Contents (Elt F)),
    binary main_call0_v496 main_call0_v495 main_call0_v497 ((Host.divf) : (⟨S16x256, .f32⟩ : BufTy).Contents (Elt F) → (⟨S16x256, .f32⟩ : BufTy).Contents (Elt F) → (⟨S16x256, .f32⟩ : BufTy).Contents (Elt F)),
    unary main_call0_v491 main_call0_v498 ((Host.tanh) : (⟨S16x256, .f32⟩ : BufTy).Contents (Elt F) → (⟨S16x256, .f32⟩ : BufTy).Contents (Elt F)),
    binary main_call0_v497 main_call0_v498 main_call0_v499 ((mulf) : (⟨S16x256, .f32⟩ : BufTy).Contents (Elt F) → (⟨S16x256, .f32⟩ : BufTy).Contents (Elt F) → (⟨S16x256, .f32⟩ : BufTy).Contents (Elt F)),
    nullary main_call0_c_73 (constantI S_ 32 15#32),
    unary main_call0_c_73 main_call0_v500 ((broadcastInDim S1 ![] bcast_S_S1) : (⟨S_, .i32⟩ : BufTy).Contents (Elt F) → (⟨S1, .i32⟩ : BufTy).Contents (Elt F)),
    ternary main_call0_v432 main_call0_v500 main_call0_v491 main_call0_v501 ((fun x i u => Host.scatter scatter_S131071x256_S1_S16x256_01_n_0_0 (fun _ b => b) x i u) : (⟨S131071x256, .f32⟩ : BufTy).Contents (Elt F) → (⟨S1, .i32⟩ : BufTy).Contents (Elt F) → (⟨S16x256, .f32⟩ : BufTy).Contents (Elt F) → (⟨S131071x256, .f32⟩ : BufTy).Contents (Elt F)),
    nullary main_call0_c_74 (constantI S_ 32 15#32),
    unary main_call0_c_74 main_call0_v502 ((broadcastInDim S1 ![] bcast_S_S1) : (⟨S_, .i32⟩ : BufTy).Contents (Elt F) → (⟨S1, .i32⟩ : BufTy).Contents (Elt F)),
    ternary main_call0_v434 main_call0_v502 main_call0_v499 main_call0_v503 ((fun x i u => Host.scatter scatter_S131071x256_S1_S16x256_01_n_0_0 (fun _ b => b) x i u) : (⟨S131071x256, .f32⟩ : BufTy).Contents (Elt F) → (⟨S1, .i32⟩ : BufTy).Contents (Elt F) → (⟨S16x256, .f32⟩ : BufTy).Contents (Elt F) → (⟨S131071x256, .f32⟩ : BufTy).Contents (Elt F)) ]

/-- Stretch 8, part 7: level 3. -/
abbrev klev3 : List (HloOp τ sig (Elt F)) :=
  [ unary main_call0_v7 main_call0_v504 ((extractStridedSlice S8x768 ![7, 0] · slices_S65535x768_S8x768_7_0) : (⟨S65535x768, .f32⟩ : BufTy).Contents (Elt F) → (⟨S8x768, .f32⟩ : BufTy).Contents (Elt F)),
    unary main_call0_v8 main_call0_v505 ((extractStridedSlice S8x256 ![7, 0] · slices_S65535x256_S8x256_7_0) : (⟨S65535x256, .f32⟩ : BufTy).Contents (Elt F) → (⟨S8x256, .f32⟩ : BufTy).Contents (Elt F)),
    unary main_call0_v503 main_call0_v506 ((extractStridedSlice S16x256 ![15, 0] · slices_S131071x256_S16x256_15_0) : (⟨S131071x256, .f32⟩ : BufTy).Contents (Elt F) → (⟨S16x256, .f32⟩ : BufTy).Contents (Elt F)),
    reshape main_call0_v506 main_call0_v507 rfl shapeCasts_S16x256_S8x2x256,
    unary main_call0_v501 main_call0_v508 ((extractStridedSlice S16x256 ![15, 0] · slices_S131071x256_S16x256_15_0) : (⟨S131071x256, .f32⟩ : BufTy).Contents (Elt F) → (⟨S16x256, .f32⟩ : BufTy).Contents (Elt F)),
    reshape main_call0_v508 main_call0_v509 rfl shapeCasts_S16x256_S8x2x256,
    unary main_call0_v507 main_call0_v510 ((extractStridedSlice S8x1x256 ![0, 0, 0] · slices_S8x2x256_S8x1x256_0_0_0) : (⟨S8x2x256, .f32⟩ : BufTy).Contents (Elt F) → (⟨S8x1x256, .f32⟩ : BufTy).Contents (Elt F)),
    reshape main_call0_v510 main_call0_v511 rfl shapeCasts_S8x1x256_S8x256,
    unary main_call0_v507 main_call0_v512 ((extractStridedSlice S8x1x256 ![0, 1, 0] · slices_S8x2x256_S8x1x256_0_1_0) : (⟨S8x2x256, .f32⟩ : BufTy).Contents (Elt F) → (⟨S8x1x256, .f32⟩ : BufTy).Contents (Elt F)),
    reshape main_call0_v512 main_call0_v513 rfl shapeCasts_S8x1x256_S8x256,
    unary main_call0_v509 main_call0_v514 ((extractStridedSlice S8x1x256 ![0, 0, 0] · slices_S8x2x256_S8x1x256_0_0_0) : (⟨S8x2x256, .f32⟩ : BufTy).Contents (Elt F) → (⟨S8x1x256, .f32⟩ : BufTy).Contents (Elt F)),
    reshape main_call0_v514 main_call0_v515 rfl shapeCasts_S8x1x256_S8x256,
    unary main_call0_v509 main_call0_v516 ((extractStridedSlice S8x1x256 ![0, 1, 0] · slices_S8x2x256_S8x1x256_0_1_0) : (⟨S8x2x256, .f32⟩ : BufTy).Contents (Elt F) → (⟨S8x1x256, .f32⟩ : BufTy).Contents (Elt F)),
    reshape main_call0_v516 main_call0_v517 rfl shapeCasts_S8x1x256_S8x256,
    binary main_call0_v511 main_call0_v513 main_call0_v518 ((addf) : (⟨S8x256, .f32⟩ : BufTy).Contents (Elt F) → (⟨S8x256, .f32⟩ : BufTy).Contents (Elt F) → (⟨S8x256, .f32⟩ : BufTy).Contents (Elt F)),
    binary main_call0_v518 main_call0_v20 main_call0_v519 ((fun l r => Host.dotGeneral dot_S8x256_S256x768_S8x768_1_0_0_1_n_n none l r) : (⟨S8x256, .f32⟩ : BufTy).Contents (Elt F) → (⟨S256x768, .f32⟩ : BufTy).Contents (Elt F) → (⟨S8x768, .f32⟩ : BufTy).Contents (Elt F)),
    binary main_call0_v504 main_call0_v519 main_call0_v520 ((addf) : (⟨S8x768, .f32⟩ : BufTy).Contents (Elt F) → (⟨S8x768, .f32⟩ : BufTy).Contents (Elt F) → (⟨S8x768, .f32⟩ : BufTy).Contents (Elt F)),
    unary main_arg4 main_call0_v521 ((broadcastInDim S1x768 ![1] bcast_S768_S1x768_1) : (⟨S768, .f32⟩ : BufTy).Contents (Elt F) → (⟨S1x768, .f32⟩ : BufTy).Contents (Elt F)),
    unary main_call0_v521 main_call0_v522 ((broadcastInDim S8x768 ![0, 1] bcast_S1x768_S8x768_0_1) : (⟨S1x768, .f32⟩ : BufTy).Contents (Elt F) → (⟨S8x768, .f32⟩ : BufTy).Contents (Elt F)),
    binary main_call0_v520 main_call0_v522 main_call0_v523 ((addf) : (⟨S8x768, .f32⟩ : BufTy).Contents (Elt F) → (⟨S8x768, .f32⟩ : BufTy).Contents (Elt F) → (⟨S8x768, .f32⟩ : BufTy).Contents (Elt F)),
    unary main_call0_v523 main_call0_v524 ((extractStridedSlice S8x256 ![0, 0] · slices_S8x768_S8x256_0_0) : (⟨S8x768, .f32⟩ : BufTy).Contents (Elt F) → (⟨S8x256, .f32⟩ : BufTy).Contents (Elt F)),
    unary main_call0_v523 main_call0_v525 ((extractStridedSlice S8x256 ![0, 256] · slices_S8x768_S8x256_0_256) : (⟨S8x768, .f32⟩ : BufTy).Contents (Elt F) → (⟨S8x256, .f32⟩ : BufTy).Contents (Elt F)),
    unary main_call0_v523 main_call0_v526 ((extractStridedSlice S8x256 ![0, 512] · slices_S8x768_S8x256_0_512) : (⟨S8x768, .f32⟩ : BufTy).Contents (Elt F) → (⟨S8x256, .f32⟩ : BufTy).Contents (Elt F)),
    binary main_call0_v511 main_call0_v21 main_call0_v527 ((fun l r => Host.dotGeneral dot_S8x256_S256x256_S8x256_1_0_0_1_n_n none l r) : (⟨S8x256, .f32⟩ : BufTy).Contents (Elt F) → (⟨S256x256, .f32⟩ : BufTy).Contents (Elt F) → (⟨S8x256, .f32⟩ : BufTy).Contents (Elt F)),
    unary main_arg8 main_call0_v528 ((broadcastInDim S1x256 ![1] bcast_S256_S1x256_1) : (⟨S256, .f32⟩ : BufTy).Contents (Elt F) → (⟨S1x256, .f32⟩ : BufTy).Contents (Elt F)),
    unary main_call0_v528 main_call0_v529 ((broadcastInDim S8x256 ![0, 1] bcast_S1x256_S8x256_0_1) : (⟨S1x256, .f32⟩ : BufTy).Contents (Elt F) → (⟨S8x256, .f32⟩ : BufTy).Contents (Elt F)),
    binary main_call0_v527 main_call0_v529 main_call0_v530 ((addf) : (⟨S8x256, .f32⟩ : BufTy).Contents (Elt F) → (⟨S8x256, .f32⟩ : BufTy).Contents (Elt F) → (⟨S8x256, .f32⟩ : BufTy).Contents (Elt F)),
    binary main_call0_v530 main_call0_v505 main_call0_v531 ((addf) : (⟨S8x256, .f32⟩ : BufTy).Contents (Elt F) → (⟨S8x256, .f32⟩ : BufTy).Contents (Elt F) → (⟨S8x256, .f32⟩ : BufTy).Contents (Elt F)),
    binary main_call0_v513 main_call0_v21 main_call0_v532 ((fun l r => Host.dotGeneral dot_S8x256_S256x256_S8x256_1_0_0_1_n_n none l r) : (⟨S8x256, .f32⟩ : BufTy).Contents (Elt F) → (⟨S256x256, .f32⟩ : BufTy).Contents (Elt F) → (⟨S8x256, .f32⟩ : BufTy).Contents (Elt F)),
    unary main_arg8 main_call0_v533 ((broadcastInDim S1x256 ![1] bcast_S256_S1x256_1) : (⟨S256, .f32⟩ : BufTy).Contents (Elt F) → (⟨S1x256, .f32⟩ : BufTy).Contents (Elt F)),
    unary main_call0_v533 main_call0_v534 ((broadcastInDim S8x256 ![0, 1] bcast_S1x256_S8x256_0_1) : (⟨S1x256, .f32⟩ : BufTy).Contents (Elt F) → (⟨S8x256, .f32⟩ : BufTy).Contents (Elt F)),
    binary main_call0_v532 main_call0_v534 main_call0_v535 ((addf) : (⟨S8x256, .f32⟩ : BufTy).Contents (Elt F) → (⟨S8x256, .f32⟩ : BufTy).Contents (Elt F) → (⟨S8x256, .f32⟩ : BufTy).Contents (Elt F)),
    binary main_call0_v535 main_call0_v505 main_call0_v536 ((addf) : (⟨S8x256, .f32⟩ : BufTy).Contents (Elt F) → (⟨S8x256, .f32⟩ : BufTy).Contents (Elt F) → (⟨S8x256, .f32⟩ : BufTy).Contents (Elt F)),
    unary main_call0_v531 main_call0_v537 ((Host.negf) : (⟨S8x256, .f32⟩ : BufTy).Contents (Elt F) → (⟨S8x256, .f32⟩ : BufTy).Contents (Elt F)),
    unary main_call0_v537 main_call0_v538 ((Host.exp) : (⟨S8x256, .f32⟩ : BufTy).Contents (Elt F) → (⟨S8x256, .f32⟩ : BufTy).Contents (Elt F)),
    nullary main_call0_cst_75 (constant S_ .f32 0x3F800000#32),
    unary main_call0_cst_75 main_call0_v539 ((broadcastInDim S8x256 ![] bcast_S_S8x256) : (⟨S_, .f32⟩ : BufTy).Contents (Elt F) → (⟨S8x256, .f32⟩ : BufTy).Contents (Elt F)),
    binary main_call0_v539 main_call0_v538 main_call0_v540 ((addf) : (⟨S8x256, .f32⟩ : BufTy).Contents (Elt F) → (⟨S8x256, .f32⟩ : BufTy).Contents (Elt F) → (⟨S8x256, .f32⟩ : BufTy).Contents (Elt F)),
    nullary main_call0_cst_76 (constant S_ .f32 0x3F800000#32),
    unary main_call0_cst_76 main_call0_v541 ((broadcastInDim S8x256 ![] bcast_S_S8x256) : (⟨S_, .f32⟩ : BufTy).Contents (Elt F) → (⟨S8x256, .f32⟩ : BufTy).Contents (Elt F)),
    binary main_call0_v541 main_call0_v540 main_call0_v542 ((Host.divf) : (⟨S8x256, .f32⟩ : BufTy).Contents (Elt F) → (⟨S8x256, .f32⟩ : BufTy).Contents (Elt F) → (⟨S8x256, .f32⟩ : BufTy).Contents (Elt F)),
    unary main_call0_v536 main_call0_v543 ((Host.negf) : (⟨S8x256, .f32⟩ : BufTy).Contents (Elt F) → (⟨S8x256, .f32⟩ : BufTy).Contents (Elt F)),
    unary main_call0_v543 main_call0_v544 ((Host.exp) : (⟨S8x256, .f32⟩ : BufTy).Contents (Elt F) → (⟨S8x256, .f32⟩ : BufTy).Contents (Elt F)),
    nullary main_call0_cst_77 (constant S_ .f32 0x3F800000#32),
    unary main_call0_cst_77 main_call0_v545 ((broadcastInDim S8x256 ![] bcast_S_S8x256) : (⟨S_, .f32⟩ : BufTy).Contents (Elt F) → (⟨S8x256, .f32⟩ : BufTy).Contents (Elt F)),
    binary main_call0_v545 main_call0_v544 main_call0_v546 ((addf) : (⟨S8x256, .f32⟩ : BufTy).Contents (Elt F) → (⟨S8x256, .f32⟩ : BufTy).Contents (Elt F) → (⟨S8x256, .f32⟩ : BufTy).Contents (Elt F)),
    nullary main_call0_cst_78 (constant S_ .f32 0x3F800000#32),
    unary main_call0_cst_78 main_call0_v547 ((broadcastInDim S8x256 ![] bcast_S_S8x256) : (⟨S_, .f32⟩ : BufTy).Contents (Elt F) → (⟨S8x256, .f32⟩ : BufTy).Contents (Elt F)),
    binary main_call0_v547 main_call0_v546 main_call0_v548 ((Host.divf) : (⟨S8x256, .f32⟩ : BufTy).Contents (Elt F) → (⟨S8x256, .f32⟩ : BufTy).Contents (Elt F) → (⟨S8x256, .f32⟩ : BufTy).Contents (Elt F)),
    binary main_call0_v542 main_call0_v515 main_call0_v549 ((mulf) : (⟨S8x256, .f32⟩ : BufTy).Contents (Elt F) → (⟨S8x256, .f32⟩ : BufTy).Contents (Elt F) → (⟨S8x256, .f32⟩ : BufTy).Contents (Elt F)),
    binary main_call0_v548 main_call0_v517 main_call0_v550 ((mulf) : (⟨S8x256, .f32⟩ : BufTy).Contents (Elt F) → (⟨S8x256, .f32⟩ : BufTy).Contents (Elt F) → (⟨S8x256, .f32⟩ : BufTy).Contents (Elt F)),
    binary main_call0_v549 main_call0_v550 main_call0_v551 ((addf) : (⟨S8x256, .f32⟩ : BufTy).Contents (Elt F) → (⟨S8x256, .f32⟩ : BufTy).Contents (Elt F) → (⟨S8x256, .f32⟩ : BufTy).Contents (Elt F)),
    unary main_call0_v524 main_call0_v552 ((Host.negf) : (⟨S8x256, .f32⟩ : BufTy).Contents (Elt F) → (⟨S8x256, .f32⟩ : BufTy).Contents (Elt F)),
    unary main_call0_v552 main_call0_v553 ((Host.exp) : (⟨S8x256, .f32⟩ : BufTy).Contents (Elt F) → (⟨S8x256, .f32⟩ : BufTy).Contents (Elt F)),
    nullary main_call0_cst_79 (constant S_ .f32 0x3F800000#32),
    unary main_call0_cst_79 main_call0_v554 ((broadcastInDim S8x256 ![] bcast_S_S8x256) : (⟨S_, .f32⟩ : BufTy).Contents (Elt F) → (⟨S8x256, .f32⟩ : BufTy).Contents (Elt F)),
    binary main_call0_v554 main_call0_v553 main_call0_v555 ((addf) : (⟨S8x256, .f32⟩ : BufTy).Contents (Elt F) → (⟨S8x256, .f32⟩ : BufTy).Contents (Elt F) → (⟨S8x256, .f32⟩ : BufTy).Contents (Elt F)),
    nullary main_call0_cst_80 (constant S_ .f32 0x3F800000#32),
    unary main_call0_cst_80 main_call0_v556 ((broadcastInDim S8x256 ![] bcast_S_S8x256) : (⟨S_, .f32⟩ : BufTy).Contents (Elt F) → (⟨S8x256, .f32⟩ : BufTy).Contents (Elt F)),
    binary main_call0_v556 main_call0_v555 main_call0_v557 ((Host.divf) : (⟨S8x256, .f32⟩ : BufTy).Contents (Elt F) → (⟨S8x256, .f32⟩ : BufTy).Contents (Elt F) → (⟨S8x256, .f32⟩ : BufTy).Contents (Elt F)),
    unary main_call0_v526 main_call0_v558 ((Host.tanh) : (⟨S8x256, .f32⟩ : BufTy).Contents (Elt F) → (⟨S8x256, .f32⟩ : BufTy).Contents (Elt F)),
    binary main_call0_v557 main_call0_v558 main_call0_v559 ((mulf) : (⟨S8x256, .f32⟩ : BufTy).Contents (Elt F) → (⟨S8x256, .f32⟩ : BufTy).Contents (Elt F) → (⟨S8x256, .f32⟩ : BufTy).Contents (Elt F)),
    binary main_call0_v559 main_call0_v551 main_call0_v560 ((addf) : (⟨S8x256, .f32⟩ : BufTy).Contents (Elt F) → (⟨S8x256, .f32⟩ : BufTy).Contents (Elt F) → (⟨S8x256, .f32⟩ : BufTy).Contents (Elt F)),
    unary main_call0_v525 main_call0_v561 ((Host.negf) : (⟨S8x256, .f32⟩ : BufTy).Contents (Elt F) → (⟨S8x256, .f32⟩ : BufTy).Contents (Elt F)),
    unary main_call0_v561 main_call0_v562 ((Host.exp) : (⟨S8x256, .f32⟩ : BufTy).Contents (Elt F) → (⟨S8x256, .f32⟩ : BufTy).Contents (Elt F)),
    nullary main_call0_cst_81 (constant S_ .f32 0x3F800000#32),
    unary main_call0_cst_81 main_call0_v563 ((broadcastInDim S8x256 ![] bcast_S_S8x256) : (⟨S_, .f32⟩ : BufTy).Contents (Elt F) → (⟨S8x256, .f32⟩ : BufTy).Contents (Elt F)),
    binary main_call0_v563 main_call0_v562 main_call0_v564 ((addf) : (⟨S8x256, .f32⟩ : BufTy).Contents (Elt F) → (⟨S8x256, .f32⟩ : BufTy).Contents (Elt F) → (⟨S8x256, .f32⟩ : BufTy).Contents (Elt F)),
    nullary main_call0_cst_82 (constant S_ .f32 0x3F800000#32),
    unary main_call0_cst_82 main_call0_v565 ((broadcastInDim S8x256 ![] bcast_S_S8x256) : (⟨S_, .f32⟩ : BufTy).Contents (Elt F) → (⟨S8x256, .f32⟩ : BufTy).Contents (Elt F)),
    binary main_call0_v565 main_call0_v564 main_call0_v566 ((Host.divf) : (⟨S8x256, .f32⟩ : BufTy).Contents (Elt F) → (⟨S8x256, .f32⟩ : BufTy).Contents (Elt F) → (⟨S8x256, .f32⟩ : BufTy).Contents (Elt F)),
    unary main_call0_v560 main_call0_v567 ((Host.tanh) : (⟨S8x256, .f32⟩ : BufTy).Contents (Elt F) → (⟨S8x256, .f32⟩ : BufTy).Contents (Elt F)),
    binary main_call0_v566 main_call0_v567 main_call0_v568 ((mulf) : (⟨S8x256, .f32⟩ : BufTy).Contents (Elt F) → (⟨S8x256, .f32⟩ : BufTy).Contents (Elt F) → (⟨S8x256, .f32⟩ : BufTy).Contents (Elt F)),
    nullary main_call0_c_83 (constantI S_ 32 7#32),
    unary main_call0_c_83 main_call0_v569 ((broadcastInDim S1 ![] bcast_S_S1) : (⟨S_, .i32⟩ : BufTy).Contents (Elt F) → (⟨S1, .i32⟩ : BufTy).Contents (Elt F)),
    ternary main_call0_v501 main_call0_v569 main_call0_v560 main_call0_v570 ((fun x i u => Host.scatter scatter_S131071x256_S1_S8x256_01_n_0_0 (fun _ b => b) x i u) : (⟨S131071x256, .f32⟩ : BufTy).Contents (Elt F) → (⟨S1, .i32⟩ : BufTy).Contents (Elt F) → (⟨S8x256, .f32⟩ : BufTy).Contents (Elt F) → (⟨S131071x256, .f32⟩ : BufTy).Contents (Elt F)),
    nullary main_call0_c_84 (constantI S_ 32 7#32),
    unary main_call0_c_84 main_call0_v571 ((broadcastInDim S1 ![] bcast_S_S1) : (⟨S_, .i32⟩ : BufTy).Contents (Elt F) → (⟨S1, .i32⟩ : BufTy).Contents (Elt F)),
    ternary main_call0_v503 main_call0_v571 main_call0_v568 main_call0_v572 ((fun x i u => Host.scatter scatter_S131071x256_S1_S8x256_01_n_0_0 (fun _ b => b) x i u) : (⟨S131071x256, .f32⟩ : BufTy).Contents (Elt F) → (⟨S1, .i32⟩ : BufTy).Contents (Elt F) → (⟨S8x256, .f32⟩ : BufTy).Contents (Elt F) → (⟨S131071x256, .f32⟩ : BufTy).Contents (Elt F)) ]

/-- Stretch 8, part 8: level 2. -/
abbrev klev2 : List (HloOp τ sig (Elt F)) :=
  [ unary main_call0_v7 main_call0_v573 ((extractStridedSlice S4x768 ![3, 0] · slices_S65535x768_S4x768_3_0) : (⟨S65535x768, .f32⟩ : BufTy).Contents (Elt F) → (⟨S4x768, .f32⟩ : BufTy).Contents (Elt F)),
    unary main_call0_v8 main_call0_v574 ((extractStridedSlice S4x256 ![3, 0] · slices_S65535x256_S4x256_3_0) : (⟨S65535x256, .f32⟩ : BufTy).Contents (Elt F) → (⟨S4x256, .f32⟩ : BufTy).Contents (Elt F)),
    unary main_call0_v572 main_call0_v575 ((extractStridedSlice S8x256 ![7, 0] · slices_S131071x256_S8x256_7_0) : (⟨S131071x256, .f32⟩ : BufTy).Contents (Elt F) → (⟨S8x256, .f32⟩ : BufTy).Contents (Elt F)),
    reshape main_call0_v575 main_call0_v576 rfl shapeCasts_S8x256_S4x2x256,
    unary main_call0_v570 main_call0_v577 ((extractStridedSlice S8x256 ![7, 0] · slices_S131071x256_S8x256_7_0) : (⟨S131071x256, .f32⟩ : BufTy).Contents (Elt F) → (⟨S8x256, .f32⟩ : BufTy).Contents (Elt F)),
    reshape main_call0_v577 main_call0_v578 rfl shapeCasts_S8x256_S4x2x256,
    unary main_call0_v576 main_call0_v579 ((extractStridedSlice S4x1x256 ![0, 0, 0] · slices_S4x2x256_S4x1x256_0_0_0) : (⟨S4x2x256, .f32⟩ : BufTy).Contents (Elt F) → (⟨S4x1x256, .f32⟩ : BufTy).Contents (Elt F)),
    reshape main_call0_v579 main_call0_v580 rfl shapeCasts_S4x1x256_S4x256,
    unary main_call0_v576 main_call0_v581 ((extractStridedSlice S4x1x256 ![0, 1, 0] · slices_S4x2x256_S4x1x256_0_1_0) : (⟨S4x2x256, .f32⟩ : BufTy).Contents (Elt F) → (⟨S4x1x256, .f32⟩ : BufTy).Contents (Elt F)),
    reshape main_call0_v581 main_call0_v582 rfl shapeCasts_S4x1x256_S4x256,
    unary main_call0_v578 main_call0_v583 ((extractStridedSlice S4x1x256 ![0, 0, 0] · slices_S4x2x256_S4x1x256_0_0_0) : (⟨S4x2x256, .f32⟩ : BufTy).Contents (Elt F) → (⟨S4x1x256, .f32⟩ : BufTy).Contents (Elt F)),
    reshape main_call0_v583 main_call0_v584 rfl shapeCasts_S4x1x256_S4x256,
    unary main_call0_v578 main_call0_v585 ((extractStridedSlice S4x1x256 ![0, 1, 0] · slices_S4x2x256_S4x1x256_0_1_0) : (⟨S4x2x256, .f32⟩ : BufTy).Contents (Elt F) → (⟨S4x1x256, .f32⟩ : BufTy).Contents (Elt F)),
    reshape main_call0_v585 main_call0_v586 rfl shapeCasts_S4x1x256_S4x256,
    binary main_call0_v580 main_call0_v582 main_call0_v587 ((addf) : (⟨S4x256, .f32⟩ : BufTy).Contents (Elt F) → (⟨S4x256, .f32⟩ : BufTy).Contents (Elt F) → (⟨S4x256, .f32⟩ : BufTy).Contents (Elt F)),
    binary main_call0_v587 main_call0_v20 main_call0_v588 ((fun l r => Host.dotGeneral dot_S4x256_S256x768_S4x768_1_0_0_1_n_n none l r) : (⟨S4x256, .f32⟩ : BufTy).Contents (Elt F) → (⟨S256x768, .f32⟩ : BufTy).Contents (Elt F) → (⟨S4x768, .f32⟩ : BufTy).Contents (Elt F)),
    binary main_call0_v573 main_call0_v588 main_call0_v589 ((addf) : (⟨S4x768, .f32⟩ : BufTy).Contents (Elt F) → (⟨S4x768, .f32⟩ : BufTy).Contents (Elt F) → (⟨S4x768, .f32⟩ : BufTy).Contents (Elt F)),
    unary main_arg4 main_call0_v590 ((broadcastInDim S1x768 ![1] bcast_S768_S1x768_1) : (⟨S768, .f32⟩ : BufTy).Contents (Elt F) → (⟨S1x768, .f32⟩ : BufTy).Contents (Elt F)),
    unary main_call0_v590 main_call0_v591 ((broadcastInDim S4x768 ![0, 1] bcast_S1x768_S4x768_0_1) : (⟨S1x768, .f32⟩ : BufTy).Contents (Elt F) → (⟨S4x768, .f32⟩ : BufTy).Contents (Elt F)),
    binary main_call0_v589 main_call0_v591 main_call0_v592 ((addf) : (⟨S4x768, .f32⟩ : BufTy).Contents (Elt F) → (⟨S4x768, .f32⟩ : BufTy).Contents (Elt F) → (⟨S4x768, .f32⟩ : BufTy).Contents (Elt F)),
    unary main_call0_v592 main_call0_v593 ((extractStridedSlice S4x256 ![0, 0] · slices_S4x768_S4x256_0_0) : (⟨S4x768, .f32⟩ : BufTy).Contents (Elt F) → (⟨S4x256, .f32⟩ : BufTy).Contents (Elt F)),
    unary main_call0_v592 main_call0_v594 ((extractStridedSlice S4x256 ![0, 256] · slices_S4x768_S4x256_0_256) : (⟨S4x768, .f32⟩ : BufTy).Contents (Elt F) → (⟨S4x256, .f32⟩ : BufTy).Contents (Elt F)),
    unary main_call0_v592 main_call0_v595 ((extractStridedSlice S4x256 ![0, 512] · slices_S4x768_S4x256_0_512) : (⟨S4x768, .f32⟩ : BufTy).Contents (Elt F) → (⟨S4x256, .f32⟩ : BufTy).Contents (Elt F)),
    binary main_call0_v580 main_call0_v21 main_call0_v596 ((fun l r => Host.dotGeneral dot_S4x256_S256x256_S4x256_1_0_0_1_n_n none l r) : (⟨S4x256, .f32⟩ : BufTy).Contents (Elt F) → (⟨S256x256, .f32⟩ : BufTy).Contents (Elt F) → (⟨S4x256, .f32⟩ : BufTy).Contents (Elt F)),
    unary main_arg8 main_call0_v597 ((broadcastInDim S1x256 ![1] bcast_S256_S1x256_1) : (⟨S256, .f32⟩ : BufTy).Contents (Elt F) → (⟨S1x256, .f32⟩ : BufTy).Contents (Elt F)),
    unary main_call0_v597 main_call0_v598 ((broadcastInDim S4x256 ![0, 1] bcast_S1x256_S4x256_0_1) : (⟨S1x256, .f32⟩ : BufTy).Contents (Elt F) → (⟨S4x256, .f32⟩ : BufTy).Contents (Elt F)),
    binary main_call0_v596 main_call0_v598 main_call0_v599 ((addf) : (⟨S4x256, .f32⟩ : BufTy).Contents (Elt F) → (⟨S4x256, .f32⟩ : BufTy).Contents (Elt F) → (⟨S4x256, .f32⟩ : BufTy).Contents (Elt F)),
    binary main_call0_v599 main_call0_v574 main_call0_v600 ((addf) : (⟨S4x256, .f32⟩ : BufTy).Contents (Elt F) → (⟨S4x256, .f32⟩ : BufTy).Contents (Elt F) → (⟨S4x256, .f32⟩ : BufTy).Contents (Elt F)),
    binary main_call0_v582 main_call0_v21 main_call0_v601 ((fun l r => Host.dotGeneral dot_S4x256_S256x256_S4x256_1_0_0_1_n_n none l r) : (⟨S4x256, .f32⟩ : BufTy).Contents (Elt F) → (⟨S256x256, .f32⟩ : BufTy).Contents (Elt F) → (⟨S4x256, .f32⟩ : BufTy).Contents (Elt F)),
    unary main_arg8 main_call0_v602 ((broadcastInDim S1x256 ![1] bcast_S256_S1x256_1) : (⟨S256, .f32⟩ : BufTy).Contents (Elt F) → (⟨S1x256, .f32⟩ : BufTy).Contents (Elt F)),
    unary main_call0_v602 main_call0_v603 ((broadcastInDim S4x256 ![0, 1] bcast_S1x256_S4x256_0_1) : (⟨S1x256, .f32⟩ : BufTy).Contents (Elt F) → (⟨S4x256, .f32⟩ : BufTy).Contents (Elt F)),
    binary main_call0_v601 main_call0_v603 main_call0_v604 ((addf) : (⟨S4x256, .f32⟩ : BufTy).Contents (Elt F) → (⟨S4x256, .f32⟩ : BufTy).Contents (Elt F) → (⟨S4x256, .f32⟩ : BufTy).Contents (Elt F)),
    binary main_call0_v604 main_call0_v574 main_call0_v605 ((addf) : (⟨S4x256, .f32⟩ : BufTy).Contents (Elt F) → (⟨S4x256, .f32⟩ : BufTy).Contents (Elt F) → (⟨S4x256, .f32⟩ : BufTy).Contents (Elt F)),
    unary main_call0_v600 main_call0_v606 ((Host.negf) : (⟨S4x256, .f32⟩ : BufTy).Contents (Elt F) → (⟨S4x256, .f32⟩ : BufTy).Contents (Elt F)),
    unary main_call0_v606 main_call0_v607 ((Host.exp) : (⟨S4x256, .f32⟩ : BufTy).Contents (Elt F) → (⟨S4x256, .f32⟩ : BufTy).Contents (Elt F)),
    nullary main_call0_cst_85 (constant S_ .f32 0x3F800000#32),
    unary main_call0_cst_85 main_call0_v608 ((broadcastInDim S4x256 ![] bcast_S_S4x256) : (⟨S_, .f32⟩ : BufTy).Contents (Elt F) → (⟨S4x256, .f32⟩ : BufTy).Contents (Elt F)),
    binary main_call0_v608 main_call0_v607 main_call0_v609 ((addf) : (⟨S4x256, .f32⟩ : BufTy).Contents (Elt F) → (⟨S4x256, .f32⟩ : BufTy).Contents (Elt F) → (⟨S4x256, .f32⟩ : BufTy).Contents (Elt F)),
    nullary main_call0_cst_86 (constant S_ .f32 0x3F800000#32),
    unary main_call0_cst_86 main_call0_v610 ((broadcastInDim S4x256 ![] bcast_S_S4x256) : (⟨S_, .f32⟩ : BufTy).Contents (Elt F) → (⟨S4x256, .f32⟩ : BufTy).Contents (Elt F)),
    binary main_call0_v610 main_call0_v609 main_call0_v611 ((Host.divf) : (⟨S4x256, .f32⟩ : BufTy).Contents (Elt F) → (⟨S4x256, .f32⟩ : BufTy).Contents (Elt F) → (⟨S4x256, .f32⟩ : BufTy).Contents (Elt F)),
    unary main_call0_v605 main_call0_v612 ((Host.negf) : (⟨S4x256, .f32⟩ : BufTy).Contents (Elt F) → (⟨S4x256, .f32⟩ : BufTy).Contents (Elt F)),
    unary main_call0_v612 main_call0_v613 ((Host.exp) : (⟨S4x256, .f32⟩ : BufTy).Contents (Elt F) → (⟨S4x256, .f32⟩ : BufTy).Contents (Elt F)),
    nullary main_call0_cst_87 (constant S_ .f32 0x3F800000#32),
    unary main_call0_cst_87 main_call0_v614 ((broadcastInDim S4x256 ![] bcast_S_S4x256) : (⟨S_, .f32⟩ : BufTy).Contents (Elt F) → (⟨S4x256, .f32⟩ : BufTy).Contents (Elt F)),
    binary main_call0_v614 main_call0_v613 main_call0_v615 ((addf) : (⟨S4x256, .f32⟩ : BufTy).Contents (Elt F) → (⟨S4x256, .f32⟩ : BufTy).Contents (Elt F) → (⟨S4x256, .f32⟩ : BufTy).Contents (Elt F)),
    nullary main_call0_cst_88 (constant S_ .f32 0x3F800000#32),
    unary main_call0_cst_88 main_call0_v616 ((broadcastInDim S4x256 ![] bcast_S_S4x256) : (⟨S_, .f32⟩ : BufTy).Contents (Elt F) → (⟨S4x256, .f32⟩ : BufTy).Contents (Elt F)),
    binary main_call0_v616 main_call0_v615 main_call0_v617 ((Host.divf) : (⟨S4x256, .f32⟩ : BufTy).Contents (Elt F) → (⟨S4x256, .f32⟩ : BufTy).Contents (Elt F) → (⟨S4x256, .f32⟩ : BufTy).Contents (Elt F)),
    binary main_call0_v611 main_call0_v584 main_call0_v618 ((mulf) : (⟨S4x256, .f32⟩ : BufTy).Contents (Elt F) → (⟨S4x256, .f32⟩ : BufTy).Contents (Elt F) → (⟨S4x256, .f32⟩ : BufTy).Contents (Elt F)),
    binary main_call0_v617 main_call0_v586 main_call0_v619 ((mulf) : (⟨S4x256, .f32⟩ : BufTy).Contents (Elt F) → (⟨S4x256, .f32⟩ : BufTy).Contents (Elt F) → (⟨S4x256, .f32⟩ : BufTy).Contents (Elt F)),
    binary main_call0_v618 main_call0_v619 main_call0_v620 ((addf) : (⟨S4x256, .f32⟩ : BufTy).Contents (Elt F) → (⟨S4x256, .f32⟩ : BufTy).Contents (Elt F) → (⟨S4x256, .f32⟩ : BufTy).Contents (Elt F)),
    unary main_call0_v593 main_call0_v621 ((Host.negf) : (⟨S4x256, .f32⟩ : BufTy).Contents (Elt F) → (⟨S4x256, .f32⟩ : BufTy).Contents (Elt F)),
    unary main_call0_v621 main_call0_v622 ((Host.exp) : (⟨S4x256, .f32⟩ : BufTy).Contents (Elt F) → (⟨S4x256, .f32⟩ : BufTy).Contents (Elt F)),
    nullary main_call0_cst_89 (constant S_ .f32 0x3F800000#32),
    unary main_call0_cst_89 main_call0_v623 ((broadcastInDim S4x256 ![] bcast_S_S4x256) : (⟨S_, .f32⟩ : BufTy).Contents (Elt F) → (⟨S4x256, .f32⟩ : BufTy).Contents (Elt F)),
    binary main_call0_v623 main_call0_v622 main_call0_v624 ((addf) : (⟨S4x256, .f32⟩ : BufTy).Contents (Elt F) → (⟨S4x256, .f32⟩ : BufTy).Contents (Elt F) → (⟨S4x256, .f32⟩ : BufTy).Contents (Elt F)),
    nullary main_call0_cst_90 (constant S_ .f32 0x3F800000#32),
    unary main_call0_cst_90 main_call0_v625 ((broadcastInDim S4x256 ![] bcast_S_S4x256) : (⟨S_, .f32⟩ : BufTy).Contents (Elt F) → (⟨S4x256, .f32⟩ : BufTy).Contents (Elt F)),
    binary main_call0_v625 main_call0_v624 main_call0_v626 ((Host.divf) : (⟨S4x256, .f32⟩ : BufTy).Contents (Elt F) → (⟨S4x256, .f32⟩ : BufTy).Contents (Elt F) → (⟨S4x256, .f32⟩ : BufTy).Contents (Elt F)),
    unary main_call0_v595 main_call0_v627 ((Host.tanh) : (⟨S4x256, .f32⟩ : BufTy).Contents (Elt F) → (⟨S4x256, .f32⟩ : BufTy).Contents (Elt F)),
    binary main_call0_v626 main_call0_v627 main_call0_v628 ((mulf) : (⟨S4x256, .f32⟩ : BufTy).Contents (Elt F) → (⟨S4x256, .f32⟩ : BufTy).Contents (Elt F) → (⟨S4x256, .f32⟩ : BufTy).Contents (Elt F)),
    binary main_call0_v628 main_call0_v620 main_call0_v629 ((addf) : (⟨S4x256, .f32⟩ : BufTy).Contents (Elt F) → (⟨S4x256, .f32⟩ : BufTy).Contents (Elt F) → (⟨S4x256, .f32⟩ : BufTy).Contents (Elt F)),
    unary main_call0_v594 main_call0_v630 ((Host.negf) : (⟨S4x256, .f32⟩ : BufTy).Contents (Elt F) → (⟨S4x256, .f32⟩ : BufTy).Contents (Elt F)),
    unary main_call0_v630 main_call0_v631 ((Host.exp) : (⟨S4x256, .f32⟩ : BufTy).Contents (Elt F) → (⟨S4x256, .f32⟩ : BufTy).Contents (Elt F)),
    nullary main_call0_cst_91 (constant S_ .f32 0x3F800000#32),
    unary main_call0_cst_91 main_call0_v632 ((broadcastInDim S4x256 ![] bcast_S_S4x256) : (⟨S_, .f32⟩ : BufTy).Contents (Elt F) → (⟨S4x256, .f32⟩ : BufTy).Contents (Elt F)),
    binary main_call0_v632 main_call0_v631 main_call0_v633 ((addf) : (⟨S4x256, .f32⟩ : BufTy).Contents (Elt F) → (⟨S4x256, .f32⟩ : BufTy).Contents (Elt F) → (⟨S4x256, .f32⟩ : BufTy).Contents (Elt F)),
    nullary main_call0_cst_92 (constant S_ .f32 0x3F800000#32),
    unary main_call0_cst_92 main_call0_v634 ((broadcastInDim S4x256 ![] bcast_S_S4x256) : (⟨S_, .f32⟩ : BufTy).Contents (Elt F) → (⟨S4x256, .f32⟩ : BufTy).Contents (Elt F)),
    binary main_call0_v634 main_call0_v633 main_call0_v635 ((Host.divf) : (⟨S4x256, .f32⟩ : BufTy).Contents (Elt F) → (⟨S4x256, .f32⟩ : BufTy).Contents (Elt F) → (⟨S4x256, .f32⟩ : BufTy).Contents (Elt F)),
    unary main_call0_v629 main_call0_v636 ((Host.tanh) : (⟨S4x256, .f32⟩ : BufTy).Contents (Elt F) → (⟨S4x256, .f32⟩ : BufTy).Contents (Elt F)),
    binary main_call0_v635 main_call0_v636 main_call0_v637 ((mulf) : (⟨S4x256, .f32⟩ : BufTy).Contents (Elt F) → (⟨S4x256, .f32⟩ : BufTy).Contents (Elt F) → (⟨S4x256, .f32⟩ : BufTy).Contents (Elt F)),
    nullary main_call0_c_93 (constantI S_ 32 3#32),
    unary main_call0_c_93 main_call0_v638 ((broadcastInDim S1 ![] bcast_S_S1) : (⟨S_, .i32⟩ : BufTy).Contents (Elt F) → (⟨S1, .i32⟩ : BufTy).Contents (Elt F)),
    ternary main_call0_v570 main_call0_v638 main_call0_v629 main_call0_v639 ((fun x i u => Host.scatter scatter_S131071x256_S1_S4x256_01_n_0_0 (fun _ b => b) x i u) : (⟨S131071x256, .f32⟩ : BufTy).Contents (Elt F) → (⟨S1, .i32⟩ : BufTy).Contents (Elt F) → (⟨S4x256, .f32⟩ : BufTy).Contents (Elt F) → (⟨S131071x256, .f32⟩ : BufTy).Contents (Elt F)),
    nullary main_call0_c_94 (constantI S_ 32 3#32),
    unary main_call0_c_94 main_call0_v640 ((broadcastInDim S1 ![] bcast_S_S1) : (⟨S_, .i32⟩ : BufTy).Contents (Elt F) → (⟨S1, .i32⟩ : BufTy).Contents (Elt F)),
    ternary main_call0_v572 main_call0_v640 main_call0_v637 main_call0_v641 ((fun x i u => Host.scatter scatter_S131071x256_S1_S4x256_01_n_0_0 (fun _ b => b) x i u) : (⟨S131071x256, .f32⟩ : BufTy).Contents (Elt F) → (⟨S1, .i32⟩ : BufTy).Contents (Elt F) → (⟨S4x256, .f32⟩ : BufTy).Contents (Elt F) → (⟨S131071x256, .f32⟩ : BufTy).Contents (Elt F)) ]

/-- Stretch 8, part 9: level 1. -/
abbrev klev1 : List (HloOp τ sig (Elt F)) :=
  [ unary main_call0_v7 main_call0_v642 ((extractStridedSlice S2x768 ![1, 0] · slices_S65535x768_S2x768_1_0) : (⟨S65535x768, .f32⟩ : BufTy).Contents (Elt F) → (⟨S2x768, .f32⟩ : BufTy).Contents (Elt F)),
    unary main_call0_v8 main_call0_v643 ((extractStridedSlice S2x256 ![1, 0] · slices_S65535x256_S2x256_1_0) : (⟨S65535x256, .f32⟩ : BufTy).Contents (Elt F) → (⟨S2x256, .f32⟩ : BufTy).Contents (Elt F)),
    unary main_call0_v641 main_call0_v644 ((extractStridedSlice S4x256 ![3, 0] · slices_S131071x256_S4x256_3_0) : (⟨S131071x256, .f32⟩ : BufTy).Contents (Elt F) → (⟨S4x256, .f32⟩ : BufTy).Contents (Elt F)),
    reshape main_call0_v644 main_call0_v645 rfl shapeCasts_S4x256_S2x2x256,
    unary main_call0_v639 main_call0_v646 ((extractStridedSlice S4x256 ![3, 0] · slices_S131071x256_S4x256_3_0) : (⟨S131071x256, .f32⟩ : BufTy).Contents (Elt F) → (⟨S4x256, .f32⟩ : BufTy).Contents (Elt F)),
    reshape main_call0_v646 main_call0_v647 rfl shapeCasts_S4x256_S2x2x256,
    unary main_call0_v645 main_call0_v648 ((extractStridedSlice S2x1x256 ![0, 0, 0] · slices_S2x2x256_S2x1x256_0_0_0) : (⟨S2x2x256, .f32⟩ : BufTy).Contents (Elt F) → (⟨S2x1x256, .f32⟩ : BufTy).Contents (Elt F)),
    reshape main_call0_v648 main_call0_v649 rfl shapeCasts_S2x1x256_S2x256,
    unary main_call0_v645 main_call0_v650 ((extractStridedSlice S2x1x256 ![0, 1, 0] · slices_S2x2x256_S2x1x256_0_1_0) : (⟨S2x2x256, .f32⟩ : BufTy).Contents (Elt F) → (⟨S2x1x256, .f32⟩ : BufTy).Contents (Elt F)),
    reshape main_call0_v650 main_call0_v651 rfl shapeCasts_S2x1x256_S2x256,
    unary main_call0_v647 main_call0_v652 ((extractStridedSlice S2x1x256 ![0, 0, 0] · slices_S2x2x256_S2x1x256_0_0_0) : (⟨S2x2x256, .f32⟩ : BufTy).Contents (Elt F) → (⟨S2x1x256, .f32⟩ : BufTy).Contents (Elt F)),
    reshape main_call0_v652 main_call0_v653 rfl shapeCasts_S2x1x256_S2x256,
    unary main_call0_v647 main_call0_v654 ((extractStridedSlice S2x1x256 ![0, 1, 0] · slices_S2x2x256_S2x1x256_0_1_0) : (⟨S2x2x256, .f32⟩ : BufTy).Contents (Elt F) → (⟨S2x1x256, .f32⟩ : BufTy).Contents (Elt F)),
    reshape main_call0_v654 main_call0_v655 rfl shapeCasts_S2x1x256_S2x256,
    binary main_call0_v649 main_call0_v651 main_call0_v656 ((addf) : (⟨S2x256, .f32⟩ : BufTy).Contents (Elt F) → (⟨S2x256, .f32⟩ : BufTy).Contents (Elt F) → (⟨S2x256, .f32⟩ : BufTy).Contents (Elt F)),
    binary main_call0_v656 main_call0_v20 main_call0_v657 ((fun l r => Host.dotGeneral dot_S2x256_S256x768_S2x768_1_0_0_1_n_n none l r) : (⟨S2x256, .f32⟩ : BufTy).Contents (Elt F) → (⟨S256x768, .f32⟩ : BufTy).Contents (Elt F) → (⟨S2x768, .f32⟩ : BufTy).Contents (Elt F)),
    binary main_call0_v642 main_call0_v657 main_call0_v658 ((addf) : (⟨S2x768, .f32⟩ : BufTy).Contents (Elt F) → (⟨S2x768, .f32⟩ : BufTy).Contents (Elt F) → (⟨S2x768, .f32⟩ : BufTy).Contents (Elt F)),
    unary main_arg4 main_call0_v659 ((broadcastInDim S1x768 ![1] bcast_S768_S1x768_1) : (⟨S768, .f32⟩ : BufTy).Contents (Elt F) → (⟨S1x768, .f32⟩ : BufTy).Contents (Elt F)),
    unary main_call0_v659 main_call0_v660 ((broadcastInDim S2x768 ![0, 1] bcast_S1x768_S2x768_0_1) : (⟨S1x768, .f32⟩ : BufTy).Contents (Elt F) → (⟨S2x768, .f32⟩ : BufTy).Contents (Elt F)),
    binary main_call0_v658 main_call0_v660 main_call0_v661 ((addf) : (⟨S2x768, .f32⟩ : BufTy).Contents (Elt F) → (⟨S2x768, .f32⟩ : BufTy).Contents (Elt F) → (⟨S2x768, .f32⟩ : BufTy).Contents (Elt F)),
    unary main_call0_v661 main_call0_v662 ((extractStridedSlice S2x256 ![0, 0] · slices_S2x768_S2x256_0_0) : (⟨S2x768, .f32⟩ : BufTy).Contents (Elt F) → (⟨S2x256, .f32⟩ : BufTy).Contents (Elt F)),
    unary main_call0_v661 main_call0_v663 ((extractStridedSlice S2x256 ![0, 256] · slices_S2x768_S2x256_0_256) : (⟨S2x768, .f32⟩ : BufTy).Contents (Elt F) → (⟨S2x256, .f32⟩ : BufTy).Contents (Elt F)),
    unary main_call0_v661 main_call0_v664 ((extractStridedSlice S2x256 ![0, 512] · slices_S2x768_S2x256_0_512) : (⟨S2x768, .f32⟩ : BufTy).Contents (Elt F) → (⟨S2x256, .f32⟩ : BufTy).Contents (Elt F)),
    binary main_call0_v649 main_call0_v21 main_call0_v665 ((fun l r => Host.dotGeneral dot_S2x256_S256x256_S2x256_1_0_0_1_n_n none l r) : (⟨S2x256, .f32⟩ : BufTy).Contents (Elt F) → (⟨S256x256, .f32⟩ : BufTy).Contents (Elt F) → (⟨S2x256, .f32⟩ : BufTy).Contents (Elt F)),
    unary main_arg8 main_call0_v666 ((broadcastInDim S1x256 ![1] bcast_S256_S1x256_1) : (⟨S256, .f32⟩ : BufTy).Contents (Elt F) → (⟨S1x256, .f32⟩ : BufTy).Contents (Elt F)),
    unary main_call0_v666 main_call0_v667 ((broadcastInDim S2x256 ![0, 1] bcast_S1x256_S2x256_0_1) : (⟨S1x256, .f32⟩ : BufTy).Contents (Elt F) → (⟨S2x256, .f32⟩ : BufTy).Contents (Elt F)),
    binary main_call0_v665 main_call0_v667 main_call0_v668 ((addf) : (⟨S2x256, .f32⟩ : BufTy).Contents (Elt F) → (⟨S2x256, .f32⟩ : BufTy).Contents (Elt F) → (⟨S2x256, .f32⟩ : BufTy).Contents (Elt F)),
    binary main_call0_v668 main_call0_v643 main_call0_v669 ((addf) : (⟨S2x256, .f32⟩ : BufTy).Contents (Elt F) → (⟨S2x256, .f32⟩ : BufTy).Contents (Elt F) → (⟨S2x256, .f32⟩ : BufTy).Contents (Elt F)),
    binary main_call0_v651 main_call0_v21 main_call0_v670 ((fun l r => Host.dotGeneral dot_S2x256_S256x256_S2x256_1_0_0_1_n_n none l r) : (⟨S2x256, .f32⟩ : BufTy).Contents (Elt F) → (⟨S256x256, .f32⟩ : BufTy).Contents (Elt F) → (⟨S2x256, .f32⟩ : BufTy).Contents (Elt F)),
    unary main_arg8 main_call0_v671 ((broadcastInDim S1x256 ![1] bcast_S256_S1x256_1) : (⟨S256, .f32⟩ : BufTy).Contents (Elt F) → (⟨S1x256, .f32⟩ : BufTy).Contents (Elt F)),
    unary main_call0_v671 main_call0_v672 ((broadcastInDim S2x256 ![0, 1] bcast_S1x256_S2x256_0_1) : (⟨S1x256, .f32⟩ : BufTy).Contents (Elt F) → (⟨S2x256, .f32⟩ : BufTy).Contents (Elt F)),
    binary main_call0_v670 main_call0_v672 main_call0_v673 ((addf) : (⟨S2x256, .f32⟩ : BufTy).Contents (Elt F) → (⟨S2x256, .f32⟩ : BufTy).Contents (Elt F) → (⟨S2x256, .f32⟩ : BufTy).Contents (Elt F)),
    binary main_call0_v673 main_call0_v643 main_call0_v674 ((addf) : (⟨S2x256, .f32⟩ : BufTy).Contents (Elt F) → (⟨S2x256, .f32⟩ : BufTy).Contents (Elt F) → (⟨S2x256, .f32⟩ : BufTy).Contents (Elt F)),
    unary main_call0_v669 main_call0_v675 ((Host.negf) : (⟨S2x256, .f32⟩ : BufTy).Contents (Elt F) → (⟨S2x256, .f32⟩ : BufTy).Contents (Elt F)),
    unary main_call0_v675 main_call0_v676 ((Host.exp) : (⟨S2x256, .f32⟩ : BufTy).Contents (Elt F) → (⟨S2x256, .f32⟩ : BufTy).Contents (Elt F)),
    nullary main_call0_cst_95 (constant S_ .f32 0x3F800000#32),
    unary main_call0_cst_95 main_call0_v677 ((broadcastInDim S2x256 ![] bcast_S_S2x256) : (⟨S_, .f32⟩ : BufTy).Contents (Elt F) → (⟨S2x256, .f32⟩ : BufTy).Contents (Elt F)),
    binary main_call0_v677 main_call0_v676 main_call0_v678 ((addf) : (⟨S2x256, .f32⟩ : BufTy).Contents (Elt F) → (⟨S2x256, .f32⟩ : BufTy).Contents (Elt F) → (⟨S2x256, .f32⟩ : BufTy).Contents (Elt F)),
    nullary main_call0_cst_96 (constant S_ .f32 0x3F800000#32),
    unary main_call0_cst_96 main_call0_v679 ((broadcastInDim S2x256 ![] bcast_S_S2x256) : (⟨S_, .f32⟩ : BufTy).Contents (Elt F) → (⟨S2x256, .f32⟩ : BufTy).Contents (Elt F)),
    binary main_call0_v679 main_call0_v678 main_call0_v680 ((Host.divf) : (⟨S2x256, .f32⟩ : BufTy).Contents (Elt F) → (⟨S2x256, .f32⟩ : BufTy).Contents (Elt F) → (⟨S2x256, .f32⟩ : BufTy).Contents (Elt F)),
    unary main_call0_v674 main_call0_v681 ((Host.negf) : (⟨S2x256, .f32⟩ : BufTy).Contents (Elt F) → (⟨S2x256, .f32⟩ : BufTy).Contents (Elt F)),
    unary main_call0_v681 main_call0_v682 ((Host.exp) : (⟨S2x256, .f32⟩ : BufTy).Contents (Elt F) → (⟨S2x256, .f32⟩ : BufTy).Contents (Elt F)),
    nullary main_call0_cst_97 (constant S_ .f32 0x3F800000#32),
    unary main_call0_cst_97 main_call0_v683 ((broadcastInDim S2x256 ![] bcast_S_S2x256) : (⟨S_, .f32⟩ : BufTy).Contents (Elt F) → (⟨S2x256, .f32⟩ : BufTy).Contents (Elt F)),
    binary main_call0_v683 main_call0_v682 main_call0_v684 ((addf) : (⟨S2x256, .f32⟩ : BufTy).Contents (Elt F) → (⟨S2x256, .f32⟩ : BufTy).Contents (Elt F) → (⟨S2x256, .f32⟩ : BufTy).Contents (Elt F)),
    nullary main_call0_cst_98 (constant S_ .f32 0x3F800000#32),
    unary main_call0_cst_98 main_call0_v685 ((broadcastInDim S2x256 ![] bcast_S_S2x256) : (⟨S_, .f32⟩ : BufTy).Contents (Elt F) → (⟨S2x256, .f32⟩ : BufTy).Contents (Elt F)),
    binary main_call0_v685 main_call0_v684 main_call0_v686 ((Host.divf) : (⟨S2x256, .f32⟩ : BufTy).Contents (Elt F) → (⟨S2x256, .f32⟩ : BufTy).Contents (Elt F) → (⟨S2x256, .f32⟩ : BufTy).Contents (Elt F)),
    binary main_call0_v680 main_call0_v653 main_call0_v687 ((mulf) : (⟨S2x256, .f32⟩ : BufTy).Contents (Elt F) → (⟨S2x256, .f32⟩ : BufTy).Contents (Elt F) → (⟨S2x256, .f32⟩ : BufTy).Contents (Elt F)),
    binary main_call0_v686 main_call0_v655 main_call0_v688 ((mulf) : (⟨S2x256, .f32⟩ : BufTy).Contents (Elt F) → (⟨S2x256, .f32⟩ : BufTy).Contents (Elt F) → (⟨S2x256, .f32⟩ : BufTy).Contents (Elt F)),
    binary main_call0_v687 main_call0_v688 main_call0_v689 ((addf) : (⟨S2x256, .f32⟩ : BufTy).Contents (Elt F) → (⟨S2x256, .f32⟩ : BufTy).Contents (Elt F) → (⟨S2x256, .f32⟩ : BufTy).Contents (Elt F)),
    unary main_call0_v662 main_call0_v690 ((Host.negf) : (⟨S2x256, .f32⟩ : BufTy).Contents (Elt F) → (⟨S2x256, .f32⟩ : BufTy).Contents (Elt F)),
    unary main_call0_v690 main_call0_v691 ((Host.exp) : (⟨S2x256, .f32⟩ : BufTy).Contents (Elt F) → (⟨S2x256, .f32⟩ : BufTy).Contents (Elt F)),
    nullary main_call0_cst_99 (constant S_ .f32 0x3F800000#32),
    unary main_call0_cst_99 main_call0_v692 ((broadcastInDim S2x256 ![] bcast_S_S2x256) : (⟨S_, .f32⟩ : BufTy).Contents (Elt F) → (⟨S2x256, .f32⟩ : BufTy).Contents (Elt F)),
    binary main_call0_v692 main_call0_v691 main_call0_v693 ((addf) : (⟨S2x256, .f32⟩ : BufTy).Contents (Elt F) → (⟨S2x256, .f32⟩ : BufTy).Contents (Elt F) → (⟨S2x256, .f32⟩ : BufTy).Contents (Elt F)),
    nullary main_call0_cst_100 (constant S_ .f32 0x3F800000#32),
    unary main_call0_cst_100 main_call0_v694 ((broadcastInDim S2x256 ![] bcast_S_S2x256) : (⟨S_, .f32⟩ : BufTy).Contents (Elt F) → (⟨S2x256, .f32⟩ : BufTy).Contents (Elt F)),
    binary main_call0_v694 main_call0_v693 main_call0_v695 ((Host.divf) : (⟨S2x256, .f32⟩ : BufTy).Contents (Elt F) → (⟨S2x256, .f32⟩ : BufTy).Contents (Elt F) → (⟨S2x256, .f32⟩ : BufTy).Contents (Elt F)),
    unary main_call0_v664 main_call0_v696 ((Host.tanh) : (⟨S2x256, .f32⟩ : BufTy).Contents (Elt F) → (⟨S2x256, .f32⟩ : BufTy).Contents (Elt F)),
    binary main_call0_v695 main_call0_v696 main_call0_v697 ((mulf) : (⟨S2x256, .f32⟩ : BufTy).Contents (Elt F) → (⟨S2x256, .f32⟩ : BufTy).Contents (Elt F) → (⟨S2x256, .f32⟩ : BufTy).Contents (Elt F)),
    binary main_call0_v697 main_call0_v689 main_call0_v698 ((addf) : (⟨S2x256, .f32⟩ : BufTy).Contents (Elt F) → (⟨S2x256, .f32⟩ : BufTy).Contents (Elt F) → (⟨S2x256, .f32⟩ : BufTy).Contents (Elt F)),
    unary main_call0_v663 main_call0_v699 ((Host.negf) : (⟨S2x256, .f32⟩ : BufTy).Contents (Elt F) → (⟨S2x256, .f32⟩ : BufTy).Contents (Elt F)),
    unary main_call0_v699 main_call0_v700 ((Host.exp) : (⟨S2x256, .f32⟩ : BufTy).Contents (Elt F) → (⟨S2x256, .f32⟩ : BufTy).Contents (Elt F)),
    nullary main_call0_cst_101 (constant S_ .f32 0x3F800000#32),
    unary main_call0_cst_101 main_call0_v701 ((broadcastInDim S2x256 ![] bcast_S_S2x256) : (⟨S_, .f32⟩ : BufTy).Contents (Elt F) → (⟨S2x256, .f32⟩ : BufTy).Contents (Elt F)),
    binary main_call0_v701 main_call0_v700 main_call0_v702 ((addf) : (⟨S2x256, .f32⟩ : BufTy).Contents (Elt F) → (⟨S2x256, .f32⟩ : BufTy).Contents (Elt F) → (⟨S2x256, .f32⟩ : BufTy).Contents (Elt F)),
    nullary main_call0_cst_102 (constant S_ .f32 0x3F800000#32),
    unary main_call0_cst_102 main_call0_v703 ((broadcastInDim S2x256 ![] bcast_S_S2x256) : (⟨S_, .f32⟩ : BufTy).Contents (Elt F) → (⟨S2x256, .f32⟩ : BufTy).Contents (Elt F)),
    binary main_call0_v703 main_call0_v702 main_call0_v704 ((Host.divf) : (⟨S2x256, .f32⟩ : BufTy).Contents (Elt F) → (⟨S2x256, .f32⟩ : BufTy).Contents (Elt F) → (⟨S2x256, .f32⟩ : BufTy).Contents (Elt F)),
    unary main_call0_v698 main_call0_v705 ((Host.tanh) : (⟨S2x256, .f32⟩ : BufTy).Contents (Elt F) → (⟨S2x256, .f32⟩ : BufTy).Contents (Elt F)),
    binary main_call0_v704 main_call0_v705 main_call0_v706 ((mulf) : (⟨S2x256, .f32⟩ : BufTy).Contents (Elt F) → (⟨S2x256, .f32⟩ : BufTy).Contents (Elt F) → (⟨S2x256, .f32⟩ : BufTy).Contents (Elt F)),
    nullary main_call0_c_103 (constantI S_ 32 1#32),
    unary main_call0_c_103 main_call0_v707 ((broadcastInDim S1 ![] bcast_S_S1) : (⟨S_, .i32⟩ : BufTy).Contents (Elt F) → (⟨S1, .i32⟩ : BufTy).Contents (Elt F)),
    ternary main_call0_v639 main_call0_v707 main_call0_v698 main_call0_v708 ((fun x i u => Host.scatter scatter_S131071x256_S1_S2x256_01_n_0_0 (fun _ b => b) x i u) : (⟨S131071x256, .f32⟩ : BufTy).Contents (Elt F) → (⟨S1, .i32⟩ : BufTy).Contents (Elt F) → (⟨S2x256, .f32⟩ : BufTy).Contents (Elt F) → (⟨S131071x256, .f32⟩ : BufTy).Contents (Elt F)),
    nullary main_call0_c_104 (constantI S_ 32 1#32),
    unary main_call0_c_104 main_call0_v709 ((broadcastInDim S1 ![] bcast_S_S1) : (⟨S_, .i32⟩ : BufTy).Contents (Elt F) → (⟨S1, .i32⟩ : BufTy).Contents (Elt F)),
    ternary main_call0_v641 main_call0_v709 main_call0_v706 main_call0_v710 ((fun x i u => Host.scatter scatter_S131071x256_S1_S2x256_01_n_0_0 (fun _ b => b) x i u) : (⟨S131071x256, .f32⟩ : BufTy).Contents (Elt F) → (⟨S1, .i32⟩ : BufTy).Contents (Elt F) → (⟨S2x256, .f32⟩ : BufTy).Contents (Elt F) → (⟨S131071x256, .f32⟩ : BufTy).Contents (Elt F)) ]

/-- Stretch 8, part 10: level 0. -/
abbrev klev0 : List (HloOp τ sig (Elt F)) :=
  [ unary main_call0_v7 main_call0_v711 ((extractStridedSlice S1x768 ![0, 0] · slices_S65535x768_S1x768_0_0) : (⟨S65535x768, .f32⟩ : BufTy).Contents (Elt F) → (⟨S1x768, .f32⟩ : BufTy).Contents (Elt F)),
    unary main_call0_v8 main_call0_v712 ((extractStridedSlice S1x256 ![0, 0] · slices_S65535x256_S1x256_0_0) : (⟨S65535x256, .f32⟩ : BufTy).Contents (Elt F) → (⟨S1x256, .f32⟩ : BufTy).Contents (Elt F)),
    unary main_call0_v710 main_call0_v713 ((extractStridedSlice S2x256 ![1, 0] · slices_S131071x256_S2x256_1_0) : (⟨S131071x256, .f32⟩ : BufTy).Contents (Elt F) → (⟨S2x256, .f32⟩ : BufTy).Contents (Elt F)),
    reshape main_call0_v713 main_call0_v714 rfl shapeCasts_S2x256_S1x2x256,
    unary main_call0_v708 main_call0_v715 ((extractStridedSlice S2x256 ![1, 0] · slices_S131071x256_S2x256_1_0) : (⟨S131071x256, .f32⟩ : BufTy).Contents (Elt F) → (⟨S2x256, .f32⟩ : BufTy).Contents (Elt F)),
    reshape main_call0_v715 main_call0_v716 rfl shapeCasts_S2x256_S1x2x256,
    unary main_call0_v714 main_call0_v717 ((extractStridedSlice S1x1x256 ![0, 0, 0] · slices_S1x2x256_S1x1x256_0_0_0) : (⟨S1x2x256, .f32⟩ : BufTy).Contents (Elt F) → (⟨S1x1x256, .f32⟩ : BufTy).Contents (Elt F)),
    reshape main_call0_v717 main_call0_v718 rfl shapeCasts_S1x1x256_S1x256,
    unary main_call0_v714 main_call0_v719 ((extractStridedSlice S1x1x256 ![0, 1, 0] · slices_S1x2x256_S1x1x256_0_1_0) : (⟨S1x2x256, .f32⟩ : BufTy).Contents (Elt F) → (⟨S1x1x256, .f32⟩ : BufTy).Contents (Elt F)),
    reshape main_call0_v719 main_call0_v720 rfl shapeCasts_S1x1x256_S1x256,
    unary main_call0_v716 main_call0_v721 ((extractStridedSlice S1x1x256 ![0, 0, 0] · slices_S1x2x256_S1x1x256_0_0_0) : (⟨S1x2x256, .f32⟩ : BufTy).Contents (Elt F) → (⟨S1x1x256, .f32⟩ : BufTy).Contents (Elt F)),
    reshape main_call0_v721 main_call0_v722 rfl shapeCasts_S1x1x256_S1x256,
    unary main_call0_v716 main_call0_v723 ((extractStridedSlice S1x1x256 ![0, 1, 0] · slices_S1x2x256_S1x1x256_0_1_0) : (⟨S1x2x256, .f32⟩ : BufTy).Contents (Elt F) → (⟨S1x1x256, .f32⟩ : BufTy).Contents (Elt F)),
    reshape main_call0_v723 main_call0_v724 rfl shapeCasts_S1x1x256_S1x256,
    binary main_call0_v718 main_call0_v720 main_call0_v725 ((addf) : (⟨S1x256, .f32⟩ : BufTy).Contents (Elt F) → (⟨S1x256, .f32⟩ : BufTy).Contents (Elt F) → (⟨S1x256, .f32⟩ : BufTy).Contents (Elt F)),
    binary main_call0_v725 main_call0_v20 main_call0_v726 ((fun l r => Host.dotGeneral dot_S1x256_S256x768_S1x768_1_0_0_1_n_n none l r) : (⟨S1x256, .f32⟩ : BufTy).Contents (Elt F) → (⟨S256x768, .f32⟩ : BufTy).Contents (Elt F) → (⟨S1x768, .f32⟩ : BufTy).Contents (Elt F)),
    binary main_call0_v711 main_call0_v726 main_call0_v727 ((addf) : (⟨S1x768, .f32⟩ : BufTy).Contents (Elt F) → (⟨S1x768, .f32⟩ : BufTy).Contents (Elt F) → (⟨S1x768, .f32⟩ : BufTy).Contents (Elt F)),
    unary main_arg4 main_call0_v728 ((broadcastInDim S1x768 ![1] bcast_S768_S1x768_1) : (⟨S768, .f32⟩ : BufTy).Contents (Elt F) → (⟨S1x768, .f32⟩ : BufTy).Contents (Elt F)),
    binary main_call0_v727 main_call0_v728 main_call0_v729 ((addf) : (⟨S1x768, .f32⟩ : BufTy).Contents (Elt F) → (⟨S1x768, .f32⟩ : BufTy).Contents (Elt F) → (⟨S1x768, .f32⟩ : BufTy).Contents (Elt F)),
    unary main_call0_v729 main_call0_v730 ((extractStridedSlice S1x256 ![0, 0] · slices_S1x768_S1x256_0_0) : (⟨S1x768, .f32⟩ : BufTy).Contents (Elt F) → (⟨S1x256, .f32⟩ : BufTy).Contents (Elt F)),
    unary main_call0_v729 main_call0_v731 ((extractStridedSlice S1x256 ![0, 256] · slices_S1x768_S1x256_0_256) : (⟨S1x768, .f32⟩ : BufTy).Contents (Elt F) → (⟨S1x256, .f32⟩ : BufTy).Contents (Elt F)),
    unary main_call0_v729 main_call0_v732 ((extractStridedSlice S1x256 ![0, 512] · slices_S1x768_S1x256_0_512) : (⟨S1x768, .f32⟩ : BufTy).Contents (Elt F) → (⟨S1x256, .f32⟩ : BufTy).Contents (Elt F)),
    binary main_call0_v718 main_call0_v21 main_call0_v733 ((fun l r => Host.dotGeneral dot_S1x256_S256x256_S1x256_1_0_0_1_n_n none l r) : (⟨S1x256, .f32⟩ : BufTy).Contents (Elt F) → (⟨S256x256, .f32⟩ : BufTy).Contents (Elt F) → (⟨S1x256, .f32⟩ : BufTy).Contents (Elt F)),
    unary main_arg8 main_call0_v734 ((broadcastInDim S1x256 ![1] bcast_S256_S1x256_1) : (⟨S256, .f32⟩ : BufTy).Contents (Elt F) → (⟨S1x256, .f32⟩ : BufTy).Contents (Elt F)),
    binary main_call0_v733 main_call0_v734 main_call0_v735 ((addf) : (⟨S1x256, .f32⟩ : BufTy).Contents (Elt F) → (⟨S1x256, .f32⟩ : BufTy).Contents (Elt F) → (⟨S1x256, .f32⟩ : BufTy).Contents (Elt F)),
    binary main_call0_v735 main_call0_v712 main_call0_v736 ((addf) : (⟨S1x256, .f32⟩ : BufTy).Contents (Elt F) → (⟨S1x256, .f32⟩ : BufTy).Contents (Elt F) → (⟨S1x256, .f32⟩ : BufTy).Contents (Elt F)),
    binary main_call0_v720 main_call0_v21 main_call0_v737 ((fun l r => Host.dotGeneral dot_S1x256_S256x256_S1x256_1_0_0_1_n_n none l r) : (⟨S1x256, .f32⟩ : BufTy).Contents (Elt F) → (⟨S256x256, .f32⟩ : BufTy).Contents (Elt F) → (⟨S1x256, .f32⟩ : BufTy).Contents (Elt F)),
    unary main_arg8 main_call0_v738 ((broadcastInDim S1x256 ![1] bcast_S256_S1x256_1) : (⟨S256, .f32⟩ : BufTy).Contents (Elt F) → (⟨S1x256, .f32⟩ : BufTy).Contents (Elt F)),
    binary main_call0_v737 main_call0_v738 main_call0_v739 ((addf) : (⟨S1x256, .f32⟩ : BufTy).Contents (Elt F) → (⟨S1x256, .f32⟩ : BufTy).Contents (Elt F) → (⟨S1x256, .f32⟩ : BufTy).Contents (Elt F)),
    binary main_call0_v739 main_call0_v712 main_call0_v740 ((addf) : (⟨S1x256, .f32⟩ : BufTy).Contents (Elt F) → (⟨S1x256, .f32⟩ : BufTy).Contents (Elt F) → (⟨S1x256, .f32⟩ : BufTy).Contents (Elt F)),
    unary main_call0_v736 main_call0_v741 ((Host.negf) : (⟨S1x256, .f32⟩ : BufTy).Contents (Elt F) → (⟨S1x256, .f32⟩ : BufTy).Contents (Elt F)),
    unary main_call0_v741 main_call0_v742 ((Host.exp) : (⟨S1x256, .f32⟩ : BufTy).Contents (Elt F) → (⟨S1x256, .f32⟩ : BufTy).Contents (Elt F)),
    nullary main_call0_cst_105 (constant S_ .f32 0x3F800000#32),
    unary main_call0_cst_105 main_call0_v743 ((broadcastInDim S1x256 ![] bcast_S_S1x256) : (⟨S_, .f32⟩ : BufTy).Contents (Elt F) → (⟨S1x256, .f32⟩ : BufTy).Contents (Elt F)),
    binary main_call0_v743 main_call0_v742 main_call0_v744 ((addf) : (⟨S1x256, .f32⟩ : BufTy).Contents (Elt F) → (⟨S1x256, .f32⟩ : BufTy).Contents (Elt F) → (⟨S1x256, .f32⟩ : BufTy).Contents (Elt F)),
    nullary main_call0_cst_106 (constant S_ .f32 0x3F800000#32),
    unary main_call0_cst_106 main_call0_v745 ((broadcastInDim S1x256 ![] bcast_S_S1x256) : (⟨S_, .f32⟩ : BufTy).Contents (Elt F) → (⟨S1x256, .f32⟩ : BufTy).Contents (Elt F)),
    binary main_call0_v745 main_call0_v744 main_call0_v746 ((Host.divf) : (⟨S1x256, .f32⟩ : BufTy).Contents (Elt F) → (⟨S1x256, .f32⟩ : BufTy).Contents (Elt F) → (⟨S1x256, .f32⟩ : BufTy).Contents (Elt F)),
    unary main_call0_v740 main_call0_v747 ((Host.negf) : (⟨S1x256, .f32⟩ : BufTy).Contents (Elt F) → (⟨S1x256, .f32⟩ : BufTy).Contents (Elt F)),
    unary main_call0_v747 main_call0_v748 ((Host.exp) : (⟨S1x256, .f32⟩ : BufTy).Contents (Elt F) → (⟨S1x256, .f32⟩ : BufTy).Contents (Elt F)),
    nullary main_call0_cst_107 (constant S_ .f32 0x3F800000#32),
    unary main_call0_cst_107 main_call0_v749 ((broadcastInDim S1x256 ![] bcast_S_S1x256) : (⟨S_, .f32⟩ : BufTy).Contents (Elt F) → (⟨S1x256, .f32⟩ : BufTy).Contents (Elt F)),
    binary main_call0_v749 main_call0_v748 main_call0_v750 ((addf) : (⟨S1x256, .f32⟩ : BufTy).Contents (Elt F) → (⟨S1x256, .f32⟩ : BufTy).Contents (Elt F) → (⟨S1x256, .f32⟩ : BufTy).Contents (Elt F)),
    nullary main_call0_cst_108 (constant S_ .f32 0x3F800000#32),
    unary main_call0_cst_108 main_call0_v751 ((broadcastInDim S1x256 ![] bcast_S_S1x256) : (⟨S_, .f32⟩ : BufTy).Contents (Elt F) → (⟨S1x256, .f32⟩ : BufTy).Contents (Elt F)),
    binary main_call0_v751 main_call0_v750 main_call0_v752 ((Host.divf) : (⟨S1x256, .f32⟩ : BufTy).Contents (Elt F) → (⟨S1x256, .f32⟩ : BufTy).Contents (Elt F) → (⟨S1x256, .f32⟩ : BufTy).Contents (Elt F)),
    binary main_call0_v746 main_call0_v722 main_call0_v753 ((mulf) : (⟨S1x256, .f32⟩ : BufTy).Contents (Elt F) → (⟨S1x256, .f32⟩ : BufTy).Contents (Elt F) → (⟨S1x256, .f32⟩ : BufTy).Contents (Elt F)),
    binary main_call0_v752 main_call0_v724 main_call0_v754 ((mulf) : (⟨S1x256, .f32⟩ : BufTy).Contents (Elt F) → (⟨S1x256, .f32⟩ : BufTy).Contents (Elt F) → (⟨S1x256, .f32⟩ : BufTy).Contents (Elt F)),
    binary main_call0_v753 main_call0_v754 main_call0_v755 ((addf) : (⟨S1x256, .f32⟩ : BufTy).Contents (Elt F) → (⟨S1x256, .f32⟩ : BufTy).Contents (Elt F) → (⟨S1x256, .f32⟩ : BufTy).Contents (Elt F)),
    unary main_call0_v730 main_call0_v756 ((Host.negf) : (⟨S1x256, .f32⟩ : BufTy).Contents (Elt F) → (⟨S1x256, .f32⟩ : BufTy).Contents (Elt F)),
    unary main_call0_v756 main_call0_v757 ((Host.exp) : (⟨S1x256, .f32⟩ : BufTy).Contents (Elt F) → (⟨S1x256, .f32⟩ : BufTy).Contents (Elt F)),
    nullary main_call0_cst_109 (constant S_ .f32 0x3F800000#32),
    unary main_call0_cst_109 main_call0_v758 ((broadcastInDim S1x256 ![] bcast_S_S1x256) : (⟨S_, .f32⟩ : BufTy).Contents (Elt F) → (⟨S1x256, .f32⟩ : BufTy).Contents (Elt F)),
    binary main_call0_v758 main_call0_v757 main_call0_v759 ((addf) : (⟨S1x256, .f32⟩ : BufTy).Contents (Elt F) → (⟨S1x256, .f32⟩ : BufTy).Contents (Elt F) → (⟨S1x256, .f32⟩ : BufTy).Contents (Elt F)),
    nullary main_call0_cst_110 (constant S_ .f32 0x3F800000#32),
    unary main_call0_cst_110 main_call0_v760 ((broadcastInDim S1x256 ![] bcast_S_S1x256) : (⟨S_, .f32⟩ : BufTy).Contents (Elt F) → (⟨S1x256, .f32⟩ : BufTy).Contents (Elt F)),
    binary main_call0_v760 main_call0_v759 main_call0_v761 ((Host.divf) : (⟨S1x256, .f32⟩ : BufTy).Contents (Elt F) → (⟨S1x256, .f32⟩ : BufTy).Contents (Elt F) → (⟨S1x256, .f32⟩ : BufTy).Contents (Elt F)),
    unary main_call0_v732 main_call0_v762 ((Host.tanh) : (⟨S1x256, .f32⟩ : BufTy).Contents (Elt F) → (⟨S1x256, .f32⟩ : BufTy).Contents (Elt F)),
    binary main_call0_v761 main_call0_v762 main_call0_v763 ((mulf) : (⟨S1x256, .f32⟩ : BufTy).Contents (Elt F) → (⟨S1x256, .f32⟩ : BufTy).Contents (Elt F) → (⟨S1x256, .f32⟩ : BufTy).Contents (Elt F)),
    binary main_call0_v763 main_call0_v755 main_call0_v764 ((addf) : (⟨S1x256, .f32⟩ : BufTy).Contents (Elt F) → (⟨S1x256, .f32⟩ : BufTy).Contents (Elt F) → (⟨S1x256, .f32⟩ : BufTy).Contents (Elt F)),
    unary main_call0_v731 main_call0_v765 ((Host.negf) : (⟨S1x256, .f32⟩ : BufTy).Contents (Elt F) → (⟨S1x256, .f32⟩ : BufTy).Contents (Elt F)),
    unary main_call0_v765 main_call0_v766 ((Host.exp) : (⟨S1x256, .f32⟩ : BufTy).Contents (Elt F) → (⟨S1x256, .f32⟩ : BufTy).Contents (Elt F)),
    nullary main_call0_cst_111 (constant S_ .f32 0x3F800000#32),
    unary main_call0_cst_111 main_call0_v767 ((broadcastInDim S1x256 ![] bcast_S_S1x256) : (⟨S_, .f32⟩ : BufTy).Contents (Elt F) → (⟨S1x256, .f32⟩ : BufTy).Contents (Elt F)),
    binary main_call0_v767 main_call0_v766 main_call0_v768 ((addf) : (⟨S1x256, .f32⟩ : BufTy).Contents (Elt F) → (⟨S1x256, .f32⟩ : BufTy).Contents (Elt F) → (⟨S1x256, .f32⟩ : BufTy).Contents (Elt F)),
    nullary main_call0_cst_112 (constant S_ .f32 0x3F800000#32),
    unary main_call0_cst_112 main_call0_v769 ((broadcastInDim S1x256 ![] bcast_S_S1x256) : (⟨S_, .f32⟩ : BufTy).Contents (Elt F) → (⟨S1x256, .f32⟩ : BufTy).Contents (Elt F)),
    binary main_call0_v769 main_call0_v768 main_call0_v770 ((Host.divf) : (⟨S1x256, .f32⟩ : BufTy).Contents (Elt F) → (⟨S1x256, .f32⟩ : BufTy).Contents (Elt F) → (⟨S1x256, .f32⟩ : BufTy).Contents (Elt F)),
    unary main_call0_v764 main_call0_v771 ((Host.tanh) : (⟨S1x256, .f32⟩ : BufTy).Contents (Elt F) → (⟨S1x256, .f32⟩ : BufTy).Contents (Elt F)),
    binary main_call0_v770 main_call0_v771 main_call0_v772 ((mulf) : (⟨S1x256, .f32⟩ : BufTy).Contents (Elt F) → (⟨S1x256, .f32⟩ : BufTy).Contents (Elt F) → (⟨S1x256, .f32⟩ : BufTy).Contents (Elt F)),
    nullary main_call0_c_113 (constantI S_ 32 0#32),
    unary main_call0_c_113 main_call0_v773 ((broadcastInDim S1 ![] bcast_S_S1) : (⟨S_, .i32⟩ : BufTy).Contents (Elt F) → (⟨S1, .i32⟩ : BufTy).Contents (Elt F)),
    ternary main_call0_v708 main_call0_v773 main_call0_v764 main_call0_v774 ((fun x i u => Host.scatter scatter_S131071x256_S1_S1x256_01_n_0_0 (fun _ b => b) x i u) : (⟨S131071x256, .f32⟩ : BufTy).Contents (Elt F) → (⟨S1, .i32⟩ : BufTy).Contents (Elt F) → (⟨S1x256, .f32⟩ : BufTy).Contents (Elt F) → (⟨S131071x256, .f32⟩ : BufTy).Contents (Elt F)),
    nullary main_call0_c_114 (constantI S_ 32 0#32),
    unary main_call0_c_114 main_call0_v775 ((broadcastInDim S1 ![] bcast_S_S1) : (⟨S_, .i32⟩ : BufTy).Contents (Elt F) → (⟨S1, .i32⟩ : BufTy).Contents (Elt F)),
    ternary main_call0_v710 main_call0_v775 main_call0_v772 main_call0_v776 ((fun x i u => Host.scatter scatter_S131071x256_S1_S1x256_01_n_0_0 (fun _ b => b) x i u) : (⟨S131071x256, .f32⟩ : BufTy).Contents (Elt F) → (⟨S1, .i32⟩ : BufTy).Contents (Elt F) → (⟨S1x256, .f32⟩ : BufTy).Contents (Elt F) → (⟨S131071x256, .f32⟩ : BufTy).Contents (Elt F)) ]

/-- Stretch 8, part 11. -/
abbrev ktail8 : List (HloOp τ sig (Elt F)) :=
  [ unary main_call0_v774 main_v0_0 ((extractStridedSlice S1x256 ![0, 0] · slices_S131071x256_S1x256_0_0) : (⟨S131071x256, .f32⟩ : BufTy).Contents (Elt F) → (⟨S1x256, .f32⟩ : BufTy).Contents (Elt F)),
    unary main_call0_v776 main_v0_1 ((extractStridedSlice S1x256 ![0, 0] · slices_S131071x256_S1x256_0_0) : (⟨S131071x256, .f32⟩ : BufTy).Contents (Elt F) → (⟨S1x256, .f32⟩ : BufTy).Contents (Elt F)) ]

set_option maxHeartbeats 4000000 in
theorem hostOps8_eq : (hostOps8 : List (HloOp τ sig (Elt F))) = kpre8 ++ (klev9 ++ (klev8 ++ (klev7 ++ (klev6 ++ (klev5 ++ (klev4 ++ (klev3 ++ (klev2 ++ (klev1 ++ (klev0 ++ (ktail8))))))))))) :=
  (cons_congr rfl (cons_congr rfl (cons_congr (ternary_eq _ _ _ _ _ _ _ _ _ _ _ _ _ _ _ _ _) (cons_congr rfl (cons_congr rfl (cons_congr (ternary_eq _ _ _ _ _ _ _ _ _ _ _ _ _ _ _ _ _) (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr (ternary_eq _ _ _ _ _ _ _ _ _ _ _ _ _ _ _ _ _) (cons_congr rfl (cons_congr rfl (cons_congr (ternary_eq _ _ _ _ _ _ _ _ _ _ _ _ _ _ _ _ _) (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr (ternary_eq _ _ _ _ _ _ _ _ _ _ _ _ _ _ _ _ _) (cons_congr rfl (cons_congr rfl (cons_congr (ternary_eq _ _ _ _ _ _ _ _ _ _ _ _ _ _ _ _ _) (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr (ternary_eq _ _ _ _ _ _ _ _ _ _ _ _ _ _ _ _ _) (cons_congr rfl (cons_congr rfl (cons_congr (ternary_eq _ _ _ _ _ _ _ _ _ _ _ _ _ _ _ _ _) (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr (ternary_eq _ _ _ _ _ _ _ _ _ _ _ _ _ _ _ _ _) (cons_congr rfl (cons_congr rfl (cons_congr (ternary_eq _ _ _ _ _ _ _ _ _ _ _ _ _ _ _ _ _) (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr (ternary_eq _ _ _ _ _ _ _ _ _ _ _ _ _ _ _ _ _) (cons_congr rfl (cons_congr rfl (cons_congr (ternary_eq _ _ _ _ _ _ _ _ _ _ _ _ _ _ _ _ _) (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr (ternary_eq _ _ _ _ _ _ _ _ _ _ _ _ _ _ _ _ _) (cons_congr rfl (cons_congr rfl (cons_congr (ternary_eq _ _ _ _ _ _ _ _ _ _ _ _ _ _ _ _ _) (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr (ternary_eq _ _ _ _ _ _ _ _ _ _ _ _ _ _ _ _ _) (cons_congr rfl (cons_congr rfl (cons_congr (ternary_eq _ _ _ _ _ _ _ _ _ _ _ _ _ _ _ _ _) (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr (ternary_eq _ _ _ _ _ _ _ _ _ _ _ _ _ _ _ _ _) (cons_congr rfl (cons_congr rfl (cons_congr (ternary_eq _ _ _ _ _ _ _ _ _ _ _ _ _ _ _ _ _) (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr (ternary_eq _ _ _ _ _ _ _ _ _ _ _ _ _ _ _ _ _) (cons_congr rfl (cons_congr rfl (cons_congr (ternary_eq _ _ _ _ _ _ _ _ _ _ _ _ _ _ _ _ _) (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr (ternary_eq _ _ _ _ _ _ _ _ _ _ _ _ _ _ _ _ _) (cons_congr rfl (cons_congr rfl (cons_congr (ternary_eq _ _ _ _ _ _ _ _ _ _ _ _ _ _ _ _ _) (cons_congr rfl (cons_congr rfl rfl)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))

end Lists

variable (U : Valuation τ sig (Elt Ideal))
set_option maxHeartbeats 2000000

/-! ## Stretch 0 -/

theorem h0_v1 : after kops0 U (Proc.devRef .tc main_call0_v1)
    = (((fun x v => pad S65536x256 ![0, 0] ![1, 0] ![0, 0] x v pads_S65535x256_S65536x256_010_000 h_S_) (extractStridedSlice S65535x256 ![0, 0] (U (Proc.devRef .tc main_arg0) : FVec Ideal S131071x256 .f32) slices_S131071x256_S65535x256_0_0) (sitofp (F := Ideal) .f32 (constantI S_ 32 0#32))) : FVec Ideal S65536x256 .f32) := by
  dsimp only [kops0]
  after_results_simp <;> rfl

theorem h0_v4 : after kops0 U (Proc.devRef .tc main_call0_v4)
    = ((transpose S256x1024 [1, 0] ((fun a b => concatenate S1024x256 0 [⟨S768x256, a⟩, ⟨S256x256, b⟩] concatenates_S768x256_S256x256_S1024x256_d0) (U (Proc.devRef .tc main_arg1) : FVec Ideal S768x256 .f32) (U (Proc.devRef .tc main_arg5) : FVec Ideal S256x256 .f32)) transposes_S1024x256_S256x1024_1_0) : FVec Ideal S256x1024 .f32) := by
  dsimp only [kops0]
  after_results_simp <;> rfl

theorem h0_v5 : after kops0 U (Proc.devRef .tc main_call0_v5)
    = ((shapeCast _ ((fun a b => concatenate S1024 0 [⟨S768, a⟩, ⟨S256, b⟩] concatenates_S768_S256_S1024_d0) (U (Proc.devRef .tc main_arg2) : FVec Ideal S768 .f32) (U (Proc.devRef .tc main_arg6) : FVec Ideal S256 .f32)) shapeCasts_S1024_S1x1024) : FVec Ideal S1x1024 .f32) := by
  dsimp only [kops0]
  after_results_simp <;> rfl

/-! ## Stretch 1 -/

theorem h1_v7 : after kops1 U (Proc.devRef .tc main_call0_v7)
    = ((extractStridedSlice S65535x768 ![0, 0] (U (Proc.devRef .tc main_call0_v6_0) : FVec Ideal S65536x768 .f32) slices_S65536x768_S65535x768_0_0) : FVec Ideal S65535x768 .f32) := by
  dsimp only [kops1]
  after_results_simp <;> rfl

theorem h1_v8 : after kops1 U (Proc.devRef .tc main_call0_v8)
    = ((extractStridedSlice S65535x256 ![0, 0] (U (Proc.devRef .tc main_call0_v6_1) : FVec Ideal S65536x256 .f32) slices_S65536x256_S65535x256_0_0) : FVec Ideal S65535x256 .f32) := by
  dsimp only [kops1]
  after_results_simp <;> rfl

theorem h1_v9 : after kops1 U (Proc.devRef .tc main_call0_v9)
    = ((extractStridedSlice S65536x256 ![65535, 0] (U (Proc.devRef .tc main_arg0) : FVec Ideal S131071x256 .f32) slices_S131071x256_S65536x256_65535_0) : FVec Ideal S65536x256 .f32) := by
  dsimp only [kops1]
  after_results_simp <;> rfl

theorem h1_v11 : after kops1 U (Proc.devRef .tc main_call0_v11)
    = ((shapeCast _ (addf (U (Proc.devRef .tc main_arg2) : FVec Ideal S768 .f32) (U (Proc.devRef .tc main_arg4) : FVec Ideal S768 .f32)) shapeCasts_S768_S1x768) : FVec Ideal S1x768 .f32) := by
  dsimp only [kops1]
  after_results_simp <;> rfl

theorem h1_v12 : after kops1 U (Proc.devRef .tc main_call0_v12)
    = ((transpose S256x768 [1, 0] (U (Proc.devRef .tc main_arg1) : FVec Ideal S768x256 .f32) transposes_S768x256_S256x768_1_0) : FVec Ideal S256x768 .f32) := by
  dsimp only [kops1]
  after_results_simp <;> rfl

/-! ## Stretch 2 -/

theorem h2_v17 : after kops2 U (Proc.devRef .tc main_call0_v17)
    = (((fun x i u => Host.scatter scatter_S131071x256_S1_S65536x256_01_n_0_0 (fun _ b => b) x i u) (broadcastInDim S131071x256 ![] bcast_S_S131071x256 (constant (F := Ideal) S_ .f32 0x00000000#32)) (broadcastInDim S1 ![] bcast_S_S1 (constantI S_ 32 65535#32)) (U (Proc.devRef .tc main_call0_v13_0) : FVec Ideal S65536x256 .f32)) : FVec Ideal S131071x256 .f32) := by
  dsimp only [kops2]
  after_results_simp <;> rfl

theorem h2_v19 : after kops2 U (Proc.devRef .tc main_call0_v19)
    = (((fun x i u => Host.scatter scatter_S131071x256_S1_S65536x256_01_n_0_0 (fun _ b => b) x i u) (broadcastInDim S131071x256 ![] bcast_S_S131071x256 (constant (F := Ideal) S_ .f32 0x00000000#32)) (broadcastInDim S1 ![] bcast_S_S1 (constantI S_ 32 65535#32)) (U (Proc.devRef .tc main_call0_v13_1) : FVec Ideal S65536x256 .f32)) : FVec Ideal S131071x256 .f32) := by
  dsimp only [kops2]
  after_results_simp <;> rfl

theorem h2_v20 : after kops2 U (Proc.devRef .tc main_call0_v20)
    = ((transpose S256x768 [1, 0] (U (Proc.devRef .tc main_arg3) : FVec Ideal S768x256 .f32) transposes_S768x256_S256x768_1_0) : FVec Ideal S256x768 .f32) := by
  dsimp only [kops2]
  after_results_simp <;> rfl

theorem h2_v21 : after kops2 U (Proc.devRef .tc main_call0_v21)
    = ((transpose S256x256 [1, 0] (U (Proc.devRef .tc main_arg7) : FVec Ideal S256x256 .f32) transposes_S256x256_S256x256_1_0) : FVec Ideal S256x256 .f32) := by
  dsimp only [kops2]
  after_results_simp <;> rfl

theorem h2_v22 : after kops2 U (Proc.devRef .tc main_call0_v22)
    = ((shapeCast _ (U (Proc.devRef .tc main_arg4) : FVec Ideal S768 .f32) shapeCasts_S768_S1x768) : FVec Ideal S1x768 .f32) := by
  dsimp only [kops2]
  after_results_simp <;> rfl

theorem h2_v23 : after kops2 U (Proc.devRef .tc main_call0_v23)
    = ((shapeCast _ (U (Proc.devRef .tc main_arg8) : FVec Ideal S256 .f32) shapeCasts_S256_S1x256) : FVec Ideal S1x256 .f32) := by
  dsimp only [kops2]
  after_results_simp <;> rfl

theorem h2_v24 : after kops2 U (Proc.devRef .tc main_call0_v24)
    = ((extractStridedSlice S32768x768 ![32767, 0] (U (Proc.devRef .tc main_call0_v7) : FVec Ideal S65535x768 .f32) slices_S65535x768_S32768x768_32767_0) : FVec Ideal S32768x768 .f32) := by
  dsimp only [kops2]
  after_results_simp <;> rfl

theorem h2_v25 : after kops2 U (Proc.devRef .tc main_call0_v25)
    = ((extractStridedSlice S32768x256 ![32767, 0] (U (Proc.devRef .tc main_call0_v8) : FVec Ideal S65535x256 .f32) slices_S65535x256_S32768x256_32767_0) : FVec Ideal S32768x256 .f32) := by
  dsimp only [kops2]
  after_results_simp <;> rfl

theorem h2_v27 : after kops2 U (Proc.devRef .tc main_call0_v27)
    = ((shapeCast _ (extractStridedSlice S65536x256 ![65535, 0] ((fun x i u => Host.scatter scatter_S131071x256_S1_S65536x256_01_n_0_0 (fun _ b => b) x i u) (broadcastInDim S131071x256 ![] bcast_S_S131071x256 (constant (F := Ideal) S_ .f32 0x00000000#32)) (broadcastInDim S1 ![] bcast_S_S1 (constantI S_ 32 65535#32)) (U (Proc.devRef .tc main_call0_v13_1) : FVec Ideal S65536x256 .f32)) slices_S131071x256_S65536x256_65535_0) shapeCasts_S65536x256_S32768x2x256) : FVec Ideal S32768x2x256 .f32) := by
  dsimp only [kops2]
  after_results_simp <;> rfl

theorem h2_v29 : after kops2 U (Proc.devRef .tc main_call0_v29)
    = ((shapeCast _ (extractStridedSlice S65536x256 ![65535, 0] ((fun x i u => Host.scatter scatter_S131071x256_S1_S65536x256_01_n_0_0 (fun _ b => b) x i u) (broadcastInDim S131071x256 ![] bcast_S_S131071x256 (constant (F := Ideal) S_ .f32 0x00000000#32)) (broadcastInDim S1 ![] bcast_S_S1 (constantI S_ 32 65535#32)) (U (Proc.devRef .tc main_call0_v13_0) : FVec Ideal S65536x256 .f32)) slices_S131071x256_S65536x256_65535_0) shapeCasts_S65536x256_S32768x2x256) : FVec Ideal S32768x2x256 .f32) := by
  dsimp only [kops2]
  after_results_simp <;> rfl

theorem h2_keep_v7 : after kops2 U (Proc.devRef .tc main_call0_v7) = U (Proc.devRef .tc main_call0_v7) := by
  dsimp only [kops2]
  after_results_simp

theorem h2_keep_v8 : after kops2 U (Proc.devRef .tc main_call0_v8) = U (Proc.devRef .tc main_call0_v8) := by
  dsimp only [kops2]
  after_results_simp

theorem h2_keep_arg4 : after kops2 U (Proc.devRef .tc main_arg4) = U (Proc.devRef .tc main_arg4) := by
  dsimp only [kops2]
  after_results_simp

theorem h2_keep_arg8 : after kops2 U (Proc.devRef .tc main_arg8) = U (Proc.devRef .tc main_arg8) := by
  dsimp only [kops2]
  after_results_simp

/-! ## Stretch 3 -/

theorem h3_v32 : after kops3 U (Proc.devRef .tc main_call0_v32)
    = (((fun x i u => Host.scatter scatter_S131071x256_S1_S32768x256_01_n_0_0 (fun _ b => b) x i u) (U (Proc.devRef .tc main_call0_v17) : FVec Ideal S131071x256 .f32) (broadcastInDim S1 ![] bcast_S_S1 (constantI S_ 32 32767#32)) (U (Proc.devRef .tc main_call0_v30_0) : FVec Ideal S32768x256 .f32)) : FVec Ideal S131071x256 .f32) := by
  dsimp only [kops3]
  after_results_simp <;> rfl

theorem h3_v34 : after kops3 U (Proc.devRef .tc main_call0_v34)
    = (((fun x i u => Host.scatter scatter_S131071x256_S1_S32768x256_01_n_0_0 (fun _ b => b) x i u) (U (Proc.devRef .tc main_call0_v19) : FVec Ideal S131071x256 .f32) (broadcastInDim S1 ![] bcast_S_S1 (constantI S_ 32 32767#32)) (U (Proc.devRef .tc main_call0_v30_1) : FVec Ideal S32768x256 .f32)) : FVec Ideal S131071x256 .f32) := by
  dsimp only [kops3]
  after_results_simp <;> rfl

theorem h3_v35 : after kops3 U (Proc.devRef .tc main_call0_v35)
    = ((extractStridedSlice S16384x768 ![16383, 0] (U (Proc.devRef .tc main_call0_v7) : FVec Ideal S65535x768 .f32) slices_S65535x768_S16384x768_16383_0) : FVec Ideal S16384x768 .f32) := by
  dsimp only [kops3]
  after_results_simp <;> rfl

theorem h3_v36 : after kops3 U (Proc.devRef .tc main_call0_v36)
    = ((extractStridedSlice S16384x256 ![16383, 0] (U (Proc.devRef .tc main_call0_v8) : FVec Ideal S65535x256 .f32) slices_S65535x256_S16384x256_16383_0) : FVec Ideal S16384x256 .f32) := by
  dsimp only [kops3]
  after_results_simp <;> rfl

theorem h3_v38 : after kops3 U (Proc.devRef .tc main_call0_v38)
    = ((shapeCast _ (extractStridedSlice S32768x256 ![32767, 0] ((fun x i u => Host.scatter scatter_S131071x256_S1_S32768x256_01_n_0_0 (fun _ b => b) x i u) (U (Proc.devRef .tc main_call0_v19) : FVec Ideal S131071x256 .f32) (broadcastInDim S1 ![] bcast_S_S1 (constantI S_ 32 32767#32)) (U (Proc.devRef .tc main_call0_v30_1) : FVec Ideal S32768x256 .f32)) slices_S131071x256_S32768x256_32767_0) shapeCasts_S32768x256_S16384x2x256) : FVec Ideal S16384x2x256 .f32) := by
  dsimp only [kops3]
  after_results_simp <;> rfl

theorem h3_v40 : after kops3 U (Proc.devRef .tc main_call0_v40)
    = ((shapeCast _ (extractStridedSlice S32768x256 ![32767, 0] ((fun x i u => Host.scatter scatter_S131071x256_S1_S32768x256_01_n_0_0 (fun _ b => b) x i u) (U (Proc.devRef .tc main_call0_v17) : FVec Ideal S131071x256 .f32) (broadcastInDim S1 ![] bcast_S_S1 (constantI S_ 32 32767#32)) (U (Proc.devRef .tc main_call0_v30_0) : FVec Ideal S32768x256 .f32)) slices_S131071x256_S32768x256_32767_0) shapeCasts_S32768x256_S16384x2x256) : FVec Ideal S16384x2x256 .f32) := by
  dsimp only [kops3]
  after_results_simp <;> rfl

theorem h3_keep_v7 : after kops3 U (Proc.devRef .tc main_call0_v7) = U (Proc.devRef .tc main_call0_v7) := by
  dsimp only [kops3]
  after_results_simp

theorem h3_keep_v8 : after kops3 U (Proc.devRef .tc main_call0_v8) = U (Proc.devRef .tc main_call0_v8) := by
  dsimp only [kops3]
  after_results_simp

theorem h3_keep_v20 : after kops3 U (Proc.devRef .tc main_call0_v20) = U (Proc.devRef .tc main_call0_v20) := by
  dsimp only [kops3]
  after_results_simp

theorem h3_keep_v21 : after kops3 U (Proc.devRef .tc main_call0_v21) = U (Proc.devRef .tc main_call0_v21) := by
  dsimp only [kops3]
  after_results_simp

theorem h3_keep_v22 : after kops3 U (Proc.devRef .tc main_call0_v22) = U (Proc.devRef .tc main_call0_v22) := by
  dsimp only [kops3]
  after_results_simp

theorem h3_keep_v23 : after kops3 U (Proc.devRef .tc main_call0_v23) = U (Proc.devRef .tc main_call0_v23) := by
  dsimp only [kops3]
  after_results_simp

theorem h3_keep_arg4 : after kops3 U (Proc.devRef .tc main_arg4) = U (Proc.devRef .tc main_arg4) := by
  dsimp only [kops3]
  after_results_simp

theorem h3_keep_arg8 : after kops3 U (Proc.devRef .tc main_arg8) = U (Proc.devRef .tc main_arg8) := by
  dsimp only [kops3]
  after_results_simp

/-! ## Stretch 4 -/

theorem h4_v43 : after kops4 U (Proc.devRef .tc main_call0_v43)
    = (((fun x i u => Host.scatter scatter_S131071x256_S1_S16384x256_01_n_0_0 (fun _ b => b) x i u) (U (Proc.devRef .tc main_call0_v32) : FVec Ideal S131071x256 .f32) (broadcastInDim S1 ![] bcast_S_S1 (constantI S_ 32 16383#32)) (U (Proc.devRef .tc main_call0_v41_0) : FVec Ideal S16384x256 .f32)) : FVec Ideal S131071x256 .f32) := by
  dsimp only [kops4]
  after_results_simp <;> rfl

theorem h4_v45 : after kops4 U (Proc.devRef .tc main_call0_v45)
    = (((fun x i u => Host.scatter scatter_S131071x256_S1_S16384x256_01_n_0_0 (fun _ b => b) x i u) (U (Proc.devRef .tc main_call0_v34) : FVec Ideal S131071x256 .f32) (broadcastInDim S1 ![] bcast_S_S1 (constantI S_ 32 16383#32)) (U (Proc.devRef .tc main_call0_v41_1) : FVec Ideal S16384x256 .f32)) : FVec Ideal S131071x256 .f32) := by
  dsimp only [kops4]
  after_results_simp <;> rfl

theorem h4_v46 : after kops4 U (Proc.devRef .tc main_call0_v46)
    = ((extractStridedSlice S8192x768 ![8191, 0] (U (Proc.devRef .tc main_call0_v7) : FVec Ideal S65535x768 .f32) slices_S65535x768_S8192x768_8191_0) : FVec Ideal S8192x768 .f32) := by
  dsimp only [kops4]
  after_results_simp <;> rfl

theorem h4_v47 : after kops4 U (Proc.devRef .tc main_call0_v47)
    = ((extractStridedSlice S8192x256 ![8191, 0] (U (Proc.devRef .tc main_call0_v8) : FVec Ideal S65535x256 .f32) slices_S65535x256_S8192x256_8191_0) : FVec Ideal S8192x256 .f32) := by
  dsimp only [kops4]
  after_results_simp <;> rfl

theorem h4_v49 : after kops4 U (Proc.devRef .tc main_call0_v49)
    = ((shapeCast _ (extractStridedSlice S16384x256 ![16383, 0] ((fun x i u => Host.scatter scatter_S131071x256_S1_S16384x256_01_n_0_0 (fun _ b => b) x i u) (U (Proc.devRef .tc main_call0_v34) : FVec Ideal S131071x256 .f32) (broadcastInDim S1 ![] bcast_S_S1 (constantI S_ 32 16383#32)) (U (Proc.devRef .tc main_call0_v41_1) : FVec Ideal S16384x256 .f32)) slices_S131071x256_S16384x256_16383_0) shapeCasts_S16384x256_S8192x2x256) : FVec Ideal S8192x2x256 .f32) := by
  dsimp only [kops4]
  after_results_simp <;> rfl

theorem h4_v51 : after kops4 U (Proc.devRef .tc main_call0_v51)
    = ((shapeCast _ (extractStridedSlice S16384x256 ![16383, 0] ((fun x i u => Host.scatter scatter_S131071x256_S1_S16384x256_01_n_0_0 (fun _ b => b) x i u) (U (Proc.devRef .tc main_call0_v32) : FVec Ideal S131071x256 .f32) (broadcastInDim S1 ![] bcast_S_S1 (constantI S_ 32 16383#32)) (U (Proc.devRef .tc main_call0_v41_0) : FVec Ideal S16384x256 .f32)) slices_S131071x256_S16384x256_16383_0) shapeCasts_S16384x256_S8192x2x256) : FVec Ideal S8192x2x256 .f32) := by
  dsimp only [kops4]
  after_results_simp <;> rfl

theorem h4_keep_v7 : after kops4 U (Proc.devRef .tc main_call0_v7) = U (Proc.devRef .tc main_call0_v7) := by
  dsimp only [kops4]
  after_results_simp

theorem h4_keep_v8 : after kops4 U (Proc.devRef .tc main_call0_v8) = U (Proc.devRef .tc main_call0_v8) := by
  dsimp only [kops4]
  after_results_simp

theorem h4_keep_v20 : after kops4 U (Proc.devRef .tc main_call0_v20) = U (Proc.devRef .tc main_call0_v20) := by
  dsimp only [kops4]
  after_results_simp

theorem h4_keep_v21 : after kops4 U (Proc.devRef .tc main_call0_v21) = U (Proc.devRef .tc main_call0_v21) := by
  dsimp only [kops4]
  after_results_simp

theorem h4_keep_v22 : after kops4 U (Proc.devRef .tc main_call0_v22) = U (Proc.devRef .tc main_call0_v22) := by
  dsimp only [kops4]
  after_results_simp

theorem h4_keep_v23 : after kops4 U (Proc.devRef .tc main_call0_v23) = U (Proc.devRef .tc main_call0_v23) := by
  dsimp only [kops4]
  after_results_simp

theorem h4_keep_arg4 : after kops4 U (Proc.devRef .tc main_arg4) = U (Proc.devRef .tc main_arg4) := by
  dsimp only [kops4]
  after_results_simp

theorem h4_keep_arg8 : after kops4 U (Proc.devRef .tc main_arg8) = U (Proc.devRef .tc main_arg8) := by
  dsimp only [kops4]
  after_results_simp

/-! ## Stretch 5 -/

theorem h5_v54 : after kops5 U (Proc.devRef .tc main_call0_v54)
    = (((fun x i u => Host.scatter scatter_S131071x256_S1_S8192x256_01_n_0_0 (fun _ b => b) x i u) (U (Proc.devRef .tc main_call0_v43) : FVec Ideal S131071x256 .f32) (broadcastInDim S1 ![] bcast_S_S1 (constantI S_ 32 8191#32)) (U (Proc.devRef .tc main_call0_v52_0) : FVec Ideal S8192x256 .f32)) : FVec Ideal S131071x256 .f32) := by
  dsimp only [kops5]
  after_results_simp <;> rfl

theorem h5_v56 : after kops5 U (Proc.devRef .tc main_call0_v56)
    = (((fun x i u => Host.scatter scatter_S131071x256_S1_S8192x256_01_n_0_0 (fun _ b => b) x i u) (U (Proc.devRef .tc main_call0_v45) : FVec Ideal S131071x256 .f32) (broadcastInDim S1 ![] bcast_S_S1 (constantI S_ 32 8191#32)) (U (Proc.devRef .tc main_call0_v52_1) : FVec Ideal S8192x256 .f32)) : FVec Ideal S131071x256 .f32) := by
  dsimp only [kops5]
  after_results_simp <;> rfl

theorem h5_v57 : after kops5 U (Proc.devRef .tc main_call0_v57)
    = ((extractStridedSlice S4096x768 ![4095, 0] (U (Proc.devRef .tc main_call0_v7) : FVec Ideal S65535x768 .f32) slices_S65535x768_S4096x768_4095_0) : FVec Ideal S4096x768 .f32) := by
  dsimp only [kops5]
  after_results_simp <;> rfl

theorem h5_v58 : after kops5 U (Proc.devRef .tc main_call0_v58)
    = ((extractStridedSlice S4096x256 ![4095, 0] (U (Proc.devRef .tc main_call0_v8) : FVec Ideal S65535x256 .f32) slices_S65535x256_S4096x256_4095_0) : FVec Ideal S4096x256 .f32) := by
  dsimp only [kops5]
  after_results_simp <;> rfl

theorem h5_v60 : after kops5 U (Proc.devRef .tc main_call0_v60)
    = ((shapeCast _ (extractStridedSlice S8192x256 ![8191, 0] ((fun x i u => Host.scatter scatter_S131071x256_S1_S8192x256_01_n_0_0 (fun _ b => b) x i u) (U (Proc.devRef .tc main_call0_v45) : FVec Ideal S131071x256 .f32) (broadcastInDim S1 ![] bcast_S_S1 (constantI S_ 32 8191#32)) (U (Proc.devRef .tc main_call0_v52_1) : FVec Ideal S8192x256 .f32)) slices_S131071x256_S8192x256_8191_0) shapeCasts_S8192x256_S4096x2x256) : FVec Ideal S4096x2x256 .f32) := by
  dsimp only [kops5]
  after_results_simp <;> rfl

theorem h5_v62 : after kops5 U (Proc.devRef .tc main_call0_v62)
    = ((shapeCast _ (extractStridedSlice S8192x256 ![8191, 0] ((fun x i u => Host.scatter scatter_S131071x256_S1_S8192x256_01_n_0_0 (fun _ b => b) x i u) (U (Proc.devRef .tc main_call0_v43) : FVec Ideal S131071x256 .f32) (broadcastInDim S1 ![] bcast_S_S1 (constantI S_ 32 8191#32)) (U (Proc.devRef .tc main_call0_v52_0) : FVec Ideal S8192x256 .f32)) slices_S131071x256_S8192x256_8191_0) shapeCasts_S8192x256_S4096x2x256) : FVec Ideal S4096x2x256 .f32) := by
  dsimp only [kops5]
  after_results_simp <;> rfl

theorem h5_keep_v7 : after kops5 U (Proc.devRef .tc main_call0_v7) = U (Proc.devRef .tc main_call0_v7) := by
  dsimp only [kops5]
  after_results_simp

theorem h5_keep_v8 : after kops5 U (Proc.devRef .tc main_call0_v8) = U (Proc.devRef .tc main_call0_v8) := by
  dsimp only [kops5]
  after_results_simp

theorem h5_keep_v20 : after kops5 U (Proc.devRef .tc main_call0_v20) = U (Proc.devRef .tc main_call0_v20) := by
  dsimp only [kops5]
  after_results_simp

theorem h5_keep_v21 : after kops5 U (Proc.devRef .tc main_call0_v21) = U (Proc.devRef .tc main_call0_v21) := by
  dsimp only [kops5]
  after_results_simp

theorem h5_keep_v22 : after kops5 U (Proc.devRef .tc main_call0_v22) = U (Proc.devRef .tc main_call0_v22) := by
  dsimp only [kops5]
  after_results_simp

theorem h5_keep_v23 : after kops5 U (Proc.devRef .tc main_call0_v23) = U (Proc.devRef .tc main_call0_v23) := by
  dsimp only [kops5]
  after_results_simp

theorem h5_keep_arg4 : after kops5 U (Proc.devRef .tc main_arg4) = U (Proc.devRef .tc main_arg4) := by
  dsimp only [kops5]
  after_results_simp

theorem h5_keep_arg8 : after kops5 U (Proc.devRef .tc main_arg8) = U (Proc.devRef .tc main_arg8) := by
  dsimp only [kops5]
  after_results_simp

/-! ## Stretch 6 -/

theorem h6_v65 : after kops6 U (Proc.devRef .tc main_call0_v65)
    = (((fun x i u => Host.scatter scatter_S131071x256_S1_S4096x256_01_n_0_0 (fun _ b => b) x i u) (U (Proc.devRef .tc main_call0_v54) : FVec Ideal S131071x256 .f32) (broadcastInDim S1 ![] bcast_S_S1 (constantI S_ 32 4095#32)) (U (Proc.devRef .tc main_call0_v63_0) : FVec Ideal S4096x256 .f32)) : FVec Ideal S131071x256 .f32) := by
  dsimp only [kops6]
  after_results_simp <;> rfl

theorem h6_v67 : after kops6 U (Proc.devRef .tc main_call0_v67)
    = (((fun x i u => Host.scatter scatter_S131071x256_S1_S4096x256_01_n_0_0 (fun _ b => b) x i u) (U (Proc.devRef .tc main_call0_v56) : FVec Ideal S131071x256 .f32) (broadcastInDim S1 ![] bcast_S_S1 (constantI S_ 32 4095#32)) (U (Proc.devRef .tc main_call0_v63_1) : FVec Ideal S4096x256 .f32)) : FVec Ideal S131071x256 .f32) := by
  dsimp only [kops6]
  after_results_simp <;> rfl

theorem h6_v68 : after kops6 U (Proc.devRef .tc main_call0_v68)
    = ((extractStridedSlice S2048x768 ![2047, 0] (U (Proc.devRef .tc main_call0_v7) : FVec Ideal S65535x768 .f32) slices_S65535x768_S2048x768_2047_0) : FVec Ideal S2048x768 .f32) := by
  dsimp only [kops6]
  after_results_simp <;> rfl

theorem h6_v69 : after kops6 U (Proc.devRef .tc main_call0_v69)
    = ((extractStridedSlice S2048x256 ![2047, 0] (U (Proc.devRef .tc main_call0_v8) : FVec Ideal S65535x256 .f32) slices_S65535x256_S2048x256_2047_0) : FVec Ideal S2048x256 .f32) := by
  dsimp only [kops6]
  after_results_simp <;> rfl

theorem h6_v71 : after kops6 U (Proc.devRef .tc main_call0_v71)
    = ((shapeCast _ (extractStridedSlice S4096x256 ![4095, 0] ((fun x i u => Host.scatter scatter_S131071x256_S1_S4096x256_01_n_0_0 (fun _ b => b) x i u) (U (Proc.devRef .tc main_call0_v56) : FVec Ideal S131071x256 .f32) (broadcastInDim S1 ![] bcast_S_S1 (constantI S_ 32 4095#32)) (U (Proc.devRef .tc main_call0_v63_1) : FVec Ideal S4096x256 .f32)) slices_S131071x256_S4096x256_4095_0) shapeCasts_S4096x256_S2048x2x256) : FVec Ideal S2048x2x256 .f32) := by
  dsimp only [kops6]
  after_results_simp <;> rfl

theorem h6_v73 : after kops6 U (Proc.devRef .tc main_call0_v73)
    = ((shapeCast _ (extractStridedSlice S4096x256 ![4095, 0] ((fun x i u => Host.scatter scatter_S131071x256_S1_S4096x256_01_n_0_0 (fun _ b => b) x i u) (U (Proc.devRef .tc main_call0_v54) : FVec Ideal S131071x256 .f32) (broadcastInDim S1 ![] bcast_S_S1 (constantI S_ 32 4095#32)) (U (Proc.devRef .tc main_call0_v63_0) : FVec Ideal S4096x256 .f32)) slices_S131071x256_S4096x256_4095_0) shapeCasts_S4096x256_S2048x2x256) : FVec Ideal S2048x2x256 .f32) := by
  dsimp only [kops6]
  after_results_simp <;> rfl

theorem h6_keep_v7 : after kops6 U (Proc.devRef .tc main_call0_v7) = U (Proc.devRef .tc main_call0_v7) := by
  dsimp only [kops6]
  after_results_simp

theorem h6_keep_v8 : after kops6 U (Proc.devRef .tc main_call0_v8) = U (Proc.devRef .tc main_call0_v8) := by
  dsimp only [kops6]
  after_results_simp

theorem h6_keep_v20 : after kops6 U (Proc.devRef .tc main_call0_v20) = U (Proc.devRef .tc main_call0_v20) := by
  dsimp only [kops6]
  after_results_simp

theorem h6_keep_v21 : after kops6 U (Proc.devRef .tc main_call0_v21) = U (Proc.devRef .tc main_call0_v21) := by
  dsimp only [kops6]
  after_results_simp

theorem h6_keep_v22 : after kops6 U (Proc.devRef .tc main_call0_v22) = U (Proc.devRef .tc main_call0_v22) := by
  dsimp only [kops6]
  after_results_simp

theorem h6_keep_v23 : after kops6 U (Proc.devRef .tc main_call0_v23) = U (Proc.devRef .tc main_call0_v23) := by
  dsimp only [kops6]
  after_results_simp

theorem h6_keep_arg4 : after kops6 U (Proc.devRef .tc main_arg4) = U (Proc.devRef .tc main_arg4) := by
  dsimp only [kops6]
  after_results_simp

theorem h6_keep_arg8 : after kops6 U (Proc.devRef .tc main_arg8) = U (Proc.devRef .tc main_arg8) := by
  dsimp only [kops6]
  after_results_simp

/-! ## Stretch 7 -/

theorem h7_v76 : after kops7 U (Proc.devRef .tc main_call0_v76)
    = (((fun x i u => Host.scatter scatter_S131071x256_S1_S2048x256_01_n_0_0 (fun _ b => b) x i u) (U (Proc.devRef .tc main_call0_v65) : FVec Ideal S131071x256 .f32) (broadcastInDim S1 ![] bcast_S_S1 (constantI S_ 32 2047#32)) (U (Proc.devRef .tc main_call0_v74_0) : FVec Ideal S2048x256 .f32)) : FVec Ideal S131071x256 .f32) := by
  dsimp only [kops7]
  after_results_simp <;> rfl

theorem h7_v78 : after kops7 U (Proc.devRef .tc main_call0_v78)
    = (((fun x i u => Host.scatter scatter_S131071x256_S1_S2048x256_01_n_0_0 (fun _ b => b) x i u) (U (Proc.devRef .tc main_call0_v67) : FVec Ideal S131071x256 .f32) (broadcastInDim S1 ![] bcast_S_S1 (constantI S_ 32 2047#32)) (U (Proc.devRef .tc main_call0_v74_1) : FVec Ideal S2048x256 .f32)) : FVec Ideal S131071x256 .f32) := by
  dsimp only [kops7]
  after_results_simp <;> rfl

theorem h7_v79 : after kops7 U (Proc.devRef .tc main_call0_v79)
    = ((extractStridedSlice S1024x768 ![1023, 0] (U (Proc.devRef .tc main_call0_v7) : FVec Ideal S65535x768 .f32) slices_S65535x768_S1024x768_1023_0) : FVec Ideal S1024x768 .f32) := by
  dsimp only [kops7]
  after_results_simp <;> rfl

theorem h7_v80 : after kops7 U (Proc.devRef .tc main_call0_v80)
    = ((extractStridedSlice S1024x256 ![1023, 0] (U (Proc.devRef .tc main_call0_v8) : FVec Ideal S65535x256 .f32) slices_S65535x256_S1024x256_1023_0) : FVec Ideal S1024x256 .f32) := by
  dsimp only [kops7]
  after_results_simp <;> rfl

theorem h7_v82 : after kops7 U (Proc.devRef .tc main_call0_v82)
    = ((shapeCast _ (extractStridedSlice S2048x256 ![2047, 0] ((fun x i u => Host.scatter scatter_S131071x256_S1_S2048x256_01_n_0_0 (fun _ b => b) x i u) (U (Proc.devRef .tc main_call0_v67) : FVec Ideal S131071x256 .f32) (broadcastInDim S1 ![] bcast_S_S1 (constantI S_ 32 2047#32)) (U (Proc.devRef .tc main_call0_v74_1) : FVec Ideal S2048x256 .f32)) slices_S131071x256_S2048x256_2047_0) shapeCasts_S2048x256_S1024x2x256) : FVec Ideal S1024x2x256 .f32) := by
  dsimp only [kops7]
  after_results_simp <;> rfl

theorem h7_v84 : after kops7 U (Proc.devRef .tc main_call0_v84)
    = ((shapeCast _ (extractStridedSlice S2048x256 ![2047, 0] ((fun x i u => Host.scatter scatter_S131071x256_S1_S2048x256_01_n_0_0 (fun _ b => b) x i u) (U (Proc.devRef .tc main_call0_v65) : FVec Ideal S131071x256 .f32) (broadcastInDim S1 ![] bcast_S_S1 (constantI S_ 32 2047#32)) (U (Proc.devRef .tc main_call0_v74_0) : FVec Ideal S2048x256 .f32)) slices_S131071x256_S2048x256_2047_0) shapeCasts_S2048x256_S1024x2x256) : FVec Ideal S1024x2x256 .f32) := by
  dsimp only [kops7]
  after_results_simp <;> rfl

theorem h7_keep_v7 : after kops7 U (Proc.devRef .tc main_call0_v7) = U (Proc.devRef .tc main_call0_v7) := by
  dsimp only [kops7]
  after_results_simp

theorem h7_keep_v8 : after kops7 U (Proc.devRef .tc main_call0_v8) = U (Proc.devRef .tc main_call0_v8) := by
  dsimp only [kops7]
  after_results_simp

theorem h7_keep_v20 : after kops7 U (Proc.devRef .tc main_call0_v20) = U (Proc.devRef .tc main_call0_v20) := by
  dsimp only [kops7]
  after_results_simp

theorem h7_keep_v21 : after kops7 U (Proc.devRef .tc main_call0_v21) = U (Proc.devRef .tc main_call0_v21) := by
  dsimp only [kops7]
  after_results_simp

theorem h7_keep_v22 : after kops7 U (Proc.devRef .tc main_call0_v22) = U (Proc.devRef .tc main_call0_v22) := by
  dsimp only [kops7]
  after_results_simp

theorem h7_keep_v23 : after kops7 U (Proc.devRef .tc main_call0_v23) = U (Proc.devRef .tc main_call0_v23) := by
  dsimp only [kops7]
  after_results_simp

theorem h7_keep_arg4 : after kops7 U (Proc.devRef .tc main_arg4) = U (Proc.devRef .tc main_arg4) := by
  dsimp only [kops7]
  after_results_simp

theorem h7_keep_arg8 : after kops7 U (Proc.devRef .tc main_arg8) = U (Proc.devRef .tc main_arg8) := by
  dsimp only [kops7]
  after_results_simp

/-! ## Stretch 8 -/

theorem h8pre_v87 : after kpre8 U (Proc.devRef .tc main_call0_v87)
    = (((fun x i u => Host.scatter scatter_S131071x256_S1_S1024x256_01_n_0_0 (fun _ b => b) x i u) (U (Proc.devRef .tc main_call0_v76) : FVec Ideal S131071x256 .f32) (broadcastInDim S1 ![] bcast_S_S1 (constantI S_ 32 1023#32)) (U (Proc.devRef .tc main_call0_v85_0) : FVec Ideal S1024x256 .f32)) : FVec Ideal S131071x256 .f32) := by
  dsimp only [kpre8]
  after_results_simp <;> rfl

theorem h8pre_v89 : after kpre8 U (Proc.devRef .tc main_call0_v89)
    = (((fun x i u => Host.scatter scatter_S131071x256_S1_S1024x256_01_n_0_0 (fun _ b => b) x i u) (U (Proc.devRef .tc main_call0_v78) : FVec Ideal S131071x256 .f32) (broadcastInDim S1 ![] bcast_S_S1 (constantI S_ 32 1023#32)) (U (Proc.devRef .tc main_call0_v85_1) : FVec Ideal S1024x256 .f32)) : FVec Ideal S131071x256 .f32) := by
  dsimp only [kpre8]
  after_results_simp <;> rfl

theorem h8pre_keep_v7 : after kpre8 U (Proc.devRef .tc main_call0_v7) = U (Proc.devRef .tc main_call0_v7) := by
  dsimp only [kpre8]
  after_results_simp

theorem h8pre_keep_v8 : after kpre8 U (Proc.devRef .tc main_call0_v8) = U (Proc.devRef .tc main_call0_v8) := by
  dsimp only [kpre8]
  after_results_simp

theorem h8pre_keep_v20 : after kpre8 U (Proc.devRef .tc main_call0_v20) = U (Proc.devRef .tc main_call0_v20) := by
  dsimp only [kpre8]
  after_results_simp

theorem h8pre_keep_v21 : after kpre8 U (Proc.devRef .tc main_call0_v21) = U (Proc.devRef .tc main_call0_v21) := by
  dsimp only [kpre8]
  after_results_simp

theorem h8pre_keep_arg4 : after kpre8 U (Proc.devRef .tc main_arg4) = U (Proc.devRef .tc main_arg4) := by
  dsimp only [kpre8]
  after_results_simp

theorem h8pre_keep_arg8 : after kpre8 U (Proc.devRef .tc main_arg8) = U (Proc.devRef .tc main_arg8) := by
  dsimp only [kpre8]
  after_results_simp

theorem klev9_C : after klev9 U (Proc.devRef .tc main_call0_v156) = Host.scatter scatter_S131071x256_S1_S512x256_01_n_0_0 (fun _ b => b) (U (Proc.devRef .tc main_call0_v87))
    (broadcastInDim S1 ![] bcast_S_S1 (constantI S_ 32 511#32))
    (rowsLevelC (N := 512) (extractStridedSlice S512x768 ![511, 0] (U (Proc.devRef .tc main_call0_v7)) slices_S65535x768_S512x768_511_0)
      (extractStridedSlice S512x256 ![511, 0] (U (Proc.devRef .tc main_call0_v8)) slices_S65535x256_S512x256_511_0)
      (shapeCast _ (extractStridedSlice S1024x256 ![1023, 0] (U (Proc.devRef .tc main_call0_v89)) slices_S131071x256_S1024x256_1023_0) shapeCasts_S1024x256_S512x2x256)
      (shapeCast _ (extractStridedSlice S1024x256 ![1023, 0] (U (Proc.devRef .tc main_call0_v87)) slices_S131071x256_S1024x256_1023_0) shapeCasts_S1024x256_S512x2x256)
      (broadcastInDim S512x768 ![0, 1] bcast_S1x768_S512x768_0_1 (broadcastInDim S1x768 ![1] bcast_S768_S1x768_1 (U (Proc.devRef .tc main_arg4))))
      (broadcastInDim S512x256 ![0, 1] bcast_S1x256_S512x256_0_1 (broadcastInDim S1x256 ![1] bcast_S256_S1x256_1 (U (Proc.devRef .tc main_arg8))))
      (broadcastInDim S512x256 ![0, 1] bcast_S1x256_S512x256_0_1 (broadcastInDim S1x256 ![1] bcast_S256_S1x256_1 (U (Proc.devRef .tc main_arg8))))
      dot_S512x256_S256x768_S512x768_1_0_0_1_n_n bcast_S_S512x256 slices_S512x768_S512x256_0_0 slices_S512x768_S512x256_0_512
      (U (Proc.devRef .tc main_call0_v20)) (U (Proc.devRef .tc main_call0_v21)) slices_S512x2x256_S512x1x256_0_0_0 slices_S512x2x256_S512x1x256_0_1_0 shapeCasts_S512x1x256_S512x256 dot_S512x256_S256x256_S512x256_1_0_0_1_n_n) := by
  dsimp only [klev9]
  after_results_simp <;> rfl

theorem klev9_H : after klev9 U (Proc.devRef .tc main_call0_v158) = Host.scatter scatter_S131071x256_S1_S512x256_01_n_0_0 (fun _ b => b) (U (Proc.devRef .tc main_call0_v89))
    (broadcastInDim S1 ![] bcast_S_S1 (constantI S_ 32 511#32))
    (rowsLevelH (N := 512) (extractStridedSlice S512x768 ![511, 0] (U (Proc.devRef .tc main_call0_v7)) slices_S65535x768_S512x768_511_0)
      (extractStridedSlice S512x256 ![511, 0] (U (Proc.devRef .tc main_call0_v8)) slices_S65535x256_S512x256_511_0)
      (shapeCast _ (extractStridedSlice S1024x256 ![1023, 0] (U (Proc.devRef .tc main_call0_v89)) slices_S131071x256_S1024x256_1023_0) shapeCasts_S1024x256_S512x2x256)
      (shapeCast _ (extractStridedSlice S1024x256 ![1023, 0] (U (Proc.devRef .tc main_call0_v87)) slices_S131071x256_S1024x256_1023_0) shapeCasts_S1024x256_S512x2x256)
      (broadcastInDim S512x768 ![0, 1] bcast_S1x768_S512x768_0_1 (broadcastInDim S1x768 ![1] bcast_S768_S1x768_1 (U (Proc.devRef .tc main_arg4))))
      (broadcastInDim S512x256 ![0, 1] bcast_S1x256_S512x256_0_1 (broadcastInDim S1x256 ![1] bcast_S256_S1x256_1 (U (Proc.devRef .tc main_arg8))))
      (broadcastInDim S512x256 ![0, 1] bcast_S1x256_S512x256_0_1 (broadcastInDim S1x256 ![1] bcast_S256_S1x256_1 (U (Proc.devRef .tc main_arg8))))
      dot_S512x256_S256x768_S512x768_1_0_0_1_n_n bcast_S_S512x256 slices_S512x768_S512x256_0_0 slices_S512x768_S512x256_0_256 slices_S512x768_S512x256_0_512
      (U (Proc.devRef .tc main_call0_v20)) (U (Proc.devRef .tc main_call0_v21)) slices_S512x2x256_S512x1x256_0_0_0 slices_S512x2x256_S512x1x256_0_1_0 shapeCasts_S512x1x256_S512x256 dot_S512x256_S256x256_S512x256_1_0_0_1_n_n) := by
  dsimp only [klev9]
  after_results_simp <;> rfl

theorem klev9_keep_v7 : after klev9 U (Proc.devRef .tc main_call0_v7) = U (Proc.devRef .tc main_call0_v7) := by
  dsimp only [klev9]
  after_results_simp

theorem klev9_keep_v8 : after klev9 U (Proc.devRef .tc main_call0_v8) = U (Proc.devRef .tc main_call0_v8) := by
  dsimp only [klev9]
  after_results_simp

theorem klev9_keep_v20 : after klev9 U (Proc.devRef .tc main_call0_v20) = U (Proc.devRef .tc main_call0_v20) := by
  dsimp only [klev9]
  after_results_simp

theorem klev9_keep_v21 : after klev9 U (Proc.devRef .tc main_call0_v21) = U (Proc.devRef .tc main_call0_v21) := by
  dsimp only [klev9]
  after_results_simp

theorem klev9_keep_arg4 : after klev9 U (Proc.devRef .tc main_arg4) = U (Proc.devRef .tc main_arg4) := by
  dsimp only [klev9]
  after_results_simp

theorem klev9_keep_arg8 : after klev9 U (Proc.devRef .tc main_arg8) = U (Proc.devRef .tc main_arg8) := by
  dsimp only [klev9]
  after_results_simp

theorem klev8_C : after klev8 U (Proc.devRef .tc main_call0_v225) = Host.scatter scatter_S131071x256_S1_S256x256_01_n_0_0 (fun _ b => b) (U (Proc.devRef .tc main_call0_v156))
    (broadcastInDim S1 ![] bcast_S_S1 (constantI S_ 32 255#32))
    (rowsLevelC (N := 256) (extractStridedSlice S256x768 ![255, 0] (U (Proc.devRef .tc main_call0_v7)) slices_S65535x768_S256x768_255_0)
      (extractStridedSlice S256x256 ![255, 0] (U (Proc.devRef .tc main_call0_v8)) slices_S65535x256_S256x256_255_0)
      (shapeCast _ (extractStridedSlice S512x256 ![511, 0] (U (Proc.devRef .tc main_call0_v158)) slices_S131071x256_S512x256_511_0) shapeCasts_S512x256_S256x2x256)
      (shapeCast _ (extractStridedSlice S512x256 ![511, 0] (U (Proc.devRef .tc main_call0_v156)) slices_S131071x256_S512x256_511_0) shapeCasts_S512x256_S256x2x256)
      (broadcastInDim S256x768 ![0, 1] bcast_S1x768_S256x768_0_1 (broadcastInDim S1x768 ![1] bcast_S768_S1x768_1 (U (Proc.devRef .tc main_arg4))))
      (broadcastInDim S256x256 ![0, 1] bcast_S1x256_S256x256_0_1 (broadcastInDim S1x256 ![1] bcast_S256_S1x256_1 (U (Proc.devRef .tc main_arg8))))
      (broadcastInDim S256x256 ![0, 1] bcast_S1x256_S256x256_0_1 (broadcastInDim S1x256 ![1] bcast_S256_S1x256_1 (U (Proc.devRef .tc main_arg8))))
      dot_S256x256_S256x768_S256x768_1_0_0_1_n_n bcast_S_S256x256 slices_S256x768_S256x256_0_0 slices_S256x768_S256x256_0_512
      (U (Proc.devRef .tc main_call0_v20)) (U (Proc.devRef .tc main_call0_v21)) slices_S256x2x256_S256x1x256_0_0_0 slices_S256x2x256_S256x1x256_0_1_0 shapeCasts_S256x1x256_S256x256 dot_S256x256_S256x256_S256x256_1_0_0_1_n_n) := by
  dsimp only [klev8]
  after_results_simp <;> rfl

theorem klev8_H : after klev8 U (Proc.devRef .tc main_call0_v227) = Host.scatter scatter_S131071x256_S1_S256x256_01_n_0_0 (fun _ b => b) (U (Proc.devRef .tc main_call0_v158))
    (broadcastInDim S1 ![] bcast_S_S1 (constantI S_ 32 255#32))
    (rowsLevelH (N := 256) (extractStridedSlice S256x768 ![255, 0] (U (Proc.devRef .tc main_call0_v7)) slices_S65535x768_S256x768_255_0)
      (extractStridedSlice S256x256 ![255, 0] (U (Proc.devRef .tc main_call0_v8)) slices_S65535x256_S256x256_255_0)
      (shapeCast _ (extractStridedSlice S512x256 ![511, 0] (U (Proc.devRef .tc main_call0_v158)) slices_S131071x256_S512x256_511_0) shapeCasts_S512x256_S256x2x256)
      (shapeCast _ (extractStridedSlice S512x256 ![511, 0] (U (Proc.devRef .tc main_call0_v156)) slices_S131071x256_S512x256_511_0) shapeCasts_S512x256_S256x2x256)
      (broadcastInDim S256x768 ![0, 1] bcast_S1x768_S256x768_0_1 (broadcastInDim S1x768 ![1] bcast_S768_S1x768_1 (U (Proc.devRef .tc main_arg4))))
      (broadcastInDim S256x256 ![0, 1] bcast_S1x256_S256x256_0_1 (broadcastInDim S1x256 ![1] bcast_S256_S1x256_1 (U (Proc.devRef .tc main_arg8))))
      (broadcastInDim S256x256 ![0, 1] bcast_S1x256_S256x256_0_1 (broadcastInDim S1x256 ![1] bcast_S256_S1x256_1 (U (Proc.devRef .tc main_arg8))))
      dot_S256x256_S256x768_S256x768_1_0_0_1_n_n bcast_S_S256x256 slices_S256x768_S256x256_0_0 slices_S256x768_S256x256_0_256 slices_S256x768_S256x256_0_512
      (U (Proc.devRef .tc main_call0_v20)) (U (Proc.devRef .tc main_call0_v21)) slices_S256x2x256_S256x1x256_0_0_0 slices_S256x2x256_S256x1x256_0_1_0 shapeCasts_S256x1x256_S256x256 dot_S256x256_S256x256_S256x256_1_0_0_1_n_n) := by
  dsimp only [klev8]
  after_results_simp <;> rfl

theorem klev8_keep_v7 : after klev8 U (Proc.devRef .tc main_call0_v7) = U (Proc.devRef .tc main_call0_v7) := by
  dsimp only [klev8]
  after_results_simp

theorem klev8_keep_v8 : after klev8 U (Proc.devRef .tc main_call0_v8) = U (Proc.devRef .tc main_call0_v8) := by
  dsimp only [klev8]
  after_results_simp

theorem klev8_keep_v20 : after klev8 U (Proc.devRef .tc main_call0_v20) = U (Proc.devRef .tc main_call0_v20) := by
  dsimp only [klev8]
  after_results_simp

theorem klev8_keep_v21 : after klev8 U (Proc.devRef .tc main_call0_v21) = U (Proc.devRef .tc main_call0_v21) := by
  dsimp only [klev8]
  after_results_simp

theorem klev8_keep_arg4 : after klev8 U (Proc.devRef .tc main_arg4) = U (Proc.devRef .tc main_arg4) := by
  dsimp only [klev8]
  after_results_simp

theorem klev8_keep_arg8 : after klev8 U (Proc.devRef .tc main_arg8) = U (Proc.devRef .tc main_arg8) := by
  dsimp only [klev8]
  after_results_simp

theorem klev7_C : after klev7 U (Proc.devRef .tc main_call0_v294) = Host.scatter scatter_S131071x256_S1_S128x256_01_n_0_0 (fun _ b => b) (U (Proc.devRef .tc main_call0_v225))
    (broadcastInDim S1 ![] bcast_S_S1 (constantI S_ 32 127#32))
    (rowsLevelC (N := 128) (extractStridedSlice S128x768 ![127, 0] (U (Proc.devRef .tc main_call0_v7)) slices_S65535x768_S128x768_127_0)
      (extractStridedSlice S128x256 ![127, 0] (U (Proc.devRef .tc main_call0_v8)) slices_S65535x256_S128x256_127_0)
      (shapeCast _ (extractStridedSlice S256x256 ![255, 0] (U (Proc.devRef .tc main_call0_v227)) slices_S131071x256_S256x256_255_0) shapeCasts_S256x256_S128x2x256)
      (shapeCast _ (extractStridedSlice S256x256 ![255, 0] (U (Proc.devRef .tc main_call0_v225)) slices_S131071x256_S256x256_255_0) shapeCasts_S256x256_S128x2x256)
      (broadcastInDim S128x768 ![0, 1] bcast_S1x768_S128x768_0_1 (broadcastInDim S1x768 ![1] bcast_S768_S1x768_1 (U (Proc.devRef .tc main_arg4))))
      (broadcastInDim S128x256 ![0, 1] bcast_S1x256_S128x256_0_1 (broadcastInDim S1x256 ![1] bcast_S256_S1x256_1 (U (Proc.devRef .tc main_arg8))))
      (broadcastInDim S128x256 ![0, 1] bcast_S1x256_S128x256_0_1 (broadcastInDim S1x256 ![1] bcast_S256_S1x256_1 (U (Proc.devRef .tc main_arg8))))
      dot_S128x256_S256x768_S128x768_1_0_0_1_n_n bcast_S_S128x256 slices_S128x768_S128x256_0_0 slices_S128x768_S128x256_0_512
      (U (Proc.devRef .tc main_call0_v20)) (U (Proc.devRef .tc main_call0_v21)) slices_S128x2x256_S128x1x256_0_0_0 slices_S128x2x256_S128x1x256_0_1_0 shapeCasts_S128x1x256_S128x256 dot_S128x256_S256x256_S128x256_1_0_0_1_n_n) := by
  dsimp only [klev7]
  after_results_simp <;> rfl

theorem klev7_H : after klev7 U (Proc.devRef .tc main_call0_v296) = Host.scatter scatter_S131071x256_S1_S128x256_01_n_0_0 (fun _ b => b) (U (Proc.devRef .tc main_call0_v227))
    (broadcastInDim S1 ![] bcast_S_S1 (constantI S_ 32 127#32))
    (rowsLevelH (N := 128) (extractStridedSlice S128x768 ![127, 0] (U (Proc.devRef .tc main_call0_v7)) slices_S65535x768_S128x768_127_0)
      (extractStridedSlice S128x256 ![127, 0] (U (Proc.devRef .tc main_call0_v8)) slices_S65535x256_S128x256_127_0)
      (shapeCast _ (extractStridedSlice S256x256 ![255, 0] (U (Proc.devRef .tc main_call0_v227)) slices_S131071x256_S256x256_255_0) shapeCasts_S256x256_S128x2x256)
      (shapeCast _ (extractStridedSlice S256x256 ![255, 0] (U (Proc.devRef .tc main_call0_v225)) slices_S131071x256_S256x256_255_0) shapeCasts_S256x256_S128x2x256)
      (broadcastInDim S128x768 ![0, 1] bcast_S1x768_S128x768_0_1 (broadcastInDim S1x768 ![1] bcast_S768_S1x768_1 (U (Proc.devRef .tc main_arg4))))
      (broadcastInDim S128x256 ![0, 1] bcast_S1x256_S128x256_0_1 (broadcastInDim S1x256 ![1] bcast_S256_S1x256_1 (U (Proc.devRef .tc main_arg8))))
      (broadcastInDim S128x256 ![0, 1] bcast_S1x256_S128x256_0_1 (broadcastInDim S1x256 ![1] bcast_S256_S1x256_1 (U (Proc.devRef .tc main_arg8))))
      dot_S128x256_S256x768_S128x768_1_0_0_1_n_n bcast_S_S128x256 slices_S128x768_S128x256_0_0 slices_S128x768_S128x256_0_256 slices_S128x768_S128x256_0_512
      (U (Proc.devRef .tc main_call0_v20)) (U (Proc.devRef .tc main_call0_v21)) slices_S128x2x256_S128x1x256_0_0_0 slices_S128x2x256_S128x1x256_0_1_0 shapeCasts_S128x1x256_S128x256 dot_S128x256_S256x256_S128x256_1_0_0_1_n_n) := by
  dsimp only [klev7]
  after_results_simp <;> rfl

theorem klev7_keep_v7 : after klev7 U (Proc.devRef .tc main_call0_v7) = U (Proc.devRef .tc main_call0_v7) := by
  dsimp only [klev7]
  after_results_simp

theorem klev7_keep_v8 : after klev7 U (Proc.devRef .tc main_call0_v8) = U (Proc.devRef .tc main_call0_v8) := by
  dsimp only [klev7]
  after_results_simp

theorem klev7_keep_v20 : after klev7 U (Proc.devRef .tc main_call0_v20) = U (Proc.devRef .tc main_call0_v20) := by
  dsimp only [klev7]
  after_results_simp

theorem klev7_keep_v21 : after klev7 U (Proc.devRef .tc main_call0_v21) = U (Proc.devRef .tc main_call0_v21) := by
  dsimp only [klev7]
  after_results_simp

theorem klev7_keep_arg4 : after klev7 U (Proc.devRef .tc main_arg4) = U (Proc.devRef .tc main_arg4) := by
  dsimp only [klev7]
  after_results_simp

theorem klev7_keep_arg8 : after klev7 U (Proc.devRef .tc main_arg8) = U (Proc.devRef .tc main_arg8) := by
  dsimp only [klev7]
  after_results_simp

theorem klev6_C : after klev6 U (Proc.devRef .tc main_call0_v363) = Host.scatter scatter_S131071x256_S1_S64x256_01_n_0_0 (fun _ b => b) (U (Proc.devRef .tc main_call0_v294))
    (broadcastInDim S1 ![] bcast_S_S1 (constantI S_ 32 63#32))
    (rowsLevelC (N := 64) (extractStridedSlice S64x768 ![63, 0] (U (Proc.devRef .tc main_call0_v7)) slices_S65535x768_S64x768_63_0)
      (extractStridedSlice S64x256 ![63, 0] (U (Proc.devRef .tc main_call0_v8)) slices_S65535x256_S64x256_63_0)
      (shapeCast _ (extractStridedSlice S128x256 ![127, 0] (U (Proc.devRef .tc main_call0_v296)) slices_S131071x256_S128x256_127_0) shapeCasts_S128x256_S64x2x256)
      (shapeCast _ (extractStridedSlice S128x256 ![127, 0] (U (Proc.devRef .tc main_call0_v294)) slices_S131071x256_S128x256_127_0) shapeCasts_S128x256_S64x2x256)
      (broadcastInDim S64x768 ![0, 1] bcast_S1x768_S64x768_0_1 (broadcastInDim S1x768 ![1] bcast_S768_S1x768_1 (U (Proc.devRef .tc main_arg4))))
      (broadcastInDim S64x256 ![0, 1] bcast_S1x256_S64x256_0_1 (broadcastInDim S1x256 ![1] bcast_S256_S1x256_1 (U (Proc.devRef .tc main_arg8))))
      (broadcastInDim S64x256 ![0, 1] bcast_S1x256_S64x256_0_1 (broadcastInDim S1x256 ![1] bcast_S256_S1x256_1 (U (Proc.devRef .tc main_arg8))))
      dot_S64x256_S256x768_S64x768_1_0_0_1_n_n bcast_S_S64x256 slices_S64x768_S64x256_0_0 slices_S64x768_S64x256_0_512
      (U (Proc.devRef .tc main_call0_v20)) (U (Proc.devRef .tc main_call0_v21)) slices_S64x2x256_S64x1x256_0_0_0 slices_S64x2x256_S64x1x256_0_1_0 shapeCasts_S64x1x256_S64x256 dot_S64x256_S256x256_S64x256_1_0_0_1_n_n) := by
  dsimp only [klev6]
  after_results_simp <;> rfl

theorem klev6_H : after klev6 U (Proc.devRef .tc main_call0_v365) = Host.scatter scatter_S131071x256_S1_S64x256_01_n_0_0 (fun _ b => b) (U (Proc.devRef .tc main_call0_v296))
    (broadcastInDim S1 ![] bcast_S_S1 (constantI S_ 32 63#32))
    (rowsLevelH (N := 64) (extractStridedSlice S64x768 ![63, 0] (U (Proc.devRef .tc main_call0_v7)) slices_S65535x768_S64x768_63_0)
      (extractStridedSlice S64x256 ![63, 0] (U (Proc.devRef .tc main_call0_v8)) slices_S65535x256_S64x256_63_0)
      (shapeCast _ (extractStridedSlice S128x256 ![127, 0] (U (Proc.devRef .tc main_call0_v296)) slices_S131071x256_S128x256_127_0) shapeCasts_S128x256_S64x2x256)
      (shapeCast _ (extractStridedSlice S128x256 ![127, 0] (U (Proc.devRef .tc main_call0_v294)) slices_S131071x256_S128x256_127_0) shapeCasts_S128x256_S64x2x256)
      (broadcastInDim S64x768 ![0, 1] bcast_S1x768_S64x768_0_1 (broadcastInDim S1x768 ![1] bcast_S768_S1x768_1 (U (Proc.devRef .tc main_arg4))))
      (broadcastInDim S64x256 ![0, 1] bcast_S1x256_S64x256_0_1 (broadcastInDim S1x256 ![1] bcast_S256_S1x256_1 (U (Proc.devRef .tc main_arg8))))
      (broadcastInDim S64x256 ![0, 1] bcast_S1x256_S64x256_0_1 (broadcastInDim S1x256 ![1] bcast_S256_S1x256_1 (U (Proc.devRef .tc main_arg8))))
      dot_S64x256_S256x768_S64x768_1_0_0_1_n_n bcast_S_S64x256 slices_S64x768_S64x256_0_0 slices_S64x768_S64x256_0_256 slices_S64x768_S64x256_0_512
      (U (Proc.devRef .tc main_call0_v20)) (U (Proc.devRef .tc main_call0_v21)) slices_S64x2x256_S64x1x256_0_0_0 slices_S64x2x256_S64x1x256_0_1_0 shapeCasts_S64x1x256_S64x256 dot_S64x256_S256x256_S64x256_1_0_0_1_n_n) := by
  dsimp only [klev6]
  after_results_simp <;> rfl

theorem klev6_keep_v7 : after klev6 U (Proc.devRef .tc main_call0_v7) = U (Proc.devRef .tc main_call0_v7) := by
  dsimp only [klev6]
  after_results_simp

theorem klev6_keep_v8 : after klev6 U (Proc.devRef .tc main_call0_v8) = U (Proc.devRef .tc main_call0_v8) := by
  dsimp only [klev6]
  after_results_simp

theorem klev6_keep_v20 : after klev6 U (Proc.devRef .tc main_call0_v20) = U (Proc.devRef .tc main_call0_v20) := by
  dsimp only [klev6]
  after_results_simp

theorem klev6_keep_v21 : after klev6 U (Proc.devRef .tc main_call0_v21) = U (Proc.devRef .tc main_call0_v21) := by
  dsimp only [klev6]
  after_results_simp

theorem klev6_keep_arg4 : after klev6 U (Proc.devRef .tc main_arg4) = U (Proc.devRef .tc main_arg4) := by
  dsimp only [klev6]
  after_results_simp

theorem klev6_keep_arg8 : after klev6 U (Proc.devRef .tc main_arg8) = U (Proc.devRef .tc main_arg8) := by
  dsimp only [klev6]
  after_results_simp

theorem klev5_C : after klev5 U (Proc.devRef .tc main_call0_v432) = Host.scatter scatter_S131071x256_S1_S32x256_01_n_0_0 (fun _ b => b) (U (Proc.devRef .tc main_call0_v363))
    (broadcastInDim S1 ![] bcast_S_S1 (constantI S_ 32 31#32))
    (rowsLevelC (N := 32) (extractStridedSlice S32x768 ![31, 0] (U (Proc.devRef .tc main_call0_v7)) slices_S65535x768_S32x768_31_0)
      (extractStridedSlice S32x256 ![31, 0] (U (Proc.devRef .tc main_call0_v8)) slices_S65535x256_S32x256_31_0)
      (shapeCast _ (extractStridedSlice S64x256 ![63, 0] (U (Proc.devRef .tc main_call0_v365)) slices_S131071x256_S64x256_63_0) shapeCasts_S64x256_S32x2x256)
      (shapeCast _ (extractStridedSlice S64x256 ![63, 0] (U (Proc.devRef .tc main_call0_v363)) slices_S131071x256_S64x256_63_0) shapeCasts_S64x256_S32x2x256)
      (broadcastInDim S32x768 ![0, 1] bcast_S1x768_S32x768_0_1 (broadcastInDim S1x768 ![1] bcast_S768_S1x768_1 (U (Proc.devRef .tc main_arg4))))
      (broadcastInDim S32x256 ![0, 1] bcast_S1x256_S32x256_0_1 (broadcastInDim S1x256 ![1] bcast_S256_S1x256_1 (U (Proc.devRef .tc main_arg8))))
      (broadcastInDim S32x256 ![0, 1] bcast_S1x256_S32x256_0_1 (broadcastInDim S1x256 ![1] bcast_S256_S1x256_1 (U (Proc.devRef .tc main_arg8))))
      dot_S32x256_S256x768_S32x768_1_0_0_1_n_n bcast_S_S32x256 slices_S32x768_S32x256_0_0 slices_S32x768_S32x256_0_512
      (U (Proc.devRef .tc main_call0_v20)) (U (Proc.devRef .tc main_call0_v21)) slices_S32x2x256_S32x1x256_0_0_0 slices_S32x2x256_S32x1x256_0_1_0 shapeCasts_S32x1x256_S32x256 dot_S32x256_S256x256_S32x256_1_0_0_1_n_n) := by
  dsimp only [klev5]
  after_results_simp <;> rfl

theorem klev5_H : after klev5 U (Proc.devRef .tc main_call0_v434) = Host.scatter scatter_S131071x256_S1_S32x256_01_n_0_0 (fun _ b => b) (U (Proc.devRef .tc main_call0_v365))
    (broadcastInDim S1 ![] bcast_S_S1 (constantI S_ 32 31#32))
    (rowsLevelH (N := 32) (extractStridedSlice S32x768 ![31, 0] (U (Proc.devRef .tc main_call0_v7)) slices_S65535x768_S32x768_31_0)
      (extractStridedSlice S32x256 ![31, 0] (U (Proc.devRef .tc main_call0_v8)) slices_S65535x256_S32x256_31_0)
      (shapeCast _ (extractStridedSlice S64x256 ![63, 0] (U (Proc.devRef .tc main_call0_v365)) slices_S131071x256_S64x256_63_0) shapeCasts_S64x256_S32x2x256)
      (shapeCast _ (extractStridedSlice S64x256 ![63, 0] (U (Proc.devRef .tc main_call0_v363)) slices_S131071x256_S64x256_63_0) shapeCasts_S64x256_S32x2x256)
      (broadcastInDim S32x768 ![0, 1] bcast_S1x768_S32x768_0_1 (broadcastInDim S1x768 ![1] bcast_S768_S1x768_1 (U (Proc.devRef .tc main_arg4))))
      (broadcastInDim S32x256 ![0, 1] bcast_S1x256_S32x256_0_1 (broadcastInDim S1x256 ![1] bcast_S256_S1x256_1 (U (Proc.devRef .tc main_arg8))))
      (broadcastInDim S32x256 ![0, 1] bcast_S1x256_S32x256_0_1 (broadcastInDim S1x256 ![1] bcast_S256_S1x256_1 (U (Proc.devRef .tc main_arg8))))
      dot_S32x256_S256x768_S32x768_1_0_0_1_n_n bcast_S_S32x256 slices_S32x768_S32x256_0_0 slices_S32x768_S32x256_0_256 slices_S32x768_S32x256_0_512
      (U (Proc.devRef .tc main_call0_v20)) (U (Proc.devRef .tc main_call0_v21)) slices_S32x2x256_S32x1x256_0_0_0 slices_S32x2x256_S32x1x256_0_1_0 shapeCasts_S32x1x256_S32x256 dot_S32x256_S256x256_S32x256_1_0_0_1_n_n) := by
  dsimp only [klev5]
  after_results_simp <;> rfl

theorem klev5_keep_v7 : after klev5 U (Proc.devRef .tc main_call0_v7) = U (Proc.devRef .tc main_call0_v7) := by
  dsimp only [klev5]
  after_results_simp

theorem klev5_keep_v8 : after klev5 U (Proc.devRef .tc main_call0_v8) = U (Proc.devRef .tc main_call0_v8) := by
  dsimp only [klev5]
  after_results_simp

theorem klev5_keep_v20 : after klev5 U (Proc.devRef .tc main_call0_v20) = U (Proc.devRef .tc main_call0_v20) := by
  dsimp only [klev5]
  after_results_simp

theorem klev5_keep_v21 : after klev5 U (Proc.devRef .tc main_call0_v21) = U (Proc.devRef .tc main_call0_v21) := by
  dsimp only [klev5]
  after_results_simp

theorem klev5_keep_arg4 : after klev5 U (Proc.devRef .tc main_arg4) = U (Proc.devRef .tc main_arg4) := by
  dsimp only [klev5]
  after_results_simp

theorem klev5_keep_arg8 : after klev5 U (Proc.devRef .tc main_arg8) = U (Proc.devRef .tc main_arg8) := by
  dsimp only [klev5]
  after_results_simp

theorem klev4_C : after klev4 U (Proc.devRef .tc main_call0_v501) = Host.scatter scatter_S131071x256_S1_S16x256_01_n_0_0 (fun _ b => b) (U (Proc.devRef .tc main_call0_v432))
    (broadcastInDim S1 ![] bcast_S_S1 (constantI S_ 32 15#32))
    (rowsLevelC (N := 16) (extractStridedSlice S16x768 ![15, 0] (U (Proc.devRef .tc main_call0_v7)) slices_S65535x768_S16x768_15_0)
      (extractStridedSlice S16x256 ![15, 0] (U (Proc.devRef .tc main_call0_v8)) slices_S65535x256_S16x256_15_0)
      (shapeCast _ (extractStridedSlice S32x256 ![31, 0] (U (Proc.devRef .tc main_call0_v434)) slices_S131071x256_S32x256_31_0) shapeCasts_S32x256_S16x2x256)
      (shapeCast _ (extractStridedSlice S32x256 ![31, 0] (U (Proc.devRef .tc main_call0_v432)) slices_S131071x256_S32x256_31_0) shapeCasts_S32x256_S16x2x256)
      (broadcastInDim S16x768 ![0, 1] bcast_S1x768_S16x768_0_1 (broadcastInDim S1x768 ![1] bcast_S768_S1x768_1 (U (Proc.devRef .tc main_arg4))))
      (broadcastInDim S16x256 ![0, 1] bcast_S1x256_S16x256_0_1 (broadcastInDim S1x256 ![1] bcast_S256_S1x256_1 (U (Proc.devRef .tc main_arg8))))
      (broadcastInDim S16x256 ![0, 1] bcast_S1x256_S16x256_0_1 (broadcastInDim S1x256 ![1] bcast_S256_S1x256_1 (U (Proc.devRef .tc main_arg8))))
      dot_S16x256_S256x768_S16x768_1_0_0_1_n_n bcast_S_S16x256 slices_S16x768_S16x256_0_0 slices_S16x768_S16x256_0_512
      (U (Proc.devRef .tc main_call0_v20)) (U (Proc.devRef .tc main_call0_v21)) slices_S16x2x256_S16x1x256_0_0_0 slices_S16x2x256_S16x1x256_0_1_0 shapeCasts_S16x1x256_S16x256 dot_S16x256_S256x256_S16x256_1_0_0_1_n_n) := by
  dsimp only [klev4]
  after_results_simp <;> rfl

theorem klev4_H : after klev4 U (Proc.devRef .tc main_call0_v503) = Host.scatter scatter_S131071x256_S1_S16x256_01_n_0_0 (fun _ b => b) (U (Proc.devRef .tc main_call0_v434))
    (broadcastInDim S1 ![] bcast_S_S1 (constantI S_ 32 15#32))
    (rowsLevelH (N := 16) (extractStridedSlice S16x768 ![15, 0] (U (Proc.devRef .tc main_call0_v7)) slices_S65535x768_S16x768_15_0)
      (extractStridedSlice S16x256 ![15, 0] (U (Proc.devRef .tc main_call0_v8)) slices_S65535x256_S16x256_15_0)
      (shapeCast _ (extractStridedSlice S32x256 ![31, 0] (U (Proc.devRef .tc main_call0_v434)) slices_S131071x256_S32x256_31_0) shapeCasts_S32x256_S16x2x256)
      (shapeCast _ (extractStridedSlice S32x256 ![31, 0] (U (Proc.devRef .tc main_call0_v432)) slices_S131071x256_S32x256_31_0) shapeCasts_S32x256_S16x2x256)
      (broadcastInDim S16x768 ![0, 1] bcast_S1x768_S16x768_0_1 (broadcastInDim S1x768 ![1] bcast_S768_S1x768_1 (U (Proc.devRef .tc main_arg4))))
      (broadcastInDim S16x256 ![0, 1] bcast_S1x256_S16x256_0_1 (broadcastInDim S1x256 ![1] bcast_S256_S1x256_1 (U (Proc.devRef .tc main_arg8))))
      (broadcastInDim S16x256 ![0, 1] bcast_S1x256_S16x256_0_1 (broadcastInDim S1x256 ![1] bcast_S256_S1x256_1 (U (Proc.devRef .tc main_arg8))))
      dot_S16x256_S256x768_S16x768_1_0_0_1_n_n bcast_S_S16x256 slices_S16x768_S16x256_0_0 slices_S16x768_S16x256_0_256 slices_S16x768_S16x256_0_512
      (U (Proc.devRef .tc main_call0_v20)) (U (Proc.devRef .tc main_call0_v21)) slices_S16x2x256_S16x1x256_0_0_0 slices_S16x2x256_S16x1x256_0_1_0 shapeCasts_S16x1x256_S16x256 dot_S16x256_S256x256_S16x256_1_0_0_1_n_n) := by
  dsimp only [klev4]
  after_results_simp <;> rfl

theorem klev4_keep_v7 : after klev4 U (Proc.devRef .tc main_call0_v7) = U (Proc.devRef .tc main_call0_v7) := by
  dsimp only [klev4]
  after_results_simp

theorem klev4_keep_v8 : after klev4 U (Proc.devRef .tc main_call0_v8) = U (Proc.devRef .tc main_call0_v8) := by
  dsimp only [klev4]
  after_results_simp

theorem klev4_keep_v20 : after klev4 U (Proc.devRef .tc main_call0_v20) = U (Proc.devRef .tc main_call0_v20) := by
  dsimp only [klev4]
  after_results_simp

theorem klev4_keep_v21 : after klev4 U (Proc.devRef .tc main_call0_v21) = U (Proc.devRef .tc main_call0_v21) := by
  dsimp only [klev4]
  after_results_simp

theorem klev4_keep_arg4 : after klev4 U (Proc.devRef .tc main_arg4) = U (Proc.devRef .tc main_arg4) := by
  dsimp only [klev4]
  after_results_simp

theorem klev4_keep_arg8 : after klev4 U (Proc.devRef .tc main_arg8) = U (Proc.devRef .tc main_arg8) := by
  dsimp only [klev4]
  after_results_simp

theorem klev3_C : after klev3 U (Proc.devRef .tc main_call0_v570) = Host.scatter scatter_S131071x256_S1_S8x256_01_n_0_0 (fun _ b => b) (U (Proc.devRef .tc main_call0_v501))
    (broadcastInDim S1 ![] bcast_S_S1 (constantI S_ 32 7#32))
    (rowsLevelC (N := 8) (extractStridedSlice S8x768 ![7, 0] (U (Proc.devRef .tc main_call0_v7)) slices_S65535x768_S8x768_7_0)
      (extractStridedSlice S8x256 ![7, 0] (U (Proc.devRef .tc main_call0_v8)) slices_S65535x256_S8x256_7_0)
      (shapeCast _ (extractStridedSlice S16x256 ![15, 0] (U (Proc.devRef .tc main_call0_v503)) slices_S131071x256_S16x256_15_0) shapeCasts_S16x256_S8x2x256)
      (shapeCast _ (extractStridedSlice S16x256 ![15, 0] (U (Proc.devRef .tc main_call0_v501)) slices_S131071x256_S16x256_15_0) shapeCasts_S16x256_S8x2x256)
      (broadcastInDim S8x768 ![0, 1] bcast_S1x768_S8x768_0_1 (broadcastInDim S1x768 ![1] bcast_S768_S1x768_1 (U (Proc.devRef .tc main_arg4))))
      (broadcastInDim S8x256 ![0, 1] bcast_S1x256_S8x256_0_1 (broadcastInDim S1x256 ![1] bcast_S256_S1x256_1 (U (Proc.devRef .tc main_arg8))))
      (broadcastInDim S8x256 ![0, 1] bcast_S1x256_S8x256_0_1 (broadcastInDim S1x256 ![1] bcast_S256_S1x256_1 (U (Proc.devRef .tc main_arg8))))
      dot_S8x256_S256x768_S8x768_1_0_0_1_n_n bcast_S_S8x256 slices_S8x768_S8x256_0_0 slices_S8x768_S8x256_0_512
      (U (Proc.devRef .tc main_call0_v20)) (U (Proc.devRef .tc main_call0_v21)) slices_S8x2x256_S8x1x256_0_0_0 slices_S8x2x256_S8x1x256_0_1_0 shapeCasts_S8x1x256_S8x256 dot_S8x256_S256x256_S8x256_1_0_0_1_n_n) := by
  dsimp only [klev3]
  after_results_simp <;> rfl

theorem klev3_H : after klev3 U (Proc.devRef .tc main_call0_v572) = Host.scatter scatter_S131071x256_S1_S8x256_01_n_0_0 (fun _ b => b) (U (Proc.devRef .tc main_call0_v503))
    (broadcastInDim S1 ![] bcast_S_S1 (constantI S_ 32 7#32))
    (rowsLevelH (N := 8) (extractStridedSlice S8x768 ![7, 0] (U (Proc.devRef .tc main_call0_v7)) slices_S65535x768_S8x768_7_0)
      (extractStridedSlice S8x256 ![7, 0] (U (Proc.devRef .tc main_call0_v8)) slices_S65535x256_S8x256_7_0)
      (shapeCast _ (extractStridedSlice S16x256 ![15, 0] (U (Proc.devRef .tc main_call0_v503)) slices_S131071x256_S16x256_15_0) shapeCasts_S16x256_S8x2x256)
      (shapeCast _ (extractStridedSlice S16x256 ![15, 0] (U (Proc.devRef .tc main_call0_v501)) slices_S131071x256_S16x256_15_0) shapeCasts_S16x256_S8x2x256)
      (broadcastInDim S8x768 ![0, 1] bcast_S1x768_S8x768_0_1 (broadcastInDim S1x768 ![1] bcast_S768_S1x768_1 (U (Proc.devRef .tc main_arg4))))
      (broadcastInDim S8x256 ![0, 1] bcast_S1x256_S8x256_0_1 (broadcastInDim S1x256 ![1] bcast_S256_S1x256_1 (U (Proc.devRef .tc main_arg8))))
      (broadcastInDim S8x256 ![0, 1] bcast_S1x256_S8x256_0_1 (broadcastInDim S1x256 ![1] bcast_S256_S1x256_1 (U (Proc.devRef .tc main_arg8))))
      dot_S8x256_S256x768_S8x768_1_0_0_1_n_n bcast_S_S8x256 slices_S8x768_S8x256_0_0 slices_S8x768_S8x256_0_256 slices_S8x768_S8x256_0_512
      (U (Proc.devRef .tc main_call0_v20)) (U (Proc.devRef .tc main_call0_v21)) slices_S8x2x256_S8x1x256_0_0_0 slices_S8x2x256_S8x1x256_0_1_0 shapeCasts_S8x1x256_S8x256 dot_S8x256_S256x256_S8x256_1_0_0_1_n_n) := by
  dsimp only [klev3]
  after_results_simp <;> rfl

theorem klev3_keep_v7 : after klev3 U (Proc.devRef .tc main_call0_v7) = U (Proc.devRef .tc main_call0_v7) := by
  dsimp only [klev3]
  after_results_simp

theorem klev3_keep_v8 : after klev3 U (Proc.devRef .tc main_call0_v8) = U (Proc.devRef .tc main_call0_v8) := by
  dsimp only [klev3]
  after_results_simp

theorem klev3_keep_v20 : after klev3 U (Proc.devRef .tc main_call0_v20) = U (Proc.devRef .tc main_call0_v20) := by
  dsimp only [klev3]
  after_results_simp

theorem klev3_keep_v21 : after klev3 U (Proc.devRef .tc main_call0_v21) = U (Proc.devRef .tc main_call0_v21) := by
  dsimp only [klev3]
  after_results_simp

theorem klev3_keep_arg4 : after klev3 U (Proc.devRef .tc main_arg4) = U (Proc.devRef .tc main_arg4) := by
  dsimp only [klev3]
  after_results_simp

theorem klev3_keep_arg8 : after klev3 U (Proc.devRef .tc main_arg8) = U (Proc.devRef .tc main_arg8) := by
  dsimp only [klev3]
  after_results_simp

theorem klev2_C : after klev2 U (Proc.devRef .tc main_call0_v639) = Host.scatter scatter_S131071x256_S1_S4x256_01_n_0_0 (fun _ b => b) (U (Proc.devRef .tc main_call0_v570))
    (broadcastInDim S1 ![] bcast_S_S1 (constantI S_ 32 3#32))
    (rowsLevelC (N := 4) (extractStridedSlice S4x768 ![3, 0] (U (Proc.devRef .tc main_call0_v7)) slices_S65535x768_S4x768_3_0)
      (extractStridedSlice S4x256 ![3, 0] (U (Proc.devRef .tc main_call0_v8)) slices_S65535x256_S4x256_3_0)
      (shapeCast _ (extractStridedSlice S8x256 ![7, 0] (U (Proc.devRef .tc main_call0_v572)) slices_S131071x256_S8x256_7_0) shapeCasts_S8x256_S4x2x256)
      (shapeCast _ (extractStridedSlice S8x256 ![7, 0] (U (Proc.devRef .tc main_call0_v570)) slices_S131071x256_S8x256_7_0) shapeCasts_S8x256_S4x2x256)
      (broadcastInDim S4x768 ![0, 1] bcast_S1x768_S4x768_0_1 (broadcastInDim S1x768 ![1] bcast_S768_S1x768_1 (U (Proc.devRef .tc main_arg4))))
      (broadcastInDim S4x256 ![0, 1] bcast_S1x256_S4x256_0_1 (broadcastInDim S1x256 ![1] bcast_S256_S1x256_1 (U (Proc.devRef .tc main_arg8))))
      (broadcastInDim S4x256 ![0, 1] bcast_S1x256_S4x256_0_1 (broadcastInDim S1x256 ![1] bcast_S256_S1x256_1 (U (Proc.devRef .tc main_arg8))))
      dot_S4x256_S256x768_S4x768_1_0_0_1_n_n bcast_S_S4x256 slices_S4x768_S4x256_0_0 slices_S4x768_S4x256_0_512
      (U (Proc.devRef .tc main_call0_v20)) (U (Proc.devRef .tc main_call0_v21)) slices_S4x2x256_S4x1x256_0_0_0 slices_S4x2x256_S4x1x256_0_1_0 shapeCasts_S4x1x256_S4x256 dot_S4x256_S256x256_S4x256_1_0_0_1_n_n) := by
  dsimp only [klev2]
  after_results_simp <;> rfl

theorem klev2_H : after klev2 U (Proc.devRef .tc main_call0_v641) = Host.scatter scatter_S131071x256_S1_S4x256_01_n_0_0 (fun _ b => b) (U (Proc.devRef .tc main_call0_v572))
    (broadcastInDim S1 ![] bcast_S_S1 (constantI S_ 32 3#32))
    (rowsLevelH (N := 4) (extractStridedSlice S4x768 ![3, 0] (U (Proc.devRef .tc main_call0_v7)) slices_S65535x768_S4x768_3_0)
      (extractStridedSlice S4x256 ![3, 0] (U (Proc.devRef .tc main_call0_v8)) slices_S65535x256_S4x256_3_0)
      (shapeCast _ (extractStridedSlice S8x256 ![7, 0] (U (Proc.devRef .tc main_call0_v572)) slices_S131071x256_S8x256_7_0) shapeCasts_S8x256_S4x2x256)
      (shapeCast _ (extractStridedSlice S8x256 ![7, 0] (U (Proc.devRef .tc main_call0_v570)) slices_S131071x256_S8x256_7_0) shapeCasts_S8x256_S4x2x256)
      (broadcastInDim S4x768 ![0, 1] bcast_S1x768_S4x768_0_1 (broadcastInDim S1x768 ![1] bcast_S768_S1x768_1 (U (Proc.devRef .tc main_arg4))))
      (broadcastInDim S4x256 ![0, 1] bcast_S1x256_S4x256_0_1 (broadcastInDim S1x256 ![1] bcast_S256_S1x256_1 (U (Proc.devRef .tc main_arg8))))
      (broadcastInDim S4x256 ![0, 1] bcast_S1x256_S4x256_0_1 (broadcastInDim S1x256 ![1] bcast_S256_S1x256_1 (U (Proc.devRef .tc main_arg8))))
      dot_S4x256_S256x768_S4x768_1_0_0_1_n_n bcast_S_S4x256 slices_S4x768_S4x256_0_0 slices_S4x768_S4x256_0_256 slices_S4x768_S4x256_0_512
      (U (Proc.devRef .tc main_call0_v20)) (U (Proc.devRef .tc main_call0_v21)) slices_S4x2x256_S4x1x256_0_0_0 slices_S4x2x256_S4x1x256_0_1_0 shapeCasts_S4x1x256_S4x256 dot_S4x256_S256x256_S4x256_1_0_0_1_n_n) := by
  dsimp only [klev2]
  after_results_simp <;> rfl

theorem klev2_keep_v7 : after klev2 U (Proc.devRef .tc main_call0_v7) = U (Proc.devRef .tc main_call0_v7) := by
  dsimp only [klev2]
  after_results_simp

theorem klev2_keep_v8 : after klev2 U (Proc.devRef .tc main_call0_v8) = U (Proc.devRef .tc main_call0_v8) := by
  dsimp only [klev2]
  after_results_simp

theorem klev2_keep_v20 : after klev2 U (Proc.devRef .tc main_call0_v20) = U (Proc.devRef .tc main_call0_v20) := by
  dsimp only [klev2]
  after_results_simp

theorem klev2_keep_v21 : after klev2 U (Proc.devRef .tc main_call0_v21) = U (Proc.devRef .tc main_call0_v21) := by
  dsimp only [klev2]
  after_results_simp

theorem klev2_keep_arg4 : after klev2 U (Proc.devRef .tc main_arg4) = U (Proc.devRef .tc main_arg4) := by
  dsimp only [klev2]
  after_results_simp

theorem klev2_keep_arg8 : after klev2 U (Proc.devRef .tc main_arg8) = U (Proc.devRef .tc main_arg8) := by
  dsimp only [klev2]
  after_results_simp

theorem klev1_C : after klev1 U (Proc.devRef .tc main_call0_v708) = Host.scatter scatter_S131071x256_S1_S2x256_01_n_0_0 (fun _ b => b) (U (Proc.devRef .tc main_call0_v639))
    (broadcastInDim S1 ![] bcast_S_S1 (constantI S_ 32 1#32))
    (rowsLevelC (N := 2) (extractStridedSlice S2x768 ![1, 0] (U (Proc.devRef .tc main_call0_v7)) slices_S65535x768_S2x768_1_0)
      (extractStridedSlice S2x256 ![1, 0] (U (Proc.devRef .tc main_call0_v8)) slices_S65535x256_S2x256_1_0)
      (shapeCast _ (extractStridedSlice S4x256 ![3, 0] (U (Proc.devRef .tc main_call0_v641)) slices_S131071x256_S4x256_3_0) shapeCasts_S4x256_S2x2x256)
      (shapeCast _ (extractStridedSlice S4x256 ![3, 0] (U (Proc.devRef .tc main_call0_v639)) slices_S131071x256_S4x256_3_0) shapeCasts_S4x256_S2x2x256)
      (broadcastInDim S2x768 ![0, 1] bcast_S1x768_S2x768_0_1 (broadcastInDim S1x768 ![1] bcast_S768_S1x768_1 (U (Proc.devRef .tc main_arg4))))
      (broadcastInDim S2x256 ![0, 1] bcast_S1x256_S2x256_0_1 (broadcastInDim S1x256 ![1] bcast_S256_S1x256_1 (U (Proc.devRef .tc main_arg8))))
      (broadcastInDim S2x256 ![0, 1] bcast_S1x256_S2x256_0_1 (broadcastInDim S1x256 ![1] bcast_S256_S1x256_1 (U (Proc.devRef .tc main_arg8))))
      dot_S2x256_S256x768_S2x768_1_0_0_1_n_n bcast_S_S2x256 slices_S2x768_S2x256_0_0 slices_S2x768_S2x256_0_512
      (U (Proc.devRef .tc main_call0_v20)) (U (Proc.devRef .tc main_call0_v21)) slices_S2x2x256_S2x1x256_0_0_0 slices_S2x2x256_S2x1x256_0_1_0 shapeCasts_S2x1x256_S2x256 dot_S2x256_S256x256_S2x256_1_0_0_1_n_n) := by
  dsimp only [klev1]
  after_results_simp <;> rfl

theorem klev1_H : after klev1 U (Proc.devRef .tc main_call0_v710) = Host.scatter scatter_S131071x256_S1_S2x256_01_n_0_0 (fun _ b => b) (U (Proc.devRef .tc main_call0_v641))
    (broadcastInDim S1 ![] bcast_S_S1 (constantI S_ 32 1#32))
    (rowsLevelH (N := 2) (extractStridedSlice S2x768 ![1, 0] (U (Proc.devRef .tc main_call0_v7)) slices_S65535x768_S2x768_1_0)
      (extractStridedSlice S2x256 ![1, 0] (U (Proc.devRef .tc main_call0_v8)) slices_S65535x256_S2x256_1_0)
      (shapeCast _ (extractStridedSlice S4x256 ![3, 0] (U (Proc.devRef .tc main_call0_v641)) slices_S131071x256_S4x256_3_0) shapeCasts_S4x256_S2x2x256)
      (shapeCast _ (extractStridedSlice S4x256 ![3, 0] (U (Proc.devRef .tc main_call0_v639)) slices_S131071x256_S4x256_3_0) shapeCasts_S4x256_S2x2x256)
      (broadcastInDim S2x768 ![0, 1] bcast_S1x768_S2x768_0_1 (broadcastInDim S1x768 ![1] bcast_S768_S1x768_1 (U (Proc.devRef .tc main_arg4))))
      (broadcastInDim S2x256 ![0, 1] bcast_S1x256_S2x256_0_1 (broadcastInDim S1x256 ![1] bcast_S256_S1x256_1 (U (Proc.devRef .tc main_arg8))))
      (broadcastInDim S2x256 ![0, 1] bcast_S1x256_S2x256_0_1 (broadcastInDim S1x256 ![1] bcast_S256_S1x256_1 (U (Proc.devRef .tc main_arg8))))
      dot_S2x256_S256x768_S2x768_1_0_0_1_n_n bcast_S_S2x256 slices_S2x768_S2x256_0_0 slices_S2x768_S2x256_0_256 slices_S2x768_S2x256_0_512
      (U (Proc.devRef .tc main_call0_v20)) (U (Proc.devRef .tc main_call0_v21)) slices_S2x2x256_S2x1x256_0_0_0 slices_S2x2x256_S2x1x256_0_1_0 shapeCasts_S2x1x256_S2x256 dot_S2x256_S256x256_S2x256_1_0_0_1_n_n) := by
  dsimp only [klev1]
  after_results_simp <;> rfl

theorem klev1_keep_v7 : after klev1 U (Proc.devRef .tc main_call0_v7) = U (Proc.devRef .tc main_call0_v7) := by
  dsimp only [klev1]
  after_results_simp

theorem klev1_keep_v8 : after klev1 U (Proc.devRef .tc main_call0_v8) = U (Proc.devRef .tc main_call0_v8) := by
  dsimp only [klev1]
  after_results_simp

theorem klev1_keep_v20 : after klev1 U (Proc.devRef .tc main_call0_v20) = U (Proc.devRef .tc main_call0_v20) := by
  dsimp only [klev1]
  after_results_simp

theorem klev1_keep_v21 : after klev1 U (Proc.devRef .tc main_call0_v21) = U (Proc.devRef .tc main_call0_v21) := by
  dsimp only [klev1]
  after_results_simp

theorem klev1_keep_arg4 : after klev1 U (Proc.devRef .tc main_arg4) = U (Proc.devRef .tc main_arg4) := by
  dsimp only [klev1]
  after_results_simp

theorem klev1_keep_arg8 : after klev1 U (Proc.devRef .tc main_arg8) = U (Proc.devRef .tc main_arg8) := by
  dsimp only [klev1]
  after_results_simp

theorem klev0_C : after klev0 U (Proc.devRef .tc main_call0_v774) = Host.scatter scatter_S131071x256_S1_S1x256_01_n_0_0 (fun _ b => b) (U (Proc.devRef .tc main_call0_v708))
    (broadcastInDim S1 ![] bcast_S_S1 (constantI S_ 32 0#32))
    (rowsLevelC (N := 1) (extractStridedSlice S1x768 ![0, 0] (U (Proc.devRef .tc main_call0_v7)) slices_S65535x768_S1x768_0_0)
      (extractStridedSlice S1x256 ![0, 0] (U (Proc.devRef .tc main_call0_v8)) slices_S65535x256_S1x256_0_0)
      (shapeCast _ (extractStridedSlice S2x256 ![1, 0] (U (Proc.devRef .tc main_call0_v710)) slices_S131071x256_S2x256_1_0) shapeCasts_S2x256_S1x2x256)
      (shapeCast _ (extractStridedSlice S2x256 ![1, 0] (U (Proc.devRef .tc main_call0_v708)) slices_S131071x256_S2x256_1_0) shapeCasts_S2x256_S1x2x256)
      (broadcastInDim S1x768 ![1] bcast_S768_S1x768_1 (U (Proc.devRef .tc main_arg4)))
      (broadcastInDim S1x256 ![1] bcast_S256_S1x256_1 (U (Proc.devRef .tc main_arg8)))
      (broadcastInDim S1x256 ![1] bcast_S256_S1x256_1 (U (Proc.devRef .tc main_arg8)))
      dot_S1x256_S256x768_S1x768_1_0_0_1_n_n bcast_S_S1x256 slices_S1x768_S1x256_0_0 slices_S1x768_S1x256_0_512
      (U (Proc.devRef .tc main_call0_v20)) (U (Proc.devRef .tc main_call0_v21)) slices_S1x2x256_S1x1x256_0_0_0 slices_S1x2x256_S1x1x256_0_1_0 shapeCasts_S1x1x256_S1x256 dot_S1x256_S256x256_S1x256_1_0_0_1_n_n) := by
  dsimp only [klev0]
  after_results_simp <;> rfl

theorem klev0_H : after klev0 U (Proc.devRef .tc main_call0_v776) = Host.scatter scatter_S131071x256_S1_S1x256_01_n_0_0 (fun _ b => b) (U (Proc.devRef .tc main_call0_v710))
    (broadcastInDim S1 ![] bcast_S_S1 (constantI S_ 32 0#32))
    (rowsLevelH (N := 1) (extractStridedSlice S1x768 ![0, 0] (U (Proc.devRef .tc main_call0_v7)) slices_S65535x768_S1x768_0_0)
      (extractStridedSlice S1x256 ![0, 0] (U (Proc.devRef .tc main_call0_v8)) slices_S65535x256_S1x256_0_0)
      (shapeCast _ (extractStridedSlice S2x256 ![1, 0] (U (Proc.devRef .tc main_call0_v710)) slices_S131071x256_S2x256_1_0) shapeCasts_S2x256_S1x2x256)
      (shapeCast _ (extractStridedSlice S2x256 ![1, 0] (U (Proc.devRef .tc main_call0_v708)) slices_S131071x256_S2x256_1_0) shapeCasts_S2x256_S1x2x256)
      (broadcastInDim S1x768 ![1] bcast_S768_S1x768_1 (U (Proc.devRef .tc main_arg4)))
      (broadcastInDim S1x256 ![1] bcast_S256_S1x256_1 (U (Proc.devRef .tc main_arg8)))
      (broadcastInDim S1x256 ![1] bcast_S256_S1x256_1 (U (Proc.devRef .tc main_arg8)))
      dot_S1x256_S256x768_S1x768_1_0_0_1_n_n bcast_S_S1x256 slices_S1x768_S1x256_0_0 slices_S1x768_S1x256_0_256 slices_S1x768_S1x256_0_512
      (U (Proc.devRef .tc main_call0_v20)) (U (Proc.devRef .tc main_call0_v21)) slices_S1x2x256_S1x1x256_0_0_0 slices_S1x2x256_S1x1x256_0_1_0 shapeCasts_S1x1x256_S1x256 dot_S1x256_S256x256_S1x256_1_0_0_1_n_n) := by
  dsimp only [klev0]
  after_results_simp <;> rfl

theorem klev0_keep_v7 : after klev0 U (Proc.devRef .tc main_call0_v7) = U (Proc.devRef .tc main_call0_v7) := by
  dsimp only [klev0]
  after_results_simp

theorem klev0_keep_v8 : after klev0 U (Proc.devRef .tc main_call0_v8) = U (Proc.devRef .tc main_call0_v8) := by
  dsimp only [klev0]
  after_results_simp

theorem klev0_keep_v20 : after klev0 U (Proc.devRef .tc main_call0_v20) = U (Proc.devRef .tc main_call0_v20) := by
  dsimp only [klev0]
  after_results_simp

theorem klev0_keep_v21 : after klev0 U (Proc.devRef .tc main_call0_v21) = U (Proc.devRef .tc main_call0_v21) := by
  dsimp only [klev0]
  after_results_simp

theorem klev0_keep_arg4 : after klev0 U (Proc.devRef .tc main_arg4) = U (Proc.devRef .tc main_arg4) := by
  dsimp only [klev0]
  after_results_simp

theorem klev0_keep_arg8 : after klev0 U (Proc.devRef .tc main_arg8) = U (Proc.devRef .tc main_arg8) := by
  dsimp only [klev0]
  after_results_simp

theorem h8tail_c : after ktail8 U (Proc.devRef .tc main_v0_0)
    = ((extractStridedSlice S1x256 ![0, 0] (U (Proc.devRef .tc main_call0_v774) : FVec Ideal S131071x256 .f32) slices_S131071x256_S1x256_0_0) : FVec Ideal S1x256 .f32) := by
  dsimp only [ktail8]
  after_results_simp <;> rfl

theorem h8tail_h : after ktail8 U (Proc.devRef .tc main_v0_1)
    = ((extractStridedSlice S1x256 ![0, 0] (U (Proc.devRef .tc main_call0_v776) : FVec Ideal S131071x256 .f32) slices_S131071x256_S1x256_0_0) : FVec Ideal S1x256 .f32) := by
  dsimp only [ktail8]
  after_results_simp <;> rfl

end Cert.KernelIdeal.TreeHost

end
-- ==== Proof.TreeSpec.lean ====
/-
  THE WHOLE UPWARD PASS OF THE TREE LSTM AS SEVENTEEN PAIRS OF STATE ARRAYS.

  The tree is complete and binary with 131071 nodes in heap order (the children of node i are 2i+1 and 2i+2; level l
  is the 2^l rows from row 2^l - 1; the leaves are level 16). stateC16 / stateH16 are the cell and hidden state arrays
  [131071, 256] after the leaves have been written into arrays of zeros; stateC l / stateH l for l = 15 … 0 are those
  arrays after level l has been computed from the level below (LibTreeCell: stepC, stepH) and written in. The
  results are the root's rows of stateC0 and stateH0.
-/
import proofs.«176519_j24352464569160_2_alg».proof.Proof.LibTreeCell

set_option maxRecDepth 16384

noncomputable section

namespace Cert.TreeSpec

open Idealize.ShloMosaic Idealize.ShloMosaic.ValueIdx Cert.TreeCell

/-- The nine arguments: node features; the gates' and the forget gate's input weights and biases; the gates' and the
    forget gate's hidden-state weights and biases. -/
structure Args where
  X : FVec Ideal ⟨2, ![131071, 256]⟩ .f32
  Wx : FVec Ideal ⟨2, ![768, 256]⟩ .f32
  bx : FVec Ideal ⟨1, ![768]⟩ .f32
  Wi : FVec Ideal ⟨2, ![768, 256]⟩ .f32
  bi : FVec Ideal ⟨1, ![768]⟩ .f32
  Wfx : FVec Ideal ⟨2, ![256, 256]⟩ .f32
  bfx : FVec Ideal ⟨1, ![256]⟩ .f32
  Wf : FVec Ideal ⟨2, ![256, 256]⟩ .f32
  bf : FVec Ideal ⟨1, ![256]⟩ .f32

/-- Writing N rows into the state array from a row given by one index. -/
abbrev rowsInto (N : Nat) (wf : ScatterDims.WF ⟨2, ![131071, 256]⟩ ⟨1, ![1]⟩ ⟨2, ![N, 256]⟩ [0, 1] [] [0] 0) :
    ScatterDims ⟨2, ![131071, 256]⟩ ⟨1, ![1]⟩ ⟨2, ![N, 256]⟩ where
  updateWindowDims := [0, 1]
  insertedWindowDims := []
  scatterDimsToOperandDims := [0]
  indexVectorDim := 0
  wf := wf

/-- The one-entry index array holding a row number. -/
abbrev rowAt (w : BitVec 32) : IVec ⟨1, ![1]⟩ 32 :=
  broadcastInDim ⟨1, ![1]⟩ ![] (by decide) (constantI ⟨0, ![]⟩ 32 w)

/-- The state array of zeros. -/
abbrev zeros : FVec Ideal ⟨2, ![131071, 256]⟩ .f32 :=
  broadcastInDim ⟨2, ![131071, 256]⟩ ![] (by decide) (constant (F := Ideal) ⟨0, ![]⟩ .f32 0x00000000#32)

/-- A leaf's gates: its row of the input projection plus the hidden-state bias (its children's hidden states are zero). -/
def leafGate (a : Args) (n : Fin 65536) (j : Fin 768) : EReal :=
  proj a.X a.Wx a.bx (⟨65535 + n.val, by have := n.isLt; omega⟩ : Fin 131071) j + a.bi (ix1 j)

def stateC16 (a : Args) : FVec Ideal ⟨2, ![131071, 256]⟩ .f32 :=
  Host.scatter (rowsInto 65536 (by decide)) (fun _ b => b) zeros (rowAt 65535#32) (leafC (leafGate a))
def stateH16 (a : Args) : FVec Ideal ⟨2, ![131071, 256]⟩ .f32 :=
  Host.scatter (rowsInto 65536 (by decide)) (fun _ b => b) zeros (rowAt 65535#32) (leafH (leafGate a))

def stateC15 (a : Args) : FVec Ideal ⟨2, ![131071, 256]⟩ .f32 :=
  Host.scatter (rowsInto 32768 (by decide)) (fun _ b => b) (stateC16 a) (rowAt 32767#32) (stepC (N := 32768) (M := 65536) a.X a.Wx a.bx a.Wfx a.bfx a.Wi a.bi a.Wf a.bf 32767 65535 (by decide) (by decide) (by decide) (stateC16 a) (stateH16 a))
def stateH15 (a : Args) : FVec Ideal ⟨2, ![131071, 256]⟩ .f32 :=
  Host.scatter (rowsInto 32768 (by decide)) (fun _ b => b) (stateH16 a) (rowAt 32767#32) (stepH (N := 32768) (M := 65536) a.X a.Wx a.bx a.Wfx a.bfx a.Wi a.bi a.Wf a.bf 32767 65535 (by decide) (by decide) (by decide) (stateC16 a) (stateH16 a))

def stateC14 (a : Args) : FVec Ideal ⟨2, ![131071, 256]⟩ .f32 :=
  Host.scatter (rowsInto 16384 (by decide)) (fun _ b => b) (stateC15 a) (rowAt 16383#32) (stepC (N := 16384) (M := 32768) a.X a.Wx a.bx a.Wfx a.bfx a.Wi a.bi a.Wf a.bf 16383 32767 (by decide) (by decide) (by decide) (stateC15 a) (stateH15 a))
def stateH14 (a : Args) : FVec Ideal ⟨2, ![131071, 256]⟩ .f32 :=
  Host.scatter (rowsInto 16384 (by decide)) (fun _ b => b) (stateH15 a) (rowAt 16383#32) (stepH (N := 16384) (M := 32768) a.X a.Wx a.bx a.Wfx a.bfx a.Wi a.bi a.Wf a.bf 16383 32767 (by decide) (by decide) (by decide) (stateC15 a) (stateH15 a))

def stateC13 (a : Args) : FVec Ideal ⟨2, ![131071, 256]⟩ .f32 :=
  Host.scatter (rowsInto 8192 (by decide)) (fun _ b => b) (stateC14 a) (rowAt 8191#32) (stepC (N := 8192) (M := 16384) a.X a.Wx a.bx a.Wfx a.bfx a.Wi a.bi a.Wf a.bf 8191 16383 (by decide) (by decide) (by decide) (stateC14 a) (stateH14 a))
def stateH13 (a : Args) : FVec Ideal ⟨2, ![131071, 256]⟩ .f32 :=
  Host.scatter (rowsInto 8192 (by decide)) (fun _ b => b) (stateH14 a) (rowAt 8191#32) (stepH (N := 8192) (M := 16384) a.X a.Wx a.bx a.Wfx a.bfx a.Wi a.bi a.Wf a.bf 8191 16383 (by decide) (by decide) (by decide) (stateC14 a) (stateH14 a))

def stateC12 (a : Args) : FVec Ideal ⟨2, ![131071, 256]⟩ .f32 :=
  Host.scatter (rowsInto 4096 (by decide)) (fun _ b => b) (stateC13 a) (rowAt 4095#32) (stepC (N := 4096) (M := 8192) a.X a.Wx a.bx a.Wfx a.bfx a.Wi a.bi a.Wf a.bf 4095 8191 (by decide) (by decide) (by decide) (stateC13 a) (stateH13 a))
def stateH12 (a : Args) : FVec Ideal ⟨2, ![131071, 256]⟩ .f32 :=
  Host.scatter (rowsInto 4096 (by decide)) (fun _ b => b) (stateH13 a) (rowAt 4095#32) (stepH (N := 4096) (M := 8192) a.X a.Wx a.bx a.Wfx a.bfx a.Wi a.bi a.Wf a.bf 4095 8191 (by decide) (by decide) (by decide) (stateC13 a) (stateH13 a))

def stateC11 (a : Args) : FVec Ideal ⟨2, ![131071, 256]⟩ .f32 :=
  Host.scatter (rowsInto 2048 (by decide)) (fun _ b => b) (stateC12 a) (rowAt 2047#32) (stepC (N := 2048) (M := 4096) a.X a.Wx a.bx a.Wfx a.bfx a.Wi a.bi a.Wf a.bf 2047 4095 (by decide) (by decide) (by decide) (stateC12 a) (stateH12 a))
def stateH11 (a : Args) : FVec Ideal ⟨2, ![131071, 256]⟩ .f32 :=
  Host.scatter (rowsInto 2048 (by decide)) (fun _ b => b) (stateH12 a) (rowAt 2047#32) (stepH (N := 2048) (M := 4096) a.X a.Wx a.bx a.Wfx a.bfx a.Wi a.bi a.Wf a.bf 2047 4095 (by decide) (by decide) (by decide) (stateC12 a) (stateH12 a))

def stateC10 (a : Args) : FVec Ideal ⟨2, ![131071, 256]⟩ .f32 :=
  Host.scatter (rowsInto 1024 (by decide)) (fun _ b => b) (stateC11 a) (rowAt 1023#32) (stepC (N := 1024) (M := 2048) a.X a.Wx a.bx a.Wfx a.bfx a.Wi a.bi a.Wf a.bf 1023 2047 (by decide) (by decide) (by decide) (stateC11 a) (stateH11 a))
def stateH10 (a : Args) : FVec Ideal ⟨2, ![131071, 256]⟩ .f32 :=
  Host.scatter (rowsInto 1024 (by decide)) (fun _ b => b) (stateH11 a) (rowAt 1023#32) (stepH (N := 1024) (M := 2048) a.X a.Wx a.bx a.Wfx a.bfx a.Wi a.bi a.Wf a.bf 1023 2047 (by decide) (by decide) (by decide) (stateC11 a) (stateH11 a))

def stateC9 (a : Args) : FVec Ideal ⟨2, ![131071, 256]⟩ .f32 :=
  Host.scatter (rowsInto 512 (by decide)) (fun _ b => b) (stateC10 a) (rowAt 511#32) (stepC (N := 512) (M := 1024) a.X a.Wx a.bx a.Wfx a.bfx a.Wi a.bi a.Wf a.bf 511 1023 (by decide) (by decide) (by decide) (stateC10 a) (stateH10 a))
def stateH9 (a : Args) : FVec Ideal ⟨2, ![131071, 256]⟩ .f32 :=
  Host.scatter (rowsInto 512 (by decide)) (fun _ b => b) (stateH10 a) (rowAt 511#32) (stepH (N := 512) (M := 1024) a.X a.Wx a.bx a.Wfx a.bfx a.Wi a.bi a.Wf a.bf 511 1023 (by decide) (by decide) (by decide) (stateC10 a) (stateH10 a))

def stateC8 (a : Args) : FVec Ideal ⟨2, ![131071, 256]⟩ .f32 :=
  Host.scatter (rowsInto 256 (by decide)) (fun _ b => b) (stateC9 a) (rowAt 255#32) (stepC (N := 256) (M := 512) a.X a.Wx a.bx a.Wfx a.bfx a.Wi a.bi a.Wf a.bf 255 511 (by decide) (by decide) (by decide) (stateC9 a) (stateH9 a))
def stateH8 (a : Args) : FVec Ideal ⟨2, ![131071, 256]⟩ .f32 :=
  Host.scatter (rowsInto 256 (by decide)) (fun _ b => b) (stateH9 a) (rowAt 255#32) (stepH (N := 256) (M := 512) a.X a.Wx a.bx a.Wfx a.bfx a.Wi a.bi a.Wf a.bf 255 511 (by decide) (by decide) (by decide) (stateC9 a) (stateH9 a))

def stateC7 (a : Args) : FVec Ideal ⟨2, ![131071, 256]⟩ .f32 :=
  Host.scatter (rowsInto 128 (by decide)) (fun _ b => b) (stateC8 a) (rowAt 127#32) (stepC (N := 128) (M := 256) a.X a.Wx a.bx a.Wfx a.bfx a.Wi a.bi a.Wf a.bf 127 255 (by decide) (by decide) (by decide) (stateC8 a) (stateH8 a))
def stateH7 (a : Args) : FVec Ideal ⟨2, ![131071, 256]⟩ .f32 :=
  Host.scatter (rowsInto 128 (by decide)) (fun _ b => b) (stateH8 a) (rowAt 127#32) (stepH (N := 128) (M := 256) a.X a.Wx a.bx a.Wfx a.bfx a.Wi a.bi a.Wf a.bf 127 255 (by decide) (by decide) (by decide) (stateC8 a) (stateH8 a))

def stateC6 (a : Args) : FVec Ideal ⟨2, ![131071, 256]⟩ .f32 :=
  Host.scatter (rowsInto 64 (by decide)) (fun _ b => b) (stateC7 a) (rowAt 63#32) (stepC (N := 64) (M := 128) a.X a.Wx a.bx a.Wfx a.bfx a.Wi a.bi a.Wf a.bf 63 127 (by decide) (by decide) (by decide) (stateC7 a) (stateH7 a))
def stateH6 (a : Args) : FVec Ideal ⟨2, ![131071, 256]⟩ .f32 :=
  Host.scatter (rowsInto 64 (by decide)) (fun _ b => b) (stateH7 a) (rowAt 63#32) (stepH (N := 64) (M := 128) a.X a.Wx a.bx a.Wfx a.bfx a.Wi a.bi a.Wf a.bf 63 127 (by decide) (by decide) (by decide) (stateC7 a) (stateH7 a))

def stateC5 (a : Args) : FVec Ideal ⟨2, ![131071, 256]⟩ .f32 :=
  Host.scatter (rowsInto 32 (by decide)) (fun _ b => b) (stateC6 a) (rowAt 31#32) (stepC (N := 32) (M := 64) a.X a.Wx a.bx a.Wfx a.bfx a.Wi a.bi a.Wf a.bf 31 63 (by decide) (by decide) (by decide) (stateC6 a) (stateH6 a))
def stateH5 (a : Args) : FVec Ideal ⟨2, ![131071, 256]⟩ .f32 :=
  Host.scatter (rowsInto 32 (by decide)) (fun _ b => b) (stateH6 a) (rowAt 31#32) (stepH (N := 32) (M := 64) a.X a.Wx a.bx a.Wfx a.bfx a.Wi a.bi a.Wf a.bf 31 63 (by decide) (by decide) (by decide) (stateC6 a) (stateH6 a))

def stateC4 (a : Args) : FVec Ideal ⟨2, ![131071, 256]⟩ .f32 :=
  Host.scatter (rowsInto 16 (by decide)) (fun _ b => b) (stateC5 a) (rowAt 15#32) (stepC (N := 16) (M := 32) a.X a.Wx a.bx a.Wfx a.bfx a.Wi a.bi a.Wf a.bf 15 31 (by decide) (by decide) (by decide) (stateC5 a) (stateH5 a))
def stateH4 (a : Args) : FVec Ideal ⟨2, ![131071, 256]⟩ .f32 :=
  Host.scatter (rowsInto 16 (by decide)) (fun _ b => b) (stateH5 a) (rowAt 15#32) (stepH (N := 16) (M := 32) a.X a.Wx a.bx a.Wfx a.bfx a.Wi a.bi a.Wf a.bf 15 31 (by decide) (by decide) (by decide) (stateC5 a) (stateH5 a))

def stateC3 (a : Args) : FVec Ideal ⟨2, ![131071, 256]⟩ .f32 :=
  Host.scatter (rowsInto 8 (by decide)) (fun _ b => b) (stateC4 a) (rowAt 7#32) (stepC (N := 8) (M := 16) a.X a.Wx a.bx a.Wfx a.bfx a.Wi a.bi a.Wf a.bf 7 15 (by decide) (by decide) (by decide) (stateC4 a) (stateH4 a))
def stateH3 (a : Args) : FVec Ideal ⟨2, ![131071, 256]⟩ .f32 :=
  Host.scatter (rowsInto 8 (by decide)) (fun _ b => b) (stateH4 a) (rowAt 7#32) (stepH (N := 8) (M := 16) a.X a.Wx a.bx a.Wfx a.bfx a.Wi a.bi a.Wf a.bf 7 15 (by decide) (by decide) (by decide) (stateC4 a) (stateH4 a))

def stateC2 (a : Args) : FVec Ideal ⟨2, ![131071, 256]⟩ .f32 :=
  Host.scatter (rowsInto 4 (by decide)) (fun _ b => b) (stateC3 a) (rowAt 3#32) (stepC (N := 4) (M := 8) a.X a.Wx a.bx a.Wfx a.bfx a.Wi a.bi a.Wf a.bf 3 7 (by decide) (by decide) (by decide) (stateC3 a) (stateH3 a))
def stateH2 (a : Args) : FVec Ideal ⟨2, ![131071, 256]⟩ .f32 :=
  Host.scatter (rowsInto 4 (by decide)) (fun _ b => b) (stateH3 a) (rowAt 3#32) (stepH (N := 4) (M := 8) a.X a.Wx a.bx a.Wfx a.bfx a.Wi a.bi a.Wf a.bf 3 7 (by decide) (by decide) (by decide) (stateC3 a) (stateH3 a))

def stateC1 (a : Args) : FVec Ideal ⟨2, ![131071, 256]⟩ .f32 :=
  Host.scatter (rowsInto 2 (by decide)) (fun _ b => b) (stateC2 a) (rowAt 1#32) (stepC (N := 2) (M := 4) a.X a.Wx a.bx a.Wfx a.bfx a.Wi a.bi a.Wf a.bf 1 3 (by decide) (by decide) (by decide) (stateC2 a) (stateH2 a))
def stateH1 (a : Args) : FVec Ideal ⟨2, ![131071, 256]⟩ .f32 :=
  Host.scatter (rowsInto 2 (by decide)) (fun _ b => b) (stateH2 a) (rowAt 1#32) (stepH (N := 2) (M := 4) a.X a.Wx a.bx a.Wfx a.bfx a.Wi a.bi a.Wf a.bf 1 3 (by decide) (by decide) (by decide) (stateC2 a) (stateH2 a))

def stateC0 (a : Args) : FVec Ideal ⟨2, ![131071, 256]⟩ .f32 :=
  Host.scatter (rowsInto 1 (by decide)) (fun _ b => b) (stateC1 a) (rowAt 0#32) (stepC (N := 1) (M := 2) a.X a.Wx a.bx a.Wfx a.bfx a.Wi a.bi a.Wf a.bf 0 1 (by decide) (by decide) (by decide) (stateC1 a) (stateH1 a))
def stateH0 (a : Args) : FVec Ideal ⟨2, ![131071, 256]⟩ .f32 :=
  Host.scatter (rowsInto 1 (by decide)) (fun _ b => b) (stateH1 a) (rowAt 0#32) (stepH (N := 1) (M := 2) a.X a.Wx a.bx a.Wfx a.bfx a.Wi a.bi a.Wf a.bf 0 1 (by decide) (by decide) (by decide) (stateC1 a) (stateH1 a))

/-- The root's cell and hidden state: row 0 of the final arrays. -/
def rootC (a : Args) : FVec Ideal ⟨2, ![1, 256]⟩ .f32 :=
  extractStridedSlice ⟨2, ![1, 256]⟩ ![0, 0] (stateC0 a) (by decide)
def rootH (a : Args) : FVec Ideal ⟨2, ![1, 256]⟩ .f32 :=
  extractStridedSlice ⟨2, ![1, 256]⟩ ![0, 0] (stateH0 a) (by decide)

end Cert.TreeSpec

end
-- ==== Proof.KernelChain.lean ====
/-
  THE IDEALIZED KERNEL'S UPWARD PASS, BOUNDARY BY BOUNDARY.

  The program's buffers are followed from the launch memory through its seventeen segments. The projection region,
  fed the inner nodes' features padded by one row and the stacked transposed weights, leaves in its first 65535 rows
  the rows of the input projections  X · Wᵀ + b ; the leaf region leaves the leaves' cell and hidden states, its bias
  row being the sum of the two bias vectors where the reference adds them one after the other (addition of extended
  reals is associative); every later region, and every level the host computes itself, turns the two state arrays of
  the level below into the level's rows (LibTreeCell: stepC, stepH), which the next host operations write into the
  state arrays. So after the segment that handles level l the two state arrays are TreeSpec's stateC l and
  stateH l of the arguments, and the results are its rootC and rootH.
-/
import proofs.«176519_j24352464569160_2_alg».proof.Proof.Gen.KernelIdeal.Frame
import proofs.«176519_j24352464569160_2_alg».proof.Proof.KernelRegions
import proofs.«176519_j24352464569160_2_alg».proof.Proof.KernelHost
import proofs.«176519_j24352464569160_2_alg».proof.Proof.TreeSpec
import Idealize.ShloMosaic.Lib.KernelVsHost

set_option maxRecDepth 16384

noncomputable section

namespace Cert.KernelIdeal.TreeChain

open Cert.KernelIdeal Cert.KernelIdeal.Gen Cert.KernelIdeal.TreeRegions Cert.KernelIdeal.TreeHost Cert.TreeCell Cert.TreeSpec
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The arguments at launch. -/
abbrev kX : FVec Ideal S131071x256 .f32 := m ((c : Thread nD τ).loc main_arg0)
abbrev kWx : FVec Ideal S768x256 .f32 := m ((c : Thread nD τ).loc main_arg1)
abbrev kbx : FVec Ideal S768 .f32 := m ((c : Thread nD τ).loc main_arg2)
abbrev kWi : FVec Ideal S768x256 .f32 := m ((c : Thread nD τ).loc main_arg3)
abbrev kbi : FVec Ideal S768 .f32 := m ((c : Thread nD τ).loc main_arg4)
abbrev kWfx : FVec Ideal S256x256 .f32 := m ((c : Thread nD τ).loc main_arg5)
abbrev kbfx : FVec Ideal S256 .f32 := m ((c : Thread nD τ).loc main_arg6)
abbrev kWf : FVec Ideal S256x256 .f32 := m ((c : Thread nD τ).loc main_arg7)
abbrev kbf : FVec Ideal S256 .f32 := m ((c : Thread nD τ).loc main_arg8)
abbrev argsK : Args := ⟨kX m c, kWx m c, kbx m c, kWi m c, kbi m c, kWfx m c, kbfx m c, kWf m c, kbf m c⟩

/-! ## The arguments stay as launched -/

theorem h0_keep_arg0 (U : Valuation τ sig (Elt Ideal)) : after kops0 U (Proc.devRef .tc main_arg0) = U (Proc.devRef .tc main_arg0) := by
  dsimp only [kops0]
  after_results_simp

theorem h0_keep_arg1 (U : Valuation τ sig (Elt Ideal)) : after kops0 U (Proc.devRef .tc main_arg1) = U (Proc.devRef .tc main_arg1) := by
  dsimp only [kops0]
  after_results_simp

theorem h0_keep_arg2 (U : Valuation τ sig (Elt Ideal)) : after kops0 U (Proc.devRef .tc main_arg2) = U (Proc.devRef .tc main_arg2) := by
  dsimp only [kops0]
  after_results_simp

theorem h0_keep_arg3 (U : Valuation τ sig (Elt Ideal)) : after kops0 U (Proc.devRef .tc main_arg3) = U (Proc.devRef .tc main_arg3) := by
  dsimp only [kops0]
  after_results_simp

theorem h0_keep_arg4 (U : Valuation τ sig (Elt Ideal)) : after kops0 U (Proc.devRef .tc main_arg4) = U (Proc.devRef .tc main_arg4) := by
  dsimp only [kops0]
  after_results_simp

theorem h0_keep_arg7 (U : Valuation τ sig (Elt Ideal)) : after kops0 U (Proc.devRef .tc main_arg7) = U (Proc.devRef .tc main_arg7) := by
  dsimp only [kops0]
  after_results_simp

theorem h0_keep_arg8 (U : Valuation τ sig (Elt Ideal)) : after kops0 U (Proc.devRef .tc main_arg8) = U (Proc.devRef .tc main_arg8) := by
  dsimp only [kops0]
  after_results_simp

theorem h1_keep_arg3 (U : Valuation τ sig (Elt Ideal)) : after kops1 U (Proc.devRef .tc main_arg3) = U (Proc.devRef .tc main_arg3) := by
  dsimp only [kops1]
  after_results_simp

theorem h1_keep_arg4 (U : Valuation τ sig (Elt Ideal)) : after kops1 U (Proc.devRef .tc main_arg4) = U (Proc.devRef .tc main_arg4) := by
  dsimp only [kops1]
  after_results_simp

theorem h1_keep_arg7 (U : Valuation τ sig (Elt Ideal)) : after kops1 U (Proc.devRef .tc main_arg7) = U (Proc.devRef .tc main_arg7) := by
  dsimp only [kops1]
  after_results_simp

theorem h1_keep_arg8 (U : Valuation τ sig (Elt Ideal)) : after kops1 U (Proc.devRef .tc main_arg8) = U (Proc.devRef .tc main_arg8) := by
  dsimp only [kops1]
  after_results_simp

theorem w0_arg0 : W0 m ρ c (Proc.devRef .tc main_arg0) = m ((c : Thread nD τ).loc main_arg0) := rfl
theorem w1_arg0 : W1 m ρ c (Proc.devRef .tc main_arg0) = m ((c : Thread nD τ).loc main_arg0) := by
  show after hostOps0 (W0 m ρ c) (Proc.devRef .tc main_arg0) = _
  rw [hostOps0_eq, h0_keep_arg0]
  all_goals exact w0_arg0 m ρ c
theorem w2_arg0 : W2 m ρ c (Proc.devRef .tc main_arg0) = m ((c : Thread nD τ).loc main_arg0) :=
  (W2_of_ne m ρ c main_arg0 (by decide)).trans (w1_arg0 m ρ c)

theorem w0_arg1 : W0 m ρ c (Proc.devRef .tc main_arg1) = m ((c : Thread nD τ).loc main_arg1) := rfl
theorem w1_arg1 : W1 m ρ c (Proc.devRef .tc main_arg1) = m ((c : Thread nD τ).loc main_arg1) := by
  show after hostOps0 (W0 m ρ c) (Proc.devRef .tc main_arg1) = _
  rw [hostOps0_eq, h0_keep_arg1]
  all_goals exact w0_arg1 m ρ c
theorem w2_arg1 : W2 m ρ c (Proc.devRef .tc main_arg1) = m ((c : Thread nD τ).loc main_arg1) :=
  (W2_of_ne m ρ c main_arg1 (by decide)).trans (w1_arg1 m ρ c)

theorem w0_arg2 : W0 m ρ c (Proc.devRef .tc main_arg2) = m ((c : Thread nD τ).loc main_arg2) := rfl
theorem w1_arg2 : W1 m ρ c (Proc.devRef .tc main_arg2) = m ((c : Thread nD τ).loc main_arg2) := by
  show after hostOps0 (W0 m ρ c) (Proc.devRef .tc main_arg2) = _
  rw [hostOps0_eq, h0_keep_arg2]
  all_goals exact w0_arg2 m ρ c
theorem w2_arg2 : W2 m ρ c (Proc.devRef .tc main_arg2) = m ((c : Thread nD τ).loc main_arg2) :=
  (W2_of_ne m ρ c main_arg2 (by decide)).trans (w1_arg2 m ρ c)

theorem w0_arg3 : W0 m ρ c (Proc.devRef .tc main_arg3) = m ((c : Thread nD τ).loc main_arg3) := rfl
theorem w1_arg3 : W1 m ρ c (Proc.devRef .tc main_arg3) = m ((c : Thread nD τ).loc main_arg3) := by
  show after hostOps0 (W0 m ρ c) (Proc.devRef .tc main_arg3) = _
  rw [hostOps0_eq, h0_keep_arg3]
  all_goals exact w0_arg3 m ρ c
theorem w2_arg3 : W2 m ρ c (Proc.devRef .tc main_arg3) = m ((c : Thread nD τ).loc main_arg3) :=
  (W2_of_ne m ρ c main_arg3 (by decide)).trans (w1_arg3 m ρ c)
theorem w3_arg3 : W3 m ρ c (Proc.devRef .tc main_arg3) = m ((c : Thread nD τ).loc main_arg3) := by
  show after hostOps1 (W2 m ρ c) (Proc.devRef .tc main_arg3) = _
  rw [hostOps1_eq, h1_keep_arg3]
  exact w2_arg3 m ρ c
theorem w4_arg3 : W4 m ρ c (Proc.devRef .tc main_arg3) = m ((c : Thread nD τ).loc main_arg3) :=
  (W4_of_ne m ρ c main_arg3 (by decide)).trans (w3_arg3 m ρ c)

theorem w0_arg7 : W0 m ρ c (Proc.devRef .tc main_arg7) = m ((c : Thread nD τ).loc main_arg7) := rfl
theorem w1_arg7 : W1 m ρ c (Proc.devRef .tc main_arg7) = m ((c : Thread nD τ).loc main_arg7) := by
  show after hostOps0 (W0 m ρ c) (Proc.devRef .tc main_arg7) = _
  rw [hostOps0_eq, h0_keep_arg7]
  all_goals exact w0_arg7 m ρ c
theorem w2_arg7 : W2 m ρ c (Proc.devRef .tc main_arg7) = m ((c : Thread nD τ).loc main_arg7) :=
  (W2_of_ne m ρ c main_arg7 (by decide)).trans (w1_arg7 m ρ c)
theorem w3_arg7 : W3 m ρ c (Proc.devRef .tc main_arg7) = m ((c : Thread nD τ).loc main_arg7) := by
  show after hostOps1 (W2 m ρ c) (Proc.devRef .tc main_arg7) = _
  rw [hostOps1_eq, h1_keep_arg7]
  exact w2_arg7 m ρ c
theorem w4_arg7 : W4 m ρ c (Proc.devRef .tc main_arg7) = m ((c : Thread nD τ).loc main_arg7) :=
  (W4_of_ne m ρ c main_arg7 (by decide)).trans (w3_arg7 m ρ c)

theorem w0_arg4 : W0 m ρ c (Proc.devRef .tc main_arg4) = m ((c : Thread nD τ).loc main_arg4) := rfl
theorem w1_arg4 : W1 m ρ c (Proc.devRef .tc main_arg4) = m ((c : Thread nD τ).loc main_arg4) := by
  show after hostOps0 (W0 m ρ c) (Proc.devRef .tc main_arg4) = _
  rw [hostOps0_eq, h0_keep_arg4]
  all_goals exact w0_arg4 m ρ c
theorem w2_arg4 : W2 m ρ c (Proc.devRef .tc main_arg4) = m ((c : Thread nD τ).loc main_arg4) :=
  (W2_of_ne m ρ c main_arg4 (by decide)).trans (w1_arg4 m ρ c)
theorem w3_arg4 : W3 m ρ c (Proc.devRef .tc main_arg4) = m ((c : Thread nD τ).loc main_arg4) := by
  show after hostOps1 (W2 m ρ c) (Proc.devRef .tc main_arg4) = _
  rw [hostOps1_eq, h1_keep_arg4]
  exact w2_arg4 m ρ c
theorem w4_arg4 : W4 m ρ c (Proc.devRef .tc main_arg4) = m ((c : Thread nD τ).loc main_arg4) :=
  (W4_of_ne m ρ c main_arg4 (by decide)).trans (w3_arg4 m ρ c)
theorem w5_arg4 : W5 m ρ c (Proc.devRef .tc main_arg4) = m ((c : Thread nD τ).loc main_arg4) := by
  show after hostOps2 (W4 m ρ c) (Proc.devRef .tc main_arg4) = _
  rw [hostOps2_eq, h2_keep_arg4]
  exact w4_arg4 m ρ c
theorem w6_arg4 : W6 m ρ c (Proc.devRef .tc main_arg4) = m ((c : Thread nD τ).loc main_arg4) :=
  (W6_of_ne m ρ c main_arg4 (by decide)).trans (w5_arg4 m ρ c)
theorem w7_arg4 : W7 m ρ c (Proc.devRef .tc main_arg4) = m ((c : Thread nD τ).loc main_arg4) := by
  show after hostOps3 (W6 m ρ c) (Proc.devRef .tc main_arg4) = _
  rw [hostOps3_eq, h3_keep_arg4]
  exact w6_arg4 m ρ c
theorem w8_arg4 : W8 m ρ c (Proc.devRef .tc main_arg4) = m ((c : Thread nD τ).loc main_arg4) :=
  (W8_of_ne m ρ c main_arg4 (by decide)).trans (w7_arg4 m ρ c)
theorem w9_arg4 : W9 m ρ c (Proc.devRef .tc main_arg4) = m ((c : Thread nD τ).loc main_arg4) := by
  show after hostOps4 (W8 m ρ c) (Proc.devRef .tc main_arg4) = _
  rw [hostOps4_eq, h4_keep_arg4]
  exact w8_arg4 m ρ c
theorem w10_arg4 : W10 m ρ c (Proc.devRef .tc main_arg4) = m ((c : Thread nD τ).loc main_arg4) :=
  (W10_of_ne m ρ c main_arg4 (by decide)).trans (w9_arg4 m ρ c)
theorem w11_arg4 : W11 m ρ c (Proc.devRef .tc main_arg4) = m ((c : Thread nD τ).loc main_arg4) := by
  show after hostOps5 (W10 m ρ c) (Proc.devRef .tc main_arg4) = _
  rw [hostOps5_eq, h5_keep_arg4]
  exact w10_arg4 m ρ c
theorem w12_arg4 : W12 m ρ c (Proc.devRef .tc main_arg4) = m ((c : Thread nD τ).loc main_arg4) :=
  (W12_of_ne m ρ c main_arg4 (by decide)).trans (w11_arg4 m ρ c)
theorem w13_arg4 : W13 m ρ c (Proc.devRef .tc main_arg4) = m ((c : Thread nD τ).loc main_arg4) := by
  show after hostOps6 (W12 m ρ c) (Proc.devRef .tc main_arg4) = _
  rw [hostOps6_eq, h6_keep_arg4]
  exact w12_arg4 m ρ c
theorem w14_arg4 : W14 m ρ c (Proc.devRef .tc main_arg4) = m ((c : Thread nD τ).loc main_arg4) :=
  (W14_of_ne m ρ c main_arg4 (by decide)).trans (w13_arg4 m ρ c)
theorem w15_arg4 : W15 m ρ c (Proc.devRef .tc main_arg4) = m ((c : Thread nD τ).loc main_arg4) := by
  show after hostOps7 (W14 m ρ c) (Proc.devRef .tc main_arg4) = _
  rw [hostOps7_eq, h7_keep_arg4]
  exact w14_arg4 m ρ c
theorem w16_arg4 : W16 m ρ c (Proc.devRef .tc main_arg4) = m ((c : Thread nD τ).loc main_arg4) :=
  (W16_of_ne m ρ c main_arg4 (by decide)).trans (w15_arg4 m ρ c)

theorem w0_arg8 : W0 m ρ c (Proc.devRef .tc main_arg8) = m ((c : Thread nD τ).loc main_arg8) := rfl
theorem w1_arg8 : W1 m ρ c (Proc.devRef .tc main_arg8) = m ((c : Thread nD τ).loc main_arg8) := by
  show after hostOps0 (W0 m ρ c) (Proc.devRef .tc main_arg8) = _
  rw [hostOps0_eq, h0_keep_arg8]
  all_goals exact w0_arg8 m ρ c
theorem w2_arg8 : W2 m ρ c (Proc.devRef .tc main_arg8) = m ((c : Thread nD τ).loc main_arg8) :=
  (W2_of_ne m ρ c main_arg8 (by decide)).trans (w1_arg8 m ρ c)
theorem w3_arg8 : W3 m ρ c (Proc.devRef .tc main_arg8) = m ((c : Thread nD τ).loc main_arg8) := by
  show after hostOps1 (W2 m ρ c) (Proc.devRef .tc main_arg8) = _
  rw [hostOps1_eq, h1_keep_arg8]
  exact w2_arg8 m ρ c
theorem w4_arg8 : W4 m ρ c (Proc.devRef .tc main_arg8) = m ((c : Thread nD τ).loc main_arg8) :=
  (W4_of_ne m ρ c main_arg8 (by decide)).trans (w3_arg8 m ρ c)
theorem w5_arg8 : W5 m ρ c (Proc.devRef .tc main_arg8) = m ((c : Thread nD τ).loc main_arg8) := by
  show after hostOps2 (W4 m ρ c) (Proc.devRef .tc main_arg8) = _
  rw [hostOps2_eq, h2_keep_arg8]
  exact w4_arg8 m ρ c
theorem w6_arg8 : W6 m ρ c (Proc.devRef .tc main_arg8) = m ((c : Thread nD τ).loc main_arg8) :=
  (W6_of_ne m ρ c main_arg8 (by decide)).trans (w5_arg8 m ρ c)
theorem w7_arg8 : W7 m ρ c (Proc.devRef .tc main_arg8) = m ((c : Thread nD τ).loc main_arg8) := by
  show after hostOps3 (W6 m ρ c) (Proc.devRef .tc main_arg8) = _
  rw [hostOps3_eq, h3_keep_arg8]
  exact w6_arg8 m ρ c
theorem w8_arg8 : W8 m ρ c (Proc.devRef .tc main_arg8) = m ((c : Thread nD τ).loc main_arg8) :=
  (W8_of_ne m ρ c main_arg8 (by decide)).trans (w7_arg8 m ρ c)
theorem w9_arg8 : W9 m ρ c (Proc.devRef .tc main_arg8) = m ((c : Thread nD τ).loc main_arg8) := by
  show after hostOps4 (W8 m ρ c) (Proc.devRef .tc main_arg8) = _
  rw [hostOps4_eq, h4_keep_arg8]
  exact w8_arg8 m ρ c
theorem w10_arg8 : W10 m ρ c (Proc.devRef .tc main_arg8) = m ((c : Thread nD τ).loc main_arg8) :=
  (W10_of_ne m ρ c main_arg8 (by decide)).trans (w9_arg8 m ρ c)
theorem w11_arg8 : W11 m ρ c (Proc.devRef .tc main_arg8) = m ((c : Thread nD τ).loc main_arg8) := by
  show after hostOps5 (W10 m ρ c) (Proc.devRef .tc main_arg8) = _
  rw [hostOps5_eq, h5_keep_arg8]
  exact w10_arg8 m ρ c
theorem w12_arg8 : W12 m ρ c (Proc.devRef .tc main_arg8) = m ((c : Thread nD τ).loc main_arg8) :=
  (W12_of_ne m ρ c main_arg8 (by decide)).trans (w11_arg8 m ρ c)
theorem w13_arg8 : W13 m ρ c (Proc.devRef .tc main_arg8) = m ((c : Thread nD τ).loc main_arg8) := by
  show after hostOps6 (W12 m ρ c) (Proc.devRef .tc main_arg8) = _
  rw [hostOps6_eq, h6_keep_arg8]
  exact w12_arg8 m ρ c
theorem w14_arg8 : W14 m ρ c (Proc.devRef .tc main_arg8) = m ((c : Thread nD τ).loc main_arg8) :=
  (W14_of_ne m ρ c main_arg8 (by decide)).trans (w13_arg8 m ρ c)
theorem w15_arg8 : W15 m ρ c (Proc.devRef .tc main_arg8) = m ((c : Thread nD τ).loc main_arg8) := by
  show after hostOps7 (W14 m ρ c) (Proc.devRef .tc main_arg8) = _
  rw [hostOps7_eq, h7_keep_arg8]
  exact w14_arg8 m ρ c
theorem w16_arg8 : W16 m ρ c (Proc.devRef .tc main_arg8) = m ((c : Thread nD τ).loc main_arg8) :=
  (W16_of_ne m ρ c main_arg8 (by decide)).trans (w15_arg8 m ρ c)

/-! ## Before and in the projection region -/

/-- A vector recast as a one-row array reads, at (0, j), its entry j. -/
theorem row_cast {C : ℕ} {α : Type} (x : (⟨1, ![C]⟩ : Shape).Idx → α) (h : (⟨1, ![C]⟩ : Shape).ShapeCasts ⟨2, ![1, C]⟩)
    (j : Fin C) : shapeCast ⟨2, ![1, C]⟩ x h (ix2 (0 : Fin 1) j) = x (ix1 j) :=
  shapeCast_apply x h _ _ (by
    rw [Shape.rowMajor_val_one, Shape.rowMajor_val_two]
    show j.val = 0 * C + j.val
    rw [Nat.zero_mul, Nat.zero_add])

theorem w1_v1 (r : Fin 65536) (hr : r.val < 65535) (k : Fin 256) :
    (W1 m ρ c (Proc.devRef .tc main_call0_v1) : FVec Ideal S65536x256 .f32) (ix2 r k) = kX m c (ix2 (⟨r.val, by omega⟩ : Fin 131071) k) := by
  show after hostOps0 (W0 m ρ c) (Proc.devRef .tc main_call0_v1) (ix2 r k) = _
  rw [hostOps0_eq, h0_v1]
  refine (pad_apply_of_inside ![0, 0] ![1, 0] ![0, 0] _ _ pads_S65535x256_S65536x256_010_000 h_S_ (ix2 r k)
    (ix2 (⟨r.val, hr⟩ : Fin 65535) k) fun a => ?_).trans ?_
  · match a with
    | ⟨0, _⟩ => show r.val = 0 + r.val * (0 + 1); omega
    | ⟨1, _⟩ => show k.val = 0 + k.val * (0 + 1); omega
  · exact rows_slice_apply _ _ (⟨r.val, hr⟩ : Fin 65535) k (⟨r.val, by omega⟩ : Fin 131071) (Nat.zero_add _).symm

theorem w1_v4_left (k : Fin 256) (j : Fin 768) :
    (W1 m ρ c (Proc.devRef .tc main_call0_v4) : FVec Ideal S256x1024 .f32) (ix2 k (wide768 j)) = kWx m c (ix2 j k) := by
  show after hostOps0 (W0 m ρ c) (Proc.devRef .tc main_call0_v4) (ix2 k (wide768 j)) = _
  rw [hostOps0_eq, h0_v4]
  refine (transpose_pair_apply _ transposes_S1024x256_S256x1024_1_0 k (wide768 j)).trans ?_
  exact concatenate_pair_apply_left 0 _ _ concatenates_S768x256_S256x256_S1024x256_d0 (ix2 (wide768 j) k) rfl (ix2 j k)
    (fun b => by
      match b with
      | ⟨0, _⟩ => rfl
      | ⟨1, _⟩ => rfl)

theorem w1_v4_right (k : Fin 256) (q : Fin 256) :
    (W1 m ρ c (Proc.devRef .tc main_call0_v4) : FVec Ideal S256x1024 .f32) (ix2 k (wide256 q)) = kWfx m c (ix2 q k) := by
  show after hostOps0 (W0 m ρ c) (Proc.devRef .tc main_call0_v4) (ix2 k (wide256 q)) = _
  rw [hostOps0_eq, h0_v4]
  refine (transpose_pair_apply _ transposes_S1024x256_S256x1024_1_0 k (wide256 q)).trans ?_
  exact concatenate_pair_apply_right 0 _ _ concatenates_S768x256_S256x256_S1024x256_d0 (ix2 (wide256 q) k) rfl rfl (ix2 q k)
    (fun b hb => by
      match b with
      | ⟨0, _⟩ => exact absurd rfl hb
      | ⟨1, _⟩ => rfl)
    (by show q.val + 768 = 768 + q.val; omega)

theorem w1_v5_left (j : Fin 768) :
    (W1 m ρ c (Proc.devRef .tc main_call0_v5) : FVec Ideal S1x1024 .f32) (ix2 (0 : Fin 1) (wide768 j)) = kbx m c (ix1 j) := by
  show after hostOps0 (W0 m ρ c) (Proc.devRef .tc main_call0_v5) (ix2 (0 : Fin 1) (wide768 j)) = _
  rw [hostOps0_eq, h0_v5]
  refine (row_cast _ shapeCasts_S1024_S1x1024 (wide768 j)).trans ?_
  exact concatenate_pair_apply_left 0 _ _ concatenates_S768_S256_S1024_d0 (ix1 (wide768 j)) rfl (ix1 j)
    (fun b => by
      match b with
      | ⟨0, _⟩ => rfl)

theorem w1_v5_right (q : Fin 256) :
    (W1 m ρ c (Proc.devRef .tc main_call0_v5) : FVec Ideal S1x1024 .f32) (ix2 (0 : Fin 1) (wide256 q)) = kbfx m c (ix1 q) := by
  show after hostOps0 (W0 m ρ c) (Proc.devRef .tc main_call0_v5) (ix2 (0 : Fin 1) (wide256 q)) = _
  rw [hostOps0_eq, h0_v5]
  refine (row_cast _ shapeCasts_S1024_S1x1024 (wide256 q)).trans ?_
  exact concatenate_pair_apply_right 0 _ _ concatenates_S768_S256_S1024_d0 (ix1 (wide256 q)) rfl rfl (ix1 q)
    (fun b hb => by
      match b with
      | ⟨0, _⟩ => exact absurd rfl hb)
    (by show q.val + 768 = 768 + q.val; omega)

/-- After the projection region: row r < 65535 of its two outputs is row r of the two input projections. -/
theorem w2_iou (r : Fin 65536) (hr : r.val < 65535) (j : Fin 768) :
    (W2 m ρ c (Proc.devRef .tc main_call0_v6_0) : FVec Ideal S65536x768 .f32) (ix2 r j)
      = proj (kX m c) (kWx m c) (kbx m c) (⟨r.val, by omega⟩ : Fin 131071) j := by
  have e : W2 m ρ c (Proc.devRef .tc main_call0_v6_0) = (dat0 (V1 m ρ) c).arrAt 3 cfg0.N := W2_arr m ρ c 3
  rw [e, final0_3]
  show stacked (V1 m ρ) c r (wide768 j) = _
  unfold stacked proj
  refine congrArg₂ (· + ·) (Finset.sum_congr rfl fun k _ => ?_) (w1_v5_left m ρ c j)
  exact congrArg₂ (· * ·) (w1_v1 m ρ c r hr k) (w1_v4_left m ρ c k j)

theorem w2_fx (r : Fin 65536) (hr : r.val < 65535) (q : Fin 256) :
    (W2 m ρ c (Proc.devRef .tc main_call0_v6_1) : FVec Ideal S65536x256 .f32) (ix2 r q)
      = proj (kX m c) (kWfx m c) (kbfx m c) (⟨r.val, by omega⟩ : Fin 131071) q := by
  have e : W2 m ρ c (Proc.devRef .tc main_call0_v6_1) = (dat0 (V1 m ρ) c).arrAt 4 cfg0.N := W2_arr m ρ c 4
  rw [e, final0_4]
  show stacked (V1 m ρ) c r (wide256 q) = _
  unfold stacked proj
  refine congrArg₂ (· + ·) (Finset.sum_congr rfl fun k _ => ?_) (w1_v5_right m ρ c q)
  exact congrArg₂ (· * ·) (w1_v1 m ρ c r hr k) (w1_v4_right m ρ c k q)

/-- The projections' inner-node rows, as the later segments find them. -/
theorem w3_v7 (r : Fin 65535) (j : Fin 768) :
    (W3 m ρ c (Proc.devRef .tc main_call0_v7) : FVec Ideal S65535x768 .f32) (ix2 r j) = proj (kX m c) (kWx m c) (kbx m c) (⟨r.val, by have := r.isLt; omega⟩ : Fin 131071) j := by
  show after hostOps1 (W2 m ρ c) (Proc.devRef .tc main_call0_v7) (ix2 r j) = _
  rw [hostOps1_eq, h1_v7]
  exact (rows_slice_apply _ _ r j (⟨r.val, by have := r.isLt; omega⟩ : Fin 65536) (Nat.zero_add _).symm).trans
    (w2_iou m ρ c _ r.isLt j)

theorem w3_v8 (r : Fin 65535) (q : Fin 256) :
    (W3 m ρ c (Proc.devRef .tc main_call0_v8) : FVec Ideal S65535x256 .f32) (ix2 r q) = proj (kX m c) (kWfx m c) (kbfx m c) (⟨r.val, by have := r.isLt; omega⟩ : Fin 131071) q := by
  show after hostOps1 (W2 m ρ c) (Proc.devRef .tc main_call0_v8) (ix2 r q) = _
  rw [hostOps1_eq, h1_v8]
  exact (rows_slice_apply _ _ r q (⟨r.val, by have := r.isLt; omega⟩ : Fin 65536) (Nat.zero_add _).symm).trans
    (w2_fx m ρ c _ r.isLt q)

/-! ## The leaves -/

theorem w3_leafPre (n : Fin 65536) (j : Fin 768) : leafPre (V3 m ρ) c n j = leafGate (argsK m c) n j := by
  have e9 : ∀ k : Fin 256, leafX (V3 m ρ) c (ix2 n k)
      = kX m c (ix2 (⟨65535 + n.val, by have := n.isLt; omega⟩ : Fin 131071) k) := fun k => by
    show after hostOps1 (W2 m ρ c) (Proc.devRef .tc main_call0_v9) (ix2 n k) = _
    rw [hostOps1_eq, h1_v9]
    exact (rows_slice_apply _ slices_S131071x256_S65536x256_65535_0 n k
      (⟨65535 + n.val, by have := n.isLt; omega⟩ : Fin 131071) rfl).trans (congrFun (w2_arg0 m ρ c) _)
  have e12 : ∀ k : Fin 256, leafW (V3 m ρ) c (ix2 k j) = kWx m c (ix2 j k) := fun k => by
    show after hostOps1 (W2 m ρ c) (Proc.devRef .tc main_call0_v12) (ix2 k j) = _
    rw [hostOps1_eq, h1_v12]
    exact (transpose_pair_apply _ transposes_S768x256_S256x768_1_0 k j).trans (congrFun (w2_arg1 m ρ c) _)
  have e11 : leafB (V3 m ρ) c (ix2 (0 : Fin 1) j) = kbx m c (ix1 j) + kbi m c (ix1 j) := by
    show after hostOps1 (W2 m ρ c) (Proc.devRef .tc main_call0_v11) (ix2 (0 : Fin 1) j) = _
    rw [hostOps1_eq, h1_v11]
    refine (row_cast _ shapeCasts_S768_S1x768 j).trans ?_
    rw [addf_apply, w2_arg2, w2_arg4]
  unfold leafPre leafGate proj
  rw [e11, ← add_assoc]
  refine congrArg (fun z => z + kbx m c (ix1 j) + kbi m c (ix1 j)) (Finset.sum_congr rfl fun k _ => ?_)
  rw [e9, e12]

theorem w4_cleaf : (W4 m ρ c (Proc.devRef .tc main_call0_v13_0) : FVec Ideal S65536x256 .f32) = leafC (leafGate (argsK m c)) := by
  have e : W4 m ρ c (Proc.devRef .tc main_call0_v13_0) = (dat1 (V3 m ρ) c).arrAt 3 cfg1.N := W4_arr m ρ c 3
  rw [e, final1_3]
  exact congrArg leafC (funext fun n => funext fun j => w3_leafPre m ρ c n j)

theorem w4_hleaf : (W4 m ρ c (Proc.devRef .tc main_call0_v13_1) : FVec Ideal S65536x256 .f32) = leafH (leafGate (argsK m c)) := by
  have e : W4 m ρ c (Proc.devRef .tc main_call0_v13_1) = (dat1 (V3 m ρ) c).arrAt 4 cfg1.N := W4_arr m ρ c 4
  rw [e, final1_4]
  exact congrArg leafH (funext fun n => funext fun j => w3_leafPre m ρ c n j)

/-! ## Buffers the later segments leave alone -/
theorem w4_v7_eq : W4 m ρ c (Proc.devRef .tc main_call0_v7) = W3 m ρ c (Proc.devRef .tc main_call0_v7) :=
  (W4_of_ne m ρ c main_call0_v7 (by decide)).trans (rfl)
theorem w5_v7_eq : W5 m ρ c (Proc.devRef .tc main_call0_v7) = W3 m ρ c (Proc.devRef .tc main_call0_v7) := by
  show after hostOps2 (W4 m ρ c) (Proc.devRef .tc main_call0_v7) = _
  rw [hostOps2_eq, h2_keep_v7]
  exact w4_v7_eq m ρ c
theorem w6_v7_eq : W6 m ρ c (Proc.devRef .tc main_call0_v7) = W3 m ρ c (Proc.devRef .tc main_call0_v7) :=
  (W6_of_ne m ρ c main_call0_v7 (by decide)).trans (w5_v7_eq m ρ c)
theorem w7_v7_eq : W7 m ρ c (Proc.devRef .tc main_call0_v7) = W3 m ρ c (Proc.devRef .tc main_call0_v7) := by
  show after hostOps3 (W6 m ρ c) (Proc.devRef .tc main_call0_v7) = _
  rw [hostOps3_eq, h3_keep_v7]
  exact w6_v7_eq m ρ c
theorem w8_v7_eq : W8 m ρ c (Proc.devRef .tc main_call0_v7) = W3 m ρ c (Proc.devRef .tc main_call0_v7) :=
  (W8_of_ne m ρ c main_call0_v7 (by decide)).trans (w7_v7_eq m ρ c)
theorem w9_v7_eq : W9 m ρ c (Proc.devRef .tc main_call0_v7) = W3 m ρ c (Proc.devRef .tc main_call0_v7) := by
  show after hostOps4 (W8 m ρ c) (Proc.devRef .tc main_call0_v7) = _
  rw [hostOps4_eq, h4_keep_v7]
  exact w8_v7_eq m ρ c
theorem w10_v7_eq : W10 m ρ c (Proc.devRef .tc main_call0_v7) = W3 m ρ c (Proc.devRef .tc main_call0_v7) :=
  (W10_of_ne m ρ c main_call0_v7 (by decide)).trans (w9_v7_eq m ρ c)
theorem w11_v7_eq : W11 m ρ c (Proc.devRef .tc main_call0_v7) = W3 m ρ c (Proc.devRef .tc main_call0_v7) := by
  show after hostOps5 (W10 m ρ c) (Proc.devRef .tc main_call0_v7) = _
  rw [hostOps5_eq, h5_keep_v7]
  exact w10_v7_eq m ρ c
theorem w12_v7_eq : W12 m ρ c (Proc.devRef .tc main_call0_v7) = W3 m ρ c (Proc.devRef .tc main_call0_v7) :=
  (W12_of_ne m ρ c main_call0_v7 (by decide)).trans (w11_v7_eq m ρ c)
theorem w13_v7_eq : W13 m ρ c (Proc.devRef .tc main_call0_v7) = W3 m ρ c (Proc.devRef .tc main_call0_v7) := by
  show after hostOps6 (W12 m ρ c) (Proc.devRef .tc main_call0_v7) = _
  rw [hostOps6_eq, h6_keep_v7]
  exact w12_v7_eq m ρ c
theorem w14_v7_eq : W14 m ρ c (Proc.devRef .tc main_call0_v7) = W3 m ρ c (Proc.devRef .tc main_call0_v7) :=
  (W14_of_ne m ρ c main_call0_v7 (by decide)).trans (w13_v7_eq m ρ c)
theorem w15_v7_eq : W15 m ρ c (Proc.devRef .tc main_call0_v7) = W3 m ρ c (Proc.devRef .tc main_call0_v7) := by
  show after hostOps7 (W14 m ρ c) (Proc.devRef .tc main_call0_v7) = _
  rw [hostOps7_eq, h7_keep_v7]
  exact w14_v7_eq m ρ c
theorem w16_v7_eq : W16 m ρ c (Proc.devRef .tc main_call0_v7) = W3 m ρ c (Proc.devRef .tc main_call0_v7) :=
  (W16_of_ne m ρ c main_call0_v7 (by decide)).trans (w15_v7_eq m ρ c)
theorem w4_v8_eq : W4 m ρ c (Proc.devRef .tc main_call0_v8) = W3 m ρ c (Proc.devRef .tc main_call0_v8) :=
  (W4_of_ne m ρ c main_call0_v8 (by decide)).trans (rfl)
theorem w5_v8_eq : W5 m ρ c (Proc.devRef .tc main_call0_v8) = W3 m ρ c (Proc.devRef .tc main_call0_v8) := by
  show after hostOps2 (W4 m ρ c) (Proc.devRef .tc main_call0_v8) = _
  rw [hostOps2_eq, h2_keep_v8]
  exact w4_v8_eq m ρ c
theorem w6_v8_eq : W6 m ρ c (Proc.devRef .tc main_call0_v8) = W3 m ρ c (Proc.devRef .tc main_call0_v8) :=
  (W6_of_ne m ρ c main_call0_v8 (by decide)).trans (w5_v8_eq m ρ c)
theorem w7_v8_eq : W7 m ρ c (Proc.devRef .tc main_call0_v8) = W3 m ρ c (Proc.devRef .tc main_call0_v8) := by
  show after hostOps3 (W6 m ρ c) (Proc.devRef .tc main_call0_v8) = _
  rw [hostOps3_eq, h3_keep_v8]
  exact w6_v8_eq m ρ c
theorem w8_v8_eq : W8 m ρ c (Proc.devRef .tc main_call0_v8) = W3 m ρ c (Proc.devRef .tc main_call0_v8) :=
  (W8_of_ne m ρ c main_call0_v8 (by decide)).trans (w7_v8_eq m ρ c)
theorem w9_v8_eq : W9 m ρ c (Proc.devRef .tc main_call0_v8) = W3 m ρ c (Proc.devRef .tc main_call0_v8) := by
  show after hostOps4 (W8 m ρ c) (Proc.devRef .tc main_call0_v8) = _
  rw [hostOps4_eq, h4_keep_v8]
  exact w8_v8_eq m ρ c
theorem w10_v8_eq : W10 m ρ c (Proc.devRef .tc main_call0_v8) = W3 m ρ c (Proc.devRef .tc main_call0_v8) :=
  (W10_of_ne m ρ c main_call0_v8 (by decide)).trans (w9_v8_eq m ρ c)
theorem w11_v8_eq : W11 m ρ c (Proc.devRef .tc main_call0_v8) = W3 m ρ c (Proc.devRef .tc main_call0_v8) := by
  show after hostOps5 (W10 m ρ c) (Proc.devRef .tc main_call0_v8) = _
  rw [hostOps5_eq, h5_keep_v8]
  exact w10_v8_eq m ρ c
theorem w12_v8_eq : W12 m ρ c (Proc.devRef .tc main_call0_v8) = W3 m ρ c (Proc.devRef .tc main_call0_v8) :=
  (W12_of_ne m ρ c main_call0_v8 (by decide)).trans (w11_v8_eq m ρ c)
theorem w13_v8_eq : W13 m ρ c (Proc.devRef .tc main_call0_v8) = W3 m ρ c (Proc.devRef .tc main_call0_v8) := by
  show after hostOps6 (W12 m ρ c) (Proc.devRef .tc main_call0_v8) = _
  rw [hostOps6_eq, h6_keep_v8]
  exact w12_v8_eq m ρ c
theorem w14_v8_eq : W14 m ρ c (Proc.devRef .tc main_call0_v8) = W3 m ρ c (Proc.devRef .tc main_call0_v8) :=
  (W14_of_ne m ρ c main_call0_v8 (by decide)).trans (w13_v8_eq m ρ c)
theorem w15_v8_eq : W15 m ρ c (Proc.devRef .tc main_call0_v8) = W3 m ρ c (Proc.devRef .tc main_call0_v8) := by
  show after hostOps7 (W14 m ρ c) (Proc.devRef .tc main_call0_v8) = _
  rw [hostOps7_eq, h7_keep_v8]
  exact w14_v8_eq m ρ c
theorem w16_v8_eq : W16 m ρ c (Proc.devRef .tc main_call0_v8) = W3 m ρ c (Proc.devRef .tc main_call0_v8) :=
  (W16_of_ne m ρ c main_call0_v8 (by decide)).trans (w15_v8_eq m ρ c)
theorem w6_v20_eq : W6 m ρ c (Proc.devRef .tc main_call0_v20) = W5 m ρ c (Proc.devRef .tc main_call0_v20) :=
  ((W6_arr m ρ c 4).trans (((dat2 (V5 m ρ) c).arrAt_in 4 rfl cfg2.N).trans (A_eq2 (V5 m ρ) c 4))).trans (rfl)
theorem w7_v20_eq : W7 m ρ c (Proc.devRef .tc main_call0_v20) = W5 m ρ c (Proc.devRef .tc main_call0_v20) := by
  show after hostOps3 (W6 m ρ c) (Proc.devRef .tc main_call0_v20) = _
  rw [hostOps3_eq, h3_keep_v20]
  exact w6_v20_eq m ρ c
theorem w8_v20_eq : W8 m ρ c (Proc.devRef .tc main_call0_v20) = W5 m ρ c (Proc.devRef .tc main_call0_v20) :=
  ((W8_arr m ρ c 4).trans (((dat3 (V7 m ρ) c).arrAt_in 4 rfl cfg3.N).trans (A_eq3 (V7 m ρ) c 4))).trans (w7_v20_eq m ρ c)
theorem w9_v20_eq : W9 m ρ c (Proc.devRef .tc main_call0_v20) = W5 m ρ c (Proc.devRef .tc main_call0_v20) := by
  show after hostOps4 (W8 m ρ c) (Proc.devRef .tc main_call0_v20) = _
  rw [hostOps4_eq, h4_keep_v20]
  exact w8_v20_eq m ρ c
theorem w10_v20_eq : W10 m ρ c (Proc.devRef .tc main_call0_v20) = W5 m ρ c (Proc.devRef .tc main_call0_v20) :=
  ((W10_arr m ρ c 4).trans (((dat4 (V9 m ρ) c).arrAt_in 4 rfl cfg4.N).trans (A_eq4 (V9 m ρ) c 4))).trans (w9_v20_eq m ρ c)
theorem w11_v20_eq : W11 m ρ c (Proc.devRef .tc main_call0_v20) = W5 m ρ c (Proc.devRef .tc main_call0_v20) := by
  show after hostOps5 (W10 m ρ c) (Proc.devRef .tc main_call0_v20) = _
  rw [hostOps5_eq, h5_keep_v20]
  exact w10_v20_eq m ρ c
theorem w12_v20_eq : W12 m ρ c (Proc.devRef .tc main_call0_v20) = W5 m ρ c (Proc.devRef .tc main_call0_v20) :=
  ((W12_arr m ρ c 4).trans (((dat5 (V11 m ρ) c).arrAt_in 4 rfl cfg5.N).trans (A_eq5 (V11 m ρ) c 4))).trans (w11_v20_eq m ρ c)
theorem w13_v20_eq : W13 m ρ c (Proc.devRef .tc main_call0_v20) = W5 m ρ c (Proc.devRef .tc main_call0_v20) := by
  show after hostOps6 (W12 m ρ c) (Proc.devRef .tc main_call0_v20) = _
  rw [hostOps6_eq, h6_keep_v20]
  exact w12_v20_eq m ρ c
theorem w14_v20_eq : W14 m ρ c (Proc.devRef .tc main_call0_v20) = W5 m ρ c (Proc.devRef .tc main_call0_v20) :=
  ((W14_arr m ρ c 4).trans (((dat6 (V13 m ρ) c).arrAt_in 4 rfl cfg6.N).trans (A_eq6 (V13 m ρ) c 4))).trans (w13_v20_eq m ρ c)
theorem w15_v20_eq : W15 m ρ c (Proc.devRef .tc main_call0_v20) = W5 m ρ c (Proc.devRef .tc main_call0_v20) := by
  show after hostOps7 (W14 m ρ c) (Proc.devRef .tc main_call0_v20) = _
  rw [hostOps7_eq, h7_keep_v20]
  exact w14_v20_eq m ρ c
theorem w16_v20_eq : W16 m ρ c (Proc.devRef .tc main_call0_v20) = W5 m ρ c (Proc.devRef .tc main_call0_v20) :=
  ((W16_arr m ρ c 4).trans (((dat7 (V15 m ρ) c).arrAt_in 4 rfl cfg7.N).trans (A_eq7 (V15 m ρ) c 4))).trans (w15_v20_eq m ρ c)
theorem w6_v21_eq : W6 m ρ c (Proc.devRef .tc main_call0_v21) = W5 m ρ c (Proc.devRef .tc main_call0_v21) :=
  ((W6_arr m ρ c 6).trans (((dat2 (V5 m ρ) c).arrAt_in 6 rfl cfg2.N).trans (A_eq2 (V5 m ρ) c 6))).trans (rfl)
theorem w7_v21_eq : W7 m ρ c (Proc.devRef .tc main_call0_v21) = W5 m ρ c (Proc.devRef .tc main_call0_v21) := by
  show after hostOps3 (W6 m ρ c) (Proc.devRef .tc main_call0_v21) = _
  rw [hostOps3_eq, h3_keep_v21]
  exact w6_v21_eq m ρ c
theorem w8_v21_eq : W8 m ρ c (Proc.devRef .tc main_call0_v21) = W5 m ρ c (Proc.devRef .tc main_call0_v21) :=
  ((W8_arr m ρ c 6).trans (((dat3 (V7 m ρ) c).arrAt_in 6 rfl cfg3.N).trans (A_eq3 (V7 m ρ) c 6))).trans (w7_v21_eq m ρ c)
theorem w9_v21_eq : W9 m ρ c (Proc.devRef .tc main_call0_v21) = W5 m ρ c (Proc.devRef .tc main_call0_v21) := by
  show after hostOps4 (W8 m ρ c) (Proc.devRef .tc main_call0_v21) = _
  rw [hostOps4_eq, h4_keep_v21]
  exact w8_v21_eq m ρ c
theorem w10_v21_eq : W10 m ρ c (Proc.devRef .tc main_call0_v21) = W5 m ρ c (Proc.devRef .tc main_call0_v21) :=
  ((W10_arr m ρ c 6).trans (((dat4 (V9 m ρ) c).arrAt_in 6 rfl cfg4.N).trans (A_eq4 (V9 m ρ) c 6))).trans (w9_v21_eq m ρ c)
theorem w11_v21_eq : W11 m ρ c (Proc.devRef .tc main_call0_v21) = W5 m ρ c (Proc.devRef .tc main_call0_v21) := by
  show after hostOps5 (W10 m ρ c) (Proc.devRef .tc main_call0_v21) = _
  rw [hostOps5_eq, h5_keep_v21]
  exact w10_v21_eq m ρ c
theorem w12_v21_eq : W12 m ρ c (Proc.devRef .tc main_call0_v21) = W5 m ρ c (Proc.devRef .tc main_call0_v21) :=
  ((W12_arr m ρ c 6).trans (((dat5 (V11 m ρ) c).arrAt_in 6 rfl cfg5.N).trans (A_eq5 (V11 m ρ) c 6))).trans (w11_v21_eq m ρ c)
theorem w13_v21_eq : W13 m ρ c (Proc.devRef .tc main_call0_v21) = W5 m ρ c (Proc.devRef .tc main_call0_v21) := by
  show after hostOps6 (W12 m ρ c) (Proc.devRef .tc main_call0_v21) = _
  rw [hostOps6_eq, h6_keep_v21]
  exact w12_v21_eq m ρ c
theorem w14_v21_eq : W14 m ρ c (Proc.devRef .tc main_call0_v21) = W5 m ρ c (Proc.devRef .tc main_call0_v21) :=
  ((W14_arr m ρ c 6).trans (((dat6 (V13 m ρ) c).arrAt_in 6 rfl cfg6.N).trans (A_eq6 (V13 m ρ) c 6))).trans (w13_v21_eq m ρ c)
theorem w15_v21_eq : W15 m ρ c (Proc.devRef .tc main_call0_v21) = W5 m ρ c (Proc.devRef .tc main_call0_v21) := by
  show after hostOps7 (W14 m ρ c) (Proc.devRef .tc main_call0_v21) = _
  rw [hostOps7_eq, h7_keep_v21]
  exact w14_v21_eq m ρ c
theorem w16_v21_eq : W16 m ρ c (Proc.devRef .tc main_call0_v21) = W5 m ρ c (Proc.devRef .tc main_call0_v21) :=
  ((W16_arr m ρ c 6).trans (((dat7 (V15 m ρ) c).arrAt_in 6 rfl cfg7.N).trans (A_eq7 (V15 m ρ) c 6))).trans (w15_v21_eq m ρ c)
theorem w6_v22_eq : W6 m ρ c (Proc.devRef .tc main_call0_v22) = W5 m ρ c (Proc.devRef .tc main_call0_v22) :=
  ((W6_arr m ρ c 5).trans (((dat2 (V5 m ρ) c).arrAt_in 5 rfl cfg2.N).trans (A_eq2 (V5 m ρ) c 5))).trans (rfl)
theorem w7_v22_eq : W7 m ρ c (Proc.devRef .tc main_call0_v22) = W5 m ρ c (Proc.devRef .tc main_call0_v22) := by
  show after hostOps3 (W6 m ρ c) (Proc.devRef .tc main_call0_v22) = _
  rw [hostOps3_eq, h3_keep_v22]
  exact w6_v22_eq m ρ c
theorem w8_v22_eq : W8 m ρ c (Proc.devRef .tc main_call0_v22) = W5 m ρ c (Proc.devRef .tc main_call0_v22) :=
  ((W8_arr m ρ c 5).trans (((dat3 (V7 m ρ) c).arrAt_in 5 rfl cfg3.N).trans (A_eq3 (V7 m ρ) c 5))).trans (w7_v22_eq m ρ c)
theorem w9_v22_eq : W9 m ρ c (Proc.devRef .tc main_call0_v22) = W5 m ρ c (Proc.devRef .tc main_call0_v22) := by
  show after hostOps4 (W8 m ρ c) (Proc.devRef .tc main_call0_v22) = _
  rw [hostOps4_eq, h4_keep_v22]
  exact w8_v22_eq m ρ c
theorem w10_v22_eq : W10 m ρ c (Proc.devRef .tc main_call0_v22) = W5 m ρ c (Proc.devRef .tc main_call0_v22) :=
  ((W10_arr m ρ c 5).trans (((dat4 (V9 m ρ) c).arrAt_in 5 rfl cfg4.N).trans (A_eq4 (V9 m ρ) c 5))).trans (w9_v22_eq m ρ c)
theorem w11_v22_eq : W11 m ρ c (Proc.devRef .tc main_call0_v22) = W5 m ρ c (Proc.devRef .tc main_call0_v22) := by
  show after hostOps5 (W10 m ρ c) (Proc.devRef .tc main_call0_v22) = _
  rw [hostOps5_eq, h5_keep_v22]
  exact w10_v22_eq m ρ c
theorem w12_v22_eq : W12 m ρ c (Proc.devRef .tc main_call0_v22) = W5 m ρ c (Proc.devRef .tc main_call0_v22) :=
  ((W12_arr m ρ c 5).trans (((dat5 (V11 m ρ) c).arrAt_in 5 rfl cfg5.N).trans (A_eq5 (V11 m ρ) c 5))).trans (w11_v22_eq m ρ c)
theorem w13_v22_eq : W13 m ρ c (Proc.devRef .tc main_call0_v22) = W5 m ρ c (Proc.devRef .tc main_call0_v22) := by
  show after hostOps6 (W12 m ρ c) (Proc.devRef .tc main_call0_v22) = _
  rw [hostOps6_eq, h6_keep_v22]
  exact w12_v22_eq m ρ c
theorem w14_v22_eq : W14 m ρ c (Proc.devRef .tc main_call0_v22) = W5 m ρ c (Proc.devRef .tc main_call0_v22) :=
  ((W14_arr m ρ c 5).trans (((dat6 (V13 m ρ) c).arrAt_in 5 rfl cfg6.N).trans (A_eq6 (V13 m ρ) c 5))).trans (w13_v22_eq m ρ c)
theorem w15_v22_eq : W15 m ρ c (Proc.devRef .tc main_call0_v22) = W5 m ρ c (Proc.devRef .tc main_call0_v22) := by
  show after hostOps7 (W14 m ρ c) (Proc.devRef .tc main_call0_v22) = _
  rw [hostOps7_eq, h7_keep_v22]
  exact w14_v22_eq m ρ c
theorem w6_v23_eq : W6 m ρ c (Proc.devRef .tc main_call0_v23) = W5 m ρ c (Proc.devRef .tc main_call0_v23) :=
  ((W6_arr m ρ c 7).trans (((dat2 (V5 m ρ) c).arrAt_in 7 rfl cfg2.N).trans (A_eq2 (V5 m ρ) c 7))).trans (rfl)
theorem w7_v23_eq : W7 m ρ c (Proc.devRef .tc main_call0_v23) = W5 m ρ c (Proc.devRef .tc main_call0_v23) := by
  show after hostOps3 (W6 m ρ c) (Proc.devRef .tc main_call0_v23) = _
  rw [hostOps3_eq, h3_keep_v23]
  exact w6_v23_eq m ρ c
theorem w8_v23_eq : W8 m ρ c (Proc.devRef .tc main_call0_v23) = W5 m ρ c (Proc.devRef .tc main_call0_v23) :=
  ((W8_arr m ρ c 7).trans (((dat3 (V7 m ρ) c).arrAt_in 7 rfl cfg3.N).trans (A_eq3 (V7 m ρ) c 7))).trans (w7_v23_eq m ρ c)
theorem w9_v23_eq : W9 m ρ c (Proc.devRef .tc main_call0_v23) = W5 m ρ c (Proc.devRef .tc main_call0_v23) := by
  show after hostOps4 (W8 m ρ c) (Proc.devRef .tc main_call0_v23) = _
  rw [hostOps4_eq, h4_keep_v23]
  exact w8_v23_eq m ρ c
theorem w10_v23_eq : W10 m ρ c (Proc.devRef .tc main_call0_v23) = W5 m ρ c (Proc.devRef .tc main_call0_v23) :=
  ((W10_arr m ρ c 7).trans (((dat4 (V9 m ρ) c).arrAt_in 7 rfl cfg4.N).trans (A_eq4 (V9 m ρ) c 7))).trans (w9_v23_eq m ρ c)
theorem w11_v23_eq : W11 m ρ c (Proc.devRef .tc main_call0_v23) = W5 m ρ c (Proc.devRef .tc main_call0_v23) := by
  show after hostOps5 (W10 m ρ c) (Proc.devRef .tc main_call0_v23) = _
  rw [hostOps5_eq, h5_keep_v23]
  exact w10_v23_eq m ρ c
theorem w12_v23_eq : W12 m ρ c (Proc.devRef .tc main_call0_v23) = W5 m ρ c (Proc.devRef .tc main_call0_v23) :=
  ((W12_arr m ρ c 7).trans (((dat5 (V11 m ρ) c).arrAt_in 7 rfl cfg5.N).trans (A_eq5 (V11 m ρ) c 7))).trans (w11_v23_eq m ρ c)
theorem w13_v23_eq : W13 m ρ c (Proc.devRef .tc main_call0_v23) = W5 m ρ c (Proc.devRef .tc main_call0_v23) := by
  show after hostOps6 (W12 m ρ c) (Proc.devRef .tc main_call0_v23) = _
  rw [hostOps6_eq, h6_keep_v23]
  exact w12_v23_eq m ρ c
theorem w14_v23_eq : W14 m ρ c (Proc.devRef .tc main_call0_v23) = W5 m ρ c (Proc.devRef .tc main_call0_v23) :=
  ((W14_arr m ρ c 7).trans (((dat6 (V13 m ρ) c).arrAt_in 7 rfl cfg6.N).trans (A_eq6 (V13 m ρ) c 7))).trans (w13_v23_eq m ρ c)
theorem w15_v23_eq : W15 m ρ c (Proc.devRef .tc main_call0_v23) = W5 m ρ c (Proc.devRef .tc main_call0_v23) := by
  show after hostOps7 (W14 m ρ c) (Proc.devRef .tc main_call0_v23) = _
  rw [hostOps7_eq, h7_keep_v23]
  exact w14_v23_eq m ρ c

/-- The transposed hidden-state weights and the one-row biases, from the stretch that makes them. -/
theorem w5_v20 (k : Fin 256) (j : Fin 768) : (W5 m ρ c (Proc.devRef .tc main_call0_v20) : FVec Ideal S256x768 .f32) (ix2 k j) = kWi m c (ix2 j k) := by
  show after hostOps2 (W4 m ρ c) (Proc.devRef .tc main_call0_v20) (ix2 k j) = _
  rw [hostOps2_eq, h2_v20]
  exact (transpose_pair_apply _ transposes_S768x256_S256x768_1_0 k j).trans (congrFun (w4_arg3 m ρ c) _)

theorem w5_v21 (k : Fin 256) (q : Fin 256) : (W5 m ρ c (Proc.devRef .tc main_call0_v21) : FVec Ideal S256x256 .f32) (ix2 k q) = kWf m c (ix2 q k) := by
  show after hostOps2 (W4 m ρ c) (Proc.devRef .tc main_call0_v21) (ix2 k q) = _
  rw [hostOps2_eq, h2_v21]
  exact (transpose_pair_apply _ transposes_S256x256_S256x256_1_0 k q).trans (congrFun (w4_arg7 m ρ c) _)

theorem w5_v22 (j : Fin 768) : (W5 m ρ c (Proc.devRef .tc main_call0_v22) : FVec Ideal S1x768 .f32) (ix2 (0 : Fin 1) j) = kbi m c (ix1 j) := by
  show after hostOps2 (W4 m ρ c) (Proc.devRef .tc main_call0_v22) (ix2 (0 : Fin 1) j) = _
  rw [hostOps2_eq, h2_v22]
  exact (row_cast _ shapeCasts_S768_S1x768 j).trans (congrFun (w4_arg4 m ρ c) _)

theorem w5_v23 (q : Fin 256) : (W5 m ρ c (Proc.devRef .tc main_call0_v23) : FVec Ideal S1x256 .f32) (ix2 (0 : Fin 1) q) = kbf m c (ix1 q) := by
  show after hostOps2 (W4 m ρ c) (Proc.devRef .tc main_call0_v23) (ix2 (0 : Fin 1) q) = _
  rw [hostOps2_eq, h2_v23]
  exact (row_cast _ shapeCasts_S256_S1x256 q).trans (congrFun (w4_arg8 m ρ c) _)

theorem w5_v20_eq : (W5 m ρ c (Proc.devRef .tc main_call0_v20) : FVec Ideal S256x768 .f32) = transpose S256x768 [1, 0] (kWi m c) transposes_S768x256_S256x768_1_0 := by
  show after hostOps2 (W4 m ρ c) (Proc.devRef .tc main_call0_v20) = _
  rw [hostOps2_eq, h2_v20, w4_arg3]

theorem w5_v21_eq : (W5 m ρ c (Proc.devRef .tc main_call0_v21) : FVec Ideal S256x256 .f32) = transpose S256x256 [1, 0] (kWf m c) transposes_S256x256_S256x256_1_0 := by
  show after hostOps2 (W4 m ρ c) (Proc.devRef .tc main_call0_v21) = _
  rw [hostOps2_eq, h2_v21, w4_arg7]

/-! ## Level 15 (region 2) -/

theorem w5_C : (W5 m ρ c (Proc.devRef .tc main_call0_v17) : FVec Ideal S131071x256 .f32) = stateC16 (argsK m c) := by
  show after hostOps2 (W4 m ρ c) (Proc.devRef .tc main_call0_v17) = _
  rw [hostOps2_eq, h2_v17, w4_cleaf]
  rfl

theorem w5_H : (W5 m ρ c (Proc.devRef .tc main_call0_v19) : FVec Ideal S131071x256 .f32) = stateH16 (argsK m c) := by
  show after hostOps2 (W4 m ρ c) (Proc.devRef .tc main_call0_v19) = _
  rw [hostOps2_eq, h2_v19, w4_hleaf]
  rfl

theorem w5_iou : (W5 m ρ c (Proc.devRef .tc main_call0_v24) : FVec Ideal S32768x768 .f32) = projRows (N := 32768) (kX m c) (kWx m c) (kbx m c) 32767 (by decide) := by
  show after hostOps2 (W4 m ρ c) (Proc.devRef .tc main_call0_v24) = _
  rw [hostOps2_eq, h2_v24]
  exact rows_slice_eq_projRows _ _ _ _ 32767 _ _ fun r j _ =>
    (congrFun (W4_of_ne m ρ c main_call0_v7 (by decide)) (ix2 r j)).trans (w3_v7 m ρ c r j)

theorem w5_fx : (W5 m ρ c (Proc.devRef .tc main_call0_v25) : FVec Ideal S32768x256 .f32) = projRows (N := 32768) (kX m c) (kWfx m c) (kbfx m c) 32767 (by decide) := by
  show after hostOps2 (W4 m ρ c) (Proc.devRef .tc main_call0_v25) = _
  rw [hostOps2_eq, h2_v25]
  exact rows_slice_eq_projRows _ _ _ _ 32767 _ _ fun r q _ =>
    (congrFun (W4_of_ne m ρ c main_call0_v8 (by decide)) (ix2 r q)).trans (w3_v8 m ρ c r q)

theorem w5_ch : (W5 m ρ c (Proc.devRef .tc main_call0_v27) : FVec Ideal S32768x2x256 .f32)
    = childrenOf (N := 32768) (M := 65536) 65535 slices_S131071x256_S65536x256_65535_0 shapeCasts_S65536x256_S32768x2x256 (stateH16 (argsK m c)) := by
  rw [← w5_H m ρ c]
  show after hostOps2 (W4 m ρ c) (Proc.devRef .tc main_call0_v27) = childrenOf _ _ _ (after hostOps2 (W4 m ρ c) (Proc.devRef .tc main_call0_v19))
  rw [hostOps2_eq, h2_v27, h2_v19]

theorem w5_cc : (W5 m ρ c (Proc.devRef .tc main_call0_v29) : FVec Ideal S32768x2x256 .f32)
    = childrenOf (N := 32768) (M := 65536) 65535 slices_S131071x256_S65536x256_65535_0 shapeCasts_S65536x256_S32768x2x256 (stateC16 (argsK m c)) := by
  rw [← w5_C m ρ c]
  show after hostOps2 (W4 m ρ c) (Proc.devRef .tc main_call0_v29) = childrenOf _ _ _ (after hostOps2 (W4 m ρ c) (Proc.devRef .tc main_call0_v17))
  rw [hostOps2_eq, h2_v29, h2_v17]

theorem w6_outC : (W6 m ρ c (Proc.devRef .tc main_call0_v30_0) : FVec Ideal S32768x256 .f32) = stepC (N := 32768) (M := 65536) (kX m c) (kWx m c) (kbx m c) (kWfx m c) (kbfx m c) (kWi m c) (kbi m c) (kWf m c) (kbf m c) 32767 65535 (by decide) slices_S131071x256_S65536x256_65535_0 shapeCasts_S65536x256_S32768x2x256 (stateC16 (argsK m c)) (stateH16 (argsK m c)) := by
  have e : W6 m ρ c (Proc.devRef .tc main_call0_v30_0) = (dat2 (V5 m ρ) c).arrAt 8 cfg2.N := W6_arr m ρ c 8
  rw [e, final2_8 (V5 m ρ) c (kWi m c) (kbi m c) (kWf m c) (kbf m c) (fun x y => w5_v20 m ρ c x y) (fun x => w5_v22 m ρ c x) (fun x y => w5_v21 m ρ c x y) (fun x => w5_v23 m ρ c x)]
  show cellC (W5 m ρ c (Proc.devRef .tc main_call0_v24)) (W5 m ρ c (Proc.devRef .tc main_call0_v25)) (W5 m ρ c (Proc.devRef .tc main_call0_v27)) (W5 m ρ c (Proc.devRef .tc main_call0_v29)) _ _ _ _ = _
  rw [w5_iou, w5_fx, w5_ch, w5_cc]
  rfl

theorem w6_outH : (W6 m ρ c (Proc.devRef .tc main_call0_v30_1) : FVec Ideal S32768x256 .f32) = stepH (N := 32768) (M := 65536) (kX m c) (kWx m c) (kbx m c) (kWfx m c) (kbfx m c) (kWi m c) (kbi m c) (kWf m c) (kbf m c) 32767 65535 (by decide) slices_S131071x256_S65536x256_65535_0 shapeCasts_S65536x256_S32768x2x256 (stateC16 (argsK m c)) (stateH16 (argsK m c)) := by
  have e : W6 m ρ c (Proc.devRef .tc main_call0_v30_1) = (dat2 (V5 m ρ) c).arrAt 9 cfg2.N := W6_arr m ρ c 9
  rw [e, final2_9 (V5 m ρ) c (kWi m c) (kbi m c) (kWf m c) (kbf m c) (fun x y => w5_v20 m ρ c x y) (fun x => w5_v22 m ρ c x) (fun x y => w5_v21 m ρ c x y) (fun x => w5_v23 m ρ c x)]
  show cellH (W5 m ρ c (Proc.devRef .tc main_call0_v24)) (W5 m ρ c (Proc.devRef .tc main_call0_v25)) (W5 m ρ c (Proc.devRef .tc main_call0_v27)) (W5 m ρ c (Proc.devRef .tc main_call0_v29)) _ _ _ _ = _
  rw [w5_iou, w5_fx, w5_ch, w5_cc]
  rfl

/-! ## Level 14 (region 3) -/

theorem w7_C : (W7 m ρ c (Proc.devRef .tc main_call0_v32) : FVec Ideal S131071x256 .f32) = stateC15 (argsK m c) := by
  show after hostOps3 (W6 m ρ c) (Proc.devRef .tc main_call0_v32) = _
  rw [hostOps3_eq, h3_v32, W6_of_ne m ρ c main_call0_v17 (by decide), w5_C, w6_outC]
  rfl

theorem w7_H : (W7 m ρ c (Proc.devRef .tc main_call0_v34) : FVec Ideal S131071x256 .f32) = stateH15 (argsK m c) := by
  show after hostOps3 (W6 m ρ c) (Proc.devRef .tc main_call0_v34) = _
  rw [hostOps3_eq, h3_v34, W6_of_ne m ρ c main_call0_v19 (by decide), w5_H, w6_outH]
  rfl

theorem w7_iou : (W7 m ρ c (Proc.devRef .tc main_call0_v35) : FVec Ideal S16384x768 .f32) = projRows (N := 16384) (kX m c) (kWx m c) (kbx m c) 16383 (by decide) := by
  show after hostOps3 (W6 m ρ c) (Proc.devRef .tc main_call0_v35) = _
  rw [hostOps3_eq, h3_v35]
  exact rows_slice_eq_projRows _ _ _ _ 16383 _ _ fun r j _ =>
    (congrFun (w6_v7_eq m ρ c) (ix2 r j)).trans (w3_v7 m ρ c r j)

theorem w7_fx : (W7 m ρ c (Proc.devRef .tc main_call0_v36) : FVec Ideal S16384x256 .f32) = projRows (N := 16384) (kX m c) (kWfx m c) (kbfx m c) 16383 (by decide) := by
  show after hostOps3 (W6 m ρ c) (Proc.devRef .tc main_call0_v36) = _
  rw [hostOps3_eq, h3_v36]
  exact rows_slice_eq_projRows _ _ _ _ 16383 _ _ fun r q _ =>
    (congrFun (w6_v8_eq m ρ c) (ix2 r q)).trans (w3_v8 m ρ c r q)

theorem w7_ch : (W7 m ρ c (Proc.devRef .tc main_call0_v38) : FVec Ideal S16384x2x256 .f32)
    = childrenOf (N := 16384) (M := 32768) 32767 slices_S131071x256_S32768x256_32767_0 shapeCasts_S32768x256_S16384x2x256 (stateH15 (argsK m c)) := by
  rw [← w7_H m ρ c]
  show after hostOps3 (W6 m ρ c) (Proc.devRef .tc main_call0_v38) = childrenOf _ _ _ (after hostOps3 (W6 m ρ c) (Proc.devRef .tc main_call0_v34))
  rw [hostOps3_eq, h3_v38, h3_v34]

theorem w7_cc : (W7 m ρ c (Proc.devRef .tc main_call0_v40) : FVec Ideal S16384x2x256 .f32)
    = childrenOf (N := 16384) (M := 32768) 32767 slices_S131071x256_S32768x256_32767_0 shapeCasts_S32768x256_S16384x2x256 (stateC15 (argsK m c)) := by
  rw [← w7_C m ρ c]
  show after hostOps3 (W6 m ρ c) (Proc.devRef .tc main_call0_v40) = childrenOf _ _ _ (after hostOps3 (W6 m ρ c) (Proc.devRef .tc main_call0_v32))
  rw [hostOps3_eq, h3_v40, h3_v32]

theorem w8_outC : (W8 m ρ c (Proc.devRef .tc main_call0_v41_0) : FVec Ideal S16384x256 .f32) = stepC (N := 16384) (M := 32768) (kX m c) (kWx m c) (kbx m c) (kWfx m c) (kbfx m c) (kWi m c) (kbi m c) (kWf m c) (kbf m c) 16383 32767 (by decide) slices_S131071x256_S32768x256_32767_0 shapeCasts_S32768x256_S16384x2x256 (stateC15 (argsK m c)) (stateH15 (argsK m c)) := by
  have e : W8 m ρ c (Proc.devRef .tc main_call0_v41_0) = (dat3 (V7 m ρ) c).arrAt 8 cfg3.N := W8_arr m ρ c 8
  rw [e, final3_8 (V7 m ρ) c (kWi m c) (kbi m c) (kWf m c) (kbf m c) (fun x y => (congrFun (w7_v20_eq m ρ c) (ix2 x y)).trans (w5_v20 m ρ c x y)) (fun x => (congrFun (w7_v22_eq m ρ c) (ix2 (0 : Fin 1) x)).trans (w5_v22 m ρ c x)) (fun x y => (congrFun (w7_v21_eq m ρ c) (ix2 x y)).trans (w5_v21 m ρ c x y)) (fun x => (congrFun (w7_v23_eq m ρ c) (ix2 (0 : Fin 1) x)).trans (w5_v23 m ρ c x))]
  show cellC (W7 m ρ c (Proc.devRef .tc main_call0_v35)) (W7 m ρ c (Proc.devRef .tc main_call0_v36)) (W7 m ρ c (Proc.devRef .tc main_call0_v38)) (W7 m ρ c (Proc.devRef .tc main_call0_v40)) _ _ _ _ = _
  rw [w7_iou, w7_fx, w7_ch, w7_cc]
  rfl

theorem w8_outH : (W8 m ρ c (Proc.devRef .tc main_call0_v41_1) : FVec Ideal S16384x256 .f32) = stepH (N := 16384) (M := 32768) (kX m c) (kWx m c) (kbx m c) (kWfx m c) (kbfx m c) (kWi m c) (kbi m c) (kWf m c) (kbf m c) 16383 32767 (by decide) slices_S131071x256_S32768x256_32767_0 shapeCasts_S32768x256_S16384x2x256 (stateC15 (argsK m c)) (stateH15 (argsK m c)) := by
  have e : W8 m ρ c (Proc.devRef .tc main_call0_v41_1) = (dat3 (V7 m ρ) c).arrAt 9 cfg3.N := W8_arr m ρ c 9
  rw [e, final3_9 (V7 m ρ) c (kWi m c) (kbi m c) (kWf m c) (kbf m c) (fun x y => (congrFun (w7_v20_eq m ρ c) (ix2 x y)).trans (w5_v20 m ρ c x y)) (fun x => (congrFun (w7_v22_eq m ρ c) (ix2 (0 : Fin 1) x)).trans (w5_v22 m ρ c x)) (fun x y => (congrFun (w7_v21_eq m ρ c) (ix2 x y)).trans (w5_v21 m ρ c x y)) (fun x => (congrFun (w7_v23_eq m ρ c) (ix2 (0 : Fin 1) x)).trans (w5_v23 m ρ c x))]
  show cellH (W7 m ρ c (Proc.devRef .tc main_call0_v35)) (W7 m ρ c (Proc.devRef .tc main_call0_v36)) (W7 m ρ c (Proc.devRef .tc main_call0_v38)) (W7 m ρ c (Proc.devRef .tc main_call0_v40)) _ _ _ _ = _
  rw [w7_iou, w7_fx, w7_ch, w7_cc]
  rfl

/-! ## Level 13 (region 4) -/

theorem w9_C : (W9 m ρ c (Proc.devRef .tc main_call0_v43) : FVec Ideal S131071x256 .f32) = stateC14 (argsK m c) := by
  show after hostOps4 (W8 m ρ c) (Proc.devRef .tc main_call0_v43) = _
  rw [hostOps4_eq, h4_v43, W8_of_ne m ρ c main_call0_v32 (by decide), w7_C, w8_outC]
  rfl

theorem w9_H : (W9 m ρ c (Proc.devRef .tc main_call0_v45) : FVec Ideal S131071x256 .f32) = stateH14 (argsK m c) := by
  show after hostOps4 (W8 m ρ c) (Proc.devRef .tc main_call0_v45) = _
  rw [hostOps4_eq, h4_v45, W8_of_ne m ρ c main_call0_v34 (by decide), w7_H, w8_outH]
  rfl

theorem w9_iou : (W9 m ρ c (Proc.devRef .tc main_call0_v46) : FVec Ideal S8192x768 .f32) = projRows (N := 8192) (kX m c) (kWx m c) (kbx m c) 8191 (by decide) := by
  show after hostOps4 (W8 m ρ c) (Proc.devRef .tc main_call0_v46) = _
  rw [hostOps4_eq, h4_v46]
  exact rows_slice_eq_projRows _ _ _ _ 8191 _ _ fun r j _ =>
    (congrFun (w8_v7_eq m ρ c) (ix2 r j)).trans (w3_v7 m ρ c r j)

theorem w9_fx : (W9 m ρ c (Proc.devRef .tc main_call0_v47) : FVec Ideal S8192x256 .f32) = projRows (N := 8192) (kX m c) (kWfx m c) (kbfx m c) 8191 (by decide) := by
  show after hostOps4 (W8 m ρ c) (Proc.devRef .tc main_call0_v47) = _
  rw [hostOps4_eq, h4_v47]
  exact rows_slice_eq_projRows _ _ _ _ 8191 _ _ fun r q _ =>
    (congrFun (w8_v8_eq m ρ c) (ix2 r q)).trans (w3_v8 m ρ c r q)

theorem w9_ch : (W9 m ρ c (Proc.devRef .tc main_call0_v49) : FVec Ideal S8192x2x256 .f32)
    = childrenOf (N := 8192) (M := 16384) 16383 slices_S131071x256_S16384x256_16383_0 shapeCasts_S16384x256_S8192x2x256 (stateH14 (argsK m c)) := by
  rw [← w9_H m ρ c]
  show after hostOps4 (W8 m ρ c) (Proc.devRef .tc main_call0_v49) = childrenOf _ _ _ (after hostOps4 (W8 m ρ c) (Proc.devRef .tc main_call0_v45))
  rw [hostOps4_eq, h4_v49, h4_v45]

theorem w9_cc : (W9 m ρ c (Proc.devRef .tc main_call0_v51) : FVec Ideal S8192x2x256 .f32)
    = childrenOf (N := 8192) (M := 16384) 16383 slices_S131071x256_S16384x256_16383_0 shapeCasts_S16384x256_S8192x2x256 (stateC14 (argsK m c)) := by
  rw [← w9_C m ρ c]
  show after hostOps4 (W8 m ρ c) (Proc.devRef .tc main_call0_v51) = childrenOf _ _ _ (after hostOps4 (W8 m ρ c) (Proc.devRef .tc main_call0_v43))
  rw [hostOps4_eq, h4_v51, h4_v43]

theorem w10_outC : (W10 m ρ c (Proc.devRef .tc main_call0_v52_0) : FVec Ideal S8192x256 .f32) = stepC (N := 8192) (M := 16384) (kX m c) (kWx m c) (kbx m c) (kWfx m c) (kbfx m c) (kWi m c) (kbi m c) (kWf m c) (kbf m c) 8191 16383 (by decide) slices_S131071x256_S16384x256_16383_0 shapeCasts_S16384x256_S8192x2x256 (stateC14 (argsK m c)) (stateH14 (argsK m c)) := by
  have e : W10 m ρ c (Proc.devRef .tc main_call0_v52_0) = (dat4 (V9 m ρ) c).arrAt 8 cfg4.N := W10_arr m ρ c 8
  rw [e, final4_8 (V9 m ρ) c (kWi m c) (kbi m c) (kWf m c) (kbf m c) (fun x y => (congrFun (w9_v20_eq m ρ c) (ix2 x y)).trans (w5_v20 m ρ c x y)) (fun x => (congrFun (w9_v22_eq m ρ c) (ix2 (0 : Fin 1) x)).trans (w5_v22 m ρ c x)) (fun x y => (congrFun (w9_v21_eq m ρ c) (ix2 x y)).trans (w5_v21 m ρ c x y)) (fun x => (congrFun (w9_v23_eq m ρ c) (ix2 (0 : Fin 1) x)).trans (w5_v23 m ρ c x))]
  show cellC (W9 m ρ c (Proc.devRef .tc main_call0_v46)) (W9 m ρ c (Proc.devRef .tc main_call0_v47)) (W9 m ρ c (Proc.devRef .tc main_call0_v49)) (W9 m ρ c (Proc.devRef .tc main_call0_v51)) _ _ _ _ = _
  rw [w9_iou, w9_fx, w9_ch, w9_cc]
  rfl

theorem w10_outH : (W10 m ρ c (Proc.devRef .tc main_call0_v52_1) : FVec Ideal S8192x256 .f32) = stepH (N := 8192) (M := 16384) (kX m c) (kWx m c) (kbx m c) (kWfx m c) (kbfx m c) (kWi m c) (kbi m c) (kWf m c) (kbf m c) 8191 16383 (by decide) slices_S131071x256_S16384x256_16383_0 shapeCasts_S16384x256_S8192x2x256 (stateC14 (argsK m c)) (stateH14 (argsK m c)) := by
  have e : W10 m ρ c (Proc.devRef .tc main_call0_v52_1) = (dat4 (V9 m ρ) c).arrAt 9 cfg4.N := W10_arr m ρ c 9
  rw [e, final4_9 (V9 m ρ) c (kWi m c) (kbi m c) (kWf m c) (kbf m c) (fun x y => (congrFun (w9_v20_eq m ρ c) (ix2 x y)).trans (w5_v20 m ρ c x y)) (fun x => (congrFun (w9_v22_eq m ρ c) (ix2 (0 : Fin 1) x)).trans (w5_v22 m ρ c x)) (fun x y => (congrFun (w9_v21_eq m ρ c) (ix2 x y)).trans (w5_v21 m ρ c x y)) (fun x => (congrFun (w9_v23_eq m ρ c) (ix2 (0 : Fin 1) x)).trans (w5_v23 m ρ c x))]
  show cellH (W9 m ρ c (Proc.devRef .tc main_call0_v46)) (W9 m ρ c (Proc.devRef .tc main_call0_v47)) (W9 m ρ c (Proc.devRef .tc main_call0_v49)) (W9 m ρ c (Proc.devRef .tc main_call0_v51)) _ _ _ _ = _
  rw [w9_iou, w9_fx, w9_ch, w9_cc]
  rfl

/-! ## Level 12 (region 5) -/

theorem w11_C : (W11 m ρ c (Proc.devRef .tc main_call0_v54) : FVec Ideal S131071x256 .f32) = stateC13 (argsK m c) := by
  show after hostOps5 (W10 m ρ c) (Proc.devRef .tc main_call0_v54) = _
  rw [hostOps5_eq, h5_v54, W10_of_ne m ρ c main_call0_v43 (by decide), w9_C, w10_outC]
  rfl

theorem w11_H : (W11 m ρ c (Proc.devRef .tc main_call0_v56) : FVec Ideal S131071x256 .f32) = stateH13 (argsK m c) := by
  show after hostOps5 (W10 m ρ c) (Proc.devRef .tc main_call0_v56) = _
  rw [hostOps5_eq, h5_v56, W10_of_ne m ρ c main_call0_v45 (by decide), w9_H, w10_outH]
  rfl

theorem w11_iou : (W11 m ρ c (Proc.devRef .tc main_call0_v57) : FVec Ideal S4096x768 .f32) = projRows (N := 4096) (kX m c) (kWx m c) (kbx m c) 4095 (by decide) := by
  show after hostOps5 (W10 m ρ c) (Proc.devRef .tc main_call0_v57) = _
  rw [hostOps5_eq, h5_v57]
  exact rows_slice_eq_projRows _ _ _ _ 4095 _ _ fun r j _ =>
    (congrFun (w10_v7_eq m ρ c) (ix2 r j)).trans (w3_v7 m ρ c r j)

theorem w11_fx : (W11 m ρ c (Proc.devRef .tc main_call0_v58) : FVec Ideal S4096x256 .f32) = projRows (N := 4096) (kX m c) (kWfx m c) (kbfx m c) 4095 (by decide) := by
  show after hostOps5 (W10 m ρ c) (Proc.devRef .tc main_call0_v58) = _
  rw [hostOps5_eq, h5_v58]
  exact rows_slice_eq_projRows _ _ _ _ 4095 _ _ fun r q _ =>
    (congrFun (w10_v8_eq m ρ c) (ix2 r q)).trans (w3_v8 m ρ c r q)

theorem w11_ch : (W11 m ρ c (Proc.devRef .tc main_call0_v60) : FVec Ideal S4096x2x256 .f32)
    = childrenOf (N := 4096) (M := 8192) 8191 slices_S131071x256_S8192x256_8191_0 shapeCasts_S8192x256_S4096x2x256 (stateH13 (argsK m c)) := by
  rw [← w11_H m ρ c]
  show after hostOps5 (W10 m ρ c) (Proc.devRef .tc main_call0_v60) = childrenOf _ _ _ (after hostOps5 (W10 m ρ c) (Proc.devRef .tc main_call0_v56))
  rw [hostOps5_eq, h5_v60, h5_v56]

theorem w11_cc : (W11 m ρ c (Proc.devRef .tc main_call0_v62) : FVec Ideal S4096x2x256 .f32)
    = childrenOf (N := 4096) (M := 8192) 8191 slices_S131071x256_S8192x256_8191_0 shapeCasts_S8192x256_S4096x2x256 (stateC13 (argsK m c)) := by
  rw [← w11_C m ρ c]
  show after hostOps5 (W10 m ρ c) (Proc.devRef .tc main_call0_v62) = childrenOf _ _ _ (after hostOps5 (W10 m ρ c) (Proc.devRef .tc main_call0_v54))
  rw [hostOps5_eq, h5_v62, h5_v54]

theorem w12_outC : (W12 m ρ c (Proc.devRef .tc main_call0_v63_0) : FVec Ideal S4096x256 .f32) = stepC (N := 4096) (M := 8192) (kX m c) (kWx m c) (kbx m c) (kWfx m c) (kbfx m c) (kWi m c) (kbi m c) (kWf m c) (kbf m c) 4095 8191 (by decide) slices_S131071x256_S8192x256_8191_0 shapeCasts_S8192x256_S4096x2x256 (stateC13 (argsK m c)) (stateH13 (argsK m c)) := by
  have e : W12 m ρ c (Proc.devRef .tc main_call0_v63_0) = (dat5 (V11 m ρ) c).arrAt 8 cfg5.N := W12_arr m ρ c 8
  rw [e, final5_8 (V11 m ρ) c (kWi m c) (kbi m c) (kWf m c) (kbf m c) (fun x y => (congrFun (w11_v20_eq m ρ c) (ix2 x y)).trans (w5_v20 m ρ c x y)) (fun x => (congrFun (w11_v22_eq m ρ c) (ix2 (0 : Fin 1) x)).trans (w5_v22 m ρ c x)) (fun x y => (congrFun (w11_v21_eq m ρ c) (ix2 x y)).trans (w5_v21 m ρ c x y)) (fun x => (congrFun (w11_v23_eq m ρ c) (ix2 (0 : Fin 1) x)).trans (w5_v23 m ρ c x))]
  show cellC (W11 m ρ c (Proc.devRef .tc main_call0_v57)) (W11 m ρ c (Proc.devRef .tc main_call0_v58)) (W11 m ρ c (Proc.devRef .tc main_call0_v60)) (W11 m ρ c (Proc.devRef .tc main_call0_v62)) _ _ _ _ = _
  rw [w11_iou, w11_fx, w11_ch, w11_cc]
  rfl

theorem w12_outH : (W12 m ρ c (Proc.devRef .tc main_call0_v63_1) : FVec Ideal S4096x256 .f32) = stepH (N := 4096) (M := 8192) (kX m c) (kWx m c) (kbx m c) (kWfx m c) (kbfx m c) (kWi m c) (kbi m c) (kWf m c) (kbf m c) 4095 8191 (by decide) slices_S131071x256_S8192x256_8191_0 shapeCasts_S8192x256_S4096x2x256 (stateC13 (argsK m c)) (stateH13 (argsK m c)) := by
  have e : W12 m ρ c (Proc.devRef .tc main_call0_v63_1) = (dat5 (V11 m ρ) c).arrAt 9 cfg5.N := W12_arr m ρ c 9
  rw [e, final5_9 (V11 m ρ) c (kWi m c) (kbi m c) (kWf m c) (kbf m c) (fun x y => (congrFun (w11_v20_eq m ρ c) (ix2 x y)).trans (w5_v20 m ρ c x y)) (fun x => (congrFun (w11_v22_eq m ρ c) (ix2 (0 : Fin 1) x)).trans (w5_v22 m ρ c x)) (fun x y => (congrFun (w11_v21_eq m ρ c) (ix2 x y)).trans (w5_v21 m ρ c x y)) (fun x => (congrFun (w11_v23_eq m ρ c) (ix2 (0 : Fin 1) x)).trans (w5_v23 m ρ c x))]
  show cellH (W11 m ρ c (Proc.devRef .tc main_call0_v57)) (W11 m ρ c (Proc.devRef .tc main_call0_v58)) (W11 m ρ c (Proc.devRef .tc main_call0_v60)) (W11 m ρ c (Proc.devRef .tc main_call0_v62)) _ _ _ _ = _
  rw [w11_iou, w11_fx, w11_ch, w11_cc]
  rfl

/-! ## Level 11 (region 6) -/

theorem w13_C : (W13 m ρ c (Proc.devRef .tc main_call0_v65) : FVec Ideal S131071x256 .f32) = stateC12 (argsK m c) := by
  show after hostOps6 (W12 m ρ c) (Proc.devRef .tc main_call0_v65) = _
  rw [hostOps6_eq, h6_v65, W12_of_ne m ρ c main_call0_v54 (by decide), w11_C, w12_outC]
  rfl

theorem w13_H : (W13 m ρ c (Proc.devRef .tc main_call0_v67) : FVec Ideal S131071x256 .f32) = stateH12 (argsK m c) := by
  show after hostOps6 (W12 m ρ c) (Proc.devRef .tc main_call0_v67) = _
  rw [hostOps6_eq, h6_v67, W12_of_ne m ρ c main_call0_v56 (by decide), w11_H, w12_outH]
  rfl

theorem w13_iou : (W13 m ρ c (Proc.devRef .tc main_call0_v68) : FVec Ideal S2048x768 .f32) = projRows (N := 2048) (kX m c) (kWx m c) (kbx m c) 2047 (by decide) := by
  show after hostOps6 (W12 m ρ c) (Proc.devRef .tc main_call0_v68) = _
  rw [hostOps6_eq, h6_v68]
  exact rows_slice_eq_projRows _ _ _ _ 2047 _ _ fun r j _ =>
    (congrFun (w12_v7_eq m ρ c) (ix2 r j)).trans (w3_v7 m ρ c r j)

theorem w13_fx : (W13 m ρ c (Proc.devRef .tc main_call0_v69) : FVec Ideal S2048x256 .f32) = projRows (N := 2048) (kX m c) (kWfx m c) (kbfx m c) 2047 (by decide) := by
  show after hostOps6 (W12 m ρ c) (Proc.devRef .tc main_call0_v69) = _
  rw [hostOps6_eq, h6_v69]
  exact rows_slice_eq_projRows _ _ _ _ 2047 _ _ fun r q _ =>
    (congrFun (w12_v8_eq m ρ c) (ix2 r q)).trans (w3_v8 m ρ c r q)

theorem w13_ch : (W13 m ρ c (Proc.devRef .tc main_call0_v71) : FVec Ideal S2048x2x256 .f32)
    = childrenOf (N := 2048) (M := 4096) 4095 slices_S131071x256_S4096x256_4095_0 shapeCasts_S4096x256_S2048x2x256 (stateH12 (argsK m c)) := by
  rw [← w13_H m ρ c]
  show after hostOps6 (W12 m ρ c) (Proc.devRef .tc main_call0_v71) = childrenOf _ _ _ (after hostOps6 (W12 m ρ c) (Proc.devRef .tc main_call0_v67))
  rw [hostOps6_eq, h6_v71, h6_v67]

theorem w13_cc : (W13 m ρ c (Proc.devRef .tc main_call0_v73) : FVec Ideal S2048x2x256 .f32)
    = childrenOf (N := 2048) (M := 4096) 4095 slices_S131071x256_S4096x256_4095_0 shapeCasts_S4096x256_S2048x2x256 (stateC12 (argsK m c)) := by
  rw [← w13_C m ρ c]
  show after hostOps6 (W12 m ρ c) (Proc.devRef .tc main_call0_v73) = childrenOf _ _ _ (after hostOps6 (W12 m ρ c) (Proc.devRef .tc main_call0_v65))
  rw [hostOps6_eq, h6_v73, h6_v65]

theorem w14_outC : (W14 m ρ c (Proc.devRef .tc main_call0_v74_0) : FVec Ideal S2048x256 .f32) = stepC (N := 2048) (M := 4096) (kX m c) (kWx m c) (kbx m c) (kWfx m c) (kbfx m c) (kWi m c) (kbi m c) (kWf m c) (kbf m c) 2047 4095 (by decide) slices_S131071x256_S4096x256_4095_0 shapeCasts_S4096x256_S2048x2x256 (stateC12 (argsK m c)) (stateH12 (argsK m c)) := by
  have e : W14 m ρ c (Proc.devRef .tc main_call0_v74_0) = (dat6 (V13 m ρ) c).arrAt 8 cfg6.N := W14_arr m ρ c 8
  rw [e, final6_8 (V13 m ρ) c (kWi m c) (kbi m c) (kWf m c) (kbf m c) (fun x y => (congrFun (w13_v20_eq m ρ c) (ix2 x y)).trans (w5_v20 m ρ c x y)) (fun x => (congrFun (w13_v22_eq m ρ c) (ix2 (0 : Fin 1) x)).trans (w5_v22 m ρ c x)) (fun x y => (congrFun (w13_v21_eq m ρ c) (ix2 x y)).trans (w5_v21 m ρ c x y)) (fun x => (congrFun (w13_v23_eq m ρ c) (ix2 (0 : Fin 1) x)).trans (w5_v23 m ρ c x))]
  show cellC (W13 m ρ c (Proc.devRef .tc main_call0_v68)) (W13 m ρ c (Proc.devRef .tc main_call0_v69)) (W13 m ρ c (Proc.devRef .tc main_call0_v71)) (W13 m ρ c (Proc.devRef .tc main_call0_v73)) _ _ _ _ = _
  rw [w13_iou, w13_fx, w13_ch, w13_cc]
  rfl

theorem w14_outH : (W14 m ρ c (Proc.devRef .tc main_call0_v74_1) : FVec Ideal S2048x256 .f32) = stepH (N := 2048) (M := 4096) (kX m c) (kWx m c) (kbx m c) (kWfx m c) (kbfx m c) (kWi m c) (kbi m c) (kWf m c) (kbf m c) 2047 4095 (by decide) slices_S131071x256_S4096x256_4095_0 shapeCasts_S4096x256_S2048x2x256 (stateC12 (argsK m c)) (stateH12 (argsK m c)) := by
  have e : W14 m ρ c (Proc.devRef .tc main_call0_v74_1) = (dat6 (V13 m ρ) c).arrAt 9 cfg6.N := W14_arr m ρ c 9
  rw [e, final6_9 (V13 m ρ) c (kWi m c) (kbi m c) (kWf m c) (kbf m c) (fun x y => (congrFun (w13_v20_eq m ρ c) (ix2 x y)).trans (w5_v20 m ρ c x y)) (fun x => (congrFun (w13_v22_eq m ρ c) (ix2 (0 : Fin 1) x)).trans (w5_v22 m ρ c x)) (fun x y => (congrFun (w13_v21_eq m ρ c) (ix2 x y)).trans (w5_v21 m ρ c x y)) (fun x => (congrFun (w13_v23_eq m ρ c) (ix2 (0 : Fin 1) x)).trans (w5_v23 m ρ c x))]
  show cellH (W13 m ρ c (Proc.devRef .tc main_call0_v68)) (W13 m ρ c (Proc.devRef .tc main_call0_v69)) (W13 m ρ c (Proc.devRef .tc main_call0_v71)) (W13 m ρ c (Proc.devRef .tc main_call0_v73)) _ _ _ _ = _
  rw [w13_iou, w13_fx, w13_ch, w13_cc]
  rfl

/-! ## Level 10 (region 7) -/

theorem w15_C : (W15 m ρ c (Proc.devRef .tc main_call0_v76) : FVec Ideal S131071x256 .f32) = stateC11 (argsK m c) := by
  show after hostOps7 (W14 m ρ c) (Proc.devRef .tc main_call0_v76) = _
  rw [hostOps7_eq, h7_v76, W14_of_ne m ρ c main_call0_v65 (by decide), w13_C, w14_outC]
  rfl

theorem w15_H : (W15 m ρ c (Proc.devRef .tc main_call0_v78) : FVec Ideal S131071x256 .f32) = stateH11 (argsK m c) := by
  show after hostOps7 (W14 m ρ c) (Proc.devRef .tc main_call0_v78) = _
  rw [hostOps7_eq, h7_v78, W14_of_ne m ρ c main_call0_v67 (by decide), w13_H, w14_outH]
  rfl

theorem w15_iou : (W15 m ρ c (Proc.devRef .tc main_call0_v79) : FVec Ideal S1024x768 .f32) = projRows (N := 1024) (kX m c) (kWx m c) (kbx m c) 1023 (by decide) := by
  show after hostOps7 (W14 m ρ c) (Proc.devRef .tc main_call0_v79) = _
  rw [hostOps7_eq, h7_v79]
  exact rows_slice_eq_projRows _ _ _ _ 1023 _ _ fun r j _ =>
    (congrFun (w14_v7_eq m ρ c) (ix2 r j)).trans (w3_v7 m ρ c r j)

theorem w15_fx : (W15 m ρ c (Proc.devRef .tc main_call0_v80) : FVec Ideal S1024x256 .f32) = projRows (N := 1024) (kX m c) (kWfx m c) (kbfx m c) 1023 (by decide) := by
  show after hostOps7 (W14 m ρ c) (Proc.devRef .tc main_call0_v80) = _
  rw [hostOps7_eq, h7_v80]
  exact rows_slice_eq_projRows _ _ _ _ 1023 _ _ fun r q _ =>
    (congrFun (w14_v8_eq m ρ c) (ix2 r q)).trans (w3_v8 m ρ c r q)

theorem w15_ch : (W15 m ρ c (Proc.devRef .tc main_call0_v82) : FVec Ideal S1024x2x256 .f32)
    = childrenOf (N := 1024) (M := 2048) 2047 slices_S131071x256_S2048x256_2047_0 shapeCasts_S2048x256_S1024x2x256 (stateH11 (argsK m c)) := by
  rw [← w15_H m ρ c]
  show after hostOps7 (W14 m ρ c) (Proc.devRef .tc main_call0_v82) = childrenOf _ _ _ (after hostOps7 (W14 m ρ c) (Proc.devRef .tc main_call0_v78))
  rw [hostOps7_eq, h7_v82, h7_v78]

theorem w15_cc : (W15 m ρ c (Proc.devRef .tc main_call0_v84) : FVec Ideal S1024x2x256 .f32)
    = childrenOf (N := 1024) (M := 2048) 2047 slices_S131071x256_S2048x256_2047_0 shapeCasts_S2048x256_S1024x2x256 (stateC11 (argsK m c)) := by
  rw [← w15_C m ρ c]
  show after hostOps7 (W14 m ρ c) (Proc.devRef .tc main_call0_v84) = childrenOf _ _ _ (after hostOps7 (W14 m ρ c) (Proc.devRef .tc main_call0_v76))
  rw [hostOps7_eq, h7_v84, h7_v76]

theorem w16_outC : (W16 m ρ c (Proc.devRef .tc main_call0_v85_0) : FVec Ideal S1024x256 .f32) = stepC (N := 1024) (M := 2048) (kX m c) (kWx m c) (kbx m c) (kWfx m c) (kbfx m c) (kWi m c) (kbi m c) (kWf m c) (kbf m c) 1023 2047 (by decide) slices_S131071x256_S2048x256_2047_0 shapeCasts_S2048x256_S1024x2x256 (stateC11 (argsK m c)) (stateH11 (argsK m c)) := by
  have e : W16 m ρ c (Proc.devRef .tc main_call0_v85_0) = (dat7 (V15 m ρ) c).arrAt 8 cfg7.N := W16_arr m ρ c 8
  rw [e, final7_8 (V15 m ρ) c (kWi m c) (kbi m c) (kWf m c) (kbf m c) (fun x y => (congrFun (w15_v20_eq m ρ c) (ix2 x y)).trans (w5_v20 m ρ c x y)) (fun x => (congrFun (w15_v22_eq m ρ c) (ix2 (0 : Fin 1) x)).trans (w5_v22 m ρ c x)) (fun x y => (congrFun (w15_v21_eq m ρ c) (ix2 x y)).trans (w5_v21 m ρ c x y)) (fun x => (congrFun (w15_v23_eq m ρ c) (ix2 (0 : Fin 1) x)).trans (w5_v23 m ρ c x))]
  show cellC (W15 m ρ c (Proc.devRef .tc main_call0_v79)) (W15 m ρ c (Proc.devRef .tc main_call0_v80)) (W15 m ρ c (Proc.devRef .tc main_call0_v82)) (W15 m ρ c (Proc.devRef .tc main_call0_v84)) _ _ _ _ = _
  rw [w15_iou, w15_fx, w15_ch, w15_cc]
  rfl

theorem w16_outH : (W16 m ρ c (Proc.devRef .tc main_call0_v85_1) : FVec Ideal S1024x256 .f32) = stepH (N := 1024) (M := 2048) (kX m c) (kWx m c) (kbx m c) (kWfx m c) (kbfx m c) (kWi m c) (kbi m c) (kWf m c) (kbf m c) 1023 2047 (by decide) slices_S131071x256_S2048x256_2047_0 shapeCasts_S2048x256_S1024x2x256 (stateC11 (argsK m c)) (stateH11 (argsK m c)) := by
  have e : W16 m ρ c (Proc.devRef .tc main_call0_v85_1) = (dat7 (V15 m ρ) c).arrAt 9 cfg7.N := W16_arr m ρ c 9
  rw [e, final7_9 (V15 m ρ) c (kWi m c) (kbi m c) (kWf m c) (kbf m c) (fun x y => (congrFun (w15_v20_eq m ρ c) (ix2 x y)).trans (w5_v20 m ρ c x y)) (fun x => (congrFun (w15_v22_eq m ρ c) (ix2 (0 : Fin 1) x)).trans (w5_v22 m ρ c x)) (fun x y => (congrFun (w15_v21_eq m ρ c) (ix2 x y)).trans (w5_v21 m ρ c x y)) (fun x => (congrFun (w15_v23_eq m ρ c) (ix2 (0 : Fin 1) x)).trans (w5_v23 m ρ c x))]
  show cellH (W15 m ρ c (Proc.devRef .tc main_call0_v79)) (W15 m ρ c (Proc.devRef .tc main_call0_v80)) (W15 m ρ c (Proc.devRef .tc main_call0_v82)) (W15 m ρ c (Proc.devRef .tc main_call0_v84)) _ _ _ _ = _
  rw [w15_iou, w15_fx, w15_ch, w15_cc]
  rfl

/-! ## The levels the host computes itself -/

section HostLevels
variable (U : Valuation τ sig (Elt Ideal))

include m ρ c in
theorem lev9_C (hC : (U (Proc.devRef .tc main_call0_v87) : FVec Ideal S131071x256 .f32) = stateC10 (argsK m c)) (hH : (U (Proc.devRef .tc main_call0_v89) : FVec Ideal S131071x256 .f32) = stateH10 (argsK m c))
    (h7 : U (Proc.devRef .tc main_call0_v7) = W3 m ρ c (Proc.devRef .tc main_call0_v7)) (h8 : U (Proc.devRef .tc main_call0_v8) = W3 m ρ c (Proc.devRef .tc main_call0_v8))
    (h20 : U (Proc.devRef .tc main_call0_v20) = W5 m ρ c (Proc.devRef .tc main_call0_v20)) (h21 : U (Proc.devRef .tc main_call0_v21) = W5 m ρ c (Proc.devRef .tc main_call0_v21))
    (h4 : (U (Proc.devRef .tc main_arg4) : FVec Ideal S768 .f32) = kbi m c) (h8' : (U (Proc.devRef .tc main_arg8) : FVec Ideal S256 .f32) = kbf m c) :
    (after klev9 U (Proc.devRef .tc main_call0_v156) : FVec Ideal S131071x256 .f32) = stateC9 (argsK m c) := by
  rw [klev9_C, rowsLevelC_eq _ _ _ _ (kWi m c) (kbi m c) (kWf m c) (kbf m c) _ _ _ dot_S512x256_S256x768_S512x768_1_0_0_1_n_n _ _ _ _ _ _ _ _ dot_S512x256_S256x256_S512x256_1_0_0_1_n_n
      dot_S512x256_S256x768_S512x768_1_0_0_1_n_n.wf rfl dot_S512x256_S256x256_S512x256_1_0_0_1_n_n.wf rfl
      transposes_S768x256_S256x768_1_0 transposes_S256x256_S256x256_1_0 (fun n j => (Cert.LayerForms.row_then_down _ _ _ n j).trans (congrFun h4 _)) (fun n q => (Cert.LayerForms.row_then_down _ _ _ n q).trans (congrFun h8' _)) (fun n q => (Cert.LayerForms.row_then_down _ _ _ n q).trans (congrFun h8' _))
      (h20.trans (w5_v20_eq m ρ c)) (h21.trans (w5_v21_eq m ρ c)),
    (rows_slice_eq_projRows (N := 512) (kX m c) (kWx m c) (kbx m c) _ 511 (by decide) slices_S65535x768_S512x768_511_0 fun r j _ => (congrFun h7 (ix2 r j)).trans (w3_v7 m ρ c r j)), (rows_slice_eq_projRows (N := 512) (kX m c) (kWfx m c) (kbfx m c) _ 511 (by decide) slices_S65535x256_S512x256_511_0 fun r q _ => (congrFun h8 (ix2 r q)).trans (w3_v8 m ρ c r q)), hC, hH]
  rfl

include m ρ c in
theorem lev9_H (hC : (U (Proc.devRef .tc main_call0_v87) : FVec Ideal S131071x256 .f32) = stateC10 (argsK m c)) (hH : (U (Proc.devRef .tc main_call0_v89) : FVec Ideal S131071x256 .f32) = stateH10 (argsK m c))
    (h7 : U (Proc.devRef .tc main_call0_v7) = W3 m ρ c (Proc.devRef .tc main_call0_v7)) (h8 : U (Proc.devRef .tc main_call0_v8) = W3 m ρ c (Proc.devRef .tc main_call0_v8))
    (h20 : U (Proc.devRef .tc main_call0_v20) = W5 m ρ c (Proc.devRef .tc main_call0_v20)) (h21 : U (Proc.devRef .tc main_call0_v21) = W5 m ρ c (Proc.devRef .tc main_call0_v21))
    (h4 : (U (Proc.devRef .tc main_arg4) : FVec Ideal S768 .f32) = kbi m c) (h8' : (U (Proc.devRef .tc main_arg8) : FVec Ideal S256 .f32) = kbf m c) :
    (after klev9 U (Proc.devRef .tc main_call0_v158) : FVec Ideal S131071x256 .f32) = stateH9 (argsK m c) := by
  rw [klev9_H, rowsLevelH_eq _ _ _ _ (kWi m c) (kbi m c) (kWf m c) (kbf m c) _ _ _ dot_S512x256_S256x768_S512x768_1_0_0_1_n_n _ _ _ _ _ _ _ _ _ dot_S512x256_S256x256_S512x256_1_0_0_1_n_n
      dot_S512x256_S256x768_S512x768_1_0_0_1_n_n.wf rfl dot_S512x256_S256x256_S512x256_1_0_0_1_n_n.wf rfl
      transposes_S768x256_S256x768_1_0 transposes_S256x256_S256x256_1_0 (fun n j => (Cert.LayerForms.row_then_down _ _ _ n j).trans (congrFun h4 _)) (fun n q => (Cert.LayerForms.row_then_down _ _ _ n q).trans (congrFun h8' _)) (fun n q => (Cert.LayerForms.row_then_down _ _ _ n q).trans (congrFun h8' _))
      (h20.trans (w5_v20_eq m ρ c)) (h21.trans (w5_v21_eq m ρ c)),
    (rows_slice_eq_projRows (N := 512) (kX m c) (kWx m c) (kbx m c) _ 511 (by decide) slices_S65535x768_S512x768_511_0 fun r j _ => (congrFun h7 (ix2 r j)).trans (w3_v7 m ρ c r j)), (rows_slice_eq_projRows (N := 512) (kX m c) (kWfx m c) (kbfx m c) _ 511 (by decide) slices_S65535x256_S512x256_511_0 fun r q _ => (congrFun h8 (ix2 r q)).trans (w3_v8 m ρ c r q)), hC, hH]
  rfl

include m ρ c in
theorem lev8_C (hC : (U (Proc.devRef .tc main_call0_v156) : FVec Ideal S131071x256 .f32) = stateC9 (argsK m c)) (hH : (U (Proc.devRef .tc main_call0_v158) : FVec Ideal S131071x256 .f32) = stateH9 (argsK m c))
    (h7 : U (Proc.devRef .tc main_call0_v7) = W3 m ρ c (Proc.devRef .tc main_call0_v7)) (h8 : U (Proc.devRef .tc main_call0_v8) = W3 m ρ c (Proc.devRef .tc main_call0_v8))
    (h20 : U (Proc.devRef .tc main_call0_v20) = W5 m ρ c (Proc.devRef .tc main_call0_v20)) (h21 : U (Proc.devRef .tc main_call0_v21) = W5 m ρ c (Proc.devRef .tc main_call0_v21))
    (h4 : (U (Proc.devRef .tc main_arg4) : FVec Ideal S768 .f32) = kbi m c) (h8' : (U (Proc.devRef .tc main_arg8) : FVec Ideal S256 .f32) = kbf m c) :
    (after klev8 U (Proc.devRef .tc main_call0_v225) : FVec Ideal S131071x256 .f32) = stateC8 (argsK m c) := by
  rw [klev8_C, rowsLevelC_eq _ _ _ _ (kWi m c) (kbi m c) (kWf m c) (kbf m c) _ _ _ dot_S256x256_S256x768_S256x768_1_0_0_1_n_n _ _ _ _ _ _ _ _ dot_S256x256_S256x256_S256x256_1_0_0_1_n_n
      dot_S256x256_S256x768_S256x768_1_0_0_1_n_n.wf rfl dot_S256x256_S256x256_S256x256_1_0_0_1_n_n.wf rfl
      transposes_S768x256_S256x768_1_0 transposes_S256x256_S256x256_1_0 (fun n j => (Cert.LayerForms.row_then_down _ _ _ n j).trans (congrFun h4 _)) (fun n q => (Cert.LayerForms.row_then_down _ _ _ n q).trans (congrFun h8' _)) (fun n q => (Cert.LayerForms.row_then_down _ _ _ n q).trans (congrFun h8' _))
      (h20.trans (w5_v20_eq m ρ c)) (h21.trans (w5_v21_eq m ρ c)),
    (rows_slice_eq_projRows (N := 256) (kX m c) (kWx m c) (kbx m c) _ 255 (by decide) slices_S65535x768_S256x768_255_0 fun r j _ => (congrFun h7 (ix2 r j)).trans (w3_v7 m ρ c r j)), (rows_slice_eq_projRows (N := 256) (kX m c) (kWfx m c) (kbfx m c) _ 255 (by decide) slices_S65535x256_S256x256_255_0 fun r q _ => (congrFun h8 (ix2 r q)).trans (w3_v8 m ρ c r q)), hC, hH]
  rfl

include m ρ c in
theorem lev8_H (hC : (U (Proc.devRef .tc main_call0_v156) : FVec Ideal S131071x256 .f32) = stateC9 (argsK m c)) (hH : (U (Proc.devRef .tc main_call0_v158) : FVec Ideal S131071x256 .f32) = stateH9 (argsK m c))
    (h7 : U (Proc.devRef .tc main_call0_v7) = W3 m ρ c (Proc.devRef .tc main_call0_v7)) (h8 : U (Proc.devRef .tc main_call0_v8) = W3 m ρ c (Proc.devRef .tc main_call0_v8))
    (h20 : U (Proc.devRef .tc main_call0_v20) = W5 m ρ c (Proc.devRef .tc main_call0_v20)) (h21 : U (Proc.devRef .tc main_call0_v21) = W5 m ρ c (Proc.devRef .tc main_call0_v21))
    (h4 : (U (Proc.devRef .tc main_arg4) : FVec Ideal S768 .f32) = kbi m c) (h8' : (U (Proc.devRef .tc main_arg8) : FVec Ideal S256 .f32) = kbf m c) :
    (after klev8 U (Proc.devRef .tc main_call0_v227) : FVec Ideal S131071x256 .f32) = stateH8 (argsK m c) := by
  rw [klev8_H, rowsLevelH_eq _ _ _ _ (kWi m c) (kbi m c) (kWf m c) (kbf m c) _ _ _ dot_S256x256_S256x768_S256x768_1_0_0_1_n_n _ _ _ _ _ _ _ _ _ dot_S256x256_S256x256_S256x256_1_0_0_1_n_n
      dot_S256x256_S256x768_S256x768_1_0_0_1_n_n.wf rfl dot_S256x256_S256x256_S256x256_1_0_0_1_n_n.wf rfl
      transposes_S768x256_S256x768_1_0 transposes_S256x256_S256x256_1_0 (fun n j => (Cert.LayerForms.row_then_down _ _ _ n j).trans (congrFun h4 _)) (fun n q => (Cert.LayerForms.row_then_down _ _ _ n q).trans (congrFun h8' _)) (fun n q => (Cert.LayerForms.row_then_down _ _ _ n q).trans (congrFun h8' _))
      (h20.trans (w5_v20_eq m ρ c)) (h21.trans (w5_v21_eq m ρ c)),
    (rows_slice_eq_projRows (N := 256) (kX m c) (kWx m c) (kbx m c) _ 255 (by decide) slices_S65535x768_S256x768_255_0 fun r j _ => (congrFun h7 (ix2 r j)).trans (w3_v7 m ρ c r j)), (rows_slice_eq_projRows (N := 256) (kX m c) (kWfx m c) (kbfx m c) _ 255 (by decide) slices_S65535x256_S256x256_255_0 fun r q _ => (congrFun h8 (ix2 r q)).trans (w3_v8 m ρ c r q)), hC, hH]
  rfl

include m ρ c in
theorem lev7_C (hC : (U (Proc.devRef .tc main_call0_v225) : FVec Ideal S131071x256 .f32) = stateC8 (argsK m c)) (hH : (U (Proc.devRef .tc main_call0_v227) : FVec Ideal S131071x256 .f32) = stateH8 (argsK m c))
    (h7 : U (Proc.devRef .tc main_call0_v7) = W3 m ρ c (Proc.devRef .tc main_call0_v7)) (h8 : U (Proc.devRef .tc main_call0_v8) = W3 m ρ c (Proc.devRef .tc main_call0_v8))
    (h20 : U (Proc.devRef .tc main_call0_v20) = W5 m ρ c (Proc.devRef .tc main_call0_v20)) (h21 : U (Proc.devRef .tc main_call0_v21) = W5 m ρ c (Proc.devRef .tc main_call0_v21))
    (h4 : (U (Proc.devRef .tc main_arg4) : FVec Ideal S768 .f32) = kbi m c) (h8' : (U (Proc.devRef .tc main_arg8) : FVec Ideal S256 .f32) = kbf m c) :
    (after klev7 U (Proc.devRef .tc main_call0_v294) : FVec Ideal S131071x256 .f32) = stateC7 (argsK m c) := by
  rw [klev7_C, rowsLevelC_eq _ _ _ _ (kWi m c) (kbi m c) (kWf m c) (kbf m c) _ _ _ dot_S128x256_S256x768_S128x768_1_0_0_1_n_n _ _ _ _ _ _ _ _ dot_S128x256_S256x256_S128x256_1_0_0_1_n_n
      dot_S128x256_S256x768_S128x768_1_0_0_1_n_n.wf rfl dot_S128x256_S256x256_S128x256_1_0_0_1_n_n.wf rfl
      transposes_S768x256_S256x768_1_0 transposes_S256x256_S256x256_1_0 (fun n j => (Cert.LayerForms.row_then_down _ _ _ n j).trans (congrFun h4 _)) (fun n q => (Cert.LayerForms.row_then_down _ _ _ n q).trans (congrFun h8' _)) (fun n q => (Cert.LayerForms.row_then_down _ _ _ n q).trans (congrFun h8' _))
      (h20.trans (w5_v20_eq m ρ c)) (h21.trans (w5_v21_eq m ρ c)),
    (rows_slice_eq_projRows (N := 128) (kX m c) (kWx m c) (kbx m c) _ 127 (by decide) slices_S65535x768_S128x768_127_0 fun r j _ => (congrFun h7 (ix2 r j)).trans (w3_v7 m ρ c r j)), (rows_slice_eq_projRows (N := 128) (kX m c) (kWfx m c) (kbfx m c) _ 127 (by decide) slices_S65535x256_S128x256_127_0 fun r q _ => (congrFun h8 (ix2 r q)).trans (w3_v8 m ρ c r q)), hC, hH]
  rfl

include m ρ c in
theorem lev7_H (hC : (U (Proc.devRef .tc main_call0_v225) : FVec Ideal S131071x256 .f32) = stateC8 (argsK m c)) (hH : (U (Proc.devRef .tc main_call0_v227) : FVec Ideal S131071x256 .f32) = stateH8 (argsK m c))
    (h7 : U (Proc.devRef .tc main_call0_v7) = W3 m ρ c (Proc.devRef .tc main_call0_v7)) (h8 : U (Proc.devRef .tc main_call0_v8) = W3 m ρ c (Proc.devRef .tc main_call0_v8))
    (h20 : U (Proc.devRef .tc main_call0_v20) = W5 m ρ c (Proc.devRef .tc main_call0_v20)) (h21 : U (Proc.devRef .tc main_call0_v21) = W5 m ρ c (Proc.devRef .tc main_call0_v21))
    (h4 : (U (Proc.devRef .tc main_arg4) : FVec Ideal S768 .f32) = kbi m c) (h8' : (U (Proc.devRef .tc main_arg8) : FVec Ideal S256 .f32) = kbf m c) :
    (after klev7 U (Proc.devRef .tc main_call0_v296) : FVec Ideal S131071x256 .f32) = stateH7 (argsK m c) := by
  rw [klev7_H, rowsLevelH_eq _ _ _ _ (kWi m c) (kbi m c) (kWf m c) (kbf m c) _ _ _ dot_S128x256_S256x768_S128x768_1_0_0_1_n_n _ _ _ _ _ _ _ _ _ dot_S128x256_S256x256_S128x256_1_0_0_1_n_n
      dot_S128x256_S256x768_S128x768_1_0_0_1_n_n.wf rfl dot_S128x256_S256x256_S128x256_1_0_0_1_n_n.wf rfl
      transposes_S768x256_S256x768_1_0 transposes_S256x256_S256x256_1_0 (fun n j => (Cert.LayerForms.row_then_down _ _ _ n j).trans (congrFun h4 _)) (fun n q => (Cert.LayerForms.row_then_down _ _ _ n q).trans (congrFun h8' _)) (fun n q => (Cert.LayerForms.row_then_down _ _ _ n q).trans (congrFun h8' _))
      (h20.trans (w5_v20_eq m ρ c)) (h21.trans (w5_v21_eq m ρ c)),
    (rows_slice_eq_projRows (N := 128) (kX m c) (kWx m c) (kbx m c) _ 127 (by decide) slices_S65535x768_S128x768_127_0 fun r j _ => (congrFun h7 (ix2 r j)).trans (w3_v7 m ρ c r j)), (rows_slice_eq_projRows (N := 128) (kX m c) (kWfx m c) (kbfx m c) _ 127 (by decide) slices_S65535x256_S128x256_127_0 fun r q _ => (congrFun h8 (ix2 r q)).trans (w3_v8 m ρ c r q)), hC, hH]
  rfl

include m ρ c in
theorem lev6_C (hC : (U (Proc.devRef .tc main_call0_v294) : FVec Ideal S131071x256 .f32) = stateC7 (argsK m c)) (hH : (U (Proc.devRef .tc main_call0_v296) : FVec Ideal S131071x256 .f32) = stateH7 (argsK m c))
    (h7 : U (Proc.devRef .tc main_call0_v7) = W3 m ρ c (Proc.devRef .tc main_call0_v7)) (h8 : U (Proc.devRef .tc main_call0_v8) = W3 m ρ c (Proc.devRef .tc main_call0_v8))
    (h20 : U (Proc.devRef .tc main_call0_v20) = W5 m ρ c (Proc.devRef .tc main_call0_v20)) (h21 : U (Proc.devRef .tc main_call0_v21) = W5 m ρ c (Proc.devRef .tc main_call0_v21))
    (h4 : (U (Proc.devRef .tc main_arg4) : FVec Ideal S768 .f32) = kbi m c) (h8' : (U (Proc.devRef .tc main_arg8) : FVec Ideal S256 .f32) = kbf m c) :
    (after klev6 U (Proc.devRef .tc main_call0_v363) : FVec Ideal S131071x256 .f32) = stateC6 (argsK m c) := by
  rw [klev6_C, rowsLevelC_eq _ _ _ _ (kWi m c) (kbi m c) (kWf m c) (kbf m c) _ _ _ dot_S64x256_S256x768_S64x768_1_0_0_1_n_n _ _ _ _ _ _ _ _ dot_S64x256_S256x256_S64x256_1_0_0_1_n_n
      dot_S64x256_S256x768_S64x768_1_0_0_1_n_n.wf rfl dot_S64x256_S256x256_S64x256_1_0_0_1_n_n.wf rfl
      transposes_S768x256_S256x768_1_0 transposes_S256x256_S256x256_1_0 (fun n j => (Cert.LayerForms.row_then_down _ _ _ n j).trans (congrFun h4 _)) (fun n q => (Cert.LayerForms.row_then_down _ _ _ n q).trans (congrFun h8' _)) (fun n q => (Cert.LayerForms.row_then_down _ _ _ n q).trans (congrFun h8' _))
      (h20.trans (w5_v20_eq m ρ c)) (h21.trans (w5_v21_eq m ρ c)),
    (rows_slice_eq_projRows (N := 64) (kX m c) (kWx m c) (kbx m c) _ 63 (by decide) slices_S65535x768_S64x768_63_0 fun r j _ => (congrFun h7 (ix2 r j)).trans (w3_v7 m ρ c r j)), (rows_slice_eq_projRows (N := 64) (kX m c) (kWfx m c) (kbfx m c) _ 63 (by decide) slices_S65535x256_S64x256_63_0 fun r q _ => (congrFun h8 (ix2 r q)).trans (w3_v8 m ρ c r q)), hC, hH]
  rfl

include m ρ c in
theorem lev6_H (hC : (U (Proc.devRef .tc main_call0_v294) : FVec Ideal S131071x256 .f32) = stateC7 (argsK m c)) (hH : (U (Proc.devRef .tc main_call0_v296) : FVec Ideal S131071x256 .f32) = stateH7 (argsK m c))
    (h7 : U (Proc.devRef .tc main_call0_v7) = W3 m ρ c (Proc.devRef .tc main_call0_v7)) (h8 : U (Proc.devRef .tc main_call0_v8) = W3 m ρ c (Proc.devRef .tc main_call0_v8))
    (h20 : U (Proc.devRef .tc main_call0_v20) = W5 m ρ c (Proc.devRef .tc main_call0_v20)) (h21 : U (Proc.devRef .tc main_call0_v21) = W5 m ρ c (Proc.devRef .tc main_call0_v21))
    (h4 : (U (Proc.devRef .tc main_arg4) : FVec Ideal S768 .f32) = kbi m c) (h8' : (U (Proc.devRef .tc main_arg8) : FVec Ideal S256 .f32) = kbf m c) :
    (after klev6 U (Proc.devRef .tc main_call0_v365) : FVec Ideal S131071x256 .f32) = stateH6 (argsK m c) := by
  rw [klev6_H, rowsLevelH_eq _ _ _ _ (kWi m c) (kbi m c) (kWf m c) (kbf m c) _ _ _ dot_S64x256_S256x768_S64x768_1_0_0_1_n_n _ _ _ _ _ _ _ _ _ dot_S64x256_S256x256_S64x256_1_0_0_1_n_n
      dot_S64x256_S256x768_S64x768_1_0_0_1_n_n.wf rfl dot_S64x256_S256x256_S64x256_1_0_0_1_n_n.wf rfl
      transposes_S768x256_S256x768_1_0 transposes_S256x256_S256x256_1_0 (fun n j => (Cert.LayerForms.row_then_down _ _ _ n j).trans (congrFun h4 _)) (fun n q => (Cert.LayerForms.row_then_down _ _ _ n q).trans (congrFun h8' _)) (fun n q => (Cert.LayerForms.row_then_down _ _ _ n q).trans (congrFun h8' _))
      (h20.trans (w5_v20_eq m ρ c)) (h21.trans (w5_v21_eq m ρ c)),
    (rows_slice_eq_projRows (N := 64) (kX m c) (kWx m c) (kbx m c) _ 63 (by decide) slices_S65535x768_S64x768_63_0 fun r j _ => (congrFun h7 (ix2 r j)).trans (w3_v7 m ρ c r j)), (rows_slice_eq_projRows (N := 64) (kX m c) (kWfx m c) (kbfx m c) _ 63 (by decide) slices_S65535x256_S64x256_63_0 fun r q _ => (congrFun h8 (ix2 r q)).trans (w3_v8 m ρ c r q)), hC, hH]
  rfl

include m ρ c in
theorem lev5_C (hC : (U (Proc.devRef .tc main_call0_v363) : FVec Ideal S131071x256 .f32) = stateC6 (argsK m c)) (hH : (U (Proc.devRef .tc main_call0_v365) : FVec Ideal S131071x256 .f32) = stateH6 (argsK m c))
    (h7 : U (Proc.devRef .tc main_call0_v7) = W3 m ρ c (Proc.devRef .tc main_call0_v7)) (h8 : U (Proc.devRef .tc main_call0_v8) = W3 m ρ c (Proc.devRef .tc main_call0_v8))
    (h20 : U (Proc.devRef .tc main_call0_v20) = W5 m ρ c (Proc.devRef .tc main_call0_v20)) (h21 : U (Proc.devRef .tc main_call0_v21) = W5 m ρ c (Proc.devRef .tc main_call0_v21))
    (h4 : (U (Proc.devRef .tc main_arg4) : FVec Ideal S768 .f32) = kbi m c) (h8' : (U (Proc.devRef .tc main_arg8) : FVec Ideal S256 .f32) = kbf m c) :
    (after klev5 U (Proc.devRef .tc main_call0_v432) : FVec Ideal S131071x256 .f32) = stateC5 (argsK m c) := by
  rw [klev5_C, rowsLevelC_eq _ _ _ _ (kWi m c) (kbi m c) (kWf m c) (kbf m c) _ _ _ dot_S32x256_S256x768_S32x768_1_0_0_1_n_n _ _ _ _ _ _ _ _ dot_S32x256_S256x256_S32x256_1_0_0_1_n_n
      dot_S32x256_S256x768_S32x768_1_0_0_1_n_n.wf rfl dot_S32x256_S256x256_S32x256_1_0_0_1_n_n.wf rfl
      transposes_S768x256_S256x768_1_0 transposes_S256x256_S256x256_1_0 (fun n j => (Cert.LayerForms.row_then_down _ _ _ n j).trans (congrFun h4 _)) (fun n q => (Cert.LayerForms.row_then_down _ _ _ n q).trans (congrFun h8' _)) (fun n q => (Cert.LayerForms.row_then_down _ _ _ n q).trans (congrFun h8' _))
      (h20.trans (w5_v20_eq m ρ c)) (h21.trans (w5_v21_eq m ρ c)),
    (rows_slice_eq_projRows (N := 32) (kX m c) (kWx m c) (kbx m c) _ 31 (by decide) slices_S65535x768_S32x768_31_0 fun r j _ => (congrFun h7 (ix2 r j)).trans (w3_v7 m ρ c r j)), (rows_slice_eq_projRows (N := 32) (kX m c) (kWfx m c) (kbfx m c) _ 31 (by decide) slices_S65535x256_S32x256_31_0 fun r q _ => (congrFun h8 (ix2 r q)).trans (w3_v8 m ρ c r q)), hC, hH]
  rfl

include m ρ c in
theorem lev5_H (hC : (U (Proc.devRef .tc main_call0_v363) : FVec Ideal S131071x256 .f32) = stateC6 (argsK m c)) (hH : (U (Proc.devRef .tc main_call0_v365) : FVec Ideal S131071x256 .f32) = stateH6 (argsK m c))
    (h7 : U (Proc.devRef .tc main_call0_v7) = W3 m ρ c (Proc.devRef .tc main_call0_v7)) (h8 : U (Proc.devRef .tc main_call0_v8) = W3 m ρ c (Proc.devRef .tc main_call0_v8))
    (h20 : U (Proc.devRef .tc main_call0_v20) = W5 m ρ c (Proc.devRef .tc main_call0_v20)) (h21 : U (Proc.devRef .tc main_call0_v21) = W5 m ρ c (Proc.devRef .tc main_call0_v21))
    (h4 : (U (Proc.devRef .tc main_arg4) : FVec Ideal S768 .f32) = kbi m c) (h8' : (U (Proc.devRef .tc main_arg8) : FVec Ideal S256 .f32) = kbf m c) :
    (after klev5 U (Proc.devRef .tc main_call0_v434) : FVec Ideal S131071x256 .f32) = stateH5 (argsK m c) := by
  rw [klev5_H, rowsLevelH_eq _ _ _ _ (kWi m c) (kbi m c) (kWf m c) (kbf m c) _ _ _ dot_S32x256_S256x768_S32x768_1_0_0_1_n_n _ _ _ _ _ _ _ _ _ dot_S32x256_S256x256_S32x256_1_0_0_1_n_n
      dot_S32x256_S256x768_S32x768_1_0_0_1_n_n.wf rfl dot_S32x256_S256x256_S32x256_1_0_0_1_n_n.wf rfl
      transposes_S768x256_S256x768_1_0 transposes_S256x256_S256x256_1_0 (fun n j => (Cert.LayerForms.row_then_down _ _ _ n j).trans (congrFun h4 _)) (fun n q => (Cert.LayerForms.row_then_down _ _ _ n q).trans (congrFun h8' _)) (fun n q => (Cert.LayerForms.row_then_down _ _ _ n q).trans (congrFun h8' _))
      (h20.trans (w5_v20_eq m ρ c)) (h21.trans (w5_v21_eq m ρ c)),
    (rows_slice_eq_projRows (N := 32) (kX m c) (kWx m c) (kbx m c) _ 31 (by decide) slices_S65535x768_S32x768_31_0 fun r j _ => (congrFun h7 (ix2 r j)).trans (w3_v7 m ρ c r j)), (rows_slice_eq_projRows (N := 32) (kX m c) (kWfx m c) (kbfx m c) _ 31 (by decide) slices_S65535x256_S32x256_31_0 fun r q _ => (congrFun h8 (ix2 r q)).trans (w3_v8 m ρ c r q)), hC, hH]
  rfl

include m ρ c in
theorem lev4_C (hC : (U (Proc.devRef .tc main_call0_v432) : FVec Ideal S131071x256 .f32) = stateC5 (argsK m c)) (hH : (U (Proc.devRef .tc main_call0_v434) : FVec Ideal S131071x256 .f32) = stateH5 (argsK m c))
    (h7 : U (Proc.devRef .tc main_call0_v7) = W3 m ρ c (Proc.devRef .tc main_call0_v7)) (h8 : U (Proc.devRef .tc main_call0_v8) = W3 m ρ c (Proc.devRef .tc main_call0_v8))
    (h20 : U (Proc.devRef .tc main_call0_v20) = W5 m ρ c (Proc.devRef .tc main_call0_v20)) (h21 : U (Proc.devRef .tc main_call0_v21) = W5 m ρ c (Proc.devRef .tc main_call0_v21))
    (h4 : (U (Proc.devRef .tc main_arg4) : FVec Ideal S768 .f32) = kbi m c) (h8' : (U (Proc.devRef .tc main_arg8) : FVec Ideal S256 .f32) = kbf m c) :
    (after klev4 U (Proc.devRef .tc main_call0_v501) : FVec Ideal S131071x256 .f32) = stateC4 (argsK m c) := by
  rw [klev4_C, rowsLevelC_eq _ _ _ _ (kWi m c) (kbi m c) (kWf m c) (kbf m c) _ _ _ dot_S16x256_S256x768_S16x768_1_0_0_1_n_n _ _ _ _ _ _ _ _ dot_S16x256_S256x256_S16x256_1_0_0_1_n_n
      dot_S16x256_S256x768_S16x768_1_0_0_1_n_n.wf rfl dot_S16x256_S256x256_S16x256_1_0_0_1_n_n.wf rfl
      transposes_S768x256_S256x768_1_0 transposes_S256x256_S256x256_1_0 (fun n j => (Cert.LayerForms.row_then_down _ _ _ n j).trans (congrFun h4 _)) (fun n q => (Cert.LayerForms.row_then_down _ _ _ n q).trans (congrFun h8' _)) (fun n q => (Cert.LayerForms.row_then_down _ _ _ n q).trans (congrFun h8' _))
      (h20.trans (w5_v20_eq m ρ c)) (h21.trans (w5_v21_eq m ρ c)),
    (rows_slice_eq_projRows (N := 16) (kX m c) (kWx m c) (kbx m c) _ 15 (by decide) slices_S65535x768_S16x768_15_0 fun r j _ => (congrFun h7 (ix2 r j)).trans (w3_v7 m ρ c r j)), (rows_slice_eq_projRows (N := 16) (kX m c) (kWfx m c) (kbfx m c) _ 15 (by decide) slices_S65535x256_S16x256_15_0 fun r q _ => (congrFun h8 (ix2 r q)).trans (w3_v8 m ρ c r q)), hC, hH]
  rfl

include m ρ c in
theorem lev4_H (hC : (U (Proc.devRef .tc main_call0_v432) : FVec Ideal S131071x256 .f32) = stateC5 (argsK m c)) (hH : (U (Proc.devRef .tc main_call0_v434) : FVec Ideal S131071x256 .f32) = stateH5 (argsK m c))
    (h7 : U (Proc.devRef .tc main_call0_v7) = W3 m ρ c (Proc.devRef .tc main_call0_v7)) (h8 : U (Proc.devRef .tc main_call0_v8) = W3 m ρ c (Proc.devRef .tc main_call0_v8))
    (h20 : U (Proc.devRef .tc main_call0_v20) = W5 m ρ c (Proc.devRef .tc main_call0_v20)) (h21 : U (Proc.devRef .tc main_call0_v21) = W5 m ρ c (Proc.devRef .tc main_call0_v21))
    (h4 : (U (Proc.devRef .tc main_arg4) : FVec Ideal S768 .f32) = kbi m c) (h8' : (U (Proc.devRef .tc main_arg8) : FVec Ideal S256 .f32) = kbf m c) :
    (after klev4 U (Proc.devRef .tc main_call0_v503) : FVec Ideal S131071x256 .f32) = stateH4 (argsK m c) := by
  rw [klev4_H, rowsLevelH_eq _ _ _ _ (kWi m c) (kbi m c) (kWf m c) (kbf m c) _ _ _ dot_S16x256_S256x768_S16x768_1_0_0_1_n_n _ _ _ _ _ _ _ _ _ dot_S16x256_S256x256_S16x256_1_0_0_1_n_n
      dot_S16x256_S256x768_S16x768_1_0_0_1_n_n.wf rfl dot_S16x256_S256x256_S16x256_1_0_0_1_n_n.wf rfl
      transposes_S768x256_S256x768_1_0 transposes_S256x256_S256x256_1_0 (fun n j => (Cert.LayerForms.row_then_down _ _ _ n j).trans (congrFun h4 _)) (fun n q => (Cert.LayerForms.row_then_down _ _ _ n q).trans (congrFun h8' _)) (fun n q => (Cert.LayerForms.row_then_down _ _ _ n q).trans (congrFun h8' _))
      (h20.trans (w5_v20_eq m ρ c)) (h21.trans (w5_v21_eq m ρ c)),
    (rows_slice_eq_projRows (N := 16) (kX m c) (kWx m c) (kbx m c) _ 15 (by decide) slices_S65535x768_S16x768_15_0 fun r j _ => (congrFun h7 (ix2 r j)).trans (w3_v7 m ρ c r j)), (rows_slice_eq_projRows (N := 16) (kX m c) (kWfx m c) (kbfx m c) _ 15 (by decide) slices_S65535x256_S16x256_15_0 fun r q _ => (congrFun h8 (ix2 r q)).trans (w3_v8 m ρ c r q)), hC, hH]
  rfl

include m ρ c in
theorem lev3_C (hC : (U (Proc.devRef .tc main_call0_v501) : FVec Ideal S131071x256 .f32) = stateC4 (argsK m c)) (hH : (U (Proc.devRef .tc main_call0_v503) : FVec Ideal S131071x256 .f32) = stateH4 (argsK m c))
    (h7 : U (Proc.devRef .tc main_call0_v7) = W3 m ρ c (Proc.devRef .tc main_call0_v7)) (h8 : U (Proc.devRef .tc main_call0_v8) = W3 m ρ c (Proc.devRef .tc main_call0_v8))
    (h20 : U (Proc.devRef .tc main_call0_v20) = W5 m ρ c (Proc.devRef .tc main_call0_v20)) (h21 : U (Proc.devRef .tc main_call0_v21) = W5 m ρ c (Proc.devRef .tc main_call0_v21))
    (h4 : (U (Proc.devRef .tc main_arg4) : FVec Ideal S768 .f32) = kbi m c) (h8' : (U (Proc.devRef .tc main_arg8) : FVec Ideal S256 .f32) = kbf m c) :
    (after klev3 U (Proc.devRef .tc main_call0_v570) : FVec Ideal S131071x256 .f32) = stateC3 (argsK m c) := by
  rw [klev3_C, rowsLevelC_eq _ _ _ _ (kWi m c) (kbi m c) (kWf m c) (kbf m c) _ _ _ dot_S8x256_S256x768_S8x768_1_0_0_1_n_n _ _ _ _ _ _ _ _ dot_S8x256_S256x256_S8x256_1_0_0_1_n_n
      dot_S8x256_S256x768_S8x768_1_0_0_1_n_n.wf rfl dot_S8x256_S256x256_S8x256_1_0_0_1_n_n.wf rfl
      transposes_S768x256_S256x768_1_0 transposes_S256x256_S256x256_1_0 (fun n j => (Cert.LayerForms.row_then_down _ _ _ n j).trans (congrFun h4 _)) (fun n q => (Cert.LayerForms.row_then_down _ _ _ n q).trans (congrFun h8' _)) (fun n q => (Cert.LayerForms.row_then_down _ _ _ n q).trans (congrFun h8' _))
      (h20.trans (w5_v20_eq m ρ c)) (h21.trans (w5_v21_eq m ρ c)),
    (rows_slice_eq_projRows (N := 8) (kX m c) (kWx m c) (kbx m c) _ 7 (by decide) slices_S65535x768_S8x768_7_0 fun r j _ => (congrFun h7 (ix2 r j)).trans (w3_v7 m ρ c r j)), (rows_slice_eq_projRows (N := 8) (kX m c) (kWfx m c) (kbfx m c) _ 7 (by decide) slices_S65535x256_S8x256_7_0 fun r q _ => (congrFun h8 (ix2 r q)).trans (w3_v8 m ρ c r q)), hC, hH]
  rfl

include m ρ c in
theorem lev3_H (hC : (U (Proc.devRef .tc main_call0_v501) : FVec Ideal S131071x256 .f32) = stateC4 (argsK m c)) (hH : (U (Proc.devRef .tc main_call0_v503) : FVec Ideal S131071x256 .f32) = stateH4 (argsK m c))
    (h7 : U (Proc.devRef .tc main_call0_v7) = W3 m ρ c (Proc.devRef .tc main_call0_v7)) (h8 : U (Proc.devRef .tc main_call0_v8) = W3 m ρ c (Proc.devRef .tc main_call0_v8))
    (h20 : U (Proc.devRef .tc main_call0_v20) = W5 m ρ c (Proc.devRef .tc main_call0_v20)) (h21 : U (Proc.devRef .tc main_call0_v21) = W5 m ρ c (Proc.devRef .tc main_call0_v21))
    (h4 : (U (Proc.devRef .tc main_arg4) : FVec Ideal S768 .f32) = kbi m c) (h8' : (U (Proc.devRef .tc main_arg8) : FVec Ideal S256 .f32) = kbf m c) :
    (after klev3 U (Proc.devRef .tc main_call0_v572) : FVec Ideal S131071x256 .f32) = stateH3 (argsK m c) := by
  rw [klev3_H, rowsLevelH_eq _ _ _ _ (kWi m c) (kbi m c) (kWf m c) (kbf m c) _ _ _ dot_S8x256_S256x768_S8x768_1_0_0_1_n_n _ _ _ _ _ _ _ _ _ dot_S8x256_S256x256_S8x256_1_0_0_1_n_n
      dot_S8x256_S256x768_S8x768_1_0_0_1_n_n.wf rfl dot_S8x256_S256x256_S8x256_1_0_0_1_n_n.wf rfl
      transposes_S768x256_S256x768_1_0 transposes_S256x256_S256x256_1_0 (fun n j => (Cert.LayerForms.row_then_down _ _ _ n j).trans (congrFun h4 _)) (fun n q => (Cert.LayerForms.row_then_down _ _ _ n q).trans (congrFun h8' _)) (fun n q => (Cert.LayerForms.row_then_down _ _ _ n q).trans (congrFun h8' _))
      (h20.trans (w5_v20_eq m ρ c)) (h21.trans (w5_v21_eq m ρ c)),
    (rows_slice_eq_projRows (N := 8) (kX m c) (kWx m c) (kbx m c) _ 7 (by decide) slices_S65535x768_S8x768_7_0 fun r j _ => (congrFun h7 (ix2 r j)).trans (w3_v7 m ρ c r j)), (rows_slice_eq_projRows (N := 8) (kX m c) (kWfx m c) (kbfx m c) _ 7 (by decide) slices_S65535x256_S8x256_7_0 fun r q _ => (congrFun h8 (ix2 r q)).trans (w3_v8 m ρ c r q)), hC, hH]
  rfl

include m ρ c in
theorem lev2_C (hC : (U (Proc.devRef .tc main_call0_v570) : FVec Ideal S131071x256 .f32) = stateC3 (argsK m c)) (hH : (U (Proc.devRef .tc main_call0_v572) : FVec Ideal S131071x256 .f32) = stateH3 (argsK m c))
    (h7 : U (Proc.devRef .tc main_call0_v7) = W3 m ρ c (Proc.devRef .tc main_call0_v7)) (h8 : U (Proc.devRef .tc main_call0_v8) = W3 m ρ c (Proc.devRef .tc main_call0_v8))
    (h20 : U (Proc.devRef .tc main_call0_v20) = W5 m ρ c (Proc.devRef .tc main_call0_v20)) (h21 : U (Proc.devRef .tc main_call0_v21) = W5 m ρ c (Proc.devRef .tc main_call0_v21))
    (h4 : (U (Proc.devRef .tc main_arg4) : FVec Ideal S768 .f32) = kbi m c) (h8' : (U (Proc.devRef .tc main_arg8) : FVec Ideal S256 .f32) = kbf m c) :
    (after klev2 U (Proc.devRef .tc main_call0_v639) : FVec Ideal S131071x256 .f32) = stateC2 (argsK m c) := by
  rw [klev2_C, rowsLevelC_eq _ _ _ _ (kWi m c) (kbi m c) (kWf m c) (kbf m c) _ _ _ dot_S4x256_S256x768_S4x768_1_0_0_1_n_n _ _ _ _ _ _ _ _ dot_S4x256_S256x256_S4x256_1_0_0_1_n_n
      dot_S4x256_S256x768_S4x768_1_0_0_1_n_n.wf rfl dot_S4x256_S256x256_S4x256_1_0_0_1_n_n.wf rfl
      transposes_S768x256_S256x768_1_0 transposes_S256x256_S256x256_1_0 (fun n j => (Cert.LayerForms.row_then_down _ _ _ n j).trans (congrFun h4 _)) (fun n q => (Cert.LayerForms.row_then_down _ _ _ n q).trans (congrFun h8' _)) (fun n q => (Cert.LayerForms.row_then_down _ _ _ n q).trans (congrFun h8' _))
      (h20.trans (w5_v20_eq m ρ c)) (h21.trans (w5_v21_eq m ρ c)),
    (rows_slice_eq_projRows (N := 4) (kX m c) (kWx m c) (kbx m c) _ 3 (by decide) slices_S65535x768_S4x768_3_0 fun r j _ => (congrFun h7 (ix2 r j)).trans (w3_v7 m ρ c r j)), (rows_slice_eq_projRows (N := 4) (kX m c) (kWfx m c) (kbfx m c) _ 3 (by decide) slices_S65535x256_S4x256_3_0 fun r q _ => (congrFun h8 (ix2 r q)).trans (w3_v8 m ρ c r q)), hC, hH]
  rfl

include m ρ c in
theorem lev2_H (hC : (U (Proc.devRef .tc main_call0_v570) : FVec Ideal S131071x256 .f32) = stateC3 (argsK m c)) (hH : (U (Proc.devRef .tc main_call0_v572) : FVec Ideal S131071x256 .f32) = stateH3 (argsK m c))
    (h7 : U (Proc.devRef .tc main_call0_v7) = W3 m ρ c (Proc.devRef .tc main_call0_v7)) (h8 : U (Proc.devRef .tc main_call0_v8) = W3 m ρ c (Proc.devRef .tc main_call0_v8))
    (h20 : U (Proc.devRef .tc main_call0_v20) = W5 m ρ c (Proc.devRef .tc main_call0_v20)) (h21 : U (Proc.devRef .tc main_call0_v21) = W5 m ρ c (Proc.devRef .tc main_call0_v21))
    (h4 : (U (Proc.devRef .tc main_arg4) : FVec Ideal S768 .f32) = kbi m c) (h8' : (U (Proc.devRef .tc main_arg8) : FVec Ideal S256 .f32) = kbf m c) :
    (after klev2 U (Proc.devRef .tc main_call0_v641) : FVec Ideal S131071x256 .f32) = stateH2 (argsK m c) := by
  rw [klev2_H, rowsLevelH_eq _ _ _ _ (kWi m c) (kbi m c) (kWf m c) (kbf m c) _ _ _ dot_S4x256_S256x768_S4x768_1_0_0_1_n_n _ _ _ _ _ _ _ _ _ dot_S4x256_S256x256_S4x256_1_0_0_1_n_n
      dot_S4x256_S256x768_S4x768_1_0_0_1_n_n.wf rfl dot_S4x256_S256x256_S4x256_1_0_0_1_n_n.wf rfl
      transposes_S768x256_S256x768_1_0 transposes_S256x256_S256x256_1_0 (fun n j => (Cert.LayerForms.row_then_down _ _ _ n j).trans (congrFun h4 _)) (fun n q => (Cert.LayerForms.row_then_down _ _ _ n q).trans (congrFun h8' _)) (fun n q => (Cert.LayerForms.row_then_down _ _ _ n q).trans (congrFun h8' _))
      (h20.trans (w5_v20_eq m ρ c)) (h21.trans (w5_v21_eq m ρ c)),
    (rows_slice_eq_projRows (N := 4) (kX m c) (kWx m c) (kbx m c) _ 3 (by decide) slices_S65535x768_S4x768_3_0 fun r j _ => (congrFun h7 (ix2 r j)).trans (w3_v7 m ρ c r j)), (rows_slice_eq_projRows (N := 4) (kX m c) (kWfx m c) (kbfx m c) _ 3 (by decide) slices_S65535x256_S4x256_3_0 fun r q _ => (congrFun h8 (ix2 r q)).trans (w3_v8 m ρ c r q)), hC, hH]
  rfl

include m ρ c in
theorem lev1_C (hC : (U (Proc.devRef .tc main_call0_v639) : FVec Ideal S131071x256 .f32) = stateC2 (argsK m c)) (hH : (U (Proc.devRef .tc main_call0_v641) : FVec Ideal S131071x256 .f32) = stateH2 (argsK m c))
    (h7 : U (Proc.devRef .tc main_call0_v7) = W3 m ρ c (Proc.devRef .tc main_call0_v7)) (h8 : U (Proc.devRef .tc main_call0_v8) = W3 m ρ c (Proc.devRef .tc main_call0_v8))
    (h20 : U (Proc.devRef .tc main_call0_v20) = W5 m ρ c (Proc.devRef .tc main_call0_v20)) (h21 : U (Proc.devRef .tc main_call0_v21) = W5 m ρ c (Proc.devRef .tc main_call0_v21))
    (h4 : (U (Proc.devRef .tc main_arg4) : FVec Ideal S768 .f32) = kbi m c) (h8' : (U (Proc.devRef .tc main_arg8) : FVec Ideal S256 .f32) = kbf m c) :
    (after klev1 U (Proc.devRef .tc main_call0_v708) : FVec Ideal S131071x256 .f32) = stateC1 (argsK m c) := by
  rw [klev1_C, rowsLevelC_eq _ _ _ _ (kWi m c) (kbi m c) (kWf m c) (kbf m c) _ _ _ dot_S2x256_S256x768_S2x768_1_0_0_1_n_n _ _ _ _ _ _ _ _ dot_S2x256_S256x256_S2x256_1_0_0_1_n_n
      dot_S2x256_S256x768_S2x768_1_0_0_1_n_n.wf rfl dot_S2x256_S256x256_S2x256_1_0_0_1_n_n.wf rfl
      transposes_S768x256_S256x768_1_0 transposes_S256x256_S256x256_1_0 (fun n j => (Cert.LayerForms.row_then_down _ _ _ n j).trans (congrFun h4 _)) (fun n q => (Cert.LayerForms.row_then_down _ _ _ n q).trans (congrFun h8' _)) (fun n q => (Cert.LayerForms.row_then_down _ _ _ n q).trans (congrFun h8' _))
      (h20.trans (w5_v20_eq m ρ c)) (h21.trans (w5_v21_eq m ρ c)),
    (rows_slice_eq_projRows (N := 2) (kX m c) (kWx m c) (kbx m c) _ 1 (by decide) slices_S65535x768_S2x768_1_0 fun r j _ => (congrFun h7 (ix2 r j)).trans (w3_v7 m ρ c r j)), (rows_slice_eq_projRows (N := 2) (kX m c) (kWfx m c) (kbfx m c) _ 1 (by decide) slices_S65535x256_S2x256_1_0 fun r q _ => (congrFun h8 (ix2 r q)).trans (w3_v8 m ρ c r q)), hC, hH]
  rfl

include m ρ c in
theorem lev1_H (hC : (U (Proc.devRef .tc main_call0_v639) : FVec Ideal S131071x256 .f32) = stateC2 (argsK m c)) (hH : (U (Proc.devRef .tc main_call0_v641) : FVec Ideal S131071x256 .f32) = stateH2 (argsK m c))
    (h7 : U (Proc.devRef .tc main_call0_v7) = W3 m ρ c (Proc.devRef .tc main_call0_v7)) (h8 : U (Proc.devRef .tc main_call0_v8) = W3 m ρ c (Proc.devRef .tc main_call0_v8))
    (h20 : U (Proc.devRef .tc main_call0_v20) = W5 m ρ c (Proc.devRef .tc main_call0_v20)) (h21 : U (Proc.devRef .tc main_call0_v21) = W5 m ρ c (Proc.devRef .tc main_call0_v21))
    (h4 : (U (Proc.devRef .tc main_arg4) : FVec Ideal S768 .f32) = kbi m c) (h8' : (U (Proc.devRef .tc main_arg8) : FVec Ideal S256 .f32) = kbf m c) :
    (after klev1 U (Proc.devRef .tc main_call0_v710) : FVec Ideal S131071x256 .f32) = stateH1 (argsK m c) := by
  rw [klev1_H, rowsLevelH_eq _ _ _ _ (kWi m c) (kbi m c) (kWf m c) (kbf m c) _ _ _ dot_S2x256_S256x768_S2x768_1_0_0_1_n_n _ _ _ _ _ _ _ _ _ dot_S2x256_S256x256_S2x256_1_0_0_1_n_n
      dot_S2x256_S256x768_S2x768_1_0_0_1_n_n.wf rfl dot_S2x256_S256x256_S2x256_1_0_0_1_n_n.wf rfl
      transposes_S768x256_S256x768_1_0 transposes_S256x256_S256x256_1_0 (fun n j => (Cert.LayerForms.row_then_down _ _ _ n j).trans (congrFun h4 _)) (fun n q => (Cert.LayerForms.row_then_down _ _ _ n q).trans (congrFun h8' _)) (fun n q => (Cert.LayerForms.row_then_down _ _ _ n q).trans (congrFun h8' _))
      (h20.trans (w5_v20_eq m ρ c)) (h21.trans (w5_v21_eq m ρ c)),
    (rows_slice_eq_projRows (N := 2) (kX m c) (kWx m c) (kbx m c) _ 1 (by decide) slices_S65535x768_S2x768_1_0 fun r j _ => (congrFun h7 (ix2 r j)).trans (w3_v7 m ρ c r j)), (rows_slice_eq_projRows (N := 2) (kX m c) (kWfx m c) (kbfx m c) _ 1 (by decide) slices_S65535x256_S2x256_1_0 fun r q _ => (congrFun h8 (ix2 r q)).trans (w3_v8 m ρ c r q)), hC, hH]
  rfl

include m ρ c in
theorem lev0_C (hC : (U (Proc.devRef .tc main_call0_v708) : FVec Ideal S131071x256 .f32) = stateC1 (argsK m c)) (hH : (U (Proc.devRef .tc main_call0_v710) : FVec Ideal S131071x256 .f32) = stateH1 (argsK m c))
    (h7 : U (Proc.devRef .tc main_call0_v7) = W3 m ρ c (Proc.devRef .tc main_call0_v7)) (h8 : U (Proc.devRef .tc main_call0_v8) = W3 m ρ c (Proc.devRef .tc main_call0_v8))
    (h20 : U (Proc.devRef .tc main_call0_v20) = W5 m ρ c (Proc.devRef .tc main_call0_v20)) (h21 : U (Proc.devRef .tc main_call0_v21) = W5 m ρ c (Proc.devRef .tc main_call0_v21))
    (h4 : (U (Proc.devRef .tc main_arg4) : FVec Ideal S768 .f32) = kbi m c) (h8' : (U (Proc.devRef .tc main_arg8) : FVec Ideal S256 .f32) = kbf m c) :
    (after klev0 U (Proc.devRef .tc main_call0_v774) : FVec Ideal S131071x256 .f32) = stateC0 (argsK m c) := by
  rw [klev0_C, rowsLevelC_eq _ _ _ _ (kWi m c) (kbi m c) (kWf m c) (kbf m c) _ _ _ dot_S1x256_S256x768_S1x768_1_0_0_1_n_n _ _ _ _ _ _ _ _ dot_S1x256_S256x256_S1x256_1_0_0_1_n_n
      dot_S1x256_S256x768_S1x768_1_0_0_1_n_n.wf rfl dot_S1x256_S256x256_S1x256_1_0_0_1_n_n.wf rfl
      transposes_S768x256_S256x768_1_0 transposes_S256x256_S256x256_1_0 (fun n j => (one_row_bias_apply _ _ n j).trans (congrFun h4 _)) (fun n q => (one_row_bias_apply _ _ n q).trans (congrFun h8' _)) (fun n q => (one_row_bias_apply _ _ n q).trans (congrFun h8' _))
      (h20.trans (w5_v20_eq m ρ c)) (h21.trans (w5_v21_eq m ρ c)),
    (rows_slice_eq_projRows (N := 1) (kX m c) (kWx m c) (kbx m c) _ 0 (by decide) slices_S65535x768_S1x768_0_0 fun r j _ => (congrFun h7 (ix2 r j)).trans (w3_v7 m ρ c r j)), (rows_slice_eq_projRows (N := 1) (kX m c) (kWfx m c) (kbfx m c) _ 0 (by decide) slices_S65535x256_S1x256_0_0 fun r q _ => (congrFun h8 (ix2 r q)).trans (w3_v8 m ρ c r q)), hC, hH]
  rfl

include m ρ c in
theorem lev0_H (hC : (U (Proc.devRef .tc main_call0_v708) : FVec Ideal S131071x256 .f32) = stateC1 (argsK m c)) (hH : (U (Proc.devRef .tc main_call0_v710) : FVec Ideal S131071x256 .f32) = stateH1 (argsK m c))
    (h7 : U (Proc.devRef .tc main_call0_v7) = W3 m ρ c (Proc.devRef .tc main_call0_v7)) (h8 : U (Proc.devRef .tc main_call0_v8) = W3 m ρ c (Proc.devRef .tc main_call0_v8))
    (h20 : U (Proc.devRef .tc main_call0_v20) = W5 m ρ c (Proc.devRef .tc main_call0_v20)) (h21 : U (Proc.devRef .tc main_call0_v21) = W5 m ρ c (Proc.devRef .tc main_call0_v21))
    (h4 : (U (Proc.devRef .tc main_arg4) : FVec Ideal S768 .f32) = kbi m c) (h8' : (U (Proc.devRef .tc main_arg8) : FVec Ideal S256 .f32) = kbf m c) :
    (after klev0 U (Proc.devRef .tc main_call0_v776) : FVec Ideal S131071x256 .f32) = stateH0 (argsK m c) := by
  rw [klev0_H, rowsLevelH_eq _ _ _ _ (kWi m c) (kbi m c) (kWf m c) (kbf m c) _ _ _ dot_S1x256_S256x768_S1x768_1_0_0_1_n_n _ _ _ _ _ _ _ _ _ dot_S1x256_S256x256_S1x256_1_0_0_1_n_n
      dot_S1x256_S256x768_S1x768_1_0_0_1_n_n.wf rfl dot_S1x256_S256x256_S1x256_1_0_0_1_n_n.wf rfl
      transposes_S768x256_S256x768_1_0 transposes_S256x256_S256x256_1_0 (fun n j => (one_row_bias_apply _ _ n j).trans (congrFun h4 _)) (fun n q => (one_row_bias_apply _ _ n q).trans (congrFun h8' _)) (fun n q => (one_row_bias_apply _ _ n q).trans (congrFun h8' _))
      (h20.trans (w5_v20_eq m ρ c)) (h21.trans (w5_v21_eq m ρ c)),
    (rows_slice_eq_projRows (N := 1) (kX m c) (kWx m c) (kbx m c) _ 0 (by decide) slices_S65535x768_S1x768_0_0 fun r j _ => (congrFun h7 (ix2 r j)).trans (w3_v7 m ρ c r j)), (rows_slice_eq_projRows (N := 1) (kX m c) (kWfx m c) (kbfx m c) _ 0 (by decide) slices_S65535x256_S1x256_0_0 fun r q _ => (congrFun h8 (ix2 r q)).trans (w3_v8 m ρ c r q)), hC, hH]
  rfl

end HostLevels

/-! ## The last stretch, part by part, and the results -/

/-- The buffers' contents after the last region's outputs are written in (the first part of the last stretch) and
    after each host-computed level. -/
abbrev U10 : Valuation τ sig (Elt Ideal) := after kpre8 (W16 m ρ c)
abbrev U9 : Valuation τ sig (Elt Ideal) := after klev9 (U10 m ρ c)
abbrev U8 : Valuation τ sig (Elt Ideal) := after klev8 (U9 m ρ c)
abbrev U7 : Valuation τ sig (Elt Ideal) := after klev7 (U8 m ρ c)
abbrev U6 : Valuation τ sig (Elt Ideal) := after klev6 (U7 m ρ c)
abbrev U5 : Valuation τ sig (Elt Ideal) := after klev5 (U6 m ρ c)
abbrev U4 : Valuation τ sig (Elt Ideal) := after klev4 (U5 m ρ c)
abbrev U3 : Valuation τ sig (Elt Ideal) := after klev3 (U4 m ρ c)
abbrev U2 : Valuation τ sig (Elt Ideal) := after klev2 (U3 m ρ c)
abbrev U1 : Valuation τ sig (Elt Ideal) := after klev1 (U2 m ρ c)
abbrev U0 : Valuation τ sig (Elt Ideal) := after klev0 (U1 m ρ c)

theorem u10_C : (U10 m ρ c (Proc.devRef .tc main_call0_v87) : FVec Ideal S131071x256 .f32) = stateC10 (argsK m c) := by
  show after kpre8 (W16 m ρ c) (Proc.devRef .tc main_call0_v87) = _
  rw [h8pre_v87, W16_of_ne m ρ c main_call0_v76 (by decide), w15_C, w16_outC]
  rfl

theorem u10_H : (U10 m ρ c (Proc.devRef .tc main_call0_v89) : FVec Ideal S131071x256 .f32) = stateH10 (argsK m c) := by
  show after kpre8 (W16 m ρ c) (Proc.devRef .tc main_call0_v89) = _
  rw [h8pre_v89, W16_of_ne m ρ c main_call0_v78 (by decide), w15_H, w16_outH]
  rfl

theorem u10_v7 : U10 m ρ c (Proc.devRef .tc main_call0_v7) = W3 m ρ c (Proc.devRef .tc main_call0_v7) := (h8pre_keep_v7 _).trans (w16_v7_eq m ρ c)
theorem u10_v8 : U10 m ρ c (Proc.devRef .tc main_call0_v8) = W3 m ρ c (Proc.devRef .tc main_call0_v8) := (h8pre_keep_v8 _).trans (w16_v8_eq m ρ c)
theorem u10_v20 : U10 m ρ c (Proc.devRef .tc main_call0_v20) = W5 m ρ c (Proc.devRef .tc main_call0_v20) := (h8pre_keep_v20 _).trans (w16_v20_eq m ρ c)
theorem u10_v21 : U10 m ρ c (Proc.devRef .tc main_call0_v21) = W5 m ρ c (Proc.devRef .tc main_call0_v21) := (h8pre_keep_v21 _).trans (w16_v21_eq m ρ c)
theorem u10_arg4 : (U10 m ρ c (Proc.devRef .tc main_arg4) : FVec Ideal S768 .f32) = kbi m c := (h8pre_keep_arg4 _).trans (w16_arg4 m ρ c)
theorem u10_arg8 : (U10 m ρ c (Proc.devRef .tc main_arg8) : FVec Ideal S256 .f32) = kbf m c := (h8pre_keep_arg8 _).trans (w16_arg8 m ρ c)

theorem u9_C : (U9 m ρ c (Proc.devRef .tc main_call0_v156) : FVec Ideal S131071x256 .f32) = stateC9 (argsK m c) := lev9_C m ρ c _ (u10_C m ρ c) (u10_H m ρ c) (u10_v7 m ρ c) (u10_v8 m ρ c) (u10_v20 m ρ c) (u10_v21 m ρ c) (u10_arg4 m ρ c) (u10_arg8 m ρ c)
theorem u9_H : (U9 m ρ c (Proc.devRef .tc main_call0_v158) : FVec Ideal S131071x256 .f32) = stateH9 (argsK m c) := lev9_H m ρ c _ (u10_C m ρ c) (u10_H m ρ c) (u10_v7 m ρ c) (u10_v8 m ρ c) (u10_v20 m ρ c) (u10_v21 m ρ c) (u10_arg4 m ρ c) (u10_arg8 m ρ c)
theorem u9_v7 : U9 m ρ c (Proc.devRef .tc main_call0_v7) = W3 m ρ c (Proc.devRef .tc main_call0_v7) := (klev9_keep_v7 _).trans (u10_v7 m ρ c)
theorem u9_v8 : U9 m ρ c (Proc.devRef .tc main_call0_v8) = W3 m ρ c (Proc.devRef .tc main_call0_v8) := (klev9_keep_v8 _).trans (u10_v8 m ρ c)
theorem u9_v20 : U9 m ρ c (Proc.devRef .tc main_call0_v20) = W5 m ρ c (Proc.devRef .tc main_call0_v20) := (klev9_keep_v20 _).trans (u10_v20 m ρ c)
theorem u9_v21 : U9 m ρ c (Proc.devRef .tc main_call0_v21) = W5 m ρ c (Proc.devRef .tc main_call0_v21) := (klev9_keep_v21 _).trans (u10_v21 m ρ c)
theorem u9_arg4 : (U9 m ρ c (Proc.devRef .tc main_arg4) : FVec Ideal S768 .f32) = kbi m c := (klev9_keep_arg4 _).trans (u10_arg4 m ρ c)
theorem u9_arg8 : (U9 m ρ c (Proc.devRef .tc main_arg8) : FVec Ideal S256 .f32) = kbf m c := (klev9_keep_arg8 _).trans (u10_arg8 m ρ c)

theorem u8_C : (U8 m ρ c (Proc.devRef .tc main_call0_v225) : FVec Ideal S131071x256 .f32) = stateC8 (argsK m c) := lev8_C m ρ c _ (u9_C m ρ c) (u9_H m ρ c) (u9_v7 m ρ c) (u9_v8 m ρ c) (u9_v20 m ρ c) (u9_v21 m ρ c) (u9_arg4 m ρ c) (u9_arg8 m ρ c)
theorem u8_H : (U8 m ρ c (Proc.devRef .tc main_call0_v227) : FVec Ideal S131071x256 .f32) = stateH8 (argsK m c) := lev8_H m ρ c _ (u9_C m ρ c) (u9_H m ρ c) (u9_v7 m ρ c) (u9_v8 m ρ c) (u9_v20 m ρ c) (u9_v21 m ρ c) (u9_arg4 m ρ c) (u9_arg8 m ρ c)
theorem u8_v7 : U8 m ρ c (Proc.devRef .tc main_call0_v7) = W3 m ρ c (Proc.devRef .tc main_call0_v7) := (klev8_keep_v7 _).trans (u9_v7 m ρ c)
theorem u8_v8 : U8 m ρ c (Proc.devRef .tc main_call0_v8) = W3 m ρ c (Proc.devRef .tc main_call0_v8) := (klev8_keep_v8 _).trans (u9_v8 m ρ c)
theorem u8_v20 : U8 m ρ c (Proc.devRef .tc main_call0_v20) = W5 m ρ c (Proc.devRef .tc main_call0_v20) := (klev8_keep_v20 _).trans (u9_v20 m ρ c)
theorem u8_v21 : U8 m ρ c (Proc.devRef .tc main_call0_v21) = W5 m ρ c (Proc.devRef .tc main_call0_v21) := (klev8_keep_v21 _).trans (u9_v21 m ρ c)
theorem u8_arg4 : (U8 m ρ c (Proc.devRef .tc main_arg4) : FVec Ideal S768 .f32) = kbi m c := (klev8_keep_arg4 _).trans (u9_arg4 m ρ c)
theorem u8_arg8 : (U8 m ρ c (Proc.devRef .tc main_arg8) : FVec Ideal S256 .f32) = kbf m c := (klev8_keep_arg8 _).trans (u9_arg8 m ρ c)

theorem u7_C : (U7 m ρ c (Proc.devRef .tc main_call0_v294) : FVec Ideal S131071x256 .f32) = stateC7 (argsK m c) := lev7_C m ρ c _ (u8_C m ρ c) (u8_H m ρ c) (u8_v7 m ρ c) (u8_v8 m ρ c) (u8_v20 m ρ c) (u8_v21 m ρ c) (u8_arg4 m ρ c) (u8_arg8 m ρ c)
theorem u7_H : (U7 m ρ c (Proc.devRef .tc main_call0_v296) : FVec Ideal S131071x256 .f32) = stateH7 (argsK m c) := lev7_H m ρ c _ (u8_C m ρ c) (u8_H m ρ c) (u8_v7 m ρ c) (u8_v8 m ρ c) (u8_v20 m ρ c) (u8_v21 m ρ c) (u8_arg4 m ρ c) (u8_arg8 m ρ c)
theorem u7_v7 : U7 m ρ c (Proc.devRef .tc main_call0_v7) = W3 m ρ c (Proc.devRef .tc main_call0_v7) := (klev7_keep_v7 _).trans (u8_v7 m ρ c)
theorem u7_v8 : U7 m ρ c (Proc.devRef .tc main_call0_v8) = W3 m ρ c (Proc.devRef .tc main_call0_v8) := (klev7_keep_v8 _).trans (u8_v8 m ρ c)
theorem u7_v20 : U7 m ρ c (Proc.devRef .tc main_call0_v20) = W5 m ρ c (Proc.devRef .tc main_call0_v20) := (klev7_keep_v20 _).trans (u8_v20 m ρ c)
theorem u7_v21 : U7 m ρ c (Proc.devRef .tc main_call0_v21) = W5 m ρ c (Proc.devRef .tc main_call0_v21) := (klev7_keep_v21 _).trans (u8_v21 m ρ c)
theorem u7_arg4 : (U7 m ρ c (Proc.devRef .tc main_arg4) : FVec Ideal S768 .f32) = kbi m c := (klev7_keep_arg4 _).trans (u8_arg4 m ρ c)
theorem u7_arg8 : (U7 m ρ c (Proc.devRef .tc main_arg8) : FVec Ideal S256 .f32) = kbf m c := (klev7_keep_arg8 _).trans (u8_arg8 m ρ c)

theorem u6_C : (U6 m ρ c (Proc.devRef .tc main_call0_v363) : FVec Ideal S131071x256 .f32) = stateC6 (argsK m c) := lev6_C m ρ c _ (u7_C m ρ c) (u7_H m ρ c) (u7_v7 m ρ c) (u7_v8 m ρ c) (u7_v20 m ρ c) (u7_v21 m ρ c) (u7_arg4 m ρ c) (u7_arg8 m ρ c)
theorem u6_H : (U6 m ρ c (Proc.devRef .tc main_call0_v365) : FVec Ideal S131071x256 .f32) = stateH6 (argsK m c) := lev6_H m ρ c _ (u7_C m ρ c) (u7_H m ρ c) (u7_v7 m ρ c) (u7_v8 m ρ c) (u7_v20 m ρ c) (u7_v21 m ρ c) (u7_arg4 m ρ c) (u7_arg8 m ρ c)
theorem u6_v7 : U6 m ρ c (Proc.devRef .tc main_call0_v7) = W3 m ρ c (Proc.devRef .tc main_call0_v7) := (klev6_keep_v7 _).trans (u7_v7 m ρ c)
theorem u6_v8 : U6 m ρ c (Proc.devRef .tc main_call0_v8) = W3 m ρ c (Proc.devRef .tc main_call0_v8) := (klev6_keep_v8 _).trans (u7_v8 m ρ c)
theorem u6_v20 : U6 m ρ c (Proc.devRef .tc main_call0_v20) = W5 m ρ c (Proc.devRef .tc main_call0_v20) := (klev6_keep_v20 _).trans (u7_v20 m ρ c)
theorem u6_v21 : U6 m ρ c (Proc.devRef .tc main_call0_v21) = W5 m ρ c (Proc.devRef .tc main_call0_v21) := (klev6_keep_v21 _).trans (u7_v21 m ρ c)
theorem u6_arg4 : (U6 m ρ c (Proc.devRef .tc main_arg4) : FVec Ideal S768 .f32) = kbi m c := (klev6_keep_arg4 _).trans (u7_arg4 m ρ c)
theorem u6_arg8 : (U6 m ρ c (Proc.devRef .tc main_arg8) : FVec Ideal S256 .f32) = kbf m c := (klev6_keep_arg8 _).trans (u7_arg8 m ρ c)

theorem u5_C : (U5 m ρ c (Proc.devRef .tc main_call0_v432) : FVec Ideal S131071x256 .f32) = stateC5 (argsK m c) := lev5_C m ρ c _ (u6_C m ρ c) (u6_H m ρ c) (u6_v7 m ρ c) (u6_v8 m ρ c) (u6_v20 m ρ c) (u6_v21 m ρ c) (u6_arg4 m ρ c) (u6_arg8 m ρ c)
theorem u5_H : (U5 m ρ c (Proc.devRef .tc main_call0_v434) : FVec Ideal S131071x256 .f32) = stateH5 (argsK m c) := lev5_H m ρ c _ (u6_C m ρ c) (u6_H m ρ c) (u6_v7 m ρ c) (u6_v8 m ρ c) (u6_v20 m ρ c) (u6_v21 m ρ c) (u6_arg4 m ρ c) (u6_arg8 m ρ c)
theorem u5_v7 : U5 m ρ c (Proc.devRef .tc main_call0_v7) = W3 m ρ c (Proc.devRef .tc main_call0_v7) := (klev5_keep_v7 _).trans (u6_v7 m ρ c)
theorem u5_v8 : U5 m ρ c (Proc.devRef .tc main_call0_v8) = W3 m ρ c (Proc.devRef .tc main_call0_v8) := (klev5_keep_v8 _).trans (u6_v8 m ρ c)
theorem u5_v20 : U5 m ρ c (Proc.devRef .tc main_call0_v20) = W5 m ρ c (Proc.devRef .tc main_call0_v20) := (klev5_keep_v20 _).trans (u6_v20 m ρ c)
theorem u5_v21 : U5 m ρ c (Proc.devRef .tc main_call0_v21) = W5 m ρ c (Proc.devRef .tc main_call0_v21) := (klev5_keep_v21 _).trans (u6_v21 m ρ c)
theorem u5_arg4 : (U5 m ρ c (Proc.devRef .tc main_arg4) : FVec Ideal S768 .f32) = kbi m c := (klev5_keep_arg4 _).trans (u6_arg4 m ρ c)
theorem u5_arg8 : (U5 m ρ c (Proc.devRef .tc main_arg8) : FVec Ideal S256 .f32) = kbf m c := (klev5_keep_arg8 _).trans (u6_arg8 m ρ c)

theorem u4_C : (U4 m ρ c (Proc.devRef .tc main_call0_v501) : FVec Ideal S131071x256 .f32) = stateC4 (argsK m c) := lev4_C m ρ c _ (u5_C m ρ c) (u5_H m ρ c) (u5_v7 m ρ c) (u5_v8 m ρ c) (u5_v20 m ρ c) (u5_v21 m ρ c) (u5_arg4 m ρ c) (u5_arg8 m ρ c)
theorem u4_H : (U4 m ρ c (Proc.devRef .tc main_call0_v503) : FVec Ideal S131071x256 .f32) = stateH4 (argsK m c) := lev4_H m ρ c _ (u5_C m ρ c) (u5_H m ρ c) (u5_v7 m ρ c) (u5_v8 m ρ c) (u5_v20 m ρ c) (u5_v21 m ρ c) (u5_arg4 m ρ c) (u5_arg8 m ρ c)
theorem u4_v7 : U4 m ρ c (Proc.devRef .tc main_call0_v7) = W3 m ρ c (Proc.devRef .tc main_call0_v7) := (klev4_keep_v7 _).trans (u5_v7 m ρ c)
theorem u4_v8 : U4 m ρ c (Proc.devRef .tc main_call0_v8) = W3 m ρ c (Proc.devRef .tc main_call0_v8) := (klev4_keep_v8 _).trans (u5_v8 m ρ c)
theorem u4_v20 : U4 m ρ c (Proc.devRef .tc main_call0_v20) = W5 m ρ c (Proc.devRef .tc main_call0_v20) := (klev4_keep_v20 _).trans (u5_v20 m ρ c)
theorem u4_v21 : U4 m ρ c (Proc.devRef .tc main_call0_v21) = W5 m ρ c (Proc.devRef .tc main_call0_v21) := (klev4_keep_v21 _).trans (u5_v21 m ρ c)
theorem u4_arg4 : (U4 m ρ c (Proc.devRef .tc main_arg4) : FVec Ideal S768 .f32) = kbi m c := (klev4_keep_arg4 _).trans (u5_arg4 m ρ c)
theorem u4_arg8 : (U4 m ρ c (Proc.devRef .tc main_arg8) : FVec Ideal S256 .f32) = kbf m c := (klev4_keep_arg8 _).trans (u5_arg8 m ρ c)

theorem u3_C : (U3 m ρ c (Proc.devRef .tc main_call0_v570) : FVec Ideal S131071x256 .f32) = stateC3 (argsK m c) := lev3_C m ρ c _ (u4_C m ρ c) (u4_H m ρ c) (u4_v7 m ρ c) (u4_v8 m ρ c) (u4_v20 m ρ c) (u4_v21 m ρ c) (u4_arg4 m ρ c) (u4_arg8 m ρ c)
theorem u3_H : (U3 m ρ c (Proc.devRef .tc main_call0_v572) : FVec Ideal S131071x256 .f32) = stateH3 (argsK m c) := lev3_H m ρ c _ (u4_C m ρ c) (u4_H m ρ c) (u4_v7 m ρ c) (u4_v8 m ρ c) (u4_v20 m ρ c) (u4_v21 m ρ c) (u4_arg4 m ρ c) (u4_arg8 m ρ c)
theorem u3_v7 : U3 m ρ c (Proc.devRef .tc main_call0_v7) = W3 m ρ c (Proc.devRef .tc main_call0_v7) := (klev3_keep_v7 _).trans (u4_v7 m ρ c)
theorem u3_v8 : U3 m ρ c (Proc.devRef .tc main_call0_v8) = W3 m ρ c (Proc.devRef .tc main_call0_v8) := (klev3_keep_v8 _).trans (u4_v8 m ρ c)
theorem u3_v20 : U3 m ρ c (Proc.devRef .tc main_call0_v20) = W5 m ρ c (Proc.devRef .tc main_call0_v20) := (klev3_keep_v20 _).trans (u4_v20 m ρ c)
theorem u3_v21 : U3 m ρ c (Proc.devRef .tc main_call0_v21) = W5 m ρ c (Proc.devRef .tc main_call0_v21) := (klev3_keep_v21 _).trans (u4_v21 m ρ c)
theorem u3_arg4 : (U3 m ρ c (Proc.devRef .tc main_arg4) : FVec Ideal S768 .f32) = kbi m c := (klev3_keep_arg4 _).trans (u4_arg4 m ρ c)
theorem u3_arg8 : (U3 m ρ c (Proc.devRef .tc main_arg8) : FVec Ideal S256 .f32) = kbf m c := (klev3_keep_arg8 _).trans (u4_arg8 m ρ c)

theorem u2_C : (U2 m ρ c (Proc.devRef .tc main_call0_v639) : FVec Ideal S131071x256 .f32) = stateC2 (argsK m c) := lev2_C m ρ c _ (u3_C m ρ c) (u3_H m ρ c) (u3_v7 m ρ c) (u3_v8 m ρ c) (u3_v20 m ρ c) (u3_v21 m ρ c) (u3_arg4 m ρ c) (u3_arg8 m ρ c)
theorem u2_H : (U2 m ρ c (Proc.devRef .tc main_call0_v641) : FVec Ideal S131071x256 .f32) = stateH2 (argsK m c) := lev2_H m ρ c _ (u3_C m ρ c) (u3_H m ρ c) (u3_v7 m ρ c) (u3_v8 m ρ c) (u3_v20 m ρ c) (u3_v21 m ρ c) (u3_arg4 m ρ c) (u3_arg8 m ρ c)
theorem u2_v7 : U2 m ρ c (Proc.devRef .tc main_call0_v7) = W3 m ρ c (Proc.devRef .tc main_call0_v7) := (klev2_keep_v7 _).trans (u3_v7 m ρ c)
theorem u2_v8 : U2 m ρ c (Proc.devRef .tc main_call0_v8) = W3 m ρ c (Proc.devRef .tc main_call0_v8) := (klev2_keep_v8 _).trans (u3_v8 m ρ c)
theorem u2_v20 : U2 m ρ c (Proc.devRef .tc main_call0_v20) = W5 m ρ c (Proc.devRef .tc main_call0_v20) := (klev2_keep_v20 _).trans (u3_v20 m ρ c)
theorem u2_v21 : U2 m ρ c (Proc.devRef .tc main_call0_v21) = W5 m ρ c (Proc.devRef .tc main_call0_v21) := (klev2_keep_v21 _).trans (u3_v21 m ρ c)
theorem u2_arg4 : (U2 m ρ c (Proc.devRef .tc main_arg4) : FVec Ideal S768 .f32) = kbi m c := (klev2_keep_arg4 _).trans (u3_arg4 m ρ c)
theorem u2_arg8 : (U2 m ρ c (Proc.devRef .tc main_arg8) : FVec Ideal S256 .f32) = kbf m c := (klev2_keep_arg8 _).trans (u3_arg8 m ρ c)

theorem u1_C : (U1 m ρ c (Proc.devRef .tc main_call0_v708) : FVec Ideal S131071x256 .f32) = stateC1 (argsK m c) := lev1_C m ρ c _ (u2_C m ρ c) (u2_H m ρ c) (u2_v7 m ρ c) (u2_v8 m ρ c) (u2_v20 m ρ c) (u2_v21 m ρ c) (u2_arg4 m ρ c) (u2_arg8 m ρ c)
theorem u1_H : (U1 m ρ c (Proc.devRef .tc main_call0_v710) : FVec Ideal S131071x256 .f32) = stateH1 (argsK m c) := lev1_H m ρ c _ (u2_C m ρ c) (u2_H m ρ c) (u2_v7 m ρ c) (u2_v8 m ρ c) (u2_v20 m ρ c) (u2_v21 m ρ c) (u2_arg4 m ρ c) (u2_arg8 m ρ c)
theorem u1_v7 : U1 m ρ c (Proc.devRef .tc main_call0_v7) = W3 m ρ c (Proc.devRef .tc main_call0_v7) := (klev1_keep_v7 _).trans (u2_v7 m ρ c)
theorem u1_v8 : U1 m ρ c (Proc.devRef .tc main_call0_v8) = W3 m ρ c (Proc.devRef .tc main_call0_v8) := (klev1_keep_v8 _).trans (u2_v8 m ρ c)
theorem u1_v20 : U1 m ρ c (Proc.devRef .tc main_call0_v20) = W5 m ρ c (Proc.devRef .tc main_call0_v20) := (klev1_keep_v20 _).trans (u2_v20 m ρ c)
theorem u1_v21 : U1 m ρ c (Proc.devRef .tc main_call0_v21) = W5 m ρ c (Proc.devRef .tc main_call0_v21) := (klev1_keep_v21 _).trans (u2_v21 m ρ c)
theorem u1_arg4 : (U1 m ρ c (Proc.devRef .tc main_arg4) : FVec Ideal S768 .f32) = kbi m c := (klev1_keep_arg4 _).trans (u2_arg4 m ρ c)
theorem u1_arg8 : (U1 m ρ c (Proc.devRef .tc main_arg8) : FVec Ideal S256 .f32) = kbf m c := (klev1_keep_arg8 _).trans (u2_arg8 m ρ c)

theorem u0_C : (U0 m ρ c (Proc.devRef .tc main_call0_v774) : FVec Ideal S131071x256 .f32) = stateC0 (argsK m c) := lev0_C m ρ c _ (u1_C m ρ c) (u1_H m ρ c) (u1_v7 m ρ c) (u1_v8 m ρ c) (u1_v20 m ρ c) (u1_v21 m ρ c) (u1_arg4 m ρ c) (u1_arg8 m ρ c)
theorem u0_H : (U0 m ρ c (Proc.devRef .tc main_call0_v776) : FVec Ideal S131071x256 .f32) = stateH0 (argsK m c) := lev0_H m ρ c _ (u1_C m ρ c) (u1_H m ρ c) (u1_v7 m ρ c) (u1_v8 m ρ c) (u1_v20 m ρ c) (u1_v21 m ρ c) (u1_arg4 m ρ c) (u1_arg8 m ρ c)
theorem u0_v7 : U0 m ρ c (Proc.devRef .tc main_call0_v7) = W3 m ρ c (Proc.devRef .tc main_call0_v7) := (klev0_keep_v7 _).trans (u1_v7 m ρ c)
theorem u0_v8 : U0 m ρ c (Proc.devRef .tc main_call0_v8) = W3 m ρ c (Proc.devRef .tc main_call0_v8) := (klev0_keep_v8 _).trans (u1_v8 m ρ c)
theorem u0_v20 : U0 m ρ c (Proc.devRef .tc main_call0_v20) = W5 m ρ c (Proc.devRef .tc main_call0_v20) := (klev0_keep_v20 _).trans (u1_v20 m ρ c)
theorem u0_v21 : U0 m ρ c (Proc.devRef .tc main_call0_v21) = W5 m ρ c (Proc.devRef .tc main_call0_v21) := (klev0_keep_v21 _).trans (u1_v21 m ρ c)
theorem u0_arg4 : (U0 m ρ c (Proc.devRef .tc main_arg4) : FVec Ideal S768 .f32) = kbi m c := (klev0_keep_arg4 _).trans (u1_arg4 m ρ c)
theorem u0_arg8 : (U0 m ρ c (Proc.devRef .tc main_arg8) : FVec Ideal S256 .f32) = kbf m c := (klev0_keep_arg8 _).trans (u1_arg8 m ρ c)

theorem w17_split : W17 m ρ c = after ktail8 (U0 m ρ c) := by
  show after hostOps8 (W16 m ρ c) = _
  rw [hostOps8_eq]
  simp only [after_append]

/-- The kernel's two results are the root's rows of the specification. -/
theorem result_C : (W17 m ρ c (Proc.devRef .tc main_v0_0) : FVec Ideal S1x256 .f32) = rootC (argsK m c) := by
  rw [w17_split, h8tail_c, u0_C]
  rfl

theorem result_H : (W17 m ρ c (Proc.devRef .tc main_v0_1) : FVec Ideal S1x256 .f32) = rootH (argsK m c) := by
  rw [w17_split, h8tail_h, u0_H]
  rfl

end Cert.KernelIdeal.TreeChain

end
-- ==== Proof.RefLevels.lean ====
/-
  THE REFERENCE'S UPWARD PASS, LEVEL BY LEVEL.

  The reference computes the input projections of all 131071 nodes at once, the leaves' states from their rows, and
  then sixteen times one level from the level below, each time reading the children's rows out of the two state
  arrays and writing the level's rows back. Each of these stages is, as a whole array, the corresponding function of
  LibTreeCell: the projection's rows (projRows), the leaves' cell and hidden state (leafC, leafH) and the level step
  (stepC, stepH) of the two state arrays as they stand before the level.
-/
import proofs.«176519_j24352464569160_2_alg».proof.Proof.Gen.ReferenceIdeal.Run
import proofs.«176519_j24352464569160_2_alg».proof.Proof.LibTreeCell
import proofs.«176519_j24352464569160_2_alg».proof.Proof.TreeSpec

set_option maxRecDepth 16384

noncomputable section

namespace Cert.ReferenceIdeal.Tree

open Cert.ReferenceIdeal Cert.ReferenceIdeal.Gen Cert.ReferenceIdeal.Value Cert.TreeCell
open Idealize.ShloMosaic Idealize.ShloMosaic.TcCoe Idealize.SL.Sem Idealize.ShloMosaic.StableHlo Idealize.ShloMosaic.ValueIdx

variable (V0 : Valuation τ sig (Elt Ideal))

/-- The arguments: node features, the input weights and biases of the three gates and of the forget gate, the
    hidden-state weights and biases of the three gates and of the forget gate. -/
abbrev aX : FVec Ideal S131071x256 .f32 := V0 (Proc.devRef .tc main_arg0)
abbrev aWx : FVec Ideal S768x256 .f32 := V0 (Proc.devRef .tc main_arg1)
abbrev abx : FVec Ideal S768 .f32 := V0 (Proc.devRef .tc main_arg2)
abbrev aWi : FVec Ideal S768x256 .f32 := V0 (Proc.devRef .tc main_arg3)
abbrev abi : FVec Ideal S768 .f32 := V0 (Proc.devRef .tc main_arg4)
abbrev aWfx : FVec Ideal S256x256 .f32 := V0 (Proc.devRef .tc main_arg5)
abbrev abfx : FVec Ideal S256 .f32 := V0 (Proc.devRef .tc main_arg6)
abbrev aWf : FVec Ideal S256x256 .f32 := V0 (Proc.devRef .tc main_arg7)
abbrev abf : FVec Ideal S256 .f32 := V0 (Proc.devRef .tc main_arg8)

/-- The gates' input projection of every node, and the forget gate's. -/
theorem iouX_apply (r : Fin 131071) (j : Fin 768) :
    (res_main_v4 V0 : FVec Ideal S131071x768 .f32) (ix2 r j) = proj (aX V0) (aWx V0) (abx V0) r j := by
  unfold res_main_v4
  exact host_proj_apply _ _ _ dot_S131071x256_S256x768_S131071x768_1_0_0_1_n_n _ rfl _ _ _ r j

theorem fX_apply (r : Fin 131071) (q : Fin 256) :
    (res_main_v9 V0 : FVec Ideal S131071x256 .f32) (ix2 r q) = proj (aX V0) (aWfx V0) (abfx V0) r q := by
  unfold res_main_v9
  exact host_proj_apply _ _ _ dot_S131071x256_S256x256_S131071x256_1_0_0_1_n_n _ rfl _ _ _ r q

/-! ## Level 15: 32768 nodes from row 32767 -/

theorem iouS_15 : extractStridedSlice S32768x768 ![32767, 0] (res_main_v4 V0) slices_S131071x768_S32768x768_32767_0
    = projRows (N := 32768) (aX V0) (aWx V0) (abx V0) 32767 (by decide) :=
  rows_slice_eq_projRows _ _ _ _ 32767 _ _ fun r j _ => iouX_apply V0 r j

theorem fxS_15 : extractStridedSlice S32768x256 ![32767, 0] (res_main_v9 V0) slices_S131071x256_S32768x256_32767_0
    = projRows (N := 32768) (aX V0) (aWfx V0) (abfx V0) 32767 (by decide) :=
  rows_slice_eq_projRows _ _ _ _ 32767 _ _ fun r q _ => fX_apply V0 r q

theorem gate_15 (n : Fin 32768) (j : Fin 768) :
    (res_main_v52 V0 : FVec Ideal S32768x768 .f32) (ix2 n j)
      = gate (projRows (N := 32768) (aX V0) (aWx V0) (abx V0) 32767 (by decide)) (res_main_v43 V0) (aWi V0) (abi V0) n j := by
  unfold res_main_v52
  rw [iouS_15]
  exact sum_form_gate_apply _ _ _ _ dot_S32768x256_S256x768_S32768x768_1_0_0_1_n_n _ rfl _ _ _ _ (fun n j => Cert.LayerForms.row_then_down _ _ _ n j) n j

theorem cn_15 : res_main_v80 V0 = stepC (aX V0) (aWx V0) (abx V0) (aWfx V0) (abfx V0) (aWi V0) (abi V0) (aWf V0) (abf V0) 32767 65535 (by decide) slices_S131071x256_S65536x256_65535_0 shapeCasts_S65536x256_S32768x2x256 (res_main_v38 V0) (res_main_v40 V0) := by
  unfold res_main_v80 stepC
  rw [fxS_15]
  exact sum_form_cellC _ (res_main_v52 V0) _ _ _ _ _ _ _ (gate_15 V0)
    dot_S32768x2x256_S256x256_S32768x2x256_2_1_01_0_n_n _ rfl _ _ _ _ _ _ _ _ _ _

theorem hn_15 : mulf (Host.divf (broadcastInDim S32768x256 ![] bcast_S_S32768x256 (constant S_ .f32 0x3F800000#32)) (addf (broadcastInDim S32768x256 ![] bcast_S_S32768x256 (constant S_ .f32 0x3F800000#32)) (Host.exp (Host.negf (extractStridedSlice S32768x256 ![0, 256] (res_main_v52 V0) slices_S32768x768_S32768x256_0_256))))) (Host.tanh (res_main_v80 V0))
    = stepH (aX V0) (aWx V0) (abx V0) (aWfx V0) (abfx V0) (aWi V0) (abi V0) (aWf V0) (abf V0) 32767 65535 (by decide) slices_S131071x256_S65536x256_65535_0 shapeCasts_S65536x256_S32768x2x256 (res_main_v38 V0) (res_main_v40 V0) := by
  unfold stepH
  exact sum_form_cellH _ (res_main_v52 V0) _ _ _ _ _ _ _ (gate_15 V0) _ (cn_15 V0) _ _

theorem Ca_15 : res_main_v90 V0 = Host.scatter scatter_S131071x256_S1_S32768x256_01_n_0_0 (fun _ b => b) (res_main_v38 V0)
    (broadcastInDim S1 ![] bcast_S_S1 (constantI S_ 32 32767#32)) (stepC (aX V0) (aWx V0) (abx V0) (aWfx V0) (abfx V0) (aWi V0) (abi V0) (aWf V0) (abf V0) 32767 65535 (by decide) slices_S131071x256_S65536x256_65535_0 shapeCasts_S65536x256_S32768x2x256 (res_main_v38 V0) (res_main_v40 V0)) := by
  unfold res_main_v90
  exact congrArg (Host.scatter _ _ _ _) (cn_15 V0)

theorem Ha_15 : res_main_v92 V0 = Host.scatter scatter_S131071x256_S1_S32768x256_01_n_0_0 (fun _ b => b) (res_main_v40 V0)
    (broadcastInDim S1 ![] bcast_S_S1 (constantI S_ 32 32767#32)) (stepH (aX V0) (aWx V0) (abx V0) (aWfx V0) (abfx V0) (aWi V0) (abi V0) (aWf V0) (abf V0) 32767 65535 (by decide) slices_S131071x256_S65536x256_65535_0 shapeCasts_S65536x256_S32768x2x256 (res_main_v38 V0) (res_main_v40 V0)) := by
  unfold res_main_v92
  exact congrArg (Host.scatter _ _ _ _) (hn_15 V0)

/-! ## Level 14: 16384 nodes from row 16383 -/

theorem iouS_14 : extractStridedSlice S16384x768 ![16383, 0] (res_main_v4 V0) slices_S131071x768_S16384x768_16383_0
    = projRows (N := 16384) (aX V0) (aWx V0) (abx V0) 16383 (by decide) :=
  rows_slice_eq_projRows _ _ _ _ 16383 _ _ fun r j _ => iouX_apply V0 r j

theorem fxS_14 : extractStridedSlice S16384x256 ![16383, 0] (res_main_v9 V0) slices_S131071x256_S16384x256_16383_0
    = projRows (N := 16384) (aX V0) (aWfx V0) (abfx V0) 16383 (by decide) :=
  rows_slice_eq_projRows _ _ _ _ 16383 _ _ fun r q _ => fX_apply V0 r q

theorem gate_14 (n : Fin 16384) (j : Fin 768) :
    (res_main_v104 V0 : FVec Ideal S16384x768 .f32) (ix2 n j)
      = gate (projRows (N := 16384) (aX V0) (aWx V0) (abx V0) 16383 (by decide)) (res_main_v95 V0) (aWi V0) (abi V0) n j := by
  unfold res_main_v104
  rw [iouS_14]
  exact sum_form_gate_apply _ _ _ _ dot_S16384x256_S256x768_S16384x768_1_0_0_1_n_n _ rfl _ _ _ _ (fun n j => Cert.LayerForms.row_then_down _ _ _ n j) n j

theorem cn_14 : res_main_v132 V0 = stepC (aX V0) (aWx V0) (abx V0) (aWfx V0) (abfx V0) (aWi V0) (abi V0) (aWf V0) (abf V0) 16383 32767 (by decide) slices_S131071x256_S32768x256_32767_0 shapeCasts_S32768x256_S16384x2x256 (res_main_v90 V0) (res_main_v92 V0) := by
  unfold res_main_v132 stepC
  rw [fxS_14]
  exact sum_form_cellC _ (res_main_v104 V0) _ _ _ _ _ _ _ (gate_14 V0)
    dot_S16384x2x256_S256x256_S16384x2x256_2_1_01_0_n_n _ rfl _ _ _ _ _ _ _ _ _ _

theorem hn_14 : mulf (Host.divf (broadcastInDim S16384x256 ![] bcast_S_S16384x256 (constant S_ .f32 0x3F800000#32)) (addf (broadcastInDim S16384x256 ![] bcast_S_S16384x256 (constant S_ .f32 0x3F800000#32)) (Host.exp (Host.negf (extractStridedSlice S16384x256 ![0, 256] (res_main_v104 V0) slices_S16384x768_S16384x256_0_256))))) (Host.tanh (res_main_v132 V0))
    = stepH (aX V0) (aWx V0) (abx V0) (aWfx V0) (abfx V0) (aWi V0) (abi V0) (aWf V0) (abf V0) 16383 32767 (by decide) slices_S131071x256_S32768x256_32767_0 shapeCasts_S32768x256_S16384x2x256 (res_main_v90 V0) (res_main_v92 V0) := by
  unfold stepH
  exact sum_form_cellH _ (res_main_v104 V0) _ _ _ _ _ _ _ (gate_14 V0) _ (cn_14 V0) _ _

theorem Ca_14 : res_main_v142 V0 = Host.scatter scatter_S131071x256_S1_S16384x256_01_n_0_0 (fun _ b => b) (res_main_v90 V0)
    (broadcastInDim S1 ![] bcast_S_S1 (constantI S_ 32 16383#32)) (stepC (aX V0) (aWx V0) (abx V0) (aWfx V0) (abfx V0) (aWi V0) (abi V0) (aWf V0) (abf V0) 16383 32767 (by decide) slices_S131071x256_S32768x256_32767_0 shapeCasts_S32768x256_S16384x2x256 (res_main_v90 V0) (res_main_v92 V0)) := by
  unfold res_main_v142
  exact congrArg (Host.scatter _ _ _ _) (cn_14 V0)

theorem Ha_14 : res_main_v144 V0 = Host.scatter scatter_S131071x256_S1_S16384x256_01_n_0_0 (fun _ b => b) (res_main_v92 V0)
    (broadcastInDim S1 ![] bcast_S_S1 (constantI S_ 32 16383#32)) (stepH (aX V0) (aWx V0) (abx V0) (aWfx V0) (abfx V0) (aWi V0) (abi V0) (aWf V0) (abf V0) 16383 32767 (by decide) slices_S131071x256_S32768x256_32767_0 shapeCasts_S32768x256_S16384x2x256 (res_main_v90 V0) (res_main_v92 V0)) := by
  unfold res_main_v144
  exact congrArg (Host.scatter _ _ _ _) (hn_14 V0)

/-! ## Level 13: 8192 nodes from row 8191 -/

theorem iouS_13 : extractStridedSlice S8192x768 ![8191, 0] (res_main_v4 V0) slices_S131071x768_S8192x768_8191_0
    = projRows (N := 8192) (aX V0) (aWx V0) (abx V0) 8191 (by decide) :=
  rows_slice_eq_projRows _ _ _ _ 8191 _ _ fun r j _ => iouX_apply V0 r j

theorem fxS_13 : extractStridedSlice S8192x256 ![8191, 0] (res_main_v9 V0) slices_S131071x256_S8192x256_8191_0
    = projRows (N := 8192) (aX V0) (aWfx V0) (abfx V0) 8191 (by decide) :=
  rows_slice_eq_projRows _ _ _ _ 8191 _ _ fun r q _ => fX_apply V0 r q

theorem gate_13 (n : Fin 8192) (j : Fin 768) :
    (res_main_v156 V0 : FVec Ideal S8192x768 .f32) (ix2 n j)
      = gate (projRows (N := 8192) (aX V0) (aWx V0) (abx V0) 8191 (by decide)) (res_main_v147 V0) (aWi V0) (abi V0) n j := by
  unfold res_main_v156
  rw [iouS_13]
  exact sum_form_gate_apply _ _ _ _ dot_S8192x256_S256x768_S8192x768_1_0_0_1_n_n _ rfl _ _ _ _ (fun n j => Cert.LayerForms.row_then_down _ _ _ n j) n j

theorem cn_13 : res_main_v184 V0 = stepC (aX V0) (aWx V0) (abx V0) (aWfx V0) (abfx V0) (aWi V0) (abi V0) (aWf V0) (abf V0) 8191 16383 (by decide) slices_S131071x256_S16384x256_16383_0 shapeCasts_S16384x256_S8192x2x256 (res_main_v142 V0) (res_main_v144 V0) := by
  unfold res_main_v184 stepC
  rw [fxS_13]
  exact sum_form_cellC _ (res_main_v156 V0) _ _ _ _ _ _ _ (gate_13 V0)
    dot_S8192x2x256_S256x256_S8192x2x256_2_1_01_0_n_n _ rfl _ _ _ _ _ _ _ _ _ _

theorem hn_13 : mulf (Host.divf (broadcastInDim S8192x256 ![] bcast_S_S8192x256 (constant S_ .f32 0x3F800000#32)) (addf (broadcastInDim S8192x256 ![] bcast_S_S8192x256 (constant S_ .f32 0x3F800000#32)) (Host.exp (Host.negf (extractStridedSlice S8192x256 ![0, 256] (res_main_v156 V0) slices_S8192x768_S8192x256_0_256))))) (Host.tanh (res_main_v184 V0))
    = stepH (aX V0) (aWx V0) (abx V0) (aWfx V0) (abfx V0) (aWi V0) (abi V0) (aWf V0) (abf V0) 8191 16383 (by decide) slices_S131071x256_S16384x256_16383_0 shapeCasts_S16384x256_S8192x2x256 (res_main_v142 V0) (res_main_v144 V0) := by
  unfold stepH
  exact sum_form_cellH _ (res_main_v156 V0) _ _ _ _ _ _ _ (gate_13 V0) _ (cn_13 V0) _ _

theorem Ca_13 : res_main_v194 V0 = Host.scatter scatter_S131071x256_S1_S8192x256_01_n_0_0 (fun _ b => b) (res_main_v142 V0)
    (broadcastInDim S1 ![] bcast_S_S1 (constantI S_ 32 8191#32)) (stepC (aX V0) (aWx V0) (abx V0) (aWfx V0) (abfx V0) (aWi V0) (abi V0) (aWf V0) (abf V0) 8191 16383 (by decide) slices_S131071x256_S16384x256_16383_0 shapeCasts_S16384x256_S8192x2x256 (res_main_v142 V0) (res_main_v144 V0)) := by
  unfold res_main_v194
  exact congrArg (Host.scatter _ _ _ _) (cn_13 V0)

theorem Ha_13 : res_main_v196 V0 = Host.scatter scatter_S131071x256_S1_S8192x256_01_n_0_0 (fun _ b => b) (res_main_v144 V0)
    (broadcastInDim S1 ![] bcast_S_S1 (constantI S_ 32 8191#32)) (stepH (aX V0) (aWx V0) (abx V0) (aWfx V0) (abfx V0) (aWi V0) (abi V0) (aWf V0) (abf V0) 8191 16383 (by decide) slices_S131071x256_S16384x256_16383_0 shapeCasts_S16384x256_S8192x2x256 (res_main_v142 V0) (res_main_v144 V0)) := by
  unfold res_main_v196
  exact congrArg (Host.scatter _ _ _ _) (hn_13 V0)

/-! ## Level 12: 4096 nodes from row 4095 -/

theorem iouS_12 : extractStridedSlice S4096x768 ![4095, 0] (res_main_v4 V0) slices_S131071x768_S4096x768_4095_0
    = projRows (N := 4096) (aX V0) (aWx V0) (abx V0) 4095 (by decide) :=
  rows_slice_eq_projRows _ _ _ _ 4095 _ _ fun r j _ => iouX_apply V0 r j

theorem fxS_12 : extractStridedSlice S4096x256 ![4095, 0] (res_main_v9 V0) slices_S131071x256_S4096x256_4095_0
    = projRows (N := 4096) (aX V0) (aWfx V0) (abfx V0) 4095 (by decide) :=
  rows_slice_eq_projRows _ _ _ _ 4095 _ _ fun r q _ => fX_apply V0 r q

theorem gate_12 (n : Fin 4096) (j : Fin 768) :
    (res_main_v208 V0 : FVec Ideal S4096x768 .f32) (ix2 n j)
      = gate (projRows (N := 4096) (aX V0) (aWx V0) (abx V0) 4095 (by decide)) (res_main_v199 V0) (aWi V0) (abi V0) n j := by
  unfold res_main_v208
  rw [iouS_12]
  exact sum_form_gate_apply _ _ _ _ dot_S4096x256_S256x768_S4096x768_1_0_0_1_n_n _ rfl _ _ _ _ (fun n j => Cert.LayerForms.row_then_down _ _ _ n j) n j

theorem cn_12 : res_main_v236 V0 = stepC (aX V0) (aWx V0) (abx V0) (aWfx V0) (abfx V0) (aWi V0) (abi V0) (aWf V0) (abf V0) 4095 8191 (by decide) slices_S131071x256_S8192x256_8191_0 shapeCasts_S8192x256_S4096x2x256 (res_main_v194 V0) (res_main_v196 V0) := by
  unfold res_main_v236 stepC
  rw [fxS_12]
  exact sum_form_cellC _ (res_main_v208 V0) _ _ _ _ _ _ _ (gate_12 V0)
    dot_S4096x2x256_S256x256_S4096x2x256_2_1_01_0_n_n _ rfl _ _ _ _ _ _ _ _ _ _

theorem hn_12 : mulf (Host.divf (broadcastInDim S4096x256 ![] bcast_S_S4096x256 (constant S_ .f32 0x3F800000#32)) (addf (broadcastInDim S4096x256 ![] bcast_S_S4096x256 (constant S_ .f32 0x3F800000#32)) (Host.exp (Host.negf (extractStridedSlice S4096x256 ![0, 256] (res_main_v208 V0) slices_S4096x768_S4096x256_0_256))))) (Host.tanh (res_main_v236 V0))
    = stepH (aX V0) (aWx V0) (abx V0) (aWfx V0) (abfx V0) (aWi V0) (abi V0) (aWf V0) (abf V0) 4095 8191 (by decide) slices_S131071x256_S8192x256_8191_0 shapeCasts_S8192x256_S4096x2x256 (res_main_v194 V0) (res_main_v196 V0) := by
  unfold stepH
  exact sum_form_cellH _ (res_main_v208 V0) _ _ _ _ _ _ _ (gate_12 V0) _ (cn_12 V0) _ _

theorem Ca_12 : res_main_v246 V0 = Host.scatter scatter_S131071x256_S1_S4096x256_01_n_0_0 (fun _ b => b) (res_main_v194 V0)
    (broadcastInDim S1 ![] bcast_S_S1 (constantI S_ 32 4095#32)) (stepC (aX V0) (aWx V0) (abx V0) (aWfx V0) (abfx V0) (aWi V0) (abi V0) (aWf V0) (abf V0) 4095 8191 (by decide) slices_S131071x256_S8192x256_8191_0 shapeCasts_S8192x256_S4096x2x256 (res_main_v194 V0) (res_main_v196 V0)) := by
  unfold res_main_v246
  exact congrArg (Host.scatter _ _ _ _) (cn_12 V0)

theorem Ha_12 : res_main_v248 V0 = Host.scatter scatter_S131071x256_S1_S4096x256_01_n_0_0 (fun _ b => b) (res_main_v196 V0)
    (broadcastInDim S1 ![] bcast_S_S1 (constantI S_ 32 4095#32)) (stepH (aX V0) (aWx V0) (abx V0) (aWfx V0) (abfx V0) (aWi V0) (abi V0) (aWf V0) (abf V0) 4095 8191 (by decide) slices_S131071x256_S8192x256_8191_0 shapeCasts_S8192x256_S4096x2x256 (res_main_v194 V0) (res_main_v196 V0)) := by
  unfold res_main_v248
  exact congrArg (Host.scatter _ _ _ _) (hn_12 V0)

/-! ## Level 11: 2048 nodes from row 2047 -/

theorem iouS_11 : extractStridedSlice S2048x768 ![2047, 0] (res_main_v4 V0) slices_S131071x768_S2048x768_2047_0
    = projRows (N := 2048) (aX V0) (aWx V0) (abx V0) 2047 (by decide) :=
  rows_slice_eq_projRows _ _ _ _ 2047 _ _ fun r j _ => iouX_apply V0 r j

theorem fxS_11 : extractStridedSlice S2048x256 ![2047, 0] (res_main_v9 V0) slices_S131071x256_S2048x256_2047_0
    = projRows (N := 2048) (aX V0) (aWfx V0) (abfx V0) 2047 (by decide) :=
  rows_slice_eq_projRows _ _ _ _ 2047 _ _ fun r q _ => fX_apply V0 r q

theorem gate_11 (n : Fin 2048) (j : Fin 768) :
    (res_main_v260 V0 : FVec Ideal S2048x768 .f32) (ix2 n j)
      = gate (projRows (N := 2048) (aX V0) (aWx V0) (abx V0) 2047 (by decide)) (res_main_v251 V0) (aWi V0) (abi V0) n j := by
  unfold res_main_v260
  rw [iouS_11]
  exact sum_form_gate_apply _ _ _ _ dot_S2048x256_S256x768_S2048x768_1_0_0_1_n_n _ rfl _ _ _ _ (fun n j => Cert.LayerForms.row_then_down _ _ _ n j) n j

theorem cn_11 : res_main_v288 V0 = stepC (aX V0) (aWx V0) (abx V0) (aWfx V0) (abfx V0) (aWi V0) (abi V0) (aWf V0) (abf V0) 2047 4095 (by decide) slices_S131071x256_S4096x256_4095_0 shapeCasts_S4096x256_S2048x2x256 (res_main_v246 V0) (res_main_v248 V0) := by
  unfold res_main_v288 stepC
  rw [fxS_11]
  exact sum_form_cellC _ (res_main_v260 V0) _ _ _ _ _ _ _ (gate_11 V0)
    dot_S2048x2x256_S256x256_S2048x2x256_2_1_01_0_n_n _ rfl _ _ _ _ _ _ _ _ _ _

theorem hn_11 : mulf (Host.divf (broadcastInDim S2048x256 ![] bcast_S_S2048x256 (constant S_ .f32 0x3F800000#32)) (addf (broadcastInDim S2048x256 ![] bcast_S_S2048x256 (constant S_ .f32 0x3F800000#32)) (Host.exp (Host.negf (extractStridedSlice S2048x256 ![0, 256] (res_main_v260 V0) slices_S2048x768_S2048x256_0_256))))) (Host.tanh (res_main_v288 V0))
    = stepH (aX V0) (aWx V0) (abx V0) (aWfx V0) (abfx V0) (aWi V0) (abi V0) (aWf V0) (abf V0) 2047 4095 (by decide) slices_S131071x256_S4096x256_4095_0 shapeCasts_S4096x256_S2048x2x256 (res_main_v246 V0) (res_main_v248 V0) := by
  unfold stepH
  exact sum_form_cellH _ (res_main_v260 V0) _ _ _ _ _ _ _ (gate_11 V0) _ (cn_11 V0) _ _

theorem Ca_11 : res_main_v298 V0 = Host.scatter scatter_S131071x256_S1_S2048x256_01_n_0_0 (fun _ b => b) (res_main_v246 V0)
    (broadcastInDim S1 ![] bcast_S_S1 (constantI S_ 32 2047#32)) (stepC (aX V0) (aWx V0) (abx V0) (aWfx V0) (abfx V0) (aWi V0) (abi V0) (aWf V0) (abf V0) 2047 4095 (by decide) slices_S131071x256_S4096x256_4095_0 shapeCasts_S4096x256_S2048x2x256 (res_main_v246 V0) (res_main_v248 V0)) := by
  unfold res_main_v298
  exact congrArg (Host.scatter _ _ _ _) (cn_11 V0)

theorem Ha_11 : res_main_v300 V0 = Host.scatter scatter_S131071x256_S1_S2048x256_01_n_0_0 (fun _ b => b) (res_main_v248 V0)
    (broadcastInDim S1 ![] bcast_S_S1 (constantI S_ 32 2047#32)) (stepH (aX V0) (aWx V0) (abx V0) (aWfx V0) (abfx V0) (aWi V0) (abi V0) (aWf V0) (abf V0) 2047 4095 (by decide) slices_S131071x256_S4096x256_4095_0 shapeCasts_S4096x256_S2048x2x256 (res_main_v246 V0) (res_main_v248 V0)) := by
  unfold res_main_v300
  exact congrArg (Host.scatter _ _ _ _) (hn_11 V0)

/-! ## Level 10: 1024 nodes from row 1023 -/

theorem iouS_10 : extractStridedSlice S1024x768 ![1023, 0] (res_main_v4 V0) slices_S131071x768_S1024x768_1023_0
    = projRows (N := 1024) (aX V0) (aWx V0) (abx V0) 1023 (by decide) :=
  rows_slice_eq_projRows _ _ _ _ 1023 _ _ fun r j _ => iouX_apply V0 r j

theorem fxS_10 : extractStridedSlice S1024x256 ![1023, 0] (res_main_v9 V0) slices_S131071x256_S1024x256_1023_0
    = projRows (N := 1024) (aX V0) (aWfx V0) (abfx V0) 1023 (by decide) :=
  rows_slice_eq_projRows _ _ _ _ 1023 _ _ fun r q _ => fX_apply V0 r q

theorem gate_10 (n : Fin 1024) (j : Fin 768) :
    (res_main_v312 V0 : FVec Ideal S1024x768 .f32) (ix2 n j)
      = gate (projRows (N := 1024) (aX V0) (aWx V0) (abx V0) 1023 (by decide)) (res_main_v303 V0) (aWi V0) (abi V0) n j := by
  unfold res_main_v312
  rw [iouS_10]
  exact sum_form_gate_apply _ _ _ _ dot_S1024x256_S256x768_S1024x768_1_0_0_1_n_n _ rfl _ _ _ _ (fun n j => Cert.LayerForms.row_then_down _ _ _ n j) n j

theorem cn_10 : res_main_v340 V0 = stepC (aX V0) (aWx V0) (abx V0) (aWfx V0) (abfx V0) (aWi V0) (abi V0) (aWf V0) (abf V0) 1023 2047 (by decide) slices_S131071x256_S2048x256_2047_0 shapeCasts_S2048x256_S1024x2x256 (res_main_v298 V0) (res_main_v300 V0) := by
  unfold res_main_v340 stepC
  rw [fxS_10]
  exact sum_form_cellC _ (res_main_v312 V0) _ _ _ _ _ _ _ (gate_10 V0)
    dot_S1024x2x256_S256x256_S1024x2x256_2_1_01_0_n_n _ rfl _ _ _ _ _ _ _ _ _ _

theorem hn_10 : mulf (Host.divf (broadcastInDim S1024x256 ![] bcast_S_S1024x256 (constant S_ .f32 0x3F800000#32)) (addf (broadcastInDim S1024x256 ![] bcast_S_S1024x256 (constant S_ .f32 0x3F800000#32)) (Host.exp (Host.negf (extractStridedSlice S1024x256 ![0, 256] (res_main_v312 V0) slices_S1024x768_S1024x256_0_256))))) (Host.tanh (res_main_v340 V0))
    = stepH (aX V0) (aWx V0) (abx V0) (aWfx V0) (abfx V0) (aWi V0) (abi V0) (aWf V0) (abf V0) 1023 2047 (by decide) slices_S131071x256_S2048x256_2047_0 shapeCasts_S2048x256_S1024x2x256 (res_main_v298 V0) (res_main_v300 V0) := by
  unfold stepH
  exact sum_form_cellH _ (res_main_v312 V0) _ _ _ _ _ _ _ (gate_10 V0) _ (cn_10 V0) _ _

theorem Ca_10 : res_main_v350 V0 = Host.scatter scatter_S131071x256_S1_S1024x256_01_n_0_0 (fun _ b => b) (res_main_v298 V0)
    (broadcastInDim S1 ![] bcast_S_S1 (constantI S_ 32 1023#32)) (stepC (aX V0) (aWx V0) (abx V0) (aWfx V0) (abfx V0) (aWi V0) (abi V0) (aWf V0) (abf V0) 1023 2047 (by decide) slices_S131071x256_S2048x256_2047_0 shapeCasts_S2048x256_S1024x2x256 (res_main_v298 V0) (res_main_v300 V0)) := by
  unfold res_main_v350
  exact congrArg (Host.scatter _ _ _ _) (cn_10 V0)

theorem Ha_10 : res_main_v352 V0 = Host.scatter scatter_S131071x256_S1_S1024x256_01_n_0_0 (fun _ b => b) (res_main_v300 V0)
    (broadcastInDim S1 ![] bcast_S_S1 (constantI S_ 32 1023#32)) (stepH (aX V0) (aWx V0) (abx V0) (aWfx V0) (abfx V0) (aWi V0) (abi V0) (aWf V0) (abf V0) 1023 2047 (by decide) slices_S131071x256_S2048x256_2047_0 shapeCasts_S2048x256_S1024x2x256 (res_main_v298 V0) (res_main_v300 V0)) := by
  unfold res_main_v352
  exact congrArg (Host.scatter _ _ _ _) (hn_10 V0)

/-! ## Level 9: 512 nodes from row 511 -/

theorem iouS_9 : extractStridedSlice S512x768 ![511, 0] (res_main_v4 V0) slices_S131071x768_S512x768_511_0
    = projRows (N := 512) (aX V0) (aWx V0) (abx V0) 511 (by decide) :=
  rows_slice_eq_projRows _ _ _ _ 511 _ _ fun r j _ => iouX_apply V0 r j

theorem fxS_9 : extractStridedSlice S512x256 ![511, 0] (res_main_v9 V0) slices_S131071x256_S512x256_511_0
    = projRows (N := 512) (aX V0) (aWfx V0) (abfx V0) 511 (by decide) :=
  rows_slice_eq_projRows _ _ _ _ 511 _ _ fun r q _ => fX_apply V0 r q

theorem gate_9 (n : Fin 512) (j : Fin 768) :
    (res_main_v364 V0 : FVec Ideal S512x768 .f32) (ix2 n j)
      = gate (projRows (N := 512) (aX V0) (aWx V0) (abx V0) 511 (by decide)) (res_main_v355 V0) (aWi V0) (abi V0) n j := by
  unfold res_main_v364
  rw [iouS_9]
  exact sum_form_gate_apply _ _ _ _ dot_S512x256_S256x768_S512x768_1_0_0_1_n_n _ rfl _ _ _ _ (fun n j => Cert.LayerForms.row_then_down _ _ _ n j) n j

theorem cn_9 : res_main_v392 V0 = stepC (aX V0) (aWx V0) (abx V0) (aWfx V0) (abfx V0) (aWi V0) (abi V0) (aWf V0) (abf V0) 511 1023 (by decide) slices_S131071x256_S1024x256_1023_0 shapeCasts_S1024x256_S512x2x256 (res_main_v350 V0) (res_main_v352 V0) := by
  unfold res_main_v392 stepC
  rw [fxS_9]
  exact sum_form_cellC _ (res_main_v364 V0) _ _ _ _ _ _ _ (gate_9 V0)
    dot_S512x2x256_S256x256_S512x2x256_2_1_01_0_n_n _ rfl _ _ _ _ _ _ _ _ _ _

theorem hn_9 : mulf (Host.divf (broadcastInDim S512x256 ![] bcast_S_S512x256 (constant S_ .f32 0x3F800000#32)) (addf (broadcastInDim S512x256 ![] bcast_S_S512x256 (constant S_ .f32 0x3F800000#32)) (Host.exp (Host.negf (extractStridedSlice S512x256 ![0, 256] (res_main_v364 V0) slices_S512x768_S512x256_0_256))))) (Host.tanh (res_main_v392 V0))
    = stepH (aX V0) (aWx V0) (abx V0) (aWfx V0) (abfx V0) (aWi V0) (abi V0) (aWf V0) (abf V0) 511 1023 (by decide) slices_S131071x256_S1024x256_1023_0 shapeCasts_S1024x256_S512x2x256 (res_main_v350 V0) (res_main_v352 V0) := by
  unfold stepH
  exact sum_form_cellH _ (res_main_v364 V0) _ _ _ _ _ _ _ (gate_9 V0) _ (cn_9 V0) _ _

theorem Ca_9 : res_main_v402 V0 = Host.scatter scatter_S131071x256_S1_S512x256_01_n_0_0 (fun _ b => b) (res_main_v350 V0)
    (broadcastInDim S1 ![] bcast_S_S1 (constantI S_ 32 511#32)) (stepC (aX V0) (aWx V0) (abx V0) (aWfx V0) (abfx V0) (aWi V0) (abi V0) (aWf V0) (abf V0) 511 1023 (by decide) slices_S131071x256_S1024x256_1023_0 shapeCasts_S1024x256_S512x2x256 (res_main_v350 V0) (res_main_v352 V0)) := by
  unfold res_main_v402
  exact congrArg (Host.scatter _ _ _ _) (cn_9 V0)

theorem Ha_9 : res_main_v404 V0 = Host.scatter scatter_S131071x256_S1_S512x256_01_n_0_0 (fun _ b => b) (res_main_v352 V0)
    (broadcastInDim S1 ![] bcast_S_S1 (constantI S_ 32 511#32)) (stepH (aX V0) (aWx V0) (abx V0) (aWfx V0) (abfx V0) (aWi V0) (abi V0) (aWf V0) (abf V0) 511 1023 (by decide) slices_S131071x256_S1024x256_1023_0 shapeCasts_S1024x256_S512x2x256 (res_main_v350 V0) (res_main_v352 V0)) := by
  unfold res_main_v404
  exact congrArg (Host.scatter _ _ _ _) (hn_9 V0)

/-! ## Level 8: 256 nodes from row 255 -/

theorem iouS_8 : extractStridedSlice S256x768 ![255, 0] (res_main_v4 V0) slices_S131071x768_S256x768_255_0
    = projRows (N := 256) (aX V0) (aWx V0) (abx V0) 255 (by decide) :=
  rows_slice_eq_projRows _ _ _ _ 255 _ _ fun r j _ => iouX_apply V0 r j

theorem fxS_8 : extractStridedSlice S256x256 ![255, 0] (res_main_v9 V0) slices_S131071x256_S256x256_255_0
    = projRows (N := 256) (aX V0) (aWfx V0) (abfx V0) 255 (by decide) :=
  rows_slice_eq_projRows _ _ _ _ 255 _ _ fun r q _ => fX_apply V0 r q

theorem gate_8 (n : Fin 256) (j : Fin 768) :
    (res_main_v416 V0 : FVec Ideal S256x768 .f32) (ix2 n j)
      = gate (projRows (N := 256) (aX V0) (aWx V0) (abx V0) 255 (by decide)) (res_main_v407 V0) (aWi V0) (abi V0) n j := by
  unfold res_main_v416
  rw [iouS_8]
  exact sum_form_gate_apply _ _ _ _ dot_S256x256_S256x768_S256x768_1_0_0_1_n_n _ rfl _ _ _ _ (fun n j => Cert.LayerForms.row_then_down _ _ _ n j) n j

theorem cn_8 : res_main_v444 V0 = stepC (aX V0) (aWx V0) (abx V0) (aWfx V0) (abfx V0) (aWi V0) (abi V0) (aWf V0) (abf V0) 255 511 (by decide) slices_S131071x256_S512x256_511_0 shapeCasts_S512x256_S256x2x256 (res_main_v402 V0) (res_main_v404 V0) := by
  unfold res_main_v444 stepC
  rw [fxS_8]
  exact sum_form_cellC _ (res_main_v416 V0) _ _ _ _ _ _ _ (gate_8 V0)
    dot_S256x2x256_S256x256_S256x2x256_2_1_01_0_n_n _ rfl _ _ _ _ _ _ _ _ _ _

theorem hn_8 : mulf (Host.divf (broadcastInDim S256x256 ![] bcast_S_S256x256 (constant S_ .f32 0x3F800000#32)) (addf (broadcastInDim S256x256 ![] bcast_S_S256x256 (constant S_ .f32 0x3F800000#32)) (Host.exp (Host.negf (extractStridedSlice S256x256 ![0, 256] (res_main_v416 V0) slices_S256x768_S256x256_0_256))))) (Host.tanh (res_main_v444 V0))
    = stepH (aX V0) (aWx V0) (abx V0) (aWfx V0) (abfx V0) (aWi V0) (abi V0) (aWf V0) (abf V0) 255 511 (by decide) slices_S131071x256_S512x256_511_0 shapeCasts_S512x256_S256x2x256 (res_main_v402 V0) (res_main_v404 V0) := by
  unfold stepH
  exact sum_form_cellH _ (res_main_v416 V0) _ _ _ _ _ _ _ (gate_8 V0) _ (cn_8 V0) _ _

theorem Ca_8 : res_main_v454 V0 = Host.scatter scatter_S131071x256_S1_S256x256_01_n_0_0 (fun _ b => b) (res_main_v402 V0)
    (broadcastInDim S1 ![] bcast_S_S1 (constantI S_ 32 255#32)) (stepC (aX V0) (aWx V0) (abx V0) (aWfx V0) (abfx V0) (aWi V0) (abi V0) (aWf V0) (abf V0) 255 511 (by decide) slices_S131071x256_S512x256_511_0 shapeCasts_S512x256_S256x2x256 (res_main_v402 V0) (res_main_v404 V0)) := by
  unfold res_main_v454
  exact congrArg (Host.scatter _ _ _ _) (cn_8 V0)

theorem Ha_8 : res_main_v456 V0 = Host.scatter scatter_S131071x256_S1_S256x256_01_n_0_0 (fun _ b => b) (res_main_v404 V0)
    (broadcastInDim S1 ![] bcast_S_S1 (constantI S_ 32 255#32)) (stepH (aX V0) (aWx V0) (abx V0) (aWfx V0) (abfx V0) (aWi V0) (abi V0) (aWf V0) (abf V0) 255 511 (by decide) slices_S131071x256_S512x256_511_0 shapeCasts_S512x256_S256x2x256 (res_main_v402 V0) (res_main_v404 V0)) := by
  unfold res_main_v456
  exact congrArg (Host.scatter _ _ _ _) (hn_8 V0)

/-! ## Level 7: 128 nodes from row 127 -/

theorem iouS_7 : extractStridedSlice S128x768 ![127, 0] (res_main_v4 V0) slices_S131071x768_S128x768_127_0
    = projRows (N := 128) (aX V0) (aWx V0) (abx V0) 127 (by decide) :=
  rows_slice_eq_projRows _ _ _ _ 127 _ _ fun r j _ => iouX_apply V0 r j

theorem fxS_7 : extractStridedSlice S128x256 ![127, 0] (res_main_v9 V0) slices_S131071x256_S128x256_127_0
    = projRows (N := 128) (aX V0) (aWfx V0) (abfx V0) 127 (by decide) :=
  rows_slice_eq_projRows _ _ _ _ 127 _ _ fun r q _ => fX_apply V0 r q

theorem gate_7 (n : Fin 128) (j : Fin 768) :
    (res_main_v468 V0 : FVec Ideal S128x768 .f32) (ix2 n j)
      = gate (projRows (N := 128) (aX V0) (aWx V0) (abx V0) 127 (by decide)) (res_main_v459 V0) (aWi V0) (abi V0) n j := by
  unfold res_main_v468
  rw [iouS_7]
  exact sum_form_gate_apply _ _ _ _ dot_S128x256_S256x768_S128x768_1_0_0_1_n_n _ rfl _ _ _ _ (fun n j => Cert.LayerForms.row_then_down _ _ _ n j) n j

theorem cn_7 : res_main_v496 V0 = stepC (aX V0) (aWx V0) (abx V0) (aWfx V0) (abfx V0) (aWi V0) (abi V0) (aWf V0) (abf V0) 127 255 (by decide) slices_S131071x256_S256x256_255_0 shapeCasts_S256x256_S128x2x256 (res_main_v454 V0) (res_main_v456 V0) := by
  unfold res_main_v496 stepC
  rw [fxS_7]
  exact sum_form_cellC _ (res_main_v468 V0) _ _ _ _ _ _ _ (gate_7 V0)
    dot_S128x2x256_S256x256_S128x2x256_2_1_01_0_n_n _ rfl _ _ _ _ _ _ _ _ _ _

theorem hn_7 : mulf (Host.divf (broadcastInDim S128x256 ![] bcast_S_S128x256 (constant S_ .f32 0x3F800000#32)) (addf (broadcastInDim S128x256 ![] bcast_S_S128x256 (constant S_ .f32 0x3F800000#32)) (Host.exp (Host.negf (extractStridedSlice S128x256 ![0, 256] (res_main_v468 V0) slices_S128x768_S128x256_0_256))))) (Host.tanh (res_main_v496 V0))
    = stepH (aX V0) (aWx V0) (abx V0) (aWfx V0) (abfx V0) (aWi V0) (abi V0) (aWf V0) (abf V0) 127 255 (by decide) slices_S131071x256_S256x256_255_0 shapeCasts_S256x256_S128x2x256 (res_main_v454 V0) (res_main_v456 V0) := by
  unfold stepH
  exact sum_form_cellH _ (res_main_v468 V0) _ _ _ _ _ _ _ (gate_7 V0) _ (cn_7 V0) _ _

theorem Ca_7 : res_main_v506 V0 = Host.scatter scatter_S131071x256_S1_S128x256_01_n_0_0 (fun _ b => b) (res_main_v454 V0)
    (broadcastInDim S1 ![] bcast_S_S1 (constantI S_ 32 127#32)) (stepC (aX V0) (aWx V0) (abx V0) (aWfx V0) (abfx V0) (aWi V0) (abi V0) (aWf V0) (abf V0) 127 255 (by decide) slices_S131071x256_S256x256_255_0 shapeCasts_S256x256_S128x2x256 (res_main_v454 V0) (res_main_v456 V0)) := by
  unfold res_main_v506
  exact congrArg (Host.scatter _ _ _ _) (cn_7 V0)

theorem Ha_7 : res_main_v508 V0 = Host.scatter scatter_S131071x256_S1_S128x256_01_n_0_0 (fun _ b => b) (res_main_v456 V0)
    (broadcastInDim S1 ![] bcast_S_S1 (constantI S_ 32 127#32)) (stepH (aX V0) (aWx V0) (abx V0) (aWfx V0) (abfx V0) (aWi V0) (abi V0) (aWf V0) (abf V0) 127 255 (by decide) slices_S131071x256_S256x256_255_0 shapeCasts_S256x256_S128x2x256 (res_main_v454 V0) (res_main_v456 V0)) := by
  unfold res_main_v508
  exact congrArg (Host.scatter _ _ _ _) (hn_7 V0)

/-! ## Level 6: 64 nodes from row 63 -/

theorem iouS_6 : extractStridedSlice S64x768 ![63, 0] (res_main_v4 V0) slices_S131071x768_S64x768_63_0
    = projRows (N := 64) (aX V0) (aWx V0) (abx V0) 63 (by decide) :=
  rows_slice_eq_projRows _ _ _ _ 63 _ _ fun r j _ => iouX_apply V0 r j

theorem fxS_6 : extractStridedSlice S64x256 ![63, 0] (res_main_v9 V0) slices_S131071x256_S64x256_63_0
    = projRows (N := 64) (aX V0) (aWfx V0) (abfx V0) 63 (by decide) :=
  rows_slice_eq_projRows _ _ _ _ 63 _ _ fun r q _ => fX_apply V0 r q

theorem gate_6 (n : Fin 64) (j : Fin 768) :
    (res_main_v520 V0 : FVec Ideal S64x768 .f32) (ix2 n j)
      = gate (projRows (N := 64) (aX V0) (aWx V0) (abx V0) 63 (by decide)) (res_main_v511 V0) (aWi V0) (abi V0) n j := by
  unfold res_main_v520
  rw [iouS_6]
  exact sum_form_gate_apply _ _ _ _ dot_S64x256_S256x768_S64x768_1_0_0_1_n_n _ rfl _ _ _ _ (fun n j => Cert.LayerForms.row_then_down _ _ _ n j) n j

theorem cn_6 : res_main_v548 V0 = stepC (aX V0) (aWx V0) (abx V0) (aWfx V0) (abfx V0) (aWi V0) (abi V0) (aWf V0) (abf V0) 63 127 (by decide) slices_S131071x256_S128x256_127_0 shapeCasts_S128x256_S64x2x256 (res_main_v506 V0) (res_main_v508 V0) := by
  unfold res_main_v548 stepC
  rw [fxS_6]
  exact sum_form_cellC _ (res_main_v520 V0) _ _ _ _ _ _ _ (gate_6 V0)
    dot_S64x2x256_S256x256_S64x2x256_2_1_01_0_n_n _ rfl _ _ _ _ _ _ _ _ _ _

theorem hn_6 : mulf (Host.divf (broadcastInDim S64x256 ![] bcast_S_S64x256 (constant S_ .f32 0x3F800000#32)) (addf (broadcastInDim S64x256 ![] bcast_S_S64x256 (constant S_ .f32 0x3F800000#32)) (Host.exp (Host.negf (extractStridedSlice S64x256 ![0, 256] (res_main_v520 V0) slices_S64x768_S64x256_0_256))))) (Host.tanh (res_main_v548 V0))
    = stepH (aX V0) (aWx V0) (abx V0) (aWfx V0) (abfx V0) (aWi V0) (abi V0) (aWf V0) (abf V0) 63 127 (by decide) slices_S131071x256_S128x256_127_0 shapeCasts_S128x256_S64x2x256 (res_main_v506 V0) (res_main_v508 V0) := by
  unfold stepH
  exact sum_form_cellH _ (res_main_v520 V0) _ _ _ _ _ _ _ (gate_6 V0) _ (cn_6 V0) _ _

theorem Ca_6 : res_main_v558 V0 = Host.scatter scatter_S131071x256_S1_S64x256_01_n_0_0 (fun _ b => b) (res_main_v506 V0)
    (broadcastInDim S1 ![] bcast_S_S1 (constantI S_ 32 63#32)) (stepC (aX V0) (aWx V0) (abx V0) (aWfx V0) (abfx V0) (aWi V0) (abi V0) (aWf V0) (abf V0) 63 127 (by decide) slices_S131071x256_S128x256_127_0 shapeCasts_S128x256_S64x2x256 (res_main_v506 V0) (res_main_v508 V0)) := by
  unfold res_main_v558
  exact congrArg (Host.scatter _ _ _ _) (cn_6 V0)

theorem Ha_6 : res_main_v560 V0 = Host.scatter scatter_S131071x256_S1_S64x256_01_n_0_0 (fun _ b => b) (res_main_v508 V0)
    (broadcastInDim S1 ![] bcast_S_S1 (constantI S_ 32 63#32)) (stepH (aX V0) (aWx V0) (abx V0) (aWfx V0) (abfx V0) (aWi V0) (abi V0) (aWf V0) (abf V0) 63 127 (by decide) slices_S131071x256_S128x256_127_0 shapeCasts_S128x256_S64x2x256 (res_main_v506 V0) (res_main_v508 V0)) := by
  unfold res_main_v560
  exact congrArg (Host.scatter _ _ _ _) (hn_6 V0)

/-! ## Level 5: 32 nodes from row 31 -/

theorem iouS_5 : extractStridedSlice S32x768 ![31, 0] (res_main_v4 V0) slices_S131071x768_S32x768_31_0
    = projRows (N := 32) (aX V0) (aWx V0) (abx V0) 31 (by decide) :=
  rows_slice_eq_projRows _ _ _ _ 31 _ _ fun r j _ => iouX_apply V0 r j

theorem fxS_5 : extractStridedSlice S32x256 ![31, 0] (res_main_v9 V0) slices_S131071x256_S32x256_31_0
    = projRows (N := 32) (aX V0) (aWfx V0) (abfx V0) 31 (by decide) :=
  rows_slice_eq_projRows _ _ _ _ 31 _ _ fun r q _ => fX_apply V0 r q

theorem gate_5 (n : Fin 32) (j : Fin 768) :
    (res_main_v572 V0 : FVec Ideal S32x768 .f32) (ix2 n j)
      = gate (projRows (N := 32) (aX V0) (aWx V0) (abx V0) 31 (by decide)) (res_main_v563 V0) (aWi V0) (abi V0) n j := by
  unfold res_main_v572
  rw [iouS_5]
  exact sum_form_gate_apply _ _ _ _ dot_S32x256_S256x768_S32x768_1_0_0_1_n_n _ rfl _ _ _ _ (fun n j => Cert.LayerForms.row_then_down _ _ _ n j) n j

theorem cn_5 : res_main_v600 V0 = stepC (aX V0) (aWx V0) (abx V0) (aWfx V0) (abfx V0) (aWi V0) (abi V0) (aWf V0) (abf V0) 31 63 (by decide) slices_S131071x256_S64x256_63_0 shapeCasts_S64x256_S32x2x256 (res_main_v558 V0) (res_main_v560 V0) := by
  unfold res_main_v600 stepC
  rw [fxS_5]
  exact sum_form_cellC _ (res_main_v572 V0) _ _ _ _ _ _ _ (gate_5 V0)
    dot_S32x2x256_S256x256_S32x2x256_2_1_01_0_n_n _ rfl _ _ _ _ _ _ _ _ _ _

theorem hn_5 : mulf (Host.divf (broadcastInDim S32x256 ![] bcast_S_S32x256 (constant S_ .f32 0x3F800000#32)) (addf (broadcastInDim S32x256 ![] bcast_S_S32x256 (constant S_ .f32 0x3F800000#32)) (Host.exp (Host.negf (extractStridedSlice S32x256 ![0, 256] (res_main_v572 V0) slices_S32x768_S32x256_0_256))))) (Host.tanh (res_main_v600 V0))
    = stepH (aX V0) (aWx V0) (abx V0) (aWfx V0) (abfx V0) (aWi V0) (abi V0) (aWf V0) (abf V0) 31 63 (by decide) slices_S131071x256_S64x256_63_0 shapeCasts_S64x256_S32x2x256 (res_main_v558 V0) (res_main_v560 V0) := by
  unfold stepH
  exact sum_form_cellH _ (res_main_v572 V0) _ _ _ _ _ _ _ (gate_5 V0) _ (cn_5 V0) _ _

theorem Ca_5 : res_main_v610 V0 = Host.scatter scatter_S131071x256_S1_S32x256_01_n_0_0 (fun _ b => b) (res_main_v558 V0)
    (broadcastInDim S1 ![] bcast_S_S1 (constantI S_ 32 31#32)) (stepC (aX V0) (aWx V0) (abx V0) (aWfx V0) (abfx V0) (aWi V0) (abi V0) (aWf V0) (abf V0) 31 63 (by decide) slices_S131071x256_S64x256_63_0 shapeCasts_S64x256_S32x2x256 (res_main_v558 V0) (res_main_v560 V0)) := by
  unfold res_main_v610
  exact congrArg (Host.scatter _ _ _ _) (cn_5 V0)

theorem Ha_5 : res_main_v612 V0 = Host.scatter scatter_S131071x256_S1_S32x256_01_n_0_0 (fun _ b => b) (res_main_v560 V0)
    (broadcastInDim S1 ![] bcast_S_S1 (constantI S_ 32 31#32)) (stepH (aX V0) (aWx V0) (abx V0) (aWfx V0) (abfx V0) (aWi V0) (abi V0) (aWf V0) (abf V0) 31 63 (by decide) slices_S131071x256_S64x256_63_0 shapeCasts_S64x256_S32x2x256 (res_main_v558 V0) (res_main_v560 V0)) := by
  unfold res_main_v612
  exact congrArg (Host.scatter _ _ _ _) (hn_5 V0)

/-! ## Level 4: 16 nodes from row 15 -/

theorem iouS_4 : extractStridedSlice S16x768 ![15, 0] (res_main_v4 V0) slices_S131071x768_S16x768_15_0
    = projRows (N := 16) (aX V0) (aWx V0) (abx V0) 15 (by decide) :=
  rows_slice_eq_projRows _ _ _ _ 15 _ _ fun r j _ => iouX_apply V0 r j

theorem fxS_4 : extractStridedSlice S16x256 ![15, 0] (res_main_v9 V0) slices_S131071x256_S16x256_15_0
    = projRows (N := 16) (aX V0) (aWfx V0) (abfx V0) 15 (by decide) :=
  rows_slice_eq_projRows _ _ _ _ 15 _ _ fun r q _ => fX_apply V0 r q

theorem gate_4 (n : Fin 16) (j : Fin 768) :
    (res_main_v624 V0 : FVec Ideal S16x768 .f32) (ix2 n j)
      = gate (projRows (N := 16) (aX V0) (aWx V0) (abx V0) 15 (by decide)) (res_main_v615 V0) (aWi V0) (abi V0) n j := by
  unfold res_main_v624
  rw [iouS_4]
  exact sum_form_gate_apply _ _ _ _ dot_S16x256_S256x768_S16x768_1_0_0_1_n_n _ rfl _ _ _ _ (fun n j => Cert.LayerForms.row_then_down _ _ _ n j) n j

theorem cn_4 : res_main_v652 V0 = stepC (aX V0) (aWx V0) (abx V0) (aWfx V0) (abfx V0) (aWi V0) (abi V0) (aWf V0) (abf V0) 15 31 (by decide) slices_S131071x256_S32x256_31_0 shapeCasts_S32x256_S16x2x256 (res_main_v610 V0) (res_main_v612 V0) := by
  unfold res_main_v652 stepC
  rw [fxS_4]
  exact sum_form_cellC _ (res_main_v624 V0) _ _ _ _ _ _ _ (gate_4 V0)
    dot_S16x2x256_S256x256_S16x2x256_2_1_01_0_n_n _ rfl _ _ _ _ _ _ _ _ _ _

theorem hn_4 : mulf (Host.divf (broadcastInDim S16x256 ![] bcast_S_S16x256 (constant S_ .f32 0x3F800000#32)) (addf (broadcastInDim S16x256 ![] bcast_S_S16x256 (constant S_ .f32 0x3F800000#32)) (Host.exp (Host.negf (extractStridedSlice S16x256 ![0, 256] (res_main_v624 V0) slices_S16x768_S16x256_0_256))))) (Host.tanh (res_main_v652 V0))
    = stepH (aX V0) (aWx V0) (abx V0) (aWfx V0) (abfx V0) (aWi V0) (abi V0) (aWf V0) (abf V0) 15 31 (by decide) slices_S131071x256_S32x256_31_0 shapeCasts_S32x256_S16x2x256 (res_main_v610 V0) (res_main_v612 V0) := by
  unfold stepH
  exact sum_form_cellH _ (res_main_v624 V0) _ _ _ _ _ _ _ (gate_4 V0) _ (cn_4 V0) _ _

theorem Ca_4 : res_main_v662 V0 = Host.scatter scatter_S131071x256_S1_S16x256_01_n_0_0 (fun _ b => b) (res_main_v610 V0)
    (broadcastInDim S1 ![] bcast_S_S1 (constantI S_ 32 15#32)) (stepC (aX V0) (aWx V0) (abx V0) (aWfx V0) (abfx V0) (aWi V0) (abi V0) (aWf V0) (abf V0) 15 31 (by decide) slices_S131071x256_S32x256_31_0 shapeCasts_S32x256_S16x2x256 (res_main_v610 V0) (res_main_v612 V0)) := by
  unfold res_main_v662
  exact congrArg (Host.scatter _ _ _ _) (cn_4 V0)

theorem Ha_4 : res_main_v664 V0 = Host.scatter scatter_S131071x256_S1_S16x256_01_n_0_0 (fun _ b => b) (res_main_v612 V0)
    (broadcastInDim S1 ![] bcast_S_S1 (constantI S_ 32 15#32)) (stepH (aX V0) (aWx V0) (abx V0) (aWfx V0) (abfx V0) (aWi V0) (abi V0) (aWf V0) (abf V0) 15 31 (by decide) slices_S131071x256_S32x256_31_0 shapeCasts_S32x256_S16x2x256 (res_main_v610 V0) (res_main_v612 V0)) := by
  unfold res_main_v664
  exact congrArg (Host.scatter _ _ _ _) (hn_4 V0)

/-! ## Level 3: 8 nodes from row 7 -/

theorem iouS_3 : extractStridedSlice S8x768 ![7, 0] (res_main_v4 V0) slices_S131071x768_S8x768_7_0
    = projRows (N := 8) (aX V0) (aWx V0) (abx V0) 7 (by decide) :=
  rows_slice_eq_projRows _ _ _ _ 7 _ _ fun r j _ => iouX_apply V0 r j

theorem fxS_3 : extractStridedSlice S8x256 ![7, 0] (res_main_v9 V0) slices_S131071x256_S8x256_7_0
    = projRows (N := 8) (aX V0) (aWfx V0) (abfx V0) 7 (by decide) :=
  rows_slice_eq_projRows _ _ _ _ 7 _ _ fun r q _ => fX_apply V0 r q

theorem gate_3 (n : Fin 8) (j : Fin 768) :
    (res_main_v676 V0 : FVec Ideal S8x768 .f32) (ix2 n j)
      = gate (projRows (N := 8) (aX V0) (aWx V0) (abx V0) 7 (by decide)) (res_main_v667 V0) (aWi V0) (abi V0) n j := by
  unfold res_main_v676
  rw [iouS_3]
  exact sum_form_gate_apply _ _ _ _ dot_S8x256_S256x768_S8x768_1_0_0_1_n_n _ rfl _ _ _ _ (fun n j => Cert.LayerForms.row_then_down _ _ _ n j) n j

theorem cn_3 : res_main_v704 V0 = stepC (aX V0) (aWx V0) (abx V0) (aWfx V0) (abfx V0) (aWi V0) (abi V0) (aWf V0) (abf V0) 7 15 (by decide) slices_S131071x256_S16x256_15_0 shapeCasts_S16x256_S8x2x256 (res_main_v662 V0) (res_main_v664 V0) := by
  unfold res_main_v704 stepC
  rw [fxS_3]
  exact sum_form_cellC _ (res_main_v676 V0) _ _ _ _ _ _ _ (gate_3 V0)
    dot_S8x2x256_S256x256_S8x2x256_2_1_01_0_n_n _ rfl _ _ _ _ _ _ _ _ _ _

theorem hn_3 : mulf (Host.divf (broadcastInDim S8x256 ![] bcast_S_S8x256 (constant S_ .f32 0x3F800000#32)) (addf (broadcastInDim S8x256 ![] bcast_S_S8x256 (constant S_ .f32 0x3F800000#32)) (Host.exp (Host.negf (extractStridedSlice S8x256 ![0, 256] (res_main_v676 V0) slices_S8x768_S8x256_0_256))))) (Host.tanh (res_main_v704 V0))
    = stepH (aX V0) (aWx V0) (abx V0) (aWfx V0) (abfx V0) (aWi V0) (abi V0) (aWf V0) (abf V0) 7 15 (by decide) slices_S131071x256_S16x256_15_0 shapeCasts_S16x256_S8x2x256 (res_main_v662 V0) (res_main_v664 V0) := by
  unfold stepH
  exact sum_form_cellH _ (res_main_v676 V0) _ _ _ _ _ _ _ (gate_3 V0) _ (cn_3 V0) _ _

theorem Ca_3 : res_main_v714 V0 = Host.scatter scatter_S131071x256_S1_S8x256_01_n_0_0 (fun _ b => b) (res_main_v662 V0)
    (broadcastInDim S1 ![] bcast_S_S1 (constantI S_ 32 7#32)) (stepC (aX V0) (aWx V0) (abx V0) (aWfx V0) (abfx V0) (aWi V0) (abi V0) (aWf V0) (abf V0) 7 15 (by decide) slices_S131071x256_S16x256_15_0 shapeCasts_S16x256_S8x2x256 (res_main_v662 V0) (res_main_v664 V0)) := by
  unfold res_main_v714
  exact congrArg (Host.scatter _ _ _ _) (cn_3 V0)

theorem Ha_3 : res_main_v716 V0 = Host.scatter scatter_S131071x256_S1_S8x256_01_n_0_0 (fun _ b => b) (res_main_v664 V0)
    (broadcastInDim S1 ![] bcast_S_S1 (constantI S_ 32 7#32)) (stepH (aX V0) (aWx V0) (abx V0) (aWfx V0) (abfx V0) (aWi V0) (abi V0) (aWf V0) (abf V0) 7 15 (by decide) slices_S131071x256_S16x256_15_0 shapeCasts_S16x256_S8x2x256 (res_main_v662 V0) (res_main_v664 V0)) := by
  unfold res_main_v716
  exact congrArg (Host.scatter _ _ _ _) (hn_3 V0)

/-! ## Level 2: 4 nodes from row 3 -/

theorem iouS_2 : extractStridedSlice S4x768 ![3, 0] (res_main_v4 V0) slices_S131071x768_S4x768_3_0
    = projRows (N := 4) (aX V0) (aWx V0) (abx V0) 3 (by decide) :=
  rows_slice_eq_projRows _ _ _ _ 3 _ _ fun r j _ => iouX_apply V0 r j

theorem fxS_2 : extractStridedSlice S4x256 ![3, 0] (res_main_v9 V0) slices_S131071x256_S4x256_3_0
    = projRows (N := 4) (aX V0) (aWfx V0) (abfx V0) 3 (by decide) :=
  rows_slice_eq_projRows _ _ _ _ 3 _ _ fun r q _ => fX_apply V0 r q

theorem gate_2 (n : Fin 4) (j : Fin 768) :
    (res_main_v728 V0 : FVec Ideal S4x768 .f32) (ix2 n j)
      = gate (projRows (N := 4) (aX V0) (aWx V0) (abx V0) 3 (by decide)) (res_main_v719 V0) (aWi V0) (abi V0) n j := by
  unfold res_main_v728
  rw [iouS_2]
  exact sum_form_gate_apply _ _ _ _ dot_S4x256_S256x768_S4x768_1_0_0_1_n_n _ rfl _ _ _ _ (fun n j => Cert.LayerForms.row_then_down _ _ _ n j) n j

theorem cn_2 : res_main_v756 V0 = stepC (aX V0) (aWx V0) (abx V0) (aWfx V0) (abfx V0) (aWi V0) (abi V0) (aWf V0) (abf V0) 3 7 (by decide) slices_S131071x256_S8x256_7_0 shapeCasts_S8x256_S4x2x256 (res_main_v714 V0) (res_main_v716 V0) := by
  unfold res_main_v756 stepC
  rw [fxS_2]
  exact sum_form_cellC _ (res_main_v728 V0) _ _ _ _ _ _ _ (gate_2 V0)
    dot_S4x2x256_S256x256_S4x2x256_2_1_01_0_n_n _ rfl _ _ _ _ _ _ _ _ _ _

theorem hn_2 : mulf (Host.divf (broadcastInDim S4x256 ![] bcast_S_S4x256 (constant S_ .f32 0x3F800000#32)) (addf (broadcastInDim S4x256 ![] bcast_S_S4x256 (constant S_ .f32 0x3F800000#32)) (Host.exp (Host.negf (extractStridedSlice S4x256 ![0, 256] (res_main_v728 V0) slices_S4x768_S4x256_0_256))))) (Host.tanh (res_main_v756 V0))
    = stepH (aX V0) (aWx V0) (abx V0) (aWfx V0) (abfx V0) (aWi V0) (abi V0) (aWf V0) (abf V0) 3 7 (by decide) slices_S131071x256_S8x256_7_0 shapeCasts_S8x256_S4x2x256 (res_main_v714 V0) (res_main_v716 V0) := by
  unfold stepH
  exact sum_form_cellH _ (res_main_v728 V0) _ _ _ _ _ _ _ (gate_2 V0) _ (cn_2 V0) _ _

theorem Ca_2 : res_main_v766 V0 = Host.scatter scatter_S131071x256_S1_S4x256_01_n_0_0 (fun _ b => b) (res_main_v714 V0)
    (broadcastInDim S1 ![] bcast_S_S1 (constantI S_ 32 3#32)) (stepC (aX V0) (aWx V0) (abx V0) (aWfx V0) (abfx V0) (aWi V0) (abi V0) (aWf V0) (abf V0) 3 7 (by decide) slices_S131071x256_S8x256_7_0 shapeCasts_S8x256_S4x2x256 (res_main_v714 V0) (res_main_v716 V0)) := by
  unfold res_main_v766
  exact congrArg (Host.scatter _ _ _ _) (cn_2 V0)

theorem Ha_2 : res_main_v768 V0 = Host.scatter scatter_S131071x256_S1_S4x256_01_n_0_0 (fun _ b => b) (res_main_v716 V0)
    (broadcastInDim S1 ![] bcast_S_S1 (constantI S_ 32 3#32)) (stepH (aX V0) (aWx V0) (abx V0) (aWfx V0) (abfx V0) (aWi V0) (abi V0) (aWf V0) (abf V0) 3 7 (by decide) slices_S131071x256_S8x256_7_0 shapeCasts_S8x256_S4x2x256 (res_main_v714 V0) (res_main_v716 V0)) := by
  unfold res_main_v768
  exact congrArg (Host.scatter _ _ _ _) (hn_2 V0)

/-! ## Level 1: 2 nodes from row 1 -/

theorem iouS_1 : extractStridedSlice S2x768 ![1, 0] (res_main_v4 V0) slices_S131071x768_S2x768_1_0
    = projRows (N := 2) (aX V0) (aWx V0) (abx V0) 1 (by decide) :=
  rows_slice_eq_projRows _ _ _ _ 1 _ _ fun r j _ => iouX_apply V0 r j

theorem fxS_1 : extractStridedSlice S2x256 ![1, 0] (res_main_v9 V0) slices_S131071x256_S2x256_1_0
    = projRows (N := 2) (aX V0) (aWfx V0) (abfx V0) 1 (by decide) :=
  rows_slice_eq_projRows _ _ _ _ 1 _ _ fun r q _ => fX_apply V0 r q

theorem gate_1 (n : Fin 2) (j : Fin 768) :
    (res_main_v780 V0 : FVec Ideal S2x768 .f32) (ix2 n j)
      = gate (projRows (N := 2) (aX V0) (aWx V0) (abx V0) 1 (by decide)) (res_main_v771 V0) (aWi V0) (abi V0) n j := by
  unfold res_main_v780
  rw [iouS_1]
  exact sum_form_gate_apply _ _ _ _ dot_S2x256_S256x768_S2x768_1_0_0_1_n_n _ rfl _ _ _ _ (fun n j => Cert.LayerForms.row_then_down _ _ _ n j) n j

theorem cn_1 : res_main_v808 V0 = stepC (aX V0) (aWx V0) (abx V0) (aWfx V0) (abfx V0) (aWi V0) (abi V0) (aWf V0) (abf V0) 1 3 (by decide) slices_S131071x256_S4x256_3_0 shapeCasts_S4x256_S2x2x256 (res_main_v766 V0) (res_main_v768 V0) := by
  unfold res_main_v808 stepC
  rw [fxS_1]
  exact sum_form_cellC _ (res_main_v780 V0) _ _ _ _ _ _ _ (gate_1 V0)
    dot_S2x2x256_S256x256_S2x2x256_2_1_01_0_n_n _ rfl _ _ _ _ _ _ _ _ _ _

theorem hn_1 : mulf (Host.divf (broadcastInDim S2x256 ![] bcast_S_S2x256 (constant S_ .f32 0x3F800000#32)) (addf (broadcastInDim S2x256 ![] bcast_S_S2x256 (constant S_ .f32 0x3F800000#32)) (Host.exp (Host.negf (extractStridedSlice S2x256 ![0, 256] (res_main_v780 V0) slices_S2x768_S2x256_0_256))))) (Host.tanh (res_main_v808 V0))
    = stepH (aX V0) (aWx V0) (abx V0) (aWfx V0) (abfx V0) (aWi V0) (abi V0) (aWf V0) (abf V0) 1 3 (by decide) slices_S131071x256_S4x256_3_0 shapeCasts_S4x256_S2x2x256 (res_main_v766 V0) (res_main_v768 V0) := by
  unfold stepH
  exact sum_form_cellH _ (res_main_v780 V0) _ _ _ _ _ _ _ (gate_1 V0) _ (cn_1 V0) _ _

theorem Ca_1 : res_main_v818 V0 = Host.scatter scatter_S131071x256_S1_S2x256_01_n_0_0 (fun _ b => b) (res_main_v766 V0)
    (broadcastInDim S1 ![] bcast_S_S1 (constantI S_ 32 1#32)) (stepC (aX V0) (aWx V0) (abx V0) (aWfx V0) (abfx V0) (aWi V0) (abi V0) (aWf V0) (abf V0) 1 3 (by decide) slices_S131071x256_S4x256_3_0 shapeCasts_S4x256_S2x2x256 (res_main_v766 V0) (res_main_v768 V0)) := by
  unfold res_main_v818
  exact congrArg (Host.scatter _ _ _ _) (cn_1 V0)

theorem Ha_1 : res_main_v820 V0 = Host.scatter scatter_S131071x256_S1_S2x256_01_n_0_0 (fun _ b => b) (res_main_v768 V0)
    (broadcastInDim S1 ![] bcast_S_S1 (constantI S_ 32 1#32)) (stepH (aX V0) (aWx V0) (abx V0) (aWfx V0) (abfx V0) (aWi V0) (abi V0) (aWf V0) (abf V0) 1 3 (by decide) slices_S131071x256_S4x256_3_0 shapeCasts_S4x256_S2x2x256 (res_main_v766 V0) (res_main_v768 V0)) := by
  unfold res_main_v820
  exact congrArg (Host.scatter _ _ _ _) (hn_1 V0)

/-! ## Level 0: 1 node from row 0 -/

theorem iouS_0 : extractStridedSlice S1x768 ![0, 0] (res_main_v4 V0) slices_S131071x768_S1x768_0_0
    = projRows (N := 1) (aX V0) (aWx V0) (abx V0) 0 (by decide) :=
  rows_slice_eq_projRows _ _ _ _ 0 _ _ fun r j _ => iouX_apply V0 r j

theorem fxS_0 : extractStridedSlice S1x256 ![0, 0] (res_main_v9 V0) slices_S131071x256_S1x256_0_0
    = projRows (N := 1) (aX V0) (aWfx V0) (abfx V0) 0 (by decide) :=
  rows_slice_eq_projRows _ _ _ _ 0 _ _ fun r q _ => fX_apply V0 r q

theorem gate_0 (n : Fin 1) (j : Fin 768) :
    (res_main_v831 V0 : FVec Ideal S1x768 .f32) (ix2 n j)
      = gate (projRows (N := 1) (aX V0) (aWx V0) (abx V0) 0 (by decide)) (res_main_v823 V0) (aWi V0) (abi V0) n j := by
  unfold res_main_v831
  rw [iouS_0]
  exact sum_form_gate_apply _ _ _ _ dot_S1x256_S256x768_S1x768_1_0_0_1_n_n _ rfl _ _ _ _ (fun n j => one_row_bias_apply _ _ n j) n j

theorem cn_0 : res_main_v859 V0 = stepC (aX V0) (aWx V0) (abx V0) (aWfx V0) (abfx V0) (aWi V0) (abi V0) (aWf V0) (abf V0) 0 1 (by decide) slices_S131071x256_S2x256_1_0 shapeCasts_S2x256_S1x2x256 (res_main_v818 V0) (res_main_v820 V0) := by
  unfold res_main_v859 stepC
  rw [fxS_0]
  exact sum_form_cellC _ (res_main_v831 V0) _ _ _ _ _ _ _ (gate_0 V0)
    dot_S1x2x256_S256x256_S1x2x256_2_1_01_0_n_n _ rfl _ _ _ _ _ _ _ _ _ _

theorem hn_0 : mulf (Host.divf (broadcastInDim S1x256 ![] bcast_S_S1x256 (constant S_ .f32 0x3F800000#32)) (addf (broadcastInDim S1x256 ![] bcast_S_S1x256 (constant S_ .f32 0x3F800000#32)) (Host.exp (Host.negf (extractStridedSlice S1x256 ![0, 256] (res_main_v831 V0) slices_S1x768_S1x256_0_256))))) (Host.tanh (res_main_v859 V0))
    = stepH (aX V0) (aWx V0) (abx V0) (aWfx V0) (abfx V0) (aWi V0) (abi V0) (aWf V0) (abf V0) 0 1 (by decide) slices_S131071x256_S2x256_1_0 shapeCasts_S2x256_S1x2x256 (res_main_v818 V0) (res_main_v820 V0) := by
  unfold stepH
  exact sum_form_cellH _ (res_main_v831 V0) _ _ _ _ _ _ _ (gate_0 V0) _ (cn_0 V0) _ _

/-! ## The leaves, and every level as the specification's state arrays -/

/-- The arguments as one record. -/
abbrev argsOf : Cert.TreeSpec.Args :=
  ⟨aX V0, aWx V0, abx V0, aWi V0, abi V0, aWfx V0, abfx V0, aWf V0, abf V0⟩

theorem leaf_gate (n : Fin 65536) (j : Fin 768) :
    (res_main_v15 V0 : FVec Ideal S65536x768 .f32) (ix2 n j) = Cert.TreeSpec.leafGate (argsOf V0) n j := by
  unfold res_main_v15
  rw [addf_apply, Cert.LayerForms.row_then_down _ _ _ n j,
    rows_slice_apply (res_main_v4 V0) slices_S131071x768_S65536x768_65535_0 n j
      (⟨65535 + n.val, by have := n.isLt; omega⟩ : Fin 131071) rfl, iouX_apply]
  rfl

theorem leaf_c : res_main_v28 V0 = leafC (Cert.TreeSpec.leafGate (argsOf V0)) := by
  unfold res_main_v28
  exact host_leafC _ _ (leaf_gate V0) _ _ _

theorem refC16 : res_main_v38 V0 = Cert.TreeSpec.stateC16 (argsOf V0) := by
  unfold res_main_v38
  rw [leaf_c]
  rfl

theorem refH16 : res_main_v40 V0 = Cert.TreeSpec.stateH16 (argsOf V0) := by
  unfold res_main_v40
  rw [host_leafH _ _ (leaf_gate V0) _ (leaf_c V0) _ _]
  rfl

theorem refC15 : res_main_v90 V0 = Cert.TreeSpec.stateC15 (argsOf V0) := by
  rw [Ca_15, refC16, refH16]
  rfl
theorem refH15 : res_main_v92 V0 = Cert.TreeSpec.stateH15 (argsOf V0) := by
  rw [Ha_15, refC16, refH16]
  rfl

theorem refC14 : res_main_v142 V0 = Cert.TreeSpec.stateC14 (argsOf V0) := by
  rw [Ca_14, refC15, refH15]
  rfl
theorem refH14 : res_main_v144 V0 = Cert.TreeSpec.stateH14 (argsOf V0) := by
  rw [Ha_14, refC15, refH15]
  rfl

theorem refC13 : res_main_v194 V0 = Cert.TreeSpec.stateC13 (argsOf V0) := by
  rw [Ca_13, refC14, refH14]
  rfl
theorem refH13 : res_main_v196 V0 = Cert.TreeSpec.stateH13 (argsOf V0) := by
  rw [Ha_13, refC14, refH14]
  rfl

theorem refC12 : res_main_v246 V0 = Cert.TreeSpec.stateC12 (argsOf V0) := by
  rw [Ca_12, refC13, refH13]
  rfl
theorem refH12 : res_main_v248 V0 = Cert.TreeSpec.stateH12 (argsOf V0) := by
  rw [Ha_12, refC13, refH13]
  rfl

theorem refC11 : res_main_v298 V0 = Cert.TreeSpec.stateC11 (argsOf V0) := by
  rw [Ca_11, refC12, refH12]
  rfl
theorem refH11 : res_main_v300 V0 = Cert.TreeSpec.stateH11 (argsOf V0) := by
  rw [Ha_11, refC12, refH12]
  rfl

theorem refC10 : res_main_v350 V0 = Cert.TreeSpec.stateC10 (argsOf V0) := by
  rw [Ca_10, refC11, refH11]
  rfl
theorem refH10 : res_main_v352 V0 = Cert.TreeSpec.stateH10 (argsOf V0) := by
  rw [Ha_10, refC11, refH11]
  rfl

theorem refC9 : res_main_v402 V0 = Cert.TreeSpec.stateC9 (argsOf V0) := by
  rw [Ca_9, refC10, refH10]
  rfl
theorem refH9 : res_main_v404 V0 = Cert.TreeSpec.stateH9 (argsOf V0) := by
  rw [Ha_9, refC10, refH10]
  rfl

theorem refC8 : res_main_v454 V0 = Cert.TreeSpec.stateC8 (argsOf V0) := by
  rw [Ca_8, refC9, refH9]
  rfl
theorem refH8 : res_main_v456 V0 = Cert.TreeSpec.stateH8 (argsOf V0) := by
  rw [Ha_8, refC9, refH9]
  rfl

theorem refC7 : res_main_v506 V0 = Cert.TreeSpec.stateC7 (argsOf V0) := by
  rw [Ca_7, refC8, refH8]
  rfl
theorem refH7 : res_main_v508 V0 = Cert.TreeSpec.stateH7 (argsOf V0) := by
  rw [Ha_7, refC8, refH8]
  rfl

theorem refC6 : res_main_v558 V0 = Cert.TreeSpec.stateC6 (argsOf V0) := by
  rw [Ca_6, refC7, refH7]
  rfl
theorem refH6 : res_main_v560 V0 = Cert.TreeSpec.stateH6 (argsOf V0) := by
  rw [Ha_6, refC7, refH7]
  rfl

theorem refC5 : res_main_v610 V0 = Cert.TreeSpec.stateC5 (argsOf V0) := by
  rw [Ca_5, refC6, refH6]
  rfl
theorem refH5 : res_main_v612 V0 = Cert.TreeSpec.stateH5 (argsOf V0) := by
  rw [Ha_5, refC6, refH6]
  rfl

theorem refC4 : res_main_v662 V0 = Cert.TreeSpec.stateC4 (argsOf V0) := by
  rw [Ca_4, refC5, refH5]
  rfl
theorem refH4 : res_main_v664 V0 = Cert.TreeSpec.stateH4 (argsOf V0) := by
  rw [Ha_4, refC5, refH5]
  rfl

theorem refC3 : res_main_v714 V0 = Cert.TreeSpec.stateC3 (argsOf V0) := by
  rw [Ca_3, refC4, refH4]
  rfl
theorem refH3 : res_main_v716 V0 = Cert.TreeSpec.stateH3 (argsOf V0) := by
  rw [Ha_3, refC4, refH4]
  rfl

theorem refC2 : res_main_v766 V0 = Cert.TreeSpec.stateC2 (argsOf V0) := by
  rw [Ca_2, refC3, refH3]
  rfl
theorem refH2 : res_main_v768 V0 = Cert.TreeSpec.stateH2 (argsOf V0) := by
  rw [Ha_2, refC3, refH3]
  rfl

theorem refC1 : res_main_v818 V0 = Cert.TreeSpec.stateC1 (argsOf V0) := by
  rw [Ca_1, refC2, refH2]
  rfl
theorem refH1 : res_main_v820 V0 = Cert.TreeSpec.stateH1 (argsOf V0) := by
  rw [Ha_1, refC2, refH2]
  rfl

/-- The reference's two results are the root's rows of the specification. -/
theorem result_C :
    extractStridedSlice S1x256 ![0, 0] (Host.scatter scatter_S131071x256_S1_S1x256_01_n_0_0 (fun _ b => b) (res_main_v818 V0) (broadcastInDim S1 ![] bcast_S_S1 (constantI S_ 32 0#32)) (res_main_v859 V0)) slices_S131071x256_S1x256_0_0
      = Cert.TreeSpec.rootC (argsOf V0) := by
  rw [cn_0, refC1, refH1]
  rfl

theorem result_H :
    extractStridedSlice S1x256 ![0, 0] (Host.scatter scatter_S131071x256_S1_S1x256_01_n_0_0 (fun _ b => b) (res_main_v820 V0) (broadcastInDim S1 ![] bcast_S_S1 (constantI S_ 32 0#32)) (mulf (Host.divf (broadcastInDim S1x256 ![] bcast_S_S1x256 (constant S_ .f32 0x3F800000#32)) (addf (broadcastInDim S1x256 ![] bcast_S_S1x256 (constant S_ .f32 0x3F800000#32)) (Host.exp (Host.negf (extractStridedSlice S1x256 ![0, 256] (res_main_v831 V0) slices_S1x768_S1x256_0_256))))) (Host.tanh (res_main_v859 V0)))) slices_S131071x256_S1x256_0_0
      = Cert.TreeSpec.rootH (argsOf V0) := by
  rw [hn_0, refC1, refH1]
  rfl

end Cert.ReferenceIdeal.Tree

end
-- ==== Proof.lean ====
/-
  A child-sum tree LSTM over a complete binary tree of 131071 nodes, computed level by level from the leaves up, by a
  program of eight device regions and ten host-computed levels, against a reference that computes every level on the
  host. Both are read, at the exact instance, as the same seventeen pairs of state arrays (TreeSpec): the reference
  operation by operation over its generated run (RefLevels), the kernel boundary by boundary (KernelChain) over its
  run with every buffer named (KernelRun), its regions' outputs by blocks of 1024 rows (KernelRegions, DevicePay) and
  its host operations by stretches (KernelHost). The one law of the extended reals used is the associativity of
  addition, at the leaves, where the kernel adds the two bias vectors first; no finiteness of the inputs is needed.
-/
import proofs.«176519_j24352464569160_2_alg».proof.Defs
import proofs.«176519_j24352464569160_2_alg».proof.Proof.Gen.Kernel
import proofs.«176519_j24352464569160_2_alg».proof.Proof.Gen.Kernel.Skeleton
import proofs.«176519_j24352464569160_2_alg».proof.Proof.Gen.Kernel.Launch
import proofs.«176519_j24352464569160_2_alg».proof.Proof.Gen.Kernel.Points
import proofs.«176519_j24352464569160_2_alg».proof.Proof.Gen.Kernel.Frame
import proofs.«176519_j24352464569160_2_alg».proof.Proof.Gen.KernelIdeal
import proofs.«176519_j24352464569160_2_alg».proof.Proof.Gen.KernelIdeal.Skeleton
import proofs.«176519_j24352464569160_2_alg».proof.Proof.Gen.KernelIdeal.Launch
import proofs.«176519_j24352464569160_2_alg».proof.Proof.Gen.KernelIdeal.Points
import proofs.«176519_j24352464569160_2_alg».proof.Proof.Gen.KernelIdeal.Frame
import proofs.«176519_j24352464569160_2_alg».proof.Proof.Gen.ReferenceIdeal
import proofs.«176519_j24352464569160_2_alg».proof.Proof.Gen.Pre_finite_inputs
import proofs.«176519_j24352464569160_2_alg».proof.Proof.Gen.ReferenceIdeal.Run
import proofs.«176519_j24352464569160_2_alg».proof.Proof.KernelRun
import proofs.«176519_j24352464569160_2_alg».proof.Proof.KernelChain
import proofs.«176519_j24352464569160_2_alg».proof.Proof.RefLevels
import Idealize.ShloMosaic.Adequacy
import Idealize.ShloMosaic.Init

noncomputable section

namespace Cert.Proof

open Idealize.ShloMosaic Idealize.SL.Sem Idealize.ShloMosaic.TcCoe

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Two argument records with the same nine arrays are the same record. -/
theorem args_ext {a b : Cert.TreeSpec.Args} (h0 : a.X = b.X) (h1 : a.Wx = b.Wx) (h2 : a.bx = b.bx) (h3 : a.Wi = b.Wi)
    (h4 : a.bi = b.bi) (h5 : a.Wfx = b.Wfx) (h6 : a.bfx = b.bfx) (h7 : a.Wf = b.Wf) (h8 : a.bf = b.bf) : a = b := by
  cases a
  cases b
  dsimp only at h0 h1 h2 h3 h4 h5 h6 h7 h8
  subst h0 h1 h2 h3 h4 h5 h6 h7 h8
  rfl

/-- Memories that agree on the arguments give the same argument record. -/
theorem args_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Tree.argsOf (StableHlo.launchContents m' c) = Cert.KernelIdeal.TreeChain.argsK m c := by
  obtain ⟨h0, h1, h2, h3, h4, h5, h6, h7, h8⟩ := h
  exact args_ext h0 h1 h2 h3 h4 h5 h6 h7 h8

/-- At the exact instance both programs end with the root's cell and hidden state of the specification. -/
theorem algebraic : Cert.algebraic_KernelIdeal_ReferenceIdeal := by
  intro m ρ m' ρ' _ hagree
  refine ⟨fun c => Cert.TreeSpec.rootC (Cert.KernelIdeal.TreeChain.argsK m c),
    fun c => Cert.TreeSpec.rootH (Cert.KernelIdeal.TreeChain.argsK m c), ?_, ?_⟩
  · exact (θ_run Cert.KernelIdeal.defs _ _).mono
      (fun r h c => ⟨(h c).1.trans (Cert.KernelIdeal.TreeChain.result_C m ρ c),
        (h c).2.1.trans (Cert.KernelIdeal.TreeChain.result_H m ρ c), (h c).2.2⟩)
      (Cert.KernelIdeal.TreeRun.run_results m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Tree.result_C, args_agree m m' c (hagree c)]
    · rw [Cert.ReferenceIdeal.Tree.result_H, args_agree m m' c (hagree c)]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
